-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S256x64 : Shape := ⟨2, ![256, 64]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S128x1 .f32) (main_arg21 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S128x1 .f32 := Host.absf main_arg20
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg16 : FVec F S64x128 .f32) (main_arg17 : FVec F S128 .f32) (main_arg18 : FVec F S128x64 .f32) (main_arg19 : FVec F S64 .f32) (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S64x128 .f32 := Host.absf main_arg16
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg18
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S64 .f32) (main_arg14 : FVec F S64 .f32) (main_arg15 : FVec F S64 .f32) (main_arg16 : FVec F S64x128 .f32) (main_arg17 : FVec F S128 .f32) (main_arg18 : FVec F S128x64 .f32) (main_arg19 : FVec F S64 .f32) (main_arg20 : FVec F S128x1 .f32) (main_arg21 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_v63 main_v67

def fn_part2 {F : FTy → Type} [FloatOps F] (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_arg16 : FVec F S64x128 .f32) (main_arg17 : FVec F S128 .f32) (main_arg18 : FVec F S128x64 .f32) (main_arg19 : FVec F S64 .f32) (main_arg20 : FVec F S128x1 .f32) (main_arg21 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_arg16 : FVec F S64x128 .f32) (main_arg17 : FVec F S128 .f32) (main_arg18 : FVec F S128x64 .f32) (main_arg19 : FVec F S64 .f32) (main_arg20 : FVec F S128x1 .f32) (main_arg21 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S2x800000 32) (main_arg2 : IVec S50000 32) (main_arg3 : FVec F S256x64 .f32) (main_arg4 : FVec F S128x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_arg16 : FVec F S64x128 .f32) (main_arg17 : FVec F S128 .f32) (main_arg18 : FVec F S128x64 .f32) (main_arg19 : FVec F S64 .f32) (main_arg20 : FVec F S128x1 .f32) (main_arg21 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S256x64 : Shape := ⟨2, ![256, 64]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S50000x1 : Shape := ⟨2, ![50000, 1]⟩
abbrev S1x64 : Shape := ⟨2, ![1, 64]⟩
abbrev S256 : Shape := ⟨1, ![256]⟩
abbrev S256x1 : Shape := ⟨2, ![256, 1]⟩
abbrev S1x128 : Shape := ⟨2, ![1, 128]⟩
abbrev S1x1 : Shape := ⟨2, ![1, 1]⟩
abbrev S256x128 : Shape := ⟨2, ![256, 128]⟩

abbrev nBuf : Space → Nat
  | .hbm => 198
  | .vmem => 74
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S256x64, .f32⟩
  | 4 => ⟨S128x64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64x64, .f32⟩
  | 13 => ⟨S64, .f32⟩
  | 14 => ⟨S64, .f32⟩
  | 15 => ⟨S64, .f32⟩
  | 16 => ⟨S64x128, .f32⟩
  | 17 => ⟨S128, .f32⟩
  | 18 => ⟨S128x64, .f32⟩
  | 19 => ⟨S64, .f32⟩
  | 20 => ⟨S128x1, .f32⟩
  | 21 => ⟨S1, .f32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S50000x64, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S800000x1, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S800000x64, .f32⟩
  | 67 => ⟨S800000x64, .f32⟩
  | 68 => ⟨S_, .f32⟩
  | 69 => ⟨S50000x64, .f32⟩
  | 70 => ⟨S800000x1, .i32⟩
  | 71 => ⟨S50000x64, .f32⟩
  | 72 => ⟨S50000, .f32⟩
  | 73 => ⟨S50000x1, .f32⟩
  | 74 => ⟨S50000x64, .f32⟩
  | 75 => ⟨S50000x64, .f32⟩
  | 76 => ⟨S50000x64, .f32⟩
  | 77 => ⟨S1x64, .f32⟩
  | 78 => ⟨S1x64, .f32⟩
  | 79 => ⟨S1x64, .f32⟩
  | 80 => ⟨S1x64, .f32⟩
  | 81 => ⟨S1x64, .f32⟩
  | 82 => ⟨S50000x64, .f32⟩
  | 83 => ⟨S50000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x64, .f32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S50000, .f32⟩
  | 120 => ⟨S50000x1, .f32⟩
  | 121 => ⟨S50000x64, .f32⟩
  | 122 => ⟨S50000x64, .f32⟩
  | 123 => ⟨S50000x64, .f32⟩
  | 124 => ⟨S1x64, .f32⟩
  | 125 => ⟨S1x64, .f32⟩
  | 126 => ⟨S1x64, .f32⟩
  | 127 => ⟨S1x64, .f32⟩
  | _ => ⟨S50000x128, .f32⟩

abbrev hbmTy0_1 (i : Nat) : BufTy := match i % 128 with
  | 0 => ⟨S1x64, .f32⟩
  | 1 => ⟨S50000x64, .f32⟩
  | 2 => ⟨S50000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S800000, .f32⟩
  | 22 => ⟨S800000x1, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S800000x64, .f32⟩
  | 33 => ⟨S800000x64, .f32⟩
  | 34 => ⟨S_, .f32⟩
  | 35 => ⟨S50000x64, .f32⟩
  | 36 => ⟨S800000x1, .i32⟩
  | 37 => ⟨S50000x64, .f32⟩
  | 38 => ⟨S50000, .f32⟩
  | 39 => ⟨S50000x1, .f32⟩
  | 40 => ⟨S50000x64, .f32⟩
  | 41 => ⟨S50000x64, .f32⟩
  | 42 => ⟨S50000x64, .f32⟩
  | 43 => ⟨S1x64, .f32⟩
  | 44 => ⟨S1x64, .f32⟩
  | 45 => ⟨S1x64, .f32⟩
  | 46 => ⟨S1x64, .f32⟩
  | 47 => ⟨S1x64, .f32⟩
  | 48 => ⟨S50000x64, .f32⟩
  | 49 => ⟨S_, .f32⟩
  | 50 => ⟨S256x64, .f32⟩
  | 51 => ⟨S50000x1, .i32⟩
  | 52 => ⟨S256x64, .f32⟩
  | 53 => ⟨S_, .f32⟩
  | 54 => ⟨S50000, .f32⟩
  | 55 => ⟨S_, .f32⟩
  | 56 => ⟨S256, .f32⟩
  | 57 => ⟨S50000x1, .i32⟩
  | 58 => ⟨S256, .f32⟩
  | 59 => ⟨S_, .f32⟩
  | 60 => ⟨S256, .f32⟩
  | 61 => ⟨S256, .f32⟩
  | 62 => ⟨S256x1, .f32⟩
  | 63 => ⟨S256x64, .f32⟩
  | 64 => ⟨S256x64, .f32⟩
  | 65 => ⟨S1x128, .f32⟩
  | 66 => ⟨S1x64, .f32⟩
  | 67 => ⟨S1x1, .f32⟩
  | 68 => ⟨S256x1, .f32⟩
  | 69 => ⟨S256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S64x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S5000x64, .f32⟩
  | .local _ .vmem, ⟨57, _⟩ => ⟨S5000x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S5000x64, .f32⟩
  | .local _ .vmem, ⟨64, _⟩ => ⟨S5000x64, .f32⟩
  | .local _ .vmem, ⟨65, _⟩ => ⟨S256x64, .f32⟩
  | .local _ .vmem, ⟨66, _⟩ => ⟨S64x128, .f32⟩
  | .local _ .vmem, ⟨67, _⟩ => ⟨S1x128, .f32⟩
  | .local _ .vmem, ⟨68, _⟩ => ⟨S128x64, .f32⟩
  | .local _ .vmem, ⟨69, _⟩ => ⟨S1x64, .f32⟩
  | .local _ .vmem, ⟨70, _⟩ => ⟨S256x64, .f32⟩
  | .local _ .vmem, ⟨71, _⟩ => ⟨S128x1, .f32⟩
  | .local _ .vmem, ⟨72, _⟩ => ⟨S1x1, .f32⟩
  | .local _ .vmem, ⟨73, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48_0 : Ref sig .tc := ⟨.hbm, 80, rfl⟩
abbrev main_v48_1 : Ref sig .tc := ⟨.hbm, 81, rfl⟩
abbrev main_v49 : Ref sig .tc := ⟨.hbm, 82, rfl⟩
abbrev main_v50 : Ref sig .tc := ⟨.hbm, 83, rfl⟩
abbrev main_c_8 : Ref sig .tc := ⟨.hbm, 84, rfl⟩
abbrev main_v51 : Ref sig .tc := ⟨.hbm, 85, rfl⟩
abbrev main_v52 : Ref sig .tc := ⟨.hbm, 86, rfl⟩
abbrev main_c_9 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_10 : Ref sig .tc := ⟨.hbm, 93, rfl⟩
abbrev main_v58 : Ref sig .tc := ⟨.hbm, 94, rfl⟩
abbrev main_v59 : Ref sig .tc := ⟨.hbm, 95, rfl⟩
abbrev main_c_11 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_12 : Ref sig .tc := ⟨.hbm, 104, rfl⟩
abbrev main_v67 : Ref sig .tc := ⟨.hbm, 105, rfl⟩
abbrev main_v68 : Ref sig .tc := ⟨.hbm, 106, rfl⟩
abbrev main_c_13 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_14 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87_0 : Ref sig .tc := ⟨.hbm, 127, rfl⟩
abbrev main_v87_1 : Ref sig .tc := ⟨.hbm, 128, rfl⟩
abbrev main_v88 : Ref sig .tc := ⟨.hbm, 129, rfl⟩
abbrev main_v89 : Ref sig .tc := ⟨.hbm, 130, rfl⟩
abbrev main_c_15 : Ref sig .tc := ⟨.hbm, 131, rfl⟩
abbrev main_v90 : Ref sig .tc := ⟨.hbm, 132, rfl⟩
abbrev main_v91 : Ref sig .tc := ⟨.hbm, 133, rfl⟩
abbrev main_c_16 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c_17 : Ref sig .tc := ⟨.hbm, 140, rfl⟩
abbrev main_v97 : Ref sig .tc := ⟨.hbm, 141, rfl⟩
abbrev main_v98 : Ref sig .tc := ⟨.hbm, 142, rfl⟩
abbrev main_c_18 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_19 : Ref sig .tc := ⟨.hbm, 151, rfl⟩
abbrev main_v106 : Ref sig .tc := ⟨.hbm, 152, rfl⟩
abbrev main_v107 : Ref sig .tc := ⟨.hbm, 153, rfl⟩
abbrev main_c_20 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_21 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126_0 : Ref sig .tc := ⟨.hbm, 174, rfl⟩
abbrev main_v126_1 : Ref sig .tc := ⟨.hbm, 175, rfl⟩
abbrev main_v127 : Ref sig .tc := ⟨.hbm, 176, rfl⟩
abbrev main_cst_22 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_23 : Ref sig .tc := ⟨.hbm, 181, rfl⟩
abbrev main_v131 : Ref sig .tc := ⟨.hbm, 182, rfl⟩
abbrev main_cst_24 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_25 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_scratch0 : Ref sig .tc := ⟨.vmem, 31, rfl⟩
abbrev cc4_scratch1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc5_stg7_0 : Ref sig .tc := ⟨.vmem, 42, rfl⟩
abbrev cc5_stg7_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg3_0 : Ref sig .tc := ⟨.vmem, 53, rfl⟩
abbrev cc7_scratch0 : Ref sig .tc := ⟨.vmem, 54, rfl⟩
abbrev cc7_scratch1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg4_0 : Ref sig .tc := ⟨.vmem, 61, rfl⟩
abbrev cc8_stg5_0 : Ref sig .tc := ⟨.vmem, 62, rfl⟩
abbrev cc8_stg6_0 : Ref sig .tc := ⟨.vmem, 63, rfl⟩
abbrev cc8_stg6_1 : Ref sig .tc := ⟨.vmem, 64, rfl⟩
abbrev cc9_stg0_0 : Ref sig .tc := ⟨.vmem, 65, rfl⟩
abbrev cc9_stg1_0 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg4_0 : Ref sig .tc := ⟨.vmem, 69, rfl⟩
abbrev cc9_stg5_0 : Ref sig .tc := ⟨.vmem, 70, rfl⟩
abbrev cc9_stg6_0 : Ref sig .tc := ⟨.vmem, 71, rfl⟩
abbrev cc9_stg7_0 : Ref sig .tc := ⟨.vmem, 72, rfl⟩
abbrev cc9_stg8_0 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc5_sem7_0 : DmaSem sig := 38
abbrev cc5_sem7_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem3_0 : DmaSem sig := 49
abbrev cc8_sem0_0 : DmaSem sig := 50
abbrev cc8_sem0_1 : DmaSem sig := 51
abbrev cc8_sem1_0 : DmaSem sig := 52
abbrev cc8_sem2_0 : DmaSem sig := 53
abbrev cc8_sem3_0 : DmaSem sig := 54
abbrev cc8_sem4_0 : DmaSem sig := 55
abbrev cc8_sem5_0 : DmaSem sig := 56
abbrev cc8_sem6_0 : DmaSem sig := 57
abbrev cc8_sem6_1 : DmaSem sig := 58
abbrev cc9_sem0_0 : DmaSem sig := 59
abbrev cc9_sem1_0 : DmaSem sig := 60
abbrev cc9_sem2_0 : DmaSem sig := 61
abbrev cc9_sem3_0 : DmaSem sig := 62
abbrev cc9_sem4_0 : DmaSem sig := 63
abbrev cc9_sem5_0 : DmaSem sig := 64
abbrev cc9_sem6_0 : DmaSem sig := 65
abbrev cc9_sem7_0 : DmaSem sig := 66
abbrev cc9_sem8_0 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S256x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S64x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S128x1 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x1 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S256x1 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S1x64_S5000x64 : S1x64.Broadcasts S5000x64
  reduces_S5000x64_S64 : S5000x64.Reduces [0] S64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S128_S1x128 : S128.ShapeCasts S1x128
  shapeCasts_S1_S1x1 : S1.ShapeCasts S1x1
  inb_S256x64_S256x64_0_0 : ∀ a, (![0, 0] : Fin 2 → Nat) a + S256x64.size a ≤ S256x64.size a
  h_S256x64 : 0 < S256x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  broadcasts_S1x64_S256x64 : S1x64.Broadcasts S256x64
  shapeCasts_S256x64_S256x64 : S256x64.ShapeCasts S256x64
  concatenates_S256x64_S256x64_S256x128_d1 : Shape.Concatenates [S256x64, S256x64] S256x128 1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  shapeCasts_S256x1_S256 : S256x1.ShapeCasts S256
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x128_S256x128_1_0_0_1_n_n_wf : DotDims.WF S256x64 S64x128 S256x128 [1] [0] [0] [1] [] []
  dot_S256x128_S128x64_S256x64_1_0_0_1_n_n_wf : DotDims.WF S256x128 S128x64 S256x64 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S50000x64.size a
  hwx5_6 : ∀ i : grid5.Coords, EltTy.bits .f32 = 32 ∨ (Rect.block (s := S50000x64) S5000x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S50000x64.size a
  hwx5_7 : ∀ i : grid5.Coords, EltTy.bits .f32 = 32 ∨ (Rect.block (s := S50000x64) S5000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x64.size a ≤ S50000x64.size a
  hwx8_6 : ∀ i : grid8.Coords, EltTy.bits .f32 = 32 ∨ (Rect.block (s := S50000x64) S5000x64.size (cc8_transform_6 i) (hinb8_6 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S256x64.size a ≤ S256x64.size a
  hwx9_0 : ∀ i : grid9.Coords, EltTy.bits .f32 = 32 ∨ (Rect.block (s := S256x64) S256x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x128.size a ≤ S64x128.size a
  hwx9_1 : ∀ i : grid9.Coords, EltTy.bits .f32 = 32 ∨ (Rect.block (s := S64x128) S64x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x64.size a ≤ S128x64.size a
  hwx9_3 : ∀ i : grid9.Coords, EltTy.bits .f32 = 32 ∨ (Rect.block (s := S128x64) S128x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x64.size a ≤ S256x64.size a
  hwx9_5 : ∀ i : grid9.Coords, EltTy.bits .f32 = 32 ∨ (Rect.block (s := S256x64) S256x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S128x1.size a ≤ S128x1.size a
  hwx9_6 : ∀ i : grid9.Coords, EltTy.bits .f32 = 32 ∨ (Rect.block (s := S128x1) S128x1.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x1.size a ≤ S1x1.size a
  hwx9_7 : ∀ i : grid9.Coords, EltTy.bits .f32 = 32 ∨ (Rect.block (s := S1x1) S1x1.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S256x1.size a ≤ S256x1.size a
  hwx9_8 : ∀ i : grid9.Coords, EltTy.bits .f32 = 32 ∨ (Rect.block (s := S256x1) S256x1.size (cc9_transform_8 i) (hinb9_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48_0) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48_1) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v83) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87_0) S1x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87_1) S1x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v83) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87_0) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v87_1) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v49) S5000x64.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v88) S5000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v88) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v122) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v123) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v126_0) S1x64.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v126_1) S1x64.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun i => !(k7_cond2 i == 1#1) | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v122) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v123) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v126_0) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v126_1) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v124) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v125) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v127) S5000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_arg3) S256x64.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg16) S64x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v140) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg18) S128x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v141) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v139) S256x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_arg20) S128x1.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v142) S1x1.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v143) S256x1.size cc9_transform_8 reads9_8 true true 1 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S256x64 : Shape := ⟨2, ![256, 64]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S800000x64 : Shape := ⟨2, ![800000, 64]⟩
abbrev S50000x1 : Shape := ⟨2, ![50000, 1]⟩
abbrev S1x64 : Shape := ⟨2, ![1, 64]⟩
abbrev S256 : Shape := ⟨1, ![256]⟩
abbrev S256x1 : Shape := ⟨2, ![256, 1]⟩
abbrev S256x128 : Shape := ⟨2, ![256, 128]⟩
abbrev S1x128 : Shape := ⟨2, ![1, 128]⟩
abbrev S1x1 : Shape := ⟨2, ![1, 1]⟩

abbrev nBuf : Space → Nat
  | .hbm => 346
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S256x64, .f32⟩
  | 4 => ⟨S128x64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64x64, .f32⟩
  | 13 => ⟨S64, .f32⟩
  | 14 => ⟨S64, .f32⟩
  | 15 => ⟨S64, .f32⟩
  | 16 => ⟨S64x128, .f32⟩
  | 17 => ⟨S128, .f32⟩
  | 18 => ⟨S128x64, .f32⟩
  | 19 => ⟨S64, .f32⟩
  | 20 => ⟨S128x1, .f32⟩
  | 21 => ⟨S1, .f32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S50000x64, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S800000x1, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S800000x64, .f32⟩
  | 67 => ⟨S800000x64, .f32⟩
  | 68 => ⟨S_, .f32⟩
  | 69 => ⟨S50000x64, .f32⟩
  | 70 => ⟨S800000x1, .i32⟩
  | 71 => ⟨S50000x64, .f32⟩
  | 72 => ⟨S50000, .f32⟩
  | 73 => ⟨S50000x1, .f32⟩
  | 74 => ⟨S50000x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S64, .f32⟩
  | 82 => ⟨S_, .f32⟩
  | 83 => ⟨S64, .f32⟩
  | 84 => ⟨S64, .f32⟩
  | 85 => ⟨S_, .i32⟩
  | 86 => ⟨S_, .f32⟩
  | 87 => ⟨S64, .f32⟩
  | 88 => ⟨S1x64, .f32⟩
  | 89 => ⟨S_, .f32⟩
  | 90 => ⟨S1x64, .f32⟩
  | 91 => ⟨S1x64, .f32⟩
  | 92 => ⟨S50000x64, .f32⟩
  | 93 => ⟨S50000x64, .f32⟩
  | 94 => ⟨S50000x64, .f32⟩
  | 95 => ⟨S_, .f32⟩
  | 96 => ⟨S_, .f32⟩
  | 97 => ⟨S_, .f32⟩
  | 98 => ⟨S_, .f32⟩
  | 99 => ⟨S64, .f32⟩
  | 100 => ⟨S64, .f32⟩
  | 101 => ⟨S64, .f32⟩
  | 102 => ⟨S_, .f32⟩
  | 103 => ⟨S_, .i1⟩
  | 104 => ⟨S_, .f32⟩
  | 105 => ⟨S_, .f32⟩
  | 106 => ⟨S64, .f32⟩
  | 107 => ⟨S64, .f32⟩
  | 108 => ⟨S1x64, .f32⟩
  | 109 => ⟨S50000x64, .f32⟩
  | 110 => ⟨S50000x64, .f32⟩
  | 111 => ⟨S_, .f32⟩
  | 112 => ⟨S64, .f32⟩
  | 113 => ⟨S64, .f32⟩
  | 114 => ⟨S64, .f32⟩
  | 115 => ⟨S1x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S50000x64, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000, .f32⟩
  | 18 => ⟨S800000, .f32⟩
  | 19 => ⟨S800000x1, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S800000x64, .f32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S50000, .f32⟩
  | 36 => ⟨S50000x1, .f32⟩
  | 37 => ⟨S50000x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S_, .f32⟩
  | 75 => ⟨S64, .f32⟩
  | 76 => ⟨S64, .f32⟩
  | 77 => ⟨S64, .f32⟩
  | 78 => ⟨S1x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S800000x1, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S800000x64, .f32⟩
  | 122 => ⟨S800000x64, .f32⟩
  | 123 => ⟨S_, .f32⟩
  | 124 => ⟨S50000x64, .f32⟩
  | 125 => ⟨S800000x1, .i32⟩
  | 126 => ⟨S50000x64, .f32⟩
  | 127 => ⟨S50000, .f32⟩
  | _ => ⟨S50000x128, .f32⟩

abbrev hbmTy0_2 (i : Nat) : BufTy := match i % 128 with
  | 0 => ⟨S50000x1, .f32⟩
  | 1 => ⟨S50000x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S64, .f32⟩
  | 9 => ⟨S_, .f32⟩
  | 10 => ⟨S64, .f32⟩
  | 11 => ⟨S64, .f32⟩
  | 12 => ⟨S_, .i32⟩
  | 13 => ⟨S_, .f32⟩
  | 14 => ⟨S64, .f32⟩
  | 15 => ⟨S1x64, .f32⟩
  | 16 => ⟨S_, .f32⟩
  | 17 => ⟨S1x64, .f32⟩
  | 18 => ⟨S1x64, .f32⟩
  | 19 => ⟨S50000x64, .f32⟩
  | 20 => ⟨S50000x64, .f32⟩
  | 21 => ⟨S50000x64, .f32⟩
  | 22 => ⟨S_, .f32⟩
  | 23 => ⟨S_, .f32⟩
  | 24 => ⟨S_, .f32⟩
  | 25 => ⟨S_, .f32⟩
  | 26 => ⟨S64, .f32⟩
  | 27 => ⟨S64, .f32⟩
  | 28 => ⟨S64, .f32⟩
  | 29 => ⟨S_, .f32⟩
  | 30 => ⟨S_, .i1⟩
  | 31 => ⟨S_, .f32⟩
  | 32 => ⟨S_, .f32⟩
  | 33 => ⟨S64, .f32⟩
  | 34 => ⟨S64, .f32⟩
  | 35 => ⟨S1x64, .f32⟩
  | 36 => ⟨S50000x64, .f32⟩
  | 37 => ⟨S50000x64, .f32⟩
  | 38 => ⟨S_, .f32⟩
  | 39 => ⟨S64, .f32⟩
  | 40 => ⟨S64, .f32⟩
  | 41 => ⟨S64, .f32⟩
  | 42 => ⟨S1x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S_, .f32⟩
  | 55 => ⟨S256x64, .f32⟩
  | 56 => ⟨S50000x1, .i32⟩
  | 57 => ⟨S256x64, .f32⟩
  | 58 => ⟨S_, .f32⟩
  | 59 => ⟨S50000, .f32⟩
  | 60 => ⟨S_, .f32⟩
  | 61 => ⟨S256, .f32⟩
  | 62 => ⟨S50000x1, .i32⟩
  | 63 => ⟨S256, .f32⟩
  | 64 => ⟨S_, .f32⟩
  | 65 => ⟨S256, .f32⟩
  | 66 => ⟨S256, .f32⟩
  | 67 => ⟨S256x1, .f32⟩
  | 68 => ⟨S256x64, .f32⟩
  | 69 => ⟨S256x64, .f32⟩
  | 70 => ⟨S256x128, .f32⟩
  | 71 => ⟨S1x128, .f32⟩
  | 72 => ⟨S256x128, .f32⟩
  | 73 => ⟨S256x128, .f32⟩
  | 74 => ⟨S_, .f32⟩
  | 75 => ⟨S256x128, .f32⟩
  | 76 => ⟨S256x128, .f32⟩
  | 77 => ⟨S256x64, .f32⟩
  | 78 => ⟨S1x64, .f32⟩
  | 79 => ⟨S256x64, .f32⟩
  | 80 => ⟨S256x64, .f32⟩
  | 81 => ⟨S_, .f32⟩
  | 82 => ⟨S256x64, .f32⟩
  | 83 => ⟨S256x64, .f32⟩
  | 84 => ⟨S256x128, .f32⟩
  | 85 => ⟨S256x1, .f32⟩
  | 86 => ⟨S1x1, .f32⟩
  | 87 => ⟨S256x1, .f32⟩
  | 88 => ⟨S256x1, .f32⟩
  | 89 => ⟨S256, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_cst_0 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_cst_1 : Ref sig .tc := ⟨.hbm, 96, rfl⟩
abbrev main_call0_v8 : Ref sig .tc := ⟨.hbm, 97, rfl⟩
abbrev main_call0_cst_2 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_call0_cst_3 : Ref sig .tc := ⟨.hbm, 102, rfl⟩
abbrev main_call0_v12 : Ref sig .tc := ⟨.hbm, 103, rfl⟩
abbrev main_call0_cst_4 : Ref sig .tc := ⟨.hbm, 104, rfl⟩
abbrev main_call0_call0_v0 : Ref sig .tc := ⟨.hbm, 105, rfl⟩
abbrev main_call0_call0_v1 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_11 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_call1_cst : Ref sig .tc := ⟨.hbm, 124, rfl⟩
abbrev main_call1_v0 : Ref sig .tc := ⟨.hbm, 125, rfl⟩
abbrev main_v67 : Ref sig .tc := ⟨.hbm, 126, rfl⟩
abbrev main_v68 : Ref sig .tc := ⟨.hbm, 127, rfl⟩
abbrev main_c_12 : Ref sig .tc := ⟨.hbm, 128, rfl⟩
abbrev main_v69 : Ref sig .tc := ⟨.hbm, 129, rfl⟩
abbrev main_v70 : Ref sig .tc := ⟨.hbm, 130, rfl⟩
abbrev main_c_13 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_c_14 : Ref sig .tc := ⟨.hbm, 137, rfl⟩
abbrev main_v76 : Ref sig .tc := ⟨.hbm, 138, rfl⟩
abbrev main_v77 : Ref sig .tc := ⟨.hbm, 139, rfl⟩
abbrev main_c_15 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_16 : Ref sig .tc := ⟨.hbm, 148, rfl⟩
abbrev main_v85 : Ref sig .tc := ⟨.hbm, 149, rfl⟩
abbrev main_v86 : Ref sig .tc := ⟨.hbm, 150, rfl⟩
abbrev main_c_17 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_cst_18 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_19 : Ref sig .tc := ⟨.hbm, 171, rfl⟩
abbrev main_v105 : Ref sig .tc := ⟨.hbm, 172, rfl⟩
abbrev main_cst_20 : Ref sig .tc := ⟨.hbm, 173, rfl⟩
abbrev main_v106 : Ref sig .tc := ⟨.hbm, 174, rfl⟩
abbrev main_v107 : Ref sig .tc := ⟨.hbm, 175, rfl⟩
abbrev main_c_21 : Ref sig .tc := ⟨.hbm, 176, rfl⟩
abbrev main_call2_cst : Ref sig .tc := ⟨.hbm, 177, rfl⟩
abbrev main_call2_v0 : Ref sig .tc := ⟨.hbm, 178, rfl⟩
abbrev main_call2_v1 : Ref sig .tc := ⟨.hbm, 179, rfl⟩
abbrev main_call2_cst_0 : Ref sig .tc := ⟨.hbm, 180, rfl⟩
abbrev main_call2_v2 : Ref sig .tc := ⟨.hbm, 181, rfl⟩
abbrev main_call2_v3 : Ref sig .tc := ⟨.hbm, 182, rfl⟩
abbrev main_call2_v4 : Ref sig .tc := ⟨.hbm, 183, rfl⟩
abbrev main_call2_v5 : Ref sig .tc := ⟨.hbm, 184, rfl⟩
abbrev main_call2_v6 : Ref sig .tc := ⟨.hbm, 185, rfl⟩
abbrev main_call2_v7 : Ref sig .tc := ⟨.hbm, 186, rfl⟩
abbrev main_call2_cst_1 : Ref sig .tc := ⟨.hbm, 187, rfl⟩
abbrev main_call2_v8 : Ref sig .tc := ⟨.hbm, 188, rfl⟩
abbrev main_call2_cst_2 : Ref sig .tc := ⟨.hbm, 189, rfl⟩
abbrev main_call2_v9 : Ref sig .tc := ⟨.hbm, 190, rfl⟩
abbrev main_call2_v10 : Ref sig .tc := ⟨.hbm, 191, rfl⟩
abbrev main_call2_v11 : Ref sig .tc := ⟨.hbm, 192, rfl⟩
abbrev main_call2_cst_3 : Ref sig .tc := ⟨.hbm, 193, rfl⟩
abbrev main_call2_v12 : Ref sig .tc := ⟨.hbm, 194, rfl⟩
abbrev main_call2_cst_4 : Ref sig .tc := ⟨.hbm, 195, rfl⟩
abbrev main_call2_call0_v0 : Ref sig .tc := ⟨.hbm, 196, rfl⟩
abbrev main_call2_call0_v1 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_22 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_call3_cst : Ref sig .tc := ⟨.hbm, 216, rfl⟩
abbrev main_call3_v0 : Ref sig .tc := ⟨.hbm, 217, rfl⟩
abbrev main_v125 : Ref sig .tc := ⟨.hbm, 218, rfl⟩
abbrev main_v126 : Ref sig .tc := ⟨.hbm, 219, rfl⟩
abbrev main_c_23 : Ref sig .tc := ⟨.hbm, 220, rfl⟩
abbrev main_v127 : Ref sig .tc := ⟨.hbm, 221, rfl⟩
abbrev main_v128 : Ref sig .tc := ⟨.hbm, 222, rfl⟩
abbrev main_c_24 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_c_25 : Ref sig .tc := ⟨.hbm, 229, rfl⟩
abbrev main_v134 : Ref sig .tc := ⟨.hbm, 230, rfl⟩
abbrev main_v135 : Ref sig .tc := ⟨.hbm, 231, rfl⟩
abbrev main_c_26 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_c_27 : Ref sig .tc := ⟨.hbm, 240, rfl⟩
abbrev main_v143 : Ref sig .tc := ⟨.hbm, 241, rfl⟩
abbrev main_v144 : Ref sig .tc := ⟨.hbm, 242, rfl⟩
abbrev main_c_28 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_cst_29 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_cst_30 : Ref sig .tc := ⟨.hbm, 263, rfl⟩
abbrev main_v163 : Ref sig .tc := ⟨.hbm, 264, rfl⟩
abbrev main_cst_31 : Ref sig .tc := ⟨.hbm, 265, rfl⟩
abbrev main_v164 : Ref sig .tc := ⟨.hbm, 266, rfl⟩
abbrev main_v165 : Ref sig .tc := ⟨.hbm, 267, rfl⟩
abbrev main_c_32 : Ref sig .tc := ⟨.hbm, 268, rfl⟩
abbrev main_call4_cst : Ref sig .tc := ⟨.hbm, 269, rfl⟩
abbrev main_call4_v0 : Ref sig .tc := ⟨.hbm, 270, rfl⟩
abbrev main_call4_v1 : Ref sig .tc := ⟨.hbm, 271, rfl⟩
abbrev main_call4_cst_0 : Ref sig .tc := ⟨.hbm, 272, rfl⟩
abbrev main_call4_v2 : Ref sig .tc := ⟨.hbm, 273, rfl⟩
abbrev main_call4_v3 : Ref sig .tc := ⟨.hbm, 274, rfl⟩
abbrev main_call4_v4 : Ref sig .tc := ⟨.hbm, 275, rfl⟩
abbrev main_call4_v5 : Ref sig .tc := ⟨.hbm, 276, rfl⟩
abbrev main_call4_v6 : Ref sig .tc := ⟨.hbm, 277, rfl⟩
abbrev main_call4_v7 : Ref sig .tc := ⟨.hbm, 278, rfl⟩
abbrev main_call4_cst_1 : Ref sig .tc := ⟨.hbm, 279, rfl⟩
abbrev main_call4_v8 : Ref sig .tc := ⟨.hbm, 280, rfl⟩
abbrev main_call4_cst_2 : Ref sig .tc := ⟨.hbm, 281, rfl⟩
abbrev main_call4_v9 : Ref sig .tc := ⟨.hbm, 282, rfl⟩
abbrev main_call4_v10 : Ref sig .tc := ⟨.hbm, 283, rfl⟩
abbrev main_call4_v11 : Ref sig .tc := ⟨.hbm, 284, rfl⟩
abbrev main_call4_cst_3 : Ref sig .tc := ⟨.hbm, 285, rfl⟩
abbrev main_call4_v12 : Ref sig .tc := ⟨.hbm, 286, rfl⟩
abbrev main_call4_cst_4 : Ref sig .tc := ⟨.hbm, 287, rfl⟩
abbrev main_call4_call0_v0 : Ref sig .tc := ⟨.hbm, 288, rfl⟩
abbrev main_call4_call0_v1 : Ref sig .tc := ⟨.hbm, 289, rfl⟩
abbrev main_v166 : Ref sig .tc := ⟨.hbm, 290, rfl⟩
abbrev main_v167 : Ref sig .tc := ⟨.hbm, 291, rfl⟩
abbrev main_v168 : Ref sig .tc := ⟨.hbm, 292, rfl⟩
abbrev main_v169 : Ref sig .tc := ⟨.hbm, 293, rfl⟩
abbrev main_cst_33 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_v173 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_call5_cst : Ref sig .tc := ⟨.hbm, 307, rfl⟩
abbrev main_call5_v0 : Ref sig .tc := ⟨.hbm, 308, rfl⟩
abbrev main_v182 : Ref sig .tc := ⟨.hbm, 309, rfl⟩
abbrev main_cst_34 : Ref sig .tc := ⟨.hbm, 310, rfl⟩
abbrev main_v183 : Ref sig .tc := ⟨.hbm, 311, rfl⟩
abbrev main_v184 : Ref sig .tc := ⟨.hbm, 312, rfl⟩
abbrev main_v185 : Ref sig .tc := ⟨.hbm, 313, rfl⟩
abbrev main_cst_35 : Ref sig .tc := ⟨.hbm, 314, rfl⟩
abbrev main_v186 : Ref sig .tc := ⟨.hbm, 315, rfl⟩
abbrev main_cst_36 : Ref sig .tc := ⟨.hbm, 316, rfl⟩
abbrev main_v187 : Ref sig .tc := ⟨.hbm, 317, rfl⟩
abbrev main_v188 : Ref sig .tc := ⟨.hbm, 318, rfl⟩
abbrev main_v189 : Ref sig .tc := ⟨.hbm, 319, rfl⟩
abbrev main_cst_37 : Ref sig .tc := ⟨.hbm, 320, rfl⟩
abbrev main_v190 : Ref sig .tc := ⟨.hbm, 321, rfl⟩
abbrev main_v191 : Ref sig .tc := ⟨.hbm, 322, rfl⟩
abbrev main_v192 : Ref sig .tc := ⟨.hbm, 323, rfl⟩
abbrev main_v193 : Ref sig .tc := ⟨.hbm, 324, rfl⟩
abbrev main_v194 : Ref sig .tc := ⟨.hbm, 325, rfl⟩
abbrev main_v195 : Ref sig .tc := ⟨.hbm, 326, rfl⟩
abbrev main_v196 : Ref sig .tc := ⟨.hbm, 327, rfl⟩
abbrev main_v197 : Ref sig .tc := ⟨.hbm, 328, rfl⟩
abbrev main_v198 : Ref sig .tc := ⟨.hbm, 329, rfl⟩
abbrev main_call6_cst : Ref sig .tc := ⟨.hbm, 330, rfl⟩
abbrev main_call6_v0 : Ref sig .tc := ⟨.hbm, 331, rfl⟩
abbrev main_v199 : Ref sig .tc := ⟨.hbm, 332, rfl⟩
abbrev main_v200 : Ref sig .tc := ⟨.hbm, 333, rfl⟩
abbrev main_v201 : Ref sig .tc := ⟨.hbm, 334, rfl⟩
abbrev main_v202 : Ref sig .tc := ⟨.hbm, 335, rfl⟩
abbrev main_v203 : Ref sig .tc := ⟨.hbm, 336, rfl⟩
abbrev main_call7_cst : Ref sig .tc := ⟨.hbm, 337, rfl⟩
abbrev main_call7_v0 : Ref sig .tc := ⟨.hbm, 338, rfl⟩
abbrev main_v204 : Ref sig .tc := ⟨.hbm, 339, rfl⟩
abbrev main_v205 : Ref sig .tc := ⟨.hbm, 340, rfl⟩
abbrev main_v206 : Ref sig .tc := ⟨.hbm, 341, rfl⟩
abbrev main_v207 : Ref sig .tc := ⟨.hbm, 342, rfl⟩
abbrev main_v208 : Ref sig .tc := ⟨.hbm, 343, rfl⟩
abbrev main_v209 : Ref sig .tc := ⟨.hbm, 344, rfl⟩
abbrev main_v210 : Ref sig .tc := ⟨.hbm, 345, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1x64_S256x64_0_1 : S1x64.BroadcastsInDim S256x64 (![0, 1] : Fin 2 → Fin S256x64.rank)
  concatenates_S256x64_S256x64_S256x128_d1 : Shape.Concatenates [S256x64, S256x64] S256x128 1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x128_S256x128_1_0_0_1_n_n_wf : DotDims.WF S256x64 S64x128 S256x128 [1] [0] [0] [1] [] []
  dot_S256x128_S128x64_S256x64_1_0_0_1_n_n_wf : DotDims.WF S256x128 S128x64 S256x64 [1] [0] [0] [1] [] []
  dot_S256x128_S128x1_S256x1_1_0_0_1_n_n_wf : DotDims.WF S256x128 S128x1 S256x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.K.Reg0.lean ====
import proofs.«171894_j11897059410618_1_alg».proof.Proof.Gen.Kernel.Launch
import proofs.«171894_j11897059410618_1_alg».proof.Proof.Gen.Kernel.Skeleton
import proofs.«171894_j11897059410618_1_alg».proof.Proof.Gen.Kernel.Points
import Idealize.ShloMosaic.Lib.Pipeline.FrameBody
import Idealize.ShloMosaic.Lib.Ring
import Idealize.ShloMosaic.Lib.Tactic

-- membership of an index in a rectangle with thousands of rows is decided by structural recursion on the coordinates
set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: a row block of the left operand times the resident weight matrix

The body reads a 5000x128 block of rows and the whole 128x64 weight matrix, narrows both to bf16, multiplies
them into a zero f32 accumulator and writes the 5000x64 product over the whole output block. -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's buffer holds its block at every point, for any proof data over the entry arrays whose
    body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is fetched at the first point only; its block index never moves, so its buffer still holds the
    same block at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

/-! ## What the body leaves in the output window's buffer -/

/-- The output buffer after the body: its single store, the bf16-narrowed product of the two input blocks. -/
def out0_2 (x0 : Vec F S5000x128 .f32) (x1 : Vec F S128x64 .f32) : Vec F S5000x64 .f32 :=
  View.canon [⟨r0_2, k0_pay1 (View.ld x0 r0_0) (View.ld x1 r0_1)⟩]

/-- The single store is the whole buffer, so it covers it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The body on whole staging buffers, the inputs' reading `x0`, `x1` and the output's holding anything, runs to the
    continuation with the inputs as they were and the output at `out0_2 x0 x1`. -/
theorem sound_kernel0 (c : Dev nD) (E : Set ℕ) (i : grid0.Coords) (arg0 : Memref sig .tc .vmem S5000x128 .f32) (harg0 : arg0.IsWhole) (arg1 : Memref sig .tc .vmem S128x64 .f32) (harg1 : arg1.IsWhole) (arg2 : Memref sig .tc .vmem S5000x64 .f32) (harg2 : arg2.IsWhole)
    (x0 : Vec F S5000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each input buffer at its block and the output buffer at the product of the two blocks; the invariant is the
    untouched rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«171894_j11897059410618_1_alg».proof.Proof.Gen.Kernel.Launch
import proofs.«171894_j11897059410618_1_alg».proof.Proof.Gen.Kernel.Skeleton
import proofs.«171894_j11897059410618_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the batch-norm statistics kernel (column sums and sums of squares over ten row blocks,
    then mean and variance at the last block) -/

/-! ## The rectangles the body loads and stores through: each the whole of its buffer -/

abbrev rS1 : Rect S1x64 := Rect.unit (s := S1x64) ![0, 0] S1x64.size inb_S1x64_S1x64_0_0
abbrev rX1 : Rect S5000x64 := Rect.unit (s := S5000x64) ![0, 0] S5000x64.size inb_S5000x64_S5000x64_0_0

/-- The one-row rectangle covers the one-row buffer. -/
theorem coverS1 (p0 : Vec F S1x64 .f32) (L : List (View.Piece (Elt F) S1x64 .f32)) (y : S1x64.Idx) :
    ∃ pc ∈ ((⟨rS1, p0⟩ :: L) : List (View.Piece (Elt F) S1x64 .f32)), y ∈ pc.1.set :=
  ⟨⟨rS1, p0⟩, List.mem_cons_self, (View.cover_of_tiled [⟨rS1, p0⟩] S1x64.size (by rfl) y).elim fun pc h => by
    have := List.mem_singleton.mp h.1; subst this; exact h.2⟩

/-- A whole-buffer store makes the earlier stores irrelevant. -/
theorem canon_top1 (p0 : Vec F S1x64 .f32) (L : List (View.Piece (Elt F) S1x64 .f32)) :
    View.canon ((⟨rS1, p0⟩ :: L) : List (View.Piece (Elt F) S1x64 .f32)) = View.canon [⟨rS1, p0⟩] := by
  funext y
  obtain ⟨pc, hm, hy⟩ := coverS1 p0 [] y
  have := List.mem_singleton.mp hm; subst this
  obtain ⟨x, rfl⟩ : ∃ x, (rS1).emb x = y := (rS1).exists_idx_of_mem hy
  rw [View.canon_cons_emb, View.canon_cons_emb]

/-- Reading a whole-buffer store back through the same rectangle gives its payload. -/
theorem ld_canon1 (p0 : Vec F S1x64 .f32) (L : List (View.Piece (Elt F) S1x64 .f32)) :
    View.ld (View.canon ((⟨rS1, p0⟩ :: L) : List (View.Piece (Elt F) S1x64 .f32))) rS1 = p0 :=
  funext fun x => View.canon_cons_emb rS1 p0 L x

/-! ## The body's branch conditions, decided over the grid -/

/-- The first conditional: the point is the first of the grid. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
/-- The second conditional: the point is the last of the grid. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-- The input windows are never idle; the output windows are idle exactly off the last point, where they are
    not written back either. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## What one point does to the two running sums, and what the last point stores -/

/-- The running column sum after a point: the sum before it plus the column sums of the block plus the bias row. -/
def stepS1 (x : Vec F S5000x64 .f32) (b : Vec F S1x64 .f32) (s : Vec F S1x64 .f32) : Vec F S1x64 .f32 :=
  View.canon [⟨rS1, k1_pay4 (View.ld x rX1) (View.ld b rS1) (View.ld s rS1)⟩]
/-- The running column sum of squares after a point. -/
def stepQ1 (x : Vec F S5000x64 .f32) (b : Vec F S1x64 .f32) (q : Vec F S1x64 .f32) : Vec F S1x64 .f32 :=
  View.canon [⟨rS1, k1_pay5 (View.ld x rX1) (View.ld b rS1) (View.ld q rS1)⟩]
/-- The two sums as the first point's reset leaves them: zero rows. -/
def zeroS1 : Vec F S1x64 .f32 := View.canon [⟨rS1, k1_pay1 (F := F)⟩]
def zeroQ1 : Vec F S1x64 .f32 := View.canon [⟨rS1, k1_pay2 (F := F)⟩]
/-- The mean row the last point stores into window 2's buffer, from the final column sum. -/
def out1_2 (s : Vec F S1x64 .f32) : Vec F S1x64 .f32 :=
  View.canon [⟨rS1, k1_pay6 (View.ld s rS1)⟩]
/-- The variance row the last point stores into window 3's buffer, from the final sums. -/
def out1_3 (s : Vec F S1x64 .f32) (q : Vec F S1x64 .f32) : Vec F S1x64 .f32 :=
  View.canon [⟨rS1, k1_pay7 (View.ld s rS1) (View.ld q rS1)⟩]

/-! ## The body's triple, one per control case -/

set_option maxHeartbeats 4000000 in
/-- A middle point: neither conditional taken. On whole memrefs — the two input buffers at `x`, `b`, the two output
    buffers at anything (handed back untouched), the two sums at `s`, `q` — the body runs to the continuation with the
    sums advanced by the block. -/
theorem sound_kernel1_B (c : Dev nD) (E : Set ℕ) (i : grid1.Coords) (hc0 : ¬cond1_0 i) (hc1 : ¬cond1_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (stepS1 x b s) ∗ owns (c : Thread nD τ) arg6 fullShare (stepQ1 x b q)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverS1 _ _)
  iexists _; isplitr
  swap; · iexact H6
  ipureintro
  exact View.read_writes_eq_canon _ _ _ (coverS1 _ _)

set_option maxHeartbeats 4000000 in
/-- The first point: the first conditional taken (the sums are reset to zero rows whatever they held), the second not. -/
theorem sound_kernel1_A (c : Dev nD) (E : Set ℕ) (i : grid1.Coords) (hc0 : cond1_0 i) (hc1 : ¬cond1_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (stepS1 x b (zeroS1 (F := F))) ∗ owns (c : Thread nD τ) arg6 fullShare (stepQ1 x b (zeroQ1 (F := F)))) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverS1 _ _), canon_top1]
    unfold stepS1 zeroS1
    rw [ld_canon1]
    have e9 : sound_kernel1_A.sl.v9 c arg5 = k1_pay1 (F := F) := View.readCov_cons_toLoadRect _ _ _ _
    rw [e9]; rfl
  iexists _; isplitr
  swap; · iexact H6
  ipureintro
  rw [View.read_writes_eq_canon _ _ _ (coverS1 _ _), canon_top1]
  unfold stepQ1 zeroQ1
  rw [ld_canon1]
  have e16 : sound_kernel1_A.sl.v16 c arg6 = k1_pay2 (F := F) := View.readCov_cons_toLoadRect _ _ _ _
  rw [e16]; rfl

set_option maxHeartbeats 4000000 in
/-- The last point: the first conditional not taken, the second taken — the sums advanced, then the mean row stored
    into window 2's buffer and the variance row into window 3's, whatever those held. -/
theorem sound_kernel1_C (c : Dev nD) (E : Set ℕ) (i : grid1.Coords) (hc0 : ¬cond1_0 i) (hc1 : cond1_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare (out1_2 (stepS1 x b s)) ∗ owns (c : Thread nD τ) arg4 fullShare (out1_3 (stepS1 x b s) (stepQ1 x b q))
            ∗ owns (c : Thread nD τ) arg5 fullShare (stepS1 x b s) ∗ owns (c : Thread nD τ) arg6 fullShare (stepQ1 x b q)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (coverS1 _ _)]
    unfold out1_2 stepS1
    rw [ld_canon1]
    have e27 : sound_kernel1_C.sl.v27 c arg1 arg2 arg5 f1 f2 f5 = k1_pay4 (View.ld (View.read (Elt F) arg1.view f1) rX1) (View.ld (View.read (Elt F) arg2.view f2) rS1) (View.ld (View.read (Elt F) arg5.view f5) rS1) :=
      View.readCov_cons_toLoadRect _ _ _ _
    rw [e27]
  isplitl [H4]
  · iexists _; isplitr
    swap; · iexact H4
    ipureintro
    rw [View.read_writes_eq_canon _ _ _ (coverS1 _ _)]
    unfold out1_3 stepS1 stepQ1
    rw [ld_canon1, ld_canon1]
    have e27 : sound_kernel1_C.sl.v27 c arg1 arg2 arg5 f1 f2 f5 = k1_pay4 (View.ld (View.read (Elt F) arg1.view f1) rX1) (View.ld (View.read (Elt F) arg2.view f2) rS1) (View.ld (View.read (Elt F) arg5.view f5) rS1) :=
      View.readCov_cons_toLoadRect _ _ _ _
    have e30 : sound_kernel1_C.sl.v30 c arg1 arg2 arg6 f1 f2 f6 = k1_pay5 (View.ld (View.read (Elt F) arg1.view f1) rX1) (View.ld (View.read (Elt F) arg2.view f2) rS1) (View.ld (View.read (Elt F) arg6.view f6) rS1) :=
      View.readCov_cons_toLoadRect _ _ _ _
    rw [e27, e30]
  isplitl [H5]
  · iexists _; isplitr
    swap; · iexact H5
    ipureintro
    exact View.read_writes_eq_canon _ _ _ (coverS1 _ _)
  iexists _; isplitr
  swap; · iexact H6
  ipureintro
  exact View.read_writes_eq_canon _ _ _ (coverS1 _ _)

/-! ## The windows' blocks, the running sums point by point, the invariant -/

section Region
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch operands as whole memrefs. -/
abbrev scM1_0 : Memref sig .tc .vmem S1x64 .f32 := Memref.whole cc1_scratch0
abbrev scM1_1 : Memref sig .tc .vmem S1x64 .f32 := Memref.whole cc1_scratch1

/-- The pair (column sum, column sum of squares) over the first `n` blocks: zero rows, then one step per block. -/
def acc1 (c : Dev nD) : ℕ → Vec F S1x64 .f32 × Vec F S1x64 .f32
  | 0 => (zeroS1, zeroQ1)
  | n + 1 =>
    if h : n < cfg1.N then
      (stepS1 (iblk1 V c 0 ⟨n, h⟩) (iblk1 V c 1 ⟨n, h⟩) (acc1 c n).1,
       stepQ1 (iblk1 V c 0 ⟨n, h⟩) (iblk1 V c 1 ⟨n, h⟩) (acc1 c n).2)
    else acc1 c n

theorem acc1_succ (c : Dev nD) (t : Fin cfg1.N) :
    acc1 V c (t.val + 1) = (stepS1 (iblk1 V c 0 t) (iblk1 V c 1 t) (acc1 V c t.val).1,
       stepQ1 (iblk1 V c 0 t) (iblk1 V c 1 t) (acc1 V c t.val).2) := by
  obtain ⟨n, hn⟩ := t
  exact dif_pos hn

/-- The invariant before position `n`: the generator register at some state and the scoped buffers that are no
    staging buffer — before the first point all at anything; afterwards the two scratch rows at the sums over the
    first `n` blocks, the others at anything. -/
def Phi1 (c : Dev nD) : ℕ → sProp 𝕄
  | 0 => iprop((∃ r, prngReg c r) ∗ Pipeline.scopedRest (Ix := Unit) (Name := ℕ) (U := UR sig nD τ) (Lvl := ℕ) (Val := Elt F) spec1 c)
  | n + 1 => iprop((∃ r, prngReg c r)
      ∗ (owns (c : Thread nD τ) scM1_0 fullShare (acc1 V c (n + 1)).1 ∗ owns (c : Thread nD τ) scM1_1 fullShare (acc1 V c (n + 1)).2)
      ∗ Pipeline.scopedRestBut (Ix := Unit) (Name := ℕ) (U := UR sig nD τ) (Lvl := ℕ) (Val := Elt F) spec1 c [cc1_scratch0, cc1_scratch1])

/-- Before the first point, with the two scratch rows taken out of the scoped rest as memrefs at some contents. -/
theorem Phi1_zero (c : Dev nD) :
    Phi1 V c 0 = iprop((∃ r, prngReg c r)
      ∗ ((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]) := by
  unfold Phi1; rw [scopedRest1_split]; simp only [scM1_0, scM1_1, owns_whole]; try rfl

theorem Phi1_pos (c : Dev nD) (n : ℕ) (hz : n ≠ 0) :
    Phi1 V c n = iprop((∃ r, prngReg c r)
      ∗ (owns (c : Thread nD τ) scM1_0 fullShare (acc1 V c n).1 ∗ owns (c : Thread nD τ) scM1_1 fullShare (acc1 V c n).2)
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

/-! ## The pipeline's proof data -/

/-- The proof data of the pipeline on core `c`: the arrays as the region finds them (`V`); after the body at point `t`
    each input's buffer at its block, window 2's at the mean row and window 3's at the variance row of the sums through
    `t` (consulted at the last point only: elsewhere the two windows are idle); the invariant `Phi1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (acc1 V c (t.val + 1)).1
    | ⟨3, _⟩ => out1_3 (acc1 V c (t.val + 1)).1 (acc1 V c (t.val + 1)).2
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (acc1 V c (t.val + 1)).1 := by dsimp only [dat1]
theorem after1_3 (c : Dev nD) (t : Fin cfg1.N) :
    (dat1 V c).after 3 t = out1_3 (acc1 V c (t.val + 1)).1 (acc1 V c (t.val + 1)).2 := by dsimp only [dat1]

theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := rfl

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem acc1_zero (c : Dev nD) (n : ℕ) (hz : n = 0) : acc1 V c n = (zeroS1, zeroQ1) := by subst hz; rfl
theorem Phi1_zero' (c : Dev nD) (n : ℕ) (hz : n = 0) :
    Phi1 V c n = iprop((∃ r, prngReg c r)
      ∗ ((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]) := by
  subst hz; exact Phi1_zero V c

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

set_option maxHeartbeats 4000000 in
/-- The body at any point. The inputs' memrefs hold their blocks; the point's position decides the control case: at
    the first point the invariant hands the scratch rows at anything and takes them back at the first block's sums; at a
    later point it hands them at the sums so far and takes them back advanced; the output windows' buffers come back
    untouched except at the last point, where they come back at the mean and variance rows. The core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi1_succ, Phi1_castSucc]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 10 := lt_of_lt_of_eq t.isLt (show cfg1.N = 10 from N_1)
  rw [Phi1_pos V c (t.val + 1) (Nat.succ_ne_zero _), acc1_succ]
  by_cases h1 : t.val % 10 = 9
  · have hc0 : ¬cond1_0 (grid1.coords t) := fun h => by have := (hcond1_0 t).mp h; omega
    have hc1 : cond1_1 (grid1.coords t) := (hcond1_1 t).mpr h1
    have hz : t.val ≠ 0 := by omega
    rw [show (dat1 V c).leavesExact 2 t = owns (c : Thread nD τ) (st1_2 t) fullShare ((dat1 V c).after 2 t) from by
      unfold Dat.leavesExact; rw [liveAt1_2 t hc1], after1_2]
    rw [show (dat1 V c).leavesExact 3 t = owns (c : Thread nD τ) (st1_3 t) fullShare ((dat1 V c).after 3 t) from by
      unfold Dat.leavesExact; rw [liveAt1_3 t hc1], after1_3]
    rw [Phi1_pos V c _ hz, acc1_succ]
    iintro ⟨⟨Hg, ⟨HS, HQ⟩, HR⟩, Ho, ⟨%d0, H0⟩, ⟨%d1, H1⟩, ⟨%d2, H2⟩, ⟨%d3, H3⟩⟩
    iapply (sound_kernel1_C c Set.univ (grid1.coords t) hc0 hc1 _ _ _ _ _ _ _ _ _ _ _ _ (iblk1 V c 0 t) (iblk1 V c 1 t) _ _ _ _ _)
    isplitl [H0]; · iexact H0
    isplitl [H1]; · iexact H1
    isplitl [H2]; · iexact H2
    isplitl [H3]; · iexact H3
    isplitl [HS]; · iexact HS
    isplitl [HQ]; · iexact HQ
    iintro ⟨H0, H1, H2, H3, HS, HQ⟩
    isplitl [Hg HS HQ HR]
    · isplitl [Hg]; · iexact Hg
      isplitl [HS HQ]
      · isplitl [HS]; · iexact HS
        iexact HQ
      iexact HR
    isplitl [Ho]; · iexact Ho
    isplitl [H0]; · iexact H0
    isplitl [H1]; · iexact H1
    isplitl [H2]; · iexact H2
    iexact H3
  · have hc1 : ¬cond1_1 (grid1.coords t) := fun h => h1 ((hcond1_1 t).mp h)
    rw [Dat.leavesExact_idle (dat1 V c) 2 t (idleAt1_2 t hc1) (noFlush1_2 t hc1),
      Dat.leavesExact_idle (dat1 V c) 3 t (idleAt1_3 t hc1) (noFlush1_3 t hc1)]
    by_cases h0 : t.val % 10 = 0
    · have hc0 : cond1_0 (grid1.coords t) := (hcond1_0 t).mpr h0
      have hz : t.val = 0 := by omega
      rw [Phi1_zero' V c _ hz, acc1_zero V c _ hz]
      iintro ⟨⟨Hg, ⟨⟨%s0, HS⟩, ⟨%q0, HQ⟩⟩, HR⟩, Ho, ⟨%d0, H0⟩, ⟨%d1, H1⟩, ⟨%d2, H2⟩, ⟨%d3, H3⟩⟩
      iapply (sound_kernel1_A c Set.univ (grid1.coords t) hc0 hc1 _ _ _ _ _ _ _ _ _ _ _ _ (iblk1 V c 0 t) (iblk1 V c 1 t) _ _ _ _ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, HS, HQ⟩
      isplitl [Hg HS HQ HR]
      · isplitl [Hg]; · iexact Hg
        isplitl [HS HQ]
        · isplitl [HS]; · iexact HS
          iexact HQ
        iexact HR
      isplitl [Ho]; · iexact Ho
      isplitl [H0]; · iexact H0
      isplitl [H1]; · iexact H1
      isplitl [H2]; · iexists _; iexact H2
      iexists _; iexact H3
    · have hc0 : ¬cond1_0 (grid1.coords t) := fun h => h0 ((hcond1_0 t).mp h)
      have hz : t.val ≠ 0 := by omega
      rw [Phi1_pos V c _ hz]
      iintro ⟨⟨Hg, ⟨HS, HQ⟩, HR⟩, Ho, ⟨%d0, H0⟩, ⟨%d1, H1⟩, ⟨%d2, H2⟩, ⟨%d3, H3⟩⟩
      iapply (sound_kernel1_B c Set.univ (grid1.coords t) hc0 hc1 _ _ _ _ _ _ _ _ _ _ _ _ (iblk1 V c 0 t) (iblk1 V c 1 t) _ _ _ _ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, HS, HQ⟩
      isplitl [Hg HS HQ HR]
      · isplitl [Hg]; · iexact Hg
        isplitl [HS HQ]
        · isplitl [HS]; · iexact HS
          iexact HQ
        iexact HR
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

/-- What the launch hands the region — the generator register and the scoped rest — is the invariant before the first point. -/
theorem hin1 (c : Dev nD) :
    (iprop((∃ r, prngReg c r) ∗ Pipeline.scopedRest (Ix := Unit) (Name := ℕ) (U := UR sig nD τ) (Lvl := ℕ) (Val := Elt F) spec1 c) : sProp 𝕄) ⊢ (dat1 V c).Φ 0 := by
  rw [show (dat1 V c).Φ 0 = Phi1 V c 0 from rfl]
  unfold Phi1
  exact Idealize.SL.BI.Entails.refl _

/-- After the last point the invariant gives them back: the scratch rows' named contents are forgotten. -/
theorem hout1 (c : Dev nD) :
    (dat1 V c).Φ (Fin.last cfg1.N) ⊢ (iprop((∃ r, prngReg c r) ∗ Pipeline.scopedRest (Ix := Unit) (Name := ℕ) (U := UR sig nD τ) (Lvl := ℕ) (Val := Elt F) spec1 c) : sProp 𝕄) := by
  rw [show (dat1 V c).Φ (Fin.last cfg1.N) = Phi1 V c cfg1.N from rfl,
    Phi1_pos V c _ (by rw [show cfg1.N = 10 from N_1]; decide), scopedRest1_split]
  simp only [scM1_0, scM1_1, owns_whole]
  iintro ⟨Hg, ⟨HS, HQ⟩, HR⟩
  isplitl [Hg]; · iexact Hg
  isplitl [HS HQ]
  · isplitl [HS]
    · iexists _; iexact HS
    iexists _; iexact HQ
  iexact HR

end Region

end Cert.Kernel.Hand

end
-- ==== Proof.K.Reg2.lean ====
import proofs.«171894_j11897059410618_1_alg».proof.Proof.Gen.Kernel.Launch
import proofs.«171894_j11897059410618_1_alg».proof.Proof.Gen.Kernel.Skeleton
import proofs.«171894_j11897059410618_1_alg».proof.Proof.Gen.Kernel.Points
import Idealize.ShloMosaic.Lib.Pipeline.FrameBody
import Idealize.ShloMosaic.Lib.Ring
import Idealize.ShloMosaic.Lib.Tactic

/-! # Region 2: normalise, scale, shift and clamp at zero, block by block

The region walks ten row blocks of a `[50000, 64]` array. At every point its body reads one `[5000, 64]` block `x`
and five `[1, 64]` rows `b, μ, σ², γ, β` that stay resident over the whole walk, and stores
`max (((x + b) - μ) * rsqrt (σ² + ε) * γ + β) 0` over the whole output block. This file states, at any contents `V`
of the core's buffers on entry: each window's block at a point, what the body leaves in the output buffer as a function
of the six input blocks, the body's triple, the pipeline's proof data and its body obligation. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not, for any proof data whose
    array is the entry contents and whose body leaves the block in place: where the window is not fetched its block
    index has not moved, so the block kept from the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not, for any proof data whose
    array is the entry contents and whose body leaves the block in place: where the window is not fetched its block
    index has not moved, so the block kept from the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not, for any proof data whose
    array is the entry contents and whose body leaves the block in place: where the window is not fetched its block
    index has not moved, so the block kept from the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not, for any proof data whose
    array is the entry contents and whose body leaves the block in place: where the window is not fetched its block
    index has not moved, so the block kept from the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not, for any proof data whose
    array is the entry contents and whose body leaves the block in place: where the window is not fetched its block
    index has not moved, so the block kept from the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds its block at every point, fetched there or not, for any proof data whose
    array is the entry contents and whose body leaves the block in place: where the window is not fetched its block
    index has not moved, so the block kept from the point before is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of a `[5000, 64]` buffer. -/
abbrev rX2 : Rect S5000x64 := Rect.unit (s := S5000x64) ![0, 0] S5000x64.size inb_S5000x64_S5000x64_0_0
/-- The whole of a `[1, 64]` buffer. -/
abbrev rR2 : Rect S1x64 := Rect.unit (s := S1x64) ![0, 0] S1x64.size inb_S1x64_S1x64_0_0

/-! ## What the body leaves in the output window's buffer -/

/-- Window 6's buffer after the body, from the six input blocks: its one store, over the whole buffer, of the
    normalised, scaled, shifted and clamped block. -/
def out2_6 (x0 : Vec F S5000x64 .f32) (x1 x2 x3 x4 x5 : Vec F S1x64 .f32) : Vec F S5000x64 .f32 :=
  View.canon [⟨rX2, k2_pay1 (View.ld x0 rX2) (View.ld x1 rR2) (View.ld x2 rR2) (View.ld x3 rR2) (View.ld x4 rR2) (View.ld x5 rR2)⟩]

/-- The one store covers the buffer. -/
theorem cover2_6 (p0 : Vec F S5000x64 .f32) (y : S5000x64.Idx) :
    ∃ pc ∈ ([⟨rX2, p0⟩] : List (View.Piece (Elt F) S5000x64 .f32)), y ∈ pc.1.set :=
  View.cover_of_tiled [⟨rX2, p0⟩] S5000x64.size (by rfl) y

/-! ## The body's triple -/

set_option maxHeartbeats 1000000 in
/-- The body on whole buffers, the six inputs' at read contents `x0 … x5` and the output's at anything, runs to the
    continuation holding the inputs' as they were and the output's at `out2_6` of the inputs'. -/
theorem sound_kernel2 (c : Dev nD) (E : Set ℕ) (i : grid2.Coords)
    (arg0 : Memref sig .tc .vmem S5000x64 .f32) (harg0 : arg0.IsWhole) (arg1 : Memref sig .tc .vmem S1x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S5000x64 .f32) (harg6 : arg6.IsWhole)
    (x0 : Vec F S5000x64 .f32) (x1 x2 x3 x4 x5 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E (cc2_kernel i arg0 harg0 arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the region's pipeline on core `c`: the arrays as the region finds them; after the body at point
    `t` each input's buffer at its block and the output's at `out2_6` of the six input blocks; the invariant that of
    a body touching nothing but its windows' buffers; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«171894_j11897059410618_1_alg».proof.Proof.Gen.Kernel.Launch
import proofs.«171894_j11897059410618_1_alg».proof.Proof.Gen.Kernel.Skeleton
import proofs.«171894_j11897059410618_1_alg».proof.Proof.Gen.Kernel.Points
import Idealize.ShloMosaic.Lib.Pipeline.FrameBody
import Idealize.ShloMosaic.Lib.Ring
import Idealize.ShloMosaic.Lib.Tactic

-- membership of an index in a rectangle with thousands of rows is decided by structural recursion on the coordinates
set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: a row block of the left operand times the resident weight matrix

The body reads a 5000x64 block of rows and the whole 64x64 weight matrix, narrows both to bf16, multiplies
them into a zero f32 accumulator and writes the 5000x64 product over the whole output block. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's buffer holds its block at every point, for any proof data over the entry arrays whose
    body leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window is fetched at the first point only; its block index never moves, so its buffer still holds the
    same block at every later point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole buffer -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S5000x64 := Rect.unit (s := S5000x64) ![0, 0] S5000x64.size inb_S5000x64_S5000x64_0_0

/-! ## What the body leaves in the output window's buffer -/

/-- The output buffer after the body: its single store, the bf16-narrowed product of the two input blocks. -/
def out3_2 (x0 : Vec F S5000x64 .f32) (x1 : Vec F S64x64 .f32) : Vec F S5000x64 .f32 :=
  View.canon [⟨r3_2, k3_pay1 (View.ld x0 r3_0) (View.ld x1 r3_1)⟩]

/-- The single store is the whole buffer, so it covers it. -/
theorem cover3_2 (p0 : Vec F S5000x64 .f32) (y : S5000x64.Idx) :
    ∃ pc ∈ ([⟨r3_2, p0⟩] : List (View.Piece (Elt F) S5000x64 .f32)), y ∈ pc.1.set :=
  View.cover_of_tiled [⟨r3_2, p0⟩] S5000x64.size (by rfl) y

/-! ## The body's triple -/

set_option maxHeartbeats 1000000 in
/-- The body on whole staging buffers, the inputs' reading `x0`, `x1` and the output's holding anything, runs to the
    continuation with the inputs as they were and the output at `out3_2 x0 x1`. -/
theorem sound_kernel3 (c : Dev nD) (E : Set ℕ) (i : grid3.Coords) (arg0 : Memref sig .tc .vmem S5000x64 .f32) (harg0 : arg0.IsWhole) (arg1 : Memref sig .tc .vmem S64x64 .f32) (harg1 : arg1.IsWhole) (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__linear_kernel i arg0 harg0 arg1 harg1 arg2 harg2) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at point `t`
    each input buffer at its block and the output buffer at the product of the two blocks; the invariant is the
    untouched rest of the core; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input buffers hold their blocks, so the body's triple applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«171894_j11897059410618_1_alg».proof.Proof.Gen.Kernel.Launch
import proofs.«171894_j11897059410618_1_alg».proof.Proof.Gen.Kernel.Skeleton
import proofs.«171894_j11897059410618_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the batch-norm statistics kernel (column sums and sums of squares over ten row blocks,
    then mean and variance at the last block) -/

/-! ## The rectangles the body loads and stores through: each the whole of its buffer -/

abbrev rS4 : Rect S1x64 := Rect.unit (s := S1x64) ![0, 0] S1x64.size inb_S1x64_S1x64_0_0
abbrev rX4 : Rect S5000x64 := Rect.unit (s := S5000x64) ![0, 0] S5000x64.size inb_S5000x64_S5000x64_0_0

/-- The one-row rectangle covers the one-row buffer. -/
theorem coverS4 (p0 : Vec F S1x64 .f32) (L : List (View.Piece (Elt F) S1x64 .f32)) (y : S1x64.Idx) :
    ∃ pc ∈ ((⟨rS4, p0⟩ :: L) : List (View.Piece (Elt F) S1x64 .f32)), y ∈ pc.1.set :=
  ⟨⟨rS4, p0⟩, List.mem_cons_self, (View.cover_of_tiled [⟨rS4, p0⟩] S1x64.size (by rfl) y).elim fun pc h => by
    have := List.mem_singleton.mp h.1; subst this; exact h.2⟩

/-- A whole-buffer store makes the earlier stores irrelevant. -/
theorem canon_top4 (p0 : Vec F S1x64 .f32) (L : List (View.Piece (Elt F) S1x64 .f32)) :
    View.canon ((⟨rS4, p0⟩ :: L) : List (View.Piece (Elt F) S1x64 .f32)) = View.canon [⟨rS4, p0⟩] := by
  funext y
  obtain ⟨pc, hm, hy⟩ := coverS4 p0 [] y
  have := List.mem_singleton.mp hm; subst this
  obtain ⟨x, rfl⟩ : ∃ x, (rS4).emb x = y := (rS4).exists_idx_of_mem hy
  rw [View.canon_cons_emb, View.canon_cons_emb]

/-- Reading a whole-buffer store back through the same rectangle gives its payload. -/
theorem ld_canon4 (p0 : Vec F S1x64 .f32) (L : List (View.Piece (Elt F) S1x64 .f32)) :
    View.ld (View.canon ((⟨rS4, p0⟩ :: L) : List (View.Piece (Elt F) S1x64 .f32))) rS4 = p0 :=
  funext fun x => View.canon_cons_emb rS4 p0 L x

/-! ## The body's branch conditions, decided over the grid -/

/-- The first conditional: the point is the first of the grid. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
/-- The second conditional: the point is the last of the grid. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

/-- The input windows are never idle; the output windows are idle exactly off the last point, where they are
    not written back either. -/
theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_1 (grid4.coords t) → cfg4.idle 2 (grid4.coords t) = true := by decide +kernel
theorem idleAt4_3 : ∀ t : Fin cfg4.N, ¬cond4_1 (grid4.coords t) → cfg4.idle 3 (grid4.coords t) = true := by decide +kernel
theorem noFlush4_2 : ∀ t : Fin cfg4.N, ¬cond4_1 (grid4.coords t) → (cfg4.win 2).flush t = false := by decide +kernel
theorem noFlush4_3 : ∀ t : Fin cfg4.N, ¬cond4_1 (grid4.coords t) → (cfg4.win 3).flush t = false := by decide +kernel
theorem liveAt4_2 : ∀ t : Fin cfg4.N, cond4_1 (grid4.coords t) → cfg4.idle 2 (grid4.coords t) = false := by decide +kernel
theorem liveAt4_3 : ∀ t : Fin cfg4.N, cond4_1 (grid4.coords t) → cfg4.idle 3 (grid4.coords t) = false := by decide +kernel

/-! ## What one point does to the two running sums, and what the last point stores -/

/-- The running column sum after a point: the sum before it plus the column sums of the block plus the bias row. -/
def stepS4 (x : Vec F S5000x64 .f32) (b : Vec F S1x64 .f32) (s : Vec F S1x64 .f32) : Vec F S1x64 .f32 :=
  View.canon [⟨rS4, k4_pay4 (View.ld x rX4) (View.ld b rS4) (View.ld s rS4)⟩]
/-- The running column sum of squares after a point. -/
def stepQ4 (x : Vec F S5000x64 .f32) (b : Vec F S1x64 .f32) (q : Vec F S1x64 .f32) : Vec F S1x64 .f32 :=
  View.canon [⟨rS4, k4_pay5 (View.ld x rX4) (View.ld b rS4) (View.ld q rS4)⟩]
/-- The two sums as the first point's reset leaves them: zero rows. -/
def zeroS4 : Vec F S1x64 .f32 := View.canon [⟨rS4, k4_pay1 (F := F)⟩]
def zeroQ4 : Vec F S1x64 .f32 := View.canon [⟨rS4, k4_pay2 (F := F)⟩]
/-- The mean row the last point stores into window 2's buffer, from the final column sum. -/
def out4_2 (s : Vec F S1x64 .f32) : Vec F S1x64 .f32 :=
  View.canon [⟨rS4, k4_pay6 (View.ld s rS4)⟩]
/-- The variance row the last point stores into window 3's buffer, from the final sums. -/
def out4_3 (s : Vec F S1x64 .f32) (q : Vec F S1x64 .f32) : Vec F S1x64 .f32 :=
  View.canon [⟨rS4, k4_pay7 (View.ld s rS4) (View.ld q rS4)⟩]

/-! ## The body's triple, one per control case -/

set_option maxHeartbeats 4000000 in
/-- A middle point: neither conditional taken. On whole memrefs — the two input buffers at `x`, `b`, the two output
    buffers at anything (handed back untouched), the two sums at `s`, `q` — the body runs to the continuation with the
    sums advanced by the block. -/
theorem sound_kernel4_B (c : Dev nD) (E : Set ℕ) (i : grid4.Coords) (hc0 : ¬cond4_0 i) (hc1 : ¬cond4_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (stepS4 x b s) ∗ owns (c : Thread nD τ) arg6 fullShare (stepQ4 x b q)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverS4 _ _)
  iexists _; isplitr
  swap; · iexact H6
  ipureintro
  exact View.read_writes_eq_canon _ _ _ (coverS4 _ _)

set_option maxHeartbeats 4000000 in
/-- The first point: the first conditional taken (the sums are reset to zero rows whatever they held), the second not. -/
theorem sound_kernel4_A (c : Dev nD) (E : Set ℕ) (i : grid4.Coords) (hc0 : cond4_0 i) (hc1 : ¬cond4_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (stepS4 x b (zeroS4 (F := F))) ∗ owns (c : Thread nD τ) arg6 fullShare (stepQ4 x b (zeroQ4 (F := F)))) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverS4 _ _), canon_top4]
    unfold stepS4 zeroS4
    rw [ld_canon4]
    have e9 : sound_kernel4_A.sl.v9 c arg5 = k4_pay1 (F := F) := View.readCov_cons_toLoadRect _ _ _ _
    rw [e9]; rfl
  iexists _; isplitr
  swap; · iexact H6
  ipureintro
  rw [View.read_writes_eq_canon _ _ _ (coverS4 _ _), canon_top4]
  unfold stepQ4 zeroQ4
  rw [ld_canon4]
  have e16 : sound_kernel4_A.sl.v16 c arg6 = k4_pay2 (F := F) := View.readCov_cons_toLoadRect _ _ _ _
  rw [e16]; rfl

set_option maxHeartbeats 4000000 in
/-- The last point: the first conditional not taken, the second taken — the sums advanced, then the mean row stored
    into window 2's buffer and the variance row into window 3's, whatever those held. -/
theorem sound_kernel4_C (c : Dev nD) (E : Set ℕ) (i : grid4.Coords) (hc0 : ¬cond4_0 i) (hc1 : cond4_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare (out4_2 (stepS4 x b s)) ∗ owns (c : Thread nD τ) arg4 fullShare (out4_3 (stepS4 x b s) (stepQ4 x b q))
            ∗ owns (c : Thread nD τ) arg5 fullShare (stepS4 x b s) ∗ owns (c : Thread nD τ) arg6 fullShare (stepQ4 x b q)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (coverS4 _ _)]
    unfold out4_2 stepS4
    rw [ld_canon4]
    have e27 : sound_kernel4_C.sl.v27 c arg1 arg2 arg5 f1 f2 f5 = k4_pay4 (View.ld (View.read (Elt F) arg1.view f1) rX4) (View.ld (View.read (Elt F) arg2.view f2) rS4) (View.ld (View.read (Elt F) arg5.view f5) rS4) :=
      View.readCov_cons_toLoadRect _ _ _ _
    rw [e27]
  isplitl [H4]
  · iexists _; isplitr
    swap; · iexact H4
    ipureintro
    rw [View.read_writes_eq_canon _ _ _ (coverS4 _ _)]
    unfold out4_3 stepS4 stepQ4
    rw [ld_canon4, ld_canon4]
    have e27 : sound_kernel4_C.sl.v27 c arg1 arg2 arg5 f1 f2 f5 = k4_pay4 (View.ld (View.read (Elt F) arg1.view f1) rX4) (View.ld (View.read (Elt F) arg2.view f2) rS4) (View.ld (View.read (Elt F) arg5.view f5) rS4) :=
      View.readCov_cons_toLoadRect _ _ _ _
    have e30 : sound_kernel4_C.sl.v30 c arg1 arg2 arg6 f1 f2 f6 = k4_pay5 (View.ld (View.read (Elt F) arg1.view f1) rX4) (View.ld (View.read (Elt F) arg2.view f2) rS4) (View.ld (View.read (Elt F) arg6.view f6) rS4) :=
      View.readCov_cons_toLoadRect _ _ _ _
    rw [e27, e30]
  isplitl [H5]
  · iexists _; isplitr
    swap; · iexact H5
    ipureintro
    exact View.read_writes_eq_canon _ _ _ (coverS4 _ _)
  iexists _; isplitr
  swap; · iexact H6
  ipureintro
  exact View.read_writes_eq_canon _ _ _ (coverS4 _ _)

/-! ## The windows' blocks, the running sums point by point, the invariant -/

section Region
variable (V : (c : Dev nD) → (b : Ref sig .tc) → Buf (Elt F) ((c : Thread nD τ).loc b))

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The two scratch operands as whole memrefs. -/
abbrev scM4_0 : Memref sig .tc .vmem S1x64 .f32 := Memref.whole cc4_scratch0
abbrev scM4_1 : Memref sig .tc .vmem S1x64 .f32 := Memref.whole cc4_scratch1

/-- The pair (column sum, column sum of squares) over the first `n` blocks: zero rows, then one step per block. -/
def acc4 (c : Dev nD) : ℕ → Vec F S1x64 .f32 × Vec F S1x64 .f32
  | 0 => (zeroS4, zeroQ4)
  | n + 1 =>
    if h : n < cfg4.N then
      (stepS4 (iblk4 V c 0 ⟨n, h⟩) (iblk4 V c 1 ⟨n, h⟩) (acc4 c n).1,
       stepQ4 (iblk4 V c 0 ⟨n, h⟩) (iblk4 V c 1 ⟨n, h⟩) (acc4 c n).2)
    else acc4 c n

theorem acc4_succ (c : Dev nD) (t : Fin cfg4.N) :
    acc4 V c (t.val + 1) = (stepS4 (iblk4 V c 0 t) (iblk4 V c 1 t) (acc4 V c t.val).1,
       stepQ4 (iblk4 V c 0 t) (iblk4 V c 1 t) (acc4 V c t.val).2) := by
  obtain ⟨n, hn⟩ := t
  exact dif_pos hn

/-- The invariant before position `n`: the generator register at some state and the scoped buffers that are no
    staging buffer — before the first point all at anything; afterwards the two scratch rows at the sums over the
    first `n` blocks, the others at anything. -/
def Phi4 (c : Dev nD) : ℕ → sProp 𝕄
  | 0 => iprop((∃ r, prngReg c r) ∗ Pipeline.scopedRest (Ix := Unit) (Name := ℕ) (U := UR sig nD τ) (Lvl := ℕ) (Val := Elt F) spec4 c)
  | n + 1 => iprop((∃ r, prngReg c r)
      ∗ (owns (c : Thread nD τ) scM4_0 fullShare (acc4 V c (n + 1)).1 ∗ owns (c : Thread nD τ) scM4_1 fullShare (acc4 V c (n + 1)).2)
      ∗ Pipeline.scopedRestBut (Ix := Unit) (Name := ℕ) (U := UR sig nD τ) (Lvl := ℕ) (Val := Elt F) spec4 c [cc4_scratch0, cc4_scratch1])

/-- Before the first point, with the two scratch rows taken out of the scoped rest as memrefs at some contents. -/
theorem Phi4_zero (c : Dev nD) :
    Phi4 V c 0 = iprop((∃ r, prngReg c r)
      ∗ ((∃ d, owns (c : Thread nD τ) scM4_0 fullShare d) ∗ (∃ d, owns (c : Thread nD τ) scM4_1 fullShare d))
      ∗ Pipeline.scopedRestBut (Ix := Unit) (Name := ℕ) (U := UR sig nD τ) (Lvl := ℕ) (Val := Elt F) spec4 c [cc4_scratch0, cc4_scratch1]) := by
  unfold Phi4; rw [scopedRest4_split]; simp only [scM4_0, scM4_1, owns_whole]; try rfl

theorem Phi4_pos (c : Dev nD) (n : ℕ) (hz : n ≠ 0) :
    Phi4 V c n = iprop((∃ r, prngReg c r)
      ∗ (owns (c : Thread nD τ) scM4_0 fullShare (acc4 V c n).1 ∗ owns (c : Thread nD τ) scM4_1 fullShare (acc4 V c n).2)
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-! ## The pipeline's proof data -/

/-- The proof data of the pipeline on core `c`: the arrays as the region finds them (`V`); after the body at point `t`
    each input's buffer at its block, window 2's at the mean row and window 3's at the variance row of the sums through
    `t` (consulted at the last point only: elsewhere the two windows are idle); the invariant `Phi4`; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (acc4 V c (t.val + 1)).1
    | ⟨3, _⟩ => out4_3 (acc4 V c (t.val + 1)).1 (acc4 V c (t.val + 1)).2
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (acc4 V c (t.val + 1)).1 := by dsimp only [dat4]
theorem after4_3 (c : Dev nD) (t : Fin cfg4.N) :
    (dat4 V c).after 3 t = out4_3 (acc4 V c (t.val + 1)).1 (acc4 V c (t.val + 1)).2 := by dsimp only [dat4]

theorem Phi4_castSucc (c : Dev nD) (t : Fin cfg4.N) : (dat4 V c).Φ t.castSucc = Phi4 V c t.val := by
  dsimp only [dat4]; simp only [Fin.coe_castSucc]
theorem Phi4_succ (c : Dev nD) (t : Fin cfg4.N) : (dat4 V c).Φ t.succ = Phi4 V c (t.val + 1) := rfl

/-- Each input's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

theorem acc4_zero (c : Dev nD) (n : ℕ) (hz : n = 0) : acc4 V c n = (zeroS4, zeroQ4) := by subst hz; rfl
theorem Phi4_zero' (c : Dev nD) (n : ℕ) (hz : n = 0) :
    Phi4 V c n = iprop((∃ r, prngReg c r)
      ∗ ((∃ d, owns (c : Thread nD τ) scM4_0 fullShare d) ∗ (∃ d, owns (c : Thread nD τ) scM4_1 fullShare d))
      ∗ Pipeline.scopedRestBut (Ix := Unit) (Name := ℕ) (U := UR sig nD τ) (Lvl := ℕ) (Val := Elt F) spec4 c [cc4_scratch0, cc4_scratch1]) := by
  subst hz; exact Phi4_zero V c

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t
    ∗ (dat4 V c).leavesExact 2 t ∗ (dat4 V c).leavesExact 3 t)

set_option maxHeartbeats 4000000 in
/-- The body at any point. The inputs' memrefs hold their blocks; the point's position decides the control case: at
    the first point the invariant hands the scratch rows at anything and takes them back at the first block's sums; at a
    later point it hands them at the sums so far and takes them back advanced; the output windows' buffers come back
    untouched except at the last point, where they come back at the mean and variance rows. The core owes nothing. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [Phi4_succ, Phi4_castSucc]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 10 := lt_of_lt_of_eq t.isLt (show cfg4.N = 10 from N_4)
  rw [Phi4_pos V c (t.val + 1) (Nat.succ_ne_zero _), acc4_succ]
  by_cases h1 : t.val % 10 = 9
  · have hc0 : ¬cond4_0 (grid4.coords t) := fun h => by have := (hcond4_0 t).mp h; omega
    have hc1 : cond4_1 (grid4.coords t) := (hcond4_1 t).mpr h1
    have hz : t.val ≠ 0 := by omega
    rw [show (dat4 V c).leavesExact 2 t = owns (c : Thread nD τ) (st4_2 t) fullShare ((dat4 V c).after 2 t) from by
      unfold Dat.leavesExact; rw [liveAt4_2 t hc1], after4_2]
    rw [show (dat4 V c).leavesExact 3 t = owns (c : Thread nD τ) (st4_3 t) fullShare ((dat4 V c).after 3 t) from by
      unfold Dat.leavesExact; rw [liveAt4_3 t hc1], after4_3]
    rw [Phi4_pos V c _ hz, acc4_succ]
    iintro ⟨⟨Hg, ⟨HS, HQ⟩, HR⟩, Ho, ⟨%d0, H0⟩, ⟨%d1, H1⟩, ⟨%d2, H2⟩, ⟨%d3, H3⟩⟩
    iapply (sound_kernel4_C c Set.univ (grid4.coords t) hc0 hc1 _ _ _ _ _ _ _ _ _ _ _ _ (iblk4 V c 0 t) (iblk4 V c 1 t) _ _ _ _ _)
    isplitl [H0]; · iexact H0
    isplitl [H1]; · iexact H1
    isplitl [H2]; · iexact H2
    isplitl [H3]; · iexact H3
    isplitl [HS]; · iexact HS
    isplitl [HQ]; · iexact HQ
    iintro ⟨H0, H1, H2, H3, HS, HQ⟩
    isplitl [Hg HS HQ HR]
    · isplitl [Hg]; · iexact Hg
      isplitl [HS HQ]
      · isplitl [HS]; · iexact HS
        iexact HQ
      iexact HR
    isplitl [Ho]; · iexact Ho
    isplitl [H0]; · iexact H0
    isplitl [H1]; · iexact H1
    isplitl [H2]; · iexact H2
    iexact H3
  · have hc1 : ¬cond4_1 (grid4.coords t) := fun h => h1 ((hcond4_1 t).mp h)
    rw [Dat.leavesExact_idle (dat4 V c) 2 t (idleAt4_2 t hc1) (noFlush4_2 t hc1),
      Dat.leavesExact_idle (dat4 V c) 3 t (idleAt4_3 t hc1) (noFlush4_3 t hc1)]
    by_cases h0 : t.val % 10 = 0
    · have hc0 : cond4_0 (grid4.coords t) := (hcond4_0 t).mpr h0
      have hz : t.val = 0 := by omega
      rw [Phi4_zero' V c _ hz, acc4_zero V c _ hz]
      iintro ⟨⟨Hg, ⟨⟨%s0, HS⟩, ⟨%q0, HQ⟩⟩, HR⟩, Ho, ⟨%d0, H0⟩, ⟨%d1, H1⟩, ⟨%d2, H2⟩, ⟨%d3, H3⟩⟩
      iapply (sound_kernel4_A c Set.univ (grid4.coords t) hc0 hc1 _ _ _ _ _ _ _ _ _ _ _ _ (iblk4 V c 0 t) (iblk4 V c 1 t) _ _ _ _ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, HS, HQ⟩
      isplitl [Hg HS HQ HR]
      · isplitl [Hg]; · iexact Hg
        isplitl [HS HQ]
        · isplitl [HS]; · iexact HS
          iexact HQ
        iexact HR
      isplitl [Ho]; · iexact Ho
      isplitl [H0]; · iexact H0
      isplitl [H1]; · iexact H1
      isplitl [H2]; · iexists _; iexact H2
      iexists _; iexact H3
    · have hc0 : ¬cond4_0 (grid4.coords t) := fun h => h0 ((hcond4_0 t).mp h)
      have hz : t.val ≠ 0 := by omega
      rw [Phi4_pos V c _ hz]
      iintro ⟨⟨Hg, ⟨HS, HQ⟩, HR⟩, Ho, ⟨%d0, H0⟩, ⟨%d1, H1⟩, ⟨%d2, H2⟩, ⟨%d3, H3⟩⟩
      iapply (sound_kernel4_B c Set.univ (grid4.coords t) hc0 hc1 _ _ _ _ _ _ _ _ _ _ _ _ (iblk4 V c 0 t) (iblk4 V c 1 t) _ _ _ _ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, HS, HQ⟩
      isplitl [Hg HS HQ HR]
      · isplitl [Hg]; · iexact Hg
        isplitl [HS HQ]
        · isplitl [HS]; · iexact HS
          iexact HQ
        iexact HR
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

/-- What the launch hands the region — the generator register and the scoped rest — is the invariant before the first point. -/
theorem hin4 (c : Dev nD) :
    (iprop((∃ r, prngReg c r) ∗ Pipeline.scopedRest (Ix := Unit) (Name := ℕ) (U := UR sig nD τ) (Lvl := ℕ) (Val := Elt F) spec4 c) : sProp 𝕄) ⊢ (dat4 V c).Φ 0 := by
  rw [show (dat4 V c).Φ 0 = Phi4 V c 0 from rfl]
  unfold Phi4
  exact Idealize.SL.BI.Entails.refl _

/-- After the last point the invariant gives them back: the scratch rows' named contents are forgotten. -/
theorem hout4 (c : Dev nD) :
    (dat4 V c).Φ (Fin.last cfg4.N) ⊢ (iprop((∃ r, prngReg c r) ∗ Pipeline.scopedRest (Ix := Unit) (Name := ℕ) (U := UR sig nD τ) (Lvl := ℕ) (Val := Elt F) spec4 c) : sProp 𝕄) := by
  rw [show (dat4 V c).Φ (Fin.last cfg4.N) = Phi4 V c cfg4.N from rfl,
    Phi4_pos V c _ (by rw [show cfg4.N = 10 from N_4]; decide), scopedRest4_split]
  simp only [scM4_0, scM4_1, owns_whole]
  iintro ⟨Hg, ⟨HS, HQ⟩, HR⟩
  isplitl [Hg]; · iexact Hg
  isplitl [HS HQ]
  · isplitl [HS]
    · iexists _; iexact HS
    iexists _; iexact HQ
  iexact HR

end Region

end Cert.Kernel.Hand

end
-- ==== Proof.K.Reg5.lean ====
import proofs.«171894_j11897059410618_1_alg».proof.Proof.Gen.Kernel.Launch
import proofs.«171894_j11897059410618_1_alg».proof.Proof.Gen.Kernel.Skeleton
import proofs.«171894_j11897059410618_1_alg».proof.Proof.Gen.Kernel.Points
import Idealize.ShloMosaic.Lib.Pipeline.FrameBody
import Idealize.ShloMosaic.Lib.Ring
import Idealize.ShloMosaic.Lib.Tactic

/-! # Region 5: normalise, scale, shift, add a residual block and clamp at zero, block by block

The region walks ten row blocks of a `[50000, 64]` array. At every point its body reads one `[5000, 64]` block `x`,
five `[1, 64]` rows `b, μ, σ², γ, β` that stay resident over the whole walk, and a second `[5000, 64]` block `r` of
another array, and stores `max ((((x + b) - μ) * rsqrt (σ² + ε) * γ + β) + r) 0` over the whole output block. This file
states, at any contents `V` of the core's buffers on entry: each window's block at a point, what the body leaves in the
output buffer as a function of the seven input blocks, the body's triple, the pipeline's proof data and its body
obligation. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current buffer holds its block at every point, fetched there or not, for any proof data whose
    array is the entry contents and whose body leaves the block in place: where the window is not fetched its block
    index has not moved, so the block kept from the point before is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current buffer holds its block at every point, fetched there or not, for any proof data whose
    array is the entry contents and whose body leaves the block in place: where the window is not fetched its block
    index has not moved, so the block kept from the point before is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current buffer holds its block at every point, fetched there or not, for any proof data whose
    array is the entry contents and whose body leaves the block in place: where the window is not fetched its block
    index has not moved, so the block kept from the point before is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current buffer holds its block at every point, fetched there or not, for any proof data whose
    array is the entry contents and whose body leaves the block in place: where the window is not fetched its block
    index has not moved, so the block kept from the point before is this point's. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current buffer holds its block at every point, fetched there or not, for any proof data whose
    array is the entry contents and whose body leaves the block in place: where the window is not fetched its block
    index has not moved, so the block kept from the point before is this point's. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current buffer holds its block at every point, fetched there or not, for any proof data whose
    array is the entry contents and whose body leaves the block in place: where the window is not fetched its block
    index has not moved, so the block kept from the point before is this point's. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current buffer holds its block at every point, fetched there or not, for any proof data whose
    array is the entry contents and whose body leaves the block in place: where the window is not fetched its block
    index has not moved, so the block kept from the point before is this point's. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole of a `[5000, 64]` buffer. -/
abbrev rX5 : Rect S5000x64 := Rect.unit (s := S5000x64) ![0, 0] S5000x64.size inb_S5000x64_S5000x64_0_0
/-- The whole of a `[1, 64]` buffer. -/
abbrev rR5 : Rect S1x64 := Rect.unit (s := S1x64) ![0, 0] S1x64.size inb_S1x64_S1x64_0_0

/-! ## What the body leaves in the output window's buffer -/

/-- Window 7's buffer after the body, from the seven input blocks: its one store, over the whole buffer, of the
    normalised, scaled and shifted block plus the residual block, clamped at zero. -/
def out5_7 (x0 : Vec F S5000x64 .f32) (x1 x2 x3 x4 x5 : Vec F S1x64 .f32) (x6 : Vec F S5000x64 .f32) : Vec F S5000x64 .f32 :=
  View.canon [⟨rX5, k5_pay1 (View.ld x0 rX5) (View.ld x1 rR5) (View.ld x2 rR5) (View.ld x3 rR5) (View.ld x4 rR5) (View.ld x5 rR5) (View.ld x6 rX5)⟩]

/-- The one store covers the buffer. -/
theorem cover5_7 (p0 : Vec F S5000x64 .f32) (y : S5000x64.Idx) :
    ∃ pc ∈ ([⟨rX5, p0⟩] : List (View.Piece (Elt F) S5000x64 .f32)), y ∈ pc.1.set :=
  View.cover_of_tiled [⟨rX5, p0⟩] S5000x64.size (by rfl) y

/-! ## The body's triple -/

set_option maxHeartbeats 1000000 in
/-- The body on whole buffers, the seven inputs' at read contents `x0 … x6` and the output's at anything, runs to the
    continuation holding the inputs' as they were and the output's at `out5_7` of the inputs'. -/
theorem sound_kernel5 (c : Dev nD) (E : Set ℕ) (i : grid5.Coords)
    (arg0 : Memref sig .tc .vmem S5000x64 .f32) (harg0 : arg0.IsWhole) (arg1 : Memref sig .tc .vmem S1x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S5000x64 .f32) (harg6 : arg6.IsWhole) (arg7 : Memref sig .tc .vmem S5000x64 .f32) (harg7 : arg7.IsWhole)
    (x0 : Vec F S5000x64 .f32) (x1 x2 x3 x4 x5 : Vec F S1x64 .f32) (x6 : Vec F S5000x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6
            ∗ owns (c : Thread nD τ) arg7 fullShare (out5_7 x0 x1 x2 x3 x4 x5 x6)) -∗ K ⟨⟩))
      ⊢ wp frame (wpE (defs₀ (F := F)) Variants.none c none) E (cc5_kernel i arg0 harg0 arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of the region's pipeline on core `c`: the arrays as the region finds them; after the body at point
    `t` each input's buffer at its block and the output's at `out5_7` of the seven input blocks; the invariant that of
    a body touching nothing but its windows' buffers; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 1000000 in
/-- The body at any point: the inputs' buffers hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
import proofs.«171894_j11897059410618_1_alg».proof.Proof.Gen.Kernel.Launch
import proofs.«171894_j11897059410618_1_alg».proof.Proof.Gen.Kernel.Skeleton
import proofs.«171894_j11897059410618_1_alg».proof.Proof.Gen.Kernel.Points
import Idealize.ShloMosaic.Lib.Pipeline.FrameBody
import Idealize.ShloMosaic.Lib.Ring
import Idealize.ShloMosaic.Lib.Tactic

-- membership of an index in a rectangle with thousands of rows is decided by structural recursion on the coordinates
set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 6: a row block of the left operand times the resident weight matrix

The body reads a 5000x64 block of rows and the whole 64x64 weight matrix, narrows both to bf16, multiplies
them into a zero f32 accumulator and writes the 5000x64 product over the whole output block. -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row-block window's buffer holds its block at every point, for any proof data over the entry arrays whose
    body leaves that block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight window is fetched at the first point only; its block index never moves, so its buffer still holds the
    same block at every later point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole buffer -/

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0
abbrev r6_2 : Rect S5000x64 := Rect.unit (s := S5000x64) ![0, 0] S5000x64.size inb_S5000x64_S5000x64_0_0

/-! ## What the body leaves in the output window's buffer -/

/-- The output buffer after the body: its single store, the bf16-narrowed product of the two input blocks. -/
def out6_2 (x0 : Vec F S5000x64 .f32) (x1 : Vec F S64x64 .f32) : Vec F S5000x64 .f32 :=
  View.canon [⟨r6_2, k6_pay1 (View.ld x0 r6_0) (View.ld x1 r6_1)⟩]

/-- The single store is the whole buffer, so it covers it. -/
theorem cover6_2 (p0 : Vec F S5000x64 .f32) (y : S5000x64.Idx) :
    ∃ pc ∈ ([⟨r6_2, p0⟩] : List (View.Piece (Elt F) S5000x64 .f32)), y ∈ pc.1.set :=
  View.cover_of_tiled [⟨r6_2, p0⟩] S5000x64.size (by rfl) y

/-! ## The body's triple -/

set_option maxHeartbeats 1000000 in
/-- The body on whole staging buffers, the inputs' reading `x0`, `x1` and the output's holding anything, runs to the
    continuation with the inputs as they were and the output at `out6_2 x0 x1`. -/
theorem sound_kernel6 (c : Dev nD) (E : Set ℕ) (i : grid6.Coords) (arg0 : Memref sig .tc .vmem S5000x64 .f32) (harg0 : arg0.IsWhole) (arg1 : Memref sig .tc .vmem S64x64 .f32) (harg1 : arg1.IsWhole) (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out6_2 x0 x1)) -∗ K ⟨⟩))
      ⊢ wp frame (wpE (defs₀ (F := F)) Variants.none c none) E (cc6__linear_kernel i arg0 harg0 arg1 harg1 arg2 harg2) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of this pipeline on core `c`: the arrays as the region finds them; after the body at point `t`
    each input buffer at its block and the output buffer at the product of the two blocks; the invariant is the
    untouched rest of the core; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the input buffers hold their blocks, so the body's triple applies; the invariant and
    what is owed pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
import proofs.«171894_j11897059410618_1_alg».proof.Proof.Gen.Kernel.Launch
import proofs.«171894_j11897059410618_1_alg».proof.Proof.Gen.Kernel.Skeleton
import proofs.«171894_j11897059410618_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: the batch-norm statistics kernel (column sums and sums of squares over ten row blocks,
    then mean and variance at the last block) -/

/-! ## The rectangles the body loads and stores through: each the whole of its buffer -/

abbrev rS7 : Rect S1x64 := Rect.unit (s := S1x64) ![0, 0] S1x64.size inb_S1x64_S1x64_0_0
abbrev rX7 : Rect S5000x64 := Rect.unit (s := S5000x64) ![0, 0] S5000x64.size inb_S5000x64_S5000x64_0_0

/-- The one-row rectangle covers the one-row buffer. -/
theorem coverS7 (p0 : Vec F S1x64 .f32) (L : List (View.Piece (Elt F) S1x64 .f32)) (y : S1x64.Idx) :
    ∃ pc ∈ ((⟨rS7, p0⟩ :: L) : List (View.Piece (Elt F) S1x64 .f32)), y ∈ pc.1.set :=
  ⟨⟨rS7, p0⟩, List.mem_cons_self, (View.cover_of_tiled [⟨rS7, p0⟩] S1x64.size (by rfl) y).elim fun pc h => by
    have := List.mem_singleton.mp h.1; subst this; exact h.2⟩

/-- A whole-buffer store makes the earlier stores irrelevant. -/
theorem canon_top7 (p0 : Vec F S1x64 .f32) (L : List (View.Piece (Elt F) S1x64 .f32)) :
    View.canon ((⟨rS7, p0⟩ :: L) : List (View.Piece (Elt F) S1x64 .f32)) = View.canon [⟨rS7, p0⟩] := by
  funext y
  obtain ⟨pc, hm, hy⟩ := coverS7 p0 [] y
  have := List.mem_singleton.mp hm; subst this
  obtain ⟨x, rfl⟩ : ∃ x, (rS7).emb x = y := (rS7).exists_idx_of_mem hy
  rw [View.canon_cons_emb, View.canon_cons_emb]

/-- Reading a whole-buffer store back through the same rectangle gives its payload. -/
theorem ld_canon7 (p0 : Vec F S1x64 .f32) (L : List (View.Piece (Elt F) S1x64 .f32)) :
    View.ld (View.canon ((⟨rS7, p0⟩ :: L) : List (View.Piece (Elt F) S1x64 .f32))) rS7 = p0 :=
  funext fun x => View.canon_cons_emb rS7 p0 L x

/-! ## The body's branch conditions, decided over the grid -/

/-- The first conditional: the point is the first of the grid. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 10 = 0 :=
  (by decide +kernel : ∀ t : Fin grid7.N, cond7_0 (grid7.coords t) ↔ t.val % 10 = 0)
/-- The second conditional: the point is the last of the grid. -/
abbrev cond7_1 (i : grid7.Coords) : Prop := k7_cond2 i = 1#1
theorem hcond7_1 : ∀ t : Fin cfg7.N, cond7_1 (grid7.coords t) ↔ t.val % 10 = 9 :=
  (by decide +kernel : ∀ t : Fin grid7.N, cond7_1 (grid7.coords t) ↔ t.val % 10 = 9)

/-- The input windows are never idle; the output windows are idle exactly off the last point, where they are
    not written back either. -/
theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬cond7_1 (grid7.coords t) → cfg7.idle 2 (grid7.coords t) = true := by decide +kernel
theorem idleAt7_3 : ∀ t : Fin cfg7.N, ¬cond7_1 (grid7.coords t) → cfg7.idle 3 (grid7.coords t) = true := by decide +kernel
theorem noFlush7_2 : ∀ t : Fin cfg7.N, ¬cond7_1 (grid7.coords t) → (cfg7.win 2).flush t = false := by decide +kernel
theorem noFlush7_3 : ∀ t : Fin cfg7.N, ¬cond7_1 (grid7.coords t) → (cfg7.win 3).flush t = false := by decide +kernel
theorem liveAt7_2 : ∀ t : Fin cfg7.N, cond7_1 (grid7.coords t) → cfg7.idle 2 (grid7.coords t) = false := by decide +kernel
theorem liveAt7_3 : ∀ t : Fin cfg7.N, cond7_1 (grid7.coords t) → cfg7.idle 3 (grid7.coords t) = false := by decide +kernel

/-! ## What one point does to the two running sums, and what the last point stores -/

/-- The running column sum after a point: the sum before it plus the column sums of the block plus the bias row. -/
def stepS7 (x : Vec F S5000x64 .f32) (b : Vec F S1x64 .f32) (s : Vec F S1x64 .f32) : Vec F S1x64 .f32 :=
  View.canon [⟨rS7, k7_pay4 (View.ld x rX7) (View.ld b rS7) (View.ld s rS7)⟩]
/-- The running column sum of squares after a point. -/
def stepQ7 (x : Vec F S5000x64 .f32) (b : Vec F S1x64 .f32) (q : Vec F S1x64 .f32) : Vec F S1x64 .f32 :=
  View.canon [⟨rS7, k7_pay5 (View.ld x rX7) (View.ld b rS7) (View.ld q rS7)⟩]
/-- The two sums as the first point's reset leaves them: zero rows. -/
def zeroS7 : Vec F S1x64 .f32 := View.canon [⟨rS7, k7_pay1 (F := F)⟩]
def zeroQ7 : Vec F S1x64 .f32 := View.canon [⟨rS7, k7_pay2 (F := F)⟩]
/-- The mean row the last point stores into window 2's buffer, from the final column sum. -/
def out7_2 (s : Vec F S1x64 .f32) : Vec F S1x64 .f32 :=
  View.canon [⟨rS7, k7_pay6 (View.ld s rS7)⟩]
/-- The variance row the last point stores into window 3's buffer, from the final sums. -/
def out7_3 (s : Vec F S1x64 .f32) (q : Vec F S1x64 .f32) : Vec F S1x64 .f32 :=
  View.canon [⟨rS7, k7_pay7 (View.ld s rS7) (View.ld q rS7)⟩]

/-! ## The body's triple, one per control case -/

set_option maxHeartbeats 4000000 in
/-- A middle point: neither conditional taken. On whole memrefs — the two input buffers at `x`, `b`, the two output
    buffers at anything (handed back untouched), the two sums at `s`, `q` — the body runs to the continuation with the
    sums advanced by the block. -/
theorem sound_kernel7_B (c : Dev nD) (E : Set ℕ) (i : grid7.Coords) (hc0 : ¬cond7_0 i) (hc1 : ¬cond7_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (stepS7 x b s) ∗ owns (c : Thread nD τ) arg6 fullShare (stepQ7 x b q)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverS7 _ _)
  iexists _; isplitr
  swap; · iexact H6
  ipureintro
  exact View.read_writes_eq_canon _ _ _ (coverS7 _ _)

set_option maxHeartbeats 4000000 in
/-- The first point: the first conditional taken (the sums are reset to zero rows whatever they held), the second not. -/
theorem sound_kernel7_A (c : Dev nD) (E : Set ℕ) (i : grid7.Coords) (hc0 : cond7_0 i) (hc1 : ¬cond7_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (stepS7 x b (zeroS7 (F := F))) ∗ owns (c : Thread nD τ) arg6 fullShare (stepQ7 x b (zeroQ7 (F := F)))) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverS7 _ _), canon_top7]
    unfold stepS7 zeroS7
    rw [ld_canon7]
    have e9 : sound_kernel7_A.sl.v9 c arg5 = k7_pay1 (F := F) := View.readCov_cons_toLoadRect _ _ _ _
    rw [e9]; rfl
  iexists _; isplitr
  swap; · iexact H6
  ipureintro
  rw [View.read_writes_eq_canon _ _ _ (coverS7 _ _), canon_top7]
  unfold stepQ7 zeroQ7
  rw [ld_canon7]
  have e16 : sound_kernel7_A.sl.v16 c arg6 = k7_pay2 (F := F) := View.readCov_cons_toLoadRect _ _ _ _
  rw [e16]; rfl

set_option maxHeartbeats 4000000 in
/-- The last point: the first conditional not taken, the second taken — the sums advanced, then the mean row stored
    into window 2's buffer and the variance row into window 3's, whatever those held. -/
theorem sound_kernel7_C (c : Dev nD) (E : Set ℕ) (i : grid7.Coords) (hc0 : ¬cond7_0 i) (hc1 : cond7_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare (out7_2 (stepS7 x b s)) ∗ owns (c : Thread nD τ) arg4 fullShare (out7_3 (stepS7 x b s) (stepQ7 x b q))
            ∗ owns (c : Thread nD τ) arg5 fullShare (stepS7 x b s) ∗ owns (c : Thread nD τ) arg6 fullShare (stepQ7 x b q)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (coverS7 _ _)]
    unfold out7_2 stepS7
    rw [ld_canon7]
    have e27 : sound_kernel7_C.sl.v27 c arg1 arg2 arg5 f1 f2 f5 = k7_pay4 (View.ld (View.read (Elt F) arg1.view f1) rX7) (View.ld (View.read (Elt F) arg2.view f2) rS7) (View.ld (View.read (Elt F) arg5.view f5) rS7) :=
      View.readCov_cons_toLoadRect _ _ _ _
    rw [e27]
  isplitl [H4]
  · iexists _; isplitr
    swap; · iexact H4
    ipureintro
    rw [View.read_writes_eq_canon _ _ _ (coverS7 _ _)]
    unfold out7_3 stepS7 stepQ7
    rw [ld_canon7, ld_canon7]
    have e27 : sound_kernel7_C.sl.v27 c arg1 arg2 arg5 f1 f2 f5 = k7_pay4 (View.ld (View.read (Elt F) arg1.view f1) rX7) (View.ld (View.read (Elt F) arg2.view f2) rS7) (View.ld (View.read (Elt F) arg5.view f5) rS7) :=
      View.readCov_cons_toLoadRect _ _ _ _
    have e30 : sound_kernel7_C.sl.v30 c arg1 arg2 arg6 f1 f2 f6 = k7_pay5 (View.ld (View.read (Elt F) arg1.view f1) rX7) (View.ld (View.read (Elt F) arg2.view f2) rS7) (View.ld (View.read (Elt F) arg6.view f6) rS7) :=
      View.readCov_cons_toLoadRect _ _ _ _
    rw [e27, e30]
  isplitl [H5]
  · iexists _; isplitr
    swap; · iexact H5
    ipureintro
    exact View.read_writes_eq_canon _ _ _ (coverS7 _ _)
  iexists _; isplitr
  swap; · iexact H6
  ipureintro
  exact View.read_writes_eq_canon _ _ _ (coverS7 _ _)

/-! ## The windows' blocks, the running sums point by point, the invariant -/

section Region
variable (V : (c : Dev nD) → (b : Ref sig .tc) → Buf (Elt F) ((c : Thread nD τ).loc b))

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The two scratch operands as whole memrefs. -/
abbrev scM7_0 : Memref sig .tc .vmem S1x64 .f32 := Memref.whole cc7_scratch0
abbrev scM7_1 : Memref sig .tc .vmem S1x64 .f32 := Memref.whole cc7_scratch1

/-- The pair (column sum, column sum of squares) over the first `n` blocks: zero rows, then one step per block. -/
def acc7 (c : Dev nD) : ℕ → Vec F S1x64 .f32 × Vec F S1x64 .f32
  | 0 => (zeroS7, zeroQ7)
  | n + 1 =>
    if h : n < cfg7.N then
      (stepS7 (iblk7 V c 0 ⟨n, h⟩) (iblk7 V c 1 ⟨n, h⟩) (acc7 c n).1,
       stepQ7 (iblk7 V c 0 ⟨n, h⟩) (iblk7 V c 1 ⟨n, h⟩) (acc7 c n).2)
    else acc7 c n

theorem acc7_succ (c : Dev nD) (t : Fin cfg7.N) :
    acc7 V c (t.val + 1) = (stepS7 (iblk7 V c 0 t) (iblk7 V c 1 t) (acc7 V c t.val).1,
       stepQ7 (iblk7 V c 0 t) (iblk7 V c 1 t) (acc7 V c t.val).2) := by
  obtain ⟨n, hn⟩ := t
  exact dif_pos hn

/-- The invariant before position `n`: the generator register at some state and the scoped buffers that are no
    staging buffer — before the first point all at anything; afterwards the two scratch rows at the sums over the
    first `n` blocks, the others at anything. -/
def Phi7 (c : Dev nD) : ℕ → sProp 𝕄
  | 0 => iprop((∃ r, prngReg c r) ∗ Pipeline.scopedRest (Ix := Unit) (Name := ℕ) (U := UR sig nD τ) (Lvl := ℕ) (Val := Elt F) spec7 c)
  | n + 1 => iprop((∃ r, prngReg c r)
      ∗ (owns (c : Thread nD τ) scM7_0 fullShare (acc7 V c (n + 1)).1 ∗ owns (c : Thread nD τ) scM7_1 fullShare (acc7 V c (n + 1)).2)
      ∗ Pipeline.scopedRestBut (Ix := Unit) (Name := ℕ) (U := UR sig nD τ) (Lvl := ℕ) (Val := Elt F) spec7 c [cc7_scratch0, cc7_scratch1])

/-- Before the first point, with the two scratch rows taken out of the scoped rest as memrefs at some contents. -/
theorem Phi7_zero (c : Dev nD) :
    Phi7 V c 0 = iprop((∃ r, prngReg c r)
      ∗ ((∃ d, owns (c : Thread nD τ) scM7_0 fullShare d) ∗ (∃ d, owns (c : Thread nD τ) scM7_1 fullShare d))
      ∗ Pipeline.scopedRestBut (Ix := Unit) (Name := ℕ) (U := UR sig nD τ) (Lvl := ℕ) (Val := Elt F) spec7 c [cc7_scratch0, cc7_scratch1]) := by
  unfold Phi7; rw [scopedRest7_split]; simp only [scM7_0, scM7_1, owns_whole]; try rfl

theorem Phi7_pos (c : Dev nD) (n : ℕ) (hz : n ≠ 0) :
    Phi7 V c n = iprop((∃ r, prngReg c r)
      ∗ (owns (c : Thread nD τ) scM7_0 fullShare (acc7 V c n).1 ∗ owns (c : Thread nD τ) scM7_1 fullShare (acc7 V c n).2)
      ∗ Pipeline.scopedRestBut (Ix := Unit) (Name := ℕ) (U := UR sig nD τ) (Lvl := ℕ) (Val := Elt F) spec7 c [cc7_scratch0, cc7_scratch1]) := by
  cases n with
  | zero => exact absurd rfl hz
  | succ n => rfl

/-! ## The pipeline's proof data -/

/-- The proof data of the pipeline on core `c`: the arrays as the region finds them (`V`); after the body at point `t`
    each input's buffer at its block, window 2's at the mean row and window 3's at the variance row of the sums through
    `t` (consulted at the last point only: elsewhere the two windows are idle); the invariant `Phi7`; nothing owed;
    full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (acc7 V c (t.val + 1)).1
    | ⟨3, _⟩ => out7_3 (acc7 V c (t.val + 1)).1 (acc7 V c (t.val + 1)).2
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (acc7 V c (t.val + 1)).1 := by dsimp only [dat7]
theorem after7_3 (c : Dev nD) (t : Fin cfg7.N) :
    (dat7 V c).after 3 t = out7_3 (acc7 V c (t.val + 1)).1 (acc7 V c (t.val + 1)).2 := by dsimp only [dat7]

theorem Phi7_castSucc (c : Dev nD) (t : Fin cfg7.N) : (dat7 V c).Φ t.castSucc = Phi7 V c t.val := by
  dsimp only [dat7]; simp only [Fin.coe_castSucc]
theorem Phi7_succ (c : Dev nD) (t : Fin cfg7.N) : (dat7 V c).Φ t.succ = Phi7 V c (t.val + 1) := rfl

/-- Each input's current staging buffer holds its block at every point, fetched there or not. -/
theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)

theorem acc7_zero (c : Dev nD) (n : ℕ) (hz : n = 0) : acc7 V c n = (zeroS7, zeroQ7) := by subst hz; rfl
theorem Phi7_zero' (c : Dev nD) (n : ℕ) (hz : n = 0) :
    Phi7 V c n = iprop((∃ r, prngReg c r)
      ∗ ((∃ d, owns (c : Thread nD τ) scM7_0 fullShare d) ∗ (∃ d, owns (c : Thread nD τ) scM7_1 fullShare d))
      ∗ Pipeline.scopedRestBut (Ix := Unit) (Name := ℕ) (U := UR sig nD τ) (Lvl := ℕ) (Val := Elt F) spec7 c [cc7_scratch0, cc7_scratch1]) := by
  subst hz; exact Phi7_zero V c

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t
    ∗ (dat7 V c).leavesExact 2 t ∗ (dat7 V c).leavesExact 3 t)

set_option maxHeartbeats 4000000 in
/-- The body at any point. The inputs' memrefs hold their blocks; the point's position decides the control case: at
    the first point the invariant hands the scratch rows at anything and takes them back at the first block's sums; at a
    later point it hands them at the sums so far and takes them back advanced; the output windows' buffers come back
    untouched except at the last point, where they come back at the mean and variance rows. The core owes nothing. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [Phi7_succ, Phi7_castSucc]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  have hN : t.val < 10 := lt_of_lt_of_eq t.isLt (show cfg7.N = 10 from N_7)
  rw [Phi7_pos V c (t.val + 1) (Nat.succ_ne_zero _), acc7_succ]
  by_cases h1 : t.val % 10 = 9
  · have hc0 : ¬cond7_0 (grid7.coords t) := fun h => by have := (hcond7_0 t).mp h; omega
    have hc1 : cond7_1 (grid7.coords t) := (hcond7_1 t).mpr h1
    have hz : t.val ≠ 0 := by omega
    rw [show (dat7 V c).leavesExact 2 t = owns (c : Thread nD τ) (st7_2 t) fullShare ((dat7 V c).after 2 t) from by
      unfold Dat.leavesExact; rw [liveAt7_2 t hc1], after7_2]
    rw [show (dat7 V c).leavesExact 3 t = owns (c : Thread nD τ) (st7_3 t) fullShare ((dat7 V c).after 3 t) from by
      unfold Dat.leavesExact; rw [liveAt7_3 t hc1], after7_3]
    rw [Phi7_pos V c _ hz, acc7_succ]
    iintro ⟨⟨Hg, ⟨HS, HQ⟩, HR⟩, Ho, ⟨%d0, H0⟩, ⟨%d1, H1⟩, ⟨%d2, H2⟩, ⟨%d3, H3⟩⟩
    iapply (sound_kernel7_C c Set.univ (grid7.coords t) hc0 hc1 _ _ _ _ _ _ _ _ _ _ _ _ (iblk7 V c 0 t) (iblk7 V c 1 t) _ _ _ _ _)
    isplitl [H0]; · iexact H0
    isplitl [H1]; · iexact H1
    isplitl [H2]; · iexact H2
    isplitl [H3]; · iexact H3
    isplitl [HS]; · iexact HS
    isplitl [HQ]; · iexact HQ
    iintro ⟨H0, H1, H2, H3, HS, HQ⟩
    isplitl [Hg HS HQ HR]
    · isplitl [Hg]; · iexact Hg
      isplitl [HS HQ]
      · isplitl [HS]; · iexact HS
        iexact HQ
      iexact HR
    isplitl [Ho]; · iexact Ho
    isplitl [H0]; · iexact H0
    isplitl [H1]; · iexact H1
    isplitl [H2]; · iexact H2
    iexact H3
  · have hc1 : ¬cond7_1 (grid7.coords t) := fun h => h1 ((hcond7_1 t).mp h)
    rw [Dat.leavesExact_idle (dat7 V c) 2 t (idleAt7_2 t hc1) (noFlush7_2 t hc1),
      Dat.leavesExact_idle (dat7 V c) 3 t (idleAt7_3 t hc1) (noFlush7_3 t hc1)]
    by_cases h0 : t.val % 10 = 0
    · have hc0 : cond7_0 (grid7.coords t) := (hcond7_0 t).mpr h0
      have hz : t.val = 0 := by omega
      rw [Phi7_zero' V c _ hz, acc7_zero V c _ hz]
      iintro ⟨⟨Hg, ⟨⟨%s0, HS⟩, ⟨%q0, HQ⟩⟩, HR⟩, Ho, ⟨%d0, H0⟩, ⟨%d1, H1⟩, ⟨%d2, H2⟩, ⟨%d3, H3⟩⟩
      iapply (sound_kernel7_A c Set.univ (grid7.coords t) hc0 hc1 _ _ _ _ _ _ _ _ _ _ _ _ (iblk7 V c 0 t) (iblk7 V c 1 t) _ _ _ _ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, HS, HQ⟩
      isplitl [Hg HS HQ HR]
      · isplitl [Hg]; · iexact Hg
        isplitl [HS HQ]
        · isplitl [HS]; · iexact HS
          iexact HQ
        iexact HR
      isplitl [Ho]; · iexact Ho
      isplitl [H0]; · iexact H0
      isplitl [H1]; · iexact H1
      isplitl [H2]; · iexists _; iexact H2
      iexists _; iexact H3
    · have hc0 : ¬cond7_0 (grid7.coords t) := fun h => h0 ((hcond7_0 t).mp h)
      have hz : t.val ≠ 0 := by omega
      rw [Phi7_pos V c _ hz]
      iintro ⟨⟨Hg, ⟨HS, HQ⟩, HR⟩, Ho, ⟨%d0, H0⟩, ⟨%d1, H1⟩, ⟨%d2, H2⟩, ⟨%d3, H3⟩⟩
      iapply (sound_kernel7_B c Set.univ (grid7.coords t) hc0 hc1 _ _ _ _ _ _ _ _ _ _ _ _ (iblk7 V c 0 t) (iblk7 V c 1 t) _ _ _ _ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, HS, HQ⟩
      isplitl [Hg HS HQ HR]
      · isplitl [Hg]; · iexact Hg
        isplitl [HS HQ]
        · isplitl [HS]; · iexact HS
          iexact HQ
        iexact HR
      isplitl [Ho]; · iexact Ho
      isplitl [H0]; · iexact H0
      isplitl [H1]; · iexact H1
      isplitl [H2]; · iexists _; iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Into and out of the invariant -/

/-- What the launch hands the region — the generator register and the scoped rest — is the invariant before the first point. -/
theorem hin7 (c : Dev nD) :
    (iprop((∃ r, prngReg c r) ∗ Pipeline.scopedRest (Ix := Unit) (Name := ℕ) (U := UR sig nD τ) (Lvl := ℕ) (Val := Elt F) spec7 c) : sProp 𝕄) ⊢ (dat7 V c).Φ 0 := by
  rw [show (dat7 V c).Φ 0 = Phi7 V c 0 from rfl]
  unfold Phi7
  exact Idealize.SL.BI.Entails.refl _

/-- After the last point the invariant gives them back: the scratch rows' named contents are forgotten. -/
theorem hout7 (c : Dev nD) :
    (dat7 V c).Φ (Fin.last cfg7.N) ⊢ (iprop((∃ r, prngReg c r) ∗ Pipeline.scopedRest (Ix := Unit) (Name := ℕ) (U := UR sig nD τ) (Lvl := ℕ) (Val := Elt F) spec7 c) : sProp 𝕄) := by
  rw [show (dat7 V c).Φ (Fin.last cfg7.N) = Phi7 V c cfg7.N from rfl,
    Phi7_pos V c _ (by rw [show cfg7.N = 10 from N_7]; decide), scopedRest7_split]
  simp only [scM7_0, scM7_1, owns_whole]
  iintro ⟨Hg, ⟨HS, HQ⟩, HR⟩
  isplitl [Hg]; · iexact Hg
  isplitl [HS HQ]
  · isplitl [HS]
    · iexists _; iexact HS
    iexists _; iexact HQ
  iexact HR

end Region

end Cert.Kernel.Hand

end
-- ==== Proof.K.Reg8.lean ====
import proofs.«171894_j11897059410618_1_alg».proof.Proof.Gen.Kernel.Launch
import proofs.«171894_j11897059410618_1_alg».proof.Proof.Gen.Kernel.Skeleton
import proofs.«171894_j11897059410618_1_alg».proof.Proof.Gen.Kernel.Points
import Idealize.ShloMosaic.Lib.Pipeline.FrameBody
import Idealize.ShloMosaic.Lib.Ring
import Idealize.ShloMosaic.Lib.Tactic

/-! # Region 8: normalise, scale, shift and clamp at zero, block by block

The region walks ten row blocks of a `[50000, 64]` array. At every point its body reads one `[5000, 64]` block `x`
and five `[1, 64]` rows `b, μ, σ², γ, β` that stay resident over the whole walk, and stores
`max (((x + b) - μ) * rsqrt (σ² + ε) * γ + β) 0` over the whole output block. This file states, at any contents `V`
of the core's buffers on entry: each window's block at a point, what the body leaves in the output buffer as a function
of the six input blocks, the body's triple, the pipeline's proof data and its body obligation. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current buffer holds its block at every point, fetched there or not, for any proof data whose
    array is the entry contents and whose body leaves the block in place: where the window is not fetched its block
    index has not moved, so the block kept from the point before is this point's. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current buffer holds its block at every point, fetched there or not, for any proof data whose
    array is the entry contents and whose body leaves the block in place: where the window is not fetched its block
    index has not moved, so the block kept from the point before is this point's. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current buffer holds its block at every point, fetched there or not, for any proof data whose
    array is the entry contents and whose body leaves the block in place: where the window is not fetched its block
    index has not moved, so the block kept from the point before is this point's. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current buffer holds its block at every point, fetched there or not, for any proof data whose
    array is the entry contents and whose body leaves the block in place: where the window is not fetched its block
    index has not moved, so the block kept from the point before is this point's. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current buffer holds its block at every point, fetched there or not, for any proof data whose
    array is the entry contents and whose body leaves the block in place: where the window is not fetched its block
    index has not moved, so the block kept from the point before is this point's. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current buffer holds its block at every point, fetched there or not, for any proof data whose
    array is the entry contents and whose body leaves the block in place: where the window is not fetched its block
    index has not moved, so the block kept from the point before is this point's. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole of a `[5000, 64]` buffer. -/
abbrev rX8 : Rect S5000x64 := Rect.unit (s := S5000x64) ![0, 0] S5000x64.size inb_S5000x64_S5000x64_0_0
/-- The whole of a `[1, 64]` buffer. -/
abbrev rR8 : Rect S1x64 := Rect.unit (s := S1x64) ![0, 0] S1x64.size inb_S1x64_S1x64_0_0

/-! ## What the body leaves in the output window's buffer -/

/-- Window 6's buffer after the body, from the six input blocks: its one store, over the whole buffer, of the
    normalised, scaled, shifted and clamped block. -/
def out8_6 (x0 : Vec F S5000x64 .f32) (x1 x2 x3 x4 x5 : Vec F S1x64 .f32) : Vec F S5000x64 .f32 :=
  View.canon [⟨rX8, k8_pay1 (View.ld x0 rX8) (View.ld x1 rR8) (View.ld x2 rR8) (View.ld x3 rR8) (View.ld x4 rR8) (View.ld x5 rR8)⟩]

/-- The one store covers the buffer. -/
theorem cover8_6 (p0 : Vec F S5000x64 .f32) (y : S5000x64.Idx) :
    ∃ pc ∈ ([⟨rX8, p0⟩] : List (View.Piece (Elt F) S5000x64 .f32)), y ∈ pc.1.set :=
  View.cover_of_tiled [⟨rX8, p0⟩] S5000x64.size (by rfl) y

/-! ## The body's triple -/

set_option maxHeartbeats 1000000 in
/-- The body on whole buffers, the six inputs' at read contents `x0 … x5` and the output's at anything, runs to the
    continuation holding the inputs' as they were and the output's at `out8_6` of the inputs'. -/
theorem sound_kernel8 (c : Dev nD) (E : Set ℕ) (i : grid8.Coords)
    (arg0 : Memref sig .tc .vmem S5000x64 .f32) (harg0 : arg0.IsWhole) (arg1 : Memref sig .tc .vmem S1x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S5000x64 .f32) (harg6 : arg6.IsWhole)
    (x0 : Vec F S5000x64 .f32) (x1 x2 x3 x4 x5 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out8_6 x0 x1 x2 x3 x4 x5)) -∗ K ⟨⟩))
      ⊢ wp frame (wpE (defs₀ (F := F)) Variants.none c none) E (cc8_kernel i arg0 harg0 arg1 harg1 arg2 harg2 arg3 harg3 arg4 harg4 arg5 harg5 arg6 harg6) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of the region's pipeline on core `c`: the arrays as the region finds them; after the body at point
    `t` each input's buffer at its block and the output's at `out8_6` of the six input blocks; the invariant that of
    a body touching nothing but its windows' buffers; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

set_option maxHeartbeats 1000000 in
/-- The body at any point: the inputs' buffers hold their blocks, so the body's triple applies; the invariant and the
    core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Reg9.lean ====
import proofs.«171894_j11897059410618_1_alg».proof.Proof.Gen.Kernel.Launch
import proofs.«171894_j11897059410618_1_alg».proof.Proof.Gen.Kernel.Skeleton
import proofs.«171894_j11897059410618_1_alg».proof.Proof.Gen.Kernel.Points
import Idealize.ShloMosaic.Lib.Pipeline.FrameBody
import Idealize.ShloMosaic.Lib.Ring
import Idealize.ShloMosaic.Lib.Tactic

-- membership of an index in a rectangle with thousands of rows is decided by structural recursion on the coordinates
set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 9: a three-layer head on one block of 256 rows

The body reads eight whole buffers — rows, weights and biases — and computes, with every matrix product on
bf16-narrowed operands into a zero f32 accumulator: relu(rows · W₁ + b₁), then relu(that · W₂ + b₂), then the second
row block and that result side by side along the columns, times the last weights plus the last bias. It writes the
256x1 result over the whole output buffer. The grid has one point. -/

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Window 0 (the first layer's 256x64 input rows): its buffer holds its block at the point, for any proof data over the entry arrays whose
    body leaves that block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Window 1 (the first layer's 64x128 weights): its buffer holds its block at the point, for any proof data over the entry arrays whose
    body leaves that block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Window 2 (the first layer's 1x128 bias): its buffer holds its block at the point, for any proof data over the entry arrays whose
    body leaves that block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Window 3 (the second layer's 128x64 weights): its buffer holds its block at the point, for any proof data over the entry arrays whose
    body leaves that block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Window 4 (the second layer's 1x64 bias): its buffer holds its block at the point, for any proof data over the entry arrays whose
    body leaves that block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Window 5 (the 256x64 rows concatenated in front of the second layer's output): its buffer holds its block at the point, for any proof data over the entry arrays whose
    body leaves that block in place. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- Window 6 (the last layer's 128x1 weights): its buffer holds its block at the point, for any proof data over the entry arrays whose
    body leaves that block in place. -/
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-- Window 7 (the last layer's 1x1 bias): its buffer holds its block at the point, for any proof data over the entry arrays whose
    body leaves that block in place. -/
theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each is the whole buffer -/

abbrev r9_0 : Rect S256x64 := Rect.unit (s := S256x64) ![0, 0] S256x64.size inb_S256x64_S256x64_0_0
abbrev r9_1 : Rect S64x128 := Rect.unit (s := S64x128) ![0, 0] S64x128.size inb_S64x128_S64x128_0_0
abbrev r9_2 : Rect S1x128 := Rect.unit (s := S1x128) ![0, 0] S1x128.size inb_S1x128_S1x128_0_0
abbrev r9_3 : Rect S128x64 := Rect.unit (s := S128x64) ![0, 0] S128x64.size inb_S128x64_S128x64_0_0
abbrev r9_4 : Rect S1x64 := Rect.unit (s := S1x64) ![0, 0] S1x64.size inb_S1x64_S1x64_0_0
abbrev r9_5 : Rect S256x64 := Rect.unit (s := S256x64) ![0, 0] S256x64.size inb_S256x64_S256x64_0_0
abbrev r9_6 : Rect S128x1 := Rect.unit (s := S128x1) ![0, 0] S128x1.size inb_S128x1_S128x1_0_0
abbrev r9_7 : Rect S1x1 := Rect.unit (s := S1x1) ![0, 0] S1x1.size inb_S1x1_S1x1_0_0
abbrev r9_8 : Rect S256x1 := Rect.unit (s := S256x1) ![0, 0] S256x1.size inb_S256x1_S256x1_0_0

/-! ## What the body leaves in the output window's buffer -/

/-- The output buffer after the body: its single store, the head's value on the eight input blocks. -/
def out9_8 (x0 : Vec F S256x64 .f32) (x1 : Vec F S64x128 .f32) (x2 : Vec F S1x128 .f32) (x3 : Vec F S128x64 .f32) (x4 : Vec F S1x64 .f32) (x5 : Vec F S256x64 .f32) (x6 : Vec F S128x1 .f32) (x7 : Vec F S1x1 .f32) : Vec F S256x1 .f32 :=
  View.canon [⟨r9_8, k9_pay1 (View.ld x0 r9_0) (View.ld x1 r9_1) (View.ld x2 r9_2) (View.ld x3 r9_3) (View.ld x4 r9_4) (View.ld x5 r9_5) (View.ld x6 r9_6) (View.ld x7 r9_7)⟩]

/-- The single store is the whole buffer, so it covers it. -/
theorem cover9_8 (p0 : Vec F S256x1 .f32) (y : S256x1.Idx) :
    ∃ pc ∈ ([⟨r9_8, p0⟩] : List (View.Piece (Elt F) S256x1 .f32)), y ∈ pc.1.set :=
  View.cover_of_tiled [⟨r9_8, p0⟩] S256x1.size (by rfl) y

/-! ## The body's triple -/

set_option maxHeartbeats 4000000 in
/-- The body on whole staging buffers, the inputs' reading `x0 … x7` and the output's holding anything, runs to the
    continuation with the inputs as they were and the output at `out9_8` of them. -/
theorem sound_kernel9 (c : Dev nD) (E : Set ℕ) (i : grid9.Coords) (arg0 : Memref sig .tc .vmem S256x64 .f32) (harg0 : arg0.IsWhole) (arg1 : Memref sig .tc .vmem S64x128 .f32) (harg1 : arg1.IsWhole) (arg2 : Memref sig .tc .vmem S1x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S256x64 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S256x1 .f32) (harg8 : arg8.IsWhole)
    (x0 : Vec F S256x64 .f32) (x1 : Vec F S64x128 .f32) (x2 : Vec F S1x128 .f32) (x3 : Vec F S128x64 .f32) (x4 : Vec F S1x64 .f32) (x5 : Vec F S256x64 .f32) (x6 : Vec F S128x1 .f32) (x7 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out9_8 x0 x1 x2 x3 x4 x5 x6 x7)) -∗ K ⟨⟩))
      ⊢ wp frame (wpE (defs₀ (F := F)) Variants.none c none) E (cc9__fusion_kernel i arg0 harg0 arg1 harg1 arg2 harg2 arg3 harg3 arg4 harg4 arg5 harg5 arg6 harg6 arg7 harg7 arg8 harg8) K := by
  simp only [cc9__fusion_kernel_eq_skeleton]; unfold cc9__fusion_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover9_8 _)

/-! ## The pipeline's proof data -/

/-- The proof data of this pipeline on core `c`: the arrays as the region finds them; after the body each input
    buffer at its block and the output buffer at the head's value on the eight blocks; the invariant is the untouched
    rest of the core; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => out9_8 (iblk9 V c 0 t) (iblk9 V c 1 t) (iblk9 V c 2 t) (iblk9 V c 3 t) (iblk9 V c 4 t) (iblk9 V c 5 t) (iblk9 V c 6 t) (iblk9 V c 7 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = out9_8 (iblk9 V c 0 t) (iblk9 V c 1 t) (iblk9 V c 2 t) (iblk9 V c 3 t) (iblk9 V c 4 t) (iblk9 V c 5 t) (iblk9 V c 6 t) (iblk9 V c 7 t) := by dsimp only [dat9]

/-- Each input's current buffer holds its block at the point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t))

/-- The body at the point: the input buffers hold their blocks, so the body's triple applies; the invariant and
    what is owed pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7, after9_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel9 c Set.univ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Frame.lean ====
/-
  The frame of the whole program, assembled from its ten kernel regions.

  Between two items of @main every unscoped buffer of a core is held whole at a known valuation: the launch memory,
  then the host operations of each stretch applied to it, then, after a region, the same valuation with the region's
  windowed arrays at what the region's write-backs leave. Each region is entered from the valuation before it and
  left at the one after it; the program therefore terminates without a fault and ends with every unscoped buffer at
  the last valuation, from which both the unchanged arguments and the result are read.
-/
import proofs.«171894_j11897059410618_1_alg».proof.Proof.Gen.Kernel.Launch
import proofs.«171894_j11897059410618_1_alg».proof.Proof.Gen.Kernel.Skeleton
import proofs.«171894_j11897059410618_1_alg».proof.Proof.Gen.Kernel.Points
import proofs.«171894_j11897059410618_1_alg».proof.Proof.Gen.Kernel.Regions
import proofs.«171894_j11897059410618_1_alg».proof.Proof.K.Reg0
import proofs.«171894_j11897059410618_1_alg».proof.Proof.K.Reg1
import proofs.«171894_j11897059410618_1_alg».proof.Proof.K.Reg2
import proofs.«171894_j11897059410618_1_alg».proof.Proof.K.Reg3
import proofs.«171894_j11897059410618_1_alg».proof.Proof.K.Reg4
import proofs.«171894_j11897059410618_1_alg».proof.Proof.K.Reg5
import proofs.«171894_j11897059410618_1_alg».proof.Proof.K.Reg6
import proofs.«171894_j11897059410618_1_alg».proof.Proof.K.Reg7
import proofs.«171894_j11897059410618_1_alg».proof.Proof.K.Reg8
import proofs.«171894_j11897059410618_1_alg».proof.Proof.K.Reg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at every boundary of @main -/

/-- A core's buffers at launch. -/
abbrev B0 : Dev nD → Valuation τ sig (Elt F) := fun c b => (s₀ m ρ).mem ((c : Dev nD), b)
/-- After the host stretch number 0. -/
abbrev B1 : Dev nD → Valuation τ sig (Elt F) := fun c => StableHlo.after hostOps0 (B0 m ρ c)
/-- The same valuation read at the TensorCore's references. -/
abbrev U1 : (c : Dev nD) → (b : Ref sig .tc) → Buf (Elt F) ((c : Thread nD τ).loc b) := fun c b => B1 m ρ c b
/-- After region 0: its windowed arrays at what its write-backs leave, every other buffer as entered. -/
def B2 (c : Dev nD) : Valuation τ sig (Elt F) :=
  Pipeline.withArrays spec0 c (B1 m ρ c) fun w => (dat0 (U1 m ρ) c).arrAt w cfg0.N
theorem B2_arr (c : Dev nD) (w : Fin cfg0.W) :
    B2 m ρ c (Proc.devRef .tc (Pipeline.arrRef spec0 w)) = (dat0 (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same valuation read at the TensorCore's references. -/
abbrev U2 : (c : Dev nD) → (b : Ref sig .tc) → Buf (Elt F) ((c : Thread nD τ).loc b) := fun c b => B2 m ρ c b
theorem hF0 (c : Dev nD) (w : Fin cfg0.W) : (dat0 (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)
/-- After the host stretch number 1. -/
abbrev B3 : Dev nD → Valuation τ sig (Elt F) := fun c => StableHlo.after hostOps1 (B2 m ρ c)
/-- The same valuation read at the TensorCore's references. -/
abbrev U3 : (c : Dev nD) → (b : Ref sig .tc) → Buf (Elt F) ((c : Thread nD τ).loc b) := fun c b => B3 m ρ c b
/-- After region 1: its windowed arrays at what its write-backs leave, every other buffer as entered. -/
def B4 (c : Dev nD) : Valuation τ sig (Elt F) :=
  Pipeline.withArrays spec1 c (B3 m ρ c) fun w => (dat1 (U3 m ρ) c).arrAt w cfg1.N
theorem B4_arr (c : Dev nD) (w : Fin cfg1.W) :
    B4 m ρ c (Proc.devRef .tc (Pipeline.arrRef spec1 w)) = (dat1 (U3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same valuation read at the TensorCore's references. -/
abbrev U4 : (c : Dev nD) → (b : Ref sig .tc) → Buf (Elt F) ((c : Thread nD τ).loc b) := fun c b => B4 m ρ c b
theorem hF1 (c : Dev nD) (w : Fin cfg1.W) : (dat1 (U3 m ρ) c).arrAt w cfg1.N = U4 m ρ c (Pipeline.arrRef spec1 w) :=
  (B4_arr m ρ c w).symm
theorem hrest1 (c : Dev nD) : ∀ b, b ∉ Finset.univ.image (Pipeline.arrRef spec1) → U4 m ρ c b = U3 m ρ c b :=
  fun b hb => B4_of_ne m ρ c b fun w e => hb (Finset.mem_image.mpr ⟨w, Finset.mem_univ _, e⟩)
/-- After region 2: its windowed arrays at what its write-backs leave, every other buffer as entered. -/
def B5 (c : Dev nD) : Valuation τ sig (Elt F) :=
  Pipeline.withArrays spec2 c (B4 m ρ c) fun w => (dat2 (U4 m ρ) c).arrAt w cfg2.N
theorem B5_arr (c : Dev nD) (w : Fin cfg2.W) :
    B5 m ρ c (Proc.devRef .tc (Pipeline.arrRef spec2 w)) = (dat2 (U4 m ρ) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
/-- The same valuation read at the TensorCore's references. -/
abbrev U5 : (c : Dev nD) → (b : Ref sig .tc) → Buf (Elt F) ((c : Thread nD τ).loc b) := fun c b => B5 m ρ c b
theorem hF2 (c : Dev nD) (w : Fin cfg2.W) : (dat2 (U4 m ρ) c).arrAt w cfg2.N = U5 m ρ c (Pipeline.arrRef spec2 w) :=
  (B5_arr m ρ c w).symm
theorem hrest2 (c : Dev nD) : ∀ b, b ∉ Finset.univ.image (Pipeline.arrRef spec2) → U5 m ρ c b = U4 m ρ c b :=
  fun b hb => B5_of_ne m ρ c b fun w e => hb (Finset.mem_image.mpr ⟨w, Finset.mem_univ _, e⟩)
/-- After region 3: its windowed arrays at what its write-backs leave, every other buffer as entered. -/
def B6 (c : Dev nD) : Valuation τ sig (Elt F) :=
  Pipeline.withArrays spec3 c (B5 m ρ c) fun w => (dat3 (U5 m ρ) c).arrAt w cfg3.N
theorem B6_arr (c : Dev nD) (w : Fin cfg3.W) :
    B6 m ρ c (Proc.devRef .tc (Pipeline.arrRef spec3 w)) = (dat3 (U5 m ρ) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 m ρ c (Proc.devRef .tc b) = B5 m ρ c (Proc.devRef .tc b) := by
  unfold B6; exact Pipeline.withArrays_of_ne spec3 c _ _ b hb
/-- The same valuation read at the TensorCore's references. -/
abbrev U6 : (c : Dev nD) → (b : Ref sig .tc) → Buf (Elt F) ((c : Thread nD τ).loc b) := fun c b => B6 m ρ c b
theorem hF3 (c : Dev nD) (w : Fin cfg3.W) : (dat3 (U5 m ρ) c).arrAt w cfg3.N = U6 m ρ c (Pipeline.arrRef spec3 w) :=
  (B6_arr m ρ c w).symm
theorem hrest3 (c : Dev nD) : ∀ b, b ∉ Finset.univ.image (Pipeline.arrRef spec3) → U6 m ρ c b = U5 m ρ c b :=
  fun b hb => B6_of_ne m ρ c b fun w e => hb (Finset.mem_image.mpr ⟨w, Finset.mem_univ _, e⟩)
/-- After the host stretch number 4. -/
abbrev B7 : Dev nD → Valuation τ sig (Elt F) := fun c => StableHlo.after hostOps4 (B6 m ρ c)
/-- The same valuation read at the TensorCore's references. -/
abbrev U7 : (c : Dev nD) → (b : Ref sig .tc) → Buf (Elt F) ((c : Thread nD τ).loc b) := fun c b => B7 m ρ c b
/-- After region 4: its windowed arrays at what its write-backs leave, every other buffer as entered. -/
def B8 (c : Dev nD) : Valuation τ sig (Elt F) :=
  Pipeline.withArrays spec4 c (B7 m ρ c) fun w => (dat4 (U7 m ρ) c).arrAt w cfg4.N
theorem B8_arr (c : Dev nD) (w : Fin cfg4.W) :
    B8 m ρ c (Proc.devRef .tc (Pipeline.arrRef spec4 w)) = (dat4 (U7 m ρ) c).arrAt w cfg4.N := by
  unfold B8; exact Pipeline.withArrays_arr spec4 launch4.win.arr_inj c _ _ w
theorem B8_of_ne (c : Dev nD) (b : Ref sig .tc) (hb : ∀ w, Pipeline.arrRef spec4 w ≠ b) :
    B8 m ρ c (Proc.devRef .tc b) = B7 m ρ c (Proc.devRef .tc b) := by
  unfold B8; exact Pipeline.withArrays_of_ne spec4 c _ _ b hb
/-- The same valuation read at the TensorCore's references. -/
abbrev U8 : (c : Dev nD) → (b : Ref sig .tc) → Buf (Elt F) ((c : Thread nD τ).loc b) := fun c b => B8 m ρ c b
theorem hF4 (c : Dev nD) (w : Fin cfg4.W) : (dat4 (U7 m ρ) c).arrAt w cfg4.N = U8 m ρ c (Pipeline.arrRef spec4 w) :=
  (B8_arr m ρ c w).symm
theorem hrest4 (c : Dev nD) : ∀ b, b ∉ Finset.univ.image (Pipeline.arrRef spec4) → U8 m ρ c b = U7 m ρ c b :=
  fun b hb => B8_of_ne m ρ c b fun w e => hb (Finset.mem_image.mpr ⟨w, Finset.mem_univ _, e⟩)
/-- After region 5: its windowed arrays at what its write-backs leave, every other buffer as entered. -/
def B9 (c : Dev nD) : Valuation τ sig (Elt F) :=
  Pipeline.withArrays spec5 c (B8 m ρ c) fun w => (dat5 (U8 m ρ) c).arrAt w cfg5.N
theorem B9_arr (c : Dev nD) (w : Fin cfg5.W) :
    B9 m ρ c (Proc.devRef .tc (Pipeline.arrRef spec5 w)) = (dat5 (U8 m ρ) c).arrAt w cfg5.N := by
  unfold B9; exact Pipeline.withArrays_arr spec5 launch5.win.arr_inj c _ _ w
theorem B9_of_ne (c : Dev nD) (b : Ref sig .tc) (hb : ∀ w, Pipeline.arrRef spec5 w ≠ b) :
    B9 m ρ c (Proc.devRef .tc b) = B8 m ρ c (Proc.devRef .tc b) := by
  unfold B9; exact Pipeline.withArrays_of_ne spec5 c _ _ b hb
/-- The same valuation read at the TensorCore's references. -/
abbrev U9 : (c : Dev nD) → (b : Ref sig .tc) → Buf (Elt F) ((c : Thread nD τ).loc b) := fun c b => B9 m ρ c b
theorem hF5 (c : Dev nD) (w : Fin cfg5.W) : (dat5 (U8 m ρ) c).arrAt w cfg5.N = U9 m ρ c (Pipeline.arrRef spec5 w) :=
  (B9_arr m ρ c w).symm
theorem hrest5 (c : Dev nD) : ∀ b, b ∉ Finset.univ.image (Pipeline.arrRef spec5) → U9 m ρ c b = U8 m ρ c b :=
  fun b hb => B9_of_ne m ρ c b fun w e => hb (Finset.mem_image.mpr ⟨w, Finset.mem_univ _, e⟩)
/-- After region 6: its windowed arrays at what its write-backs leave, every other buffer as entered. -/
def B10 (c : Dev nD) : Valuation τ sig (Elt F) :=
  Pipeline.withArrays spec6 c (B9 m ρ c) fun w => (dat6 (U9 m ρ) c).arrAt w cfg6.N
theorem B10_arr (c : Dev nD) (w : Fin cfg6.W) :
    B10 m ρ c (Proc.devRef .tc (Pipeline.arrRef spec6 w)) = (dat6 (U9 m ρ) c).arrAt w cfg6.N := by
  unfold B10; exact Pipeline.withArrays_arr spec6 launch6.win.arr_inj c _ _ w
theorem B10_of_ne (c : Dev nD) (b : Ref sig .tc) (hb : ∀ w, Pipeline.arrRef spec6 w ≠ b) :
    B10 m ρ c (Proc.devRef .tc b) = B9 m ρ c (Proc.devRef .tc b) := by
  unfold B10; exact Pipeline.withArrays_of_ne spec6 c _ _ b hb
/-- The same valuation read at the TensorCore's references. -/
abbrev U10 : (c : Dev nD) → (b : Ref sig .tc) → Buf (Elt F) ((c : Thread nD τ).loc b) := fun c b => B10 m ρ c b
theorem hF6 (c : Dev nD) (w : Fin cfg6.W) : (dat6 (U9 m ρ) c).arrAt w cfg6.N = U10 m ρ c (Pipeline.arrRef spec6 w) :=
  (B10_arr m ρ c w).symm
theorem hrest6 (c : Dev nD) : ∀ b, b ∉ Finset.univ.image (Pipeline.arrRef spec6) → U10 m ρ c b = U9 m ρ c b :=
  fun b hb => B10_of_ne m ρ c b fun w e => hb (Finset.mem_image.mpr ⟨w, Finset.mem_univ _, e⟩)
/-- After the host stretch number 7. -/
abbrev B11 : Dev nD → Valuation τ sig (Elt F) := fun c => StableHlo.after hostOps7 (B10 m ρ c)
/-- The same valuation read at the TensorCore's references. -/
abbrev U11 : (c : Dev nD) → (b : Ref sig .tc) → Buf (Elt F) ((c : Thread nD τ).loc b) := fun c b => B11 m ρ c b
/-- After region 7: its windowed arrays at what its write-backs leave, every other buffer as entered. -/
def B12 (c : Dev nD) : Valuation τ sig (Elt F) :=
  Pipeline.withArrays spec7 c (B11 m ρ c) fun w => (dat7 (U11 m ρ) c).arrAt w cfg7.N
theorem B12_arr (c : Dev nD) (w : Fin cfg7.W) :
    B12 m ρ c (Proc.devRef .tc (Pipeline.arrRef spec7 w)) = (dat7 (U11 m ρ) c).arrAt w cfg7.N := by
  unfold B12; exact Pipeline.withArrays_arr spec7 launch7.win.arr_inj c _ _ w
theorem B12_of_ne (c : Dev nD) (b : Ref sig .tc) (hb : ∀ w, Pipeline.arrRef spec7 w ≠ b) :
    B12 m ρ c (Proc.devRef .tc b) = B11 m ρ c (Proc.devRef .tc b) := by
  unfold B12; exact Pipeline.withArrays_of_ne spec7 c _ _ b hb
/-- The same valuation read at the TensorCore's references. -/
abbrev U12 : (c : Dev nD) → (b : Ref sig .tc) → Buf (Elt F) ((c : Thread nD τ).loc b) := fun c b => B12 m ρ c b
theorem hF7 (c : Dev nD) (w : Fin cfg7.W) : (dat7 (U11 m ρ) c).arrAt w cfg7.N = U12 m ρ c (Pipeline.arrRef spec7 w) :=
  (B12_arr m ρ c w).symm
theorem hrest7 (c : Dev nD) : ∀ b, b ∉ Finset.univ.image (Pipeline.arrRef spec7) → U12 m ρ c b = U11 m ρ c b :=
  fun b hb => B12_of_ne m ρ c b fun w e => hb (Finset.mem_image.mpr ⟨w, Finset.mem_univ _, e⟩)
/-- After region 8: its windowed arrays at what its write-backs leave, every other buffer as entered. -/
def B13 (c : Dev nD) : Valuation τ sig (Elt F) :=
  Pipeline.withArrays spec8 c (B12 m ρ c) fun w => (dat8 (U12 m ρ) c).arrAt w cfg8.N
theorem B13_arr (c : Dev nD) (w : Fin cfg8.W) :
    B13 m ρ c (Proc.devRef .tc (Pipeline.arrRef spec8 w)) = (dat8 (U12 m ρ) c).arrAt w cfg8.N := by
  unfold B13; exact Pipeline.withArrays_arr spec8 launch8.win.arr_inj c _ _ w
theorem B13_of_ne (c : Dev nD) (b : Ref sig .tc) (hb : ∀ w, Pipeline.arrRef spec8 w ≠ b) :
    B13 m ρ c (Proc.devRef .tc b) = B12 m ρ c (Proc.devRef .tc b) := by
  unfold B13; exact Pipeline.withArrays_of_ne spec8 c _ _ b hb
/-- The same valuation read at the TensorCore's references. -/
abbrev U13 : (c : Dev nD) → (b : Ref sig .tc) → Buf (Elt F) ((c : Thread nD τ).loc b) := fun c b => B13 m ρ c b
theorem hF8 (c : Dev nD) (w : Fin cfg8.W) : (dat8 (U12 m ρ) c).arrAt w cfg8.N = U13 m ρ c (Pipeline.arrRef spec8 w) :=
  (B13_arr m ρ c w).symm
theorem hrest8 (c : Dev nD) : ∀ b, b ∉ Finset.univ.image (Pipeline.arrRef spec8) → U13 m ρ c b = U12 m ρ c b :=
  fun b hb => B13_of_ne m ρ c b fun w e => hb (Finset.mem_image.mpr ⟨w, Finset.mem_univ _, e⟩)
/-- After the host stretch number 9. -/
abbrev B14 : Dev nD → Valuation τ sig (Elt F) := fun c => StableHlo.after hostOps9 (B13 m ρ c)
/-- The same valuation read at the TensorCore's references. -/
abbrev U14 : (c : Dev nD) → (b : Ref sig .tc) → Buf (Elt F) ((c : Thread nD τ).loc b) := fun c b => B14 m ρ c b
/-- After region 9: its windowed arrays at what its write-backs leave, every other buffer as entered. -/
def B15 (c : Dev nD) : Valuation τ sig (Elt F) :=
  Pipeline.withArrays spec9 c (B14 m ρ c) fun w => (dat9 (U14 m ρ) c).arrAt w cfg9.N
theorem B15_arr (c : Dev nD) (w : Fin cfg9.W) :
    B15 m ρ c (Proc.devRef .tc (Pipeline.arrRef spec9 w)) = (dat9 (U14 m ρ) c).arrAt w cfg9.N := by
  unfold B15; exact Pipeline.withArrays_arr spec9 launch9.win.arr_inj c _ _ w
theorem B15_of_ne (c : Dev nD) (b : Ref sig .tc) (hb : ∀ w, Pipeline.arrRef spec9 w ≠ b) :
    B15 m ρ c (Proc.devRef .tc b) = B14 m ρ c (Proc.devRef .tc b) := by
  unfold B15; exact Pipeline.withArrays_of_ne spec9 c _ _ b hb
/-- The same valuation read at the TensorCore's references. -/
abbrev U15 : (c : Dev nD) → (b : Ref sig .tc) → Buf (Elt F) ((c : Thread nD τ).loc b) := fun c b => B15 m ρ c b
theorem hF9 (c : Dev nD) (w : Fin cfg9.W) : (dat9 (U14 m ρ) c).arrAt w cfg9.N = U15 m ρ c (Pipeline.arrRef spec9 w) :=
  (B15_arr m ρ c w).symm
theorem hrest9 (c : Dev nD) : ∀ b, b ∉ Finset.univ.image (Pipeline.arrRef spec9) → U15 m ρ c b = U14 m ρ c b :=
  fun b hb => B15_of_ne m ρ c b fun w e => hb (Finset.mem_image.mpr ⟨w, Finset.mem_univ _, e⟩)
/-- After the host stretch number 10. -/
abbrev B16 : Dev nD → Valuation τ sig (Elt F) := fun c => StableHlo.after hostOps10 (B15 m ρ c)
/-- The same valuation read at the TensorCore's references. -/
abbrev U16 : (c : Dev nD) → (b : Ref sig .tc) → Buf (Elt F) ((c : Thread nD τ).loc b) := fun c b => B16 m ρ c b

/-! ## The proof data family and the thread state -/

/-- Every region's proof data, each at its region's entry contents. -/
def rdats : (p : Fin 10) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U4 m ρ) c
  | ⟨3, _⟩ => fun c => dat3 (U5 m ρ) c
  | ⟨4, _⟩ => fun c => dat4 (U7 m ρ) c
  | ⟨5, _⟩ => fun c => dat5 (U8 m ρ) c
  | ⟨6, _⟩ => fun c => dat6 (U9 m ρ) c
  | ⟨7, _⟩ => fun c => dat7 (U11 m ρ) c
  | ⟨8, _⟩ => fun c => dat8 (U12 m ρ) c
  | ⟨9, _⟩ => fun c => dat9 (U14 m ρ) c
  | ⟨n + 10, h⟩ => absurd h (by omega)
/-- No core owes another anything: no level is assigned. -/
abbrev Lz : GSem nD τ sig → Finset Unit := fun _ => ∅
abbrev lvz : GSem nD τ sig → Unit → ℕ := fun _ _ => 0
/-- What rides beside the buffers through every item: the core's generator register at some state and its dues, none. -/
abbrev Rc (c : Dev nD) : sProp 𝕄 := iprop((∃ r, prngReg c r) ∗ ∃ W, owes (c : Thread nD τ) (0 : CellTallies nD τ sig Unit) W)
/-- A host stretch as an item: from the unscoped buffers at a valuation to the same buffers after the stretch's operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rc
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items -/

set_option backward.isDefEq.respectTransparency.types false in
/-- Region 0: entered with every unscoped buffer at boundary 1's contents, left at boundary 2's. Its arrays are
    split out of the unscoped buffers and put back at what the region leaves; the generator register goes into the
    region's invariant and comes back; nothing is owed; the kernel has no semaphore of its own. -/
def reg0 : Pipeline.RegionSeg (pcfgs (F := F)) adm (rdats m ρ) () defs₀ Variants.none Lz lvz 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lz lvz 0 fun _ _ => rfl
  pre c := iprop(StableHlo.held (c : Thread nD τ) (Pipeline.ucRefs τ sig) (B1 m ρ c) ∗ Rc c)
  post c := iprop(StableHlo.held (c : Thread nD τ) (Pipeline.ucRefs τ sig) (B2 m ρ c) ∗ Rc c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (rdats m ρ) launch0.win launch0.arr_whole c
      ((rdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (rdats m ρ) ((rdats m ρ 0 c).share_full fun _ => rfl)
      (U1 m ρ c) (U2 m ρ c) ((rdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at boundary 3's contents, left at boundary 4's. Its arrays are
    split out of the unscoped buffers and put back at what the region leaves; the generator register goes into the
    region's invariant and comes back; nothing is owed; the kernel has no semaphore of its own. -/
def reg1 : Pipeline.RegionSeg (pcfgs (F := F)) adm (rdats m ρ) () defs₀ Variants.none Lz lvz 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lz lvz 1 fun _ _ => rfl
  pre c := iprop(StableHlo.held (c : Thread nD τ) (Pipeline.ucRefs τ sig) (B3 m ρ c) ∗ Rc c)
  post c := iprop(StableHlo.held (c : Thread nD τ) (Pipeline.ucRefs τ sig) (B4 m ρ c) ∗ Rc c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (rdats m ρ) launch1.win launch1.arr_whole c
      ((rdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = (dat1 (U3 m ρ) c).Φ 0 from rfl]
    iintro ⟨Hp, -, Hr⟩
    iapply (hin1 (U3 m ρ) c)
    isplitl [Hp]; · iexact Hp
    iexact Hr
  hout c := by
    rw [Pipeline.ownSems0_none, show (rdats m ρ 1 c).Φ (Fin.last _) = (dat1 (U3 m ρ) c).Φ (Fin.last cfg1.N) from rfl]
    iintro H
    ihave H' := (hout1 (U3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (rdats m ρ) ((rdats m ρ 1 c).share_full fun _ => rfl)
      (U3 m ρ c) (U4 m ρ c) ((rdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at boundary 4's contents, left at boundary 5's. Its arrays are
    split out of the unscoped buffers and put back at what the region leaves; the generator register goes into the
    region's invariant and comes back; nothing is owed; the kernel has no semaphore of its own. -/
def reg2 : Pipeline.RegionSeg (pcfgs (F := F)) adm (rdats m ρ) () defs₀ Variants.none Lz lvz 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ Lz lvz 2 fun _ _ => rfl
  pre c := iprop(StableHlo.held (c : Thread nD τ) (Pipeline.ucRefs τ sig) (B4 m ρ c) ∗ Rc c)
  post c := iprop(StableHlo.held (c : Thread nD τ) (Pipeline.ucRefs τ sig) (B5 m ρ c) ∗ Rc c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm (rdats m ρ) launch2.win launch2.arr_whole c
      ((rdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (rdats m ρ) ((rdats m ρ 2 c).share_full fun _ => rfl)
      (U4 m ρ c) (U5 m ρ c) ((rdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at boundary 5's contents, left at boundary 6's. Its arrays are
    split out of the unscoped buffers and put back at what the region leaves; the generator register goes into the
    region's invariant and comes back; nothing is owed; the kernel has no semaphore of its own. -/
def reg3 : Pipeline.RegionSeg (pcfgs (F := F)) adm (rdats m ρ) () defs₀ Variants.none Lz lvz 3 where
  win := launch3.win.to₀
  block_pos := launch3.block_pos
  stage_whole := launch3.stage_whole
  K := PEmpty
  osem k := k.elim
  ho := Pipeline.OwnSemFacts.none _
  hbody c := (body_obligation3 (U5 m ρ) c).loose
  hwaits := Pipeline.hwaits_of_owed_zero _ _ _ _ Lz lvz 3 fun _ _ => rfl
  pre c := iprop(StableHlo.held (c : Thread nD τ) (Pipeline.ucRefs τ sig) (B5 m ρ c) ∗ Rc c)
  post c := iprop(StableHlo.held (c : Thread nD τ) (Pipeline.ucRefs τ sig) (B6 m ρ c) ∗ Rc c)
  X c := iprop(∃ r, prngReg c r)
  Y c := iprop(∃ r, prngReg c r)
  Z c := Pipeline.unscopedRest (Ix := Unit) (Name := ℕ) (U := UR sig nD τ) (Lvl := ℕ) spec3 c (U5 m ρ c)
  hentry c := by
    rw [Pipeline.ownSems0_none]
    have hsplit := Pipeline.arrays_of_unscopedBufs (p := 3) (pcfgs (F := F)) adm (rdats m ρ) launch3.win launch3.arr_whole c
      ((rdats m ρ 3 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (rdats m ρ) ((rdats m ρ 3 c).share_full fun _ => rfl)
      (U5 m ρ c) (U6 m ρ c) ((rdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at boundary 7's contents, left at boundary 8's. Its arrays are
    split out of the unscoped buffers and put back at what the region leaves; the generator register goes into the
    region's invariant and comes back; nothing is owed; the kernel has no semaphore of its own. -/
def reg4 : Pipeline.RegionSeg (pcfgs (F := F)) adm (rdats m ρ) () defs₀ Variants.none Lz lvz 4 where
  win := launch4.win.to₀
  block_pos := launch4.block_pos
  stage_whole := launch4.stage_whole
  K := PEmpty
  osem k := k.elim
  ho := Pipeline.OwnSemFacts.none _
  hbody c := (body_obligation4 (U7 m ρ) c).loose
  hwaits := Pipeline.hwaits_of_owed_zero _ _ _ _ Lz lvz 4 fun _ _ => rfl
  pre c := iprop(StableHlo.held (c : Thread nD τ) (Pipeline.ucRefs τ sig) (B7 m ρ c) ∗ Rc c)
  post c := iprop(StableHlo.held (c : Thread nD τ) (Pipeline.ucRefs τ sig) (B8 m ρ c) ∗ Rc c)
  X c := iprop(∃ r, prngReg c r)
  Y c := iprop(∃ r, prngReg c r)
  Z c := Pipeline.unscopedRest (Ix := Unit) (Name := ℕ) (U := UR sig nD τ) (Lvl := ℕ) spec4 c (U7 m ρ c)
  hentry c := by
    rw [Pipeline.ownSems0_none]
    have hsplit := Pipeline.arrays_of_unscopedBufs (p := 4) (pcfgs (F := F)) adm (rdats m ρ) launch4.win launch4.arr_whole c
      ((rdats m ρ 4 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 4 c).Φ 0 = (dat4 (U7 m ρ) c).Φ 0 from rfl]
    iintro ⟨Hp, -, Hr⟩
    iapply (hin4 (U7 m ρ) c)
    isplitl [Hp]; · iexact Hp
    iexact Hr
  hout c := by
    rw [Pipeline.ownSems0_none, show (rdats m ρ 4 c).Φ (Fin.last _) = (dat4 (U7 m ρ) c).Φ (Fin.last cfg4.N) from rfl]
    iintro H
    ihave H' := (hout4 (U7 m ρ) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (rdats m ρ) ((rdats m ρ 4 c).share_full fun _ => rfl)
      (U7 m ρ c) (U8 m ρ c) ((rdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at boundary 8's contents, left at boundary 9's. Its arrays are
    split out of the unscoped buffers and put back at what the region leaves; the generator register goes into the
    region's invariant and comes back; nothing is owed; the kernel has no semaphore of its own. -/
def reg5 : Pipeline.RegionSeg (pcfgs (F := F)) adm (rdats m ρ) () defs₀ Variants.none Lz lvz 5 where
  win := launch5.win.to₀
  block_pos := launch5.block_pos
  stage_whole := launch5.stage_whole
  K := PEmpty
  osem k := k.elim
  ho := Pipeline.OwnSemFacts.none _
  hbody c := (body_obligation5 (U8 m ρ) c).loose
  hwaits := Pipeline.hwaits_of_owed_zero _ _ _ _ Lz lvz 5 fun _ _ => rfl
  pre c := iprop(StableHlo.held (c : Thread nD τ) (Pipeline.ucRefs τ sig) (B8 m ρ c) ∗ Rc c)
  post c := iprop(StableHlo.held (c : Thread nD τ) (Pipeline.ucRefs τ sig) (B9 m ρ c) ∗ Rc c)
  X c := iprop(∃ r, prngReg c r)
  Y c := iprop(∃ r, prngReg c r)
  Z c := Pipeline.unscopedRest (Ix := Unit) (Name := ℕ) (U := UR sig nD τ) (Lvl := ℕ) spec5 c (U8 m ρ c)
  hentry c := by
    rw [Pipeline.ownSems0_none]
    have hsplit := Pipeline.arrays_of_unscopedBufs (p := 5) (pcfgs (F := F)) adm (rdats m ρ) launch5.win launch5.arr_whole c
      ((rdats m ρ 5 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (rdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (rdats m ρ) ((rdats m ρ 5 c).share_full fun _ => rfl)
      (U8 m ρ c) (U9 m ρ c) ((rdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered with every unscoped buffer at boundary 9's contents, left at boundary 10's. Its arrays are
    split out of the unscoped buffers and put back at what the region leaves; the generator register goes into the
    region's invariant and comes back; nothing is owed; the kernel has no semaphore of its own. -/
def reg6 : Pipeline.RegionSeg (pcfgs (F := F)) adm (rdats m ρ) () defs₀ Variants.none Lz lvz 6 where
  win := launch6.win.to₀
  block_pos := launch6.block_pos
  stage_whole := launch6.stage_whole
  K := PEmpty
  osem k := k.elim
  ho := Pipeline.OwnSemFacts.none _
  hbody c := (body_obligation6 (U9 m ρ) c).loose
  hwaits := Pipeline.hwaits_of_owed_zero _ _ _ _ Lz lvz 6 fun _ _ => rfl
  pre c := iprop(StableHlo.held (c : Thread nD τ) (Pipeline.ucRefs τ sig) (B9 m ρ c) ∗ Rc c)
  post c := iprop(StableHlo.held (c : Thread nD τ) (Pipeline.ucRefs τ sig) (B10 m ρ c) ∗ Rc c)
  X c := iprop(∃ r, prngReg c r)
  Y c := iprop(∃ r, prngReg c r)
  Z c := Pipeline.unscopedRest (Ix := Unit) (Name := ℕ) (U := UR sig nD τ) (Lvl := ℕ) spec6 c (U9 m ρ c)
  hentry c := by
    rw [Pipeline.ownSems0_none]
    have hsplit := Pipeline.arrays_of_unscopedBufs (p := 6) (pcfgs (F := F)) adm (rdats m ρ) launch6.win launch6.arr_whole c
      ((rdats m ρ 6 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (rdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (rdats m ρ) ((rdats m ρ 6 c).share_full fun _ => rfl)
      (U9 m ρ c) (U10 m ρ c) ((rdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered with every unscoped buffer at boundary 11's contents, left at boundary 12's. Its arrays are
    split out of the unscoped buffers and put back at what the region leaves; the generator register goes into the
    region's invariant and comes back; nothing is owed; the kernel has no semaphore of its own. -/
def reg7 : Pipeline.RegionSeg (pcfgs (F := F)) adm (rdats m ρ) () defs₀ Variants.none Lz lvz 7 where
  win := launch7.win.to₀
  block_pos := launch7.block_pos
  stage_whole := launch7.stage_whole
  K := PEmpty
  osem k := k.elim
  ho := Pipeline.OwnSemFacts.none _
  hbody c := (body_obligation7 (U11 m ρ) c).loose
  hwaits := Pipeline.hwaits_of_owed_zero _ _ _ _ Lz lvz 7 fun _ _ => rfl
  pre c := iprop(StableHlo.held (c : Thread nD τ) (Pipeline.ucRefs τ sig) (B11 m ρ c) ∗ Rc c)
  post c := iprop(StableHlo.held (c : Thread nD τ) (Pipeline.ucRefs τ sig) (B12 m ρ c) ∗ Rc c)
  X c := iprop(∃ r, prngReg c r)
  Y c := iprop(∃ r, prngReg c r)
  Z c := Pipeline.unscopedRest (Ix := Unit) (Name := ℕ) (U := UR sig nD τ) (Lvl := ℕ) spec7 c (U11 m ρ c)
  hentry c := by
    rw [Pipeline.ownSems0_none]
    have hsplit := Pipeline.arrays_of_unscopedBufs (p := 7) (pcfgs (F := F)) adm (rdats m ρ) launch7.win launch7.arr_whole c
      ((rdats m ρ 7 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 7 c).Φ 0 = (dat7 (U11 m ρ) c).Φ 0 from rfl]
    iintro ⟨Hp, -, Hr⟩
    iapply (hin7 (U11 m ρ) c)
    isplitl [Hp]; · iexact Hp
    iexact Hr
  hout c := by
    rw [Pipeline.ownSems0_none, show (rdats m ρ 7 c).Φ (Fin.last _) = (dat7 (U11 m ρ) c).Φ (Fin.last cfg7.N) from rfl]
    iintro H
    ihave H' := (hout7 (U11 m ρ) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (rdats m ρ) ((rdats m ρ 7 c).share_full fun _ => rfl)
      (U11 m ρ c) (U12 m ρ c) ((rdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered with every unscoped buffer at boundary 12's contents, left at boundary 13's. Its arrays are
    split out of the unscoped buffers and put back at what the region leaves; the generator register goes into the
    region's invariant and comes back; nothing is owed; the kernel has no semaphore of its own. -/
def reg8 : Pipeline.RegionSeg (pcfgs (F := F)) adm (rdats m ρ) () defs₀ Variants.none Lz lvz 8 where
  win := launch8.win.to₀
  block_pos := launch8.block_pos
  stage_whole := launch8.stage_whole
  K := PEmpty
  osem k := k.elim
  ho := Pipeline.OwnSemFacts.none _
  hbody c := (body_obligation8 (U12 m ρ) c).loose
  hwaits := Pipeline.hwaits_of_owed_zero _ _ _ _ Lz lvz 8 fun _ _ => rfl
  pre c := iprop(StableHlo.held (c : Thread nD τ) (Pipeline.ucRefs τ sig) (B12 m ρ c) ∗ Rc c)
  post c := iprop(StableHlo.held (c : Thread nD τ) (Pipeline.ucRefs τ sig) (B13 m ρ c) ∗ Rc c)
  X c := iprop(∃ r, prngReg c r)
  Y c := iprop(∃ r, prngReg c r)
  Z c := Pipeline.unscopedRest (Ix := Unit) (Name := ℕ) (U := UR sig nD τ) (Lvl := ℕ) spec8 c (U12 m ρ c)
  hentry c := by
    rw [Pipeline.ownSems0_none]
    have hsplit := Pipeline.arrays_of_unscopedBufs (p := 8) (pcfgs (F := F)) adm (rdats m ρ) launch8.win launch8.arr_whole c
      ((rdats m ρ 8 c).share_full fun _ => rfl) (U12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (rdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (rdats m ρ) ((rdats m ρ 8 c).share_full fun _ => rfl)
      (U12 m ρ c) (U13 m ρ c) ((rdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered with every unscoped buffer at boundary 14's contents, left at boundary 15's. Its arrays are
    split out of the unscoped buffers and put back at what the region leaves; the generator register goes into the
    region's invariant and comes back; nothing is owed; the kernel has no semaphore of its own. -/
def reg9 : Pipeline.RegionSeg (pcfgs (F := F)) adm (rdats m ρ) () defs₀ Variants.none Lz lvz 9 where
  win := launch9.win.to₀
  block_pos := launch9.block_pos
  stage_whole := launch9.stage_whole
  K := PEmpty
  osem k := k.elim
  ho := Pipeline.OwnSemFacts.none _
  hbody c := (body_obligation9 (U14 m ρ) c).loose
  hwaits := Pipeline.hwaits_of_owed_zero _ _ _ _ Lz lvz 9 fun _ _ => rfl
  pre c := iprop(StableHlo.held (c : Thread nD τ) (Pipeline.ucRefs τ sig) (B14 m ρ c) ∗ Rc c)
  post c := iprop(StableHlo.held (c : Thread nD τ) (Pipeline.ucRefs τ sig) (B15 m ρ c) ∗ Rc c)
  X c := iprop(∃ r, prngReg c r)
  Y c := iprop(∃ r, prngReg c r)
  Z c := Pipeline.unscopedRest (Ix := Unit) (Name := ℕ) (U := UR sig nD τ) (Lvl := ℕ) spec9 c (U14 m ρ c)
  hentry c := by
    rw [Pipeline.ownSems0_none]
    have hsplit := Pipeline.arrays_of_unscopedBufs (p := 9) (pcfgs (F := F)) adm (rdats m ρ) launch9.win launch9.arr_whole c
      ((rdats m ρ 9 c).share_full fun _ => rfl) (U14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (rdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (rdats m ρ) ((rdats m ρ 9 c).share_full fun _ => rfl)
      (U14 m ρ c) (U15 m ρ c) ((rdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's sixteen items in order. -/
abbrev rsegs : List (Pipeline.Seg (pcfgs (F := F)) adm (rdats m ρ) () defs₀ Variants.none Lz lvz) :=
  [ .host (hseg hostOps0 hostOps0_sub hostOps0_fresh (B0 m ρ)),
    .region (reg0 m ρ),
    .host (hseg hostOps1 hostOps1_sub hostOps1_fresh (B2 m ρ)),
    .region (reg1 m ρ),
    .region (reg2 m ρ),
    .region (reg3 m ρ),
    .host (hseg hostOps4 hostOps4_sub hostOps4_fresh (B6 m ρ)),
    .region (reg4 m ρ),
    .region (reg5 m ρ),
    .region (reg6 m ρ),
    .host (hseg hostOps7 hostOps7_sub hostOps7_fresh (B10 m ρ)),
    .region (reg7 m ρ),
    .region (reg8 m ρ),
    .host (hseg hostOps9 hostOps9_sub hostOps9_fresh (B13 m ρ)),
    .region (reg9 m ρ),
    .host (hseg hostOps10 hostOps10_sub hostOps10_fresh (B15 m ρ)) ]
theorem main_run (c : Dev nD) : main (F := F) c = Pipeline.Seg.run (rsegs m ρ) := (main_chain c).trans (by chain_rfl)

set_option backward.isDefEq.respectTransparency.types false in
/-- Every weakly fair execution of @main from the launch memory with zero counters terminates without a fault, and in
    the final memory every unscoped buffer of every core holds the last boundary's contents. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = B16 m ρ c b) :=
  Pipeline.θ_run_regions_kit (pcfgs (F := F)) adm (rdats m ρ) () cellOf_inj emb₁ defs₀ Variants.none Lz lvz m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rc c))
    (Tₙ := fun c => iprop(StableHlo.held (c : Thread nD τ) (Pipeline.ucRefs τ sig) (B16 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (B16 m ρ c) ∗ Rc c) : sProp 𝕄) ⊢ _
      iintro ⟨Hh, Hp, HO⟩
      isplitr [HO]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m ρ c b)
    (hfin := fun c s' => by
      iintro ⟨⟨Hh, -⟩, HSI⟩
      unfold StableHlo.held
      imodintro
      iapply (pointsTo_read_all (Pipeline.ucRefs τ sig) (fun b => (((c : Thread nD τ)).1, b)) (B16 m ρ c) s')
      isplitl [Hh] <;> iassumption)
    (hQ := fun s h c => h c)

/-! ## Reading the last valuation back -/

/-- Region 0 only reads the array of its input window 0: it leaves the region as it entered. -/
theorem B2_in_0 (c : Dev nD) : B2 m ρ c (Proc.devRef .tc main_arg0) = B1 m ρ c (Proc.devRef .tc main_arg0) :=
  (B2_arr m ρ c 0).trans (((dat0 (U1 m ρ) c).arrAt_in 0 rfl _).trans (A_eq0 (U1 m ρ) c 0))
/-- Region 0 only reads the array of its input window 1: it leaves the region as it entered. -/
theorem B2_in_1 (c : Dev nD) : B2 m ρ c (Proc.devRef .tc main_arg4) = B1 m ρ c (Proc.devRef .tc main_arg4) :=
  (B2_arr m ρ c 1).trans (((dat0 (U1 m ρ) c).arrAt_in 1 rfl _).trans (A_eq0 (U1 m ρ) c 1))
/-- Region 1 only reads the array of its input window 0: it leaves the region as it entered. -/
theorem B4_in_0 (c : Dev nD) : B4 m ρ c (Proc.devRef .tc main_v44) = B3 m ρ c (Proc.devRef .tc main_v44) :=
  (B4_arr m ρ c 0).trans (((dat1 (U3 m ρ) c).arrAt_in 0 rfl _).trans (A_eq1 (U3 m ρ) c 0))
/-- Region 1 only reads the array of its input window 1: it leaves the region as it entered. -/
theorem B4_in_1 (c : Dev nD) : B4 m ρ c (Proc.devRef .tc main_v45) = B3 m ρ c (Proc.devRef .tc main_v45) :=
  (B4_arr m ρ c 1).trans (((dat1 (U3 m ρ) c).arrAt_in 1 rfl _).trans (A_eq1 (U3 m ρ) c 1))
/-- Region 2 only reads the array of its input window 0: it leaves the region as it entered. -/
theorem B5_in_0 (c : Dev nD) : B5 m ρ c (Proc.devRef .tc main_v44) = B4 m ρ c (Proc.devRef .tc main_v44) :=
  (B5_arr m ρ c 0).trans (((dat2 (U4 m ρ) c).arrAt_in 0 rfl _).trans (A_eq2 (U4 m ρ) c 0))
/-- Region 2 only reads the array of its input window 1: it leaves the region as it entered. -/
theorem B5_in_1 (c : Dev nD) : B5 m ρ c (Proc.devRef .tc main_v45) = B4 m ρ c (Proc.devRef .tc main_v45) :=
  (B5_arr m ρ c 1).trans (((dat2 (U4 m ρ) c).arrAt_in 1 rfl _).trans (A_eq2 (U4 m ρ) c 1))
/-- Region 2 only reads the array of its input window 2: it leaves the region as it entered. -/
theorem B5_in_2 (c : Dev nD) : B5 m ρ c (Proc.devRef .tc main_v48_0) = B4 m ρ c (Proc.devRef .tc main_v48_0) :=
  (B5_arr m ρ c 2).trans (((dat2 (U4 m ρ) c).arrAt_in 2 rfl _).trans (A_eq2 (U4 m ρ) c 2))
/-- Region 2 only reads the array of its input window 3: it leaves the region as it entered. -/
theorem B5_in_3 (c : Dev nD) : B5 m ρ c (Proc.devRef .tc main_v48_1) = B4 m ρ c (Proc.devRef .tc main_v48_1) :=
  (B5_arr m ρ c 3).trans (((dat2 (U4 m ρ) c).arrAt_in 3 rfl _).trans (A_eq2 (U4 m ρ) c 3))
/-- Region 2 only reads the array of its input window 4: it leaves the region as it entered. -/
theorem B5_in_4 (c : Dev nD) : B5 m ρ c (Proc.devRef .tc main_v46) = B4 m ρ c (Proc.devRef .tc main_v46) :=
  (B5_arr m ρ c 4).trans (((dat2 (U4 m ρ) c).arrAt_in 4 rfl _).trans (A_eq2 (U4 m ρ) c 4))
/-- Region 2 only reads the array of its input window 5: it leaves the region as it entered. -/
theorem B5_in_5 (c : Dev nD) : B5 m ρ c (Proc.devRef .tc main_v47) = B4 m ρ c (Proc.devRef .tc main_v47) :=
  (B5_arr m ρ c 5).trans (((dat2 (U4 m ρ) c).arrAt_in 5 rfl _).trans (A_eq2 (U4 m ρ) c 5))
/-- Region 3 only reads the array of its input window 0: it leaves the region as it entered. -/
theorem B6_in_0 (c : Dev nD) : B6 m ρ c (Proc.devRef .tc main_v49) = B5 m ρ c (Proc.devRef .tc main_v49) :=
  (B6_arr m ρ c 0).trans (((dat3 (U5 m ρ) c).arrAt_in 0 rfl _).trans (A_eq3 (U5 m ρ) c 0))
/-- Region 3 only reads the array of its input window 1: it leaves the region as it entered. -/
theorem B6_in_1 (c : Dev nD) : B6 m ρ c (Proc.devRef .tc main_arg8) = B5 m ρ c (Proc.devRef .tc main_arg8) :=
  (B6_arr m ρ c 1).trans (((dat3 (U5 m ρ) c).arrAt_in 1 rfl _).trans (A_eq3 (U5 m ρ) c 1))
/-- Region 4 only reads the array of its input window 0: it leaves the region as it entered. -/
theorem B8_in_0 (c : Dev nD) : B8 m ρ c (Proc.devRef .tc main_v83) = B7 m ρ c (Proc.devRef .tc main_v83) :=
  (B8_arr m ρ c 0).trans (((dat4 (U7 m ρ) c).arrAt_in 0 rfl _).trans (A_eq4 (U7 m ρ) c 0))
/-- Region 4 only reads the array of its input window 1: it leaves the region as it entered. -/
theorem B8_in_1 (c : Dev nD) : B8 m ρ c (Proc.devRef .tc main_v84) = B7 m ρ c (Proc.devRef .tc main_v84) :=
  (B8_arr m ρ c 1).trans (((dat4 (U7 m ρ) c).arrAt_in 1 rfl _).trans (A_eq4 (U7 m ρ) c 1))
/-- Region 5 only reads the array of its input window 0: it leaves the region as it entered. -/
theorem B9_in_0 (c : Dev nD) : B9 m ρ c (Proc.devRef .tc main_v83) = B8 m ρ c (Proc.devRef .tc main_v83) :=
  (B9_arr m ρ c 0).trans (((dat5 (U8 m ρ) c).arrAt_in 0 rfl _).trans (A_eq5 (U8 m ρ) c 0))
/-- Region 5 only reads the array of its input window 1: it leaves the region as it entered. -/
theorem B9_in_1 (c : Dev nD) : B9 m ρ c (Proc.devRef .tc main_v84) = B8 m ρ c (Proc.devRef .tc main_v84) :=
  (B9_arr m ρ c 1).trans (((dat5 (U8 m ρ) c).arrAt_in 1 rfl _).trans (A_eq5 (U8 m ρ) c 1))
/-- Region 5 only reads the array of its input window 2: it leaves the region as it entered. -/
theorem B9_in_2 (c : Dev nD) : B9 m ρ c (Proc.devRef .tc main_v87_0) = B8 m ρ c (Proc.devRef .tc main_v87_0) :=
  (B9_arr m ρ c 2).trans (((dat5 (U8 m ρ) c).arrAt_in 2 rfl _).trans (A_eq5 (U8 m ρ) c 2))
/-- Region 5 only reads the array of its input window 3: it leaves the region as it entered. -/
theorem B9_in_3 (c : Dev nD) : B9 m ρ c (Proc.devRef .tc main_v87_1) = B8 m ρ c (Proc.devRef .tc main_v87_1) :=
  (B9_arr m ρ c 3).trans (((dat5 (U8 m ρ) c).arrAt_in 3 rfl _).trans (A_eq5 (U8 m ρ) c 3))
/-- Region 5 only reads the array of its input window 4: it leaves the region as it entered. -/
theorem B9_in_4 (c : Dev nD) : B9 m ρ c (Proc.devRef .tc main_v85) = B8 m ρ c (Proc.devRef .tc main_v85) :=
  (B9_arr m ρ c 4).trans (((dat5 (U8 m ρ) c).arrAt_in 4 rfl _).trans (A_eq5 (U8 m ρ) c 4))
/-- Region 5 only reads the array of its input window 5: it leaves the region as it entered. -/
theorem B9_in_5 (c : Dev nD) : B9 m ρ c (Proc.devRef .tc main_v86) = B8 m ρ c (Proc.devRef .tc main_v86) :=
  (B9_arr m ρ c 5).trans (((dat5 (U8 m ρ) c).arrAt_in 5 rfl _).trans (A_eq5 (U8 m ρ) c 5))
/-- Region 5 only reads the array of its input window 6: it leaves the region as it entered. -/
theorem B9_in_6 (c : Dev nD) : B9 m ρ c (Proc.devRef .tc main_v49) = B8 m ρ c (Proc.devRef .tc main_v49) :=
  (B9_arr m ρ c 6).trans (((dat5 (U8 m ρ) c).arrAt_in 6 rfl _).trans (A_eq5 (U8 m ρ) c 6))
/-- Region 6 only reads the array of its input window 0: it leaves the region as it entered. -/
theorem B10_in_0 (c : Dev nD) : B10 m ρ c (Proc.devRef .tc main_v88) = B9 m ρ c (Proc.devRef .tc main_v88) :=
  (B10_arr m ρ c 0).trans (((dat6 (U9 m ρ) c).arrAt_in 0 rfl _).trans (A_eq6 (U9 m ρ) c 0))
/-- Region 6 only reads the array of its input window 1: it leaves the region as it entered. -/
theorem B10_in_1 (c : Dev nD) : B10 m ρ c (Proc.devRef .tc main_arg12) = B9 m ρ c (Proc.devRef .tc main_arg12) :=
  (B10_arr m ρ c 1).trans (((dat6 (U9 m ρ) c).arrAt_in 1 rfl _).trans (A_eq6 (U9 m ρ) c 1))
/-- Region 7 only reads the array of its input window 0: it leaves the region as it entered. -/
theorem B12_in_0 (c : Dev nD) : B12 m ρ c (Proc.devRef .tc main_v122) = B11 m ρ c (Proc.devRef .tc main_v122) :=
  (B12_arr m ρ c 0).trans (((dat7 (U11 m ρ) c).arrAt_in 0 rfl _).trans (A_eq7 (U11 m ρ) c 0))
/-- Region 7 only reads the array of its input window 1: it leaves the region as it entered. -/
theorem B12_in_1 (c : Dev nD) : B12 m ρ c (Proc.devRef .tc main_v123) = B11 m ρ c (Proc.devRef .tc main_v123) :=
  (B12_arr m ρ c 1).trans (((dat7 (U11 m ρ) c).arrAt_in 1 rfl _).trans (A_eq7 (U11 m ρ) c 1))
/-- Region 8 only reads the array of its input window 0: it leaves the region as it entered. -/
theorem B13_in_0 (c : Dev nD) : B13 m ρ c (Proc.devRef .tc main_v122) = B12 m ρ c (Proc.devRef .tc main_v122) :=
  (B13_arr m ρ c 0).trans (((dat8 (U12 m ρ) c).arrAt_in 0 rfl _).trans (A_eq8 (U12 m ρ) c 0))
/-- Region 8 only reads the array of its input window 1: it leaves the region as it entered. -/
theorem B13_in_1 (c : Dev nD) : B13 m ρ c (Proc.devRef .tc main_v123) = B12 m ρ c (Proc.devRef .tc main_v123) :=
  (B13_arr m ρ c 1).trans (((dat8 (U12 m ρ) c).arrAt_in 1 rfl _).trans (A_eq8 (U12 m ρ) c 1))
/-- Region 8 only reads the array of its input window 2: it leaves the region as it entered. -/
theorem B13_in_2 (c : Dev nD) : B13 m ρ c (Proc.devRef .tc main_v126_0) = B12 m ρ c (Proc.devRef .tc main_v126_0) :=
  (B13_arr m ρ c 2).trans (((dat8 (U12 m ρ) c).arrAt_in 2 rfl _).trans (A_eq8 (U12 m ρ) c 2))
/-- Region 8 only reads the array of its input window 3: it leaves the region as it entered. -/
theorem B13_in_3 (c : Dev nD) : B13 m ρ c (Proc.devRef .tc main_v126_1) = B12 m ρ c (Proc.devRef .tc main_v126_1) :=
  (B13_arr m ρ c 3).trans (((dat8 (U12 m ρ) c).arrAt_in 3 rfl _).trans (A_eq8 (U12 m ρ) c 3))
/-- Region 8 only reads the array of its input window 4: it leaves the region as it entered. -/
theorem B13_in_4 (c : Dev nD) : B13 m ρ c (Proc.devRef .tc main_v124) = B12 m ρ c (Proc.devRef .tc main_v124) :=
  (B13_arr m ρ c 4).trans (((dat8 (U12 m ρ) c).arrAt_in 4 rfl _).trans (A_eq8 (U12 m ρ) c 4))
/-- Region 8 only reads the array of its input window 5: it leaves the region as it entered. -/
theorem B13_in_5 (c : Dev nD) : B13 m ρ c (Proc.devRef .tc main_v125) = B12 m ρ c (Proc.devRef .tc main_v125) :=
  (B13_arr m ρ c 5).trans (((dat8 (U12 m ρ) c).arrAt_in 5 rfl _).trans (A_eq8 (U12 m ρ) c 5))
/-- Region 9 only reads the array of its input window 0: it leaves the region as it entered. -/
theorem B15_in_0 (c : Dev nD) : B15 m ρ c (Proc.devRef .tc main_arg3) = B14 m ρ c (Proc.devRef .tc main_arg3) :=
  (B15_arr m ρ c 0).trans (((dat9 (U14 m ρ) c).arrAt_in 0 rfl _).trans (A_eq9 (U14 m ρ) c 0))
/-- Region 9 only reads the array of its input window 1: it leaves the region as it entered. -/
theorem B15_in_1 (c : Dev nD) : B15 m ρ c (Proc.devRef .tc main_arg16) = B14 m ρ c (Proc.devRef .tc main_arg16) :=
  (B15_arr m ρ c 1).trans (((dat9 (U14 m ρ) c).arrAt_in 1 rfl _).trans (A_eq9 (U14 m ρ) c 1))
/-- Region 9 only reads the array of its input window 2: it leaves the region as it entered. -/
theorem B15_in_2 (c : Dev nD) : B15 m ρ c (Proc.devRef .tc main_v140) = B14 m ρ c (Proc.devRef .tc main_v140) :=
  (B15_arr m ρ c 2).trans (((dat9 (U14 m ρ) c).arrAt_in 2 rfl _).trans (A_eq9 (U14 m ρ) c 2))
/-- Region 9 only reads the array of its input window 3: it leaves the region as it entered. -/
theorem B15_in_3 (c : Dev nD) : B15 m ρ c (Proc.devRef .tc main_arg18) = B14 m ρ c (Proc.devRef .tc main_arg18) :=
  (B15_arr m ρ c 3).trans (((dat9 (U14 m ρ) c).arrAt_in 3 rfl _).trans (A_eq9 (U14 m ρ) c 3))
/-- Region 9 only reads the array of its input window 4: it leaves the region as it entered. -/
theorem B15_in_4 (c : Dev nD) : B15 m ρ c (Proc.devRef .tc main_v141) = B14 m ρ c (Proc.devRef .tc main_v141) :=
  (B15_arr m ρ c 4).trans (((dat9 (U14 m ρ) c).arrAt_in 4 rfl _).trans (A_eq9 (U14 m ρ) c 4))
/-- Region 9 only reads the array of its input window 5: it leaves the region as it entered. -/
theorem B15_in_5 (c : Dev nD) : B15 m ρ c (Proc.devRef .tc main_v139) = B14 m ρ c (Proc.devRef .tc main_v139) :=
  (B15_arr m ρ c 5).trans (((dat9 (U14 m ρ) c).arrAt_in 5 rfl _).trans (A_eq9 (U14 m ρ) c 5))
/-- Region 9 only reads the array of its input window 6: it leaves the region as it entered. -/
theorem B15_in_6 (c : Dev nD) : B15 m ρ c (Proc.devRef .tc main_arg20) = B14 m ρ c (Proc.devRef .tc main_arg20) :=
  (B15_arr m ρ c 6).trans (((dat9 (U14 m ρ) c).arrAt_in 6 rfl _).trans (A_eq9 (U14 m ρ) c 6))
/-- Region 9 only reads the array of its input window 7: it leaves the region as it entered. -/
theorem B15_in_7 (c : Dev nD) : B15 m ρ c (Proc.devRef .tc main_v142) = B14 m ρ c (Proc.devRef .tc main_v142) :=
  (B15_arr m ρ c 7).trans (((dat9 (U14 m ρ) c).arrAt_in 7 rfl _).trans (A_eq9 (U14 m ρ) c 7))
/-- No item of @main writes the argument array: the last valuation holds it as launched. -/
theorem B16_main_arg0 (c : Dev nD) : B16 m ρ c (Proc.devRef .tc main_arg0) = m ((c : Thread nD τ).loc main_arg0) :=
  ((StableHlo.after_of_writes_sub hostOps10 _ hostOps10_writes (by decide) : B16 m ρ c (Proc.devRef .tc main_arg0) = B15 m ρ c (Proc.devRef .tc main_arg0))).trans <|
    ((B15_of_ne m ρ c main_arg0 (by decide))).trans <|
    ((StableHlo.after_of_writes_sub hostOps9 _ hostOps9_writes (by decide) : B14 m ρ c (Proc.devRef .tc main_arg0) = B13 m ρ c (Proc.devRef .tc main_arg0))).trans <|
    ((B13_of_ne m ρ c main_arg0 (by decide))).trans <|
    ((B12_of_ne m ρ c main_arg0 (by decide))).trans <|
    ((StableHlo.after_of_writes_sub hostOps7 _ hostOps7_writes (by decide) : B11 m ρ c (Proc.devRef .tc main_arg0) = B10 m ρ c (Proc.devRef .tc main_arg0))).trans <|
    ((B10_of_ne m ρ c main_arg0 (by decide))).trans <|
    ((B9_of_ne m ρ c main_arg0 (by decide))).trans <|
    ((B8_of_ne m ρ c main_arg0 (by decide))).trans <|
    ((StableHlo.after_of_writes_sub hostOps4 _ hostOps4_writes (by decide) : B7 m ρ c (Proc.devRef .tc main_arg0) = B6 m ρ c (Proc.devRef .tc main_arg0))).trans <|
    ((B6_of_ne m ρ c main_arg0 (by decide))).trans <|
    ((B5_of_ne m ρ c main_arg0 (by decide))).trans <|
    ((B4_of_ne m ρ c main_arg0 (by decide))).trans <|
    ((StableHlo.after_of_writes_sub hostOps1 _ hostOps1_writes (by decide) : B3 m ρ c (Proc.devRef .tc main_arg0) = B2 m ρ c (Proc.devRef .tc main_arg0))).trans <|
    ((B2_in_0 m ρ c)).trans <|
    ((StableHlo.after_of_writes_sub hostOps0 _ hostOps0_writes (by decide) : B1 m ρ c (Proc.devRef .tc main_arg0) = B0 m ρ c (Proc.devRef .tc main_arg0))).trans <| rfl
/-- No item of @main writes the argument array: the last valuation holds it as launched. -/
theorem B16_main_arg1 (c : Dev nD) : B16 m ρ c (Proc.devRef .tc main_arg1) = m ((c : Thread nD τ).loc main_arg1) :=
  ((StableHlo.after_of_writes_sub hostOps10 _ hostOps10_writes (by decide) : B16 m ρ c (Proc.devRef .tc main_arg1) = B15 m ρ c (Proc.devRef .tc main_arg1))).trans <|
    ((B15_of_ne m ρ c main_arg1 (by decide))).trans <|
    ((StableHlo.after_of_writes_sub hostOps9 _ hostOps9_writes (by decide) : B14 m ρ c (Proc.devRef .tc main_arg1) = B13 m ρ c (Proc.devRef .tc main_arg1))).trans <|
    ((B13_of_ne m ρ c main_arg1 (by decide))).trans <|
    ((B12_of_ne m ρ c main_arg1 (by decide))).trans <|
    ((StableHlo.after_of_writes_sub hostOps7 _ hostOps7_writes (by decide) : B11 m ρ c (Proc.devRef .tc main_arg1) = B10 m ρ c (Proc.devRef .tc main_arg1))).trans <|
    ((B10_of_ne m ρ c main_arg1 (by decide))).trans <|
    ((B9_of_ne m ρ c main_arg1 (by decide))).trans <|
    ((B8_of_ne m ρ c main_arg1 (by decide))).trans <|
    ((StableHlo.after_of_writes_sub hostOps4 _ hostOps4_writes (by decide) : B7 m ρ c (Proc.devRef .tc main_arg1) = B6 m ρ c (Proc.devRef .tc main_arg1))).trans <|
    ((B6_of_ne m ρ c main_arg1 (by decide))).trans <|
    ((B5_of_ne m ρ c main_arg1 (by decide))).trans <|
    ((B4_of_ne m ρ c main_arg1 (by decide))).trans <|
    ((StableHlo.after_of_writes_sub hostOps1 _ hostOps1_writes (by decide) : B3 m ρ c (Proc.devRef .tc main_arg1) = B2 m ρ c (Proc.devRef .tc main_arg1))).trans <|
    ((B2_of_ne m ρ c main_arg1 (by decide))).trans <|
    ((StableHlo.after_of_writes_sub hostOps0 _ hostOps0_writes (by decide) : B1 m ρ c (Proc.devRef .tc main_arg1) = B0 m ρ c (Proc.devRef .tc main_arg1))).trans <| rfl
/-- No item of @main writes the argument array: the last valuation holds it as launched. -/
theorem B16_main_arg2 (c : Dev nD) : B16 m ρ c (Proc.devRef .tc main_arg2) = m ((c : Thread nD τ).loc main_arg2) :=
  ((StableHlo.after_of_writes_sub hostOps10 _ hostOps10_writes (by decide) : B16 m ρ c (Proc.devRef .tc main_arg2) = B15 m ρ c (Proc.devRef .tc main_arg2))).trans <|
    ((B15_of_ne m ρ c main_arg2 (by decide))).trans <|
    ((StableHlo.after_of_writes_sub hostOps9 _ hostOps9_writes (by decide) : B14 m ρ c (Proc.devRef .tc main_arg2) = B13 m ρ c (Proc.devRef .tc main_arg2))).trans <|
    ((B13_of_ne m ρ c main_arg2 (by decide))).trans <|
    ((B12_of_ne m ρ c main_arg2 (by decide))).trans <|
    ((StableHlo.after_of_writes_sub hostOps7 _ hostOps7_writes (by decide) : B11 m ρ c (Proc.devRef .tc main_arg2) = B10 m ρ c (Proc.devRef .tc main_arg2))).trans <|
    ((B10_of_ne m ρ c main_arg2 (by decide))).trans <|
    ((B9_of_ne m ρ c main_arg2 (by decide))).trans <|
    ((B8_of_ne m ρ c main_arg2 (by decide))).trans <|
    ((StableHlo.after_of_writes_sub hostOps4 _ hostOps4_writes (by decide) : B7 m ρ c (Proc.devRef .tc main_arg2) = B6 m ρ c (Proc.devRef .tc main_arg2))).trans <|
    ((B6_of_ne m ρ c main_arg2 (by decide))).trans <|
    ((B5_of_ne m ρ c main_arg2 (by decide))).trans <|
    ((B4_of_ne m ρ c main_arg2 (by decide))).trans <|
    ((StableHlo.after_of_writes_sub hostOps1 _ hostOps1_writes (by decide) : B3 m ρ c (Proc.devRef .tc main_arg2) = B2 m ρ c (Proc.devRef .tc main_arg2))).trans <|
    ((B2_of_ne m ρ c main_arg2 (by decide))).trans <|
    ((StableHlo.after_of_writes_sub hostOps0 _ hostOps0_writes (by decide) : B1 m ρ c (Proc.devRef .tc main_arg2) = B0 m ρ c (Proc.devRef .tc main_arg2))).trans <| rfl
/-- No item of @main writes the argument array: the last valuation holds it as launched. -/
theorem B16_main_arg3 (c : Dev nD) : B16 m ρ c (Proc.devRef .tc main_arg3) = m ((c : Thread nD τ).loc main_arg3) :=
  ((StableHlo.after_of_writes_sub hostOps10 _ hostOps10_writes (by decide) : B16 m ρ c (Proc.devRef .tc main_arg3) = B15 m ρ c (Proc.devRef .tc main_arg3))).trans <|
    ((B15_in_0 m ρ c)).trans <|
    ((StableHlo.after_of_writes_sub hostOps9 _ hostOps9_writes (by decide) : B14 m ρ c (Proc.devRef .tc main_arg3) = B13 m ρ c (Proc.devRef .tc main_arg3))).trans <|
    ((B13_of_ne m ρ c main_arg3 (by decide))).trans <|
    ((B12_of_ne m ρ c main_arg3 (by decide))).trans <|
    ((StableHlo.after_of_writes_sub hostOps7 _ hostOps7_writes (by decide) : B11 m ρ c (Proc.devRef .tc main_arg3) = B10 m ρ c (Proc.devRef .tc main_arg3))).trans <|
    ((B10_of_ne m ρ c main_arg3 (by decide))).trans <|
    ((B9_of_ne m ρ c main_arg3 (by decide))).trans <|
    ((B8_of_ne m ρ c main_arg3 (by decide))).trans <|
    ((StableHlo.after_of_writes_sub hostOps4 _ hostOps4_writes (by decide) : B7 m ρ c (Proc.devRef .tc main_arg3) = B6 m ρ c (Proc.devRef .tc main_arg3))).trans <|
    ((B6_of_ne m ρ c main_arg3 (by decide))).trans <|
    ((B5_of_ne m ρ c main_arg3 (by decide))).trans <|
    ((B4_of_ne m ρ c main_arg3 (by decide))).trans <|
    ((StableHlo.after_of_writes_sub hostOps1 _ hostOps1_writes (by decide) : B3 m ρ c (Proc.devRef .tc main_arg3) = B2 m ρ c (Proc.devRef .tc main_arg3))).trans <|
    ((B2_of_ne m ρ c main_arg3 (by decide))).trans <|
    ((StableHlo.after_of_writes_sub hostOps0 _ hostOps0_writes (by decide) : B1 m ρ c (Proc.devRef .tc main_arg3) = B0 m ρ c (Proc.devRef .tc main_arg3))).trans <| rfl
/-- No item of @main writes the argument array: the last valuation holds it as launched. -/
theorem B16_main_arg4 (c : Dev nD) : B16 m ρ c (Proc.devRef .tc main_arg4) = m ((c : Thread nD τ).loc main_arg4) :=
  ((StableHlo.after_of_writes_sub hostOps10 _ hostOps10_writes (by decide) : B16 m ρ c (Proc.devRef .tc main_arg4) = B15 m ρ c (Proc.devRef .tc main_arg4))).trans <|
    ((B15_of_ne m ρ c main_arg4 (by decide))).trans <|
    ((StableHlo.after_of_writes_sub hostOps9 _ hostOps9_writes (by decide) : B14 m ρ c (Proc.devRef .tc main_arg4) = B13 m ρ c (Proc.devRef .tc main_arg4))).trans <|
    ((B13_of_ne m ρ c main_arg4 (by decide))).trans <|
    ((B12_of_ne m ρ c main_arg4 (by decide))).trans <|
    ((StableHlo.after_of_writes_sub hostOps7 _ hostOps7_writes (by decide) : B11 m ρ c (Proc.devRef .tc main_arg4) = B10 m ρ c (Proc.devRef .tc main_arg4))).trans <|
    ((B10_of_ne m ρ c main_arg4 (by decide))).trans <|
    ((B9_of_ne m ρ c main_arg4 (by decide))).trans <|
    ((B8_of_ne m ρ c main_arg4 (by decide))).trans <|
    ((StableHlo.after_of_writes_sub hostOps4 _ hostOps4_writes (by decide) : B7 m ρ c (Proc.devRef .tc main_arg4) = B6 m ρ c (Proc.devRef .tc main_arg4))).trans <|
    ((B6_of_ne m ρ c main_arg4 (by decide))).trans <|
    ((B5_of_ne m ρ c main_arg4 (by decide))).trans <|
    ((B4_of_ne m ρ c main_arg4 (by decide))).trans <|
    ((StableHlo.after_of_writes_sub hostOps1 _ hostOps1_writes (by decide) : B3 m ρ c (Proc.devRef .tc main_arg4) = B2 m ρ c (Proc.devRef .tc main_arg4))).trans <|
    ((B2_in_1 m ρ c)).trans <|
    ((StableHlo.after_of_writes_sub hostOps0 _ hostOps0_writes (by decide) : B1 m ρ c (Proc.devRef .tc main_arg4) = B0 m ρ c (Proc.devRef .tc main_arg4))).trans <| rfl
/-- No item of @main writes the argument array: the last valuation holds it as launched. -/
theorem B16_main_arg5 (c : Dev nD) : B16 m ρ c (Proc.devRef .tc main_arg5) = m ((c : Thread nD τ).loc main_arg5) :=
  ((StableHlo.after_of_writes_sub hostOps10 _ hostOps10_writes (by decide) : B16 m ρ c (Proc.devRef .tc main_arg5) = B15 m ρ c (Proc.devRef .tc main_arg5))).trans <|
    ((B15_of_ne m ρ c main_arg5 (by decide))).trans <|
    ((StableHlo.after_of_writes_sub hostOps9 _ hostOps9_writes (by decide) : B14 m ρ c (Proc.devRef .tc main_arg5) = B13 m ρ c (Proc.devRef .tc main_arg5))).trans <|
    ((B13_of_ne m ρ c main_arg5 (by decide))).trans <|
    ((B12_of_ne m ρ c main_arg5 (by decide))).trans <|
    ((StableHlo.after_of_writes_sub hostOps7 _ hostOps7_writes (by decide) : B11 m ρ c (Proc.devRef .tc main_arg5) = B10 m ρ c (Proc.devRef .tc main_arg5))).trans <|
    ((B10_of_ne m ρ c main_arg5 (by decide))).trans <|
    ((B9_of_ne m ρ c main_arg5 (by decide))).trans <|
    ((B8_of_ne m ρ c main_arg5 (by decide))).trans <|
    ((StableHlo.after_of_writes_sub hostOps4 _ hostOps4_writes (by decide) : B7 m ρ c (Proc.devRef .tc main_arg5) = B6 m ρ c (Proc.devRef .tc main_arg5))).trans <|
    ((B6_of_ne m ρ c main_arg5 (by decide))).trans <|
    ((B5_of_ne m ρ c main_arg5 (by decide))).trans <|
    ((B4_of_ne m ρ c main_arg5 (by decide))).trans <|
    ((StableHlo.after_of_writes_sub hostOps1 _ hostOps1_writes (by decide) : B3 m ρ c (Proc.devRef .tc main_arg5) = B2 m ρ c (Proc.devRef .tc main_arg5))).trans <|
    ((B2_of_ne m ρ c main_arg5 (by decide))).trans <|
    ((StableHlo.after_of_writes_sub hostOps0 _ hostOps0_writes (by decide) : B1 m ρ c (Proc.devRef .tc main_arg5) = B0 m ρ c (Proc.devRef .tc main_arg5))).trans <| rfl
/-- No item of @main writes the argument array: the last valuation holds it as launched. -/
theorem B16_main_arg6 (c : Dev nD) : B16 m ρ c (Proc.devRef .tc main_arg6) = m ((c : Thread nD τ).loc main_arg6) :=
  ((StableHlo.after_of_writes_sub hostOps10 _ hostOps10_writes (by decide) : B16 m ρ c (Proc.devRef .tc main_arg6) = B15 m ρ c (Proc.devRef .tc main_arg6))).trans <|
    ((B15_of_ne m ρ c main_arg6 (by decide))).trans <|
    ((StableHlo.after_of_writes_sub hostOps9 _ hostOps9_writes (by decide) : B14 m ρ c (Proc.devRef .tc main_arg6) = B13 m ρ c (Proc.devRef .tc main_arg6))).trans <|
    ((B13_of_ne m ρ c main_arg6 (by decide))).trans <|
    ((B12_of_ne m ρ c main_arg6 (by decide))).trans <|
    ((StableHlo.after_of_writes_sub hostOps7 _ hostOps7_writes (by decide) : B11 m ρ c (Proc.devRef .tc main_arg6) = B10 m ρ c (Proc.devRef .tc main_arg6))).trans <|
    ((B10_of_ne m ρ c main_arg6 (by decide))).trans <|
    ((B9_of_ne m ρ c main_arg6 (by decide))).trans <|
    ((B8_of_ne m ρ c main_arg6 (by decide))).trans <|
    ((StableHlo.after_of_writes_sub hostOps4 _ hostOps4_writes (by decide) : B7 m ρ c (Proc.devRef .tc main_arg6) = B6 m ρ c (Proc.devRef .tc main_arg6))).trans <|
    ((B6_of_ne m ρ c main_arg6 (by decide))).trans <|
    ((B5_of_ne m ρ c main_arg6 (by decide))).trans <|
    ((B4_of_ne m ρ c main_arg6 (by decide))).trans <|
    ((StableHlo.after_of_writes_sub hostOps1 _ hostOps1_writes (by decide) : B3 m ρ c (Proc.devRef .tc main_arg6) = B2 m ρ c (Proc.devRef .tc main_arg6))).trans <|
    ((B2_of_ne m ρ c main_arg6 (by decide))).trans <|
    ((StableHlo.after_of_writes_sub hostOps0 _ hostOps0_writes (by decide) : B1 m ρ c (Proc.devRef .tc main_arg6) = B0 m ρ c (Proc.devRef .tc main_arg6))).trans <| rfl
/-- No item of @main writes the argument array: the last valuation holds it as launched. -/
theorem B16_main_arg7 (c : Dev nD) : B16 m ρ c (Proc.devRef .tc main_arg7) = m ((c : Thread nD τ).loc main_arg7) :=
  ((StableHlo.after_of_writes_sub hostOps10 _ hostOps10_writes (by decide) : B16 m ρ c (Proc.devRef .tc main_arg7) = B15 m ρ c (Proc.devRef .tc main_arg7))).trans <|
    ((B15_of_ne m ρ c main_arg7 (by decide))).trans <|
    ((StableHlo.after_of_writes_sub hostOps9 _ hostOps9_writes (by decide) : B14 m ρ c (Proc.devRef .tc main_arg7) = B13 m ρ c (Proc.devRef .tc main_arg7))).trans <|
    ((B13_of_ne m ρ c main_arg7 (by decide))).trans <|
    ((B12_of_ne m ρ c main_arg7 (by decide))).trans <|
    ((StableHlo.after_of_writes_sub hostOps7 _ hostOps7_writes (by decide) : B11 m ρ c (Proc.devRef .tc main_arg7) = B10 m ρ c (Proc.devRef .tc main_arg7))).trans <|
    ((B10_of_ne m ρ c main_arg7 (by decide))).trans <|
    ((B9_of_ne m ρ c main_arg7 (by decide))).trans <|
    ((B8_of_ne m ρ c main_arg7 (by decide))).trans <|
    ((StableHlo.after_of_writes_sub hostOps4 _ hostOps4_writes (by decide) : B7 m ρ c (Proc.devRef .tc main_arg7) = B6 m ρ c (Proc.devRef .tc main_arg7))).trans <|
    ((B6_of_ne m ρ c main_arg7 (by decide))).trans <|
    ((B5_of_ne m ρ c main_arg7 (by decide))).trans <|
    ((B4_of_ne m ρ c main_arg7 (by decide))).trans <|
    ((StableHlo.after_of_writes_sub hostOps1 _ hostOps1_writes (by decide) : B3 m ρ c (Proc.devRef .tc main_arg7) = B2 m ρ c (Proc.devRef .tc main_arg7))).trans <|
    ((B2_of_ne m ρ c main_arg7 (by decide))).trans <|
    ((StableHlo.after_of_writes_sub hostOps0 _ hostOps0_writes (by decide) : B1 m ρ c (Proc.devRef .tc main_arg7) = B0 m ρ c (Proc.devRef .tc main_arg7))).trans <| rfl
/-- No item of @main writes the argument array: the last valuation holds it as launched. -/
theorem B16_main_arg8 (c : Dev nD) : B16 m ρ c (Proc.devRef .tc main_arg8) = m ((c : Thread nD τ).loc main_arg8) :=
  ((StableHlo.after_of_writes_sub hostOps10 _ hostOps10_writes (by decide) : B16 m ρ c (Proc.devRef .tc main_arg8) = B15 m ρ c (Proc.devRef .tc main_arg8))).trans <|
    ((B15_of_ne m ρ c main_arg8 (by decide))).trans <|
    ((StableHlo.after_of_writes_sub hostOps9 _ hostOps9_writes (by decide) : B14 m ρ c (Proc.devRef .tc main_arg8) = B13 m ρ c (Proc.devRef .tc main_arg8))).trans <|
    ((B13_of_ne m ρ c main_arg8 (by decide))).trans <|
    ((B12_of_ne m ρ c main_arg8 (by decide))).trans <|
    ((StableHlo.after_of_writes_sub hostOps7 _ hostOps7_writes (by decide) : B11 m ρ c (Proc.devRef .tc main_arg8) = B10 m ρ c (Proc.devRef .tc main_arg8))).trans <|
    ((B10_of_ne m ρ c main_arg8 (by decide))).trans <|
    ((B9_of_ne m ρ c main_arg8 (by decide))).trans <|
    ((B8_of_ne m ρ c main_arg8 (by decide))).trans <|
    ((StableHlo.after_of_writes_sub hostOps4 _ hostOps4_writes (by decide) : B7 m ρ c (Proc.devRef .tc main_arg8) = B6 m ρ c (Proc.devRef .tc main_arg8))).trans <|
    ((B6_in_1 m ρ c)).trans <|
    ((B5_of_ne m ρ c main_arg8 (by decide))).trans <|
    ((B4_of_ne m ρ c main_arg8 (by decide))).trans <|
    ((StableHlo.after_of_writes_sub hostOps1 _ hostOps1_writes (by decide) : B3 m ρ c (Proc.devRef .tc main_arg8) = B2 m ρ c (Proc.devRef .tc main_arg8))).trans <|
    ((B2_of_ne m ρ c main_arg8 (by decide))).trans <|
    ((StableHlo.after_of_writes_sub hostOps0 _ hostOps0_writes (by decide) : B1 m ρ c (Proc.devRef .tc main_arg8) = B0 m ρ c (Proc.devRef .tc main_arg8))).trans <| rfl
/-- No item of @main writes the argument array: the last valuation holds it as launched. -/
theorem B16_main_arg9 (c : Dev nD) : B16 m ρ c (Proc.devRef .tc main_arg9) = m ((c : Thread nD τ).loc main_arg9) :=
  ((StableHlo.after_of_writes_sub hostOps10 _ hostOps10_writes (by decide) : B16 m ρ c (Proc.devRef .tc main_arg9) = B15 m ρ c (Proc.devRef .tc main_arg9))).trans <|
    ((B15_of_ne m ρ c main_arg9 (by decide))).trans <|
    ((StableHlo.after_of_writes_sub hostOps9 _ hostOps9_writes (by decide) : B14 m ρ c (Proc.devRef .tc main_arg9) = B13 m ρ c (Proc.devRef .tc main_arg9))).trans <|
    ((B13_of_ne m ρ c main_arg9 (by decide))).trans <|
    ((B12_of_ne m ρ c main_arg9 (by decide))).trans <|
    ((StableHlo.after_of_writes_sub hostOps7 _ hostOps7_writes (by decide) : B11 m ρ c (Proc.devRef .tc main_arg9) = B10 m ρ c (Proc.devRef .tc main_arg9))).trans <|
    ((B10_of_ne m ρ c main_arg9 (by decide))).trans <|
    ((B9_of_ne m ρ c main_arg9 (by decide))).trans <|
    ((B8_of_ne m ρ c main_arg9 (by decide))).trans <|
    ((StableHlo.after_of_writes_sub hostOps4 _ hostOps4_writes (by decide) : B7 m ρ c (Proc.devRef .tc main_arg9) = B6 m ρ c (Proc.devRef .tc main_arg9))).trans <|
    ((B6_of_ne m ρ c main_arg9 (by decide))).trans <|
    ((B5_of_ne m ρ c main_arg9 (by decide))).trans <|
    ((B4_of_ne m ρ c main_arg9 (by decide))).trans <|
    ((StableHlo.after_of_writes_sub hostOps1 _ hostOps1_writes (by decide) : B3 m ρ c (Proc.devRef .tc main_arg9) = B2 m ρ c (Proc.devRef .tc main_arg9))).trans <|
    ((B2_of_ne m ρ c main_arg9 (by decide))).trans <|
    ((StableHlo.after_of_writes_sub hostOps0 _ hostOps0_writes (by decide) : B1 m ρ c (Proc.devRef .tc main_arg9) = B0 m ρ c (Proc.devRef .tc main_arg9))).trans <| rfl
/-- No item of @main writes the argument array: the last valuation holds it as launched. -/
theorem B16_main_arg10 (c : Dev nD) : B16 m ρ c (Proc.devRef .tc main_arg10) = m ((c : Thread nD τ).loc main_arg10) :=
  ((StableHlo.after_of_writes_sub hostOps10 _ hostOps10_writes (by decide) : B16 m ρ c (Proc.devRef .tc main_arg10) = B15 m ρ c (Proc.devRef .tc main_arg10))).trans <|
    ((B15_of_ne m ρ c main_arg10 (by decide))).trans <|
    ((StableHlo.after_of_writes_sub hostOps9 _ hostOps9_writes (by decide) : B14 m ρ c (Proc.devRef .tc main_arg10) = B13 m ρ c (Proc.devRef .tc main_arg10))).trans <|
    ((B13_of_ne m ρ c main_arg10 (by decide))).trans <|
    ((B12_of_ne m ρ c main_arg10 (by decide))).trans <|
    ((StableHlo.after_of_writes_sub hostOps7 _ hostOps7_writes (by decide) : B11 m ρ c (Proc.devRef .tc main_arg10) = B10 m ρ c (Proc.devRef .tc main_arg10))).trans <|
    ((B10_of_ne m ρ c main_arg10 (by decide))).trans <|
    ((B9_of_ne m ρ c main_arg10 (by decide))).trans <|
    ((B8_of_ne m ρ c main_arg10 (by decide))).trans <|
    ((StableHlo.after_of_writes_sub hostOps4 _ hostOps4_writes (by decide) : B7 m ρ c (Proc.devRef .tc main_arg10) = B6 m ρ c (Proc.devRef .tc main_arg10))).trans <|
    ((B6_of_ne m ρ c main_arg10 (by decide))).trans <|
    ((B5_of_ne m ρ c main_arg10 (by decide))).trans <|
    ((B4_of_ne m ρ c main_arg10 (by decide))).trans <|
    ((StableHlo.after_of_writes_sub hostOps1 _ hostOps1_writes (by decide) : B3 m ρ c (Proc.devRef .tc main_arg10) = B2 m ρ c (Proc.devRef .tc main_arg10))).trans <|
    ((B2_of_ne m ρ c main_arg10 (by decide))).trans <|
    ((StableHlo.after_of_writes_sub hostOps0 _ hostOps0_writes (by decide) : B1 m ρ c (Proc.devRef .tc main_arg10) = B0 m ρ c (Proc.devRef .tc main_arg10))).trans <| rfl
/-- No item of @main writes the argument array: the last valuation holds it as launched. -/
theorem B16_main_arg11 (c : Dev nD) : B16 m ρ c (Proc.devRef .tc main_arg11) = m ((c : Thread nD τ).loc main_arg11) :=
  ((StableHlo.after_of_writes_sub hostOps10 _ hostOps10_writes (by decide) : B16 m ρ c (Proc.devRef .tc main_arg11) = B15 m ρ c (Proc.devRef .tc main_arg11))).trans <|
    ((B15_of_ne m ρ c main_arg11 (by decide))).trans <|
    ((StableHlo.after_of_writes_sub hostOps9 _ hostOps9_writes (by decide) : B14 m ρ c (Proc.devRef .tc main_arg11) = B13 m ρ c (Proc.devRef .tc main_arg11))).trans <|
    ((B13_of_ne m ρ c main_arg11 (by decide))).trans <|
    ((B12_of_ne m ρ c main_arg11 (by decide))).trans <|
    ((StableHlo.after_of_writes_sub hostOps7 _ hostOps7_writes (by decide) : B11 m ρ c (Proc.devRef .tc main_arg11) = B10 m ρ c (Proc.devRef .tc main_arg11))).trans <|
    ((B10_of_ne m ρ c main_arg11 (by decide))).trans <|
    ((B9_of_ne m ρ c main_arg11 (by decide))).trans <|
    ((B8_of_ne m ρ c main_arg11 (by decide))).trans <|
    ((StableHlo.after_of_writes_sub hostOps4 _ hostOps4_writes (by decide) : B7 m ρ c (Proc.devRef .tc main_arg11) = B6 m ρ c (Proc.devRef .tc main_arg11))).trans <|
    ((B6_of_ne m ρ c main_arg11 (by decide))).trans <|
    ((B5_of_ne m ρ c main_arg11 (by decide))).trans <|
    ((B4_of_ne m ρ c main_arg11 (by decide))).trans <|
    ((StableHlo.after_of_writes_sub hostOps1 _ hostOps1_writes (by decide) : B3 m ρ c (Proc.devRef .tc main_arg11) = B2 m ρ c (Proc.devRef .tc main_arg11))).trans <|
    ((B2_of_ne m ρ c main_arg11 (by decide))).trans <|
    ((StableHlo.after_of_writes_sub hostOps0 _ hostOps0_writes (by decide) : B1 m ρ c (Proc.devRef .tc main_arg11) = B0 m ρ c (Proc.devRef .tc main_arg11))).trans <| rfl
/-- No item of @main writes the argument array: the last valuation holds it as launched. -/
theorem B16_main_arg12 (c : Dev nD) : B16 m ρ c (Proc.devRef .tc main_arg12) = m ((c : Thread nD τ).loc main_arg12) :=
  ((StableHlo.after_of_writes_sub hostOps10 _ hostOps10_writes (by decide) : B16 m ρ c (Proc.devRef .tc main_arg12) = B15 m ρ c (Proc.devRef .tc main_arg12))).trans <|
    ((B15_of_ne m ρ c main_arg12 (by decide))).trans <|
    ((StableHlo.after_of_writes_sub hostOps9 _ hostOps9_writes (by decide) : B14 m ρ c (Proc.devRef .tc main_arg12) = B13 m ρ c (Proc.devRef .tc main_arg12))).trans <|
    ((B13_of_ne m ρ c main_arg12 (by decide))).trans <|
    ((B12_of_ne m ρ c main_arg12 (by decide))).trans <|
    ((StableHlo.after_of_writes_sub hostOps7 _ hostOps7_writes (by decide) : B11 m ρ c (Proc.devRef .tc main_arg12) = B10 m ρ c (Proc.devRef .tc main_arg12))).trans <|
    ((B10_in_1 m ρ c)).trans <|
    ((B9_of_ne m ρ c main_arg12 (by decide))).trans <|
    ((B8_of_ne m ρ c main_arg12 (by decide))).trans <|
    ((StableHlo.after_of_writes_sub hostOps4 _ hostOps4_writes (by decide) : B7 m ρ c (Proc.devRef .tc main_arg12) = B6 m ρ c (Proc.devRef .tc main_arg12))).trans <|
    ((B6_of_ne m ρ c main_arg12 (by decide))).trans <|
    ((B5_of_ne m ρ c main_arg12 (by decide))).trans <|
    ((B4_of_ne m ρ c main_arg12 (by decide))).trans <|
    ((StableHlo.after_of_writes_sub hostOps1 _ hostOps1_writes (by decide) : B3 m ρ c (Proc.devRef .tc main_arg12) = B2 m ρ c (Proc.devRef .tc main_arg12))).trans <|
    ((B2_of_ne m ρ c main_arg12 (by decide))).trans <|
    ((StableHlo.after_of_writes_sub hostOps0 _ hostOps0_writes (by decide) : B1 m ρ c (Proc.devRef .tc main_arg12) = B0 m ρ c (Proc.devRef .tc main_arg12))).trans <| rfl
/-- No item of @main writes the argument array: the last valuation holds it as launched. -/
theorem B16_main_arg13 (c : Dev nD) : B16 m ρ c (Proc.devRef .tc main_arg13) = m ((c : Thread nD τ).loc main_arg13) :=
  ((StableHlo.after_of_writes_sub hostOps10 _ hostOps10_writes (by decide) : B16 m ρ c (Proc.devRef .tc main_arg13) = B15 m ρ c (Proc.devRef .tc main_arg13))).trans <|
    ((B15_of_ne m ρ c main_arg13 (by decide))).trans <|
    ((StableHlo.after_of_writes_sub hostOps9 _ hostOps9_writes (by decide) : B14 m ρ c (Proc.devRef .tc main_arg13) = B13 m ρ c (Proc.devRef .tc main_arg13))).trans <|
    ((B13_of_ne m ρ c main_arg13 (by decide))).trans <|
    ((B12_of_ne m ρ c main_arg13 (by decide))).trans <|
    ((StableHlo.after_of_writes_sub hostOps7 _ hostOps7_writes (by decide) : B11 m ρ c (Proc.devRef .tc main_arg13) = B10 m ρ c (Proc.devRef .tc main_arg13))).trans <|
    ((B10_of_ne m ρ c main_arg13 (by decide))).trans <|
    ((B9_of_ne m ρ c main_arg13 (by decide))).trans <|
    ((B8_of_ne m ρ c main_arg13 (by decide))).trans <|
    ((StableHlo.after_of_writes_sub hostOps4 _ hostOps4_writes (by decide) : B7 m ρ c (Proc.devRef .tc main_arg13) = B6 m ρ c (Proc.devRef .tc main_arg13))).trans <|
    ((B6_of_ne m ρ c main_arg13 (by decide))).trans <|
    ((B5_of_ne m ρ c main_arg13 (by decide))).trans <|
    ((B4_of_ne m ρ c main_arg13 (by decide))).trans <|
    ((StableHlo.after_of_writes_sub hostOps1 _ hostOps1_writes (by decide) : B3 m ρ c (Proc.devRef .tc main_arg13) = B2 m ρ c (Proc.devRef .tc main_arg13))).trans <|
    ((B2_of_ne m ρ c main_arg13 (by decide))).trans <|
    ((StableHlo.after_of_writes_sub hostOps0 _ hostOps0_writes (by decide) : B1 m ρ c (Proc.devRef .tc main_arg13) = B0 m ρ c (Proc.devRef .tc main_arg13))).trans <| rfl
/-- No item of @main writes the argument array: the last valuation holds it as launched. -/
theorem B16_main_arg14 (c : Dev nD) : B16 m ρ c (Proc.devRef .tc main_arg14) = m ((c : Thread nD τ).loc main_arg14) :=
  ((StableHlo.after_of_writes_sub hostOps10 _ hostOps10_writes (by decide) : B16 m ρ c (Proc.devRef .tc main_arg14) = B15 m ρ c (Proc.devRef .tc main_arg14))).trans <|
    ((B15_of_ne m ρ c main_arg14 (by decide))).trans <|
    ((StableHlo.after_of_writes_sub hostOps9 _ hostOps9_writes (by decide) : B14 m ρ c (Proc.devRef .tc main_arg14) = B13 m ρ c (Proc.devRef .tc main_arg14))).trans <|
    ((B13_of_ne m ρ c main_arg14 (by decide))).trans <|
    ((B12_of_ne m ρ c main_arg14 (by decide))).trans <|
    ((StableHlo.after_of_writes_sub hostOps7 _ hostOps7_writes (by decide) : B11 m ρ c (Proc.devRef .tc main_arg14) = B10 m ρ c (Proc.devRef .tc main_arg14))).trans <|
    ((B10_of_ne m ρ c main_arg14 (by decide))).trans <|
    ((B9_of_ne m ρ c main_arg14 (by decide))).trans <|
    ((B8_of_ne m ρ c main_arg14 (by decide))).trans <|
    ((StableHlo.after_of_writes_sub hostOps4 _ hostOps4_writes (by decide) : B7 m ρ c (Proc.devRef .tc main_arg14) = B6 m ρ c (Proc.devRef .tc main_arg14))).trans <|
    ((B6_of_ne m ρ c main_arg14 (by decide))).trans <|
    ((B5_of_ne m ρ c main_arg14 (by decide))).trans <|
    ((B4_of_ne m ρ c main_arg14 (by decide))).trans <|
    ((StableHlo.after_of_writes_sub hostOps1 _ hostOps1_writes (by decide) : B3 m ρ c (Proc.devRef .tc main_arg14) = B2 m ρ c (Proc.devRef .tc main_arg14))).trans <|
    ((B2_of_ne m ρ c main_arg14 (by decide))).trans <|
    ((StableHlo.after_of_writes_sub hostOps0 _ hostOps0_writes (by decide) : B1 m ρ c (Proc.devRef .tc main_arg14) = B0 m ρ c (Proc.devRef .tc main_arg14))).trans <| rfl
/-- No item of @main writes the argument array: the last valuation holds it as launched. -/
theorem B16_main_arg15 (c : Dev nD) : B16 m ρ c (Proc.devRef .tc main_arg15) = m ((c : Thread nD τ).loc main_arg15) :=
  ((StableHlo.after_of_writes_sub hostOps10 _ hostOps10_writes (by decide) : B16 m ρ c (Proc.devRef .tc main_arg15) = B15 m ρ c (Proc.devRef .tc main_arg15))).trans <|
    ((B15_of_ne m ρ c main_arg15 (by decide))).trans <|
    ((StableHlo.after_of_writes_sub hostOps9 _ hostOps9_writes (by decide) : B14 m ρ c (Proc.devRef .tc main_arg15) = B13 m ρ c (Proc.devRef .tc main_arg15))).trans <|
    ((B13_of_ne m ρ c main_arg15 (by decide))).trans <|
    ((B12_of_ne m ρ c main_arg15 (by decide))).trans <|
    ((StableHlo.after_of_writes_sub hostOps7 _ hostOps7_writes (by decide) : B11 m ρ c (Proc.devRef .tc main_arg15) = B10 m ρ c (Proc.devRef .tc main_arg15))).trans <|
    ((B10_of_ne m ρ c main_arg15 (by decide))).trans <|
    ((B9_of_ne m ρ c main_arg15 (by decide))).trans <|
    ((B8_of_ne m ρ c main_arg15 (by decide))).trans <|
    ((StableHlo.after_of_writes_sub hostOps4 _ hostOps4_writes (by decide) : B7 m ρ c (Proc.devRef .tc main_arg15) = B6 m ρ c (Proc.devRef .tc main_arg15))).trans <|
    ((B6_of_ne m ρ c main_arg15 (by decide))).trans <|
    ((B5_of_ne m ρ c main_arg15 (by decide))).trans <|
    ((B4_of_ne m ρ c main_arg15 (by decide))).trans <|
    ((StableHlo.after_of_writes_sub hostOps1 _ hostOps1_writes (by decide) : B3 m ρ c (Proc.devRef .tc main_arg15) = B2 m ρ c (Proc.devRef .tc main_arg15))).trans <|
    ((B2_of_ne m ρ c main_arg15 (by decide))).trans <|
    ((StableHlo.after_of_writes_sub hostOps0 _ hostOps0_writes (by decide) : B1 m ρ c (Proc.devRef .tc main_arg15) = B0 m ρ c (Proc.devRef .tc main_arg15))).trans <| rfl
/-- No item of @main writes the argument array: the last valuation holds it as launched. -/
theorem B16_main_arg16 (c : Dev nD) : B16 m ρ c (Proc.devRef .tc main_arg16) = m ((c : Thread nD τ).loc main_arg16) :=
  ((StableHlo.after_of_writes_sub hostOps10 _ hostOps10_writes (by decide) : B16 m ρ c (Proc.devRef .tc main_arg16) = B15 m ρ c (Proc.devRef .tc main_arg16))).trans <|
    ((B15_in_1 m ρ c)).trans <|
    ((StableHlo.after_of_writes_sub hostOps9 _ hostOps9_writes (by decide) : B14 m ρ c (Proc.devRef .tc main_arg16) = B13 m ρ c (Proc.devRef .tc main_arg16))).trans <|
    ((B13_of_ne m ρ c main_arg16 (by decide))).trans <|
    ((B12_of_ne m ρ c main_arg16 (by decide))).trans <|
    ((StableHlo.after_of_writes_sub hostOps7 _ hostOps7_writes (by decide) : B11 m ρ c (Proc.devRef .tc main_arg16) = B10 m ρ c (Proc.devRef .tc main_arg16))).trans <|
    ((B10_of_ne m ρ c main_arg16 (by decide))).trans <|
    ((B9_of_ne m ρ c main_arg16 (by decide))).trans <|
    ((B8_of_ne m ρ c main_arg16 (by decide))).trans <|
    ((StableHlo.after_of_writes_sub hostOps4 _ hostOps4_writes (by decide) : B7 m ρ c (Proc.devRef .tc main_arg16) = B6 m ρ c (Proc.devRef .tc main_arg16))).trans <|
    ((B6_of_ne m ρ c main_arg16 (by decide))).trans <|
    ((B5_of_ne m ρ c main_arg16 (by decide))).trans <|
    ((B4_of_ne m ρ c main_arg16 (by decide))).trans <|
    ((StableHlo.after_of_writes_sub hostOps1 _ hostOps1_writes (by decide) : B3 m ρ c (Proc.devRef .tc main_arg16) = B2 m ρ c (Proc.devRef .tc main_arg16))).trans <|
    ((B2_of_ne m ρ c main_arg16 (by decide))).trans <|
    ((StableHlo.after_of_writes_sub hostOps0 _ hostOps0_writes (by decide) : B1 m ρ c (Proc.devRef .tc main_arg16) = B0 m ρ c (Proc.devRef .tc main_arg16))).trans <| rfl
/-- No item of @main writes the argument array: the last valuation holds it as launched. -/
theorem B16_main_arg17 (c : Dev nD) : B16 m ρ c (Proc.devRef .tc main_arg17) = m ((c : Thread nD τ).loc main_arg17) :=
  ((StableHlo.after_of_writes_sub hostOps10 _ hostOps10_writes (by decide) : B16 m ρ c (Proc.devRef .tc main_arg17) = B15 m ρ c (Proc.devRef .tc main_arg17))).trans <|
    ((B15_of_ne m ρ c main_arg17 (by decide))).trans <|
    ((StableHlo.after_of_writes_sub hostOps9 _ hostOps9_writes (by decide) : B14 m ρ c (Proc.devRef .tc main_arg17) = B13 m ρ c (Proc.devRef .tc main_arg17))).trans <|
    ((B13_of_ne m ρ c main_arg17 (by decide))).trans <|
    ((B12_of_ne m ρ c main_arg17 (by decide))).trans <|
    ((StableHlo.after_of_writes_sub hostOps7 _ hostOps7_writes (by decide) : B11 m ρ c (Proc.devRef .tc main_arg17) = B10 m ρ c (Proc.devRef .tc main_arg17))).trans <|
    ((B10_of_ne m ρ c main_arg17 (by decide))).trans <|
    ((B9_of_ne m ρ c main_arg17 (by decide))).trans <|
    ((B8_of_ne m ρ c main_arg17 (by decide))).trans <|
    ((StableHlo.after_of_writes_sub hostOps4 _ hostOps4_writes (by decide) : B7 m ρ c (Proc.devRef .tc main_arg17) = B6 m ρ c (Proc.devRef .tc main_arg17))).trans <|
    ((B6_of_ne m ρ c main_arg17 (by decide))).trans <|
    ((B5_of_ne m ρ c main_arg17 (by decide))).trans <|
    ((B4_of_ne m ρ c main_arg17 (by decide))).trans <|
    ((StableHlo.after_of_writes_sub hostOps1 _ hostOps1_writes (by decide) : B3 m ρ c (Proc.devRef .tc main_arg17) = B2 m ρ c (Proc.devRef .tc main_arg17))).trans <|
    ((B2_of_ne m ρ c main_arg17 (by decide))).trans <|
    ((StableHlo.after_of_writes_sub hostOps0 _ hostOps0_writes (by decide) : B1 m ρ c (Proc.devRef .tc main_arg17) = B0 m ρ c (Proc.devRef .tc main_arg17))).trans <| rfl
/-- No item of @main writes the argument array: the last valuation holds it as launched. -/
theorem B16_main_arg18 (c : Dev nD) : B16 m ρ c (Proc.devRef .tc main_arg18) = m ((c : Thread nD τ).loc main_arg18) :=
  ((StableHlo.after_of_writes_sub hostOps10 _ hostOps10_writes (by decide) : B16 m ρ c (Proc.devRef .tc main_arg18) = B15 m ρ c (Proc.devRef .tc main_arg18))).trans <|
    ((B15_in_3 m ρ c)).trans <|
    ((StableHlo.after_of_writes_sub hostOps9 _ hostOps9_writes (by decide) : B14 m ρ c (Proc.devRef .tc main_arg18) = B13 m ρ c (Proc.devRef .tc main_arg18))).trans <|
    ((B13_of_ne m ρ c main_arg18 (by decide))).trans <|
    ((B12_of_ne m ρ c main_arg18 (by decide))).trans <|
    ((StableHlo.after_of_writes_sub hostOps7 _ hostOps7_writes (by decide) : B11 m ρ c (Proc.devRef .tc main_arg18) = B10 m ρ c (Proc.devRef .tc main_arg18))).trans <|
    ((B10_of_ne m ρ c main_arg18 (by decide))).trans <|
    ((B9_of_ne m ρ c main_arg18 (by decide))).trans <|
    ((B8_of_ne m ρ c main_arg18 (by decide))).trans <|
    ((StableHlo.after_of_writes_sub hostOps4 _ hostOps4_writes (by decide) : B7 m ρ c (Proc.devRef .tc main_arg18) = B6 m ρ c (Proc.devRef .tc main_arg18))).trans <|
    ((B6_of_ne m ρ c main_arg18 (by decide))).trans <|
    ((B5_of_ne m ρ c main_arg18 (by decide))).trans <|
    ((B4_of_ne m ρ c main_arg18 (by decide))).trans <|
    ((StableHlo.after_of_writes_sub hostOps1 _ hostOps1_writes (by decide) : B3 m ρ c (Proc.devRef .tc main_arg18) = B2 m ρ c (Proc.devRef .tc main_arg18))).trans <|
    ((B2_of_ne m ρ c main_arg18 (by decide))).trans <|
    ((StableHlo.after_of_writes_sub hostOps0 _ hostOps0_writes (by decide) : B1 m ρ c (Proc.devRef .tc main_arg18) = B0 m ρ c (Proc.devRef .tc main_arg18))).trans <| rfl
/-- No item of @main writes the argument array: the last valuation holds it as launched. -/
theorem B16_main_arg19 (c : Dev nD) : B16 m ρ c (Proc.devRef .tc main_arg19) = m ((c : Thread nD τ).loc main_arg19) :=
  ((StableHlo.after_of_writes_sub hostOps10 _ hostOps10_writes (by decide) : B16 m ρ c (Proc.devRef .tc main_arg19) = B15 m ρ c (Proc.devRef .tc main_arg19))).trans <|
    ((B15_of_ne m ρ c main_arg19 (by decide))).trans <|
    ((StableHlo.after_of_writes_sub hostOps9 _ hostOps9_writes (by decide) : B14 m ρ c (Proc.devRef .tc main_arg19) = B13 m ρ c (Proc.devRef .tc main_arg19))).trans <|
    ((B13_of_ne m ρ c main_arg19 (by decide))).trans <|
    ((B12_of_ne m ρ c main_arg19 (by decide))).trans <|
    ((StableHlo.after_of_writes_sub hostOps7 _ hostOps7_writes (by decide) : B11 m ρ c (Proc.devRef .tc main_arg19) = B10 m ρ c (Proc.devRef .tc main_arg19))).trans <|
    ((B10_of_ne m ρ c main_arg19 (by decide))).trans <|
    ((B9_of_ne m ρ c main_arg19 (by decide))).trans <|
    ((B8_of_ne m ρ c main_arg19 (by decide))).trans <|
    ((StableHlo.after_of_writes_sub hostOps4 _ hostOps4_writes (by decide) : B7 m ρ c (Proc.devRef .tc main_arg19) = B6 m ρ c (Proc.devRef .tc main_arg19))).trans <|
    ((B6_of_ne m ρ c main_arg19 (by decide))).trans <|
    ((B5_of_ne m ρ c main_arg19 (by decide))).trans <|
    ((B4_of_ne m ρ c main_arg19 (by decide))).trans <|
    ((StableHlo.after_of_writes_sub hostOps1 _ hostOps1_writes (by decide) : B3 m ρ c (Proc.devRef .tc main_arg19) = B2 m ρ c (Proc.devRef .tc main_arg19))).trans <|
    ((B2_of_ne m ρ c main_arg19 (by decide))).trans <|
    ((StableHlo.after_of_writes_sub hostOps0 _ hostOps0_writes (by decide) : B1 m ρ c (Proc.devRef .tc main_arg19) = B0 m ρ c (Proc.devRef .tc main_arg19))).trans <| rfl
/-- No item of @main writes the argument array: the last valuation holds it as launched. -/
theorem B16_main_arg20 (c : Dev nD) : B16 m ρ c (Proc.devRef .tc main_arg20) = m ((c : Thread nD τ).loc main_arg20) :=
  ((StableHlo.after_of_writes_sub hostOps10 _ hostOps10_writes (by decide) : B16 m ρ c (Proc.devRef .tc main_arg20) = B15 m ρ c (Proc.devRef .tc main_arg20))).trans <|
    ((B15_in_6 m ρ c)).trans <|
    ((StableHlo.after_of_writes_sub hostOps9 _ hostOps9_writes (by decide) : B14 m ρ c (Proc.devRef .tc main_arg20) = B13 m ρ c (Proc.devRef .tc main_arg20))).trans <|
    ((B13_of_ne m ρ c main_arg20 (by decide))).trans <|
    ((B12_of_ne m ρ c main_arg20 (by decide))).trans <|
    ((StableHlo.after_of_writes_sub hostOps7 _ hostOps7_writes (by decide) : B11 m ρ c (Proc.devRef .tc main_arg20) = B10 m ρ c (Proc.devRef .tc main_arg20))).trans <|
    ((B10_of_ne m ρ c main_arg20 (by decide))).trans <|
    ((B9_of_ne m ρ c main_arg20 (by decide))).trans <|
    ((B8_of_ne m ρ c main_arg20 (by decide))).trans <|
    ((StableHlo.after_of_writes_sub hostOps4 _ hostOps4_writes (by decide) : B7 m ρ c (Proc.devRef .tc main_arg20) = B6 m ρ c (Proc.devRef .tc main_arg20))).trans <|
    ((B6_of_ne m ρ c main_arg20 (by decide))).trans <|
    ((B5_of_ne m ρ c main_arg20 (by decide))).trans <|
    ((B4_of_ne m ρ c main_arg20 (by decide))).trans <|
    ((StableHlo.after_of_writes_sub hostOps1 _ hostOps1_writes (by decide) : B3 m ρ c (Proc.devRef .tc main_arg20) = B2 m ρ c (Proc.devRef .tc main_arg20))).trans <|
    ((B2_of_ne m ρ c main_arg20 (by decide))).trans <|
    ((StableHlo.after_of_writes_sub hostOps0 _ hostOps0_writes (by decide) : B1 m ρ c (Proc.devRef .tc main_arg20) = B0 m ρ c (Proc.devRef .tc main_arg20))).trans <| rfl
/-- No item of @main writes the argument array: the last valuation holds it as launched. -/
theorem B16_main_arg21 (c : Dev nD) : B16 m ρ c (Proc.devRef .tc main_arg21) = m ((c : Thread nD τ).loc main_arg21) :=
  ((StableHlo.after_of_writes_sub hostOps10 _ hostOps10_writes (by decide) : B16 m ρ c (Proc.devRef .tc main_arg21) = B15 m ρ c (Proc.devRef .tc main_arg21))).trans <|
    ((B15_of_ne m ρ c main_arg21 (by decide))).trans <|
    ((StableHlo.after_of_writes_sub hostOps9 _ hostOps9_writes (by decide) : B14 m ρ c (Proc.devRef .tc main_arg21) = B13 m ρ c (Proc.devRef .tc main_arg21))).trans <|
    ((B13_of_ne m ρ c main_arg21 (by decide))).trans <|
    ((B12_of_ne m ρ c main_arg21 (by decide))).trans <|
    ((StableHlo.after_of_writes_sub hostOps7 _ hostOps7_writes (by decide) : B11 m ρ c (Proc.devRef .tc main_arg21) = B10 m ρ c (Proc.devRef .tc main_arg21))).trans <|
    ((B10_of_ne m ρ c main_arg21 (by decide))).trans <|
    ((B9_of_ne m ρ c main_arg21 (by decide))).trans <|
    ((B8_of_ne m ρ c main_arg21 (by decide))).trans <|
    ((StableHlo.after_of_writes_sub hostOps4 _ hostOps4_writes (by decide) : B7 m ρ c (Proc.devRef .tc main_arg21) = B6 m ρ c (Proc.devRef .tc main_arg21))).trans <|
    ((B6_of_ne m ρ c main_arg21 (by decide))).trans <|
    ((B5_of_ne m ρ c main_arg21 (by decide))).trans <|
    ((B4_of_ne m ρ c main_arg21 (by decide))).trans <|
    ((StableHlo.after_of_writes_sub hostOps1 _ hostOps1_writes (by decide) : B3 m ρ c (Proc.devRef .tc main_arg21) = B2 m ρ c (Proc.devRef .tc main_arg21))).trans <|
    ((B2_of_ne m ρ c main_arg21 (by decide))).trans <|
    ((StableHlo.after_of_writes_sub hostOps0 _ hostOps0_writes (by decide) : B1 m ρ c (Proc.devRef .tc main_arg21) = B0 m ρ c (Proc.devRef .tc main_arg21))).trans <| rfl

/-! ## The frame, and the result -/

/-- The program terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_arg0 (by decide))).trans (B16_main_arg0 m ρ c),
      (h c _ (mem_uc main_arg1 (by decide))).trans (B16_main_arg1 m ρ c),
      (h c _ (mem_uc main_arg2 (by decide))).trans (B16_main_arg2 m ρ c),
      (h c _ (mem_uc main_arg3 (by decide))).trans (B16_main_arg3 m ρ c),
      (h c _ (mem_uc main_arg4 (by decide))).trans (B16_main_arg4 m ρ c),
      (h c _ (mem_uc main_arg5 (by decide))).trans (B16_main_arg5 m ρ c),
      (h c _ (mem_uc main_arg6 (by decide))).trans (B16_main_arg6 m ρ c),
      (h c _ (mem_uc main_arg7 (by decide))).trans (B16_main_arg7 m ρ c),
      (h c _ (mem_uc main_arg8 (by decide))).trans (B16_main_arg8 m ρ c),
      (h c _ (mem_uc main_arg9 (by decide))).trans (B16_main_arg9 m ρ c),
      (h c _ (mem_uc main_arg10 (by decide))).trans (B16_main_arg10 m ρ c),
      (h c _ (mem_uc main_arg11 (by decide))).trans (B16_main_arg11 m ρ c),
      (h c _ (mem_uc main_arg12 (by decide))).trans (B16_main_arg12 m ρ c),
      (h c _ (mem_uc main_arg13 (by decide))).trans (B16_main_arg13 m ρ c),
      (h c _ (mem_uc main_arg14 (by decide))).trans (B16_main_arg14 m ρ c),
      (h c _ (mem_uc main_arg15 (by decide))).trans (B16_main_arg15 m ρ c),
      (h c _ (mem_uc main_arg16 (by decide))).trans (B16_main_arg16 m ρ c),
      (h c _ (mem_uc main_arg17 (by decide))).trans (B16_main_arg17 m ρ c),
      (h c _ (mem_uc main_arg18 (by decide))).trans (B16_main_arg18 m ρ c),
      (h c _ (mem_uc main_arg19 (by decide))).trans (B16_main_arg19 m ρ c),
      (h c _ (mem_uc main_arg20 (by decide))).trans (B16_main_arg20 m ρ c),
      (h c _ (mem_uc main_arg21 (by decide))).trans (B16_main_arg21 m ρ c)⟩) (run_full m ρ)
/-- The same run with the result array named: it ends at the last valuation's contents of the result buffer. -/
theorem run_result : θ_run defs (onTc (τ := τ) (main (F := F))) ⟨m, fun _ => 0, ρ⟩ (fun r => ∀ c : Dev nD,
      r.2.mem ((c.tc : Thread nD τ).loc main_v144) = B16 m ρ c (Proc.devRef .tc main_v144)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨h c _ (mem_uc main_v144 (by decide)), (h c _ (mem_uc main_arg0 (by decide))).trans (B16_main_arg0 m ρ c),
      (h c _ (mem_uc main_arg1 (by decide))).trans (B16_main_arg1 m ρ c),
      (h c _ (mem_uc main_arg2 (by decide))).trans (B16_main_arg2 m ρ c),
      (h c _ (mem_uc main_arg3 (by decide))).trans (B16_main_arg3 m ρ c),
      (h c _ (mem_uc main_arg4 (by decide))).trans (B16_main_arg4 m ρ c),
      (h c _ (mem_uc main_arg5 (by decide))).trans (B16_main_arg5 m ρ c),
      (h c _ (mem_uc main_arg6 (by decide))).trans (B16_main_arg6 m ρ c),
      (h c _ (mem_uc main_arg7 (by decide))).trans (B16_main_arg7 m ρ c),
      (h c _ (mem_uc main_arg8 (by decide))).trans (B16_main_arg8 m ρ c),
      (h c _ (mem_uc main_arg9 (by decide))).trans (B16_main_arg9 m ρ c),
      (h c _ (mem_uc main_arg10 (by decide))).trans (B16_main_arg10 m ρ c),
      (h c _ (mem_uc main_arg11 (by decide))).trans (B16_main_arg11 m ρ c),
      (h c _ (mem_uc main_arg12 (by decide))).trans (B16_main_arg12 m ρ c),
      (h c _ (mem_uc main_arg13 (by decide))).trans (B16_main_arg13 m ρ c),
      (h c _ (mem_uc main_arg14 (by decide))).trans (B16_main_arg14 m ρ c),
      (h c _ (mem_uc main_arg15 (by decide))).trans (B16_main_arg15 m ρ c),
      (h c _ (mem_uc main_arg16 (by decide))).trans (B16_main_arg16 m ρ c),
      (h c _ (mem_uc main_arg17 (by decide))).trans (B16_main_arg17 m ρ c),
      (h c _ (mem_uc main_arg18 (by decide))).trans (B16_main_arg18 m ρ c),
      (h c _ (mem_uc main_arg19 (by decide))).trans (B16_main_arg19 m ρ c),
      (h c _ (mem_uc main_arg20 (by decide))).trans (B16_main_arg20 m ρ c),
      (h c _ (mem_uc main_arg21 (by decide))).trans (B16_main_arg21 m ρ c)⟩) (run_full m ρ)

end Cert.Kernel.Hand

end
-- ==== Proof.KI.Reg0.lean ====
import proofs.«171894_j11897059410618_1_alg».proof.Proof.Gen.KernelIdeal.Launch
import proofs.«171894_j11897059410618_1_alg».proof.Proof.Gen.KernelIdeal.Skeleton
import proofs.«171894_j11897059410618_1_alg».proof.Proof.Gen.KernelIdeal.Points
import Idealize.ShloMosaic.Lib.Pipeline.FrameBody
import Idealize.ShloMosaic.Lib.Ring
import Idealize.ShloMosaic.Lib.Tactic

-- membership of an index in a rectangle with thousands of rows is decided by structural recursion on the coordinates
set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: a row block of the left operand times the resident weight matrix

The body reads a 5000x128 block of rows and the whole 128x64 weight matrix, narrows both to bf16, multiplies
them into a zero f32 accumulator and writes the 5000x64 product over the whole output block. -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's buffer holds its block at every point, for any proof data over the entry arrays whose
    body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is fetched at the first point only; its block index never moves, so its buffer still holds the
    same block at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

/-! ## What the body leaves in the output window's buffer -/

/-- The output buffer after the body: its single store, the bf16-narrowed product of the two input blocks. -/
def out0_2 (x0 : Vec F S5000x128 .f32) (x1 : Vec F S128x64 .f32) : Vec F S5000x64 .f32 :=
  View.canon [⟨r0_2, k0_pay1 (View.ld x0 r0_0) (View.ld x1 r0_1)⟩]

/-- The single store is the whole buffer, so it covers it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The body on whole staging buffers, the inputs' reading `x0`, `x1` and the output's holding anything, runs to the
    continuation with the inputs as they were and the output at `out0_2 x0 x1`. -/
theorem sound_kernel0 (c : Dev nD) (E : Set ℕ) (i : grid0.Coords) (arg0 : Memref sig .tc .vmem S5000x128 .f32) (harg0 : arg0.IsWhole) (arg1 : Memref sig .tc .vmem S128x64 .f32) (harg1 : arg1.IsWhole) (arg2 : Memref sig .tc .vmem S5000x64 .f32) (harg2 : arg2.IsWhole)
    (x0 : Vec F S5000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each input buffer at its block and the output buffer at the product of the two blocks; the invariant is the
    untouched rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«171894_j11897059410618_1_alg».proof.Proof.Gen.KernelIdeal.Launch
import proofs.«171894_j11897059410618_1_alg».proof.Proof.Gen.KernelIdeal.Skeleton
import proofs.«171894_j11897059410618_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1: the batch-norm statistics kernel (column sums and sums of squares over ten row blocks,
    then mean and variance at the last block) -/

/-! ## The rectangles the body loads and stores through: each the whole of its buffer -/

abbrev rS1 : Rect S1x64 := Rect.unit (s := S1x64) ![0, 0] S1x64.size inb_S1x64_S1x64_0_0
abbrev rX1 : Rect S5000x64 := Rect.unit (s := S5000x64) ![0, 0] S5000x64.size inb_S5000x64_S5000x64_0_0

/-- The one-row rectangle covers the one-row buffer. -/
theorem coverS1 (p0 : Vec F S1x64 .f32) (L : List (View.Piece (Elt F) S1x64 .f32)) (y : S1x64.Idx) :
    ∃ pc ∈ ((⟨rS1, p0⟩ :: L) : List (View.Piece (Elt F) S1x64 .f32)), y ∈ pc.1.set :=
  ⟨⟨rS1, p0⟩, List.mem_cons_self, (View.cover_of_tiled [⟨rS1, p0⟩] S1x64.size (by rfl) y).elim fun pc h => by
    have := List.mem_singleton.mp h.1; subst this; exact h.2⟩

/-- A whole-buffer store makes the earlier stores irrelevant. -/
theorem canon_top1 (p0 : Vec F S1x64 .f32) (L : List (View.Piece (Elt F) S1x64 .f32)) :
    View.canon ((⟨rS1, p0⟩ :: L) : List (View.Piece (Elt F) S1x64 .f32)) = View.canon [⟨rS1, p0⟩] := by
  funext y
  obtain ⟨pc, hm, hy⟩ := coverS1 p0 [] y
  have := List.mem_singleton.mp hm; subst this
  obtain ⟨x, rfl⟩ : ∃ x, (rS1).emb x = y := (rS1).exists_idx_of_mem hy
  rw [View.canon_cons_emb, View.canon_cons_emb]

/-- Reading a whole-buffer store back through the same rectangle gives its payload. -/
theorem ld_canon1 (p0 : Vec F S1x64 .f32) (L : List (View.Piece (Elt F) S1x64 .f32)) :
    View.ld (View.canon ((⟨rS1, p0⟩ :: L) : List (View.Piece (Elt F) S1x64 .f32))) rS1 = p0 :=
  funext fun x => View.canon_cons_emb rS1 p0 L x

/-! ## The body's branch conditions, decided over the grid -/

/-- The first conditional: the point is the first of the grid. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
/-- The second conditional: the point is the last of the grid. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-- The input windows are never idle; the output windows are idle exactly off the last point, where they are
    not written back either. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## What one point does to the two running sums, and what the last point stores -/

/-- The running column sum after a point: the sum before it plus the column sums of the block plus the bias row. -/
def stepS1 (x : Vec F S5000x64 .f32) (b : Vec F S1x64 .f32) (s : Vec F S1x64 .f32) : Vec F S1x64 .f32 :=
  View.canon [⟨rS1, k1_pay4 (View.ld x rX1) (View.ld b rS1) (View.ld s rS1)⟩]
/-- The running column sum of squares after a point. -/
def stepQ1 (x : Vec F S5000x64 .f32) (b : Vec F S1x64 .f32) (q : Vec F S1x64 .f32) : Vec F S1x64 .f32 :=
  View.canon [⟨rS1, k1_pay5 (View.ld x rX1) (View.ld b rS1) (View.ld q rS1)⟩]
/-- The two sums as the first point's reset leaves them: zero rows. -/
def zeroS1 : Vec F S1x64 .f32 := View.canon [⟨rS1, k1_pay1 (F := F)⟩]
def zeroQ1 : Vec F S1x64 .f32 := View.canon [⟨rS1, k1_pay2 (F := F)⟩]
/-- The mean row the last point stores into window 2's buffer, from the final column sum. -/
def out1_2 (s : Vec F S1x64 .f32) : Vec F S1x64 .f32 :=
  View.canon [⟨rS1, k1_pay6 (View.ld s rS1)⟩]
/-- The variance row the last point stores into window 3's buffer, from the final sums. -/
def out1_3 (s : Vec F S1x64 .f32) (q : Vec F S1x64 .f32) : Vec F S1x64 .f32 :=
  View.canon [⟨rS1, k1_pay7 (View.ld s rS1) (View.ld q rS1)⟩]

/-! ## The body's triple, one per control case -/

set_option maxHeartbeats 4000000 in
/-- A middle point: neither conditional taken. On whole memrefs — the two input buffers at `x`, `b`, the two output
    buffers at anything (handed back untouched), the two sums at `s`, `q` — the body runs to the continuation with the
    sums advanced by the block. -/
theorem sound_kernel1_B (c : Dev nD) (E : Set ℕ) (i : grid1.Coords) (hc0 : ¬cond1_0 i) (hc1 : ¬cond1_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (stepS1 x b s) ∗ owns (c : Thread nD τ) arg6 fullShare (stepQ1 x b q)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverS1 _ _)
  iexists _; isplitr
  swap; · iexact H6
  ipureintro
  exact View.read_writes_eq_canon _ _ _ (coverS1 _ _)

set_option maxHeartbeats 4000000 in
/-- The first point: the first conditional taken (the sums are reset to zero rows whatever they held), the second not. -/
theorem sound_kernel1_A (c : Dev nD) (E : Set ℕ) (i : grid1.Coords) (hc0 : cond1_0 i) (hc1 : ¬cond1_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (stepS1 x b (zeroS1 (F := F))) ∗ owns (c : Thread nD τ) arg6 fullShare (stepQ1 x b (zeroQ1 (F := F)))) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverS1 _ _), canon_top1]
    unfold stepS1 zeroS1
    rw [ld_canon1]
    have e9 : sound_kernel1_A.sl.v9 c arg5 = k1_pay1 (F := F) := View.readCov_cons_toLoadRect _ _ _ _
    rw [e9]; rfl
  iexists _; isplitr
  swap; · iexact H6
  ipureintro
  rw [View.read_writes_eq_canon _ _ _ (coverS1 _ _), canon_top1]
  unfold stepQ1 zeroQ1
  rw [ld_canon1]
  have e16 : sound_kernel1_A.sl.v16 c arg6 = k1_pay2 (F := F) := View.readCov_cons_toLoadRect _ _ _ _
  rw [e16]; rfl

set_option maxHeartbeats 4000000 in
/-- The last point: the first conditional not taken, the second taken — the sums advanced, then the mean row stored
    into window 2's buffer and the variance row into window 3's, whatever those held. -/
theorem sound_kernel1_C (c : Dev nD) (E : Set ℕ) (i : grid1.Coords) (hc0 : ¬cond1_0 i) (hc1 : cond1_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare (out1_2 (stepS1 x b s)) ∗ owns (c : Thread nD τ) arg4 fullShare (out1_3 (stepS1 x b s) (stepQ1 x b q))
            ∗ owns (c : Thread nD τ) arg5 fullShare (stepS1 x b s) ∗ owns (c : Thread nD τ) arg6 fullShare (stepQ1 x b q)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (coverS1 _ _)]
    unfold out1_2 stepS1
    rw [ld_canon1]
    have e27 : sound_kernel1_C.sl.v27 c arg1 arg2 arg5 f1 f2 f5 = k1_pay4 (View.ld (View.read (Elt F) arg1.view f1) rX1) (View.ld (View.read (Elt F) arg2.view f2) rS1) (View.ld (View.read (Elt F) arg5.view f5) rS1) :=
      View.readCov_cons_toLoadRect _ _ _ _
    rw [e27]
  isplitl [H4]
  · iexists _; isplitr
    swap; · iexact H4
    ipureintro
    rw [View.read_writes_eq_canon _ _ _ (coverS1 _ _)]
    unfold out1_3 stepS1 stepQ1
    rw [ld_canon1, ld_canon1]
    have e27 : sound_kernel1_C.sl.v27 c arg1 arg2 arg5 f1 f2 f5 = k1_pay4 (View.ld (View.read (Elt F) arg1.view f1) rX1) (View.ld (View.read (Elt F) arg2.view f2) rS1) (View.ld (View.read (Elt F) arg5.view f5) rS1) :=
      View.readCov_cons_toLoadRect _ _ _ _
    have e30 : sound_kernel1_C.sl.v30 c arg1 arg2 arg6 f1 f2 f6 = k1_pay5 (View.ld (View.read (Elt F) arg1.view f1) rX1) (View.ld (View.read (Elt F) arg2.view f2) rS1) (View.ld (View.read (Elt F) arg6.view f6) rS1) :=
      View.readCov_cons_toLoadRect _ _ _ _
    rw [e27, e30]
  isplitl [H5]
  · iexists _; isplitr
    swap; · iexact H5
    ipureintro
    exact View.read_writes_eq_canon _ _ _ (coverS1 _ _)
  iexists _; isplitr
  swap; · iexact H6
  ipureintro
  exact View.read_writes_eq_canon _ _ _ (coverS1 _ _)

/-! ## The windows' blocks, the running sums point by point, the invariant -/

section Region
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch operands as whole memrefs. -/
abbrev scM1_0 : Memref sig .tc .vmem S1x64 .f32 := Memref.whole cc1_scratch0
abbrev scM1_1 : Memref sig .tc .vmem S1x64 .f32 := Memref.whole cc1_scratch1

/-- The pair (column sum, column sum of squares) over the first `n` blocks: zero rows, then one step per block. -/
def acc1 (c : Dev nD) : ℕ → Vec F S1x64 .f32 × Vec F S1x64 .f32
  | 0 => (zeroS1, zeroQ1)
  | n + 1 =>
    if h : n < cfg1.N then
      (stepS1 (iblk1 V c 0 ⟨n, h⟩) (iblk1 V c 1 ⟨n, h⟩) (acc1 c n).1,
       stepQ1 (iblk1 V c 0 ⟨n, h⟩) (iblk1 V c 1 ⟨n, h⟩) (acc1 c n).2)
    else acc1 c n

theorem acc1_succ (c : Dev nD) (t : Fin cfg1.N) :
    acc1 V c (t.val + 1) = (stepS1 (iblk1 V c 0 t) (iblk1 V c 1 t) (acc1 V c t.val).1,
       stepQ1 (iblk1 V c 0 t) (iblk1 V c 1 t) (acc1 V c t.val).2) := by
  obtain ⟨n, hn⟩ := t
  exact dif_pos hn

/-- The invariant before position `n`: the generator register at some state and the scoped buffers that are no
    staging buffer — before the first point all at anything; afterwards the two scratch rows at the sums over the
    first `n` blocks, the others at anything. -/
def Phi1 (c : Dev nD) : ℕ → sProp 𝕄
  | 0 => iprop((∃ r, prngReg c r) ∗ Pipeline.scopedRest (Ix := Unit) (Name := ℕ) (U := UR sig nD τ) (Lvl := ℕ) (Val := Elt F) spec1 c)
  | n + 1 => iprop((∃ r, prngReg c r)
      ∗ (owns (c : Thread nD τ) scM1_0 fullShare (acc1 V c (n + 1)).1 ∗ owns (c : Thread nD τ) scM1_1 fullShare (acc1 V c (n + 1)).2)
      ∗ Pipeline.scopedRestBut (Ix := Unit) (Name := ℕ) (U := UR sig nD τ) (Lvl := ℕ) (Val := Elt F) spec1 c [cc1_scratch0, cc1_scratch1])

/-- Before the first point, with the two scratch rows taken out of the scoped rest as memrefs at some contents. -/
theorem Phi1_zero (c : Dev nD) :
    Phi1 V c 0 = iprop((∃ r, prngReg c r)
      ∗ ((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]) := by
  unfold Phi1; rw [scopedRest1_split]; simp only [scM1_0, scM1_1, owns_whole]; try rfl

theorem Phi1_pos (c : Dev nD) (n : ℕ) (hz : n ≠ 0) :
    Phi1 V c n = iprop((∃ r, prngReg c r)
      ∗ (owns (c : Thread nD τ) scM1_0 fullShare (acc1 V c n).1 ∗ owns (c : Thread nD τ) scM1_1 fullShare (acc1 V c n).2)
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

/-! ## The pipeline's proof data -/

/-- The proof data of the pipeline on core `c`: the arrays as the region finds them (`V`); after the body at point `t`
    each input's buffer at its block, window 2's at the mean row and window 3's at the variance row of the sums through
    `t` (consulted at the last point only: elsewhere the two windows are idle); the invariant `Phi1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (acc1 V c (t.val + 1)).1
    | ⟨3, _⟩ => out1_3 (acc1 V c (t.val + 1)).1 (acc1 V c (t.val + 1)).2
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (acc1 V c (t.val + 1)).1 := by dsimp only [dat1]
theorem after1_3 (c : Dev nD) (t : Fin cfg1.N) :
    (dat1 V c).after 3 t = out1_3 (acc1 V c (t.val + 1)).1 (acc1 V c (t.val + 1)).2 := by dsimp only [dat1]

theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := rfl

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem acc1_zero (c : Dev nD) (n : ℕ) (hz : n = 0) : acc1 V c n = (zeroS1, zeroQ1) := by subst hz; rfl
theorem Phi1_zero' (c : Dev nD) (n : ℕ) (hz : n = 0) :
    Phi1 V c n = iprop((∃ r, prngReg c r)
      ∗ ((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]) := by
  subst hz; exact Phi1_zero V c

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

set_option maxHeartbeats 4000000 in
/-- The body at any point. The inputs' memrefs hold their blocks; the point's position decides the control case: at
    the first point the invariant hands the scratch rows at anything and takes them back at the first block's sums; at a
    later point it hands them at the sums so far and takes them back advanced; the output windows' buffers come back
    untouched except at the last point, where they come back at the mean and variance rows. The core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi1_succ, Phi1_castSucc]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 10 := lt_of_lt_of_eq t.isLt (show cfg1.N = 10 from N_1)
  rw [Phi1_pos V c (t.val + 1) (Nat.succ_ne_zero _), acc1_succ]
  by_cases h1 : t.val % 10 = 9
  · have hc0 : ¬cond1_0 (grid1.coords t) := fun h => by have := (hcond1_0 t).mp h; omega
    have hc1 : cond1_1 (grid1.coords t) := (hcond1_1 t).mpr h1
    have hz : t.val ≠ 0 := by omega
    rw [show (dat1 V c).leavesExact 2 t = owns (c : Thread nD τ) (st1_2 t) fullShare ((dat1 V c).after 2 t) from by
      unfold Dat.leavesExact; rw [liveAt1_2 t hc1], after1_2]
    rw [show (dat1 V c).leavesExact 3 t = owns (c : Thread nD τ) (st1_3 t) fullShare ((dat1 V c).after 3 t) from by
      unfold Dat.leavesExact; rw [liveAt1_3 t hc1], after1_3]
    rw [Phi1_pos V c _ hz, acc1_succ]
    iintro ⟨⟨Hg, ⟨HS, HQ⟩, HR⟩, Ho, ⟨%d0, H0⟩, ⟨%d1, H1⟩, ⟨%d2, H2⟩, ⟨%d3, H3⟩⟩
    iapply (sound_kernel1_C c Set.univ (grid1.coords t) hc0 hc1 _ _ _ _ _ _ _ _ _ _ _ _ (iblk1 V c 0 t) (iblk1 V c 1 t) _ _ _ _ _)
    isplitl [H0]; · iexact H0
    isplitl [H1]; · iexact H1
    isplitl [H2]; · iexact H2
    isplitl [H3]; · iexact H3
    isplitl [HS]; · iexact HS
    isplitl [HQ]; · iexact HQ
    iintro ⟨H0, H1, H2, H3, HS, HQ⟩
    isplitl [Hg HS HQ HR]
    · isplitl [Hg]; · iexact Hg
      isplitl [HS HQ]
      · isplitl [HS]; · iexact HS
        iexact HQ
      iexact HR
    isplitl [Ho]; · iexact Ho
    isplitl [H0]; · iexact H0
    isplitl [H1]; · iexact H1
    isplitl [H2]; · iexact H2
    iexact H3
  · have hc1 : ¬cond1_1 (grid1.coords t) := fun h => h1 ((hcond1_1 t).mp h)
    rw [Dat.leavesExact_idle (dat1 V c) 2 t (idleAt1_2 t hc1) (noFlush1_2 t hc1),
      Dat.leavesExact_idle (dat1 V c) 3 t (idleAt1_3 t hc1) (noFlush1_3 t hc1)]
    by_cases h0 : t.val % 10 = 0
    · have hc0 : cond1_0 (grid1.coords t) := (hcond1_0 t).mpr h0
      have hz : t.val = 0 := by omega
      rw [Phi1_zero' V c _ hz, acc1_zero V c _ hz]
      iintro ⟨⟨Hg, ⟨⟨%s0, HS⟩, ⟨%q0, HQ⟩⟩, HR⟩, Ho, ⟨%d0, H0⟩, ⟨%d1, H1⟩, ⟨%d2, H2⟩, ⟨%d3, H3⟩⟩
      iapply (sound_kernel1_A c Set.univ (grid1.coords t) hc0 hc1 _ _ _ _ _ _ _ _ _ _ _ _ (iblk1 V c 0 t) (iblk1 V c 1 t) _ _ _ _ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, HS, HQ⟩
      isplitl [Hg HS HQ HR]
      · isplitl [Hg]; · iexact Hg
        isplitl [HS HQ]
        · isplitl [HS]; · iexact HS
          iexact HQ
        iexact HR
      isplitl [Ho]; · iexact Ho
      isplitl [H0]; · iexact H0
      isplitl [H1]; · iexact H1
      isplitl [H2]; · iexists _; iexact H2
      iexists _; iexact H3
    · have hc0 : ¬cond1_0 (grid1.coords t) := fun h => h0 ((hcond1_0 t).mp h)
      have hz : t.val ≠ 0 := by omega
      rw [Phi1_pos V c _ hz]
      iintro ⟨⟨Hg, ⟨HS, HQ⟩, HR⟩, Ho, ⟨%d0, H0⟩, ⟨%d1, H1⟩, ⟨%d2, H2⟩, ⟨%d3, H3⟩⟩
      iapply (sound_kernel1_B c Set.univ (grid1.coords t) hc0 hc1 _ _ _ _ _ _ _ _ _ _ _ _ (iblk1 V c 0 t) (iblk1 V c 1 t) _ _ _ _ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, HS, HQ⟩
      isplitl [Hg HS HQ HR]
      · isplitl [Hg]; · iexact Hg
        isplitl [HS HQ]
        · isplitl [HS]; · iexact HS
          iexact HQ
        iexact HR
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

/-- What the launch hands the region — the generator register and the scoped rest — is the invariant before the first point. -/
theorem hin1 (c : Dev nD) :
    (iprop((∃ r, prngReg c r) ∗ Pipeline.scopedRest (Ix := Unit) (Name := ℕ) (U := UR sig nD τ) (Lvl := ℕ) (Val := Elt F) spec1 c) : sProp 𝕄) ⊢ (dat1 V c).Φ 0 := by
  rw [show (dat1 V c).Φ 0 = Phi1 V c 0 from rfl]
  unfold Phi1
  exact Idealize.SL.BI.Entails.refl _

/-- After the last point the invariant gives them back: the scratch rows' named contents are forgotten. -/
theorem hout1 (c : Dev nD) :
    (dat1 V c).Φ (Fin.last cfg1.N) ⊢ (iprop((∃ r, prngReg c r) ∗ Pipeline.scopedRest (Ix := Unit) (Name := ℕ) (U := UR sig nD τ) (Lvl := ℕ) (Val := Elt F) spec1 c) : sProp 𝕄) := by
  rw [show (dat1 V c).Φ (Fin.last cfg1.N) = Phi1 V c cfg1.N from rfl,
    Phi1_pos V c _ (by rw [show cfg1.N = 10 from N_1]; decide), scopedRest1_split]
  simp only [scM1_0, scM1_1, owns_whole]
  iintro ⟨Hg, ⟨HS, HQ⟩, HR⟩
  isplitl [Hg]; · iexact Hg
  isplitl [HS HQ]
  · isplitl [HS]
    · iexists _; iexact HS
    iexists _; iexact HQ
  iexact HR

end Region

end Cert.KernelIdeal.Hand

end
-- ==== Proof.KI.Reg2.lean ====
import proofs.«171894_j11897059410618_1_alg».proof.Proof.Gen.KernelIdeal.Launch
import proofs.«171894_j11897059410618_1_alg».proof.Proof.Gen.KernelIdeal.Skeleton
import proofs.«171894_j11897059410618_1_alg».proof.Proof.Gen.KernelIdeal.Points
import Idealize.ShloMosaic.Lib.Pipeline.FrameBody
import Idealize.ShloMosaic.Lib.Ring
import Idealize.ShloMosaic.Lib.Tactic

/-! # Region 2: normalise, scale, shift and clamp at zero, block by block

The region walks ten row blocks of a `[50000, 64]` array. At every point its body reads one `[5000, 64]` block `x`
and five `[1, 64]` rows `b, μ, σ², γ, β` that stay resident over the whole walk, and stores
`max (((x + b) - μ) * rsqrt (σ² + ε) * γ + β) 0` over the whole output block. This file states, at any contents `V`
of the core's buffers on entry: each window's block at a point, what the body leaves in the output buffer as a function
of the six input blocks, the body's triple, the pipeline's proof data and its body obligation. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not, for any proof data whose
    array is the entry contents and whose body leaves the block in place: where the window is not fetched its block
    index has not moved, so the block kept from the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not, for any proof data whose
    array is the entry contents and whose body leaves the block in place: where the window is not fetched its block
    index has not moved, so the block kept from the point before is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not, for any proof data whose
    array is the entry contents and whose body leaves the block in place: where the window is not fetched its block
    index has not moved, so the block kept from the point before is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not, for any proof data whose
    array is the entry contents and whose body leaves the block in place: where the window is not fetched its block
    index has not moved, so the block kept from the point before is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not, for any proof data whose
    array is the entry contents and whose body leaves the block in place: where the window is not fetched its block
    index has not moved, so the block kept from the point before is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds its block at every point, fetched there or not, for any proof data whose
    array is the entry contents and whose body leaves the block in place: where the window is not fetched its block
    index has not moved, so the block kept from the point before is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of a `[5000, 64]` buffer. -/
abbrev rX2 : Rect S5000x64 := Rect.unit (s := S5000x64) ![0, 0] S5000x64.size inb_S5000x64_S5000x64_0_0
/-- The whole of a `[1, 64]` buffer. -/
abbrev rR2 : Rect S1x64 := Rect.unit (s := S1x64) ![0, 0] S1x64.size inb_S1x64_S1x64_0_0

/-! ## What the body leaves in the output window's buffer -/

/-- Window 6's buffer after the body, from the six input blocks: its one store, over the whole buffer, of the
    normalised, scaled, shifted and clamped block. -/
def out2_6 (x0 : Vec F S5000x64 .f32) (x1 x2 x3 x4 x5 : Vec F S1x64 .f32) : Vec F S5000x64 .f32 :=
  View.canon [⟨rX2, k2_pay1 (View.ld x0 rX2) (View.ld x1 rR2) (View.ld x2 rR2) (View.ld x3 rR2) (View.ld x4 rR2) (View.ld x5 rR2)⟩]

/-- The one store covers the buffer. -/
theorem cover2_6 (p0 : Vec F S5000x64 .f32) (y : S5000x64.Idx) :
    ∃ pc ∈ ([⟨rX2, p0⟩] : List (View.Piece (Elt F) S5000x64 .f32)), y ∈ pc.1.set :=
  View.cover_of_tiled [⟨rX2, p0⟩] S5000x64.size (by rfl) y

/-! ## The body's triple -/

set_option maxHeartbeats 1000000 in
/-- The body on whole buffers, the six inputs' at read contents `x0 … x5` and the output's at anything, runs to the
    continuation holding the inputs' as they were and the output's at `out2_6` of the inputs'. -/
theorem sound_kernel2 (c : Dev nD) (E : Set ℕ) (i : grid2.Coords)
    (arg0 : Memref sig .tc .vmem S5000x64 .f32) (harg0 : arg0.IsWhole) (arg1 : Memref sig .tc .vmem S1x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S5000x64 .f32) (harg6 : arg6.IsWhole)
    (x0 : Vec F S5000x64 .f32) (x1 x2 x3 x4 x5 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E (cc2_kernel i arg0 harg0 arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the region's pipeline on core `c`: the arrays as the region finds them; after the body at point
    `t` each input's buffer at its block and the output's at `out2_6` of the six input blocks; the invariant that of
    a body touching nothing but its windows' buffers; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«171894_j11897059410618_1_alg».proof.Proof.Gen.KernelIdeal.Launch
import proofs.«171894_j11897059410618_1_alg».proof.Proof.Gen.KernelIdeal.Skeleton
import proofs.«171894_j11897059410618_1_alg».proof.Proof.Gen.KernelIdeal.Points
import Idealize.ShloMosaic.Lib.Pipeline.FrameBody
import Idealize.ShloMosaic.Lib.Ring
import Idealize.ShloMosaic.Lib.Tactic

-- membership of an index in a rectangle with thousands of rows is decided by structural recursion on the coordinates
set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: a row block of the left operand times the resident weight matrix

The body reads a 5000x64 block of rows and the whole 64x64 weight matrix, narrows both to bf16, multiplies
them into a zero f32 accumulator and writes the 5000x64 product over the whole output block. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's buffer holds its block at every point, for any proof data over the entry arrays whose
    body leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window is fetched at the first point only; its block index never moves, so its buffer still holds the
    same block at every later point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole buffer -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S5000x64 := Rect.unit (s := S5000x64) ![0, 0] S5000x64.size inb_S5000x64_S5000x64_0_0

/-! ## What the body leaves in the output window's buffer -/

/-- The output buffer after the body: its single store, the bf16-narrowed product of the two input blocks. -/
def out3_2 (x0 : Vec F S5000x64 .f32) (x1 : Vec F S64x64 .f32) : Vec F S5000x64 .f32 :=
  View.canon [⟨r3_2, k3_pay1 (View.ld x0 r3_0) (View.ld x1 r3_1)⟩]

/-- The single store is the whole buffer, so it covers it. -/
theorem cover3_2 (p0 : Vec F S5000x64 .f32) (y : S5000x64.Idx) :
    ∃ pc ∈ ([⟨r3_2, p0⟩] : List (View.Piece (Elt F) S5000x64 .f32)), y ∈ pc.1.set :=
  View.cover_of_tiled [⟨r3_2, p0⟩] S5000x64.size (by rfl) y

/-! ## The body's triple -/

set_option maxHeartbeats 1000000 in
/-- The body on whole staging buffers, the inputs' reading `x0`, `x1` and the output's holding anything, runs to the
    continuation with the inputs as they were and the output at `out3_2 x0 x1`. -/
theorem sound_kernel3 (c : Dev nD) (E : Set ℕ) (i : grid3.Coords) (arg0 : Memref sig .tc .vmem S5000x64 .f32) (harg0 : arg0.IsWhole) (arg1 : Memref sig .tc .vmem S64x64 .f32) (harg1 : arg1.IsWhole) (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__linear_kernel i arg0 harg0 arg1 harg1 arg2 harg2) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at point `t`
    each input buffer at its block and the output buffer at the product of the two blocks; the invariant is the
    untouched rest of the core; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input buffers hold their blocks, so the body's triple applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«171894_j11897059410618_1_alg».proof.Proof.Gen.KernelIdeal.Launch
import proofs.«171894_j11897059410618_1_alg».proof.Proof.Gen.KernelIdeal.Skeleton
import proofs.«171894_j11897059410618_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 4: the batch-norm statistics kernel (column sums and sums of squares over ten row blocks,
    then mean and variance at the last block) -/

/-! ## The rectangles the body loads and stores through: each the whole of its buffer -/

abbrev rS4 : Rect S1x64 := Rect.unit (s := S1x64) ![0, 0] S1x64.size inb_S1x64_S1x64_0_0
abbrev rX4 : Rect S5000x64 := Rect.unit (s := S5000x64) ![0, 0] S5000x64.size inb_S5000x64_S5000x64_0_0

/-- The one-row rectangle covers the one-row buffer. -/
theorem coverS4 (p0 : Vec F S1x64 .f32) (L : List (View.Piece (Elt F) S1x64 .f32)) (y : S1x64.Idx) :
    ∃ pc ∈ ((⟨rS4, p0⟩ :: L) : List (View.Piece (Elt F) S1x64 .f32)), y ∈ pc.1.set :=
  ⟨⟨rS4, p0⟩, List.mem_cons_self, (View.cover_of_tiled [⟨rS4, p0⟩] S1x64.size (by rfl) y).elim fun pc h => by
    have := List.mem_singleton.mp h.1; subst this; exact h.2⟩

/-- A whole-buffer store makes the earlier stores irrelevant. -/
theorem canon_top4 (p0 : Vec F S1x64 .f32) (L : List (View.Piece (Elt F) S1x64 .f32)) :
    View.canon ((⟨rS4, p0⟩ :: L) : List (View.Piece (Elt F) S1x64 .f32)) = View.canon [⟨rS4, p0⟩] := by
  funext y
  obtain ⟨pc, hm, hy⟩ := coverS4 p0 [] y
  have := List.mem_singleton.mp hm; subst this
  obtain ⟨x, rfl⟩ : ∃ x, (rS4).emb x = y := (rS4).exists_idx_of_mem hy
  rw [View.canon_cons_emb, View.canon_cons_emb]

/-- Reading a whole-buffer store back through the same rectangle gives its payload. -/
theorem ld_canon4 (p0 : Vec F S1x64 .f32) (L : List (View.Piece (Elt F) S1x64 .f32)) :
    View.ld (View.canon ((⟨rS4, p0⟩ :: L) : List (View.Piece (Elt F) S1x64 .f32))) rS4 = p0 :=
  funext fun x => View.canon_cons_emb rS4 p0 L x

/-! ## The body's branch conditions, decided over the grid -/

/-- The first conditional: the point is the first of the grid. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
/-- The second conditional: the point is the last of the grid. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

/-- The input windows are never idle; the output windows are idle exactly off the last point, where they are
    not written back either. -/
theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_1 (grid4.coords t) → cfg4.idle 2 (grid4.coords t) = true := by decide +kernel
theorem idleAt4_3 : ∀ t : Fin cfg4.N, ¬cond4_1 (grid4.coords t) → cfg4.idle 3 (grid4.coords t) = true := by decide +kernel
theorem noFlush4_2 : ∀ t : Fin cfg4.N, ¬cond4_1 (grid4.coords t) → (cfg4.win 2).flush t = false := by decide +kernel
theorem noFlush4_3 : ∀ t : Fin cfg4.N, ¬cond4_1 (grid4.coords t) → (cfg4.win 3).flush t = false := by decide +kernel
theorem liveAt4_2 : ∀ t : Fin cfg4.N, cond4_1 (grid4.coords t) → cfg4.idle 2 (grid4.coords t) = false := by decide +kernel
theorem liveAt4_3 : ∀ t : Fin cfg4.N, cond4_1 (grid4.coords t) → cfg4.idle 3 (grid4.coords t) = false := by decide +kernel

/-! ## What one point does to the two running sums, and what the last point stores -/

/-- The running column sum after a point: the sum before it plus the column sums of the block plus the bias row. -/
def stepS4 (x : Vec F S5000x64 .f32) (b : Vec F S1x64 .f32) (s : Vec F S1x64 .f32) : Vec F S1x64 .f32 :=
  View.canon [⟨rS4, k4_pay4 (View.ld x rX4) (View.ld b rS4) (View.ld s rS4)⟩]
/-- The running column sum of squares after a point. -/
def stepQ4 (x : Vec F S5000x64 .f32) (b : Vec F S1x64 .f32) (q : Vec F S1x64 .f32) : Vec F S1x64 .f32 :=
  View.canon [⟨rS4, k4_pay5 (View.ld x rX4) (View.ld b rS4) (View.ld q rS4)⟩]
/-- The two sums as the first point's reset leaves them: zero rows. -/
def zeroS4 : Vec F S1x64 .f32 := View.canon [⟨rS4, k4_pay1 (F := F)⟩]
def zeroQ4 : Vec F S1x64 .f32 := View.canon [⟨rS4, k4_pay2 (F := F)⟩]
/-- The mean row the last point stores into window 2's buffer, from the final column sum. -/
def out4_2 (s : Vec F S1x64 .f32) : Vec F S1x64 .f32 :=
  View.canon [⟨rS4, k4_pay6 (View.ld s rS4)⟩]
/-- The variance row the last point stores into window 3's buffer, from the final sums. -/
def out4_3 (s : Vec F S1x64 .f32) (q : Vec F S1x64 .f32) : Vec F S1x64 .f32 :=
  View.canon [⟨rS4, k4_pay7 (View.ld s rS4) (View.ld q rS4)⟩]

/-! ## The body's triple, one per control case -/

set_option maxHeartbeats 4000000 in
/-- A middle point: neither conditional taken. On whole memrefs — the two input buffers at `x`, `b`, the two output
    buffers at anything (handed back untouched), the two sums at `s`, `q` — the body runs to the continuation with the
    sums advanced by the block. -/
theorem sound_kernel4_B (c : Dev nD) (E : Set ℕ) (i : grid4.Coords) (hc0 : ¬cond4_0 i) (hc1 : ¬cond4_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (stepS4 x b s) ∗ owns (c : Thread nD τ) arg6 fullShare (stepQ4 x b q)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverS4 _ _)
  iexists _; isplitr
  swap; · iexact H6
  ipureintro
  exact View.read_writes_eq_canon _ _ _ (coverS4 _ _)

set_option maxHeartbeats 4000000 in
/-- The first point: the first conditional taken (the sums are reset to zero rows whatever they held), the second not. -/
theorem sound_kernel4_A (c : Dev nD) (E : Set ℕ) (i : grid4.Coords) (hc0 : cond4_0 i) (hc1 : ¬cond4_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (stepS4 x b (zeroS4 (F := F))) ∗ owns (c : Thread nD τ) arg6 fullShare (stepQ4 x b (zeroQ4 (F := F)))) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverS4 _ _), canon_top4]
    unfold stepS4 zeroS4
    rw [ld_canon4]
    have e9 : sound_kernel4_A.sl.v9 c arg5 = k4_pay1 (F := F) := View.readCov_cons_toLoadRect _ _ _ _
    rw [e9]; rfl
  iexists _; isplitr
  swap; · iexact H6
  ipureintro
  rw [View.read_writes_eq_canon _ _ _ (coverS4 _ _), canon_top4]
  unfold stepQ4 zeroQ4
  rw [ld_canon4]
  have e16 : sound_kernel4_A.sl.v16 c arg6 = k4_pay2 (F := F) := View.readCov_cons_toLoadRect _ _ _ _
  rw [e16]; rfl

set_option maxHeartbeats 4000000 in
/-- The last point: the first conditional not taken, the second taken — the sums advanced, then the mean row stored
    into window 2's buffer and the variance row into window 3's, whatever those held. -/
theorem sound_kernel4_C (c : Dev nD) (E : Set ℕ) (i : grid4.Coords) (hc0 : ¬cond4_0 i) (hc1 : cond4_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare (out4_2 (stepS4 x b s)) ∗ owns (c : Thread nD τ) arg4 fullShare (out4_3 (stepS4 x b s) (stepQ4 x b q))
            ∗ owns (c : Thread nD τ) arg5 fullShare (stepS4 x b s) ∗ owns (c : Thread nD τ) arg6 fullShare (stepQ4 x b q)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (coverS4 _ _)]
    unfold out4_2 stepS4
    rw [ld_canon4]
    have e27 : sound_kernel4_C.sl.v27 c arg1 arg2 arg5 f1 f2 f5 = k4_pay4 (View.ld (View.read (Elt F) arg1.view f1) rX4) (View.ld (View.read (Elt F) arg2.view f2) rS4) (View.ld (View.read (Elt F) arg5.view f5) rS4) :=
      View.readCov_cons_toLoadRect _ _ _ _
    rw [e27]
  isplitl [H4]
  · iexists _; isplitr
    swap; · iexact H4
    ipureintro
    rw [View.read_writes_eq_canon _ _ _ (coverS4 _ _)]
    unfold out4_3 stepS4 stepQ4
    rw [ld_canon4, ld_canon4]
    have e27 : sound_kernel4_C.sl.v27 c arg1 arg2 arg5 f1 f2 f5 = k4_pay4 (View.ld (View.read (Elt F) arg1.view f1) rX4) (View.ld (View.read (Elt F) arg2.view f2) rS4) (View.ld (View.read (Elt F) arg5.view f5) rS4) :=
      View.readCov_cons_toLoadRect _ _ _ _
    have e30 : sound_kernel4_C.sl.v30 c arg1 arg2 arg6 f1 f2 f6 = k4_pay5 (View.ld (View.read (Elt F) arg1.view f1) rX4) (View.ld (View.read (Elt F) arg2.view f2) rS4) (View.ld (View.read (Elt F) arg6.view f6) rS4) :=
      View.readCov_cons_toLoadRect _ _ _ _
    rw [e27, e30]
  isplitl [H5]
  · iexists _; isplitr
    swap; · iexact H5
    ipureintro
    exact View.read_writes_eq_canon _ _ _ (coverS4 _ _)
  iexists _; isplitr
  swap; · iexact H6
  ipureintro
  exact View.read_writes_eq_canon _ _ _ (coverS4 _ _)

/-! ## The windows' blocks, the running sums point by point, the invariant -/

section Region
variable (V : (c : Dev nD) → (b : Ref sig .tc) → Buf (Elt F) ((c : Thread nD τ).loc b))

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The two scratch operands as whole memrefs. -/
abbrev scM4_0 : Memref sig .tc .vmem S1x64 .f32 := Memref.whole cc4_scratch0
abbrev scM4_1 : Memref sig .tc .vmem S1x64 .f32 := Memref.whole cc4_scratch1

/-- The pair (column sum, column sum of squares) over the first `n` blocks: zero rows, then one step per block. -/
def acc4 (c : Dev nD) : ℕ → Vec F S1x64 .f32 × Vec F S1x64 .f32
  | 0 => (zeroS4, zeroQ4)
  | n + 1 =>
    if h : n < cfg4.N then
      (stepS4 (iblk4 V c 0 ⟨n, h⟩) (iblk4 V c 1 ⟨n, h⟩) (acc4 c n).1,
       stepQ4 (iblk4 V c 0 ⟨n, h⟩) (iblk4 V c 1 ⟨n, h⟩) (acc4 c n).2)
    else acc4 c n

theorem acc4_succ (c : Dev nD) (t : Fin cfg4.N) :
    acc4 V c (t.val + 1) = (stepS4 (iblk4 V c 0 t) (iblk4 V c 1 t) (acc4 V c t.val).1,
       stepQ4 (iblk4 V c 0 t) (iblk4 V c 1 t) (acc4 V c t.val).2) := by
  obtain ⟨n, hn⟩ := t
  exact dif_pos hn

/-- The invariant before position `n`: the generator register at some state and the scoped buffers that are no
    staging buffer — before the first point all at anything; afterwards the two scratch rows at the sums over the
    first `n` blocks, the others at anything. -/
def Phi4 (c : Dev nD) : ℕ → sProp 𝕄
  | 0 => iprop((∃ r, prngReg c r) ∗ Pipeline.scopedRest (Ix := Unit) (Name := ℕ) (U := UR sig nD τ) (Lvl := ℕ) (Val := Elt F) spec4 c)
  | n + 1 => iprop((∃ r, prngReg c r)
      ∗ (owns (c : Thread nD τ) scM4_0 fullShare (acc4 V c (n + 1)).1 ∗ owns (c : Thread nD τ) scM4_1 fullShare (acc4 V c (n + 1)).2)
      ∗ Pipeline.scopedRestBut (Ix := Unit) (Name := ℕ) (U := UR sig nD τ) (Lvl := ℕ) (Val := Elt F) spec4 c [cc4_scratch0, cc4_scratch1])

/-- Before the first point, with the two scratch rows taken out of the scoped rest as memrefs at some contents. -/
theorem Phi4_zero (c : Dev nD) :
    Phi4 V c 0 = iprop((∃ r, prngReg c r)
      ∗ ((∃ d, owns (c : Thread nD τ) scM4_0 fullShare d) ∗ (∃ d, owns (c : Thread nD τ) scM4_1 fullShare d))
      ∗ Pipeline.scopedRestBut (Ix := Unit) (Name := ℕ) (U := UR sig nD τ) (Lvl := ℕ) (Val := Elt F) spec4 c [cc4_scratch0, cc4_scratch1]) := by
  unfold Phi4; rw [scopedRest4_split]; simp only [scM4_0, scM4_1, owns_whole]; try rfl

theorem Phi4_pos (c : Dev nD) (n : ℕ) (hz : n ≠ 0) :
    Phi4 V c n = iprop((∃ r, prngReg c r)
      ∗ (owns (c : Thread nD τ) scM4_0 fullShare (acc4 V c n).1 ∗ owns (c : Thread nD τ) scM4_1 fullShare (acc4 V c n).2)
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-! ## The pipeline's proof data -/

/-- The proof data of the pipeline on core `c`: the arrays as the region finds them (`V`); after the body at point `t`
    each input's buffer at its block, window 2's at the mean row and window 3's at the variance row of the sums through
    `t` (consulted at the last point only: elsewhere the two windows are idle); the invariant `Phi4`; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (acc4 V c (t.val + 1)).1
    | ⟨3, _⟩ => out4_3 (acc4 V c (t.val + 1)).1 (acc4 V c (t.val + 1)).2
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (acc4 V c (t.val + 1)).1 := by dsimp only [dat4]
theorem after4_3 (c : Dev nD) (t : Fin cfg4.N) :
    (dat4 V c).after 3 t = out4_3 (acc4 V c (t.val + 1)).1 (acc4 V c (t.val + 1)).2 := by dsimp only [dat4]

theorem Phi4_castSucc (c : Dev nD) (t : Fin cfg4.N) : (dat4 V c).Φ t.castSucc = Phi4 V c t.val := by
  dsimp only [dat4]; simp only [Fin.coe_castSucc]
theorem Phi4_succ (c : Dev nD) (t : Fin cfg4.N) : (dat4 V c).Φ t.succ = Phi4 V c (t.val + 1) := rfl

/-- Each input's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

theorem acc4_zero (c : Dev nD) (n : ℕ) (hz : n = 0) : acc4 V c n = (zeroS4, zeroQ4) := by subst hz; rfl
theorem Phi4_zero' (c : Dev nD) (n : ℕ) (hz : n = 0) :
    Phi4 V c n = iprop((∃ r, prngReg c r)
      ∗ ((∃ d, owns (c : Thread nD τ) scM4_0 fullShare d) ∗ (∃ d, owns (c : Thread nD τ) scM4_1 fullShare d))
      ∗ Pipeline.scopedRestBut (Ix := Unit) (Name := ℕ) (U := UR sig nD τ) (Lvl := ℕ) (Val := Elt F) spec4 c [cc4_scratch0, cc4_scratch1]) := by
  subst hz; exact Phi4_zero V c

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t
    ∗ (dat4 V c).leavesExact 2 t ∗ (dat4 V c).leavesExact 3 t)

set_option maxHeartbeats 4000000 in
/-- The body at any point. The inputs' memrefs hold their blocks; the point's position decides the control case: at
    the first point the invariant hands the scratch rows at anything and takes them back at the first block's sums; at a
    later point it hands them at the sums so far and takes them back advanced; the output windows' buffers come back
    untouched except at the last point, where they come back at the mean and variance rows. The core owes nothing. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [Phi4_succ, Phi4_castSucc]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 10 := lt_of_lt_of_eq t.isLt (show cfg4.N = 10 from N_4)
  rw [Phi4_pos V c (t.val + 1) (Nat.succ_ne_zero _), acc4_succ]
  by_cases h1 : t.val % 10 = 9
  · have hc0 : ¬cond4_0 (grid4.coords t) := fun h => by have := (hcond4_0 t).mp h; omega
    have hc1 : cond4_1 (grid4.coords t) := (hcond4_1 t).mpr h1
    have hz : t.val ≠ 0 := by omega
    rw [show (dat4 V c).leavesExact 2 t = owns (c : Thread nD τ) (st4_2 t) fullShare ((dat4 V c).after 2 t) from by
      unfold Dat.leavesExact; rw [liveAt4_2 t hc1], after4_2]
    rw [show (dat4 V c).leavesExact 3 t = owns (c : Thread nD τ) (st4_3 t) fullShare ((dat4 V c).after 3 t) from by
      unfold Dat.leavesExact; rw [liveAt4_3 t hc1], after4_3]
    rw [Phi4_pos V c _ hz, acc4_succ]
    iintro ⟨⟨Hg, ⟨HS, HQ⟩, HR⟩, Ho, ⟨%d0, H0⟩, ⟨%d1, H1⟩, ⟨%d2, H2⟩, ⟨%d3, H3⟩⟩
    iapply (sound_kernel4_C c Set.univ (grid4.coords t) hc0 hc1 _ _ _ _ _ _ _ _ _ _ _ _ (iblk4 V c 0 t) (iblk4 V c 1 t) _ _ _ _ _)
    isplitl [H0]; · iexact H0
    isplitl [H1]; · iexact H1
    isplitl [H2]; · iexact H2
    isplitl [H3]; · iexact H3
    isplitl [HS]; · iexact HS
    isplitl [HQ]; · iexact HQ
    iintro ⟨H0, H1, H2, H3, HS, HQ⟩
    isplitl [Hg HS HQ HR]
    · isplitl [Hg]; · iexact Hg
      isplitl [HS HQ]
      · isplitl [HS]; · iexact HS
        iexact HQ
      iexact HR
    isplitl [Ho]; · iexact Ho
    isplitl [H0]; · iexact H0
    isplitl [H1]; · iexact H1
    isplitl [H2]; · iexact H2
    iexact H3
  · have hc1 : ¬cond4_1 (grid4.coords t) := fun h => h1 ((hcond4_1 t).mp h)
    rw [Dat.leavesExact_idle (dat4 V c) 2 t (idleAt4_2 t hc1) (noFlush4_2 t hc1),
      Dat.leavesExact_idle (dat4 V c) 3 t (idleAt4_3 t hc1) (noFlush4_3 t hc1)]
    by_cases h0 : t.val % 10 = 0
    · have hc0 : cond4_0 (grid4.coords t) := (hcond4_0 t).mpr h0
      have hz : t.val = 0 := by omega
      rw [Phi4_zero' V c _ hz, acc4_zero V c _ hz]
      iintro ⟨⟨Hg, ⟨⟨%s0, HS⟩, ⟨%q0, HQ⟩⟩, HR⟩, Ho, ⟨%d0, H0⟩, ⟨%d1, H1⟩, ⟨%d2, H2⟩, ⟨%d3, H3⟩⟩
      iapply (sound_kernel4_A c Set.univ (grid4.coords t) hc0 hc1 _ _ _ _ _ _ _ _ _ _ _ _ (iblk4 V c 0 t) (iblk4 V c 1 t) _ _ _ _ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, HS, HQ⟩
      isplitl [Hg HS HQ HR]
      · isplitl [Hg]; · iexact Hg
        isplitl [HS HQ]
        · isplitl [HS]; · iexact HS
          iexact HQ
        iexact HR
      isplitl [Ho]; · iexact Ho
      isplitl [H0]; · iexact H0
      isplitl [H1]; · iexact H1
      isplitl [H2]; · iexists _; iexact H2
      iexists _; iexact H3
    · have hc0 : ¬cond4_0 (grid4.coords t) := fun h => h0 ((hcond4_0 t).mp h)
      have hz : t.val ≠ 0 := by omega
      rw [Phi4_pos V c _ hz]
      iintro ⟨⟨Hg, ⟨HS, HQ⟩, HR⟩, Ho, ⟨%d0, H0⟩, ⟨%d1, H1⟩, ⟨%d2, H2⟩, ⟨%d3, H3⟩⟩
      iapply (sound_kernel4_B c Set.univ (grid4.coords t) hc0 hc1 _ _ _ _ _ _ _ _ _ _ _ _ (iblk4 V c 0 t) (iblk4 V c 1 t) _ _ _ _ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, HS, HQ⟩
      isplitl [Hg HS HQ HR]
      · isplitl [Hg]; · iexact Hg
        isplitl [HS HQ]
        · isplitl [HS]; · iexact HS
          iexact HQ
        iexact HR
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

/-- What the launch hands the region — the generator register and the scoped rest — is the invariant before the first point. -/
theorem hin4 (c : Dev nD) :
    (iprop((∃ r, prngReg c r) ∗ Pipeline.scopedRest (Ix := Unit) (Name := ℕ) (U := UR sig nD τ) (Lvl := ℕ) (Val := Elt F) spec4 c) : sProp 𝕄) ⊢ (dat4 V c).Φ 0 := by
  rw [show (dat4 V c).Φ 0 = Phi4 V c 0 from rfl]
  unfold Phi4
  exact Idealize.SL.BI.Entails.refl _

/-- After the last point the invariant gives them back: the scratch rows' named contents are forgotten. -/
theorem hout4 (c : Dev nD) :
    (dat4 V c).Φ (Fin.last cfg4.N) ⊢ (iprop((∃ r, prngReg c r) ∗ Pipeline.scopedRest (Ix := Unit) (Name := ℕ) (U := UR sig nD τ) (Lvl := ℕ) (Val := Elt F) spec4 c) : sProp 𝕄) := by
  rw [show (dat4 V c).Φ (Fin.last cfg4.N) = Phi4 V c cfg4.N from rfl,
    Phi4_pos V c _ (by rw [show cfg4.N = 10 from N_4]; decide), scopedRest4_split]
  simp only [scM4_0, scM4_1, owns_whole]
  iintro ⟨Hg, ⟨HS, HQ⟩, HR⟩
  isplitl [Hg]; · iexact Hg
  isplitl [HS HQ]
  · isplitl [HS]
    · iexists _; iexact HS
    iexists _; iexact HQ
  iexact HR

end Region

end Cert.KernelIdeal.Hand

end
-- ==== Proof.KI.Reg5.lean ====
import proofs.«171894_j11897059410618_1_alg».proof.Proof.Gen.KernelIdeal.Launch
import proofs.«171894_j11897059410618_1_alg».proof.Proof.Gen.KernelIdeal.Skeleton
import proofs.«171894_j11897059410618_1_alg».proof.Proof.Gen.KernelIdeal.Points
import Idealize.ShloMosaic.Lib.Pipeline.FrameBody
import Idealize.ShloMosaic.Lib.Ring
import Idealize.ShloMosaic.Lib.Tactic

/-! # Region 5: normalise, scale, shift, add a residual block and clamp at zero, block by block

The region walks ten row blocks of a `[50000, 64]` array. At every point its body reads one `[5000, 64]` block `x`,
five `[1, 64]` rows `b, μ, σ², γ, β` that stay resident over the whole walk, and a second `[5000, 64]` block `r` of
another array, and stores `max ((((x + b) - μ) * rsqrt (σ² + ε) * γ + β) + r) 0` over the whole output block. This file
states, at any contents `V` of the core's buffers on entry: each window's block at a point, what the body leaves in the
output buffer as a function of the seven input blocks, the body's triple, the pipeline's proof data and its body
obligation. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current buffer holds its block at every point, fetched there or not, for any proof data whose
    array is the entry contents and whose body leaves the block in place: where the window is not fetched its block
    index has not moved, so the block kept from the point before is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current buffer holds its block at every point, fetched there or not, for any proof data whose
    array is the entry contents and whose body leaves the block in place: where the window is not fetched its block
    index has not moved, so the block kept from the point before is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current buffer holds its block at every point, fetched there or not, for any proof data whose
    array is the entry contents and whose body leaves the block in place: where the window is not fetched its block
    index has not moved, so the block kept from the point before is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current buffer holds its block at every point, fetched there or not, for any proof data whose
    array is the entry contents and whose body leaves the block in place: where the window is not fetched its block
    index has not moved, so the block kept from the point before is this point's. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current buffer holds its block at every point, fetched there or not, for any proof data whose
    array is the entry contents and whose body leaves the block in place: where the window is not fetched its block
    index has not moved, so the block kept from the point before is this point's. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current buffer holds its block at every point, fetched there or not, for any proof data whose
    array is the entry contents and whose body leaves the block in place: where the window is not fetched its block
    index has not moved, so the block kept from the point before is this point's. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current buffer holds its block at every point, fetched there or not, for any proof data whose
    array is the entry contents and whose body leaves the block in place: where the window is not fetched its block
    index has not moved, so the block kept from the point before is this point's. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole of a `[5000, 64]` buffer. -/
abbrev rX5 : Rect S5000x64 := Rect.unit (s := S5000x64) ![0, 0] S5000x64.size inb_S5000x64_S5000x64_0_0
/-- The whole of a `[1, 64]` buffer. -/
abbrev rR5 : Rect S1x64 := Rect.unit (s := S1x64) ![0, 0] S1x64.size inb_S1x64_S1x64_0_0

/-! ## What the body leaves in the output window's buffer -/

/-- Window 7's buffer after the body, from the seven input blocks: its one store, over the whole buffer, of the
    normalised, scaled and shifted block plus the residual block, clamped at zero. -/
def out5_7 (x0 : Vec F S5000x64 .f32) (x1 x2 x3 x4 x5 : Vec F S1x64 .f32) (x6 : Vec F S5000x64 .f32) : Vec F S5000x64 .f32 :=
  View.canon [⟨rX5, k5_pay1 (View.ld x0 rX5) (View.ld x1 rR5) (View.ld x2 rR5) (View.ld x3 rR5) (View.ld x4 rR5) (View.ld x5 rR5) (View.ld x6 rX5)⟩]

/-- The one store covers the buffer. -/
theorem cover5_7 (p0 : Vec F S5000x64 .f32) (y : S5000x64.Idx) :
    ∃ pc ∈ ([⟨rX5, p0⟩] : List (View.Piece (Elt F) S5000x64 .f32)), y ∈ pc.1.set :=
  View.cover_of_tiled [⟨rX5, p0⟩] S5000x64.size (by rfl) y

/-! ## The body's triple -/

set_option maxHeartbeats 1000000 in
/-- The body on whole buffers, the seven inputs' at read contents `x0 … x6` and the output's at anything, runs to the
    continuation holding the inputs' as they were and the output's at `out5_7` of the inputs'. -/
theorem sound_kernel5 (c : Dev nD) (E : Set ℕ) (i : grid5.Coords)
    (arg0 : Memref sig .tc .vmem S5000x64 .f32) (harg0 : arg0.IsWhole) (arg1 : Memref sig .tc .vmem S1x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S5000x64 .f32) (harg6 : arg6.IsWhole) (arg7 : Memref sig .tc .vmem S5000x64 .f32) (harg7 : arg7.IsWhole)
    (x0 : Vec F S5000x64 .f32) (x1 x2 x3 x4 x5 : Vec F S1x64 .f32) (x6 : Vec F S5000x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6
            ∗ owns (c : Thread nD τ) arg7 fullShare (out5_7 x0 x1 x2 x3 x4 x5 x6)) -∗ K ⟨⟩))
      ⊢ wp frame (wpE (defs₀ (F := F)) Variants.none c none) E (cc5_kernel i arg0 harg0 arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of the region's pipeline on core `c`: the arrays as the region finds them; after the body at point
    `t` each input's buffer at its block and the output's at `out5_7` of the seven input blocks; the invariant that of
    a body touching nothing but its windows' buffers; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 1000000 in
/-- The body at any point: the inputs' buffers hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«171894_j11897059410618_1_alg».proof.Proof.Gen.KernelIdeal.Launch
import proofs.«171894_j11897059410618_1_alg».proof.Proof.Gen.KernelIdeal.Skeleton
import proofs.«171894_j11897059410618_1_alg».proof.Proof.Gen.KernelIdeal.Points
import Idealize.ShloMosaic.Lib.Pipeline.FrameBody
import Idealize.ShloMosaic.Lib.Ring
import Idealize.ShloMosaic.Lib.Tactic

-- membership of an index in a rectangle with thousands of rows is decided by structural recursion on the coordinates
set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 6: a row block of the left operand times the resident weight matrix

The body reads a 5000x64 block of rows and the whole 64x64 weight matrix, narrows both to bf16, multiplies
them into a zero f32 accumulator and writes the 5000x64 product over the whole output block. -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row-block window's buffer holds its block at every point, for any proof data over the entry arrays whose
    body leaves that block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight window is fetched at the first point only; its block index never moves, so its buffer still holds the
    same block at every later point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole buffer -/

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0
abbrev r6_2 : Rect S5000x64 := Rect.unit (s := S5000x64) ![0, 0] S5000x64.size inb_S5000x64_S5000x64_0_0

/-! ## What the body leaves in the output window's buffer -/

/-- The output buffer after the body: its single store, the bf16-narrowed product of the two input blocks. -/
def out6_2 (x0 : Vec F S5000x64 .f32) (x1 : Vec F S64x64 .f32) : Vec F S5000x64 .f32 :=
  View.canon [⟨r6_2, k6_pay1 (View.ld x0 r6_0) (View.ld x1 r6_1)⟩]

/-- The single store is the whole buffer, so it covers it. -/
theorem cover6_2 (p0 : Vec F S5000x64 .f32) (y : S5000x64.Idx) :
    ∃ pc ∈ ([⟨r6_2, p0⟩] : List (View.Piece (Elt F) S5000x64 .f32)), y ∈ pc.1.set :=
  View.cover_of_tiled [⟨r6_2, p0⟩] S5000x64.size (by rfl) y

/-! ## The body's triple -/

set_option maxHeartbeats 1000000 in
/-- The body on whole staging buffers, the inputs' reading `x0`, `x1` and the output's holding anything, runs to the
    continuation with the inputs as they were and the output at `out6_2 x0 x1`. -/
theorem sound_kernel6 (c : Dev nD) (E : Set ℕ) (i : grid6.Coords) (arg0 : Memref sig .tc .vmem S5000x64 .f32) (harg0 : arg0.IsWhole) (arg1 : Memref sig .tc .vmem S64x64 .f32) (harg1 : arg1.IsWhole) (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out6_2 x0 x1)) -∗ K ⟨⟩))
      ⊢ wp frame (wpE (defs₀ (F := F)) Variants.none c none) E (cc6__linear_kernel i arg0 harg0 arg1 harg1 arg2 harg2) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of this pipeline on core `c`: the arrays as the region finds them; after the body at point `t`
    each input buffer at its block and the output buffer at the product of the two blocks; the invariant is the
    untouched rest of the core; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the input buffers hold their blocks, so the body's triple applies; the invariant and
    what is owed pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
import proofs.«171894_j11897059410618_1_alg».proof.Proof.Gen.KernelIdeal.Launch
import proofs.«171894_j11897059410618_1_alg».proof.Proof.Gen.KernelIdeal.Skeleton
import proofs.«171894_j11897059410618_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 7: the batch-norm statistics kernel (column sums and sums of squares over ten row blocks,
    then mean and variance at the last block) -/

/-! ## The rectangles the body loads and stores through: each the whole of its buffer -/

abbrev rS7 : Rect S1x64 := Rect.unit (s := S1x64) ![0, 0] S1x64.size inb_S1x64_S1x64_0_0
abbrev rX7 : Rect S5000x64 := Rect.unit (s := S5000x64) ![0, 0] S5000x64.size inb_S5000x64_S5000x64_0_0

/-- The one-row rectangle covers the one-row buffer. -/
theorem coverS7 (p0 : Vec F S1x64 .f32) (L : List (View.Piece (Elt F) S1x64 .f32)) (y : S1x64.Idx) :
    ∃ pc ∈ ((⟨rS7, p0⟩ :: L) : List (View.Piece (Elt F) S1x64 .f32)), y ∈ pc.1.set :=
  ⟨⟨rS7, p0⟩, List.mem_cons_self, (View.cover_of_tiled [⟨rS7, p0⟩] S1x64.size (by rfl) y).elim fun pc h => by
    have := List.mem_singleton.mp h.1; subst this; exact h.2⟩

/-- A whole-buffer store makes the earlier stores irrelevant. -/
theorem canon_top7 (p0 : Vec F S1x64 .f32) (L : List (View.Piece (Elt F) S1x64 .f32)) :
    View.canon ((⟨rS7, p0⟩ :: L) : List (View.Piece (Elt F) S1x64 .f32)) = View.canon [⟨rS7, p0⟩] := by
  funext y
  obtain ⟨pc, hm, hy⟩ := coverS7 p0 [] y
  have := List.mem_singleton.mp hm; subst this
  obtain ⟨x, rfl⟩ : ∃ x, (rS7).emb x = y := (rS7).exists_idx_of_mem hy
  rw [View.canon_cons_emb, View.canon_cons_emb]

/-- Reading a whole-buffer store back through the same rectangle gives its payload. -/
theorem ld_canon7 (p0 : Vec F S1x64 .f32) (L : List (View.Piece (Elt F) S1x64 .f32)) :
    View.ld (View.canon ((⟨rS7, p0⟩ :: L) : List (View.Piece (Elt F) S1x64 .f32))) rS7 = p0 :=
  funext fun x => View.canon_cons_emb rS7 p0 L x

/-! ## The body's branch conditions, decided over the grid -/

/-- The first conditional: the point is the first of the grid. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 10 = 0 :=
  (by decide +kernel : ∀ t : Fin grid7.N, cond7_0 (grid7.coords t) ↔ t.val % 10 = 0)
/-- The second conditional: the point is the last of the grid. -/
abbrev cond7_1 (i : grid7.Coords) : Prop := k7_cond2 i = 1#1
theorem hcond7_1 : ∀ t : Fin cfg7.N, cond7_1 (grid7.coords t) ↔ t.val % 10 = 9 :=
  (by decide +kernel : ∀ t : Fin grid7.N, cond7_1 (grid7.coords t) ↔ t.val % 10 = 9)

/-- The input windows are never idle; the output windows are idle exactly off the last point, where they are
    not written back either. -/
theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬cond7_1 (grid7.coords t) → cfg7.idle 2 (grid7.coords t) = true := by decide +kernel
theorem idleAt7_3 : ∀ t : Fin cfg7.N, ¬cond7_1 (grid7.coords t) → cfg7.idle 3 (grid7.coords t) = true := by decide +kernel
theorem noFlush7_2 : ∀ t : Fin cfg7.N, ¬cond7_1 (grid7.coords t) → (cfg7.win 2).flush t = false := by decide +kernel
theorem noFlush7_3 : ∀ t : Fin cfg7.N, ¬cond7_1 (grid7.coords t) → (cfg7.win 3).flush t = false := by decide +kernel
theorem liveAt7_2 : ∀ t : Fin cfg7.N, cond7_1 (grid7.coords t) → cfg7.idle 2 (grid7.coords t) = false := by decide +kernel
theorem liveAt7_3 : ∀ t : Fin cfg7.N, cond7_1 (grid7.coords t) → cfg7.idle 3 (grid7.coords t) = false := by decide +kernel

/-! ## What one point does to the two running sums, and what the last point stores -/

/-- The running column sum after a point: the sum before it plus the column sums of the block plus the bias row. -/
def stepS7 (x : Vec F S5000x64 .f32) (b : Vec F S1x64 .f32) (s : Vec F S1x64 .f32) : Vec F S1x64 .f32 :=
  View.canon [⟨rS7, k7_pay4 (View.ld x rX7) (View.ld b rS7) (View.ld s rS7)⟩]
/-- The running column sum of squares after a point. -/
def stepQ7 (x : Vec F S5000x64 .f32) (b : Vec F S1x64 .f32) (q : Vec F S1x64 .f32) : Vec F S1x64 .f32 :=
  View.canon [⟨rS7, k7_pay5 (View.ld x rX7) (View.ld b rS7) (View.ld q rS7)⟩]
/-- The two sums as the first point's reset leaves them: zero rows. -/
def zeroS7 : Vec F S1x64 .f32 := View.canon [⟨rS7, k7_pay1 (F := F)⟩]
def zeroQ7 : Vec F S1x64 .f32 := View.canon [⟨rS7, k7_pay2 (F := F)⟩]
/-- The mean row the last point stores into window 2's buffer, from the final column sum. -/
def out7_2 (s : Vec F S1x64 .f32) : Vec F S1x64 .f32 :=
  View.canon [⟨rS7, k7_pay6 (View.ld s rS7)⟩]
/-- The variance row the last point stores into window 3's buffer, from the final sums. -/
def out7_3 (s : Vec F S1x64 .f32) (q : Vec F S1x64 .f32) : Vec F S1x64 .f32 :=
  View.canon [⟨rS7, k7_pay7 (View.ld s rS7) (View.ld q rS7)⟩]

/-! ## The body's triple, one per control case -/

set_option maxHeartbeats 4000000 in
/-- A middle point: neither conditional taken. On whole memrefs — the two input buffers at `x`, `b`, the two output
    buffers at anything (handed back untouched), the two sums at `s`, `q` — the body runs to the continuation with the
    sums advanced by the block. -/
theorem sound_kernel7_B (c : Dev nD) (E : Set ℕ) (i : grid7.Coords) (hc0 : ¬cond7_0 i) (hc1 : ¬cond7_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (stepS7 x b s) ∗ owns (c : Thread nD τ) arg6 fullShare (stepQ7 x b q)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverS7 _ _)
  iexists _; isplitr
  swap; · iexact H6
  ipureintro
  exact View.read_writes_eq_canon _ _ _ (coverS7 _ _)

set_option maxHeartbeats 4000000 in
/-- The first point: the first conditional taken (the sums are reset to zero rows whatever they held), the second not. -/
theorem sound_kernel7_A (c : Dev nD) (E : Set ℕ) (i : grid7.Coords) (hc0 : cond7_0 i) (hc1 : ¬cond7_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare y2 ∗ owns (c : Thread nD τ) arg4 fullShare y3
            ∗ owns (c : Thread nD τ) arg5 fullShare (stepS7 x b (zeroS7 (F := F))) ∗ owns (c : Thread nD τ) arg6 fullShare (stepQ7 x b (zeroQ7 (F := F)))) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverS7 _ _), canon_top7]
    unfold stepS7 zeroS7
    rw [ld_canon7]
    have e9 : sound_kernel7_A.sl.v9 c arg5 = k7_pay1 (F := F) := View.readCov_cons_toLoadRect _ _ _ _
    rw [e9]; rfl
  iexists _; isplitr
  swap; · iexact H6
  ipureintro
  rw [View.read_writes_eq_canon _ _ _ (coverS7 _ _), canon_top7]
  unfold stepQ7 zeroQ7
  rw [ld_canon7]
  have e16 : sound_kernel7_A.sl.v16 c arg6 = k7_pay2 (F := F) := View.readCov_cons_toLoadRect _ _ _ _
  rw [e16]; rfl

set_option maxHeartbeats 4000000 in
/-- The last point: the first conditional not taken, the second taken — the sums advanced, then the mean row stored
    into window 2's buffer and the variance row into window 3's, whatever those held. -/
theorem sound_kernel7_C (c : Dev nD) (E : Set ℕ) (i : grid7.Coords) (hc0 : ¬cond7_0 i) (hc1 : cond7_1 i)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (x : Vec F S5000x64 .f32) (b y2 y3 s q : Vec F S1x64 .f32) (K : PUnit → sProp 𝕄) :
    iprop(owns (c : Thread nD τ) arg1 fullShare x ∗ owns (c : Thread nD τ) arg2 fullShare b
        ∗ owns (c : Thread nD τ) arg3 fullShare y2 ∗ owns (c : Thread nD τ) arg4 fullShare y3
        ∗ owns (c : Thread nD τ) arg5 fullShare s ∗ owns (c : Thread nD τ) arg6 fullShare q
        ∗ (iprop(owns (c : Thread nD τ) arg1 fullShare x ∗ owns (c : Thread nD τ) arg2 fullShare b
            ∗ owns (c : Thread nD τ) arg3 fullShare (out7_2 (stepS7 x b s)) ∗ owns (c : Thread nD τ) arg4 fullShare (out7_3 (stepS7 x b s) (stepQ7 x b q))
            ∗ owns (c : Thread nD τ) arg5 fullShare (stepS7 x b s) ∗ owns (c : Thread nD τ) arg6 fullShare (stepQ7 x b q)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (coverS7 _ _)]
    unfold out7_2 stepS7
    rw [ld_canon7]
    have e27 : sound_kernel7_C.sl.v27 c arg1 arg2 arg5 f1 f2 f5 = k7_pay4 (View.ld (View.read (Elt F) arg1.view f1) rX7) (View.ld (View.read (Elt F) arg2.view f2) rS7) (View.ld (View.read (Elt F) arg5.view f5) rS7) :=
      View.readCov_cons_toLoadRect _ _ _ _
    rw [e27]
  isplitl [H4]
  · iexists _; isplitr
    swap; · iexact H4
    ipureintro
    rw [View.read_writes_eq_canon _ _ _ (coverS7 _ _)]
    unfold out7_3 stepS7 stepQ7
    rw [ld_canon7, ld_canon7]
    have e27 : sound_kernel7_C.sl.v27 c arg1 arg2 arg5 f1 f2 f5 = k7_pay4 (View.ld (View.read (Elt F) arg1.view f1) rX7) (View.ld (View.read (Elt F) arg2.view f2) rS7) (View.ld (View.read (Elt F) arg5.view f5) rS7) :=
      View.readCov_cons_toLoadRect _ _ _ _
    have e30 : sound_kernel7_C.sl.v30 c arg1 arg2 arg6 f1 f2 f6 = k7_pay5 (View.ld (View.read (Elt F) arg1.view f1) rX7) (View.ld (View.read (Elt F) arg2.view f2) rS7) (View.ld (View.read (Elt F) arg6.view f6) rS7) :=
      View.readCov_cons_toLoadRect _ _ _ _
    rw [e27, e30]
  isplitl [H5]
  · iexists _; isplitr
    swap; · iexact H5
    ipureintro
    exact View.read_writes_eq_canon _ _ _ (coverS7 _ _)
  iexists _; isplitr
  swap; · iexact H6
  ipureintro
  exact View.read_writes_eq_canon _ _ _ (coverS7 _ _)

/-! ## The windows' blocks, the running sums point by point, the invariant -/

section Region
variable (V : (c : Dev nD) → (b : Ref sig .tc) → Buf (Elt F) ((c : Thread nD τ).loc b))

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The two scratch operands as whole memrefs. -/
abbrev scM7_0 : Memref sig .tc .vmem S1x64 .f32 := Memref.whole cc7_scratch0
abbrev scM7_1 : Memref sig .tc .vmem S1x64 .f32 := Memref.whole cc7_scratch1

/-- The pair (column sum, column sum of squares) over the first `n` blocks: zero rows, then one step per block. -/
def acc7 (c : Dev nD) : ℕ → Vec F S1x64 .f32 × Vec F S1x64 .f32
  | 0 => (zeroS7, zeroQ7)
  | n + 1 =>
    if h : n < cfg7.N then
      (stepS7 (iblk7 V c 0 ⟨n, h⟩) (iblk7 V c 1 ⟨n, h⟩) (acc7 c n).1,
       stepQ7 (iblk7 V c 0 ⟨n, h⟩) (iblk7 V c 1 ⟨n, h⟩) (acc7 c n).2)
    else acc7 c n

theorem acc7_succ (c : Dev nD) (t : Fin cfg7.N) :
    acc7 V c (t.val + 1) = (stepS7 (iblk7 V c 0 t) (iblk7 V c 1 t) (acc7 V c t.val).1,
       stepQ7 (iblk7 V c 0 t) (iblk7 V c 1 t) (acc7 V c t.val).2) := by
  obtain ⟨n, hn⟩ := t
  exact dif_pos hn

/-- The invariant before position `n`: the generator register at some state and the scoped buffers that are no
    staging buffer — before the first point all at anything; afterwards the two scratch rows at the sums over the
    first `n` blocks, the others at anything. -/
def Phi7 (c : Dev nD) : ℕ → sProp 𝕄
  | 0 => iprop((∃ r, prngReg c r) ∗ Pipeline.scopedRest (Ix := Unit) (Name := ℕ) (U := UR sig nD τ) (Lvl := ℕ) (Val := Elt F) spec7 c)
  | n + 1 => iprop((∃ r, prngReg c r)
      ∗ (owns (c : Thread nD τ) scM7_0 fullShare (acc7 V c (n + 1)).1 ∗ owns (c : Thread nD τ) scM7_1 fullShare (acc7 V c (n + 1)).2)
      ∗ Pipeline.scopedRestBut (Ix := Unit) (Name := ℕ) (U := UR sig nD τ) (Lvl := ℕ) (Val := Elt F) spec7 c [cc7_scratch0, cc7_scratch1])

/-- Before the first point, with the two scratch rows taken out of the scoped rest as memrefs at some contents. -/
theorem Phi7_zero (c : Dev nD) :
    Phi7 V c 0 = iprop((∃ r, prngReg c r)
      ∗ ((∃ d, owns (c : Thread nD τ) scM7_0 fullShare d) ∗ (∃ d, owns (c : Thread nD τ) scM7_1 fullShare d))
      ∗ Pipeline.scopedRestBut (Ix := Unit) (Name := ℕ) (U := UR sig nD τ) (Lvl := ℕ) (Val := Elt F) spec7 c [cc7_scratch0, cc7_scratch1]) := by
  unfold Phi7; rw [scopedRest7_split]; simp only [scM7_0, scM7_1, owns_whole]; try rfl

theorem Phi7_pos (c : Dev nD) (n : ℕ) (hz : n ≠ 0) :
    Phi7 V c n = iprop((∃ r, prngReg c r)
      ∗ (owns (c : Thread nD τ) scM7_0 fullShare (acc7 V c n).1 ∗ owns (c : Thread nD τ) scM7_1 fullShare (acc7 V c n).2)
      ∗ Pipeline.scopedRestBut (Ix := Unit) (Name := ℕ) (U := UR sig nD τ) (Lvl := ℕ) (Val := Elt F) spec7 c [cc7_scratch0, cc7_scratch1]) := by
  cases n with
  | zero => exact absurd rfl hz
  | succ n => rfl

/-! ## The pipeline's proof data -/

/-- The proof data of the pipeline on core `c`: the arrays as the region finds them (`V`); after the body at point `t`
    each input's buffer at its block, window 2's at the mean row and window 3's at the variance row of the sums through
    `t` (consulted at the last point only: elsewhere the two windows are idle); the invariant `Phi7`; nothing owed;
    full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (acc7 V c (t.val + 1)).1
    | ⟨3, _⟩ => out7_3 (acc7 V c (t.val + 1)).1 (acc7 V c (t.val + 1)).2
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (acc7 V c (t.val + 1)).1 := by dsimp only [dat7]
theorem after7_3 (c : Dev nD) (t : Fin cfg7.N) :
    (dat7 V c).after 3 t = out7_3 (acc7 V c (t.val + 1)).1 (acc7 V c (t.val + 1)).2 := by dsimp only [dat7]

theorem Phi7_castSucc (c : Dev nD) (t : Fin cfg7.N) : (dat7 V c).Φ t.castSucc = Phi7 V c t.val := by
  dsimp only [dat7]; simp only [Fin.coe_castSucc]
theorem Phi7_succ (c : Dev nD) (t : Fin cfg7.N) : (dat7 V c).Φ t.succ = Phi7 V c (t.val + 1) := rfl

/-- Each input's current staging buffer holds its block at every point, fetched there or not. -/
theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)

theorem acc7_zero (c : Dev nD) (n : ℕ) (hz : n = 0) : acc7 V c n = (zeroS7, zeroQ7) := by subst hz; rfl
theorem Phi7_zero' (c : Dev nD) (n : ℕ) (hz : n = 0) :
    Phi7 V c n = iprop((∃ r, prngReg c r)
      ∗ ((∃ d, owns (c : Thread nD τ) scM7_0 fullShare d) ∗ (∃ d, owns (c : Thread nD τ) scM7_1 fullShare d))
      ∗ Pipeline.scopedRestBut (Ix := Unit) (Name := ℕ) (U := UR sig nD τ) (Lvl := ℕ) (Val := Elt F) spec7 c [cc7_scratch0, cc7_scratch1]) := by
  subst hz; exact Phi7_zero V c

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t
    ∗ (dat7 V c).leavesExact 2 t ∗ (dat7 V c).leavesExact 3 t)

set_option maxHeartbeats 4000000 in
/-- The body at any point. The inputs' memrefs hold their blocks; the point's position decides the control case: at
    the first point the invariant hands the scratch rows at anything and takes them back at the first block's sums; at a
    later point it hands them at the sums so far and takes them back advanced; the output windows' buffers come back
    untouched except at the last point, where they come back at the mean and variance rows. The core owes nothing. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [Phi7_succ, Phi7_castSucc]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  have hN : t.val < 10 := lt_of_lt_of_eq t.isLt (show cfg7.N = 10 from N_7)
  rw [Phi7_pos V c (t.val + 1) (Nat.succ_ne_zero _), acc7_succ]
  by_cases h1 : t.val % 10 = 9
  · have hc0 : ¬cond7_0 (grid7.coords t) := fun h => by have := (hcond7_0 t).mp h; omega
    have hc1 : cond7_1 (grid7.coords t) := (hcond7_1 t).mpr h1
    have hz : t.val ≠ 0 := by omega
    rw [show (dat7 V c).leavesExact 2 t = owns (c : Thread nD τ) (st7_2 t) fullShare ((dat7 V c).after 2 t) from by
      unfold Dat.leavesExact; rw [liveAt7_2 t hc1], after7_2]
    rw [show (dat7 V c).leavesExact 3 t = owns (c : Thread nD τ) (st7_3 t) fullShare ((dat7 V c).after 3 t) from by
      unfold Dat.leavesExact; rw [liveAt7_3 t hc1], after7_3]
    rw [Phi7_pos V c _ hz, acc7_succ]
    iintro ⟨⟨Hg, ⟨HS, HQ⟩, HR⟩, Ho, ⟨%d0, H0⟩, ⟨%d1, H1⟩, ⟨%d2, H2⟩, ⟨%d3, H3⟩⟩
    iapply (sound_kernel7_C c Set.univ (grid7.coords t) hc0 hc1 _ _ _ _ _ _ _ _ _ _ _ _ (iblk7 V c 0 t) (iblk7 V c 1 t) _ _ _ _ _)
    isplitl [H0]; · iexact H0
    isplitl [H1]; · iexact H1
    isplitl [H2]; · iexact H2
    isplitl [H3]; · iexact H3
    isplitl [HS]; · iexact HS
    isplitl [HQ]; · iexact HQ
    iintro ⟨H0, H1, H2, H3, HS, HQ⟩
    isplitl [Hg HS HQ HR]
    · isplitl [Hg]; · iexact Hg
      isplitl [HS HQ]
      · isplitl [HS]; · iexact HS
        iexact HQ
      iexact HR
    isplitl [Ho]; · iexact Ho
    isplitl [H0]; · iexact H0
    isplitl [H1]; · iexact H1
    isplitl [H2]; · iexact H2
    iexact H3
  · have hc1 : ¬cond7_1 (grid7.coords t) := fun h => h1 ((hcond7_1 t).mp h)
    rw [Dat.leavesExact_idle (dat7 V c) 2 t (idleAt7_2 t hc1) (noFlush7_2 t hc1),
      Dat.leavesExact_idle (dat7 V c) 3 t (idleAt7_3 t hc1) (noFlush7_3 t hc1)]
    by_cases h0 : t.val % 10 = 0
    · have hc0 : cond7_0 (grid7.coords t) := (hcond7_0 t).mpr h0
      have hz : t.val = 0 := by omega
      rw [Phi7_zero' V c _ hz, acc7_zero V c _ hz]
      iintro ⟨⟨Hg, ⟨⟨%s0, HS⟩, ⟨%q0, HQ⟩⟩, HR⟩, Ho, ⟨%d0, H0⟩, ⟨%d1, H1⟩, ⟨%d2, H2⟩, ⟨%d3, H3⟩⟩
      iapply (sound_kernel7_A c Set.univ (grid7.coords t) hc0 hc1 _ _ _ _ _ _ _ _ _ _ _ _ (iblk7 V c 0 t) (iblk7 V c 1 t) _ _ _ _ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, HS, HQ⟩
      isplitl [Hg HS HQ HR]
      · isplitl [Hg]; · iexact Hg
        isplitl [HS HQ]
        · isplitl [HS]; · iexact HS
          iexact HQ
        iexact HR
      isplitl [Ho]; · iexact Ho
      isplitl [H0]; · iexact H0
      isplitl [H1]; · iexact H1
      isplitl [H2]; · iexists _; iexact H2
      iexists _; iexact H3
    · have hc0 : ¬cond7_0 (grid7.coords t) := fun h => h0 ((hcond7_0 t).mp h)
      have hz : t.val ≠ 0 := by omega
      rw [Phi7_pos V c _ hz]
      iintro ⟨⟨Hg, ⟨HS, HQ⟩, HR⟩, Ho, ⟨%d0, H0⟩, ⟨%d1, H1⟩, ⟨%d2, H2⟩, ⟨%d3, H3⟩⟩
      iapply (sound_kernel7_B c Set.univ (grid7.coords t) hc0 hc1 _ _ _ _ _ _ _ _ _ _ _ _ (iblk7 V c 0 t) (iblk7 V c 1 t) _ _ _ _ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, HS, HQ⟩
      isplitl [Hg HS HQ HR]
      · isplitl [Hg]; · iexact Hg
        isplitl [HS HQ]
        · isplitl [HS]; · iexact HS
          iexact HQ
        iexact HR
      isplitl [Ho]; · iexact Ho
      isplitl [H0]; · iexact H0
      isplitl [H1]; · iexact H1
      isplitl [H2]; · iexists _; iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Into and out of the invariant -/

/-- What the launch hands the region — the generator register and the scoped rest — is the invariant before the first point. -/
theorem hin7 (c : Dev nD) :
    (iprop((∃ r, prngReg c r) ∗ Pipeline.scopedRest (Ix := Unit) (Name := ℕ) (U := UR sig nD τ) (Lvl := ℕ) (Val := Elt F) spec7 c) : sProp 𝕄) ⊢ (dat7 V c).Φ 0 := by
  rw [show (dat7 V c).Φ 0 = Phi7 V c 0 from rfl]
  unfold Phi7
  exact Idealize.SL.BI.Entails.refl _

/-- After the last point the invariant gives them back: the scratch rows' named contents are forgotten. -/
theorem hout7 (c : Dev nD) :
    (dat7 V c).Φ (Fin.last cfg7.N) ⊢ (iprop((∃ r, prngReg c r) ∗ Pipeline.scopedRest (Ix := Unit) (Name := ℕ) (U := UR sig nD τ) (Lvl := ℕ) (Val := Elt F) spec7 c) : sProp 𝕄) := by
  rw [show (dat7 V c).Φ (Fin.last cfg7.N) = Phi7 V c cfg7.N from rfl,
    Phi7_pos V c _ (by rw [show cfg7.N = 10 from N_7]; decide), scopedRest7_split]
  simp only [scM7_0, scM7_1, owns_whole]
  iintro ⟨Hg, ⟨HS, HQ⟩, HR⟩
  isplitl [Hg]; · iexact Hg
  isplitl [HS HQ]
  · isplitl [HS]
    · iexists _; iexact HS
    iexists _; iexact HQ
  iexact HR

end Region

end Cert.KernelIdeal.Hand

end
-- ==== Proof.KI.Reg8.lean ====
import proofs.«171894_j11897059410618_1_alg».proof.Proof.Gen.KernelIdeal.Launch
import proofs.«171894_j11897059410618_1_alg».proof.Proof.Gen.KernelIdeal.Skeleton
import proofs.«171894_j11897059410618_1_alg».proof.Proof.Gen.KernelIdeal.Points
import Idealize.ShloMosaic.Lib.Pipeline.FrameBody
import Idealize.ShloMosaic.Lib.Ring
import Idealize.ShloMosaic.Lib.Tactic

/-! # Region 8: normalise, scale, shift and clamp at zero, block by block

The region walks ten row blocks of a `[50000, 64]` array. At every point its body reads one `[5000, 64]` block `x`
and five `[1, 64]` rows `b, μ, σ², γ, β` that stay resident over the whole walk, and stores
`max (((x + b) - μ) * rsqrt (σ² + ε) * γ + β) 0` over the whole output block. This file states, at any contents `V`
of the core's buffers on entry: each window's block at a point, what the body leaves in the output buffer as a function
of the six input blocks, the body's triple, the pipeline's proof data and its body obligation. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current buffer holds its block at every point, fetched there or not, for any proof data whose
    array is the entry contents and whose body leaves the block in place: where the window is not fetched its block
    index has not moved, so the block kept from the point before is this point's. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current buffer holds its block at every point, fetched there or not, for any proof data whose
    array is the entry contents and whose body leaves the block in place: where the window is not fetched its block
    index has not moved, so the block kept from the point before is this point's. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current buffer holds its block at every point, fetched there or not, for any proof data whose
    array is the entry contents and whose body leaves the block in place: where the window is not fetched its block
    index has not moved, so the block kept from the point before is this point's. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current buffer holds its block at every point, fetched there or not, for any proof data whose
    array is the entry contents and whose body leaves the block in place: where the window is not fetched its block
    index has not moved, so the block kept from the point before is this point's. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current buffer holds its block at every point, fetched there or not, for any proof data whose
    array is the entry contents and whose body leaves the block in place: where the window is not fetched its block
    index has not moved, so the block kept from the point before is this point's. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current buffer holds its block at every point, fetched there or not, for any proof data whose
    array is the entry contents and whose body leaves the block in place: where the window is not fetched its block
    index has not moved, so the block kept from the point before is this point's. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole of a `[5000, 64]` buffer. -/
abbrev rX8 : Rect S5000x64 := Rect.unit (s := S5000x64) ![0, 0] S5000x64.size inb_S5000x64_S5000x64_0_0
/-- The whole of a `[1, 64]` buffer. -/
abbrev rR8 : Rect S1x64 := Rect.unit (s := S1x64) ![0, 0] S1x64.size inb_S1x64_S1x64_0_0

/-! ## What the body leaves in the output window's buffer -/

/-- Window 6's buffer after the body, from the six input blocks: its one store, over the whole buffer, of the
    normalised, scaled, shifted and clamped block. -/
def out8_6 (x0 : Vec F S5000x64 .f32) (x1 x2 x3 x4 x5 : Vec F S1x64 .f32) : Vec F S5000x64 .f32 :=
  View.canon [⟨rX8, k8_pay1 (View.ld x0 rX8) (View.ld x1 rR8) (View.ld x2 rR8) (View.ld x3 rR8) (View.ld x4 rR8) (View.ld x5 rR8)⟩]

/-- The one store covers the buffer. -/
theorem cover8_6 (p0 : Vec F S5000x64 .f32) (y : S5000x64.Idx) :
    ∃ pc ∈ ([⟨rX8, p0⟩] : List (View.Piece (Elt F) S5000x64 .f32)), y ∈ pc.1.set :=
  View.cover_of_tiled [⟨rX8, p0⟩] S5000x64.size (by rfl) y

/-! ## The body's triple -/

set_option maxHeartbeats 1000000 in
/-- The body on whole buffers, the six inputs' at read contents `x0 … x5` and the output's at anything, runs to the
    continuation holding the inputs' as they were and the output's at `out8_6` of the inputs'. -/
theorem sound_kernel8 (c : Dev nD) (E : Set ℕ) (i : grid8.Coords)
    (arg0 : Memref sig .tc .vmem S5000x64 .f32) (harg0 : arg0.IsWhole) (arg1 : Memref sig .tc .vmem S1x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S5000x64 .f32) (harg6 : arg6.IsWhole)
    (x0 : Vec F S5000x64 .f32) (x1 x2 x3 x4 x5 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (out8_6 x0 x1 x2 x3 x4 x5)) -∗ K ⟨⟩))
      ⊢ wp frame (wpE (defs₀ (F := F)) Variants.none c none) E (cc8_kernel i arg0 harg0 arg1 harg1 arg2 harg2 arg3 harg3 arg4 harg4 arg5 harg5 arg6 harg6) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of the region's pipeline on core `c`: the arrays as the region finds them; after the body at point
    `t` each input's buffer at its block and the output's at `out8_6` of the six input blocks; the invariant that of
    a body touching nothing but its windows' buffers; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

set_option maxHeartbeats 1000000 in
/-- The body at any point: the inputs' buffers hold their blocks, so the body's triple applies; the invariant and the
    core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
import proofs.«171894_j11897059410618_1_alg».proof.Proof.Gen.KernelIdeal.Launch
import proofs.«171894_j11897059410618_1_alg».proof.Proof.Gen.KernelIdeal.Skeleton
import proofs.«171894_j11897059410618_1_alg».proof.Proof.Gen.KernelIdeal.Points
import Idealize.ShloMosaic.Lib.Pipeline.FrameBody
import Idealize.ShloMosaic.Lib.Ring
import Idealize.ShloMosaic.Lib.Tactic

-- membership of an index in a rectangle with thousands of rows is decided by structural recursion on the coordinates
set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 9: a three-layer head on one block of 256 rows

The body reads eight whole buffers — rows, weights and biases — and computes, with every matrix product on
bf16-narrowed operands into a zero f32 accumulator: relu(rows · W₁ + b₁), then relu(that · W₂ + b₂), then the second
row block and that result side by side along the columns, times the last weights plus the last bias. It writes the
256x1 result over the whole output buffer. The grid has one point. -/

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Window 0 (the first layer's 256x64 input rows): its buffer holds its block at the point, for any proof data over the entry arrays whose
    body leaves that block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Window 1 (the first layer's 64x128 weights): its buffer holds its block at the point, for any proof data over the entry arrays whose
    body leaves that block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Window 2 (the first layer's 1x128 bias): its buffer holds its block at the point, for any proof data over the entry arrays whose
    body leaves that block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Window 3 (the second layer's 128x64 weights): its buffer holds its block at the point, for any proof data over the entry arrays whose
    body leaves that block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Window 4 (the second layer's 1x64 bias): its buffer holds its block at the point, for any proof data over the entry arrays whose
    body leaves that block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Window 5 (the 256x64 rows concatenated in front of the second layer's output): its buffer holds its block at the point, for any proof data over the entry arrays whose
    body leaves that block in place. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- Window 6 (the last layer's 128x1 weights): its buffer holds its block at the point, for any proof data over the entry arrays whose
    body leaves that block in place. -/
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-- Window 7 (the last layer's 1x1 bias): its buffer holds its block at the point, for any proof data over the entry arrays whose
    body leaves that block in place. -/
theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each is the whole buffer -/

abbrev r9_0 : Rect S256x64 := Rect.unit (s := S256x64) ![0, 0] S256x64.size inb_S256x64_S256x64_0_0
abbrev r9_1 : Rect S64x128 := Rect.unit (s := S64x128) ![0, 0] S64x128.size inb_S64x128_S64x128_0_0
abbrev r9_2 : Rect S1x128 := Rect.unit (s := S1x128) ![0, 0] S1x128.size inb_S1x128_S1x128_0_0
abbrev r9_3 : Rect S128x64 := Rect.unit (s := S128x64) ![0, 0] S128x64.size inb_S128x64_S128x64_0_0
abbrev r9_4 : Rect S1x64 := Rect.unit (s := S1x64) ![0, 0] S1x64.size inb_S1x64_S1x64_0_0
abbrev r9_5 : Rect S256x64 := Rect.unit (s := S256x64) ![0, 0] S256x64.size inb_S256x64_S256x64_0_0
abbrev r9_6 : Rect S128x1 := Rect.unit (s := S128x1) ![0, 0] S128x1.size inb_S128x1_S128x1_0_0
abbrev r9_7 : Rect S1x1 := Rect.unit (s := S1x1) ![0, 0] S1x1.size inb_S1x1_S1x1_0_0
abbrev r9_8 : Rect S256x1 := Rect.unit (s := S256x1) ![0, 0] S256x1.size inb_S256x1_S256x1_0_0

/-! ## What the body leaves in the output window's buffer -/

/-- The output buffer after the body: its single store, the head's value on the eight input blocks. -/
def out9_8 (x0 : Vec F S256x64 .f32) (x1 : Vec F S64x128 .f32) (x2 : Vec F S1x128 .f32) (x3 : Vec F S128x64 .f32) (x4 : Vec F S1x64 .f32) (x5 : Vec F S256x64 .f32) (x6 : Vec F S128x1 .f32) (x7 : Vec F S1x1 .f32) : Vec F S256x1 .f32 :=
  View.canon [⟨r9_8, k9_pay1 (View.ld x0 r9_0) (View.ld x1 r9_1) (View.ld x2 r9_2) (View.ld x3 r9_3) (View.ld x4 r9_4) (View.ld x5 r9_5) (View.ld x6 r9_6) (View.ld x7 r9_7)⟩]

/-- The single store is the whole buffer, so it covers it. -/
theorem cover9_8 (p0 : Vec F S256x1 .f32) (y : S256x1.Idx) :
    ∃ pc ∈ ([⟨r9_8, p0⟩] : List (View.Piece (Elt F) S256x1 .f32)), y ∈ pc.1.set :=
  View.cover_of_tiled [⟨r9_8, p0⟩] S256x1.size (by rfl) y

/-! ## The body's triple -/

set_option maxHeartbeats 4000000 in
/-- The body on whole staging buffers, the inputs' reading `x0 … x7` and the output's holding anything, runs to the
    continuation with the inputs as they were and the output at `out9_8` of them. -/
theorem sound_kernel9 (c : Dev nD) (E : Set ℕ) (i : grid9.Coords) (arg0 : Memref sig .tc .vmem S256x64 .f32) (harg0 : arg0.IsWhole) (arg1 : Memref sig .tc .vmem S64x128 .f32) (harg1 : arg1.IsWhole) (arg2 : Memref sig .tc .vmem S1x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S256x64 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S256x1 .f32) (harg8 : arg8.IsWhole)
    (x0 : Vec F S256x64 .f32) (x1 : Vec F S64x128 .f32) (x2 : Vec F S1x128 .f32) (x3 : Vec F S128x64 .f32) (x4 : Vec F S1x64 .f32) (x5 : Vec F S256x64 .f32) (x6 : Vec F S128x1 .f32) (x7 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out9_8 x0 x1 x2 x3 x4 x5 x6 x7)) -∗ K ⟨⟩))
      ⊢ wp frame (wpE (defs₀ (F := F)) Variants.none c none) E (cc9__fusion_kernel i arg0 harg0 arg1 harg1 arg2 harg2 arg3 harg3 arg4 harg4 arg5 harg5 arg6 harg6 arg7 harg7 arg8 harg8) K := by
  simp only [cc9__fusion_kernel_eq_skeleton]; unfold cc9__fusion_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover9_8 _)

/-! ## The pipeline's proof data -/

/-- The proof data of this pipeline on core `c`: the arrays as the region finds them; after the body each input
    buffer at its block and the output buffer at the head's value on the eight blocks; the invariant is the untouched
    rest of the core; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => out9_8 (iblk9 V c 0 t) (iblk9 V c 1 t) (iblk9 V c 2 t) (iblk9 V c 3 t) (iblk9 V c 4 t) (iblk9 V c 5 t) (iblk9 V c 6 t) (iblk9 V c 7 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = out9_8 (iblk9 V c 0 t) (iblk9 V c 1 t) (iblk9 V c 2 t) (iblk9 V c 3 t) (iblk9 V c 4 t) (iblk9 V c 5 t) (iblk9 V c 6 t) (iblk9 V c 7 t) := by dsimp only [dat9]

/-- Each input's current buffer holds its block at the point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t))

/-- The body at the point: the input buffers hold their blocks, so the body's triple applies; the invariant and
    what is owed pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7, after9_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel9 c Set.univ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Frame.lean ====
/-
  The frame of the whole program, assembled from its ten kernel regions.

  Between two items of @main every unscoped buffer of a core is held whole at a known valuation: the launch memory,
  then the host operations of each stretch applied to it, then, after a region, the same valuation with the region's
  windowed arrays at what the region's write-backs leave. Each region is entered from the valuation before it and
  left at the one after it; the program therefore terminates without a fault and ends with every unscoped buffer at
  the last valuation, from which both the unchanged arguments and the result are read.
-/
import proofs.«171894_j11897059410618_1_alg».proof.Proof.Gen.KernelIdeal.Launch
import proofs.«171894_j11897059410618_1_alg».proof.Proof.Gen.KernelIdeal.Skeleton
import proofs.«171894_j11897059410618_1_alg».proof.Proof.Gen.KernelIdeal.Points
import proofs.«171894_j11897059410618_1_alg».proof.Proof.Gen.KernelIdeal.Regions
import proofs.«171894_j11897059410618_1_alg».proof.Proof.KI.Reg0
import proofs.«171894_j11897059410618_1_alg».proof.Proof.KI.Reg1
import proofs.«171894_j11897059410618_1_alg».proof.Proof.KI.Reg2
import proofs.«171894_j11897059410618_1_alg».proof.Proof.KI.Reg3
import proofs.«171894_j11897059410618_1_alg».proof.Proof.KI.Reg4
import proofs.«171894_j11897059410618_1_alg».proof.Proof.KI.Reg5
import proofs.«171894_j11897059410618_1_alg».proof.Proof.KI.Reg6
import proofs.«171894_j11897059410618_1_alg».proof.Proof.KI.Reg7
import proofs.«171894_j11897059410618_1_alg».proof.Proof.KI.Reg8
import proofs.«171894_j11897059410618_1_alg».proof.Proof.KI.Reg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at every boundary of @main -/

/-- A core's buffers at launch. -/
abbrev B0 : Dev nD → Valuation τ sig (Elt F) := fun c b => (s₀ m ρ).mem ((c : Dev nD), b)
/-- After the host stretch number 0. -/
abbrev B1 : Dev nD → Valuation τ sig (Elt F) := fun c => StableHlo.after hostOps0 (B0 m ρ c)
/-- The same valuation read at the TensorCore's references. -/
abbrev U1 : (c : Dev nD) → (b : Ref sig .tc) → Buf (Elt F) ((c : Thread nD τ).loc b) := fun c b => B1 m ρ c b
/-- After region 0: its windowed arrays at what its write-backs leave, every other buffer as entered. -/
def B2 (c : Dev nD) : Valuation τ sig (Elt F) :=
  Pipeline.withArrays spec0 c (B1 m ρ c) fun w => (dat0 (U1 m ρ) c).arrAt w cfg0.N
theorem B2_arr (c : Dev nD) (w : Fin cfg0.W) :
    B2 m ρ c (Proc.devRef .tc (Pipeline.arrRef spec0 w)) = (dat0 (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same valuation read at the TensorCore's references. -/
abbrev U2 : (c : Dev nD) → (b : Ref sig .tc) → Buf (Elt F) ((c : Thread nD τ).loc b) := fun c b => B2 m ρ c b
theorem hF0 (c : Dev nD) (w : Fin cfg0.W) : (dat0 (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)
/-- After the host stretch number 1. -/
abbrev B3 : Dev nD → Valuation τ sig (Elt F) := fun c => StableHlo.after hostOps1 (B2 m ρ c)
/-- The same valuation read at the TensorCore's references. -/
abbrev U3 : (c : Dev nD) → (b : Ref sig .tc) → Buf (Elt F) ((c : Thread nD τ).loc b) := fun c b => B3 m ρ c b
/-- After region 1: its windowed arrays at what its write-backs leave, every other buffer as entered. -/
def B4 (c : Dev nD) : Valuation τ sig (Elt F) :=
  Pipeline.withArrays spec1 c (B3 m ρ c) fun w => (dat1 (U3 m ρ) c).arrAt w cfg1.N
theorem B4_arr (c : Dev nD) (w : Fin cfg1.W) :
    B4 m ρ c (Proc.devRef .tc (Pipeline.arrRef spec1 w)) = (dat1 (U3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same valuation read at the TensorCore's references. -/
abbrev U4 : (c : Dev nD) → (b : Ref sig .tc) → Buf (Elt F) ((c : Thread nD τ).loc b) := fun c b => B4 m ρ c b
theorem hF1 (c : Dev nD) (w : Fin cfg1.W) : (dat1 (U3 m ρ) c).arrAt w cfg1.N = U4 m ρ c (Pipeline.arrRef spec1 w) :=
  (B4_arr m ρ c w).symm
theorem hrest1 (c : Dev nD) : ∀ b, b ∉ Finset.univ.image (Pipeline.arrRef spec1) → U4 m ρ c b = U3 m ρ c b :=
  fun b hb => B4_of_ne m ρ c b fun w e => hb (Finset.mem_image.mpr ⟨w, Finset.mem_univ _, e⟩)
/-- After region 2: its windowed arrays at what its write-backs leave, every other buffer as entered. -/
def B5 (c : Dev nD) : Valuation τ sig (Elt F) :=
  Pipeline.withArrays spec2 c (B4 m ρ c) fun w => (dat2 (U4 m ρ) c).arrAt w cfg2.N
theorem B5_arr (c : Dev nD) (w : Fin cfg2.W) :
    B5 m ρ c (Proc.devRef .tc (Pipeline.arrRef spec2 w)) = (dat2 (U4 m ρ) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
/-- The same valuation read at the TensorCore's references. -/
abbrev U5 : (c : Dev nD) → (b : Ref sig .tc) → Buf (Elt F) ((c : Thread nD τ).loc b) := fun c b => B5 m ρ c b
theorem hF2 (c : Dev nD) (w : Fin cfg2.W) : (dat2 (U4 m ρ) c).arrAt w cfg2.N = U5 m ρ c (Pipeline.arrRef spec2 w) :=
  (B5_arr m ρ c w).symm
theorem hrest2 (c : Dev nD) : ∀ b, b ∉ Finset.univ.image (Pipeline.arrRef spec2) → U5 m ρ c b = U4 m ρ c b :=
  fun b hb => B5_of_ne m ρ c b fun w e => hb (Finset.mem_image.mpr ⟨w, Finset.mem_univ _, e⟩)
/-- After region 3: its windowed arrays at what its write-backs leave, every other buffer as entered. -/
def B6 (c : Dev nD) : Valuation τ sig (Elt F) :=
  Pipeline.withArrays spec3 c (B5 m ρ c) fun w => (dat3 (U5 m ρ) c).arrAt w cfg3.N
theorem B6_arr (c : Dev nD) (w : Fin cfg3.W) :
    B6 m ρ c (Proc.devRef .tc (Pipeline.arrRef spec3 w)) = (dat3 (U5 m ρ) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 m ρ c (Proc.devRef .tc b) = B5 m ρ c (Proc.devRef .tc b) := by
  unfold B6; exact Pipeline.withArrays_of_ne spec3 c _ _ b hb
/-- The same valuation read at the TensorCore's references. -/
abbrev U6 : (c : Dev nD) → (b : Ref sig .tc) → Buf (Elt F) ((c : Thread nD τ).loc b) := fun c b => B6 m ρ c b
theorem hF3 (c : Dev nD) (w : Fin cfg3.W) : (dat3 (U5 m ρ) c).arrAt w cfg3.N = U6 m ρ c (Pipeline.arrRef spec3 w) :=
  (B6_arr m ρ c w).symm
theorem hrest3 (c : Dev nD) : ∀ b, b ∉ Finset.univ.image (Pipeline.arrRef spec3) → U6 m ρ c b = U5 m ρ c b :=
  fun b hb => B6_of_ne m ρ c b fun w e => hb (Finset.mem_image.mpr ⟨w, Finset.mem_univ _, e⟩)
/-- After the host stretch number 4. -/
abbrev B7 : Dev nD → Valuation τ sig (Elt F) := fun c => StableHlo.after hostOps4 (B6 m ρ c)
/-- The same valuation read at the TensorCore's references. -/
abbrev U7 : (c : Dev nD) → (b : Ref sig .tc) → Buf (Elt F) ((c : Thread nD τ).loc b) := fun c b => B7 m ρ c b
/-- After region 4: its windowed arrays at what its write-backs leave, every other buffer as entered. -/
def B8 (c : Dev nD) : Valuation τ sig (Elt F) :=
  Pipeline.withArrays spec4 c (B7 m ρ c) fun w => (dat4 (U7 m ρ) c).arrAt w cfg4.N
theorem B8_arr (c : Dev nD) (w : Fin cfg4.W) :
    B8 m ρ c (Proc.devRef .tc (Pipeline.arrRef spec4 w)) = (dat4 (U7 m ρ) c).arrAt w cfg4.N := by
  unfold B8; exact Pipeline.withArrays_arr spec4 launch4.win.arr_inj c _ _ w
theorem B8_of_ne (c : Dev nD) (b : Ref sig .tc) (hb : ∀ w, Pipeline.arrRef spec4 w ≠ b) :
    B8 m ρ c (Proc.devRef .tc b) = B7 m ρ c (Proc.devRef .tc b) := by
  unfold B8; exact Pipeline.withArrays_of_ne spec4 c _ _ b hb
/-- The same valuation read at the TensorCore's references. -/
abbrev U8 : (c : Dev nD) → (b : Ref sig .tc) → Buf (Elt F) ((c : Thread nD τ).loc b) := fun c b => B8 m ρ c b
theorem hF4 (c : Dev nD) (w : Fin cfg4.W) : (dat4 (U7 m ρ) c).arrAt w cfg4.N = U8 m ρ c (Pipeline.arrRef spec4 w) :=
  (B8_arr m ρ c w).symm
theorem hrest4 (c : Dev nD) : ∀ b, b ∉ Finset.univ.image (Pipeline.arrRef spec4) → U8 m ρ c b = U7 m ρ c b :=
  fun b hb => B8_of_ne m ρ c b fun w e => hb (Finset.mem_image.mpr ⟨w, Finset.mem_univ _, e⟩)
/-- After region 5: its windowed arrays at what its write-backs leave, every other buffer as entered. -/
def B9 (c : Dev nD) : Valuation τ sig (Elt F) :=
  Pipeline.withArrays spec5 c (B8 m ρ c) fun w => (dat5 (U8 m ρ) c).arrAt w cfg5.N
theorem B9_arr (c : Dev nD) (w : Fin cfg5.W) :
    B9 m ρ c (Proc.devRef .tc (Pipeline.arrRef spec5 w)) = (dat5 (U8 m ρ) c).arrAt w cfg5.N := by
  unfold B9; exact Pipeline.withArrays_arr spec5 launch5.win.arr_inj c _ _ w
theorem B9_of_ne (c : Dev nD) (b : Ref sig .tc) (hb : ∀ w, Pipeline.arrRef spec5 w ≠ b) :
    B9 m ρ c (Proc.devRef .tc b) = B8 m ρ c (Proc.devRef .tc b) := by
  unfold B9; exact Pipeline.withArrays_of_ne spec5 c _ _ b hb
/-- The same valuation read at the TensorCore's references. -/
abbrev U9 : (c : Dev nD) → (b : Ref sig .tc) → Buf (Elt F) ((c : Thread nD τ).loc b) := fun c b => B9 m ρ c b
theorem hF5 (c : Dev nD) (w : Fin cfg5.W) : (dat5 (U8 m ρ) c).arrAt w cfg5.N = U9 m ρ c (Pipeline.arrRef spec5 w) :=
  (B9_arr m ρ c w).symm
theorem hrest5 (c : Dev nD) : ∀ b, b ∉ Finset.univ.image (Pipeline.arrRef spec5) → U9 m ρ c b = U8 m ρ c b :=
  fun b hb => B9_of_ne m ρ c b fun w e => hb (Finset.mem_image.mpr ⟨w, Finset.mem_univ _, e⟩)
/-- After region 6: its windowed arrays at what its write-backs leave, every other buffer as entered. -/
def B10 (c : Dev nD) : Valuation τ sig (Elt F) :=
  Pipeline.withArrays spec6 c (B9 m ρ c) fun w => (dat6 (U9 m ρ) c).arrAt w cfg6.N
theorem B10_arr (c : Dev nD) (w : Fin cfg6.W) :
    B10 m ρ c (Proc.devRef .tc (Pipeline.arrRef spec6 w)) = (dat6 (U9 m ρ) c).arrAt w cfg6.N := by
  unfold B10; exact Pipeline.withArrays_arr spec6 launch6.win.arr_inj c _ _ w
theorem B10_of_ne (c : Dev nD) (b : Ref sig .tc) (hb : ∀ w, Pipeline.arrRef spec6 w ≠ b) :
    B10 m ρ c (Proc.devRef .tc b) = B9 m ρ c (Proc.devRef .tc b) := by
  unfold B10; exact Pipeline.withArrays_of_ne spec6 c _ _ b hb
/-- The same valuation read at the TensorCore's references. -/
abbrev U10 : (c : Dev nD) → (b : Ref sig .tc) → Buf (Elt F) ((c : Thread nD τ).loc b) := fun c b => B10 m ρ c b
theorem hF6 (c : Dev nD) (w : Fin cfg6.W) : (dat6 (U9 m ρ) c).arrAt w cfg6.N = U10 m ρ c (Pipeline.arrRef spec6 w) :=
  (B10_arr m ρ c w).symm
theorem hrest6 (c : Dev nD) : ∀ b, b ∉ Finset.univ.image (Pipeline.arrRef spec6) → U10 m ρ c b = U9 m ρ c b :=
  fun b hb => B10_of_ne m ρ c b fun w e => hb (Finset.mem_image.mpr ⟨w, Finset.mem_univ _, e⟩)
/-- After the host stretch number 7. -/
abbrev B11 : Dev nD → Valuation τ sig (Elt F) := fun c => StableHlo.after hostOps7 (B10 m ρ c)
/-- The same valuation read at the TensorCore's references. -/
abbrev U11 : (c : Dev nD) → (b : Ref sig .tc) → Buf (Elt F) ((c : Thread nD τ).loc b) := fun c b => B11 m ρ c b
/-- After region 7: its windowed arrays at what its write-backs leave, every other buffer as entered. -/
def B12 (c : Dev nD) : Valuation τ sig (Elt F) :=
  Pipeline.withArrays spec7 c (B11 m ρ c) fun w => (dat7 (U11 m ρ) c).arrAt w cfg7.N
theorem B12_arr (c : Dev nD) (w : Fin cfg7.W) :
    B12 m ρ c (Proc.devRef .tc (Pipeline.arrRef spec7 w)) = (dat7 (U11 m ρ) c).arrAt w cfg7.N := by
  unfold B12; exact Pipeline.withArrays_arr spec7 launch7.win.arr_inj c _ _ w
theorem B12_of_ne (c : Dev nD) (b : Ref sig .tc) (hb : ∀ w, Pipeline.arrRef spec7 w ≠ b) :
    B12 m ρ c (Proc.devRef .tc b) = B11 m ρ c (Proc.devRef .tc b) := by
  unfold B12; exact Pipeline.withArrays_of_ne spec7 c _ _ b hb
/-- The same valuation read at the TensorCore's references. -/
abbrev U12 : (c : Dev nD) → (b : Ref sig .tc) → Buf (Elt F) ((c : Thread nD τ).loc b) := fun c b => B12 m ρ c b
theorem hF7 (c : Dev nD) (w : Fin cfg7.W) : (dat7 (U11 m ρ) c).arrAt w cfg7.N = U12 m ρ c (Pipeline.arrRef spec7 w) :=
  (B12_arr m ρ c w).symm
theorem hrest7 (c : Dev nD) : ∀ b, b ∉ Finset.univ.image (Pipeline.arrRef spec7) → U12 m ρ c b = U11 m ρ c b :=
  fun b hb => B12_of_ne m ρ c b fun w e => hb (Finset.mem_image.mpr ⟨w, Finset.mem_univ _, e⟩)
/-- After region 8: its windowed arrays at what its write-backs leave, every other buffer as entered. -/
def B13 (c : Dev nD) : Valuation τ sig (Elt F) :=
  Pipeline.withArrays spec8 c (B12 m ρ c) fun w => (dat8 (U12 m ρ) c).arrAt w cfg8.N
theorem B13_arr (c : Dev nD) (w : Fin cfg8.W) :
    B13 m ρ c (Proc.devRef .tc (Pipeline.arrRef spec8 w)) = (dat8 (U12 m ρ) c).arrAt w cfg8.N := by
  unfold B13; exact Pipeline.withArrays_arr spec8 launch8.win.arr_inj c _ _ w
theorem B13_of_ne (c : Dev nD) (b : Ref sig .tc) (hb : ∀ w, Pipeline.arrRef spec8 w ≠ b) :
    B13 m ρ c (Proc.devRef .tc b) = B12 m ρ c (Proc.devRef .tc b) := by
  unfold B13; exact Pipeline.withArrays_of_ne spec8 c _ _ b hb
/-- The same valuation read at the TensorCore's references. -/
abbrev U13 : (c : Dev nD) → (b : Ref sig .tc) → Buf (Elt F) ((c : Thread nD τ).loc b) := fun c b => B13 m ρ c b
theorem hF8 (c : Dev nD) (w : Fin cfg8.W) : (dat8 (U12 m ρ) c).arrAt w cfg8.N = U13 m ρ c (Pipeline.arrRef spec8 w) :=
  (B13_arr m ρ c w).symm
theorem hrest8 (c : Dev nD) : ∀ b, b ∉ Finset.univ.image (Pipeline.arrRef spec8) → U13 m ρ c b = U12 m ρ c b :=
  fun b hb => B13_of_ne m ρ c b fun w e => hb (Finset.mem_image.mpr ⟨w, Finset.mem_univ _, e⟩)
/-- After the host stretch number 9. -/
abbrev B14 : Dev nD → Valuation τ sig (Elt F) := fun c => StableHlo.after hostOps9 (B13 m ρ c)
/-- The same valuation read at the TensorCore's references. -/
abbrev U14 : (c : Dev nD) → (b : Ref sig .tc) → Buf (Elt F) ((c : Thread nD τ).loc b) := fun c b => B14 m ρ c b
/-- After region 9: its windowed arrays at what its write-backs leave, every other buffer as entered. -/
def B15 (c : Dev nD) : Valuation τ sig (Elt F) :=
  Pipeline.withArrays spec9 c (B14 m ρ c) fun w => (dat9 (U14 m ρ) c).arrAt w cfg9.N
theorem B15_arr (c : Dev nD) (w : Fin cfg9.W) :
    B15 m ρ c (Proc.devRef .tc (Pipeline.arrRef spec9 w)) = (dat9 (U14 m ρ) c).arrAt w cfg9.N := by
  unfold B15; exact Pipeline.withArrays_arr spec9 launch9.win.arr_inj c _ _ w
theorem B15_of_ne (c : Dev nD) (b : Ref sig .tc) (hb : ∀ w, Pipeline.arrRef spec9 w ≠ b) :
    B15 m ρ c (Proc.devRef .tc b) = B14 m ρ c (Proc.devRef .tc b) := by
  unfold B15; exact Pipeline.withArrays_of_ne spec9 c _ _ b hb
/-- The same valuation read at the TensorCore's references. -/
abbrev U15 : (c : Dev nD) → (b : Ref sig .tc) → Buf (Elt F) ((c : Thread nD τ).loc b) := fun c b => B15 m ρ c b
theorem hF9 (c : Dev nD) (w : Fin cfg9.W) : (dat9 (U14 m ρ) c).arrAt w cfg9.N = U15 m ρ c (Pipeline.arrRef spec9 w) :=
  (B15_arr m ρ c w).symm
theorem hrest9 (c : Dev nD) : ∀ b, b ∉ Finset.univ.image (Pipeline.arrRef spec9) → U15 m ρ c b = U14 m ρ c b :=
  fun b hb => B15_of_ne m ρ c b fun w e => hb (Finset.mem_image.mpr ⟨w, Finset.mem_univ _, e⟩)
/-- After the host stretch number 10. -/
abbrev B16 : Dev nD → Valuation τ sig (Elt F) := fun c => StableHlo.after hostOps10 (B15 m ρ c)
/-- The same valuation read at the TensorCore's references. -/
abbrev U16 : (c : Dev nD) → (b : Ref sig .tc) → Buf (Elt F) ((c : Thread nD τ).loc b) := fun c b => B16 m ρ c b

/-! ## The proof data family and the thread state -/

/-- Every region's proof data, each at its region's entry contents. -/
def rdats : (p : Fin 10) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U4 m ρ) c
  | ⟨3, _⟩ => fun c => dat3 (U5 m ρ) c
  | ⟨4, _⟩ => fun c => dat4 (U7 m ρ) c
  | ⟨5, _⟩ => fun c => dat5 (U8 m ρ) c
  | ⟨6, _⟩ => fun c => dat6 (U9 m ρ) c
  | ⟨7, _⟩ => fun c => dat7 (U11 m ρ) c
  | ⟨8, _⟩ => fun c => dat8 (U12 m ρ) c
  | ⟨9, _⟩ => fun c => dat9 (U14 m ρ) c
  | ⟨n + 10, h⟩ => absurd h (by omega)
/-- No core owes another anything: no level is assigned. -/
abbrev Lz : GSem nD τ sig → Finset Unit := fun _ => ∅
abbrev lvz : GSem nD τ sig → Unit → ℕ := fun _ _ => 0
/-- What rides beside the buffers through every item: the core's generator register at some state and its dues, none. -/
abbrev Rc (c : Dev nD) : sProp 𝕄 := iprop((∃ r, prngReg c r) ∗ ∃ W, owes (c : Thread nD τ) (0 : CellTallies nD τ sig Unit) W)
/-- A host stretch as an item: from the unscoped buffers at a valuation to the same buffers after the stretch's operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rc
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items -/

set_option backward.isDefEq.respectTransparency.types false in
/-- Region 0: entered with every unscoped buffer at boundary 1's contents, left at boundary 2's. Its arrays are
    split out of the unscoped buffers and put back at what the region leaves; the generator register goes into the
    region's invariant and comes back; nothing is owed; the kernel has no semaphore of its own. -/
def reg0 : Pipeline.RegionSeg (pcfgs (F := F)) adm (rdats m ρ) () defs₀ Variants.none Lz lvz 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lz lvz 0 fun _ _ => rfl
  pre c := iprop(StableHlo.held (c : Thread nD τ) (Pipeline.ucRefs τ sig) (B1 m ρ c) ∗ Rc c)
  post c := iprop(StableHlo.held (c : Thread nD τ) (Pipeline.ucRefs τ sig) (B2 m ρ c) ∗ Rc c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (rdats m ρ) launch0.win launch0.arr_whole c
      ((rdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (rdats m ρ) ((rdats m ρ 0 c).share_full fun _ => rfl)
      (U1 m ρ c) (U2 m ρ c) ((rdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at boundary 3's contents, left at boundary 4's. Its arrays are
    split out of the unscoped buffers and put back at what the region leaves; the generator register goes into the
    region's invariant and comes back; nothing is owed; the kernel has no semaphore of its own. -/
def reg1 : Pipeline.RegionSeg (pcfgs (F := F)) adm (rdats m ρ) () defs₀ Variants.none Lz lvz 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lz lvz 1 fun _ _ => rfl
  pre c := iprop(StableHlo.held (c : Thread nD τ) (Pipeline.ucRefs τ sig) (B3 m ρ c) ∗ Rc c)
  post c := iprop(StableHlo.held (c : Thread nD τ) (Pipeline.ucRefs τ sig) (B4 m ρ c) ∗ Rc c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (rdats m ρ) launch1.win launch1.arr_whole c
      ((rdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = (dat1 (U3 m ρ) c).Φ 0 from rfl]
    iintro ⟨Hp, -, Hr⟩
    iapply (hin1 (U3 m ρ) c)
    isplitl [Hp]; · iexact Hp
    iexact Hr
  hout c := by
    rw [Pipeline.ownSems0_none, show (rdats m ρ 1 c).Φ (Fin.last _) = (dat1 (U3 m ρ) c).Φ (Fin.last cfg1.N) from rfl]
    iintro H
    ihave H' := (hout1 (U3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (rdats m ρ) ((rdats m ρ 1 c).share_full fun _ => rfl)
      (U3 m ρ c) (U4 m ρ c) ((rdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at boundary 4's contents, left at boundary 5's. Its arrays are
    split out of the unscoped buffers and put back at what the region leaves; the generator register goes into the
    region's invariant and comes back; nothing is owed; the kernel has no semaphore of its own. -/
def reg2 : Pipeline.RegionSeg (pcfgs (F := F)) adm (rdats m ρ) () defs₀ Variants.none Lz lvz 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ Lz lvz 2 fun _ _ => rfl
  pre c := iprop(StableHlo.held (c : Thread nD τ) (Pipeline.ucRefs τ sig) (B4 m ρ c) ∗ Rc c)
  post c := iprop(StableHlo.held (c : Thread nD τ) (Pipeline.ucRefs τ sig) (B5 m ρ c) ∗ Rc c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm (rdats m ρ) launch2.win launch2.arr_whole c
      ((rdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (rdats m ρ) ((rdats m ρ 2 c).share_full fun _ => rfl)
      (U4 m ρ c) (U5 m ρ c) ((rdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at boundary 5's contents, left at boundary 6's. Its arrays are
    split out of the unscoped buffers and put back at what the region leaves; the generator register goes into the
    region's invariant and comes back; nothing is owed; the kernel has no semaphore of its own. -/
def reg3 : Pipeline.RegionSeg (pcfgs (F := F)) adm (rdats m ρ) () defs₀ Variants.none Lz lvz 3 where
  win := launch3.win.to₀
  block_pos := launch3.block_pos
  stage_whole := launch3.stage_whole
  K := PEmpty
  osem k := k.elim
  ho := Pipeline.OwnSemFacts.none _
  hbody c := (body_obligation3 (U5 m ρ) c).loose
  hwaits := Pipeline.hwaits_of_owed_zero _ _ _ _ Lz lvz 3 fun _ _ => rfl
  pre c := iprop(StableHlo.held (c : Thread nD τ) (Pipeline.ucRefs τ sig) (B5 m ρ c) ∗ Rc c)
  post c := iprop(StableHlo.held (c : Thread nD τ) (Pipeline.ucRefs τ sig) (B6 m ρ c) ∗ Rc c)
  X c := iprop(∃ r, prngReg c r)
  Y c := iprop(∃ r, prngReg c r)
  Z c := Pipeline.unscopedRest (Ix := Unit) (Name := ℕ) (U := UR sig nD τ) (Lvl := ℕ) spec3 c (U5 m ρ c)
  hentry c := by
    rw [Pipeline.ownSems0_none]
    have hsplit := Pipeline.arrays_of_unscopedBufs (p := 3) (pcfgs (F := F)) adm (rdats m ρ) launch3.win launch3.arr_whole c
      ((rdats m ρ 3 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (rdats m ρ) ((rdats m ρ 3 c).share_full fun _ => rfl)
      (U5 m ρ c) (U6 m ρ c) ((rdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at boundary 7's contents, left at boundary 8's. Its arrays are
    split out of the unscoped buffers and put back at what the region leaves; the generator register goes into the
    region's invariant and comes back; nothing is owed; the kernel has no semaphore of its own. -/
def reg4 : Pipeline.RegionSeg (pcfgs (F := F)) adm (rdats m ρ) () defs₀ Variants.none Lz lvz 4 where
  win := launch4.win.to₀
  block_pos := launch4.block_pos
  stage_whole := launch4.stage_whole
  K := PEmpty
  osem k := k.elim
  ho := Pipeline.OwnSemFacts.none _
  hbody c := (body_obligation4 (U7 m ρ) c).loose
  hwaits := Pipeline.hwaits_of_owed_zero _ _ _ _ Lz lvz 4 fun _ _ => rfl
  pre c := iprop(StableHlo.held (c : Thread nD τ) (Pipeline.ucRefs τ sig) (B7 m ρ c) ∗ Rc c)
  post c := iprop(StableHlo.held (c : Thread nD τ) (Pipeline.ucRefs τ sig) (B8 m ρ c) ∗ Rc c)
  X c := iprop(∃ r, prngReg c r)
  Y c := iprop(∃ r, prngReg c r)
  Z c := Pipeline.unscopedRest (Ix := Unit) (Name := ℕ) (U := UR sig nD τ) (Lvl := ℕ) spec4 c (U7 m ρ c)
  hentry c := by
    rw [Pipeline.ownSems0_none]
    have hsplit := Pipeline.arrays_of_unscopedBufs (p := 4) (pcfgs (F := F)) adm (rdats m ρ) launch4.win launch4.arr_whole c
      ((rdats m ρ 4 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 4 c).Φ 0 = (dat4 (U7 m ρ) c).Φ 0 from rfl]
    iintro ⟨Hp, -, Hr⟩
    iapply (hin4 (U7 m ρ) c)
    isplitl [Hp]; · iexact Hp
    iexact Hr
  hout c := by
    rw [Pipeline.ownSems0_none, show (rdats m ρ 4 c).Φ (Fin.last _) = (dat4 (U7 m ρ) c).Φ (Fin.last cfg4.N) from rfl]
    iintro H
    ihave H' := (hout4 (U7 m ρ) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (rdats m ρ) ((rdats m ρ 4 c).share_full fun _ => rfl)
      (U7 m ρ c) (U8 m ρ c) ((rdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at boundary 8's contents, left at boundary 9's. Its arrays are
    split out of the unscoped buffers and put back at what the region leaves; the generator register goes into the
    region's invariant and comes back; nothing is owed; the kernel has no semaphore of its own. -/
def reg5 : Pipeline.RegionSeg (pcfgs (F := F)) adm (rdats m ρ) () defs₀ Variants.none Lz lvz 5 where
  win := launch5.win.to₀
  block_pos := launch5.block_pos
  stage_whole := launch5.stage_whole
  K := PEmpty
  osem k := k.elim
  ho := Pipeline.OwnSemFacts.none _
  hbody c := (body_obligation5 (U8 m ρ) c).loose
  hwaits := Pipeline.hwaits_of_owed_zero _ _ _ _ Lz lvz 5 fun _ _ => rfl
  pre c := iprop(StableHlo.held (c : Thread nD τ) (Pipeline.ucRefs τ sig) (B8 m ρ c) ∗ Rc c)
  post c := iprop(StableHlo.held (c : Thread nD τ) (Pipeline.ucRefs τ sig) (B9 m ρ c) ∗ Rc c)
  X c := iprop(∃ r, prngReg c r)
  Y c := iprop(∃ r, prngReg c r)
  Z c := Pipeline.unscopedRest (Ix := Unit) (Name := ℕ) (U := UR sig nD τ) (Lvl := ℕ) spec5 c (U8 m ρ c)
  hentry c := by
    rw [Pipeline.ownSems0_none]
    have hsplit := Pipeline.arrays_of_unscopedBufs (p := 5) (pcfgs (F := F)) adm (rdats m ρ) launch5.win launch5.arr_whole c
      ((rdats m ρ 5 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (rdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (rdats m ρ) ((rdats m ρ 5 c).share_full fun _ => rfl)
      (U8 m ρ c) (U9 m ρ c) ((rdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered with every unscoped buffer at boundary 9's contents, left at boundary 10's. Its arrays are
    split out of the unscoped buffers and put back at what the region leaves; the generator register goes into the
    region's invariant and comes back; nothing is owed; the kernel has no semaphore of its own. -/
def reg6 : Pipeline.RegionSeg (pcfgs (F := F)) adm (rdats m ρ) () defs₀ Variants.none Lz lvz 6 where
  win := launch6.win.to₀
  block_pos := launch6.block_pos
  stage_whole := launch6.stage_whole
  K := PEmpty
  osem k := k.elim
  ho := Pipeline.OwnSemFacts.none _
  hbody c := (body_obligation6 (U9 m ρ) c).loose
  hwaits := Pipeline.hwaits_of_owed_zero _ _ _ _ Lz lvz 6 fun _ _ => rfl
  pre c := iprop(StableHlo.held (c : Thread nD τ) (Pipeline.ucRefs τ sig) (B9 m ρ c) ∗ Rc c)
  post c := iprop(StableHlo.held (c : Thread nD τ) (Pipeline.ucRefs τ sig) (B10 m ρ c) ∗ Rc c)
  X c := iprop(∃ r, prngReg c r)
  Y c := iprop(∃ r, prngReg c r)
  Z c := Pipeline.unscopedRest (Ix := Unit) (Name := ℕ) (U := UR sig nD τ) (Lvl := ℕ) spec6 c (U9 m ρ c)
  hentry c := by
    rw [Pipeline.ownSems0_none]
    have hsplit := Pipeline.arrays_of_unscopedBufs (p := 6) (pcfgs (F := F)) adm (rdats m ρ) launch6.win launch6.arr_whole c
      ((rdats m ρ 6 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (rdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (rdats m ρ) ((rdats m ρ 6 c).share_full fun _ => rfl)
      (U9 m ρ c) (U10 m ρ c) ((rdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered with every unscoped buffer at boundary 11's contents, left at boundary 12's. Its arrays are
    split out of the unscoped buffers and put back at what the region leaves; the generator register goes into the
    region's invariant and comes back; nothing is owed; the kernel has no semaphore of its own. -/
def reg7 : Pipeline.RegionSeg (pcfgs (F := F)) adm (rdats m ρ) () defs₀ Variants.none Lz lvz 7 where
  win := launch7.win.to₀
  block_pos := launch7.block_pos
  stage_whole := launch7.stage_whole
  K := PEmpty
  osem k := k.elim
  ho := Pipeline.OwnSemFacts.none _
  hbody c := (body_obligation7 (U11 m ρ) c).loose
  hwaits := Pipeline.hwaits_of_owed_zero _ _ _ _ Lz lvz 7 fun _ _ => rfl
  pre c := iprop(StableHlo.held (c : Thread nD τ) (Pipeline.ucRefs τ sig) (B11 m ρ c) ∗ Rc c)
  post c := iprop(StableHlo.held (c : Thread nD τ) (Pipeline.ucRefs τ sig) (B12 m ρ c) ∗ Rc c)
  X c := iprop(∃ r, prngReg c r)
  Y c := iprop(∃ r, prngReg c r)
  Z c := Pipeline.unscopedRest (Ix := Unit) (Name := ℕ) (U := UR sig nD τ) (Lvl := ℕ) spec7 c (U11 m ρ c)
  hentry c := by
    rw [Pipeline.ownSems0_none]
    have hsplit := Pipeline.arrays_of_unscopedBufs (p := 7) (pcfgs (F := F)) adm (rdats m ρ) launch7.win launch7.arr_whole c
      ((rdats m ρ 7 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 7 c).Φ 0 = (dat7 (U11 m ρ) c).Φ 0 from rfl]
    iintro ⟨Hp, -, Hr⟩
    iapply (hin7 (U11 m ρ) c)
    isplitl [Hp]; · iexact Hp
    iexact Hr
  hout c := by
    rw [Pipeline.ownSems0_none, show (rdats m ρ 7 c).Φ (Fin.last _) = (dat7 (U11 m ρ) c).Φ (Fin.last cfg7.N) from rfl]
    iintro H
    ihave H' := (hout7 (U11 m ρ) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (rdats m ρ) ((rdats m ρ 7 c).share_full fun _ => rfl)
      (U11 m ρ c) (U12 m ρ c) ((rdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered with every unscoped buffer at boundary 12's contents, left at boundary 13's. Its arrays are
    split out of the unscoped buffers and put back at what the region leaves; the generator register goes into the
    region's invariant and comes back; nothing is owed; the kernel has no semaphore of its own. -/
def reg8 : Pipeline.RegionSeg (pcfgs (F := F)) adm (rdats m ρ) () defs₀ Variants.none Lz lvz 8 where
  win := launch8.win.to₀
  block_pos := launch8.block_pos
  stage_whole := launch8.stage_whole
  K := PEmpty
  osem k := k.elim
  ho := Pipeline.OwnSemFacts.none _
  hbody c := (body_obligation8 (U12 m ρ) c).loose
  hwaits := Pipeline.hwaits_of_owed_zero _ _ _ _ Lz lvz 8 fun _ _ => rfl
  pre c := iprop(StableHlo.held (c : Thread nD τ) (Pipeline.ucRefs τ sig) (B12 m ρ c) ∗ Rc c)
  post c := iprop(StableHlo.held (c : Thread nD τ) (Pipeline.ucRefs τ sig) (B13 m ρ c) ∗ Rc c)
  X c := iprop(∃ r, prngReg c r)
  Y c := iprop(∃ r, prngReg c r)
  Z c := Pipeline.unscopedRest (Ix := Unit) (Name := ℕ) (U := UR sig nD τ) (Lvl := ℕ) spec8 c (U12 m ρ c)
  hentry c := by
    rw [Pipeline.ownSems0_none]
    have hsplit := Pipeline.arrays_of_unscopedBufs (p := 8) (pcfgs (F := F)) adm (rdats m ρ) launch8.win launch8.arr_whole c
      ((rdats m ρ 8 c).share_full fun _ => rfl) (U12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (rdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (rdats m ρ) ((rdats m ρ 8 c).share_full fun _ => rfl)
      (U12 m ρ c) (U13 m ρ c) ((rdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered with every unscoped buffer at boundary 14's contents, left at boundary 15's. Its arrays are
    split out of the unscoped buffers and put back at what the region leaves; the generator register goes into the
    region's invariant and comes back; nothing is owed; the kernel has no semaphore of its own. -/
def reg9 : Pipeline.RegionSeg (pcfgs (F := F)) adm (rdats m ρ) () defs₀ Variants.none Lz lvz 9 where
  win := launch9.win.to₀
  block_pos := launch9.block_pos
  stage_whole := launch9.stage_whole
  K := PEmpty
  osem k := k.elim
  ho := Pipeline.OwnSemFacts.none _
  hbody c := (body_obligation9 (U14 m ρ) c).loose
  hwaits := Pipeline.hwaits_of_owed_zero _ _ _ _ Lz lvz 9 fun _ _ => rfl
  pre c := iprop(StableHlo.held (c : Thread nD τ) (Pipeline.ucRefs τ sig) (B14 m ρ c) ∗ Rc c)
  post c := iprop(StableHlo.held (c : Thread nD τ) (Pipeline.ucRefs τ sig) (B15 m ρ c) ∗ Rc c)
  X c := iprop(∃ r, prngReg c r)
  Y c := iprop(∃ r, prngReg c r)
  Z c := Pipeline.unscopedRest (Ix := Unit) (Name := ℕ) (U := UR sig nD τ) (Lvl := ℕ) spec9 c (U14 m ρ c)
  hentry c := by
    rw [Pipeline.ownSems0_none]
    have hsplit := Pipeline.arrays_of_unscopedBufs (p := 9) (pcfgs (F := F)) adm (rdats m ρ) launch9.win launch9.arr_whole c
      ((rdats m ρ 9 c).share_full fun _ => rfl) (U14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (rdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (rdats m ρ) ((rdats m ρ 9 c).share_full fun _ => rfl)
      (U14 m ρ c) (U15 m ρ c) ((rdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's sixteen items in order. -/
abbrev rsegs : List (Pipeline.Seg (pcfgs (F := F)) adm (rdats m ρ) () defs₀ Variants.none Lz lvz) :=
  [ .host (hseg hostOps0 hostOps0_sub hostOps0_fresh (B0 m ρ)),
    .region (reg0 m ρ),
    .host (hseg hostOps1 hostOps1_sub hostOps1_fresh (B2 m ρ)),
    .region (reg1 m ρ),
    .region (reg2 m ρ),
    .region (reg3 m ρ),
    .host (hseg hostOps4 hostOps4_sub hostOps4_fresh (B6 m ρ)),
    .region (reg4 m ρ),
    .region (reg5 m ρ),
    .region (reg6 m ρ),
    .host (hseg hostOps7 hostOps7_sub hostOps7_fresh (B10 m ρ)),
    .region (reg7 m ρ),
    .region (reg8 m ρ),
    .host (hseg hostOps9 hostOps9_sub hostOps9_fresh (B13 m ρ)),
    .region (reg9 m ρ),
    .host (hseg hostOps10 hostOps10_sub hostOps10_fresh (B15 m ρ)) ]
theorem main_run (c : Dev nD) : main (F := F) c = Pipeline.Seg.run (rsegs m ρ) := (main_chain c).trans (by chain_rfl)

set_option backward.isDefEq.respectTransparency.types false in
/-- Every weakly fair execution of @main from the launch memory with zero counters terminates without a fault, and in
    the final memory every unscoped buffer of every core holds the last boundary's contents. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = B16 m ρ c b) :=
  Pipeline.θ_run_regions_kit (pcfgs (F := F)) adm (rdats m ρ) () cellOf_inj emb₁ defs₀ Variants.none Lz lvz m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rc c))
    (Tₙ := fun c => iprop(StableHlo.held (c : Thread nD τ) (Pipeline.ucRefs τ sig) (B16 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (B16 m ρ c) ∗ Rc c) : sProp 𝕄) ⊢ _
      iintro ⟨Hh, Hp, HO⟩
      isplitr [HO]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m ρ c b)
    (hfin := fun c s' => by
      iintro ⟨⟨Hh, -⟩, HSI⟩
      unfold StableHlo.held
      imodintro
      iapply (pointsTo_read_all (Pipeline.ucRefs τ sig) (fun b => (((c : Thread nD τ)).1, b)) (B16 m ρ c) s')
      isplitl [Hh] <;> iassumption)
    (hQ := fun s h c => h c)

/-! ## Reading the last valuation back -/

/-- Region 0 only reads the array of its input window 0: it leaves the region as it entered. -/
theorem B2_in_0 (c : Dev nD) : B2 m ρ c (Proc.devRef .tc main_arg0) = B1 m ρ c (Proc.devRef .tc main_arg0) :=
  (B2_arr m ρ c 0).trans (((dat0 (U1 m ρ) c).arrAt_in 0 rfl _).trans (A_eq0 (U1 m ρ) c 0))
/-- Region 0 only reads the array of its input window 1: it leaves the region as it entered. -/
theorem B2_in_1 (c : Dev nD) : B2 m ρ c (Proc.devRef .tc main_arg4) = B1 m ρ c (Proc.devRef .tc main_arg4) :=
  (B2_arr m ρ c 1).trans (((dat0 (U1 m ρ) c).arrAt_in 1 rfl _).trans (A_eq0 (U1 m ρ) c 1))
/-- Region 1 only reads the array of its input window 0: it leaves the region as it entered. -/
theorem B4_in_0 (c : Dev nD) : B4 m ρ c (Proc.devRef .tc main_v44) = B3 m ρ c (Proc.devRef .tc main_v44) :=
  (B4_arr m ρ c 0).trans (((dat1 (U3 m ρ) c).arrAt_in 0 rfl _).trans (A_eq1 (U3 m ρ) c 0))
/-- Region 1 only reads the array of its input window 1: it leaves the region as it entered. -/
theorem B4_in_1 (c : Dev nD) : B4 m ρ c (Proc.devRef .tc main_v45) = B3 m ρ c (Proc.devRef .tc main_v45) :=
  (B4_arr m ρ c 1).trans (((dat1 (U3 m ρ) c).arrAt_in 1 rfl _).trans (A_eq1 (U3 m ρ) c 1))
/-- Region 2 only reads the array of its input window 0: it leaves the region as it entered. -/
theorem B5_in_0 (c : Dev nD) : B5 m ρ c (Proc.devRef .tc main_v44) = B4 m ρ c (Proc.devRef .tc main_v44) :=
  (B5_arr m ρ c 0).trans (((dat2 (U4 m ρ) c).arrAt_in 0 rfl _).trans (A_eq2 (U4 m ρ) c 0))
/-- Region 2 only reads the array of its input window 1: it leaves the region as it entered. -/
theorem B5_in_1 (c : Dev nD) : B5 m ρ c (Proc.devRef .tc main_v45) = B4 m ρ c (Proc.devRef .tc main_v45) :=
  (B5_arr m ρ c 1).trans (((dat2 (U4 m ρ) c).arrAt_in 1 rfl _).trans (A_eq2 (U4 m ρ) c 1))
/-- Region 2 only reads the array of its input window 2: it leaves the region as it entered. -/
theorem B5_in_2 (c : Dev nD) : B5 m ρ c (Proc.devRef .tc main_v48_0) = B4 m ρ c (Proc.devRef .tc main_v48_0) :=
  (B5_arr m ρ c 2).trans (((dat2 (U4 m ρ) c).arrAt_in 2 rfl _).trans (A_eq2 (U4 m ρ) c 2))
/-- Region 2 only reads the array of its input window 3: it leaves the region as it entered. -/
theorem B5_in_3 (c : Dev nD) : B5 m ρ c (Proc.devRef .tc main_v48_1) = B4 m ρ c (Proc.devRef .tc main_v48_1) :=
  (B5_arr m ρ c 3).trans (((dat2 (U4 m ρ) c).arrAt_in 3 rfl _).trans (A_eq2 (U4 m ρ) c 3))
/-- Region 2 only reads the array of its input window 4: it leaves the region as it entered. -/
theorem B5_in_4 (c : Dev nD) : B5 m ρ c (Proc.devRef .tc main_v46) = B4 m ρ c (Proc.devRef .tc main_v46) :=
  (B5_arr m ρ c 4).trans (((dat2 (U4 m ρ) c).arrAt_in 4 rfl _).trans (A_eq2 (U4 m ρ) c 4))
/-- Region 2 only reads the array of its input window 5: it leaves the region as it entered. -/
theorem B5_in_5 (c : Dev nD) : B5 m ρ c (Proc.devRef .tc main_v47) = B4 m ρ c (Proc.devRef .tc main_v47) :=
  (B5_arr m ρ c 5).trans (((dat2 (U4 m ρ) c).arrAt_in 5 rfl _).trans (A_eq2 (U4 m ρ) c 5))
/-- Region 3 only reads the array of its input window 0: it leaves the region as it entered. -/
theorem B6_in_0 (c : Dev nD) : B6 m ρ c (Proc.devRef .tc main_v49) = B5 m ρ c (Proc.devRef .tc main_v49) :=
  (B6_arr m ρ c 0).trans (((dat3 (U5 m ρ) c).arrAt_in 0 rfl _).trans (A_eq3 (U5 m ρ) c 0))
/-- Region 3 only reads the array of its input window 1: it leaves the region as it entered. -/
theorem B6_in_1 (c : Dev nD) : B6 m ρ c (Proc.devRef .tc main_arg8) = B5 m ρ c (Proc.devRef .tc main_arg8) :=
  (B6_arr m ρ c 1).trans (((dat3 (U5 m ρ) c).arrAt_in 1 rfl _).trans (A_eq3 (U5 m ρ) c 1))
/-- Region 4 only reads the array of its input window 0: it leaves the region as it entered. -/
theorem B8_in_0 (c : Dev nD) : B8 m ρ c (Proc.devRef .tc main_v83) = B7 m ρ c (Proc.devRef .tc main_v83) :=
  (B8_arr m ρ c 0).trans (((dat4 (U7 m ρ) c).arrAt_in 0 rfl _).trans (A_eq4 (U7 m ρ) c 0))
/-- Region 4 only reads the array of its input window 1: it leaves the region as it entered. -/
theorem B8_in_1 (c : Dev nD) : B8 m ρ c (Proc.devRef .tc main_v84) = B7 m ρ c (Proc.devRef .tc main_v84) :=
  (B8_arr m ρ c 1).trans (((dat4 (U7 m ρ) c).arrAt_in 1 rfl _).trans (A_eq4 (U7 m ρ) c 1))
/-- Region 5 only reads the array of its input window 0: it leaves the region as it entered. -/
theorem B9_in_0 (c : Dev nD) : B9 m ρ c (Proc.devRef .tc main_v83) = B8 m ρ c (Proc.devRef .tc main_v83) :=
  (B9_arr m ρ c 0).trans (((dat5 (U8 m ρ) c).arrAt_in 0 rfl _).trans (A_eq5 (U8 m ρ) c 0))
/-- Region 5 only reads the array of its input window 1: it leaves the region as it entered. -/
theorem B9_in_1 (c : Dev nD) : B9 m ρ c (Proc.devRef .tc main_v84) = B8 m ρ c (Proc.devRef .tc main_v84) :=
  (B9_arr m ρ c 1).trans (((dat5 (U8 m ρ) c).arrAt_in 1 rfl _).trans (A_eq5 (U8 m ρ) c 1))
/-- Region 5 only reads the array of its input window 2: it leaves the region as it entered. -/
theorem B9_in_2 (c : Dev nD) : B9 m ρ c (Proc.devRef .tc main_v87_0) = B8 m ρ c (Proc.devRef .tc main_v87_0) :=
  (B9_arr m ρ c 2).trans (((dat5 (U8 m ρ) c).arrAt_in 2 rfl _).trans (A_eq5 (U8 m ρ) c 2))
/-- Region 5 only reads the array of its input window 3: it leaves the region as it entered. -/
theorem B9_in_3 (c : Dev nD) : B9 m ρ c (Proc.devRef .tc main_v87_1) = B8 m ρ c (Proc.devRef .tc main_v87_1) :=
  (B9_arr m ρ c 3).trans (((dat5 (U8 m ρ) c).arrAt_in 3 rfl _).trans (A_eq5 (U8 m ρ) c 3))
/-- Region 5 only reads the array of its input window 4: it leaves the region as it entered. -/
theorem B9_in_4 (c : Dev nD) : B9 m ρ c (Proc.devRef .tc main_v85) = B8 m ρ c (Proc.devRef .tc main_v85) :=
  (B9_arr m ρ c 4).trans (((dat5 (U8 m ρ) c).arrAt_in 4 rfl _).trans (A_eq5 (U8 m ρ) c 4))
/-- Region 5 only reads the array of its input window 5: it leaves the region as it entered. -/
theorem B9_in_5 (c : Dev nD) : B9 m ρ c (Proc.devRef .tc main_v86) = B8 m ρ c (Proc.devRef .tc main_v86) :=
  (B9_arr m ρ c 5).trans (((dat5 (U8 m ρ) c).arrAt_in 5 rfl _).trans (A_eq5 (U8 m ρ) c 5))
/-- Region 5 only reads the array of its input window 6: it leaves the region as it entered. -/
theorem B9_in_6 (c : Dev nD) : B9 m ρ c (Proc.devRef .tc main_v49) = B8 m ρ c (Proc.devRef .tc main_v49) :=
  (B9_arr m ρ c 6).trans (((dat5 (U8 m ρ) c).arrAt_in 6 rfl _).trans (A_eq5 (U8 m ρ) c 6))
/-- Region 6 only reads the array of its input window 0: it leaves the region as it entered. -/
theorem B10_in_0 (c : Dev nD) : B10 m ρ c (Proc.devRef .tc main_v88) = B9 m ρ c (Proc.devRef .tc main_v88) :=
  (B10_arr m ρ c 0).trans (((dat6 (U9 m ρ) c).arrAt_in 0 rfl _).trans (A_eq6 (U9 m ρ) c 0))
/-- Region 6 only reads the array of its input window 1: it leaves the region as it entered. -/
theorem B10_in_1 (c : Dev nD) : B10 m ρ c (Proc.devRef .tc main_arg12) = B9 m ρ c (Proc.devRef .tc main_arg12) :=
  (B10_arr m ρ c 1).trans (((dat6 (U9 m ρ) c).arrAt_in 1 rfl _).trans (A_eq6 (U9 m ρ) c 1))
/-- Region 7 only reads the array of its input window 0: it leaves the region as it entered. -/
theorem B12_in_0 (c : Dev nD) : B12 m ρ c (Proc.devRef .tc main_v122) = B11 m ρ c (Proc.devRef .tc main_v122) :=
  (B12_arr m ρ c 0).trans (((dat7 (U11 m ρ) c).arrAt_in 0 rfl _).trans (A_eq7 (U11 m ρ) c 0))
/-- Region 7 only reads the array of its input window 1: it leaves the region as it entered. -/
theorem B12_in_1 (c : Dev nD) : B12 m ρ c (Proc.devRef .tc main_v123) = B11 m ρ c (Proc.devRef .tc main_v123) :=
  (B12_arr m ρ c 1).trans (((dat7 (U11 m ρ) c).arrAt_in 1 rfl _).trans (A_eq7 (U11 m ρ) c 1))
/-- Region 8 only reads the array of its input window 0: it leaves the region as it entered. -/
theorem B13_in_0 (c : Dev nD) : B13 m ρ c (Proc.devRef .tc main_v122) = B12 m ρ c (Proc.devRef .tc main_v122) :=
  (B13_arr m ρ c 0).trans (((dat8 (U12 m ρ) c).arrAt_in 0 rfl _).trans (A_eq8 (U12 m ρ) c 0))
/-- Region 8 only reads the array of its input window 1: it leaves the region as it entered. -/
theorem B13_in_1 (c : Dev nD) : B13 m ρ c (Proc.devRef .tc main_v123) = B12 m ρ c (Proc.devRef .tc main_v123) :=
  (B13_arr m ρ c 1).trans (((dat8 (U12 m ρ) c).arrAt_in 1 rfl _).trans (A_eq8 (U12 m ρ) c 1))
/-- Region 8 only reads the array of its input window 2: it leaves the region as it entered. -/
theorem B13_in_2 (c : Dev nD) : B13 m ρ c (Proc.devRef .tc main_v126_0) = B12 m ρ c (Proc.devRef .tc main_v126_0) :=
  (B13_arr m ρ c 2).trans (((dat8 (U12 m ρ) c).arrAt_in 2 rfl _).trans (A_eq8 (U12 m ρ) c 2))
/-- Region 8 only reads the array of its input window 3: it leaves the region as it entered. -/
theorem B13_in_3 (c : Dev nD) : B13 m ρ c (Proc.devRef .tc main_v126_1) = B12 m ρ c (Proc.devRef .tc main_v126_1) :=
  (B13_arr m ρ c 3).trans (((dat8 (U12 m ρ) c).arrAt_in 3 rfl _).trans (A_eq8 (U12 m ρ) c 3))
/-- Region 8 only reads the array of its input window 4: it leaves the region as it entered. -/
theorem B13_in_4 (c : Dev nD) : B13 m ρ c (Proc.devRef .tc main_v124) = B12 m ρ c (Proc.devRef .tc main_v124) :=
  (B13_arr m ρ c 4).trans (((dat8 (U12 m ρ) c).arrAt_in 4 rfl _).trans (A_eq8 (U12 m ρ) c 4))
/-- Region 8 only reads the array of its input window 5: it leaves the region as it entered. -/
theorem B13_in_5 (c : Dev nD) : B13 m ρ c (Proc.devRef .tc main_v125) = B12 m ρ c (Proc.devRef .tc main_v125) :=
  (B13_arr m ρ c 5).trans (((dat8 (U12 m ρ) c).arrAt_in 5 rfl _).trans (A_eq8 (U12 m ρ) c 5))
/-- Region 9 only reads the array of its input window 0: it leaves the region as it entered. -/
theorem B15_in_0 (c : Dev nD) : B15 m ρ c (Proc.devRef .tc main_arg3) = B14 m ρ c (Proc.devRef .tc main_arg3) :=
  (B15_arr m ρ c 0).trans (((dat9 (U14 m ρ) c).arrAt_in 0 rfl _).trans (A_eq9 (U14 m ρ) c 0))
/-- Region 9 only reads the array of its input window 1: it leaves the region as it entered. -/
theorem B15_in_1 (c : Dev nD) : B15 m ρ c (Proc.devRef .tc main_arg16) = B14 m ρ c (Proc.devRef .tc main_arg16) :=
  (B15_arr m ρ c 1).trans (((dat9 (U14 m ρ) c).arrAt_in 1 rfl _).trans (A_eq9 (U14 m ρ) c 1))
/-- Region 9 only reads the array of its input window 2: it leaves the region as it entered. -/
theorem B15_in_2 (c : Dev nD) : B15 m ρ c (Proc.devRef .tc main_v140) = B14 m ρ c (Proc.devRef .tc main_v140) :=
  (B15_arr m ρ c 2).trans (((dat9 (U14 m ρ) c).arrAt_in 2 rfl _).trans (A_eq9 (U14 m ρ) c 2))
/-- Region 9 only reads the array of its input window 3: it leaves the region as it entered. -/
theorem B15_in_3 (c : Dev nD) : B15 m ρ c (Proc.devRef .tc main_arg18) = B14 m ρ c (Proc.devRef .tc main_arg18) :=
  (B15_arr m ρ c 3).trans (((dat9 (U14 m ρ) c).arrAt_in 3 rfl _).trans (A_eq9 (U14 m ρ) c 3))
/-- Region 9 only reads the array of its input window 4: it leaves the region as it entered. -/
theorem B15_in_4 (c : Dev nD) : B15 m ρ c (Proc.devRef .tc main_v141) = B14 m ρ c (Proc.devRef .tc main_v141) :=
  (B15_arr m ρ c 4).trans (((dat9 (U14 m ρ) c).arrAt_in 4 rfl _).trans (A_eq9 (U14 m ρ) c 4))
/-- Region 9 only reads the array of its input window 5: it leaves the region as it entered. -/
theorem B15_in_5 (c : Dev nD) : B15 m ρ c (Proc.devRef .tc main_v139) = B14 m ρ c (Proc.devRef .tc main_v139) :=
  (B15_arr m ρ c 5).trans (((dat9 (U14 m ρ) c).arrAt_in 5 rfl _).trans (A_eq9 (U14 m ρ) c 5))
/-- Region 9 only reads the array of its input window 6: it leaves the region as it entered. -/
theorem B15_in_6 (c : Dev nD) : B15 m ρ c (Proc.devRef .tc main_arg20) = B14 m ρ c (Proc.devRef .tc main_arg20) :=
  (B15_arr m ρ c 6).trans (((dat9 (U14 m ρ) c).arrAt_in 6 rfl _).trans (A_eq9 (U14 m ρ) c 6))
/-- Region 9 only reads the array of its input window 7: it leaves the region as it entered. -/
theorem B15_in_7 (c : Dev nD) : B15 m ρ c (Proc.devRef .tc main_v142) = B14 m ρ c (Proc.devRef .tc main_v142) :=
  (B15_arr m ρ c 7).trans (((dat9 (U14 m ρ) c).arrAt_in 7 rfl _).trans (A_eq9 (U14 m ρ) c 7))
/-- No item of @main writes the argument array: the last valuation holds it as launched. -/
theorem B16_main_arg0 (c : Dev nD) : B16 m ρ c (Proc.devRef .tc main_arg0) = m ((c : Thread nD τ).loc main_arg0) :=
  ((StableHlo.after_of_writes_sub hostOps10 _ hostOps10_writes (by decide) : B16 m ρ c (Proc.devRef .tc main_arg0) = B15 m ρ c (Proc.devRef .tc main_arg0))).trans <|
    ((B15_of_ne m ρ c main_arg0 (by decide))).trans <|
    ((StableHlo.after_of_writes_sub hostOps9 _ hostOps9_writes (by decide) : B14 m ρ c (Proc.devRef .tc main_arg0) = B13 m ρ c (Proc.devRef .tc main_arg0))).trans <|
    ((B13_of_ne m ρ c main_arg0 (by decide))).trans <|
    ((B12_of_ne m ρ c main_arg0 (by decide))).trans <|
    ((StableHlo.after_of_writes_sub hostOps7 _ hostOps7_writes (by decide) : B11 m ρ c (Proc.devRef .tc main_arg0) = B10 m ρ c (Proc.devRef .tc main_arg0))).trans <|
    ((B10_of_ne m ρ c main_arg0 (by decide))).trans <|
    ((B9_of_ne m ρ c main_arg0 (by decide))).trans <|
    ((B8_of_ne m ρ c main_arg0 (by decide))).trans <|
    ((StableHlo.after_of_writes_sub hostOps4 _ hostOps4_writes (by decide) : B7 m ρ c (Proc.devRef .tc main_arg0) = B6 m ρ c (Proc.devRef .tc main_arg0))).trans <|
    ((B6_of_ne m ρ c main_arg0 (by decide))).trans <|
    ((B5_of_ne m ρ c main_arg0 (by decide))).trans <|
    ((B4_of_ne m ρ c main_arg0 (by decide))).trans <|
    ((StableHlo.after_of_writes_sub hostOps1 _ hostOps1_writes (by decide) : B3 m ρ c (Proc.devRef .tc main_arg0) = B2 m ρ c (Proc.devRef .tc main_arg0))).trans <|
    ((B2_in_0 m ρ c)).trans <|
    ((StableHlo.after_of_writes_sub hostOps0 _ hostOps0_writes (by decide) : B1 m ρ c (Proc.devRef .tc main_arg0) = B0 m ρ c (Proc.devRef .tc main_arg0))).trans <| rfl
/-- No item of @main writes the argument array: the last valuation holds it as launched. -/
theorem B16_main_arg1 (c : Dev nD) : B16 m ρ c (Proc.devRef .tc main_arg1) = m ((c : Thread nD τ).loc main_arg1) :=
  ((StableHlo.after_of_writes_sub hostOps10 _ hostOps10_writes (by decide) : B16 m ρ c (Proc.devRef .tc main_arg1) = B15 m ρ c (Proc.devRef .tc main_arg1))).trans <|
    ((B15_of_ne m ρ c main_arg1 (by decide))).trans <|
    ((StableHlo.after_of_writes_sub hostOps9 _ hostOps9_writes (by decide) : B14 m ρ c (Proc.devRef .tc main_arg1) = B13 m ρ c (Proc.devRef .tc main_arg1))).trans <|
    ((B13_of_ne m ρ c main_arg1 (by decide))).trans <|
    ((B12_of_ne m ρ c main_arg1 (by decide))).trans <|
    ((StableHlo.after_of_writes_sub hostOps7 _ hostOps7_writes (by decide) : B11 m ρ c (Proc.devRef .tc main_arg1) = B10 m ρ c (Proc.devRef .tc main_arg1))).trans <|
    ((B10_of_ne m ρ c main_arg1 (by decide))).trans <|
    ((B9_of_ne m ρ c main_arg1 (by decide))).trans <|
    ((B8_of_ne m ρ c main_arg1 (by decide))).trans <|
    ((StableHlo.after_of_writes_sub hostOps4 _ hostOps4_writes (by decide) : B7 m ρ c (Proc.devRef .tc main_arg1) = B6 m ρ c (Proc.devRef .tc main_arg1))).trans <|
    ((B6_of_ne m ρ c main_arg1 (by decide))).trans <|
    ((B5_of_ne m ρ c main_arg1 (by decide))).trans <|
    ((B4_of_ne m ρ c main_arg1 (by decide))).trans <|
    ((StableHlo.after_of_writes_sub hostOps1 _ hostOps1_writes (by decide) : B3 m ρ c (Proc.devRef .tc main_arg1) = B2 m ρ c (Proc.devRef .tc main_arg1))).trans <|
    ((B2_of_ne m ρ c main_arg1 (by decide))).trans <|
    ((StableHlo.after_of_writes_sub hostOps0 _ hostOps0_writes (by decide) : B1 m ρ c (Proc.devRef .tc main_arg1) = B0 m ρ c (Proc.devRef .tc main_arg1))).trans <| rfl
/-- No item of @main writes the argument array: the last valuation holds it as launched. -/
theorem B16_main_arg2 (c : Dev nD) : B16 m ρ c (Proc.devRef .tc main_arg2) = m ((c : Thread nD τ).loc main_arg2) :=
  ((StableHlo.after_of_writes_sub hostOps10 _ hostOps10_writes (by decide) : B16 m ρ c (Proc.devRef .tc main_arg2) = B15 m ρ c (Proc.devRef .tc main_arg2))).trans <|
    ((B15_of_ne m ρ c main_arg2 (by decide))).trans <|
    ((StableHlo.after_of_writes_sub hostOps9 _ hostOps9_writes (by decide) : B14 m ρ c (Proc.devRef .tc main_arg2) = B13 m ρ c (Proc.devRef .tc main_arg2))).trans <|
    ((B13_of_ne m ρ c main_arg2 (by decide))).trans <|
    ((B12_of_ne m ρ c main_arg2 (by decide))).trans <|
    ((StableHlo.after_of_writes_sub hostOps7 _ hostOps7_writes (by decide) : B11 m ρ c (Proc.devRef .tc main_arg2) = B10 m ρ c (Proc.devRef .tc main_arg2))).trans <|
    ((B10_of_ne m ρ c main_arg2 (by decide))).trans <|
    ((B9_of_ne m ρ c main_arg2 (by decide))).trans <|
    ((B8_of_ne m ρ c main_arg2 (by decide))).trans <|
    ((StableHlo.after_of_writes_sub hostOps4 _ hostOps4_writes (by decide) : B7 m ρ c (Proc.devRef .tc main_arg2) = B6 m ρ c (Proc.devRef .tc main_arg2))).trans <|
    ((B6_of_ne m ρ c main_arg2 (by decide))).trans <|
    ((B5_of_ne m ρ c main_arg2 (by decide))).trans <|
    ((B4_of_ne m ρ c main_arg2 (by decide))).trans <|
    ((StableHlo.after_of_writes_sub hostOps1 _ hostOps1_writes (by decide) : B3 m ρ c (Proc.devRef .tc main_arg2) = B2 m ρ c (Proc.devRef .tc main_arg2))).trans <|
    ((B2_of_ne m ρ c main_arg2 (by decide))).trans <|
    ((StableHlo.after_of_writes_sub hostOps0 _ hostOps0_writes (by decide) : B1 m ρ c (Proc.devRef .tc main_arg2) = B0 m ρ c (Proc.devRef .tc main_arg2))).trans <| rfl
/-- No item of @main writes the argument array: the last valuation holds it as launched. -/
theorem B16_main_arg3 (c : Dev nD) : B16 m ρ c (Proc.devRef .tc main_arg3) = m ((c : Thread nD τ).loc main_arg3) :=
  ((StableHlo.after_of_writes_sub hostOps10 _ hostOps10_writes (by decide) : B16 m ρ c (Proc.devRef .tc main_arg3) = B15 m ρ c (Proc.devRef .tc main_arg3))).trans <|
    ((B15_in_0 m ρ c)).trans <|
    ((StableHlo.after_of_writes_sub hostOps9 _ hostOps9_writes (by decide) : B14 m ρ c (Proc.devRef .tc main_arg3) = B13 m ρ c (Proc.devRef .tc main_arg3))).trans <|
    ((B13_of_ne m ρ c main_arg3 (by decide))).trans <|
    ((B12_of_ne m ρ c main_arg3 (by decide))).trans <|
    ((StableHlo.after_of_writes_sub hostOps7 _ hostOps7_writes (by decide) : B11 m ρ c (Proc.devRef .tc main_arg3) = B10 m ρ c (Proc.devRef .tc main_arg3))).trans <|
    ((B10_of_ne m ρ c main_arg3 (by decide))).trans <|
    ((B9_of_ne m ρ c main_arg3 (by decide))).trans <|
    ((B8_of_ne m ρ c main_arg3 (by decide))).trans <|
    ((StableHlo.after_of_writes_sub hostOps4 _ hostOps4_writes (by decide) : B7 m ρ c (Proc.devRef .tc main_arg3) = B6 m ρ c (Proc.devRef .tc main_arg3))).trans <|
    ((B6_of_ne m ρ c main_arg3 (by decide))).trans <|
    ((B5_of_ne m ρ c main_arg3 (by decide))).trans <|
    ((B4_of_ne m ρ c main_arg3 (by decide))).trans <|
    ((StableHlo.after_of_writes_sub hostOps1 _ hostOps1_writes (by decide) : B3 m ρ c (Proc.devRef .tc main_arg3) = B2 m ρ c (Proc.devRef .tc main_arg3))).trans <|
    ((B2_of_ne m ρ c main_arg3 (by decide))).trans <|
    ((StableHlo.after_of_writes_sub hostOps0 _ hostOps0_writes (by decide) : B1 m ρ c (Proc.devRef .tc main_arg3) = B0 m ρ c (Proc.devRef .tc main_arg3))).trans <| rfl
/-- No item of @main writes the argument array: the last valuation holds it as launched. -/
theorem B16_main_arg4 (c : Dev nD) : B16 m ρ c (Proc.devRef .tc main_arg4) = m ((c : Thread nD τ).loc main_arg4) :=
  ((StableHlo.after_of_writes_sub hostOps10 _ hostOps10_writes (by decide) : B16 m ρ c (Proc.devRef .tc main_arg4) = B15 m ρ c (Proc.devRef .tc main_arg4))).trans <|
    ((B15_of_ne m ρ c main_arg4 (by decide))).trans <|
    ((StableHlo.after_of_writes_sub hostOps9 _ hostOps9_writes (by decide) : B14 m ρ c (Proc.devRef .tc main_arg4) = B13 m ρ c (Proc.devRef .tc main_arg4))).trans <|
    ((B13_of_ne m ρ c main_arg4 (by decide))).trans <|
    ((B12_of_ne m ρ c main_arg4 (by decide))).trans <|
    ((StableHlo.after_of_writes_sub hostOps7 _ hostOps7_writes (by decide) : B11 m ρ c (Proc.devRef .tc main_arg4) = B10 m ρ c (Proc.devRef .tc main_arg4))).trans <|
    ((B10_of_ne m ρ c main_arg4 (by decide))).trans <|
    ((B9_of_ne m ρ c main_arg4 (by decide))).trans <|
    ((B8_of_ne m ρ c main_arg4 (by decide))).trans <|
    ((StableHlo.after_of_writes_sub hostOps4 _ hostOps4_writes (by decide) : B7 m ρ c (Proc.devRef .tc main_arg4) = B6 m ρ c (Proc.devRef .tc main_arg4))).trans <|
    ((B6_of_ne m ρ c main_arg4 (by decide))).trans <|
    ((B5_of_ne m ρ c main_arg4 (by decide))).trans <|
    ((B4_of_ne m ρ c main_arg4 (by decide))).trans <|
    ((StableHlo.after_of_writes_sub hostOps1 _ hostOps1_writes (by decide) : B3 m ρ c (Proc.devRef .tc main_arg4) = B2 m ρ c (Proc.devRef .tc main_arg4))).trans <|
    ((B2_in_1 m ρ c)).trans <|
    ((StableHlo.after_of_writes_sub hostOps0 _ hostOps0_writes (by decide) : B1 m ρ c (Proc.devRef .tc main_arg4) = B0 m ρ c (Proc.devRef .tc main_arg4))).trans <| rfl
/-- No item of @main writes the argument array: the last valuation holds it as launched. -/
theorem B16_main_arg5 (c : Dev nD) : B16 m ρ c (Proc.devRef .tc main_arg5) = m ((c : Thread nD τ).loc main_arg5) :=
  ((StableHlo.after_of_writes_sub hostOps10 _ hostOps10_writes (by decide) : B16 m ρ c (Proc.devRef .tc main_arg5) = B15 m ρ c (Proc.devRef .tc main_arg5))).trans <|
    ((B15_of_ne m ρ c main_arg5 (by decide))).trans <|
    ((StableHlo.after_of_writes_sub hostOps9 _ hostOps9_writes (by decide) : B14 m ρ c (Proc.devRef .tc main_arg5) = B13 m ρ c (Proc.devRef .tc main_arg5))).trans <|
    ((B13_of_ne m ρ c main_arg5 (by decide))).trans <|
    ((B12_of_ne m ρ c main_arg5 (by decide))).trans <|
    ((StableHlo.after_of_writes_sub hostOps7 _ hostOps7_writes (by decide) : B11 m ρ c (Proc.devRef .tc main_arg5) = B10 m ρ c (Proc.devRef .tc main_arg5))).trans <|
    ((B10_of_ne m ρ c main_arg5 (by decide))).trans <|
    ((B9_of_ne m ρ c main_arg5 (by decide))).trans <|
    ((B8_of_ne m ρ c main_arg5 (by decide))).trans <|
    ((StableHlo.after_of_writes_sub hostOps4 _ hostOps4_writes (by decide) : B7 m ρ c (Proc.devRef .tc main_arg5) = B6 m ρ c (Proc.devRef .tc main_arg5))).trans <|
    ((B6_of_ne m ρ c main_arg5 (by decide))).trans <|
    ((B5_of_ne m ρ c main_arg5 (by decide))).trans <|
    ((B4_of_ne m ρ c main_arg5 (by decide))).trans <|
    ((StableHlo.after_of_writes_sub hostOps1 _ hostOps1_writes (by decide) : B3 m ρ c (Proc.devRef .tc main_arg5) = B2 m ρ c (Proc.devRef .tc main_arg5))).trans <|
    ((B2_of_ne m ρ c main_arg5 (by decide))).trans <|
    ((StableHlo.after_of_writes_sub hostOps0 _ hostOps0_writes (by decide) : B1 m ρ c (Proc.devRef .tc main_arg5) = B0 m ρ c (Proc.devRef .tc main_arg5))).trans <| rfl
/-- No item of @main writes the argument array: the last valuation holds it as launched. -/
theorem B16_main_arg6 (c : Dev nD) : B16 m ρ c (Proc.devRef .tc main_arg6) = m ((c : Thread nD τ).loc main_arg6) :=
  ((StableHlo.after_of_writes_sub hostOps10 _ hostOps10_writes (by decide) : B16 m ρ c (Proc.devRef .tc main_arg6) = B15 m ρ c (Proc.devRef .tc main_arg6))).trans <|
    ((B15_of_ne m ρ c main_arg6 (by decide))).trans <|
    ((StableHlo.after_of_writes_sub hostOps9 _ hostOps9_writes (by decide) : B14 m ρ c (Proc.devRef .tc main_arg6) = B13 m ρ c (Proc.devRef .tc main_arg6))).trans <|
    ((B13_of_ne m ρ c main_arg6 (by decide))).trans <|
    ((B12_of_ne m ρ c main_arg6 (by decide))).trans <|
    ((StableHlo.after_of_writes_sub hostOps7 _ hostOps7_writes (by decide) : B11 m ρ c (Proc.devRef .tc main_arg6) = B10 m ρ c (Proc.devRef .tc main_arg6))).trans <|
    ((B10_of_ne m ρ c main_arg6 (by decide))).trans <|
    ((B9_of_ne m ρ c main_arg6 (by decide))).trans <|
    ((B8_of_ne m ρ c main_arg6 (by decide))).trans <|
    ((StableHlo.after_of_writes_sub hostOps4 _ hostOps4_writes (by decide) : B7 m ρ c (Proc.devRef .tc main_arg6) = B6 m ρ c (Proc.devRef .tc main_arg6))).trans <|
    ((B6_of_ne m ρ c main_arg6 (by decide))).trans <|
    ((B5_of_ne m ρ c main_arg6 (by decide))).trans <|
    ((B4_of_ne m ρ c main_arg6 (by decide))).trans <|
    ((StableHlo.after_of_writes_sub hostOps1 _ hostOps1_writes (by decide) : B3 m ρ c (Proc.devRef .tc main_arg6) = B2 m ρ c (Proc.devRef .tc main_arg6))).trans <|
    ((B2_of_ne m ρ c main_arg6 (by decide))).trans <|
    ((StableHlo.after_of_writes_sub hostOps0 _ hostOps0_writes (by decide) : B1 m ρ c (Proc.devRef .tc main_arg6) = B0 m ρ c (Proc.devRef .tc main_arg6))).trans <| rfl
/-- No item of @main writes the argument array: the last valuation holds it as launched. -/
theorem B16_main_arg7 (c : Dev nD) : B16 m ρ c (Proc.devRef .tc main_arg7) = m ((c : Thread nD τ).loc main_arg7) :=
  ((StableHlo.after_of_writes_sub hostOps10 _ hostOps10_writes (by decide) : B16 m ρ c (Proc.devRef .tc main_arg7) = B15 m ρ c (Proc.devRef .tc main_arg7))).trans <|
    ((B15_of_ne m ρ c main_arg7 (by decide))).trans <|
    ((StableHlo.after_of_writes_sub hostOps9 _ hostOps9_writes (by decide) : B14 m ρ c (Proc.devRef .tc main_arg7) = B13 m ρ c (Proc.devRef .tc main_arg7))).trans <|
    ((B13_of_ne m ρ c main_arg7 (by decide))).trans <|
    ((B12_of_ne m ρ c main_arg7 (by decide))).trans <|
    ((StableHlo.after_of_writes_sub hostOps7 _ hostOps7_writes (by decide) : B11 m ρ c (Proc.devRef .tc main_arg7) = B10 m ρ c (Proc.devRef .tc main_arg7))).trans <|
    ((B10_of_ne m ρ c main_arg7 (by decide))).trans <|
    ((B9_of_ne m ρ c main_arg7 (by decide))).trans <|
    ((B8_of_ne m ρ c main_arg7 (by decide))).trans <|
    ((StableHlo.after_of_writes_sub hostOps4 _ hostOps4_writes (by decide) : B7 m ρ c (Proc.devRef .tc main_arg7) = B6 m ρ c (Proc.devRef .tc main_arg7))).trans <|
    ((B6_of_ne m ρ c main_arg7 (by decide))).trans <|
    ((B5_of_ne m ρ c main_arg7 (by decide))).trans <|
    ((B4_of_ne m ρ c main_arg7 (by decide))).trans <|
    ((StableHlo.after_of_writes_sub hostOps1 _ hostOps1_writes (by decide) : B3 m ρ c (Proc.devRef .tc main_arg7) = B2 m ρ c (Proc.devRef .tc main_arg7))).trans <|
    ((B2_of_ne m ρ c main_arg7 (by decide))).trans <|
    ((StableHlo.after_of_writes_sub hostOps0 _ hostOps0_writes (by decide) : B1 m ρ c (Proc.devRef .tc main_arg7) = B0 m ρ c (Proc.devRef .tc main_arg7))).trans <| rfl
/-- No item of @main writes the argument array: the last valuation holds it as launched. -/
theorem B16_main_arg8 (c : Dev nD) : B16 m ρ c (Proc.devRef .tc main_arg8) = m ((c : Thread nD τ).loc main_arg8) :=
  ((StableHlo.after_of_writes_sub hostOps10 _ hostOps10_writes (by decide) : B16 m ρ c (Proc.devRef .tc main_arg8) = B15 m ρ c (Proc.devRef .tc main_arg8))).trans <|
    ((B15_of_ne m ρ c main_arg8 (by decide))).trans <|
    ((StableHlo.after_of_writes_sub hostOps9 _ hostOps9_writes (by decide) : B14 m ρ c (Proc.devRef .tc main_arg8) = B13 m ρ c (Proc.devRef .tc main_arg8))).trans <|
    ((B13_of_ne m ρ c main_arg8 (by decide))).trans <|
    ((B12_of_ne m ρ c main_arg8 (by decide))).trans <|
    ((StableHlo.after_of_writes_sub hostOps7 _ hostOps7_writes (by decide) : B11 m ρ c (Proc.devRef .tc main_arg8) = B10 m ρ c (Proc.devRef .tc main_arg8))).trans <|
    ((B10_of_ne m ρ c main_arg8 (by decide))).trans <|
    ((B9_of_ne m ρ c main_arg8 (by decide))).trans <|
    ((B8_of_ne m ρ c main_arg8 (by decide))).trans <|
    ((StableHlo.after_of_writes_sub hostOps4 _ hostOps4_writes (by decide) : B7 m ρ c (Proc.devRef .tc main_arg8) = B6 m ρ c (Proc.devRef .tc main_arg8))).trans <|
    ((B6_in_1 m ρ c)).trans <|
    ((B5_of_ne m ρ c main_arg8 (by decide))).trans <|
    ((B4_of_ne m ρ c main_arg8 (by decide))).trans <|
    ((StableHlo.after_of_writes_sub hostOps1 _ hostOps1_writes (by decide) : B3 m ρ c (Proc.devRef .tc main_arg8) = B2 m ρ c (Proc.devRef .tc main_arg8))).trans <|
    ((B2_of_ne m ρ c main_arg8 (by decide))).trans <|
    ((StableHlo.after_of_writes_sub hostOps0 _ hostOps0_writes (by decide) : B1 m ρ c (Proc.devRef .tc main_arg8) = B0 m ρ c (Proc.devRef .tc main_arg8))).trans <| rfl
/-- No item of @main writes the argument array: the last valuation holds it as launched. -/
theorem B16_main_arg9 (c : Dev nD) : B16 m ρ c (Proc.devRef .tc main_arg9) = m ((c : Thread nD τ).loc main_arg9) :=
  ((StableHlo.after_of_writes_sub hostOps10 _ hostOps10_writes (by decide) : B16 m ρ c (Proc.devRef .tc main_arg9) = B15 m ρ c (Proc.devRef .tc main_arg9))).trans <|
    ((B15_of_ne m ρ c main_arg9 (by decide))).trans <|
    ((StableHlo.after_of_writes_sub hostOps9 _ hostOps9_writes (by decide) : B14 m ρ c (Proc.devRef .tc main_arg9) = B13 m ρ c (Proc.devRef .tc main_arg9))).trans <|
    ((B13_of_ne m ρ c main_arg9 (by decide))).trans <|
    ((B12_of_ne m ρ c main_arg9 (by decide))).trans <|
    ((StableHlo.after_of_writes_sub hostOps7 _ hostOps7_writes (by decide) : B11 m ρ c (Proc.devRef .tc main_arg9) = B10 m ρ c (Proc.devRef .tc main_arg9))).trans <|
    ((B10_of_ne m ρ c main_arg9 (by decide))).trans <|
    ((B9_of_ne m ρ c main_arg9 (by decide))).trans <|
    ((B8_of_ne m ρ c main_arg9 (by decide))).trans <|
    ((StableHlo.after_of_writes_sub hostOps4 _ hostOps4_writes (by decide) : B7 m ρ c (Proc.devRef .tc main_arg9) = B6 m ρ c (Proc.devRef .tc main_arg9))).trans <|
    ((B6_of_ne m ρ c main_arg9 (by decide))).trans <|
    ((B5_of_ne m ρ c main_arg9 (by decide))).trans <|
    ((B4_of_ne m ρ c main_arg9 (by decide))).trans <|
    ((StableHlo.after_of_writes_sub hostOps1 _ hostOps1_writes (by decide) : B3 m ρ c (Proc.devRef .tc main_arg9) = B2 m ρ c (Proc.devRef .tc main_arg9))).trans <|
    ((B2_of_ne m ρ c main_arg9 (by decide))).trans <|
    ((StableHlo.after_of_writes_sub hostOps0 _ hostOps0_writes (by decide) : B1 m ρ c (Proc.devRef .tc main_arg9) = B0 m ρ c (Proc.devRef .tc main_arg9))).trans <| rfl
/-- No item of @main writes the argument array: the last valuation holds it as launched. -/
theorem B16_main_arg10 (c : Dev nD) : B16 m ρ c (Proc.devRef .tc main_arg10) = m ((c : Thread nD τ).loc main_arg10) :=
  ((StableHlo.after_of_writes_sub hostOps10 _ hostOps10_writes (by decide) : B16 m ρ c (Proc.devRef .tc main_arg10) = B15 m ρ c (Proc.devRef .tc main_arg10))).trans <|
    ((B15_of_ne m ρ c main_arg10 (by decide))).trans <|
    ((StableHlo.after_of_writes_sub hostOps9 _ hostOps9_writes (by decide) : B14 m ρ c (Proc.devRef .tc main_arg10) = B13 m ρ c (Proc.devRef .tc main_arg10))).trans <|
    ((B13_of_ne m ρ c main_arg10 (by decide))).trans <|
    ((B12_of_ne m ρ c main_arg10 (by decide))).trans <|
    ((StableHlo.after_of_writes_sub hostOps7 _ hostOps7_writes (by decide) : B11 m ρ c (Proc.devRef .tc main_arg10) = B10 m ρ c (Proc.devRef .tc main_arg10))).trans <|
    ((B10_of_ne m ρ c main_arg10 (by decide))).trans <|
    ((B9_of_ne m ρ c main_arg10 (by decide))).trans <|
    ((B8_of_ne m ρ c main_arg10 (by decide))).trans <|
    ((StableHlo.after_of_writes_sub hostOps4 _ hostOps4_writes (by decide) : B7 m ρ c (Proc.devRef .tc main_arg10) = B6 m ρ c (Proc.devRef .tc main_arg10))).trans <|
    ((B6_of_ne m ρ c main_arg10 (by decide))).trans <|
    ((B5_of_ne m ρ c main_arg10 (by decide))).trans <|
    ((B4_of_ne m ρ c main_arg10 (by decide))).trans <|
    ((StableHlo.after_of_writes_sub hostOps1 _ hostOps1_writes (by decide) : B3 m ρ c (Proc.devRef .tc main_arg10) = B2 m ρ c (Proc.devRef .tc main_arg10))).trans <|
    ((B2_of_ne m ρ c main_arg10 (by decide))).trans <|
    ((StableHlo.after_of_writes_sub hostOps0 _ hostOps0_writes (by decide) : B1 m ρ c (Proc.devRef .tc main_arg10) = B0 m ρ c (Proc.devRef .tc main_arg10))).trans <| rfl
/-- No item of @main writes the argument array: the last valuation holds it as launched. -/
theorem B16_main_arg11 (c : Dev nD) : B16 m ρ c (Proc.devRef .tc main_arg11) = m ((c : Thread nD τ).loc main_arg11) :=
  ((StableHlo.after_of_writes_sub hostOps10 _ hostOps10_writes (by decide) : B16 m ρ c (Proc.devRef .tc main_arg11) = B15 m ρ c (Proc.devRef .tc main_arg11))).trans <|
    ((B15_of_ne m ρ c main_arg11 (by decide))).trans <|
    ((StableHlo.after_of_writes_sub hostOps9 _ hostOps9_writes (by decide) : B14 m ρ c (Proc.devRef .tc main_arg11) = B13 m ρ c (Proc.devRef .tc main_arg11))).trans <|
    ((B13_of_ne m ρ c main_arg11 (by decide))).trans <|
    ((B12_of_ne m ρ c main_arg11 (by decide))).trans <|
    ((StableHlo.after_of_writes_sub hostOps7 _ hostOps7_writes (by decide) : B11 m ρ c (Proc.devRef .tc main_arg11) = B10 m ρ c (Proc.devRef .tc main_arg11))).trans <|
    ((B10_of_ne m ρ c main_arg11 (by decide))).trans <|
    ((B9_of_ne m ρ c main_arg11 (by decide))).trans <|
    ((B8_of_ne m ρ c main_arg11 (by decide))).trans <|
    ((StableHlo.after_of_writes_sub hostOps4 _ hostOps4_writes (by decide) : B7 m ρ c (Proc.devRef .tc main_arg11) = B6 m ρ c (Proc.devRef .tc main_arg11))).trans <|
    ((B6_of_ne m ρ c main_arg11 (by decide))).trans <|
    ((B5_of_ne m ρ c main_arg11 (by decide))).trans <|
    ((B4_of_ne m ρ c main_arg11 (by decide))).trans <|
    ((StableHlo.after_of_writes_sub hostOps1 _ hostOps1_writes (by decide) : B3 m ρ c (Proc.devRef .tc main_arg11) = B2 m ρ c (Proc.devRef .tc main_arg11))).trans <|
    ((B2_of_ne m ρ c main_arg11 (by decide))).trans <|
    ((StableHlo.after_of_writes_sub hostOps0 _ hostOps0_writes (by decide) : B1 m ρ c (Proc.devRef .tc main_arg11) = B0 m ρ c (Proc.devRef .tc main_arg11))).trans <| rfl
/-- No item of @main writes the argument array: the last valuation holds it as launched. -/
theorem B16_main_arg12 (c : Dev nD) : B16 m ρ c (Proc.devRef .tc main_arg12) = m ((c : Thread nD τ).loc main_arg12) :=
  ((StableHlo.after_of_writes_sub hostOps10 _ hostOps10_writes (by decide) : B16 m ρ c (Proc.devRef .tc main_arg12) = B15 m ρ c (Proc.devRef .tc main_arg12))).trans <|
    ((B15_of_ne m ρ c main_arg12 (by decide))).trans <|
    ((StableHlo.after_of_writes_sub hostOps9 _ hostOps9_writes (by decide) : B14 m ρ c (Proc.devRef .tc main_arg12) = B13 m ρ c (Proc.devRef .tc main_arg12))).trans <|
    ((B13_of_ne m ρ c main_arg12 (by decide))).trans <|
    ((B12_of_ne m ρ c main_arg12 (by decide))).trans <|
    ((StableHlo.after_of_writes_sub hostOps7 _ hostOps7_writes (by decide) : B11 m ρ c (Proc.devRef .tc main_arg12) = B10 m ρ c (Proc.devRef .tc main_arg12))).trans <|
    ((B10_in_1 m ρ c)).trans <|
    ((B9_of_ne m ρ c main_arg12 (by decide))).trans <|
    ((B8_of_ne m ρ c main_arg12 (by decide))).trans <|
    ((StableHlo.after_of_writes_sub hostOps4 _ hostOps4_writes (by decide) : B7 m ρ c (Proc.devRef .tc main_arg12) = B6 m ρ c (Proc.devRef .tc main_arg12))).trans <|
    ((B6_of_ne m ρ c main_arg12 (by decide))).trans <|
    ((B5_of_ne m ρ c main_arg12 (by decide))).trans <|
    ((B4_of_ne m ρ c main_arg12 (by decide))).trans <|
    ((StableHlo.after_of_writes_sub hostOps1 _ hostOps1_writes (by decide) : B3 m ρ c (Proc.devRef .tc main_arg12) = B2 m ρ c (Proc.devRef .tc main_arg12))).trans <|
    ((B2_of_ne m ρ c main_arg12 (by decide))).trans <|
    ((StableHlo.after_of_writes_sub hostOps0 _ hostOps0_writes (by decide) : B1 m ρ c (Proc.devRef .tc main_arg12) = B0 m ρ c (Proc.devRef .tc main_arg12))).trans <| rfl
/-- No item of @main writes the argument array: the last valuation holds it as launched. -/
theorem B16_main_arg13 (c : Dev nD) : B16 m ρ c (Proc.devRef .tc main_arg13) = m ((c : Thread nD τ).loc main_arg13) :=
  ((StableHlo.after_of_writes_sub hostOps10 _ hostOps10_writes (by decide) : B16 m ρ c (Proc.devRef .tc main_arg13) = B15 m ρ c (Proc.devRef .tc main_arg13))).trans <|
    ((B15_of_ne m ρ c main_arg13 (by decide))).trans <|
    ((StableHlo.after_of_writes_sub hostOps9 _ hostOps9_writes (by decide) : B14 m ρ c (Proc.devRef .tc main_arg13) = B13 m ρ c (Proc.devRef .tc main_arg13))).trans <|
    ((B13_of_ne m ρ c main_arg13 (by decide))).trans <|
    ((B12_of_ne m ρ c main_arg13 (by decide))).trans <|
    ((StableHlo.after_of_writes_sub hostOps7 _ hostOps7_writes (by decide) : B11 m ρ c (Proc.devRef .tc main_arg13) = B10 m ρ c (Proc.devRef .tc main_arg13))).trans <|
    ((B10_of_ne m ρ c main_arg13 (by decide))).trans <|
    ((B9_of_ne m ρ c main_arg13 (by decide))).trans <|
    ((B8_of_ne m ρ c main_arg13 (by decide))).trans <|
    ((StableHlo.after_of_writes_sub hostOps4 _ hostOps4_writes (by decide) : B7 m ρ c (Proc.devRef .tc main_arg13) = B6 m ρ c (Proc.devRef .tc main_arg13))).trans <|
    ((B6_of_ne m ρ c main_arg13 (by decide))).trans <|
    ((B5_of_ne m ρ c main_arg13 (by decide))).trans <|
    ((B4_of_ne m ρ c main_arg13 (by decide))).trans <|
    ((StableHlo.after_of_writes_sub hostOps1 _ hostOps1_writes (by decide) : B3 m ρ c (Proc.devRef .tc main_arg13) = B2 m ρ c (Proc.devRef .tc main_arg13))).trans <|
    ((B2_of_ne m ρ c main_arg13 (by decide))).trans <|
    ((StableHlo.after_of_writes_sub hostOps0 _ hostOps0_writes (by decide) : B1 m ρ c (Proc.devRef .tc main_arg13) = B0 m ρ c (Proc.devRef .tc main_arg13))).trans <| rfl
/-- No item of @main writes the argument array: the last valuation holds it as launched. -/
theorem B16_main_arg14 (c : Dev nD) : B16 m ρ c (Proc.devRef .tc main_arg14) = m ((c : Thread nD τ).loc main_arg14) :=
  ((StableHlo.after_of_writes_sub hostOps10 _ hostOps10_writes (by decide) : B16 m ρ c (Proc.devRef .tc main_arg14) = B15 m ρ c (Proc.devRef .tc main_arg14))).trans <|
    ((B15_of_ne m ρ c main_arg14 (by decide))).trans <|
    ((StableHlo.after_of_writes_sub hostOps9 _ hostOps9_writes (by decide) : B14 m ρ c (Proc.devRef .tc main_arg14) = B13 m ρ c (Proc.devRef .tc main_arg14))).trans <|
    ((B13_of_ne m ρ c main_arg14 (by decide))).trans <|
    ((B12_of_ne m ρ c main_arg14 (by decide))).trans <|
    ((StableHlo.after_of_writes_sub hostOps7 _ hostOps7_writes (by decide) : B11 m ρ c (Proc.devRef .tc main_arg14) = B10 m ρ c (Proc.devRef .tc main_arg14))).trans <|
    ((B10_of_ne m ρ c main_arg14 (by decide))).trans <|
    ((B9_of_ne m ρ c main_arg14 (by decide))).trans <|
    ((B8_of_ne m ρ c main_arg14 (by decide))).trans <|
    ((StableHlo.after_of_writes_sub hostOps4 _ hostOps4_writes (by decide) : B7 m ρ c (Proc.devRef .tc main_arg14) = B6 m ρ c (Proc.devRef .tc main_arg14))).trans <|
    ((B6_of_ne m ρ c main_arg14 (by decide))).trans <|
    ((B5_of_ne m ρ c main_arg14 (by decide))).trans <|
    ((B4_of_ne m ρ c main_arg14 (by decide))).trans <|
    ((StableHlo.after_of_writes_sub hostOps1 _ hostOps1_writes (by decide) : B3 m ρ c (Proc.devRef .tc main_arg14) = B2 m ρ c (Proc.devRef .tc main_arg14))).trans <|
    ((B2_of_ne m ρ c main_arg14 (by decide))).trans <|
    ((StableHlo.after_of_writes_sub hostOps0 _ hostOps0_writes (by decide) : B1 m ρ c (Proc.devRef .tc main_arg14) = B0 m ρ c (Proc.devRef .tc main_arg14))).trans <| rfl
/-- No item of @main writes the argument array: the last valuation holds it as launched. -/
theorem B16_main_arg15 (c : Dev nD) : B16 m ρ c (Proc.devRef .tc main_arg15) = m ((c : Thread nD τ).loc main_arg15) :=
  ((StableHlo.after_of_writes_sub hostOps10 _ hostOps10_writes (by decide) : B16 m ρ c (Proc.devRef .tc main_arg15) = B15 m ρ c (Proc.devRef .tc main_arg15))).trans <|
    ((B15_of_ne m ρ c main_arg15 (by decide))).trans <|
    ((StableHlo.after_of_writes_sub hostOps9 _ hostOps9_writes (by decide) : B14 m ρ c (Proc.devRef .tc main_arg15) = B13 m ρ c (Proc.devRef .tc main_arg15))).trans <|
    ((B13_of_ne m ρ c main_arg15 (by decide))).trans <|
    ((B12_of_ne m ρ c main_arg15 (by decide))).trans <|
    ((StableHlo.after_of_writes_sub hostOps7 _ hostOps7_writes (by decide) : B11 m ρ c (Proc.devRef .tc main_arg15) = B10 m ρ c (Proc.devRef .tc main_arg15))).trans <|
    ((B10_of_ne m ρ c main_arg15 (by decide))).trans <|
    ((B9_of_ne m ρ c main_arg15 (by decide))).trans <|
    ((B8_of_ne m ρ c main_arg15 (by decide))).trans <|
    ((StableHlo.after_of_writes_sub hostOps4 _ hostOps4_writes (by decide) : B7 m ρ c (Proc.devRef .tc main_arg15) = B6 m ρ c (Proc.devRef .tc main_arg15))).trans <|
    ((B6_of_ne m ρ c main_arg15 (by decide))).trans <|
    ((B5_of_ne m ρ c main_arg15 (by decide))).trans <|
    ((B4_of_ne m ρ c main_arg15 (by decide))).trans <|
    ((StableHlo.after_of_writes_sub hostOps1 _ hostOps1_writes (by decide) : B3 m ρ c (Proc.devRef .tc main_arg15) = B2 m ρ c (Proc.devRef .tc main_arg15))).trans <|
    ((B2_of_ne m ρ c main_arg15 (by decide))).trans <|
    ((StableHlo.after_of_writes_sub hostOps0 _ hostOps0_writes (by decide) : B1 m ρ c (Proc.devRef .tc main_arg15) = B0 m ρ c (Proc.devRef .tc main_arg15))).trans <| rfl
/-- No item of @main writes the argument array: the last valuation holds it as launched. -/
theorem B16_main_arg16 (c : Dev nD) : B16 m ρ c (Proc.devRef .tc main_arg16) = m ((c : Thread nD τ).loc main_arg16) :=
  ((StableHlo.after_of_writes_sub hostOps10 _ hostOps10_writes (by decide) : B16 m ρ c (Proc.devRef .tc main_arg16) = B15 m ρ c (Proc.devRef .tc main_arg16))).trans <|
    ((B15_in_1 m ρ c)).trans <|
    ((StableHlo.after_of_writes_sub hostOps9 _ hostOps9_writes (by decide) : B14 m ρ c (Proc.devRef .tc main_arg16) = B13 m ρ c (Proc.devRef .tc main_arg16))).trans <|
    ((B13_of_ne m ρ c main_arg16 (by decide))).trans <|
    ((B12_of_ne m ρ c main_arg16 (by decide))).trans <|
    ((StableHlo.after_of_writes_sub hostOps7 _ hostOps7_writes (by decide) : B11 m ρ c (Proc.devRef .tc main_arg16) = B10 m ρ c (Proc.devRef .tc main_arg16))).trans <|
    ((B10_of_ne m ρ c main_arg16 (by decide))).trans <|
    ((B9_of_ne m ρ c main_arg16 (by decide))).trans <|
    ((B8_of_ne m ρ c main_arg16 (by decide))).trans <|
    ((StableHlo.after_of_writes_sub hostOps4 _ hostOps4_writes (by decide) : B7 m ρ c (Proc.devRef .tc main_arg16) = B6 m ρ c (Proc.devRef .tc main_arg16))).trans <|
    ((B6_of_ne m ρ c main_arg16 (by decide))).trans <|
    ((B5_of_ne m ρ c main_arg16 (by decide))).trans <|
    ((B4_of_ne m ρ c main_arg16 (by decide))).trans <|
    ((StableHlo.after_of_writes_sub hostOps1 _ hostOps1_writes (by decide) : B3 m ρ c (Proc.devRef .tc main_arg16) = B2 m ρ c (Proc.devRef .tc main_arg16))).trans <|
    ((B2_of_ne m ρ c main_arg16 (by decide))).trans <|
    ((StableHlo.after_of_writes_sub hostOps0 _ hostOps0_writes (by decide) : B1 m ρ c (Proc.devRef .tc main_arg16) = B0 m ρ c (Proc.devRef .tc main_arg16))).trans <| rfl
/-- No item of @main writes the argument array: the last valuation holds it as launched. -/
theorem B16_main_arg17 (c : Dev nD) : B16 m ρ c (Proc.devRef .tc main_arg17) = m ((c : Thread nD τ).loc main_arg17) :=
  ((StableHlo.after_of_writes_sub hostOps10 _ hostOps10_writes (by decide) : B16 m ρ c (Proc.devRef .tc main_arg17) = B15 m ρ c (Proc.devRef .tc main_arg17))).trans <|
    ((B15_of_ne m ρ c main_arg17 (by decide))).trans <|
    ((StableHlo.after_of_writes_sub hostOps9 _ hostOps9_writes (by decide) : B14 m ρ c (Proc.devRef .tc main_arg17) = B13 m ρ c (Proc.devRef .tc main_arg17))).trans <|
    ((B13_of_ne m ρ c main_arg17 (by decide))).trans <|
    ((B12_of_ne m ρ c main_arg17 (by decide))).trans <|
    ((StableHlo.after_of_writes_sub hostOps7 _ hostOps7_writes (by decide) : B11 m ρ c (Proc.devRef .tc main_arg17) = B10 m ρ c (Proc.devRef .tc main_arg17))).trans <|
    ((B10_of_ne m ρ c main_arg17 (by decide))).trans <|
    ((B9_of_ne m ρ c main_arg17 (by decide))).trans <|
    ((B8_of_ne m ρ c main_arg17 (by decide))).trans <|
    ((StableHlo.after_of_writes_sub hostOps4 _ hostOps4_writes (by decide) : B7 m ρ c (Proc.devRef .tc main_arg17) = B6 m ρ c (Proc.devRef .tc main_arg17))).trans <|
    ((B6_of_ne m ρ c main_arg17 (by decide))).trans <|
    ((B5_of_ne m ρ c main_arg17 (by decide))).trans <|
    ((B4_of_ne m ρ c main_arg17 (by decide))).trans <|
    ((StableHlo.after_of_writes_sub hostOps1 _ hostOps1_writes (by decide) : B3 m ρ c (Proc.devRef .tc main_arg17) = B2 m ρ c (Proc.devRef .tc main_arg17))).trans <|
    ((B2_of_ne m ρ c main_arg17 (by decide))).trans <|
    ((StableHlo.after_of_writes_sub hostOps0 _ hostOps0_writes (by decide) : B1 m ρ c (Proc.devRef .tc main_arg17) = B0 m ρ c (Proc.devRef .tc main_arg17))).trans <| rfl
/-- No item of @main writes the argument array: the last valuation holds it as launched. -/
theorem B16_main_arg18 (c : Dev nD) : B16 m ρ c (Proc.devRef .tc main_arg18) = m ((c : Thread nD τ).loc main_arg18) :=
  ((StableHlo.after_of_writes_sub hostOps10 _ hostOps10_writes (by decide) : B16 m ρ c (Proc.devRef .tc main_arg18) = B15 m ρ c (Proc.devRef .tc main_arg18))).trans <|
    ((B15_in_3 m ρ c)).trans <|
    ((StableHlo.after_of_writes_sub hostOps9 _ hostOps9_writes (by decide) : B14 m ρ c (Proc.devRef .tc main_arg18) = B13 m ρ c (Proc.devRef .tc main_arg18))).trans <|
    ((B13_of_ne m ρ c main_arg18 (by decide))).trans <|
    ((B12_of_ne m ρ c main_arg18 (by decide))).trans <|
    ((StableHlo.after_of_writes_sub hostOps7 _ hostOps7_writes (by decide) : B11 m ρ c (Proc.devRef .tc main_arg18) = B10 m ρ c (Proc.devRef .tc main_arg18))).trans <|
    ((B10_of_ne m ρ c main_arg18 (by decide))).trans <|
    ((B9_of_ne m ρ c main_arg18 (by decide))).trans <|
    ((B8_of_ne m ρ c main_arg18 (by decide))).trans <|
    ((StableHlo.after_of_writes_sub hostOps4 _ hostOps4_writes (by decide) : B7 m ρ c (Proc.devRef .tc main_arg18) = B6 m ρ c (Proc.devRef .tc main_arg18))).trans <|
    ((B6_of_ne m ρ c main_arg18 (by decide))).trans <|
    ((B5_of_ne m ρ c main_arg18 (by decide))).trans <|
    ((B4_of_ne m ρ c main_arg18 (by decide))).trans <|
    ((StableHlo.after_of_writes_sub hostOps1 _ hostOps1_writes (by decide) : B3 m ρ c (Proc.devRef .tc main_arg18) = B2 m ρ c (Proc.devRef .tc main_arg18))).trans <|
    ((B2_of_ne m ρ c main_arg18 (by decide))).trans <|
    ((StableHlo.after_of_writes_sub hostOps0 _ hostOps0_writes (by decide) : B1 m ρ c (Proc.devRef .tc main_arg18) = B0 m ρ c (Proc.devRef .tc main_arg18))).trans <| rfl
/-- No item of @main writes the argument array: the last valuation holds it as launched. -/
theorem B16_main_arg19 (c : Dev nD) : B16 m ρ c (Proc.devRef .tc main_arg19) = m ((c : Thread nD τ).loc main_arg19) :=
  ((StableHlo.after_of_writes_sub hostOps10 _ hostOps10_writes (by decide) : B16 m ρ c (Proc.devRef .tc main_arg19) = B15 m ρ c (Proc.devRef .tc main_arg19))).trans <|
    ((B15_of_ne m ρ c main_arg19 (by decide))).trans <|
    ((StableHlo.after_of_writes_sub hostOps9 _ hostOps9_writes (by decide) : B14 m ρ c (Proc.devRef .tc main_arg19) = B13 m ρ c (Proc.devRef .tc main_arg19))).trans <|
    ((B13_of_ne m ρ c main_arg19 (by decide))).trans <|
    ((B12_of_ne m ρ c main_arg19 (by decide))).trans <|
    ((StableHlo.after_of_writes_sub hostOps7 _ hostOps7_writes (by decide) : B11 m ρ c (Proc.devRef .tc main_arg19) = B10 m ρ c (Proc.devRef .tc main_arg19))).trans <|
    ((B10_of_ne m ρ c main_arg19 (by decide))).trans <|
    ((B9_of_ne m ρ c main_arg19 (by decide))).trans <|
    ((B8_of_ne m ρ c main_arg19 (by decide))).trans <|
    ((StableHlo.after_of_writes_sub hostOps4 _ hostOps4_writes (by decide) : B7 m ρ c (Proc.devRef .tc main_arg19) = B6 m ρ c (Proc.devRef .tc main_arg19))).trans <|
    ((B6_of_ne m ρ c main_arg19 (by decide))).trans <|
    ((B5_of_ne m ρ c main_arg19 (by decide))).trans <|
    ((B4_of_ne m ρ c main_arg19 (by decide))).trans <|
    ((StableHlo.after_of_writes_sub hostOps1 _ hostOps1_writes (by decide) : B3 m ρ c (Proc.devRef .tc main_arg19) = B2 m ρ c (Proc.devRef .tc main_arg19))).trans <|
    ((B2_of_ne m ρ c main_arg19 (by decide))).trans <|
    ((StableHlo.after_of_writes_sub hostOps0 _ hostOps0_writes (by decide) : B1 m ρ c (Proc.devRef .tc main_arg19) = B0 m ρ c (Proc.devRef .tc main_arg19))).trans <| rfl
/-- No item of @main writes the argument array: the last valuation holds it as launched. -/
theorem B16_main_arg20 (c : Dev nD) : B16 m ρ c (Proc.devRef .tc main_arg20) = m ((c : Thread nD τ).loc main_arg20) :=
  ((StableHlo.after_of_writes_sub hostOps10 _ hostOps10_writes (by decide) : B16 m ρ c (Proc.devRef .tc main_arg20) = B15 m ρ c (Proc.devRef .tc main_arg20))).trans <|
    ((B15_in_6 m ρ c)).trans <|
    ((StableHlo.after_of_writes_sub hostOps9 _ hostOps9_writes (by decide) : B14 m ρ c (Proc.devRef .tc main_arg20) = B13 m ρ c (Proc.devRef .tc main_arg20))).trans <|
    ((B13_of_ne m ρ c main_arg20 (by decide))).trans <|
    ((B12_of_ne m ρ c main_arg20 (by decide))).trans <|
    ((StableHlo.after_of_writes_sub hostOps7 _ hostOps7_writes (by decide) : B11 m ρ c (Proc.devRef .tc main_arg20) = B10 m ρ c (Proc.devRef .tc main_arg20))).trans <|
    ((B10_of_ne m ρ c main_arg20 (by decide))).trans <|
    ((B9_of_ne m ρ c main_arg20 (by decide))).trans <|
    ((B8_of_ne m ρ c main_arg20 (by decide))).trans <|
    ((StableHlo.after_of_writes_sub hostOps4 _ hostOps4_writes (by decide) : B7 m ρ c (Proc.devRef .tc main_arg20) = B6 m ρ c (Proc.devRef .tc main_arg20))).trans <|
    ((B6_of_ne m ρ c main_arg20 (by decide))).trans <|
    ((B5_of_ne m ρ c main_arg20 (by decide))).trans <|
    ((B4_of_ne m ρ c main_arg20 (by decide))).trans <|
    ((StableHlo.after_of_writes_sub hostOps1 _ hostOps1_writes (by decide) : B3 m ρ c (Proc.devRef .tc main_arg20) = B2 m ρ c (Proc.devRef .tc main_arg20))).trans <|
    ((B2_of_ne m ρ c main_arg20 (by decide))).trans <|
    ((StableHlo.after_of_writes_sub hostOps0 _ hostOps0_writes (by decide) : B1 m ρ c (Proc.devRef .tc main_arg20) = B0 m ρ c (Proc.devRef .tc main_arg20))).trans <| rfl
/-- No item of @main writes the argument array: the last valuation holds it as launched. -/
theorem B16_main_arg21 (c : Dev nD) : B16 m ρ c (Proc.devRef .tc main_arg21) = m ((c : Thread nD τ).loc main_arg21) :=
  ((StableHlo.after_of_writes_sub hostOps10 _ hostOps10_writes (by decide) : B16 m ρ c (Proc.devRef .tc main_arg21) = B15 m ρ c (Proc.devRef .tc main_arg21))).trans <|
    ((B15_of_ne m ρ c main_arg21 (by decide))).trans <|
    ((StableHlo.after_of_writes_sub hostOps9 _ hostOps9_writes (by decide) : B14 m ρ c (Proc.devRef .tc main_arg21) = B13 m ρ c (Proc.devRef .tc main_arg21))).trans <|
    ((B13_of_ne m ρ c main_arg21 (by decide))).trans <|
    ((B12_of_ne m ρ c main_arg21 (by decide))).trans <|
    ((StableHlo.after_of_writes_sub hostOps7 _ hostOps7_writes (by decide) : B11 m ρ c (Proc.devRef .tc main_arg21) = B10 m ρ c (Proc.devRef .tc main_arg21))).trans <|
    ((B10_of_ne m ρ c main_arg21 (by decide))).trans <|
    ((B9_of_ne m ρ c main_arg21 (by decide))).trans <|
    ((B8_of_ne m ρ c main_arg21 (by decide))).trans <|
    ((StableHlo.after_of_writes_sub hostOps4 _ hostOps4_writes (by decide) : B7 m ρ c (Proc.devRef .tc main_arg21) = B6 m ρ c (Proc.devRef .tc main_arg21))).trans <|
    ((B6_of_ne m ρ c main_arg21 (by decide))).trans <|
    ((B5_of_ne m ρ c main_arg21 (by decide))).trans <|
    ((B4_of_ne m ρ c main_arg21 (by decide))).trans <|
    ((StableHlo.after_of_writes_sub hostOps1 _ hostOps1_writes (by decide) : B3 m ρ c (Proc.devRef .tc main_arg21) = B2 m ρ c (Proc.devRef .tc main_arg21))).trans <|
    ((B2_of_ne m ρ c main_arg21 (by decide))).trans <|
    ((StableHlo.after_of_writes_sub hostOps0 _ hostOps0_writes (by decide) : B1 m ρ c (Proc.devRef .tc main_arg21) = B0 m ρ c (Proc.devRef .tc main_arg21))).trans <| rfl

/-! ## The frame, and the result -/

/-- The program terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_arg0 (by decide))).trans (B16_main_arg0 m ρ c),
      (h c _ (mem_uc main_arg1 (by decide))).trans (B16_main_arg1 m ρ c),
      (h c _ (mem_uc main_arg2 (by decide))).trans (B16_main_arg2 m ρ c),
      (h c _ (mem_uc main_arg3 (by decide))).trans (B16_main_arg3 m ρ c),
      (h c _ (mem_uc main_arg4 (by decide))).trans (B16_main_arg4 m ρ c),
      (h c _ (mem_uc main_arg5 (by decide))).trans (B16_main_arg5 m ρ c),
      (h c _ (mem_uc main_arg6 (by decide))).trans (B16_main_arg6 m ρ c),
      (h c _ (mem_uc main_arg7 (by decide))).trans (B16_main_arg7 m ρ c),
      (h c _ (mem_uc main_arg8 (by decide))).trans (B16_main_arg8 m ρ c),
      (h c _ (mem_uc main_arg9 (by decide))).trans (B16_main_arg9 m ρ c),
      (h c _ (mem_uc main_arg10 (by decide))).trans (B16_main_arg10 m ρ c),
      (h c _ (mem_uc main_arg11 (by decide))).trans (B16_main_arg11 m ρ c),
      (h c _ (mem_uc main_arg12 (by decide))).trans (B16_main_arg12 m ρ c),
      (h c _ (mem_uc main_arg13 (by decide))).trans (B16_main_arg13 m ρ c),
      (h c _ (mem_uc main_arg14 (by decide))).trans (B16_main_arg14 m ρ c),
      (h c _ (mem_uc main_arg15 (by decide))).trans (B16_main_arg15 m ρ c),
      (h c _ (mem_uc main_arg16 (by decide))).trans (B16_main_arg16 m ρ c),
      (h c _ (mem_uc main_arg17 (by decide))).trans (B16_main_arg17 m ρ c),
      (h c _ (mem_uc main_arg18 (by decide))).trans (B16_main_arg18 m ρ c),
      (h c _ (mem_uc main_arg19 (by decide))).trans (B16_main_arg19 m ρ c),
      (h c _ (mem_uc main_arg20 (by decide))).trans (B16_main_arg20 m ρ c),
      (h c _ (mem_uc main_arg21 (by decide))).trans (B16_main_arg21 m ρ c)⟩) (run_full m ρ)
/-- The same run with the result array named: it ends at the last valuation's contents of the result buffer. -/
theorem run_result : θ_run defs (onTc (τ := τ) (main (F := F))) ⟨m, fun _ => 0, ρ⟩ (fun r => ∀ c : Dev nD,
      r.2.mem ((c.tc : Thread nD τ).loc main_v144) = B16 m ρ c (Proc.devRef .tc main_v144)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨h c _ (mem_uc main_v144 (by decide)), (h c _ (mem_uc main_arg0 (by decide))).trans (B16_main_arg0 m ρ c),
      (h c _ (mem_uc main_arg1 (by decide))).trans (B16_main_arg1 m ρ c),
      (h c _ (mem_uc main_arg2 (by decide))).trans (B16_main_arg2 m ρ c),
      (h c _ (mem_uc main_arg3 (by decide))).trans (B16_main_arg3 m ρ c),
      (h c _ (mem_uc main_arg4 (by decide))).trans (B16_main_arg4 m ρ c),
      (h c _ (mem_uc main_arg5 (by decide))).trans (B16_main_arg5 m ρ c),
      (h c _ (mem_uc main_arg6 (by decide))).trans (B16_main_arg6 m ρ c),
      (h c _ (mem_uc main_arg7 (by decide))).trans (B16_main_arg7 m ρ c),
      (h c _ (mem_uc main_arg8 (by decide))).trans (B16_main_arg8 m ρ c),
      (h c _ (mem_uc main_arg9 (by decide))).trans (B16_main_arg9 m ρ c),
      (h c _ (mem_uc main_arg10 (by decide))).trans (B16_main_arg10 m ρ c),
      (h c _ (mem_uc main_arg11 (by decide))).trans (B16_main_arg11 m ρ c),
      (h c _ (mem_uc main_arg12 (by decide))).trans (B16_main_arg12 m ρ c),
      (h c _ (mem_uc main_arg13 (by decide))).trans (B16_main_arg13 m ρ c),
      (h c _ (mem_uc main_arg14 (by decide))).trans (B16_main_arg14 m ρ c),
      (h c _ (mem_uc main_arg15 (by decide))).trans (B16_main_arg15 m ρ c),
      (h c _ (mem_uc main_arg16 (by decide))).trans (B16_main_arg16 m ρ c),
      (h c _ (mem_uc main_arg17 (by decide))).trans (B16_main_arg17 m ρ c),
      (h c _ (mem_uc main_arg18 (by decide))).trans (B16_main_arg18 m ρ c),
      (h c _ (mem_uc main_arg19 (by decide))).trans (B16_main_arg19 m ρ c),
      (h c _ (mem_uc main_arg20 (by decide))).trans (B16_main_arg20 m ρ c),
      (h c _ (mem_uc main_arg21 (by decide))).trans (B16_main_arg21 m ρ c)⟩) (run_full m ρ)

end Cert.KernelIdeal.Hand

end
-- ==== Proof.Ref.Ops.lean ====
/- The reference program's @main as lists of its host operations, window by window: each printed
   operation in order, an outlined function's operations at its call site over that call's buffers
   (a nested call's likewise), and per window the buffers its operations write. -/
import proofs.«171894_j11897059410618_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 of 324 (window main_part0). -/
abbrev ops_part0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    binary main_arg0 main_arg4 main_v11 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v10 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v10 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)),
    unary main_v26 main_v27 (broadcastInDim S800000x1 ![0] bcast_S800000_S800000x1_0 : (⟨S800000, .f32⟩ : BufTy).Contents (Elt F) → (⟨S800000x1, .f32⟩ : BufTy).Contents (Elt F)),
    nullary main_c_5 (constantI S_ 32 0#32),
    unary main_c_5 main_v28 (broadcastInDim S800000 ![] bcast_S_S800000 : (⟨S_, .i32⟩ : BufTy).Contents (Elt F) → (⟨S800000, .i32⟩ : BufTy).Contents (Elt F)),
    binary main_v1 main_v28 main_v29 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v30 (broadcastInDim S800000 ![] bcast_S_S800000 : (⟨S_, .i32⟩ : BufTy).Contents (Elt F) → (⟨S800000, .i32⟩ : BufTy).Contents (Elt F)),
    binary main_v1 main_v30 main_v31 (addi : (⟨S800000, .i32⟩ : BufTy).Contents (Elt F) → (⟨S800000, .i32⟩ : BufTy).Contents (Elt F) → (⟨S800000, .i32⟩ : BufTy).Contents (Elt F)),
    ternary main_v29 main_v31 main_v1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v32 main_v33 (broadcastInDim S800000x1 ![0] bcast_S800000_S800000x1_0 : (⟨S800000, .i32⟩ : BufTy).Contents (Elt F) → (⟨S800000x1, .i32⟩ : BufTy).Contents (Elt F)),
    binary main_v11 main_v33 main_v34 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v27 main_v35 (broadcastInDim S800000x64 ![0, 1] bcast_S800000x1_S800000x64_0_1 : (⟨S800000x1, .f32⟩ : BufTy).Contents (Elt F) → (⟨S800000x64, .f32⟩ : BufTy).Contents (Elt F)),
    binary main_v34 main_v35 main_v36 (mulf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v37 (broadcastInDim S50000x64 ![] bcast_S_S50000x64 : (⟨S_, .f32⟩ : BufTy).Contents (Elt F) → (⟨S50000x64, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v10 main_v10 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x64 ![0, 1] bcast_S50000x1_S50000x64_0_1 : (⟨S50000x1, .f32⟩ : BufTy).Contents (Elt F) → (⟨S50000x64, .f32⟩ : BufTy).Contents (Elt F)),
    binary main_v11 main_v42 main_v43 (mulf : (⟨S50000x64, .f32⟩ : BufTy).Contents (Elt F) → (⟨S50000x64, .f32⟩ : BufTy).Contents (Elt F) → (⟨S50000x64, .f32⟩ : BufTy).Contents (Elt F)),
    binary main_v39 main_v43 main_v44 (addf : (⟨S50000x64, .f32⟩ : BufTy).Contents (Elt F) → (⟨S50000x64, .f32⟩ : BufTy).Contents (Elt F) → (⟨S50000x64, .f32⟩ : BufTy).Contents (Elt F)),
    unary main_arg5 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v44 main_v46 main_v47 (addf : (⟨S50000x64, .f32⟩ : BufTy).Contents (Elt F) → (⟨S50000x64, .f32⟩ : BufTy).Contents (Elt F) → (⟨S50000x64, .f32⟩ : BufTy).Contents (Elt F)),
    nullary main_cst_8 (constant S_ .f32 0x00000000#32),
    binary main_v47 main_cst_8 main_v48 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ]

/-- The buffers that window main_part0's operations write, in order. -/
abbrev ops_part0_W : List (Ref sig .tc) :=
  [main_v0, main_v1, main_v2, main_v3, main_cst, main_v4, main_cst_0, main_v5, main_v6, main_v7, main_cst_1, main_v8, main_v9, main_v10, main_v11, main_c, main_v12, main_v13, main_c_2, main_v14, main_v15, main_v16, main_v17, main_v18, main_c_3, main_v19, main_v20, main_c_4, main_v21, main_v22, main_v23, main_v24, main_v25, main_v26, main_v27, main_c_5, main_v28, main_v29, main_c_6, main_v30, main_v31, main_v32, main_v33, main_v34, main_v35, main_v36, main_cst_7, main_v37, main_v38, main_v39, main_v40, main_v41, main_v42, main_v43, main_v44, main_v45, main_v46, main_v47, main_cst_8, main_v48]

/-- @main's operations 61 … 143 of 324 (window main_part1). -/
abbrev ops_part1 : List (HloOp τ sig (Elt F)) :=
  [ nullary main_cst_9 (constant S_ .f32 0x47435000#32),
    unary main_cst_9 main_v49 (broadcastInDim S64 ![] bcast_S_S64 : (⟨S_, .f32⟩ : BufTy).Contents (Elt F) → (⟨S64, .f32⟩ : BufTy).Contents (Elt F)),
    binary main_v48 main_v49 main_v50 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary main_call0.cst (constant S_ .f32 0x00000000#32),
    TRef.binary (TRef.of (T := ⟨S50000x64, .f32⟩) main_v47) main_call0.cst main_call0.v0 (fun x v => Host.reduceAdd x v reducesTo_S50000x64_S64_d0 h_S_),
    TRef.unary main_call0.v0 main_call0.v1 (broadcastInDim S1x64 ![1] bcast_S64_S1x64_1),
    TRef.nullary main_call0.cst_0 (constant S_ .f32 0x47435000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S50000x64 ![0, 1] bcast_S1x64_S50000x64_0_1),
    TRef.binary (TRef.of (T := ⟨S50000x64, .f32⟩) main_v47) main_call0.v4 main_call0.v5 subf,
    TRef.binary main_call0.v5 main_call0.v5 main_call0.v6 mulf,
    TRef.unary (TRef.of (T := ⟨S_, .i32⟩) main_c_10) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v50 main_v52 (broadcastInDim S1x64 ![1] bcast_S64_S1x64_1 : (⟨S64, .f32⟩ : BufTy).Contents (Elt F) → (⟨S1x64, .f32⟩ : BufTy).Contents (Elt F)),
    unary main_v52 main_v53 (broadcastInDim S50000x64 ![0, 1] bcast_S1x64_S50000x64_0_1 : (⟨S1x64, .f32⟩ : BufTy).Contents (Elt F) → (⟨S50000x64, .f32⟩ : BufTy).Contents (Elt F)),
    binary main_v47 main_v53 main_v54 (subf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3727C5AC#32),
    unary main_cst_11 main_v55 (broadcastInDim S64 ![] bcast_S_S64 : (⟨S_, .f32⟩ : BufTy).Contents (Elt F) → (⟨S64, .f32⟩ : BufTy).Contents (Elt F)),
    binary main_v51 main_v55 main_v56 (addf : (⟨S64, .f32⟩ : BufTy).Contents (Elt F) → (⟨S64, .f32⟩ : BufTy).Contents (Elt F) → (⟨S64, .f32⟩ : BufTy).Contents (Elt F)),
    unary main_v56 main_v57 (Host.rsqrt : (⟨S64, .f32⟩ : BufTy).Contents (Elt F) → (⟨S64, .f32⟩ : BufTy).Contents (Elt F)),
    unary main_v57 main_v58 (broadcastInDim S1x64 ![1] bcast_S64_S1x64_1 : (⟨S64, .f32⟩ : BufTy).Contents (Elt F) → (⟨S1x64, .f32⟩ : BufTy).Contents (Elt F)),
    unary main_v58 main_v59 (broadcastInDim S50000x64 ![0, 1] bcast_S1x64_S50000x64_0_1 : (⟨S1x64, .f32⟩ : BufTy).Contents (Elt F) → (⟨S50000x64, .f32⟩ : BufTy).Contents (Elt F)),
    binary main_v54 main_v59 main_v60 (mulf : (⟨S50000x64, .f32⟩ : BufTy).Contents (Elt F) → (⟨S50000x64, .f32⟩ : BufTy).Contents (Elt F) → (⟨S50000x64, .f32⟩ : BufTy).Contents (Elt F)),
    unary main_arg6 main_v61 (broadcastInDim S1x64 ![1] bcast_S64_S1x64_1 : (⟨S64, .f32⟩ : BufTy).Contents (Elt F) → (⟨S1x64, .f32⟩ : BufTy).Contents (Elt F)),
    unary main_v61 main_v62 (broadcastInDim S50000x64 ![0, 1] bcast_S1x64_S50000x64_0_1 : (⟨S1x64, .f32⟩ : BufTy).Contents (Elt F) → (⟨S50000x64, .f32⟩ : BufTy).Contents (Elt F)),
    binary main_v60 main_v62 main_v63 (mulf : (⟨S50000x64, .f32⟩ : BufTy).Contents (Elt F) → (⟨S50000x64, .f32⟩ : BufTy).Contents (Elt F) → (⟨S50000x64, .f32⟩ : BufTy).Contents (Elt F)),
    unary main_arg7 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)),
    TRef.nullary main_call1.cst (constant S_ .f32 0x00000000#32),
    TRef.unary main_call1.cst main_call1.v0 (broadcastInDim S50000x64 ![] bcast_S_S50000x64),
    TRef.binary (TRef.of (T := ⟨S50000x64, .f32⟩) main_v66) main_call1.v0 main_call1.v1 maximumf,
    binary main_v67 main_arg8 main_v68 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_12 (constantI S_ 32 0#32),
    unary main_c_12 main_v69 (broadcastInDim S800000 ![] bcast_S_S800000 : (⟨S_, .i32⟩ : BufTy).Contents (Elt F) → (⟨S800000, .i32⟩ : BufTy).Contents (Elt F)),
    binary main_v1 main_v69 main_v70 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v71 (broadcastInDim S800000 ![] bcast_S_S800000 : (⟨S_, .i32⟩ : BufTy).Contents (Elt F) → (⟨S800000, .i32⟩ : BufTy).Contents (Elt F)),
    binary main_v1 main_v71 main_v72 (addi : (⟨S800000, .i32⟩ : BufTy).Contents (Elt F) → (⟨S800000, .i32⟩ : BufTy).Contents (Elt F) → (⟨S800000, .i32⟩ : BufTy).Contents (Elt F)),
    ternary main_v70 main_v72 main_v1 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v73 main_v74 (broadcastInDim S800000x1 ![0] bcast_S800000_S800000x1_0 : (⟨S800000, .i32⟩ : BufTy).Contents (Elt F) → (⟨S800000x1, .i32⟩ : BufTy).Contents (Elt F)),
    binary main_v10 main_v74 main_v75 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_14 (constantI S_ 32 0#32),
    unary main_c_14 main_v76 (broadcastInDim S800000 ![] bcast_S_S800000 : (⟨S_, .i32⟩ : BufTy).Contents (Elt F) → (⟨S800000, .i32⟩ : BufTy).Contents (Elt F)),
    binary main_v3 main_v76 main_v77 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v78 (broadcastInDim S800000 ![] bcast_S_S800000 : (⟨S_, .i32⟩ : BufTy).Contents (Elt F) → (⟨S800000, .i32⟩ : BufTy).Contents (Elt F)),
    binary main_v3 main_v78 main_v79 (addi : (⟨S800000, .i32⟩ : BufTy).Contents (Elt F) → (⟨S800000, .i32⟩ : BufTy).Contents (Elt F) → (⟨S800000, .i32⟩ : BufTy).Contents (Elt F)),
    ternary main_v77 main_v79 main_v3 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v80 main_v81 (broadcastInDim S800000x1 ![0] bcast_S800000_S800000x1_0 : (⟨S800000, .i32⟩ : BufTy).Contents (Elt F) → (⟨S800000x1, .i32⟩ : BufTy).Contents (Elt F)),
    binary main_v10 main_v81 main_v82 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v75 main_v82 main_v83 (mulf : (⟨S800000, .f32⟩ : BufTy).Contents (Elt F) → (⟨S800000, .f32⟩ : BufTy).Contents (Elt F) → (⟨S800000, .f32⟩ : BufTy).Contents (Elt F)),
    unary main_v83 main_v84 (broadcastInDim S800000x1 ![0] bcast_S800000_S800000x1_0 : (⟨S800000, .f32⟩ : BufTy).Contents (Elt F) → (⟨S800000x1, .f32⟩ : BufTy).Contents (Elt F)),
    nullary main_c_16 (constantI S_ 32 0#32),
    unary main_c_16 main_v85 (broadcastInDim S800000 ![] bcast_S_S800000 : (⟨S_, .i32⟩ : BufTy).Contents (Elt F) → (⟨S800000, .i32⟩ : BufTy).Contents (Elt F)),
    binary main_v1 main_v85 main_v86 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v87 (broadcastInDim S800000 ![] bcast_S_S800000 : (⟨S_, .i32⟩ : BufTy).Contents (Elt F) → (⟨S800000, .i32⟩ : BufTy).Contents (Elt F)),
    binary main_v1 main_v87 main_v88 (addi : (⟨S800000, .i32⟩ : BufTy).Contents (Elt F) → (⟨S800000, .i32⟩ : BufTy).Contents (Elt F) → (⟨S800000, .i32⟩ : BufTy).Contents (Elt F)),
    ternary main_v86 main_v88 main_v1 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v89 main_v90 (broadcastInDim S800000x1 ![0] bcast_S800000_S800000x1_0 : (⟨S800000, .i32⟩ : BufTy).Contents (Elt F) → (⟨S800000x1, .i32⟩ : BufTy).Contents (Elt F)),
    binary main_v68 main_v90 main_v91 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v84 main_v92 (broadcastInDim S800000x64 ![0, 1] bcast_S800000x1_S800000x64_0_1 : (⟨S800000x1, .f32⟩ : BufTy).Contents (Elt F) → (⟨S800000x64, .f32⟩ : BufTy).Contents (Elt F)),
    binary main_v91 main_v92 main_v93 (mulf : (⟨S800000x64, .f32⟩ : BufTy).Contents (Elt F) → (⟨S800000x64, .f32⟩ : BufTy).Contents (Elt F) → (⟨S800000x64, .f32⟩ : BufTy).Contents (Elt F)),
    nullary main_cst_18 (constant S_ .f32 0x00000000#32),
    unary main_cst_18 main_v94 (broadcastInDim S50000x64 ![] bcast_S_S50000x64 : (⟨S_, .f32⟩ : BufTy).Contents (Elt F) → (⟨S50000x64, .f32⟩ : BufTy).Contents (Elt F)),
    unary main_v3 main_v95 (broadcastInDim S800000x1 ![0] bcast_S800000_S800000x1_0 : (⟨S800000, .i32⟩ : BufTy).Contents (Elt F) → (⟨S800000x1, .i32⟩ : BufTy).Contents (Elt F)),
    ternary main_v94 main_v95 main_v93 main_v96 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v10 main_v10 main_v97 (mulf : (⟨S50000, .f32⟩ : BufTy).Contents (Elt F) → (⟨S50000, .f32⟩ : BufTy).Contents (Elt F) → (⟨S50000, .f32⟩ : BufTy).Contents (Elt F)),
    unary main_v97 main_v98 (broadcastInDim S50000x1 ![0] bcast_S50000_S50000x1_0 : (⟨S50000, .f32⟩ : BufTy).Contents (Elt F) → (⟨S50000x1, .f32⟩ : BufTy).Contents (Elt F)) ]

/-- The buffers that window main_part1's operations write, in order. -/
abbrev ops_part1_W : List (Ref sig .tc) :=
  [main_cst_9, main_v49, main_v50, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v51, main_v52, main_v53, main_v54, main_cst_11, main_v55, main_v56, main_v57, main_v58, main_v59, main_v60, main_v61, main_v62, main_v63, main_v64, main_v65, main_v66, main_call1_cst, main_call1_v0, main_v67, main_v68, main_c_12, main_v69, main_v70, main_c_13, main_v71, main_v72, main_v73, main_v74, main_v75, main_c_14, main_v76, main_v77, main_c_15, main_v78, main_v79, main_v80, main_v81, main_v82, main_v83, main_v84, main_c_16, main_v85, main_v86, main_c_17, main_v87, main_v88, main_v89, main_v90, main_v91, main_v92, main_v93, main_cst_18, main_v94, main_v95, main_v96, main_v97, main_v98]

/-- @main's operations 144 … 226 of 324 (window main_part2). -/
abbrev ops_part2 : List (HloOp τ sig (Elt F)) :=
  [ unary main_v98 main_v99 (broadcastInDim S50000x64 ![0, 1] bcast_S50000x1_S50000x64_0_1 : (⟨S50000x1, .f32⟩ : BufTy).Contents (Elt F) → (⟨S50000x64, .f32⟩ : BufTy).Contents (Elt F)),
    binary main_v68 main_v99 main_v100 (mulf : (⟨S50000x64, .f32⟩ : BufTy).Contents (Elt F) → (⟨S50000x64, .f32⟩ : BufTy).Contents (Elt F) → (⟨S50000x64, .f32⟩ : BufTy).Contents (Elt F)),
    binary main_v96 main_v100 main_v101 (addf : (⟨S50000x64, .f32⟩ : BufTy).Contents (Elt F) → (⟨S50000x64, .f32⟩ : BufTy).Contents (Elt F) → (⟨S50000x64, .f32⟩ : BufTy).Contents (Elt F)),
    unary main_arg9 main_v102 (broadcastInDim S1x64 ![1] bcast_S64_S1x64_1 : (⟨S64, .f32⟩ : BufTy).Contents (Elt F) → (⟨S1x64, .f32⟩ : BufTy).Contents (Elt F)),
    unary main_v102 main_v103 (broadcastInDim S50000x64 ![0, 1] bcast_S1x64_S50000x64_0_1 : (⟨S1x64, .f32⟩ : BufTy).Contents (Elt F) → (⟨S50000x64, .f32⟩ : BufTy).Contents (Elt F)),
    binary main_v101 main_v103 main_v104 (addf : (⟨S50000x64, .f32⟩ : BufTy).Contents (Elt F) → (⟨S50000x64, .f32⟩ : BufTy).Contents (Elt F) → (⟨S50000x64, .f32⟩ : BufTy).Contents (Elt F)),
    nullary main_cst_19 (constant S_ .f32 0x00000000#32),
    binary main_v104 main_cst_19 main_v105 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_20 (constant S_ .f32 0x47435000#32),
    unary main_cst_20 main_v106 (broadcastInDim S64 ![] bcast_S_S64 : (⟨S_, .f32⟩ : BufTy).Contents (Elt F) → (⟨S64, .f32⟩ : BufTy).Contents (Elt F)),
    binary main_v105 main_v106 main_v107 (Host.divf : (⟨S64, .f32⟩ : BufTy).Contents (Elt F) → (⟨S64, .f32⟩ : BufTy).Contents (Elt F) → (⟨S64, .f32⟩ : BufTy).Contents (Elt F)),
    nullary main_c_21 (constantI S_ 32 0#32),
    TRef.nullary main_call2.cst (constant S_ .f32 0x00000000#32),
    TRef.binary (TRef.of (T := ⟨S50000x64, .f32⟩) main_v104) main_call2.cst main_call2.v0 (fun x v => Host.reduceAdd x v reducesTo_S50000x64_S64_d0 h_S_),
    TRef.unary main_call2.v0 main_call2.v1 (broadcastInDim S1x64 ![1] bcast_S64_S1x64_1),
    TRef.nullary main_call2.cst_0 (constant S_ .f32 0x47435000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S50000x64 ![0, 1] bcast_S1x64_S50000x64_0_1),
    TRef.binary (TRef.of (T := ⟨S50000x64, .f32⟩) main_v104) main_call2.v4 main_call2.v5 subf,
    TRef.binary main_call2.v5 main_call2.v5 main_call2.v6 mulf,
    TRef.unary (TRef.of (T := ⟨S_, .i32⟩) main_c_21) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v107 main_v109 (broadcastInDim S1x64 ![1] bcast_S64_S1x64_1 : (⟨S64, .f32⟩ : BufTy).Contents (Elt F) → (⟨S1x64, .f32⟩ : BufTy).Contents (Elt F)),
    unary main_v109 main_v110 (broadcastInDim S50000x64 ![0, 1] bcast_S1x64_S50000x64_0_1 : (⟨S1x64, .f32⟩ : BufTy).Contents (Elt F) → (⟨S50000x64, .f32⟩ : BufTy).Contents (Elt F)),
    binary main_v104 main_v110 main_v111 (subf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x3727C5AC#32),
    unary main_cst_22 main_v112 (broadcastInDim S64 ![] bcast_S_S64 : (⟨S_, .f32⟩ : BufTy).Contents (Elt F) → (⟨S64, .f32⟩ : BufTy).Contents (Elt F)),
    binary main_v108 main_v112 main_v113 (addf : (⟨S64, .f32⟩ : BufTy).Contents (Elt F) → (⟨S64, .f32⟩ : BufTy).Contents (Elt F) → (⟨S64, .f32⟩ : BufTy).Contents (Elt F)),
    unary main_v113 main_v114 (Host.rsqrt : (⟨S64, .f32⟩ : BufTy).Contents (Elt F) → (⟨S64, .f32⟩ : BufTy).Contents (Elt F)),
    unary main_v114 main_v115 (broadcastInDim S1x64 ![1] bcast_S64_S1x64_1 : (⟨S64, .f32⟩ : BufTy).Contents (Elt F) → (⟨S1x64, .f32⟩ : BufTy).Contents (Elt F)),
    unary main_v115 main_v116 (broadcastInDim S50000x64 ![0, 1] bcast_S1x64_S50000x64_0_1 : (⟨S1x64, .f32⟩ : BufTy).Contents (Elt F) → (⟨S50000x64, .f32⟩ : BufTy).Contents (Elt F)),
    binary main_v111 main_v116 main_v117 (mulf : (⟨S50000x64, .f32⟩ : BufTy).Contents (Elt F) → (⟨S50000x64, .f32⟩ : BufTy).Contents (Elt F) → (⟨S50000x64, .f32⟩ : BufTy).Contents (Elt F)),
    unary main_arg10 main_v118 (broadcastInDim S1x64 ![1] bcast_S64_S1x64_1 : (⟨S64, .f32⟩ : BufTy).Contents (Elt F) → (⟨S1x64, .f32⟩ : BufTy).Contents (Elt F)),
    unary main_v118 main_v119 (broadcastInDim S50000x64 ![0, 1] bcast_S1x64_S50000x64_0_1 : (⟨S1x64, .f32⟩ : BufTy).Contents (Elt F) → (⟨S50000x64, .f32⟩ : BufTy).Contents (Elt F)),
    binary main_v117 main_v119 main_v120 (mulf : (⟨S50000x64, .f32⟩ : BufTy).Contents (Elt F) → (⟨S50000x64, .f32⟩ : BufTy).Contents (Elt F) → (⟨S50000x64, .f32⟩ : BufTy).Contents (Elt F)),
    unary main_arg11 main_v121 (broadcastInDim S1x64 ![1] bcast_S64_S1x64_1 : (⟨S64, .f32⟩ : BufTy).Contents (Elt F) → (⟨S1x64, .f32⟩ : BufTy).Contents (Elt F)),
    unary main_v121 main_v122 (broadcastInDim S50000x64 ![0, 1] bcast_S1x64_S50000x64_0_1 : (⟨S1x64, .f32⟩ : BufTy).Contents (Elt F) → (⟨S50000x64, .f32⟩ : BufTy).Contents (Elt F)),
    binary main_v120 main_v122 main_v123 (addf : (⟨S50000x64, .f32⟩ : BufTy).Contents (Elt F) → (⟨S50000x64, .f32⟩ : BufTy).Contents (Elt F) → (⟨S50000x64, .f32⟩ : BufTy).Contents (Elt F)),
    binary main_v123 main_v67 main_v124 (addf : (⟨S50000x64, .f32⟩ : BufTy).Contents (Elt F) → (⟨S50000x64, .f32⟩ : BufTy).Contents (Elt F) → (⟨S50000x64, .f32⟩ : BufTy).Contents (Elt F)),
    TRef.nullary main_call3.cst (constant S_ .f32 0x00000000#32),
    TRef.unary main_call3.cst main_call3.v0 (broadcastInDim S50000x64 ![] bcast_S_S50000x64),
    TRef.binary (TRef.of (T := ⟨S50000x64, .f32⟩) main_v124) main_call3.v0 main_call3.v1 maximumf,
    binary main_v125 main_arg12 main_v126 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_23 (constantI S_ 32 0#32),
    unary main_c_23 main_v127 (broadcastInDim S800000 ![] bcast_S_S800000 : (⟨S_, .i32⟩ : BufTy).Contents (Elt F) → (⟨S800000, .i32⟩ : BufTy).Contents (Elt F)),
    binary main_v1 main_v127 main_v128 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v129 (broadcastInDim S800000 ![] bcast_S_S800000 : (⟨S_, .i32⟩ : BufTy).Contents (Elt F) → (⟨S800000, .i32⟩ : BufTy).Contents (Elt F)),
    binary main_v1 main_v129 main_v130 (addi : (⟨S800000, .i32⟩ : BufTy).Contents (Elt F) → (⟨S800000, .i32⟩ : BufTy).Contents (Elt F) → (⟨S800000, .i32⟩ : BufTy).Contents (Elt F)),
    ternary main_v128 main_v130 main_v1 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v131 main_v132 (broadcastInDim S800000x1 ![0] bcast_S800000_S800000x1_0 : (⟨S800000, .i32⟩ : BufTy).Contents (Elt F) → (⟨S800000x1, .i32⟩ : BufTy).Contents (Elt F)),
    binary main_v10 main_v132 main_v133 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_25 (constantI S_ 32 0#32),
    unary main_c_25 main_v134 (broadcastInDim S800000 ![] bcast_S_S800000 : (⟨S_, .i32⟩ : BufTy).Contents (Elt F) → (⟨S800000, .i32⟩ : BufTy).Contents (Elt F)),
    binary main_v3 main_v134 main_v135 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v136 (broadcastInDim S800000 ![] bcast_S_S800000 : (⟨S_, .i32⟩ : BufTy).Contents (Elt F) → (⟨S800000, .i32⟩ : BufTy).Contents (Elt F)),
    binary main_v3 main_v136 main_v137 (addi : (⟨S800000, .i32⟩ : BufTy).Contents (Elt F) → (⟨S800000, .i32⟩ : BufTy).Contents (Elt F) → (⟨S800000, .i32⟩ : BufTy).Contents (Elt F)),
    ternary main_v135 main_v137 main_v3 main_v138 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v138 main_v139 (broadcastInDim S800000x1 ![0] bcast_S800000_S800000x1_0 : (⟨S800000, .i32⟩ : BufTy).Contents (Elt F) → (⟨S800000x1, .i32⟩ : BufTy).Contents (Elt F)),
    binary main_v10 main_v139 main_v140 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v133 main_v140 main_v141 (mulf : (⟨S800000, .f32⟩ : BufTy).Contents (Elt F) → (⟨S800000, .f32⟩ : BufTy).Contents (Elt F) → (⟨S800000, .f32⟩ : BufTy).Contents (Elt F)),
    unary main_v141 main_v142 (broadcastInDim S800000x1 ![0] bcast_S800000_S800000x1_0 : (⟨S800000, .f32⟩ : BufTy).Contents (Elt F) → (⟨S800000x1, .f32⟩ : BufTy).Contents (Elt F)),
    nullary main_c_27 (constantI S_ 32 0#32),
    unary main_c_27 main_v143 (broadcastInDim S800000 ![] bcast_S_S800000 : (⟨S_, .i32⟩ : BufTy).Contents (Elt F) → (⟨S800000, .i32⟩ : BufTy).Contents (Elt F)),
    binary main_v1 main_v143 main_v144 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v145 (broadcastInDim S800000 ![] bcast_S_S800000 : (⟨S_, .i32⟩ : BufTy).Contents (Elt F) → (⟨S800000, .i32⟩ : BufTy).Contents (Elt F)),
    binary main_v1 main_v145 main_v146 (addi : (⟨S800000, .i32⟩ : BufTy).Contents (Elt F) → (⟨S800000, .i32⟩ : BufTy).Contents (Elt F) → (⟨S800000, .i32⟩ : BufTy).Contents (Elt F)),
    ternary main_v144 main_v146 main_v1 main_v147 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v147 main_v148 (broadcastInDim S800000x1 ![0] bcast_S800000_S800000x1_0 : (⟨S800000, .i32⟩ : BufTy).Contents (Elt F) → (⟨S800000x1, .i32⟩ : BufTy).Contents (Elt F)) ]

/-- The buffers that window main_part2's operations write, in order. -/
abbrev ops_part2_W : List (Ref sig .tc) :=
  [main_v99, main_v100, main_v101, main_v102, main_v103, main_v104, main_cst_19, main_v105, main_cst_20, main_v106, main_v107, main_c_21, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v108, main_v109, main_v110, main_v111, main_cst_22, main_v112, main_v113, main_v114, main_v115, main_v116, main_v117, main_v118, main_v119, main_v120, main_v121, main_v122, main_v123, main_v124, main_call3_cst, main_call3_v0, main_v125, main_v126, main_c_23, main_v127, main_v128, main_c_24, main_v129, main_v130, main_v131, main_v132, main_v133, main_c_25, main_v134, main_v135, main_c_26, main_v136, main_v137, main_v138, main_v139, main_v140, main_v141, main_v142, main_c_27, main_v143, main_v144, main_c_28, main_v145, main_v146, main_v147, main_v148]

/-- @main's operations 227 … 311 of 324 (window main_part3). -/
abbrev ops_part3 : List (HloOp τ sig (Elt F)) :=
  [ binary main_v126 main_v148 main_v149 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v142 main_v150 (broadcastInDim S800000x64 ![0, 1] bcast_S800000x1_S800000x64_0_1 : (⟨S800000x1, .f32⟩ : BufTy).Contents (Elt F) → (⟨S800000x64, .f32⟩ : BufTy).Contents (Elt F)),
    binary main_v149 main_v150 main_v151 (mulf : (⟨S800000x64, .f32⟩ : BufTy).Contents (Elt F) → (⟨S800000x64, .f32⟩ : BufTy).Contents (Elt F) → (⟨S800000x64, .f32⟩ : BufTy).Contents (Elt F)),
    nullary main_cst_29 (constant S_ .f32 0x00000000#32),
    unary main_cst_29 main_v152 (broadcastInDim S50000x64 ![] bcast_S_S50000x64 : (⟨S_, .f32⟩ : BufTy).Contents (Elt F) → (⟨S50000x64, .f32⟩ : BufTy).Contents (Elt F)),
    unary main_v3 main_v153 (broadcastInDim S800000x1 ![0] bcast_S800000_S800000x1_0 : (⟨S800000, .i32⟩ : BufTy).Contents (Elt F) → (⟨S800000x1, .i32⟩ : BufTy).Contents (Elt F)),
    ternary main_v152 main_v153 main_v151 main_v154 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v10 main_v10 main_v155 (mulf : (⟨S50000, .f32⟩ : BufTy).Contents (Elt F) → (⟨S50000, .f32⟩ : BufTy).Contents (Elt F) → (⟨S50000, .f32⟩ : BufTy).Contents (Elt F)),
    unary main_v155 main_v156 (broadcastInDim S50000x1 ![0] bcast_S50000_S50000x1_0 : (⟨S50000, .f32⟩ : BufTy).Contents (Elt F) → (⟨S50000x1, .f32⟩ : BufTy).Contents (Elt F)),
    unary main_v156 main_v157 (broadcastInDim S50000x64 ![0, 1] bcast_S50000x1_S50000x64_0_1 : (⟨S50000x1, .f32⟩ : BufTy).Contents (Elt F) → (⟨S50000x64, .f32⟩ : BufTy).Contents (Elt F)),
    binary main_v126 main_v157 main_v158 (mulf : (⟨S50000x64, .f32⟩ : BufTy).Contents (Elt F) → (⟨S50000x64, .f32⟩ : BufTy).Contents (Elt F) → (⟨S50000x64, .f32⟩ : BufTy).Contents (Elt F)),
    binary main_v154 main_v158 main_v159 (addf : (⟨S50000x64, .f32⟩ : BufTy).Contents (Elt F) → (⟨S50000x64, .f32⟩ : BufTy).Contents (Elt F) → (⟨S50000x64, .f32⟩ : BufTy).Contents (Elt F)),
    unary main_arg13 main_v160 (broadcastInDim S1x64 ![1] bcast_S64_S1x64_1 : (⟨S64, .f32⟩ : BufTy).Contents (Elt F) → (⟨S1x64, .f32⟩ : BufTy).Contents (Elt F)),
    unary main_v160 main_v161 (broadcastInDim S50000x64 ![0, 1] bcast_S1x64_S50000x64_0_1 : (⟨S1x64, .f32⟩ : BufTy).Contents (Elt F) → (⟨S50000x64, .f32⟩ : BufTy).Contents (Elt F)),
    binary main_v159 main_v161 main_v162 (addf : (⟨S50000x64, .f32⟩ : BufTy).Contents (Elt F) → (⟨S50000x64, .f32⟩ : BufTy).Contents (Elt F) → (⟨S50000x64, .f32⟩ : BufTy).Contents (Elt F)),
    nullary main_cst_30 (constant S_ .f32 0x00000000#32),
    binary main_v162 main_cst_30 main_v163 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_31 (constant S_ .f32 0x47435000#32),
    unary main_cst_31 main_v164 (broadcastInDim S64 ![] bcast_S_S64 : (⟨S_, .f32⟩ : BufTy).Contents (Elt F) → (⟨S64, .f32⟩ : BufTy).Contents (Elt F)),
    binary main_v163 main_v164 main_v165 (Host.divf : (⟨S64, .f32⟩ : BufTy).Contents (Elt F) → (⟨S64, .f32⟩ : BufTy).Contents (Elt F) → (⟨S64, .f32⟩ : BufTy).Contents (Elt F)),
    nullary main_c_32 (constantI S_ 32 0#32),
    TRef.nullary main_call4.cst (constant S_ .f32 0x00000000#32),
    TRef.binary (TRef.of (T := ⟨S50000x64, .f32⟩) main_v162) main_call4.cst main_call4.v0 (fun x v => Host.reduceAdd x v reducesTo_S50000x64_S64_d0 h_S_),
    TRef.unary main_call4.v0 main_call4.v1 (broadcastInDim S1x64 ![1] bcast_S64_S1x64_1),
    TRef.nullary main_call4.cst_0 (constant S_ .f32 0x47435000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S50000x64 ![0, 1] bcast_S1x64_S50000x64_0_1),
    TRef.binary (TRef.of (T := ⟨S50000x64, .f32⟩) main_v162) main_call4.v4 main_call4.v5 subf,
    TRef.binary main_call4.v5 main_call4.v5 main_call4.v6 mulf,
    TRef.unary (TRef.of (T := ⟨S_, .i32⟩) main_c_32) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v165 main_v167 (broadcastInDim S1x64 ![1] bcast_S64_S1x64_1 : (⟨S64, .f32⟩ : BufTy).Contents (Elt F) → (⟨S1x64, .f32⟩ : BufTy).Contents (Elt F)),
    unary main_v167 main_v168 (broadcastInDim S50000x64 ![0, 1] bcast_S1x64_S50000x64_0_1 : (⟨S1x64, .f32⟩ : BufTy).Contents (Elt F) → (⟨S50000x64, .f32⟩ : BufTy).Contents (Elt F)),
    binary main_v162 main_v168 main_v169 (subf : (⟨S50000x64, .f32⟩ : BufTy).Contents (Elt F) → (⟨S50000x64, .f32⟩ : BufTy).Contents (Elt F) → (⟨S50000x64, .f32⟩ : BufTy).Contents (Elt F)),
    nullary main_cst_33 (constant S_ .f32 0x3727C5AC#32),
    unary main_cst_33 main_v170 (broadcastInDim S64 ![] bcast_S_S64 : (⟨S_, .f32⟩ : BufTy).Contents (Elt F) → (⟨S64, .f32⟩ : BufTy).Contents (Elt F)),
    binary main_v166 main_v170 main_v171 (addf : (⟨S64, .f32⟩ : BufTy).Contents (Elt F) → (⟨S64, .f32⟩ : BufTy).Contents (Elt F) → (⟨S64, .f32⟩ : BufTy).Contents (Elt F)),
    unary main_v171 main_v172 (Host.rsqrt : (⟨S64, .f32⟩ : BufTy).Contents (Elt F) → (⟨S64, .f32⟩ : BufTy).Contents (Elt F)),
    unary main_v172 main_v173 (broadcastInDim S1x64 ![1] bcast_S64_S1x64_1 : (⟨S64, .f32⟩ : BufTy).Contents (Elt F) → (⟨S1x64, .f32⟩ : BufTy).Contents (Elt F)),
    unary main_v173 main_v174 (broadcastInDim S50000x64 ![0, 1] bcast_S1x64_S50000x64_0_1 : (⟨S1x64, .f32⟩ : BufTy).Contents (Elt F) → (⟨S50000x64, .f32⟩ : BufTy).Contents (Elt F)),
    binary main_v169 main_v174 main_v175 (mulf : (⟨S50000x64, .f32⟩ : BufTy).Contents (Elt F) → (⟨S50000x64, .f32⟩ : BufTy).Contents (Elt F) → (⟨S50000x64, .f32⟩ : BufTy).Contents (Elt F)),
    unary main_arg14 main_v176 (broadcastInDim S1x64 ![1] bcast_S64_S1x64_1 : (⟨S64, .f32⟩ : BufTy).Contents (Elt F) → (⟨S1x64, .f32⟩ : BufTy).Contents (Elt F)),
    unary main_v176 main_v177 (broadcastInDim S50000x64 ![0, 1] bcast_S1x64_S50000x64_0_1 : (⟨S1x64, .f32⟩ : BufTy).Contents (Elt F) → (⟨S50000x64, .f32⟩ : BufTy).Contents (Elt F)),
    binary main_v175 main_v177 main_v178 (mulf : (⟨S50000x64, .f32⟩ : BufTy).Contents (Elt F) → (⟨S50000x64, .f32⟩ : BufTy).Contents (Elt F) → (⟨S50000x64, .f32⟩ : BufTy).Contents (Elt F)),
    unary main_arg15 main_v179 (broadcastInDim S1x64 ![1] bcast_S64_S1x64_1 : (⟨S64, .f32⟩ : BufTy).Contents (Elt F) → (⟨S1x64, .f32⟩ : BufTy).Contents (Elt F)),
    unary main_v179 main_v180 (broadcastInDim S50000x64 ![0, 1] bcast_S1x64_S50000x64_0_1 : (⟨S1x64, .f32⟩ : BufTy).Contents (Elt F) → (⟨S50000x64, .f32⟩ : BufTy).Contents (Elt F)),
    binary main_v178 main_v180 main_v181 (addf : (⟨S50000x64, .f32⟩ : BufTy).Contents (Elt F) → (⟨S50000x64, .f32⟩ : BufTy).Contents (Elt F) → (⟨S50000x64, .f32⟩ : BufTy).Contents (Elt F)),
    TRef.nullary main_call5.cst (constant S_ .f32 0x00000000#32),
    TRef.unary main_call5.cst main_call5.v0 (broadcastInDim S50000x64 ![] bcast_S_S50000x64),
    TRef.binary (TRef.of (T := ⟨S50000x64, .f32⟩) main_v181) main_call5.v0 main_call5.v1 maximumf,
    nullary main_cst_34 (constant S_ .f32 0x00000000#32),
    unary main_cst_34 main_v183 (broadcastInDim S256x64 ![] bcast_S_S256x64 : (⟨S_, .f32⟩ : BufTy).Contents (Elt F) → (⟨S256x64, .f32⟩ : BufTy).Contents (Elt F)),
    unary main_arg2 main_v184 (broadcastInDim S50000x1 ![0] bcast_S50000_S50000x1_0 : (⟨S50000, .i32⟩ : BufTy).Contents (Elt F) → (⟨S50000x1, .i32⟩ : BufTy).Contents (Elt F)),
    ternary main_v183 main_v184 main_v182 main_v185 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    nullary main_cst_35 (constant S_ .f32 0x3F800000#32),
    unary main_cst_35 main_v186 (broadcastInDim S50000 ![] bcast_S_S50000 : (⟨S_, .f32⟩ : BufTy).Contents (Elt F) → (⟨S50000, .f32⟩ : BufTy).Contents (Elt F)),
    nullary main_cst_36 (constant S_ .f32 0x00000000#32),
    unary main_cst_36 main_v187 (broadcastInDim S256 ![] bcast_S_S256 : (⟨S_, .f32⟩ : BufTy).Contents (Elt F) → (⟨S256, .f32⟩ : BufTy).Contents (Elt F)),
    unary main_arg2 main_v188 (broadcastInDim S50000x1 ![0] bcast_S50000_S50000x1_0 : (⟨S50000, .i32⟩ : BufTy).Contents (Elt F) → (⟨S50000x1, .i32⟩ : BufTy).Contents (Elt F)),
    ternary main_v187 main_v188 main_v186 main_v189 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_37 (constant S_ .f32 0x3F800000#32),
    unary main_cst_37 main_v190 (broadcastInDim S256 ![] bcast_S_S256 : (⟨S_, .f32⟩ : BufTy).Contents (Elt F) → (⟨S256, .f32⟩ : BufTy).Contents (Elt F)),
    binary main_v189 main_v190 main_v191 (maximumf : (⟨S256, .f32⟩ : BufTy).Contents (Elt F) → (⟨S256, .f32⟩ : BufTy).Contents (Elt F) → (⟨S256, .f32⟩ : BufTy).Contents (Elt F)),
    unary main_v191 main_v192 (broadcastInDim S256x1 ![0] bcast_S256_S256x1_0 : (⟨S256, .f32⟩ : BufTy).Contents (Elt F) → (⟨S256x1, .f32⟩ : BufTy).Contents (Elt F)),
    unary main_v192 main_v193 (broadcastInDim S256x64 ![0, 1] bcast_S256x1_S256x64_0_1 : (⟨S256x1, .f32⟩ : BufTy).Contents (Elt F) → (⟨S256x64, .f32⟩ : BufTy).Contents (Elt F)),
    binary main_v185 main_v193 main_v194 (Host.divf : (⟨S256x64, .f32⟩ : BufTy).Contents (Elt F) → (⟨S256x64, .f32⟩ : BufTy).Contents (Elt F) → (⟨S256x64, .f32⟩ : BufTy).Contents (Elt F)),
    binary main_arg3 main_arg16 main_v195 ((fun l r => Host.dotGeneral dot_S256x64_S64x128_S256x128_1_0_0_1_n_n none l r) : (⟨S256x64, .f32⟩ : BufTy).Contents (Elt F) → (⟨S64x128, .f32⟩ : BufTy).Contents (Elt F) → (⟨S256x128, .f32⟩ : BufTy).Contents (Elt F)),
    unary main_arg17 main_v196 (broadcastInDim S1x128 ![1] bcast_S128_S1x128_1 : (⟨S128, .f32⟩ : BufTy).Contents (Elt F) → (⟨S1x128, .f32⟩ : BufTy).Contents (Elt F)),
    unary main_v196 main_v197 (broadcastInDim S256x128 ![0, 1] bcast_S1x128_S256x128_0_1 : (⟨S1x128, .f32⟩ : BufTy).Contents (Elt F) → (⟨S256x128, .f32⟩ : BufTy).Contents (Elt F)),
    binary main_v195 main_v197 main_v198 (addf : (⟨S256x128, .f32⟩ : BufTy).Contents (Elt F) → (⟨S256x128, .f32⟩ : BufTy).Contents (Elt F) → (⟨S256x128, .f32⟩ : BufTy).Contents (Elt F)),
    TRef.nullary main_call6.cst (constant S_ .f32 0x00000000#32),
    TRef.unary main_call6.cst main_call6.v0 (broadcastInDim S256x128 ![] bcast_S_S256x128),
    TRef.binary (TRef.of (T := ⟨S256x128, .f32⟩) main_v198) main_call6.v0 main_call6.v1 maximumf ]

/-- The buffers that window main_part3's operations write, in order. -/
abbrev ops_part3_W : List (Ref sig .tc) :=
  [main_v149, main_v150, main_v151, main_cst_29, main_v152, main_v153, main_v154, main_v155, main_v156, main_v157, main_v158, main_v159, main_v160, main_v161, main_v162, main_cst_30, main_v163, main_cst_31, main_v164, main_v165, main_c_32, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v166, main_v167, main_v168, main_v169, main_cst_33, main_v170, main_v171, main_v172, main_v173, main_v174, main_v175, main_v176, main_v177, main_v178, main_v179, main_v180, main_v181, main_call5_cst, main_call5_v0, main_v182, main_cst_34, main_v183, main_v184, main_v185, main_cst_35, main_v186, main_cst_36, main_v187, main_v188, main_v189, main_cst_37, main_v190, main_v191, main_v192, main_v193, main_v194, main_v195, main_v196, main_v197, main_v198, main_call6_cst, main_call6_v0, main_v199]

/-- @main's operations 312 … 324 of 324 (window main_part4). -/
abbrev ops_part4 : List (HloOp τ sig (Elt F)) :=
  [ binary main_v199 main_arg18 main_v200 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    unary main_arg19 main_v201 (broadcastInDim S1x64 ![1] bcast_S64_S1x64_1 : (⟨S64, .f32⟩ : BufTy).Contents (Elt F) → (⟨S1x64, .f32⟩ : BufTy).Contents (Elt F)),
    unary main_v201 main_v202 (broadcastInDim S256x64 ![0, 1] bcast_S1x64_S256x64_0_1 : (⟨S1x64, .f32⟩ : BufTy).Contents (Elt F) → (⟨S256x64, .f32⟩ : BufTy).Contents (Elt F)),
    binary main_v200 main_v202 main_v203 (addf : (⟨S256x64, .f32⟩ : BufTy).Contents (Elt F) → (⟨S256x64, .f32⟩ : BufTy).Contents (Elt F) → (⟨S256x64, .f32⟩ : BufTy).Contents (Elt F)),
    TRef.nullary main_call7.cst (constant S_ .f32 0x00000000#32),
    TRef.unary main_call7.cst main_call7.v0 (broadcastInDim S256x64 ![] bcast_S_S256x64),
    TRef.binary (TRef.of (T := ⟨S256x64, .f32⟩) main_v203) main_call7.v0 main_call7.v1 maximumf,
    binary main_v194 main_v204 main_v205 ((fun a b => concatenate S256x128 1 [⟨S256x64, a⟩, ⟨S256x64, b⟩] concatenates_S256x64_S256x64_S256x128_d1) : (⟨S256x64, .f32⟩ : BufTy).Contents (Elt F) → (⟨S256x64, .f32⟩ : BufTy).Contents (Elt F) → (⟨S256x128, .f32⟩ : BufTy).Contents (Elt F)),
    binary main_v205 main_arg20 main_v206 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    unary main_arg21 main_v207 (broadcastInDim S1x1 ![1] bcast_S1_S1x1_1 : (⟨S1, .f32⟩ : BufTy).Contents (Elt F) → (⟨S1x1, .f32⟩ : BufTy).Contents (Elt F)),
    unary main_v207 main_v208 (broadcastInDim S256x1 ![0, 1] bcast_S1x1_S256x1_0_1 : (⟨S1x1, .f32⟩ : BufTy).Contents (Elt F) → (⟨S256x1, .f32⟩ : BufTy).Contents (Elt F)),
    binary main_v206 main_v208 main_v209 (addf : (⟨S256x1, .f32⟩ : BufTy).Contents (Elt F) → (⟨S256x1, .f32⟩ : BufTy).Contents (Elt F) → (⟨S256x1, .f32⟩ : BufTy).Contents (Elt F)),
    reshape main_v209 main_v210 rfl shapeCasts_S256x1_S256 ]

/-- The buffers that window main_part4's operations write, in order. -/
abbrev ops_part4_W : List (Ref sig .tc) :=
  [main_v200, main_v201, main_v202, main_v203, main_call7_cst, main_call7_v0, main_v204, main_v205, main_v206, main_v207, main_v208, main_v209, main_v210]

/-- @main's 324 operations, in order. -/
abbrev ops : List (HloOp τ sig (Elt F)) :=
  ops_part0 ++ (ops_part1 ++ (ops_part2 ++ (ops_part3 ++ (ops_part4))))

end Cert.ReferenceIdeal.HandRun

end
-- ==== Proof.Ref.Run.lean ====
/- The run of the reference program. @main is the straight line of its host operations, window by window
   (`main_partN_eq`, `main_eq`: an outlined function's body unfolds at its call, a nested call's inside it);
   every operation touches TensorCore buffers only (`ops_sub`); each window writes exactly the buffers listed
   for it (`ops_partN_writes`), none of them an argument of @main, so the fold of the operations leaves the
   arguments' contents as they were (`after_ops_keep`). Hence (`run`): from any memory with zero counters every
   weakly fair execution of @main terminates, the result buffer holds the fold of the operations over the
   launch contents read at that buffer (`res`), and the twenty-two arguments are unchanged. -/
import proofs.«171894_j11897059410618_1_alg».proof.Proof.Ref.Ops
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## @main is the line of its operations -/

set_option maxRecDepth 8192 in
set_option maxHeartbeats 4000000 in
/-- Window 0 of @main is the line of its operations: both sides are one chain of `hlo` steps. -/
theorem main_part0_eq (c : Dev nD) : main_part0 (F := F) c = seq ops_part0 := rfl

set_option maxRecDepth 8192 in
set_option maxHeartbeats 4000000 in
/-- Window 1 of @main is the line of its operations: both sides are one chain of `hlo` steps. -/
theorem main_part1_eq (c : Dev nD) : main_part1 (F := F) c = seq ops_part1 := rfl

set_option maxRecDepth 8192 in
set_option maxHeartbeats 4000000 in
/-- Window 2 of @main is the line of its operations: both sides are one chain of `hlo` steps. -/
theorem main_part2_eq (c : Dev nD) : main_part2 (F := F) c = seq ops_part2 := rfl

set_option maxRecDepth 8192 in
set_option maxHeartbeats 4000000 in
/-- Window 3 of @main is the line of its operations: both sides are one chain of `hlo` steps. -/
theorem main_part3_eq (c : Dev nD) : main_part3 (F := F) c = seq ops_part3 := rfl

set_option maxRecDepth 8192 in
set_option maxHeartbeats 4000000 in
/-- Window 4 of @main is the line of its operations: both sides are one chain of `hlo` steps. -/
theorem main_part4_eq (c : Dev nD) : main_part4 (F := F) c = seq ops_part4 := rfl

set_option maxRecDepth 8192 in
/-- @main runs its windows in order, and a line of lines is the line of their concatenation (`seq_append`). -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

set_option maxRecDepth 8192 in
set_option maxHeartbeats 4000000 in
theorem ops_part0_sub : (ops_part0 : List (HloOp τ sig (Elt F))).Forall fun op => op.bufs ⊆ tcRefs τ sig := by
  repeat' apply And.intro
  all_goals first
    | exact nullary_bufs_sub .. | exact unary_bufs_sub .. | exact binary_bufs_sub ..
    | exact ternary_bufs_sub .. | exact reshape_bufs_sub ..

set_option maxRecDepth 8192 in
set_option maxHeartbeats 4000000 in
theorem ops_part1_sub : (ops_part1 : List (HloOp τ sig (Elt F))).Forall fun op => op.bufs ⊆ tcRefs τ sig := by
  repeat' apply And.intro
  all_goals first
    | exact nullary_bufs_sub .. | exact unary_bufs_sub .. | exact binary_bufs_sub ..
    | exact ternary_bufs_sub .. | exact reshape_bufs_sub ..

set_option maxRecDepth 8192 in
set_option maxHeartbeats 4000000 in
theorem ops_part2_sub : (ops_part2 : List (HloOp τ sig (Elt F))).Forall fun op => op.bufs ⊆ tcRefs τ sig := by
  repeat' apply And.intro
  all_goals first
    | exact nullary_bufs_sub .. | exact unary_bufs_sub .. | exact binary_bufs_sub ..
    | exact ternary_bufs_sub .. | exact reshape_bufs_sub ..

set_option maxRecDepth 8192 in
set_option maxHeartbeats 4000000 in
theorem ops_part3_sub : (ops_part3 : List (HloOp τ sig (Elt F))).Forall fun op => op.bufs ⊆ tcRefs τ sig := by
  repeat' apply And.intro
  all_goals first
    | exact nullary_bufs_sub .. | exact unary_bufs_sub .. | exact binary_bufs_sub ..
    | exact ternary_bufs_sub .. | exact reshape_bufs_sub ..

set_option maxRecDepth 8192 in
set_option maxHeartbeats 4000000 in
theorem ops_part4_sub : (ops_part4 : List (HloOp τ sig (Elt F))).Forall fun op => op.bufs ⊆ tcRefs τ sig := by
  repeat' apply And.intro
  all_goals first
    | exact nullary_bufs_sub .. | exact unary_bufs_sub .. | exact binary_bufs_sub ..
    | exact ternary_bufs_sub .. | exact reshape_bufs_sub ..

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h]

/-! ## What each window writes, and what it keeps -/

/-- A buffer among a list, as a singleton of device buffers within the list's. -/
theorem singleton_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
set_option maxHeartbeats 4000000 in
/-- Each operation of window 0 writes its result buffer, which `ops_part0_W` lists. -/
theorem ops_part0_writes : (ops_part0 : List (HloOp τ sig (Elt F))).Forall fun op =>
    op.writes ⊆ (ops_part0_W.map (Proc.devRef (τ := τ) .tc)).toFinset := by
  repeat' apply And.intro
  all_goals exact singleton_sub_of_mem (by decide)

/-- A buffer window 0 does not write keeps its contents through it. -/
theorem keep0 (V : Valuation τ sig (Elt F)) {r : Ref sig .tc} (h : r ∉ ops_part0_W) :
    after ops_part0 V (Proc.devRef .tc r) = V (Proc.devRef .tc r) :=
  after_of_writes_sub ops_part0 V ops_part0_writes h

set_option maxRecDepth 8192 in
set_option maxHeartbeats 4000000 in
/-- Each operation of window 1 writes its result buffer, which `ops_part1_W` lists. -/
theorem ops_part1_writes : (ops_part1 : List (HloOp τ sig (Elt F))).Forall fun op =>
    op.writes ⊆ (ops_part1_W.map (Proc.devRef (τ := τ) .tc)).toFinset := by
  repeat' apply And.intro
  all_goals exact singleton_sub_of_mem (by decide)

/-- A buffer window 1 does not write keeps its contents through it. -/
theorem keep1 (V : Valuation τ sig (Elt F)) {r : Ref sig .tc} (h : r ∉ ops_part1_W) :
    after ops_part1 V (Proc.devRef .tc r) = V (Proc.devRef .tc r) :=
  after_of_writes_sub ops_part1 V ops_part1_writes h

set_option maxRecDepth 8192 in
set_option maxHeartbeats 4000000 in
/-- Each operation of window 2 writes its result buffer, which `ops_part2_W` lists. -/
theorem ops_part2_writes : (ops_part2 : List (HloOp τ sig (Elt F))).Forall fun op =>
    op.writes ⊆ (ops_part2_W.map (Proc.devRef (τ := τ) .tc)).toFinset := by
  repeat' apply And.intro
  all_goals exact singleton_sub_of_mem (by decide)

/-- A buffer window 2 does not write keeps its contents through it. -/
theorem keep2 (V : Valuation τ sig (Elt F)) {r : Ref sig .tc} (h : r ∉ ops_part2_W) :
    after ops_part2 V (Proc.devRef .tc r) = V (Proc.devRef .tc r) :=
  after_of_writes_sub ops_part2 V ops_part2_writes h

set_option maxRecDepth 8192 in
set_option maxHeartbeats 4000000 in
/-- Each operation of window 3 writes its result buffer, which `ops_part3_W` lists. -/
theorem ops_part3_writes : (ops_part3 : List (HloOp τ sig (Elt F))).Forall fun op =>
    op.writes ⊆ (ops_part3_W.map (Proc.devRef (τ := τ) .tc)).toFinset := by
  repeat' apply And.intro
  all_goals exact singleton_sub_of_mem (by decide)

/-- A buffer window 3 does not write keeps its contents through it. -/
theorem keep3 (V : Valuation τ sig (Elt F)) {r : Ref sig .tc} (h : r ∉ ops_part3_W) :
    after ops_part3 V (Proc.devRef .tc r) = V (Proc.devRef .tc r) :=
  after_of_writes_sub ops_part3 V ops_part3_writes h

set_option maxRecDepth 8192 in
set_option maxHeartbeats 4000000 in
/-- Each operation of window 4 writes its result buffer, which `ops_part4_W` lists. -/
theorem ops_part4_writes : (ops_part4 : List (HloOp τ sig (Elt F))).Forall fun op =>
    op.writes ⊆ (ops_part4_W.map (Proc.devRef (τ := τ) .tc)).toFinset := by
  repeat' apply And.intro
  all_goals exact singleton_sub_of_mem (by decide)

/-- A buffer window 4 does not write keeps its contents through it. -/
theorem keep4 (V : Valuation τ sig (Elt F)) {r : Ref sig .tc} (h : r ∉ ops_part4_W) :
    after ops_part4 V (Proc.devRef .tc r) = V (Proc.devRef .tc r) :=
  after_of_writes_sub ops_part4 V ops_part4_writes h

/-- A buffer no window writes keeps its contents through @main's whole line. -/
theorem after_ops_keep (V : Valuation τ sig (Elt F)) {r : Ref sig .tc}
    (h0 : r ∉ ops_part0_W) (h1 : r ∉ ops_part1_W) (h2 : r ∉ ops_part2_W) (h3 : r ∉ ops_part3_W) (h4 : r ∉ ops_part4_W) :
    after ops V (Proc.devRef .tc r) = V (Proc.devRef .tc r) := by
  simp only [ops, after_append]
  rw [keep4 _ h4, keep3 _ h3, keep2 _ h2, keep1 _ h1, keep0 _ h0]

/-! ## The run -/

/-- The reference's result on device `c` from launch memory `m`: the fold of @main's operations over the
    launch contents, read at the returned buffer. -/
def res (m : (ℓ : Loc nD τ sig) → Buf (Elt F) ℓ) (c : Dev nD) : Buf (Elt F) ((c.tc : Thread nD τ).loc main_v210) :=
  after ops (launchContents m c) (Proc.devRef .tc main_v210)

/-- On every device, for any float values, from any memory with zero counters: every weakly fair execution of
    @main terminates with every TensorCore buffer at the fold of the operations over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

/-- … with the result buffer at `res` and the twenty-two arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v210) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨h c main_v210,
      (h c main_arg0).trans (after_ops_keep _ (by decide) (by decide) (by decide) (by decide) (by decide)),
      (h c main_arg1).trans (after_ops_keep _ (by decide) (by decide) (by decide) (by decide) (by decide)),
      (h c main_arg2).trans (after_ops_keep _ (by decide) (by decide) (by decide) (by decide) (by decide)),
      (h c main_arg3).trans (after_ops_keep _ (by decide) (by decide) (by decide) (by decide) (by decide)),
      (h c main_arg4).trans (after_ops_keep _ (by decide) (by decide) (by decide) (by decide) (by decide)),
      (h c main_arg5).trans (after_ops_keep _ (by decide) (by decide) (by decide) (by decide) (by decide)),
      (h c main_arg6).trans (after_ops_keep _ (by decide) (by decide) (by decide) (by decide) (by decide)),
      (h c main_arg7).trans (after_ops_keep _ (by decide) (by decide) (by decide) (by decide) (by decide)),
      (h c main_arg8).trans (after_ops_keep _ (by decide) (by decide) (by decide) (by decide) (by decide)),
      (h c main_arg9).trans (after_ops_keep _ (by decide) (by decide) (by decide) (by decide) (by decide)),
      (h c main_arg10).trans (after_ops_keep _ (by decide) (by decide) (by decide) (by decide) (by decide)),
      (h c main_arg11).trans (after_ops_keep _ (by decide) (by decide) (by decide) (by decide) (by decide)),
      (h c main_arg12).trans (after_ops_keep _ (by decide) (by decide) (by decide) (by decide) (by decide)),
      (h c main_arg13).trans (after_ops_keep _ (by decide) (by decide) (by decide) (by decide) (by decide)),
      (h c main_arg14).trans (after_ops_keep _ (by decide) (by decide) (by decide) (by decide) (by decide)),
      (h c main_arg15).trans (after_ops_keep _ (by decide) (by decide) (by decide) (by decide) (by decide)),
      (h c main_arg16).trans (after_ops_keep _ (by decide) (by decide) (by decide) (by decide) (by decide)),
      (h c main_arg17).trans (after_ops_keep _ (by decide) (by decide) (by decide) (by decide) (by decide)),
      (h c main_arg18).trans (after_ops_keep _ (by decide) (by decide) (by decide) (by decide) (by decide)),
      (h c main_arg19).trans (after_ops_keep _ (by decide) (by decide) (by decide) (by decide) (by decide)),
      (h c main_arg20).trans (after_ops_keep _ (by decide) (by decide) (by decide) (by decide) (by decide)),
      (h c main_arg21).trans (after_ops_keep _ (by decide) (by decide) (by decide) (by decide) (by decide))⟩)
    (run_all m ρ)

end Cert.ReferenceIdeal.HandRun

end
-- ==== Proof.Preserves.lean ====
/-
  The one rewrite that separates the idealized kernel program from the printed one: the statistics kernels multiply
  their column sums by the f32 word nearest to 1/50000, and the idealized program reads that word as the rational
  1/50000 (the number of rows is 50000).
-/
import proofs.«171894_j11897059410618_1_alg».proof.Defs

noncomputable section

namespace Cert.Proof.Parts

open Idealize.ShloMosaic

/-- The kernel multiplies a column sum by the f32 word nearest to 1/50000 (the source writes 1.0 / N with N = 50000
    rows). The idealized program reads that word as the rational 1/50000 itself, through the certificate's table of
    named constants; this is the table's entry, stated at the constant's site. -/
theorem inv_rows : IdealRules.named_const.Statement Cert.KernelIdeal.κ "inv_50000" .f32 0x37A7C5AC#32 ((1 / 50000 : ℝ) : EReal) :=
  IdealRules.named_const.statement Cert.KernelIdeal.κ "inv_50000" .f32 0x37A7C5AC#32 ((1 / 50000 : ℝ) : EReal) rfl

/-- The idealized kernel differs from the printed one only by that reading, at its six sites (two in each of the
    three statistics kernels). -/
theorem preserves : Cert.preserves_Kernel_KernelIdeal :=
  ⟨inv_rows, inv_rows, inv_rows, inv_rows, inv_rows, inv_rows⟩

end Cert.Proof.Parts

end
-- ==== Proof.KI.Keep.lean ====
/-
  Buffers that no item of @main writes between two boundaries hold the same contents at both: a host stretch
  changes only the buffers its operations write, a region only the arrays of its output windows.
-/
import proofs.«171894_j11897059410618_1_alg».proof.Proof.KI.Frame

set_option maxRecDepth 16384

noncomputable section

namespace Cert.KernelIdeal.Hand

open Cert.KernelIdeal.Gen
open Idealize.ShloMosaic Idealize.ShloMosaic.TcCoe

variable {F : FTy → Type} [FloatOps F] [Named F]
variable (m : (ℓ : Loc nD τ sig) → Buf (Elt F) ℓ) (ρ : Dev nD → PrngReg)

theorem B1_main_arg0_of_B0 (c : Dev nD) : B1 m ρ c (Proc.devRef .tc main_arg0) = B0 m ρ c (Proc.devRef .tc main_arg0) :=
  ((StableHlo.after_of_writes_sub hostOps0 _ hostOps0_writes (by decide) : B1 m ρ c (Proc.devRef .tc main_arg0) = B0 m ρ c (Proc.devRef .tc main_arg0))).trans <| rfl
theorem B1_main_arg4_of_B0 (c : Dev nD) : B1 m ρ c (Proc.devRef .tc main_arg4) = B0 m ρ c (Proc.devRef .tc main_arg4) :=
  ((StableHlo.after_of_writes_sub hostOps0 _ hostOps0_writes (by decide) : B1 m ρ c (Proc.devRef .tc main_arg4) = B0 m ρ c (Proc.devRef .tc main_arg4))).trans <| rfl
theorem B2_main_arg5_of_B0 (c : Dev nD) : B2 m ρ c (Proc.devRef .tc main_arg5) = B0 m ρ c (Proc.devRef .tc main_arg5) :=
  ((B2_of_ne m ρ c main_arg5 (by decide))).trans <|
    ((StableHlo.after_of_writes_sub hostOps0 _ hostOps0_writes (by decide) : B1 m ρ c (Proc.devRef .tc main_arg5) = B0 m ρ c (Proc.devRef .tc main_arg5))).trans <| rfl
theorem B2_main_arg6_of_B0 (c : Dev nD) : B2 m ρ c (Proc.devRef .tc main_arg6) = B0 m ρ c (Proc.devRef .tc main_arg6) :=
  ((B2_of_ne m ρ c main_arg6 (by decide))).trans <|
    ((StableHlo.after_of_writes_sub hostOps0 _ hostOps0_writes (by decide) : B1 m ρ c (Proc.devRef .tc main_arg6) = B0 m ρ c (Proc.devRef .tc main_arg6))).trans <| rfl
theorem B2_main_arg7_of_B0 (c : Dev nD) : B2 m ρ c (Proc.devRef .tc main_arg7) = B0 m ρ c (Proc.devRef .tc main_arg7) :=
  ((B2_of_ne m ρ c main_arg7 (by decide))).trans <|
    ((StableHlo.after_of_writes_sub hostOps0 _ hostOps0_writes (by decide) : B1 m ρ c (Proc.devRef .tc main_arg7) = B0 m ρ c (Proc.devRef .tc main_arg7))).trans <| rfl
theorem B5_main_arg8_of_B0 (c : Dev nD) : B5 m ρ c (Proc.devRef .tc main_arg8) = B0 m ρ c (Proc.devRef .tc main_arg8) :=
  ((B5_of_ne m ρ c main_arg8 (by decide))).trans <|
    ((B4_of_ne m ρ c main_arg8 (by decide))).trans <|
    ((StableHlo.after_of_writes_sub hostOps1 _ hostOps1_writes (by decide) : B3 m ρ c (Proc.devRef .tc main_arg8) = B2 m ρ c (Proc.devRef .tc main_arg8))).trans <|
    ((B2_of_ne m ρ c main_arg8 (by decide))).trans <|
    ((StableHlo.after_of_writes_sub hostOps0 _ hostOps0_writes (by decide) : B1 m ρ c (Proc.devRef .tc main_arg8) = B0 m ρ c (Proc.devRef .tc main_arg8))).trans <| rfl
theorem B6_main_arg9_of_B0 (c : Dev nD) : B6 m ρ c (Proc.devRef .tc main_arg9) = B0 m ρ c (Proc.devRef .tc main_arg9) :=
  ((B6_of_ne m ρ c main_arg9 (by decide))).trans <|
    ((B5_of_ne m ρ c main_arg9 (by decide))).trans <|
    ((B4_of_ne m ρ c main_arg9 (by decide))).trans <|
    ((StableHlo.after_of_writes_sub hostOps1 _ hostOps1_writes (by decide) : B3 m ρ c (Proc.devRef .tc main_arg9) = B2 m ρ c (Proc.devRef .tc main_arg9))).trans <|
    ((B2_of_ne m ρ c main_arg9 (by decide))).trans <|
    ((StableHlo.after_of_writes_sub hostOps0 _ hostOps0_writes (by decide) : B1 m ρ c (Proc.devRef .tc main_arg9) = B0 m ρ c (Proc.devRef .tc main_arg9))).trans <| rfl
theorem B6_main_arg10_of_B0 (c : Dev nD) : B6 m ρ c (Proc.devRef .tc main_arg10) = B0 m ρ c (Proc.devRef .tc main_arg10) :=
  ((B6_of_ne m ρ c main_arg10 (by decide))).trans <|
    ((B5_of_ne m ρ c main_arg10 (by decide))).trans <|
    ((B4_of_ne m ρ c main_arg10 (by decide))).trans <|
    ((StableHlo.after_of_writes_sub hostOps1 _ hostOps1_writes (by decide) : B3 m ρ c (Proc.devRef .tc main_arg10) = B2 m ρ c (Proc.devRef .tc main_arg10))).trans <|
    ((B2_of_ne m ρ c main_arg10 (by decide))).trans <|
    ((StableHlo.after_of_writes_sub hostOps0 _ hostOps0_writes (by decide) : B1 m ρ c (Proc.devRef .tc main_arg10) = B0 m ρ c (Proc.devRef .tc main_arg10))).trans <| rfl
theorem B6_main_arg11_of_B0 (c : Dev nD) : B6 m ρ c (Proc.devRef .tc main_arg11) = B0 m ρ c (Proc.devRef .tc main_arg11) :=
  ((B6_of_ne m ρ c main_arg11 (by decide))).trans <|
    ((B5_of_ne m ρ c main_arg11 (by decide))).trans <|
    ((B4_of_ne m ρ c main_arg11 (by decide))).trans <|
    ((StableHlo.after_of_writes_sub hostOps1 _ hostOps1_writes (by decide) : B3 m ρ c (Proc.devRef .tc main_arg11) = B2 m ρ c (Proc.devRef .tc main_arg11))).trans <|
    ((B2_of_ne m ρ c main_arg11 (by decide))).trans <|
    ((StableHlo.after_of_writes_sub hostOps0 _ hostOps0_writes (by decide) : B1 m ρ c (Proc.devRef .tc main_arg11) = B0 m ρ c (Proc.devRef .tc main_arg11))).trans <| rfl
theorem B9_main_arg12_of_B0 (c : Dev nD) : B9 m ρ c (Proc.devRef .tc main_arg12) = B0 m ρ c (Proc.devRef .tc main_arg12) :=
  ((B9_of_ne m ρ c main_arg12 (by decide))).trans <|
    ((B8_of_ne m ρ c main_arg12 (by decide))).trans <|
    ((StableHlo.after_of_writes_sub hostOps4 _ hostOps4_writes (by decide) : B7 m ρ c (Proc.devRef .tc main_arg12) = B6 m ρ c (Proc.devRef .tc main_arg12))).trans <|
    ((B6_of_ne m ρ c main_arg12 (by decide))).trans <|
    ((B5_of_ne m ρ c main_arg12 (by decide))).trans <|
    ((B4_of_ne m ρ c main_arg12 (by decide))).trans <|
    ((StableHlo.after_of_writes_sub hostOps1 _ hostOps1_writes (by decide) : B3 m ρ c (Proc.devRef .tc main_arg12) = B2 m ρ c (Proc.devRef .tc main_arg12))).trans <|
    ((B2_of_ne m ρ c main_arg12 (by decide))).trans <|
    ((StableHlo.after_of_writes_sub hostOps0 _ hostOps0_writes (by decide) : B1 m ρ c (Proc.devRef .tc main_arg12) = B0 m ρ c (Proc.devRef .tc main_arg12))).trans <| rfl
theorem B10_main_arg13_of_B0 (c : Dev nD) : B10 m ρ c (Proc.devRef .tc main_arg13) = B0 m ρ c (Proc.devRef .tc main_arg13) :=
  ((B10_of_ne m ρ c main_arg13 (by decide))).trans <|
    ((B9_of_ne m ρ c main_arg13 (by decide))).trans <|
    ((B8_of_ne m ρ c main_arg13 (by decide))).trans <|
    ((StableHlo.after_of_writes_sub hostOps4 _ hostOps4_writes (by decide) : B7 m ρ c (Proc.devRef .tc main_arg13) = B6 m ρ c (Proc.devRef .tc main_arg13))).trans <|
    ((B6_of_ne m ρ c main_arg13 (by decide))).trans <|
    ((B5_of_ne m ρ c main_arg13 (by decide))).trans <|
    ((B4_of_ne m ρ c main_arg13 (by decide))).trans <|
    ((StableHlo.after_of_writes_sub hostOps1 _ hostOps1_writes (by decide) : B3 m ρ c (Proc.devRef .tc main_arg13) = B2 m ρ c (Proc.devRef .tc main_arg13))).trans <|
    ((B2_of_ne m ρ c main_arg13 (by decide))).trans <|
    ((StableHlo.after_of_writes_sub hostOps0 _ hostOps0_writes (by decide) : B1 m ρ c (Proc.devRef .tc main_arg13) = B0 m ρ c (Proc.devRef .tc main_arg13))).trans <| rfl
theorem B10_main_arg14_of_B0 (c : Dev nD) : B10 m ρ c (Proc.devRef .tc main_arg14) = B0 m ρ c (Proc.devRef .tc main_arg14) :=
  ((B10_of_ne m ρ c main_arg14 (by decide))).trans <|
    ((B9_of_ne m ρ c main_arg14 (by decide))).trans <|
    ((B8_of_ne m ρ c main_arg14 (by decide))).trans <|
    ((StableHlo.after_of_writes_sub hostOps4 _ hostOps4_writes (by decide) : B7 m ρ c (Proc.devRef .tc main_arg14) = B6 m ρ c (Proc.devRef .tc main_arg14))).trans <|
    ((B6_of_ne m ρ c main_arg14 (by decide))).trans <|
    ((B5_of_ne m ρ c main_arg14 (by decide))).trans <|
    ((B4_of_ne m ρ c main_arg14 (by decide))).trans <|
    ((StableHlo.after_of_writes_sub hostOps1 _ hostOps1_writes (by decide) : B3 m ρ c (Proc.devRef .tc main_arg14) = B2 m ρ c (Proc.devRef .tc main_arg14))).trans <|
    ((B2_of_ne m ρ c main_arg14 (by decide))).trans <|
    ((StableHlo.after_of_writes_sub hostOps0 _ hostOps0_writes (by decide) : B1 m ρ c (Proc.devRef .tc main_arg14) = B0 m ρ c (Proc.devRef .tc main_arg14))).trans <| rfl
theorem B10_main_arg15_of_B0 (c : Dev nD) : B10 m ρ c (Proc.devRef .tc main_arg15) = B0 m ρ c (Proc.devRef .tc main_arg15) :=
  ((B10_of_ne m ρ c main_arg15 (by decide))).trans <|
    ((B9_of_ne m ρ c main_arg15 (by decide))).trans <|
    ((B8_of_ne m ρ c main_arg15 (by decide))).trans <|
    ((StableHlo.after_of_writes_sub hostOps4 _ hostOps4_writes (by decide) : B7 m ρ c (Proc.devRef .tc main_arg15) = B6 m ρ c (Proc.devRef .tc main_arg15))).trans <|
    ((B6_of_ne m ρ c main_arg15 (by decide))).trans <|
    ((B5_of_ne m ρ c main_arg15 (by decide))).trans <|
    ((B4_of_ne m ρ c main_arg15 (by decide))).trans <|
    ((StableHlo.after_of_writes_sub hostOps1 _ hostOps1_writes (by decide) : B3 m ρ c (Proc.devRef .tc main_arg15) = B2 m ρ c (Proc.devRef .tc main_arg15))).trans <|
    ((B2_of_ne m ρ c main_arg15 (by decide))).trans <|
    ((StableHlo.after_of_writes_sub hostOps0 _ hostOps0_writes (by decide) : B1 m ρ c (Proc.devRef .tc main_arg15) = B0 m ρ c (Proc.devRef .tc main_arg15))).trans <| rfl
theorem B13_main_arg2_of_B0 (c : Dev nD) : B13 m ρ c (Proc.devRef .tc main_arg2) = B0 m ρ c (Proc.devRef .tc main_arg2) :=
  ((B13_of_ne m ρ c main_arg2 (by decide))).trans <|
    ((B12_of_ne m ρ c main_arg2 (by decide))).trans <|
    ((StableHlo.after_of_writes_sub hostOps7 _ hostOps7_writes (by decide) : B11 m ρ c (Proc.devRef .tc main_arg2) = B10 m ρ c (Proc.devRef .tc main_arg2))).trans <|
    ((B10_of_ne m ρ c main_arg2 (by decide))).trans <|
    ((B9_of_ne m ρ c main_arg2 (by decide))).trans <|
    ((B8_of_ne m ρ c main_arg2 (by decide))).trans <|
    ((StableHlo.after_of_writes_sub hostOps4 _ hostOps4_writes (by decide) : B7 m ρ c (Proc.devRef .tc main_arg2) = B6 m ρ c (Proc.devRef .tc main_arg2))).trans <|
    ((B6_of_ne m ρ c main_arg2 (by decide))).trans <|
    ((B5_of_ne m ρ c main_arg2 (by decide))).trans <|
    ((B4_of_ne m ρ c main_arg2 (by decide))).trans <|
    ((StableHlo.after_of_writes_sub hostOps1 _ hostOps1_writes (by decide) : B3 m ρ c (Proc.devRef .tc main_arg2) = B2 m ρ c (Proc.devRef .tc main_arg2))).trans <|
    ((B2_of_ne m ρ c main_arg2 (by decide))).trans <|
    ((StableHlo.after_of_writes_sub hostOps0 _ hostOps0_writes (by decide) : B1 m ρ c (Proc.devRef .tc main_arg2) = B0 m ρ c (Proc.devRef .tc main_arg2))).trans <| rfl
theorem B13_main_arg17_of_B0 (c : Dev nD) : B13 m ρ c (Proc.devRef .tc main_arg17) = B0 m ρ c (Proc.devRef .tc main_arg17) :=
  ((B13_of_ne m ρ c main_arg17 (by decide))).trans <|
    ((B12_of_ne m ρ c main_arg17 (by decide))).trans <|
    ((StableHlo.after_of_writes_sub hostOps7 _ hostOps7_writes (by decide) : B11 m ρ c (Proc.devRef .tc main_arg17) = B10 m ρ c (Proc.devRef .tc main_arg17))).trans <|
    ((B10_of_ne m ρ c main_arg17 (by decide))).trans <|
    ((B9_of_ne m ρ c main_arg17 (by decide))).trans <|
    ((B8_of_ne m ρ c main_arg17 (by decide))).trans <|
    ((StableHlo.after_of_writes_sub hostOps4 _ hostOps4_writes (by decide) : B7 m ρ c (Proc.devRef .tc main_arg17) = B6 m ρ c (Proc.devRef .tc main_arg17))).trans <|
    ((B6_of_ne m ρ c main_arg17 (by decide))).trans <|
    ((B5_of_ne m ρ c main_arg17 (by decide))).trans <|
    ((B4_of_ne m ρ c main_arg17 (by decide))).trans <|
    ((StableHlo.after_of_writes_sub hostOps1 _ hostOps1_writes (by decide) : B3 m ρ c (Proc.devRef .tc main_arg17) = B2 m ρ c (Proc.devRef .tc main_arg17))).trans <|
    ((B2_of_ne m ρ c main_arg17 (by decide))).trans <|
    ((StableHlo.after_of_writes_sub hostOps0 _ hostOps0_writes (by decide) : B1 m ρ c (Proc.devRef .tc main_arg17) = B0 m ρ c (Proc.devRef .tc main_arg17))).trans <| rfl
theorem B13_main_arg19_of_B0 (c : Dev nD) : B13 m ρ c (Proc.devRef .tc main_arg19) = B0 m ρ c (Proc.devRef .tc main_arg19) :=
  ((B13_of_ne m ρ c main_arg19 (by decide))).trans <|
    ((B12_of_ne m ρ c main_arg19 (by decide))).trans <|
    ((StableHlo.after_of_writes_sub hostOps7 _ hostOps7_writes (by decide) : B11 m ρ c (Proc.devRef .tc main_arg19) = B10 m ρ c (Proc.devRef .tc main_arg19))).trans <|
    ((B10_of_ne m ρ c main_arg19 (by decide))).trans <|
    ((B9_of_ne m ρ c main_arg19 (by decide))).trans <|
    ((B8_of_ne m ρ c main_arg19 (by decide))).trans <|
    ((StableHlo.after_of_writes_sub hostOps4 _ hostOps4_writes (by decide) : B7 m ρ c (Proc.devRef .tc main_arg19) = B6 m ρ c (Proc.devRef .tc main_arg19))).trans <|
    ((B6_of_ne m ρ c main_arg19 (by decide))).trans <|
    ((B5_of_ne m ρ c main_arg19 (by decide))).trans <|
    ((B4_of_ne m ρ c main_arg19 (by decide))).trans <|
    ((StableHlo.after_of_writes_sub hostOps1 _ hostOps1_writes (by decide) : B3 m ρ c (Proc.devRef .tc main_arg19) = B2 m ρ c (Proc.devRef .tc main_arg19))).trans <|
    ((B2_of_ne m ρ c main_arg19 (by decide))).trans <|
    ((StableHlo.after_of_writes_sub hostOps0 _ hostOps0_writes (by decide) : B1 m ρ c (Proc.devRef .tc main_arg19) = B0 m ρ c (Proc.devRef .tc main_arg19))).trans <| rfl
theorem B13_main_arg21_of_B0 (c : Dev nD) : B13 m ρ c (Proc.devRef .tc main_arg21) = B0 m ρ c (Proc.devRef .tc main_arg21) :=
  ((B13_of_ne m ρ c main_arg21 (by decide))).trans <|
    ((B12_of_ne m ρ c main_arg21 (by decide))).trans <|
    ((StableHlo.after_of_writes_sub hostOps7 _ hostOps7_writes (by decide) : B11 m ρ c (Proc.devRef .tc main_arg21) = B10 m ρ c (Proc.devRef .tc main_arg21))).trans <|
    ((B10_of_ne m ρ c main_arg21 (by decide))).trans <|
    ((B9_of_ne m ρ c main_arg21 (by decide))).trans <|
    ((B8_of_ne m ρ c main_arg21 (by decide))).trans <|
    ((StableHlo.after_of_writes_sub hostOps4 _ hostOps4_writes (by decide) : B7 m ρ c (Proc.devRef .tc main_arg21) = B6 m ρ c (Proc.devRef .tc main_arg21))).trans <|
    ((B6_of_ne m ρ c main_arg21 (by decide))).trans <|
    ((B5_of_ne m ρ c main_arg21 (by decide))).trans <|
    ((B4_of_ne m ρ c main_arg21 (by decide))).trans <|
    ((StableHlo.after_of_writes_sub hostOps1 _ hostOps1_writes (by decide) : B3 m ρ c (Proc.devRef .tc main_arg21) = B2 m ρ c (Proc.devRef .tc main_arg21))).trans <|
    ((B2_of_ne m ρ c main_arg21 (by decide))).trans <|
    ((StableHlo.after_of_writes_sub hostOps0 _ hostOps0_writes (by decide) : B1 m ρ c (Proc.devRef .tc main_arg21) = B0 m ρ c (Proc.devRef .tc main_arg21))).trans <| rfl
theorem B14_main_arg3_of_B0 (c : Dev nD) : B14 m ρ c (Proc.devRef .tc main_arg3) = B0 m ρ c (Proc.devRef .tc main_arg3) :=
  ((StableHlo.after_of_writes_sub hostOps9 _ hostOps9_writes (by decide) : B14 m ρ c (Proc.devRef .tc main_arg3) = B13 m ρ c (Proc.devRef .tc main_arg3))).trans <|
    ((B13_of_ne m ρ c main_arg3 (by decide))).trans <|
    ((B12_of_ne m ρ c main_arg3 (by decide))).trans <|
    ((StableHlo.after_of_writes_sub hostOps7 _ hostOps7_writes (by decide) : B11 m ρ c (Proc.devRef .tc main_arg3) = B10 m ρ c (Proc.devRef .tc main_arg3))).trans <|
    ((B10_of_ne m ρ c main_arg3 (by decide))).trans <|
    ((B9_of_ne m ρ c main_arg3 (by decide))).trans <|
    ((B8_of_ne m ρ c main_arg3 (by decide))).trans <|
    ((StableHlo.after_of_writes_sub hostOps4 _ hostOps4_writes (by decide) : B7 m ρ c (Proc.devRef .tc main_arg3) = B6 m ρ c (Proc.devRef .tc main_arg3))).trans <|
    ((B6_of_ne m ρ c main_arg3 (by decide))).trans <|
    ((B5_of_ne m ρ c main_arg3 (by decide))).trans <|
    ((B4_of_ne m ρ c main_arg3 (by decide))).trans <|
    ((StableHlo.after_of_writes_sub hostOps1 _ hostOps1_writes (by decide) : B3 m ρ c (Proc.devRef .tc main_arg3) = B2 m ρ c (Proc.devRef .tc main_arg3))).trans <|
    ((B2_of_ne m ρ c main_arg3 (by decide))).trans <|
    ((StableHlo.after_of_writes_sub hostOps0 _ hostOps0_writes (by decide) : B1 m ρ c (Proc.devRef .tc main_arg3) = B0 m ρ c (Proc.devRef .tc main_arg3))).trans <| rfl
theorem B14_main_arg16_of_B0 (c : Dev nD) : B14 m ρ c (Proc.devRef .tc main_arg16) = B0 m ρ c (Proc.devRef .tc main_arg16) :=
  ((StableHlo.after_of_writes_sub hostOps9 _ hostOps9_writes (by decide) : B14 m ρ c (Proc.devRef .tc main_arg16) = B13 m ρ c (Proc.devRef .tc main_arg16))).trans <|
    ((B13_of_ne m ρ c main_arg16 (by decide))).trans <|
    ((B12_of_ne m ρ c main_arg16 (by decide))).trans <|
    ((StableHlo.after_of_writes_sub hostOps7 _ hostOps7_writes (by decide) : B11 m ρ c (Proc.devRef .tc main_arg16) = B10 m ρ c (Proc.devRef .tc main_arg16))).trans <|
    ((B10_of_ne m ρ c main_arg16 (by decide))).trans <|
    ((B9_of_ne m ρ c main_arg16 (by decide))).trans <|
    ((B8_of_ne m ρ c main_arg16 (by decide))).trans <|
    ((StableHlo.after_of_writes_sub hostOps4 _ hostOps4_writes (by decide) : B7 m ρ c (Proc.devRef .tc main_arg16) = B6 m ρ c (Proc.devRef .tc main_arg16))).trans <|
    ((B6_of_ne m ρ c main_arg16 (by decide))).trans <|
    ((B5_of_ne m ρ c main_arg16 (by decide))).trans <|
    ((B4_of_ne m ρ c main_arg16 (by decide))).trans <|
    ((StableHlo.after_of_writes_sub hostOps1 _ hostOps1_writes (by decide) : B3 m ρ c (Proc.devRef .tc main_arg16) = B2 m ρ c (Proc.devRef .tc main_arg16))).trans <|
    ((B2_of_ne m ρ c main_arg16 (by decide))).trans <|
    ((StableHlo.after_of_writes_sub hostOps0 _ hostOps0_writes (by decide) : B1 m ρ c (Proc.devRef .tc main_arg16) = B0 m ρ c (Proc.devRef .tc main_arg16))).trans <| rfl
theorem B14_main_arg18_of_B0 (c : Dev nD) : B14 m ρ c (Proc.devRef .tc main_arg18) = B0 m ρ c (Proc.devRef .tc main_arg18) :=
  ((StableHlo.after_of_writes_sub hostOps9 _ hostOps9_writes (by decide) : B14 m ρ c (Proc.devRef .tc main_arg18) = B13 m ρ c (Proc.devRef .tc main_arg18))).trans <|
    ((B13_of_ne m ρ c main_arg18 (by decide))).trans <|
    ((B12_of_ne m ρ c main_arg18 (by decide))).trans <|
    ((StableHlo.after_of_writes_sub hostOps7 _ hostOps7_writes (by decide) : B11 m ρ c (Proc.devRef .tc main_arg18) = B10 m ρ c (Proc.devRef .tc main_arg18))).trans <|
    ((B10_of_ne m ρ c main_arg18 (by decide))).trans <|
    ((B9_of_ne m ρ c main_arg18 (by decide))).trans <|
    ((B8_of_ne m ρ c main_arg18 (by decide))).trans <|
    ((StableHlo.after_of_writes_sub hostOps4 _ hostOps4_writes (by decide) : B7 m ρ c (Proc.devRef .tc main_arg18) = B6 m ρ c (Proc.devRef .tc main_arg18))).trans <|
    ((B6_of_ne m ρ c main_arg18 (by decide))).trans <|
    ((B5_of_ne m ρ c main_arg18 (by decide))).trans <|
    ((B4_of_ne m ρ c main_arg18 (by decide))).trans <|
    ((StableHlo.after_of_writes_sub hostOps1 _ hostOps1_writes (by decide) : B3 m ρ c (Proc.devRef .tc main_arg18) = B2 m ρ c (Proc.devRef .tc main_arg18))).trans <|
    ((B2_of_ne m ρ c main_arg18 (by decide))).trans <|
    ((StableHlo.after_of_writes_sub hostOps0 _ hostOps0_writes (by decide) : B1 m ρ c (Proc.devRef .tc main_arg18) = B0 m ρ c (Proc.devRef .tc main_arg18))).trans <| rfl
theorem B14_main_arg20_of_B0 (c : Dev nD) : B14 m ρ c (Proc.devRef .tc main_arg20) = B0 m ρ c (Proc.devRef .tc main_arg20) :=
  ((StableHlo.after_of_writes_sub hostOps9 _ hostOps9_writes (by decide) : B14 m ρ c (Proc.devRef .tc main_arg20) = B13 m ρ c (Proc.devRef .tc main_arg20))).trans <|
    ((B13_of_ne m ρ c main_arg20 (by decide))).trans <|
    ((B12_of_ne m ρ c main_arg20 (by decide))).trans <|
    ((StableHlo.after_of_writes_sub hostOps7 _ hostOps7_writes (by decide) : B11 m ρ c (Proc.devRef .tc main_arg20) = B10 m ρ c (Proc.devRef .tc main_arg20))).trans <|
    ((B10_of_ne m ρ c main_arg20 (by decide))).trans <|
    ((B9_of_ne m ρ c main_arg20 (by decide))).trans <|
    ((B8_of_ne m ρ c main_arg20 (by decide))).trans <|
    ((StableHlo.after_of_writes_sub hostOps4 _ hostOps4_writes (by decide) : B7 m ρ c (Proc.devRef .tc main_arg20) = B6 m ρ c (Proc.devRef .tc main_arg20))).trans <|
    ((B6_of_ne m ρ c main_arg20 (by decide))).trans <|
    ((B5_of_ne m ρ c main_arg20 (by decide))).trans <|
    ((B4_of_ne m ρ c main_arg20 (by decide))).trans <|
    ((StableHlo.after_of_writes_sub hostOps1 _ hostOps1_writes (by decide) : B3 m ρ c (Proc.devRef .tc main_arg20) = B2 m ρ c (Proc.devRef .tc main_arg20))).trans <|
    ((B2_of_ne m ρ c main_arg20 (by decide))).trans <|
    ((StableHlo.after_of_writes_sub hostOps0 _ hostOps0_writes (by decide) : B1 m ρ c (Proc.devRef .tc main_arg20) = B0 m ρ c (Proc.devRef .tc main_arg20))).trans <| rfl
theorem B2_main_v10_of_B1 (c : Dev nD) : B2 m ρ c (Proc.devRef .tc main_v10) = B1 m ρ c (Proc.devRef .tc main_v10) :=
  ((B2_of_ne m ρ c main_v10 (by decide))).trans <| rfl
theorem B6_main_v10_of_B1 (c : Dev nD) : B6 m ρ c (Proc.devRef .tc main_v10) = B1 m ρ c (Proc.devRef .tc main_v10) :=
  ((B6_of_ne m ρ c main_v10 (by decide))).trans <|
    ((B5_of_ne m ρ c main_v10 (by decide))).trans <|
    ((B4_of_ne m ρ c main_v10 (by decide))).trans <|
    ((StableHlo.after_of_writes_sub hostOps1 _ hostOps1_writes (by decide) : B3 m ρ c (Proc.devRef .tc main_v10) = B2 m ρ c (Proc.devRef .tc main_v10))).trans <|
    ((B2_of_ne m ρ c main_v10 (by decide))).trans <| rfl
theorem B10_main_v10_of_B1 (c : Dev nD) : B10 m ρ c (Proc.devRef .tc main_v10) = B1 m ρ c (Proc.devRef .tc main_v10) :=
  ((B10_of_ne m ρ c main_v10 (by decide))).trans <|
    ((B9_of_ne m ρ c main_v10 (by decide))).trans <|
    ((B8_of_ne m ρ c main_v10 (by decide))).trans <|
    ((StableHlo.after_of_writes_sub hostOps4 _ hostOps4_writes (by decide) : B7 m ρ c (Proc.devRef .tc main_v10) = B6 m ρ c (Proc.devRef .tc main_v10))).trans <|
    ((B6_of_ne m ρ c main_v10 (by decide))).trans <|
    ((B5_of_ne m ρ c main_v10 (by decide))).trans <|
    ((B4_of_ne m ρ c main_v10 (by decide))).trans <|
    ((StableHlo.after_of_writes_sub hostOps1 _ hostOps1_writes (by decide) : B3 m ρ c (Proc.devRef .tc main_v10) = B2 m ρ c (Proc.devRef .tc main_v10))).trans <|
    ((B2_of_ne m ρ c main_v10 (by decide))).trans <| rfl
theorem B2_main_v1_of_B1 (c : Dev nD) : B2 m ρ c (Proc.devRef .tc main_v1) = B1 m ρ c (Proc.devRef .tc main_v1) :=
  ((B2_of_ne m ρ c main_v1 (by decide))).trans <| rfl
theorem B6_main_v1_of_B1 (c : Dev nD) : B6 m ρ c (Proc.devRef .tc main_v1) = B1 m ρ c (Proc.devRef .tc main_v1) :=
  ((B6_of_ne m ρ c main_v1 (by decide))).trans <|
    ((B5_of_ne m ρ c main_v1 (by decide))).trans <|
    ((B4_of_ne m ρ c main_v1 (by decide))).trans <|
    ((StableHlo.after_of_writes_sub hostOps1 _ hostOps1_writes (by decide) : B3 m ρ c (Proc.devRef .tc main_v1) = B2 m ρ c (Proc.devRef .tc main_v1))).trans <|
    ((B2_of_ne m ρ c main_v1 (by decide))).trans <| rfl
theorem B10_main_v1_of_B1 (c : Dev nD) : B10 m ρ c (Proc.devRef .tc main_v1) = B1 m ρ c (Proc.devRef .tc main_v1) :=
  ((B10_of_ne m ρ c main_v1 (by decide))).trans <|
    ((B9_of_ne m ρ c main_v1 (by decide))).trans <|
    ((B8_of_ne m ρ c main_v1 (by decide))).trans <|
    ((StableHlo.after_of_writes_sub hostOps4 _ hostOps4_writes (by decide) : B7 m ρ c (Proc.devRef .tc main_v1) = B6 m ρ c (Proc.devRef .tc main_v1))).trans <|
    ((B6_of_ne m ρ c main_v1 (by decide))).trans <|
    ((B5_of_ne m ρ c main_v1 (by decide))).trans <|
    ((B4_of_ne m ρ c main_v1 (by decide))).trans <|
    ((StableHlo.after_of_writes_sub hostOps1 _ hostOps1_writes (by decide) : B3 m ρ c (Proc.devRef .tc main_v1) = B2 m ρ c (Proc.devRef .tc main_v1))).trans <|
    ((B2_of_ne m ρ c main_v1 (by decide))).trans <| rfl
theorem B2_main_v3_of_B1 (c : Dev nD) : B2 m ρ c (Proc.devRef .tc main_v3) = B1 m ρ c (Proc.devRef .tc main_v3) :=
  ((B2_of_ne m ρ c main_v3 (by decide))).trans <| rfl
theorem B6_main_v3_of_B1 (c : Dev nD) : B6 m ρ c (Proc.devRef .tc main_v3) = B1 m ρ c (Proc.devRef .tc main_v3) :=
  ((B6_of_ne m ρ c main_v3 (by decide))).trans <|
    ((B5_of_ne m ρ c main_v3 (by decide))).trans <|
    ((B4_of_ne m ρ c main_v3 (by decide))).trans <|
    ((StableHlo.after_of_writes_sub hostOps1 _ hostOps1_writes (by decide) : B3 m ρ c (Proc.devRef .tc main_v3) = B2 m ρ c (Proc.devRef .tc main_v3))).trans <|
    ((B2_of_ne m ρ c main_v3 (by decide))).trans <| rfl
theorem B10_main_v3_of_B1 (c : Dev nD) : B10 m ρ c (Proc.devRef .tc main_v3) = B1 m ρ c (Proc.devRef .tc main_v3) :=
  ((B10_of_ne m ρ c main_v3 (by decide))).trans <|
    ((B9_of_ne m ρ c main_v3 (by decide))).trans <|
    ((B8_of_ne m ρ c main_v3 (by decide))).trans <|
    ((StableHlo.after_of_writes_sub hostOps4 _ hostOps4_writes (by decide) : B7 m ρ c (Proc.devRef .tc main_v3) = B6 m ρ c (Proc.devRef .tc main_v3))).trans <|
    ((B6_of_ne m ρ c main_v3 (by decide))).trans <|
    ((B5_of_ne m ρ c main_v3 (by decide))).trans <|
    ((B4_of_ne m ρ c main_v3 (by decide))).trans <|
    ((StableHlo.after_of_writes_sub hostOps1 _ hostOps1_writes (by decide) : B3 m ρ c (Proc.devRef .tc main_v3) = B2 m ρ c (Proc.devRef .tc main_v3))).trans <|
    ((B2_of_ne m ρ c main_v3 (by decide))).trans <| rfl
theorem B4_main_v44_of_B3 (c : Dev nD) : B4 m ρ c (Proc.devRef .tc main_v44) = B3 m ρ c (Proc.devRef .tc main_v44) :=
  ((B4_in_0 m ρ c)).trans <| rfl
theorem B4_main_v45_of_B3 (c : Dev nD) : B4 m ρ c (Proc.devRef .tc main_v45) = B3 m ρ c (Proc.devRef .tc main_v45) :=
  ((B4_in_1 m ρ c)).trans <| rfl
theorem B4_main_v46_of_B3 (c : Dev nD) : B4 m ρ c (Proc.devRef .tc main_v46) = B3 m ρ c (Proc.devRef .tc main_v46) :=
  ((B4_of_ne m ρ c main_v46 (by decide))).trans <| rfl
theorem B4_main_v47_of_B3 (c : Dev nD) : B4 m ρ c (Proc.devRef .tc main_v47) = B3 m ρ c (Proc.devRef .tc main_v47) :=
  ((B4_of_ne m ρ c main_v47 (by decide))).trans <| rfl
theorem B8_main_v49_of_B5 (c : Dev nD) : B8 m ρ c (Proc.devRef .tc main_v49) = B5 m ρ c (Proc.devRef .tc main_v49) :=
  ((B8_of_ne m ρ c main_v49 (by decide))).trans <|
    ((StableHlo.after_of_writes_sub hostOps4 _ hostOps4_writes (by decide) : B7 m ρ c (Proc.devRef .tc main_v49) = B6 m ρ c (Proc.devRef .tc main_v49))).trans <|
    ((B6_in_0 m ρ c)).trans <| rfl
theorem B8_main_v83_of_B7 (c : Dev nD) : B8 m ρ c (Proc.devRef .tc main_v83) = B7 m ρ c (Proc.devRef .tc main_v83) :=
  ((B8_in_0 m ρ c)).trans <| rfl
theorem B8_main_v84_of_B7 (c : Dev nD) : B8 m ρ c (Proc.devRef .tc main_v84) = B7 m ρ c (Proc.devRef .tc main_v84) :=
  ((B8_in_1 m ρ c)).trans <| rfl
theorem B8_main_v85_of_B7 (c : Dev nD) : B8 m ρ c (Proc.devRef .tc main_v85) = B7 m ρ c (Proc.devRef .tc main_v85) :=
  ((B8_of_ne m ρ c main_v85 (by decide))).trans <| rfl
theorem B8_main_v86_of_B7 (c : Dev nD) : B8 m ρ c (Proc.devRef .tc main_v86) = B7 m ρ c (Proc.devRef .tc main_v86) :=
  ((B8_of_ne m ρ c main_v86 (by decide))).trans <| rfl
theorem B12_main_v122_of_B11 (c : Dev nD) : B12 m ρ c (Proc.devRef .tc main_v122) = B11 m ρ c (Proc.devRef .tc main_v122) :=
  ((B12_in_0 m ρ c)).trans <| rfl
theorem B12_main_v123_of_B11 (c : Dev nD) : B12 m ρ c (Proc.devRef .tc main_v123) = B11 m ρ c (Proc.devRef .tc main_v123) :=
  ((B12_in_1 m ρ c)).trans <| rfl
theorem B12_main_v124_of_B11 (c : Dev nD) : B12 m ρ c (Proc.devRef .tc main_v124) = B11 m ρ c (Proc.devRef .tc main_v124) :=
  ((B12_of_ne m ρ c main_v124 (by decide))).trans <| rfl
theorem B12_main_v125_of_B11 (c : Dev nD) : B12 m ρ c (Proc.devRef .tc main_v125) = B11 m ρ c (Proc.devRef .tc main_v125) :=
  ((B12_of_ne m ρ c main_v125 (by decide))).trans <| rfl

end Cert.KernelIdeal.Hand

end
-- ==== Proof.Ref.Stretches.lean ====
/- The reference program's @main as lists of its host operations (an outlined function's operations at its
   call site), cut into consecutive stretches: stretch k ends with the operation that writes the k-th
   buffer named in the line above; and per stretch the buffers its operations write. -/
import proofs.«171894_j11897059410618_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 14 of 324: up to the one that writes main_v10. -/
abbrev ops_st0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)) ]

/-- The buffers that stretch 0's operations write, in order. -/
abbrev ops_st0_W : List (Ref sig .tc) :=
  [main_v0, main_v1, main_v2, main_v3, main_cst, main_v4, main_cst_0, main_v5, main_v6, main_v7, main_cst_1, main_v8, main_v9, main_v10]

/-- @main's operations 15 … 15 of 324: up to the one that writes main_v11. -/
abbrev ops_st1 : List (HloOp τ sig (Elt F)) :=
  [ binary main_arg0 main_arg4 main_v11 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- The buffers that stretch 1's operations write, in order. -/
abbrev ops_st1_W : List (Ref sig .tc) :=
  [main_v11]

/-- @main's operations 16 … 55 of 324: up to the one that writes main_v44. -/
abbrev ops_st2 : List (HloOp τ sig (Elt F)) :=
  [ nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v10 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v10 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)),
    unary main_v26 main_v27 (broadcastInDim S800000x1 ![0] bcast_S800000_S800000x1_0 : (⟨S800000, .f32⟩ : BufTy).Contents (Elt F) → (⟨S800000x1, .f32⟩ : BufTy).Contents (Elt F)),
    nullary main_c_5 (constantI S_ 32 0#32),
    unary main_c_5 main_v28 (broadcastInDim S800000 ![] bcast_S_S800000 : (⟨S_, .i32⟩ : BufTy).Contents (Elt F) → (⟨S800000, .i32⟩ : BufTy).Contents (Elt F)),
    binary main_v1 main_v28 main_v29 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v30 (broadcastInDim S800000 ![] bcast_S_S800000 : (⟨S_, .i32⟩ : BufTy).Contents (Elt F) → (⟨S800000, .i32⟩ : BufTy).Contents (Elt F)),
    binary main_v1 main_v30 main_v31 (addi : (⟨S800000, .i32⟩ : BufTy).Contents (Elt F) → (⟨S800000, .i32⟩ : BufTy).Contents (Elt F) → (⟨S800000, .i32⟩ : BufTy).Contents (Elt F)),
    ternary main_v29 main_v31 main_v1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v32 main_v33 (broadcastInDim S800000x1 ![0] bcast_S800000_S800000x1_0 : (⟨S800000, .i32⟩ : BufTy).Contents (Elt F) → (⟨S800000x1, .i32⟩ : BufTy).Contents (Elt F)),
    binary main_v11 main_v33 main_v34 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v27 main_v35 (broadcastInDim S800000x64 ![0, 1] bcast_S800000x1_S800000x64_0_1 : (⟨S800000x1, .f32⟩ : BufTy).Contents (Elt F) → (⟨S800000x64, .f32⟩ : BufTy).Contents (Elt F)),
    binary main_v34 main_v35 main_v36 (mulf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v37 (broadcastInDim S50000x64 ![] bcast_S_S50000x64 : (⟨S_, .f32⟩ : BufTy).Contents (Elt F) → (⟨S50000x64, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v10 main_v10 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x64 ![0, 1] bcast_S50000x1_S50000x64_0_1 : (⟨S50000x1, .f32⟩ : BufTy).Contents (Elt F) → (⟨S50000x64, .f32⟩ : BufTy).Contents (Elt F)),
    binary main_v11 main_v42 main_v43 (mulf : (⟨S50000x64, .f32⟩ : BufTy).Contents (Elt F) → (⟨S50000x64, .f32⟩ : BufTy).Contents (Elt F) → (⟨S50000x64, .f32⟩ : BufTy).Contents (Elt F)),
    binary main_v39 main_v43 main_v44 (addf : (⟨S50000x64, .f32⟩ : BufTy).Contents (Elt F) → (⟨S50000x64, .f32⟩ : BufTy).Contents (Elt F) → (⟨S50000x64, .f32⟩ : BufTy).Contents (Elt F)) ]

/-- The buffers that stretch 2's operations write, in order. -/
abbrev ops_st2_W : List (Ref sig .tc) :=
  [main_c, main_v12, main_v13, main_c_2, main_v14, main_v15, main_v16, main_v17, main_v18, main_c_3, main_v19, main_v20, main_c_4, main_v21, main_v22, main_v23, main_v24, main_v25, main_v26, main_v27, main_c_5, main_v28, main_v29, main_c_6, main_v30, main_v31, main_v32, main_v33, main_v34, main_v35, main_v36, main_cst_7, main_v37, main_v38, main_v39, main_v40, main_v41, main_v42, main_v43, main_v44]

/-- @main's operations 56 … 105 of 324: up to the one that writes main_v67. -/
abbrev ops_st3 : List (HloOp τ sig (Elt F)) :=
  [ unary main_arg5 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v44 main_v46 main_v47 (addf : (⟨S50000x64, .f32⟩ : BufTy).Contents (Elt F) → (⟨S50000x64, .f32⟩ : BufTy).Contents (Elt F) → (⟨S50000x64, .f32⟩ : BufTy).Contents (Elt F)),
    nullary main_cst_8 (constant S_ .f32 0x00000000#32),
    binary main_v47 main_cst_8 main_v48 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_9 (constant S_ .f32 0x47435000#32),
    unary main_cst_9 main_v49 (broadcastInDim S64 ![] bcast_S_S64 : (⟨S_, .f32⟩ : BufTy).Contents (Elt F) → (⟨S64, .f32⟩ : BufTy).Contents (Elt F)),
    binary main_v48 main_v49 main_v50 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary main_call0.cst (constant S_ .f32 0x00000000#32),
    TRef.binary (TRef.of (T := ⟨S50000x64, .f32⟩) main_v47) main_call0.cst main_call0.v0 (fun x v => Host.reduceAdd x v reducesTo_S50000x64_S64_d0 h_S_),
    TRef.unary main_call0.v0 main_call0.v1 (broadcastInDim S1x64 ![1] bcast_S64_S1x64_1),
    TRef.nullary main_call0.cst_0 (constant S_ .f32 0x47435000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S50000x64 ![0, 1] bcast_S1x64_S50000x64_0_1),
    TRef.binary (TRef.of (T := ⟨S50000x64, .f32⟩) main_v47) main_call0.v4 main_call0.v5 subf,
    TRef.binary main_call0.v5 main_call0.v5 main_call0.v6 mulf,
    TRef.unary (TRef.of (T := ⟨S_, .i32⟩) main_c_10) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v50 main_v52 (broadcastInDim S1x64 ![1] bcast_S64_S1x64_1 : (⟨S64, .f32⟩ : BufTy).Contents (Elt F) → (⟨S1x64, .f32⟩ : BufTy).Contents (Elt F)),
    unary main_v52 main_v53 (broadcastInDim S50000x64 ![0, 1] bcast_S1x64_S50000x64_0_1 : (⟨S1x64, .f32⟩ : BufTy).Contents (Elt F) → (⟨S50000x64, .f32⟩ : BufTy).Contents (Elt F)),
    binary main_v47 main_v53 main_v54 (subf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3727C5AC#32),
    unary main_cst_11 main_v55 (broadcastInDim S64 ![] bcast_S_S64 : (⟨S_, .f32⟩ : BufTy).Contents (Elt F) → (⟨S64, .f32⟩ : BufTy).Contents (Elt F)),
    binary main_v51 main_v55 main_v56 (addf : (⟨S64, .f32⟩ : BufTy).Contents (Elt F) → (⟨S64, .f32⟩ : BufTy).Contents (Elt F) → (⟨S64, .f32⟩ : BufTy).Contents (Elt F)),
    unary main_v56 main_v57 (Host.rsqrt : (⟨S64, .f32⟩ : BufTy).Contents (Elt F) → (⟨S64, .f32⟩ : BufTy).Contents (Elt F)),
    unary main_v57 main_v58 (broadcastInDim S1x64 ![1] bcast_S64_S1x64_1 : (⟨S64, .f32⟩ : BufTy).Contents (Elt F) → (⟨S1x64, .f32⟩ : BufTy).Contents (Elt F)),
    unary main_v58 main_v59 (broadcastInDim S50000x64 ![0, 1] bcast_S1x64_S50000x64_0_1 : (⟨S1x64, .f32⟩ : BufTy).Contents (Elt F) → (⟨S50000x64, .f32⟩ : BufTy).Contents (Elt F)),
    binary main_v54 main_v59 main_v60 (mulf : (⟨S50000x64, .f32⟩ : BufTy).Contents (Elt F) → (⟨S50000x64, .f32⟩ : BufTy).Contents (Elt F) → (⟨S50000x64, .f32⟩ : BufTy).Contents (Elt F)),
    unary main_arg6 main_v61 (broadcastInDim S1x64 ![1] bcast_S64_S1x64_1 : (⟨S64, .f32⟩ : BufTy).Contents (Elt F) → (⟨S1x64, .f32⟩ : BufTy).Contents (Elt F)),
    unary main_v61 main_v62 (broadcastInDim S50000x64 ![0, 1] bcast_S1x64_S50000x64_0_1 : (⟨S1x64, .f32⟩ : BufTy).Contents (Elt F) → (⟨S50000x64, .f32⟩ : BufTy).Contents (Elt F)),
    binary main_v60 main_v62 main_v63 (mulf : (⟨S50000x64, .f32⟩ : BufTy).Contents (Elt F) → (⟨S50000x64, .f32⟩ : BufTy).Contents (Elt F) → (⟨S50000x64, .f32⟩ : BufTy).Contents (Elt F)),
    unary main_arg7 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)),
    TRef.nullary main_call1.cst (constant S_ .f32 0x00000000#32),
    TRef.unary main_call1.cst main_call1.v0 (broadcastInDim S50000x64 ![] bcast_S_S50000x64),
    TRef.binary (TRef.of (T := ⟨S50000x64, .f32⟩) main_v66) main_call1.v0 main_call1.v1 maximumf ]

/-- The buffers that stretch 3's operations write, in order. -/
abbrev ops_st3_W : List (Ref sig .tc) :=
  [main_v45, main_v46, main_v47, main_cst_8, main_v48, main_cst_9, main_v49, main_v50, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v51, main_v52, main_v53, main_v54, main_cst_11, main_v55, main_v56, main_v57, main_v58, main_v59, main_v60, main_v61, main_v62, main_v63, main_v64, main_v65, main_v66, main_call1_cst, main_call1_v0, main_v67]

/-- @main's operations 106 … 106 of 324: up to the one that writes main_v68. -/
abbrev ops_st4 : List (HloOp τ sig (Elt F)) :=
  [ binary main_v67 main_arg8 main_v68 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The buffers that stretch 4's operations write, in order. -/
abbrev ops_st4_W : List (Ref sig .tc) :=
  [main_v68]

/-- @main's operations 107 … 146 of 324: up to the one that writes main_v101. -/
abbrev ops_st5 : List (HloOp τ sig (Elt F)) :=
  [ nullary main_c_12 (constantI S_ 32 0#32),
    unary main_c_12 main_v69 (broadcastInDim S800000 ![] bcast_S_S800000 : (⟨S_, .i32⟩ : BufTy).Contents (Elt F) → (⟨S800000, .i32⟩ : BufTy).Contents (Elt F)),
    binary main_v1 main_v69 main_v70 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v71 (broadcastInDim S800000 ![] bcast_S_S800000 : (⟨S_, .i32⟩ : BufTy).Contents (Elt F) → (⟨S800000, .i32⟩ : BufTy).Contents (Elt F)),
    binary main_v1 main_v71 main_v72 (addi : (⟨S800000, .i32⟩ : BufTy).Contents (Elt F) → (⟨S800000, .i32⟩ : BufTy).Contents (Elt F) → (⟨S800000, .i32⟩ : BufTy).Contents (Elt F)),
    ternary main_v70 main_v72 main_v1 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v73 main_v74 (broadcastInDim S800000x1 ![0] bcast_S800000_S800000x1_0 : (⟨S800000, .i32⟩ : BufTy).Contents (Elt F) → (⟨S800000x1, .i32⟩ : BufTy).Contents (Elt F)),
    binary main_v10 main_v74 main_v75 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_14 (constantI S_ 32 0#32),
    unary main_c_14 main_v76 (broadcastInDim S800000 ![] bcast_S_S800000 : (⟨S_, .i32⟩ : BufTy).Contents (Elt F) → (⟨S800000, .i32⟩ : BufTy).Contents (Elt F)),
    binary main_v3 main_v76 main_v77 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v78 (broadcastInDim S800000 ![] bcast_S_S800000 : (⟨S_, .i32⟩ : BufTy).Contents (Elt F) → (⟨S800000, .i32⟩ : BufTy).Contents (Elt F)),
    binary main_v3 main_v78 main_v79 (addi : (⟨S800000, .i32⟩ : BufTy).Contents (Elt F) → (⟨S800000, .i32⟩ : BufTy).Contents (Elt F) → (⟨S800000, .i32⟩ : BufTy).Contents (Elt F)),
    ternary main_v77 main_v79 main_v3 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v80 main_v81 (broadcastInDim S800000x1 ![0] bcast_S800000_S800000x1_0 : (⟨S800000, .i32⟩ : BufTy).Contents (Elt F) → (⟨S800000x1, .i32⟩ : BufTy).Contents (Elt F)),
    binary main_v10 main_v81 main_v82 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v75 main_v82 main_v83 (mulf : (⟨S800000, .f32⟩ : BufTy).Contents (Elt F) → (⟨S800000, .f32⟩ : BufTy).Contents (Elt F) → (⟨S800000, .f32⟩ : BufTy).Contents (Elt F)),
    unary main_v83 main_v84 (broadcastInDim S800000x1 ![0] bcast_S800000_S800000x1_0 : (⟨S800000, .f32⟩ : BufTy).Contents (Elt F) → (⟨S800000x1, .f32⟩ : BufTy).Contents (Elt F)),
    nullary main_c_16 (constantI S_ 32 0#32),
    unary main_c_16 main_v85 (broadcastInDim S800000 ![] bcast_S_S800000 : (⟨S_, .i32⟩ : BufTy).Contents (Elt F) → (⟨S800000, .i32⟩ : BufTy).Contents (Elt F)),
    binary main_v1 main_v85 main_v86 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v87 (broadcastInDim S800000 ![] bcast_S_S800000 : (⟨S_, .i32⟩ : BufTy).Contents (Elt F) → (⟨S800000, .i32⟩ : BufTy).Contents (Elt F)),
    binary main_v1 main_v87 main_v88 (addi : (⟨S800000, .i32⟩ : BufTy).Contents (Elt F) → (⟨S800000, .i32⟩ : BufTy).Contents (Elt F) → (⟨S800000, .i32⟩ : BufTy).Contents (Elt F)),
    ternary main_v86 main_v88 main_v1 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v89 main_v90 (broadcastInDim S800000x1 ![0] bcast_S800000_S800000x1_0 : (⟨S800000, .i32⟩ : BufTy).Contents (Elt F) → (⟨S800000x1, .i32⟩ : BufTy).Contents (Elt F)),
    binary main_v68 main_v90 main_v91 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v84 main_v92 (broadcastInDim S800000x64 ![0, 1] bcast_S800000x1_S800000x64_0_1 : (⟨S800000x1, .f32⟩ : BufTy).Contents (Elt F) → (⟨S800000x64, .f32⟩ : BufTy).Contents (Elt F)),
    binary main_v91 main_v92 main_v93 (mulf : (⟨S800000x64, .f32⟩ : BufTy).Contents (Elt F) → (⟨S800000x64, .f32⟩ : BufTy).Contents (Elt F) → (⟨S800000x64, .f32⟩ : BufTy).Contents (Elt F)),
    nullary main_cst_18 (constant S_ .f32 0x00000000#32),
    unary main_cst_18 main_v94 (broadcastInDim S50000x64 ![] bcast_S_S50000x64 : (⟨S_, .f32⟩ : BufTy).Contents (Elt F) → (⟨S50000x64, .f32⟩ : BufTy).Contents (Elt F)),
    unary main_v3 main_v95 (broadcastInDim S800000x1 ![0] bcast_S800000_S800000x1_0 : (⟨S800000, .i32⟩ : BufTy).Contents (Elt F) → (⟨S800000x1, .i32⟩ : BufTy).Contents (Elt F)),
    ternary main_v94 main_v95 main_v93 main_v96 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v10 main_v10 main_v97 (mulf : (⟨S50000, .f32⟩ : BufTy).Contents (Elt F) → (⟨S50000, .f32⟩ : BufTy).Contents (Elt F) → (⟨S50000, .f32⟩ : BufTy).Contents (Elt F)),
    unary main_v97 main_v98 (broadcastInDim S50000x1 ![0] bcast_S50000_S50000x1_0 : (⟨S50000, .f32⟩ : BufTy).Contents (Elt F) → (⟨S50000x1, .f32⟩ : BufTy).Contents (Elt F)),
    unary main_v98 main_v99 (broadcastInDim S50000x64 ![0, 1] bcast_S50000x1_S50000x64_0_1 : (⟨S50000x1, .f32⟩ : BufTy).Contents (Elt F) → (⟨S50000x64, .f32⟩ : BufTy).Contents (Elt F)),
    binary main_v68 main_v99 main_v100 (mulf : (⟨S50000x64, .f32⟩ : BufTy).Contents (Elt F) → (⟨S50000x64, .f32⟩ : BufTy).Contents (Elt F) → (⟨S50000x64, .f32⟩ : BufTy).Contents (Elt F)),
    binary main_v96 main_v100 main_v101 (addf : (⟨S50000x64, .f32⟩ : BufTy).Contents (Elt F) → (⟨S50000x64, .f32⟩ : BufTy).Contents (Elt F) → (⟨S50000x64, .f32⟩ : BufTy).Contents (Elt F)) ]

/-- The buffers that stretch 5's operations write, in order. -/
abbrev ops_st5_W : List (Ref sig .tc) :=
  [main_c_12, main_v69, main_v70, main_c_13, main_v71, main_v72, main_v73, main_v74, main_v75, main_c_14, main_v76, main_v77, main_c_15, main_v78, main_v79, main_v80, main_v81, main_v82, main_v83, main_v84, main_c_16, main_v85, main_v86, main_c_17, main_v87, main_v88, main_v89, main_v90, main_v91, main_v92, main_v93, main_cst_18, main_v94, main_v95, main_v96, main_v97, main_v98, main_v99, main_v100, main_v101]

/-- @main's operations 147 … 197 of 324: up to the one that writes main_v125. -/
abbrev ops_st6 : List (HloOp τ sig (Elt F)) :=
  [ unary main_arg9 main_v102 (broadcastInDim S1x64 ![1] bcast_S64_S1x64_1 : (⟨S64, .f32⟩ : BufTy).Contents (Elt F) → (⟨S1x64, .f32⟩ : BufTy).Contents (Elt F)),
    unary main_v102 main_v103 (broadcastInDim S50000x64 ![0, 1] bcast_S1x64_S50000x64_0_1 : (⟨S1x64, .f32⟩ : BufTy).Contents (Elt F) → (⟨S50000x64, .f32⟩ : BufTy).Contents (Elt F)),
    binary main_v101 main_v103 main_v104 (addf : (⟨S50000x64, .f32⟩ : BufTy).Contents (Elt F) → (⟨S50000x64, .f32⟩ : BufTy).Contents (Elt F) → (⟨S50000x64, .f32⟩ : BufTy).Contents (Elt F)),
    nullary main_cst_19 (constant S_ .f32 0x00000000#32),
    binary main_v104 main_cst_19 main_v105 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_20 (constant S_ .f32 0x47435000#32),
    unary main_cst_20 main_v106 (broadcastInDim S64 ![] bcast_S_S64 : (⟨S_, .f32⟩ : BufTy).Contents (Elt F) → (⟨S64, .f32⟩ : BufTy).Contents (Elt F)),
    binary main_v105 main_v106 main_v107 (Host.divf : (⟨S64, .f32⟩ : BufTy).Contents (Elt F) → (⟨S64, .f32⟩ : BufTy).Contents (Elt F) → (⟨S64, .f32⟩ : BufTy).Contents (Elt F)),
    nullary main_c_21 (constantI S_ 32 0#32),
    TRef.nullary main_call2.cst (constant S_ .f32 0x00000000#32),
    TRef.binary (TRef.of (T := ⟨S50000x64, .f32⟩) main_v104) main_call2.cst main_call2.v0 (fun x v => Host.reduceAdd x v reducesTo_S50000x64_S64_d0 h_S_),
    TRef.unary main_call2.v0 main_call2.v1 (broadcastInDim S1x64 ![1] bcast_S64_S1x64_1),
    TRef.nullary main_call2.cst_0 (constant S_ .f32 0x47435000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S50000x64 ![0, 1] bcast_S1x64_S50000x64_0_1),
    TRef.binary (TRef.of (T := ⟨S50000x64, .f32⟩) main_v104) main_call2.v4 main_call2.v5 subf,
    TRef.binary main_call2.v5 main_call2.v5 main_call2.v6 mulf,
    TRef.unary (TRef.of (T := ⟨S_, .i32⟩) main_c_21) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v107 main_v109 (broadcastInDim S1x64 ![1] bcast_S64_S1x64_1 : (⟨S64, .f32⟩ : BufTy).Contents (Elt F) → (⟨S1x64, .f32⟩ : BufTy).Contents (Elt F)),
    unary main_v109 main_v110 (broadcastInDim S50000x64 ![0, 1] bcast_S1x64_S50000x64_0_1 : (⟨S1x64, .f32⟩ : BufTy).Contents (Elt F) → (⟨S50000x64, .f32⟩ : BufTy).Contents (Elt F)),
    binary main_v104 main_v110 main_v111 (subf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x3727C5AC#32),
    unary main_cst_22 main_v112 (broadcastInDim S64 ![] bcast_S_S64 : (⟨S_, .f32⟩ : BufTy).Contents (Elt F) → (⟨S64, .f32⟩ : BufTy).Contents (Elt F)),
    binary main_v108 main_v112 main_v113 (addf : (⟨S64, .f32⟩ : BufTy).Contents (Elt F) → (⟨S64, .f32⟩ : BufTy).Contents (Elt F) → (⟨S64, .f32⟩ : BufTy).Contents (Elt F)),
    unary main_v113 main_v114 (Host.rsqrt : (⟨S64, .f32⟩ : BufTy).Contents (Elt F) → (⟨S64, .f32⟩ : BufTy).Contents (Elt F)),
    unary main_v114 main_v115 (broadcastInDim S1x64 ![1] bcast_S64_S1x64_1 : (⟨S64, .f32⟩ : BufTy).Contents (Elt F) → (⟨S1x64, .f32⟩ : BufTy).Contents (Elt F)),
    unary main_v115 main_v116 (broadcastInDim S50000x64 ![0, 1] bcast_S1x64_S50000x64_0_1 : (⟨S1x64, .f32⟩ : BufTy).Contents (Elt F) → (⟨S50000x64, .f32⟩ : BufTy).Contents (Elt F)),
    binary main_v111 main_v116 main_v117 (mulf : (⟨S50000x64, .f32⟩ : BufTy).Contents (Elt F) → (⟨S50000x64, .f32⟩ : BufTy).Contents (Elt F) → (⟨S50000x64, .f32⟩ : BufTy).Contents (Elt F)),
    unary main_arg10 main_v118 (broadcastInDim S1x64 ![1] bcast_S64_S1x64_1 : (⟨S64, .f32⟩ : BufTy).Contents (Elt F) → (⟨S1x64, .f32⟩ : BufTy).Contents (Elt F)),
    unary main_v118 main_v119 (broadcastInDim S50000x64 ![0, 1] bcast_S1x64_S50000x64_0_1 : (⟨S1x64, .f32⟩ : BufTy).Contents (Elt F) → (⟨S50000x64, .f32⟩ : BufTy).Contents (Elt F)),
    binary main_v117 main_v119 main_v120 (mulf : (⟨S50000x64, .f32⟩ : BufTy).Contents (Elt F) → (⟨S50000x64, .f32⟩ : BufTy).Contents (Elt F) → (⟨S50000x64, .f32⟩ : BufTy).Contents (Elt F)),
    unary main_arg11 main_v121 (broadcastInDim S1x64 ![1] bcast_S64_S1x64_1 : (⟨S64, .f32⟩ : BufTy).Contents (Elt F) → (⟨S1x64, .f32⟩ : BufTy).Contents (Elt F)),
    unary main_v121 main_v122 (broadcastInDim S50000x64 ![0, 1] bcast_S1x64_S50000x64_0_1 : (⟨S1x64, .f32⟩ : BufTy).Contents (Elt F) → (⟨S50000x64, .f32⟩ : BufTy).Contents (Elt F)),
    binary main_v120 main_v122 main_v123 (addf : (⟨S50000x64, .f32⟩ : BufTy).Contents (Elt F) → (⟨S50000x64, .f32⟩ : BufTy).Contents (Elt F) → (⟨S50000x64, .f32⟩ : BufTy).Contents (Elt F)),
    binary main_v123 main_v67 main_v124 (addf : (⟨S50000x64, .f32⟩ : BufTy).Contents (Elt F) → (⟨S50000x64, .f32⟩ : BufTy).Contents (Elt F) → (⟨S50000x64, .f32⟩ : BufTy).Contents (Elt F)),
    TRef.nullary main_call3.cst (constant S_ .f32 0x00000000#32),
    TRef.unary main_call3.cst main_call3.v0 (broadcastInDim S50000x64 ![] bcast_S_S50000x64),
    TRef.binary (TRef.of (T := ⟨S50000x64, .f32⟩) main_v124) main_call3.v0 main_call3.v1 maximumf ]

/-- The buffers that stretch 6's operations write, in order. -/
abbrev ops_st6_W : List (Ref sig .tc) :=
  [main_v102, main_v103, main_v104, main_cst_19, main_v105, main_cst_20, main_v106, main_v107, main_c_21, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v108, main_v109, main_v110, main_v111, main_cst_22, main_v112, main_v113, main_v114, main_v115, main_v116, main_v117, main_v118, main_v119, main_v120, main_v121, main_v122, main_v123, main_v124, main_call3_cst, main_call3_v0, main_v125]

/-- @main's operations 198 … 198 of 324: up to the one that writes main_v126. -/
abbrev ops_st7 : List (HloOp τ sig (Elt F)) :=
  [ binary main_v125 main_arg12 main_v126 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The buffers that stretch 7's operations write, in order. -/
abbrev ops_st7_W : List (Ref sig .tc) :=
  [main_v126]

/-- @main's operations 199 … 238 of 324: up to the one that writes main_v159. -/
abbrev ops_st8 : List (HloOp τ sig (Elt F)) :=
  [ nullary main_c_23 (constantI S_ 32 0#32),
    unary main_c_23 main_v127 (broadcastInDim S800000 ![] bcast_S_S800000 : (⟨S_, .i32⟩ : BufTy).Contents (Elt F) → (⟨S800000, .i32⟩ : BufTy).Contents (Elt F)),
    binary main_v1 main_v127 main_v128 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v129 (broadcastInDim S800000 ![] bcast_S_S800000 : (⟨S_, .i32⟩ : BufTy).Contents (Elt F) → (⟨S800000, .i32⟩ : BufTy).Contents (Elt F)),
    binary main_v1 main_v129 main_v130 (addi : (⟨S800000, .i32⟩ : BufTy).Contents (Elt F) → (⟨S800000, .i32⟩ : BufTy).Contents (Elt F) → (⟨S800000, .i32⟩ : BufTy).Contents (Elt F)),
    ternary main_v128 main_v130 main_v1 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v131 main_v132 (broadcastInDim S800000x1 ![0] bcast_S800000_S800000x1_0 : (⟨S800000, .i32⟩ : BufTy).Contents (Elt F) → (⟨S800000x1, .i32⟩ : BufTy).Contents (Elt F)),
    binary main_v10 main_v132 main_v133 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_25 (constantI S_ 32 0#32),
    unary main_c_25 main_v134 (broadcastInDim S800000 ![] bcast_S_S800000 : (⟨S_, .i32⟩ : BufTy).Contents (Elt F) → (⟨S800000, .i32⟩ : BufTy).Contents (Elt F)),
    binary main_v3 main_v134 main_v135 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v136 (broadcastInDim S800000 ![] bcast_S_S800000 : (⟨S_, .i32⟩ : BufTy).Contents (Elt F) → (⟨S800000, .i32⟩ : BufTy).Contents (Elt F)),
    binary main_v3 main_v136 main_v137 (addi : (⟨S800000, .i32⟩ : BufTy).Contents (Elt F) → (⟨S800000, .i32⟩ : BufTy).Contents (Elt F) → (⟨S800000, .i32⟩ : BufTy).Contents (Elt F)),
    ternary main_v135 main_v137 main_v3 main_v138 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v138 main_v139 (broadcastInDim S800000x1 ![0] bcast_S800000_S800000x1_0 : (⟨S800000, .i32⟩ : BufTy).Contents (Elt F) → (⟨S800000x1, .i32⟩ : BufTy).Contents (Elt F)),
    binary main_v10 main_v139 main_v140 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v133 main_v140 main_v141 (mulf : (⟨S800000, .f32⟩ : BufTy).Contents (Elt F) → (⟨S800000, .f32⟩ : BufTy).Contents (Elt F) → (⟨S800000, .f32⟩ : BufTy).Contents (Elt F)),
    unary main_v141 main_v142 (broadcastInDim S800000x1 ![0] bcast_S800000_S800000x1_0 : (⟨S800000, .f32⟩ : BufTy).Contents (Elt F) → (⟨S800000x1, .f32⟩ : BufTy).Contents (Elt F)),
    nullary main_c_27 (constantI S_ 32 0#32),
    unary main_c_27 main_v143 (broadcastInDim S800000 ![] bcast_S_S800000 : (⟨S_, .i32⟩ : BufTy).Contents (Elt F) → (⟨S800000, .i32⟩ : BufTy).Contents (Elt F)),
    binary main_v1 main_v143 main_v144 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v145 (broadcastInDim S800000 ![] bcast_S_S800000 : (⟨S_, .i32⟩ : BufTy).Contents (Elt F) → (⟨S800000, .i32⟩ : BufTy).Contents (Elt F)),
    binary main_v1 main_v145 main_v146 (addi : (⟨S800000, .i32⟩ : BufTy).Contents (Elt F) → (⟨S800000, .i32⟩ : BufTy).Contents (Elt F) → (⟨S800000, .i32⟩ : BufTy).Contents (Elt F)),
    ternary main_v144 main_v146 main_v1 main_v147 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v147 main_v148 (broadcastInDim S800000x1 ![0] bcast_S800000_S800000x1_0 : (⟨S800000, .i32⟩ : BufTy).Contents (Elt F) → (⟨S800000x1, .i32⟩ : BufTy).Contents (Elt F)),
    binary main_v126 main_v148 main_v149 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v142 main_v150 (broadcastInDim S800000x64 ![0, 1] bcast_S800000x1_S800000x64_0_1 : (⟨S800000x1, .f32⟩ : BufTy).Contents (Elt F) → (⟨S800000x64, .f32⟩ : BufTy).Contents (Elt F)),
    binary main_v149 main_v150 main_v151 (mulf : (⟨S800000x64, .f32⟩ : BufTy).Contents (Elt F) → (⟨S800000x64, .f32⟩ : BufTy).Contents (Elt F) → (⟨S800000x64, .f32⟩ : BufTy).Contents (Elt F)),
    nullary main_cst_29 (constant S_ .f32 0x00000000#32),
    unary main_cst_29 main_v152 (broadcastInDim S50000x64 ![] bcast_S_S50000x64 : (⟨S_, .f32⟩ : BufTy).Contents (Elt F) → (⟨S50000x64, .f32⟩ : BufTy).Contents (Elt F)),
    unary main_v3 main_v153 (broadcastInDim S800000x1 ![0] bcast_S800000_S800000x1_0 : (⟨S800000, .i32⟩ : BufTy).Contents (Elt F) → (⟨S800000x1, .i32⟩ : BufTy).Contents (Elt F)),
    ternary main_v152 main_v153 main_v151 main_v154 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v10 main_v10 main_v155 (mulf : (⟨S50000, .f32⟩ : BufTy).Contents (Elt F) → (⟨S50000, .f32⟩ : BufTy).Contents (Elt F) → (⟨S50000, .f32⟩ : BufTy).Contents (Elt F)),
    unary main_v155 main_v156 (broadcastInDim S50000x1 ![0] bcast_S50000_S50000x1_0 : (⟨S50000, .f32⟩ : BufTy).Contents (Elt F) → (⟨S50000x1, .f32⟩ : BufTy).Contents (Elt F)),
    unary main_v156 main_v157 (broadcastInDim S50000x64 ![0, 1] bcast_S50000x1_S50000x64_0_1 : (⟨S50000x1, .f32⟩ : BufTy).Contents (Elt F) → (⟨S50000x64, .f32⟩ : BufTy).Contents (Elt F)),
    binary main_v126 main_v157 main_v158 (mulf : (⟨S50000x64, .f32⟩ : BufTy).Contents (Elt F) → (⟨S50000x64, .f32⟩ : BufTy).Contents (Elt F) → (⟨S50000x64, .f32⟩ : BufTy).Contents (Elt F)),
    binary main_v154 main_v158 main_v159 (addf : (⟨S50000x64, .f32⟩ : BufTy).Contents (Elt F) → (⟨S50000x64, .f32⟩ : BufTy).Contents (Elt F) → (⟨S50000x64, .f32⟩ : BufTy).Contents (Elt F)) ]

/-- The buffers that stretch 8's operations write, in order. -/
abbrev ops_st8_W : List (Ref sig .tc) :=
  [main_c_23, main_v127, main_v128, main_c_24, main_v129, main_v130, main_v131, main_v132, main_v133, main_c_25, main_v134, main_v135, main_c_26, main_v136, main_v137, main_v138, main_v139, main_v140, main_v141, main_v142, main_c_27, main_v143, main_v144, main_c_28, main_v145, main_v146, main_v147, main_v148, main_v149, main_v150, main_v151, main_cst_29, main_v152, main_v153, main_v154, main_v155, main_v156, main_v157, main_v158, main_v159]

/-- @main's operations 239 … 288 of 324: up to the one that writes main_v182. -/
abbrev ops_st9 : List (HloOp τ sig (Elt F)) :=
  [ unary main_arg13 main_v160 (broadcastInDim S1x64 ![1] bcast_S64_S1x64_1 : (⟨S64, .f32⟩ : BufTy).Contents (Elt F) → (⟨S1x64, .f32⟩ : BufTy).Contents (Elt F)),
    unary main_v160 main_v161 (broadcastInDim S50000x64 ![0, 1] bcast_S1x64_S50000x64_0_1 : (⟨S1x64, .f32⟩ : BufTy).Contents (Elt F) → (⟨S50000x64, .f32⟩ : BufTy).Contents (Elt F)),
    binary main_v159 main_v161 main_v162 (addf : (⟨S50000x64, .f32⟩ : BufTy).Contents (Elt F) → (⟨S50000x64, .f32⟩ : BufTy).Contents (Elt F) → (⟨S50000x64, .f32⟩ : BufTy).Contents (Elt F)),
    nullary main_cst_30 (constant S_ .f32 0x00000000#32),
    binary main_v162 main_cst_30 main_v163 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_31 (constant S_ .f32 0x47435000#32),
    unary main_cst_31 main_v164 (broadcastInDim S64 ![] bcast_S_S64 : (⟨S_, .f32⟩ : BufTy).Contents (Elt F) → (⟨S64, .f32⟩ : BufTy).Contents (Elt F)),
    binary main_v163 main_v164 main_v165 (Host.divf : (⟨S64, .f32⟩ : BufTy).Contents (Elt F) → (⟨S64, .f32⟩ : BufTy).Contents (Elt F) → (⟨S64, .f32⟩ : BufTy).Contents (Elt F)),
    nullary main_c_32 (constantI S_ 32 0#32),
    TRef.nullary main_call4.cst (constant S_ .f32 0x00000000#32),
    TRef.binary (TRef.of (T := ⟨S50000x64, .f32⟩) main_v162) main_call4.cst main_call4.v0 (fun x v => Host.reduceAdd x v reducesTo_S50000x64_S64_d0 h_S_),
    TRef.unary main_call4.v0 main_call4.v1 (broadcastInDim S1x64 ![1] bcast_S64_S1x64_1),
    TRef.nullary main_call4.cst_0 (constant S_ .f32 0x47435000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S50000x64 ![0, 1] bcast_S1x64_S50000x64_0_1),
    TRef.binary (TRef.of (T := ⟨S50000x64, .f32⟩) main_v162) main_call4.v4 main_call4.v5 subf,
    TRef.binary main_call4.v5 main_call4.v5 main_call4.v6 mulf,
    TRef.unary (TRef.of (T := ⟨S_, .i32⟩) main_c_32) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v165 main_v167 (broadcastInDim S1x64 ![1] bcast_S64_S1x64_1 : (⟨S64, .f32⟩ : BufTy).Contents (Elt F) → (⟨S1x64, .f32⟩ : BufTy).Contents (Elt F)),
    unary main_v167 main_v168 (broadcastInDim S50000x64 ![0, 1] bcast_S1x64_S50000x64_0_1 : (⟨S1x64, .f32⟩ : BufTy).Contents (Elt F) → (⟨S50000x64, .f32⟩ : BufTy).Contents (Elt F)),
    binary main_v162 main_v168 main_v169 (subf : (⟨S50000x64, .f32⟩ : BufTy).Contents (Elt F) → (⟨S50000x64, .f32⟩ : BufTy).Contents (Elt F) → (⟨S50000x64, .f32⟩ : BufTy).Contents (Elt F)),
    nullary main_cst_33 (constant S_ .f32 0x3727C5AC#32),
    unary main_cst_33 main_v170 (broadcastInDim S64 ![] bcast_S_S64 : (⟨S_, .f32⟩ : BufTy).Contents (Elt F) → (⟨S64, .f32⟩ : BufTy).Contents (Elt F)),
    binary main_v166 main_v170 main_v171 (addf : (⟨S64, .f32⟩ : BufTy).Contents (Elt F) → (⟨S64, .f32⟩ : BufTy).Contents (Elt F) → (⟨S64, .f32⟩ : BufTy).Contents (Elt F)),
    unary main_v171 main_v172 (Host.rsqrt : (⟨S64, .f32⟩ : BufTy).Contents (Elt F) → (⟨S64, .f32⟩ : BufTy).Contents (Elt F)),
    unary main_v172 main_v173 (broadcastInDim S1x64 ![1] bcast_S64_S1x64_1 : (⟨S64, .f32⟩ : BufTy).Contents (Elt F) → (⟨S1x64, .f32⟩ : BufTy).Contents (Elt F)),
    unary main_v173 main_v174 (broadcastInDim S50000x64 ![0, 1] bcast_S1x64_S50000x64_0_1 : (⟨S1x64, .f32⟩ : BufTy).Contents (Elt F) → (⟨S50000x64, .f32⟩ : BufTy).Contents (Elt F)),
    binary main_v169 main_v174 main_v175 (mulf : (⟨S50000x64, .f32⟩ : BufTy).Contents (Elt F) → (⟨S50000x64, .f32⟩ : BufTy).Contents (Elt F) → (⟨S50000x64, .f32⟩ : BufTy).Contents (Elt F)),
    unary main_arg14 main_v176 (broadcastInDim S1x64 ![1] bcast_S64_S1x64_1 : (⟨S64, .f32⟩ : BufTy).Contents (Elt F) → (⟨S1x64, .f32⟩ : BufTy).Contents (Elt F)),
    unary main_v176 main_v177 (broadcastInDim S50000x64 ![0, 1] bcast_S1x64_S50000x64_0_1 : (⟨S1x64, .f32⟩ : BufTy).Contents (Elt F) → (⟨S50000x64, .f32⟩ : BufTy).Contents (Elt F)),
    binary main_v175 main_v177 main_v178 (mulf : (⟨S50000x64, .f32⟩ : BufTy).Contents (Elt F) → (⟨S50000x64, .f32⟩ : BufTy).Contents (Elt F) → (⟨S50000x64, .f32⟩ : BufTy).Contents (Elt F)),
    unary main_arg15 main_v179 (broadcastInDim S1x64 ![1] bcast_S64_S1x64_1 : (⟨S64, .f32⟩ : BufTy).Contents (Elt F) → (⟨S1x64, .f32⟩ : BufTy).Contents (Elt F)),
    unary main_v179 main_v180 (broadcastInDim S50000x64 ![0, 1] bcast_S1x64_S50000x64_0_1 : (⟨S1x64, .f32⟩ : BufTy).Contents (Elt F) → (⟨S50000x64, .f32⟩ : BufTy).Contents (Elt F)),
    binary main_v178 main_v180 main_v181 (addf : (⟨S50000x64, .f32⟩ : BufTy).Contents (Elt F) → (⟨S50000x64, .f32⟩ : BufTy).Contents (Elt F) → (⟨S50000x64, .f32⟩ : BufTy).Contents (Elt F)),
    TRef.nullary main_call5.cst (constant S_ .f32 0x00000000#32),
    TRef.unary main_call5.cst main_call5.v0 (broadcastInDim S50000x64 ![] bcast_S_S50000x64),
    TRef.binary (TRef.of (T := ⟨S50000x64, .f32⟩) main_v181) main_call5.v0 main_call5.v1 maximumf ]

/-- The buffers that stretch 9's operations write, in order. -/
abbrev ops_st9_W : List (Ref sig .tc) :=
  [main_v160, main_v161, main_v162, main_cst_30, main_v163, main_cst_31, main_v164, main_v165, main_c_32, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v166, main_v167, main_v168, main_v169, main_cst_33, main_v170, main_v171, main_v172, main_v173, main_v174, main_v175, main_v176, main_v177, main_v178, main_v179, main_v180, main_v181, main_call5_cst, main_call5_v0, main_v182]

/-- @main's operations 289 … 304 of 324: up to the one that writes main_v194. -/
abbrev ops_st10 : List (HloOp τ sig (Elt F)) :=
  [ nullary main_cst_34 (constant S_ .f32 0x00000000#32),
    unary main_cst_34 main_v183 (broadcastInDim S256x64 ![] bcast_S_S256x64 : (⟨S_, .f32⟩ : BufTy).Contents (Elt F) → (⟨S256x64, .f32⟩ : BufTy).Contents (Elt F)),
    unary main_arg2 main_v184 (broadcastInDim S50000x1 ![0] bcast_S50000_S50000x1_0 : (⟨S50000, .i32⟩ : BufTy).Contents (Elt F) → (⟨S50000x1, .i32⟩ : BufTy).Contents (Elt F)),
    ternary main_v183 main_v184 main_v182 main_v185 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    nullary main_cst_35 (constant S_ .f32 0x3F800000#32),
    unary main_cst_35 main_v186 (broadcastInDim S50000 ![] bcast_S_S50000 : (⟨S_, .f32⟩ : BufTy).Contents (Elt F) → (⟨S50000, .f32⟩ : BufTy).Contents (Elt F)),
    nullary main_cst_36 (constant S_ .f32 0x00000000#32),
    unary main_cst_36 main_v187 (broadcastInDim S256 ![] bcast_S_S256 : (⟨S_, .f32⟩ : BufTy).Contents (Elt F) → (⟨S256, .f32⟩ : BufTy).Contents (Elt F)),
    unary main_arg2 main_v188 (broadcastInDim S50000x1 ![0] bcast_S50000_S50000x1_0 : (⟨S50000, .i32⟩ : BufTy).Contents (Elt F) → (⟨S50000x1, .i32⟩ : BufTy).Contents (Elt F)),
    ternary main_v187 main_v188 main_v186 main_v189 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_37 (constant S_ .f32 0x3F800000#32),
    unary main_cst_37 main_v190 (broadcastInDim S256 ![] bcast_S_S256 : (⟨S_, .f32⟩ : BufTy).Contents (Elt F) → (⟨S256, .f32⟩ : BufTy).Contents (Elt F)),
    binary main_v189 main_v190 main_v191 (maximumf : (⟨S256, .f32⟩ : BufTy).Contents (Elt F) → (⟨S256, .f32⟩ : BufTy).Contents (Elt F) → (⟨S256, .f32⟩ : BufTy).Contents (Elt F)),
    unary main_v191 main_v192 (broadcastInDim S256x1 ![0] bcast_S256_S256x1_0 : (⟨S256, .f32⟩ : BufTy).Contents (Elt F) → (⟨S256x1, .f32⟩ : BufTy).Contents (Elt F)),
    unary main_v192 main_v193 (broadcastInDim S256x64 ![0, 1] bcast_S256x1_S256x64_0_1 : (⟨S256x1, .f32⟩ : BufTy).Contents (Elt F) → (⟨S256x64, .f32⟩ : BufTy).Contents (Elt F)),
    binary main_v185 main_v193 main_v194 (Host.divf : (⟨S256x64, .f32⟩ : BufTy).Contents (Elt F) → (⟨S256x64, .f32⟩ : BufTy).Contents (Elt F) → (⟨S256x64, .f32⟩ : BufTy).Contents (Elt F)) ]

/-- The buffers that stretch 10's operations write, in order. -/
abbrev ops_st10_W : List (Ref sig .tc) :=
  [main_cst_34, main_v183, main_v184, main_v185, main_cst_35, main_v186, main_cst_36, main_v187, main_v188, main_v189, main_cst_37, main_v190, main_v191, main_v192, main_v193, main_v194]

/-- @main's operations 305 … 323 of 324: up to the one that writes main_v209. -/
abbrev ops_st11 : List (HloOp τ sig (Elt F)) :=
  [ binary main_arg3 main_arg16 main_v195 ((fun l r => Host.dotGeneral dot_S256x64_S64x128_S256x128_1_0_0_1_n_n none l r) : (⟨S256x64, .f32⟩ : BufTy).Contents (Elt F) → (⟨S64x128, .f32⟩ : BufTy).Contents (Elt F) → (⟨S256x128, .f32⟩ : BufTy).Contents (Elt F)),
    unary main_arg17 main_v196 (broadcastInDim S1x128 ![1] bcast_S128_S1x128_1 : (⟨S128, .f32⟩ : BufTy).Contents (Elt F) → (⟨S1x128, .f32⟩ : BufTy).Contents (Elt F)),
    unary main_v196 main_v197 (broadcastInDim S256x128 ![0, 1] bcast_S1x128_S256x128_0_1 : (⟨S1x128, .f32⟩ : BufTy).Contents (Elt F) → (⟨S256x128, .f32⟩ : BufTy).Contents (Elt F)),
    binary main_v195 main_v197 main_v198 (addf : (⟨S256x128, .f32⟩ : BufTy).Contents (Elt F) → (⟨S256x128, .f32⟩ : BufTy).Contents (Elt F) → (⟨S256x128, .f32⟩ : BufTy).Contents (Elt F)),
    TRef.nullary main_call6.cst (constant S_ .f32 0x00000000#32),
    TRef.unary main_call6.cst main_call6.v0 (broadcastInDim S256x128 ![] bcast_S_S256x128),
    TRef.binary (TRef.of (T := ⟨S256x128, .f32⟩) main_v198) main_call6.v0 main_call6.v1 maximumf,
    binary main_v199 main_arg18 main_v200 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    unary main_arg19 main_v201 (broadcastInDim S1x64 ![1] bcast_S64_S1x64_1 : (⟨S64, .f32⟩ : BufTy).Contents (Elt F) → (⟨S1x64, .f32⟩ : BufTy).Contents (Elt F)),
    unary main_v201 main_v202 (broadcastInDim S256x64 ![0, 1] bcast_S1x64_S256x64_0_1 : (⟨S1x64, .f32⟩ : BufTy).Contents (Elt F) → (⟨S256x64, .f32⟩ : BufTy).Contents (Elt F)),
    binary main_v200 main_v202 main_v203 (addf : (⟨S256x64, .f32⟩ : BufTy).Contents (Elt F) → (⟨S256x64, .f32⟩ : BufTy).Contents (Elt F) → (⟨S256x64, .f32⟩ : BufTy).Contents (Elt F)),
    TRef.nullary main_call7.cst (constant S_ .f32 0x00000000#32),
    TRef.unary main_call7.cst main_call7.v0 (broadcastInDim S256x64 ![] bcast_S_S256x64),
    TRef.binary (TRef.of (T := ⟨S256x64, .f32⟩) main_v203) main_call7.v0 main_call7.v1 maximumf,
    binary main_v194 main_v204 main_v205 ((fun a b => concatenate S256x128 1 [⟨S256x64, a⟩, ⟨S256x64, b⟩] concatenates_S256x64_S256x64_S256x128_d1) : (⟨S256x64, .f32⟩ : BufTy).Contents (Elt F) → (⟨S256x64, .f32⟩ : BufTy).Contents (Elt F) → (⟨S256x128, .f32⟩ : BufTy).Contents (Elt F)),
    binary main_v205 main_arg20 main_v206 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    unary main_arg21 main_v207 (broadcastInDim S1x1 ![1] bcast_S1_S1x1_1 : (⟨S1, .f32⟩ : BufTy).Contents (Elt F) → (⟨S1x1, .f32⟩ : BufTy).Contents (Elt F)),
    unary main_v207 main_v208 (broadcastInDim S256x1 ![0, 1] bcast_S1x1_S256x1_0_1 : (⟨S1x1, .f32⟩ : BufTy).Contents (Elt F) → (⟨S256x1, .f32⟩ : BufTy).Contents (Elt F)),
    binary main_v206 main_v208 main_v209 (addf : (⟨S256x1, .f32⟩ : BufTy).Contents (Elt F) → (⟨S256x1, .f32⟩ : BufTy).Contents (Elt F) → (⟨S256x1, .f32⟩ : BufTy).Contents (Elt F)) ]

/-- The buffers that stretch 11's operations write, in order. -/
abbrev ops_st11_W : List (Ref sig .tc) :=
  [main_v195, main_v196, main_v197, main_v198, main_call6_cst, main_call6_v0, main_v199, main_v200, main_v201, main_v202, main_v203, main_call7_cst, main_call7_v0, main_v204, main_v205, main_v206, main_v207, main_v208, main_v209]

/-- @main's operations 324 … 324 of 324: up to the one that writes main_v210. -/
abbrev ops_st12 : List (HloOp τ sig (Elt F)) :=
  [ reshape main_v209 main_v210 rfl shapeCasts_S256x1_S256 ]

/-- The buffers that stretch 12's operations write, in order. -/
abbrev ops_st12_W : List (Ref sig .tc) :=
  [main_v210]

/-- The stretches in order: @main's 324 operations. -/
abbrev ops_sts : List (HloOp τ sig (Elt F)) :=
  ops_st0 ++ (ops_st1 ++ (ops_st2 ++ (ops_st3 ++ (ops_st4 ++ (ops_st5 ++ (ops_st6 ++ (ops_st7 ++ (ops_st8 ++ (ops_st9 ++ (ops_st10 ++ (ops_st11 ++ (ops_st12))))))))))))

end Cert.ReferenceIdeal.HandRun

end
-- ==== Proof.Ref.Cut.lean ====
/- The reference's line of operations cut into thirteen consecutive stretches (the degree vector; then, per graph
   layer, the feature product, the neighbourhood aggregation, and the normalisation with its activation; the
   pooling; the head; the final reshape), and its result as the composition of the stretches' folds: `R0` is the
   launch contents of a device's buffers, `R(k+1)` the contents after stretch k from `Rk`, and the run's result is
   `R13` read at the returned buffer (`res_eq`: the fold of a concatenation is the composition of the folds). Each
   stretch writes exactly the buffers listed for it (`ops_stK_writes`) and keeps every other buffer's contents
   (`keep_stK`). -/
import proofs.«171894_j11897059410618_1_alg».proof.Proof.Ref.Run
import proofs.«171894_j11897059410618_1_alg».proof.Proof.Ref.Stretches

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The windows in order and the stretches in order are the same list of operations: both sides are
    concatenations of literal lists, and appending literal lists computes. -/
theorem ops_eq_sts : (ops : List (HloOp τ sig (Elt F))) = ops_st0 ++ (ops_st1 ++ (ops_st2 ++ (ops_st3 ++ (ops_st4 ++ (ops_st5 ++ (ops_st6 ++ (ops_st7 ++ (ops_st8 ++ (ops_st9 ++ (ops_st10 ++ (ops_st11 ++ (ops_st12)))))))))))) := rfl

/-- The launch contents of device `c`'s buffers. -/
abbrev R0 (m : (ℓ : Loc nD τ sig) → Buf (Elt F) ℓ) (c : Dev nD) : Valuation τ sig (Elt F) := fun b => m (c, b)
/-- The buffers' contents after stretch 0. -/
abbrev R1 (m : (ℓ : Loc nD τ sig) → Buf (Elt F) ℓ) (c : Dev nD) : Valuation τ sig (Elt F) := after ops_st0 (R0 m c)
/-- The buffers' contents after stretch 1. -/
abbrev R2 (m : (ℓ : Loc nD τ sig) → Buf (Elt F) ℓ) (c : Dev nD) : Valuation τ sig (Elt F) := after ops_st1 (R1 m c)
/-- The buffers' contents after stretch 2. -/
abbrev R3 (m : (ℓ : Loc nD τ sig) → Buf (Elt F) ℓ) (c : Dev nD) : Valuation τ sig (Elt F) := after ops_st2 (R2 m c)
/-- The buffers' contents after stretch 3. -/
abbrev R4 (m : (ℓ : Loc nD τ sig) → Buf (Elt F) ℓ) (c : Dev nD) : Valuation τ sig (Elt F) := after ops_st3 (R3 m c)
/-- The buffers' contents after stretch 4. -/
abbrev R5 (m : (ℓ : Loc nD τ sig) → Buf (Elt F) ℓ) (c : Dev nD) : Valuation τ sig (Elt F) := after ops_st4 (R4 m c)
/-- The buffers' contents after stretch 5. -/
abbrev R6 (m : (ℓ : Loc nD τ sig) → Buf (Elt F) ℓ) (c : Dev nD) : Valuation τ sig (Elt F) := after ops_st5 (R5 m c)
/-- The buffers' contents after stretch 6. -/
abbrev R7 (m : (ℓ : Loc nD τ sig) → Buf (Elt F) ℓ) (c : Dev nD) : Valuation τ sig (Elt F) := after ops_st6 (R6 m c)
/-- The buffers' contents after stretch 7. -/
abbrev R8 (m : (ℓ : Loc nD τ sig) → Buf (Elt F) ℓ) (c : Dev nD) : Valuation τ sig (Elt F) := after ops_st7 (R7 m c)
/-- The buffers' contents after stretch 8. -/
abbrev R9 (m : (ℓ : Loc nD τ sig) → Buf (Elt F) ℓ) (c : Dev nD) : Valuation τ sig (Elt F) := after ops_st8 (R8 m c)
/-- The buffers' contents after stretch 9. -/
abbrev R10 (m : (ℓ : Loc nD τ sig) → Buf (Elt F) ℓ) (c : Dev nD) : Valuation τ sig (Elt F) := after ops_st9 (R9 m c)
/-- The buffers' contents after stretch 10. -/
abbrev R11 (m : (ℓ : Loc nD τ sig) → Buf (Elt F) ℓ) (c : Dev nD) : Valuation τ sig (Elt F) := after ops_st10 (R10 m c)
/-- The buffers' contents after stretch 11. -/
abbrev R12 (m : (ℓ : Loc nD τ sig) → Buf (Elt F) ℓ) (c : Dev nD) : Valuation τ sig (Elt F) := after ops_st11 (R11 m c)
/-- The buffers' contents after stretch 12. -/
abbrev R13 (m : (ℓ : Loc nD τ sig) → Buf (Elt F) ℓ) (c : Dev nD) : Valuation τ sig (Elt F) := after ops_st12 (R12 m c)

/-- The fold of the whole line is the composition of the stretches' folds. -/
theorem after_ops_eq (V : Valuation τ sig (Elt F)) :
    after ops V = after ops_st12 (after ops_st11 (after ops_st10 (after ops_st9 (after ops_st8 (after ops_st7 (after ops_st6 (after ops_st5 (after ops_st4 (after ops_st3 (after ops_st2 (after ops_st1 (after ops_st0 (V))))))))))))) := by
  rw [ops_eq_sts]
  simp only [after_append]

/-- The run's result is the last boundary valuation read at the returned buffer. -/
theorem res_eq (m : (ℓ : Loc nD τ sig) → Buf (Elt F) ℓ) (c : Dev nD) :
    res m c = R13 m c (Proc.devRef .tc main_v210) := by
  unfold res
  rw [after_ops_eq]

/-! ## What each stretch writes, and what it keeps -/

set_option maxRecDepth 8192 in
set_option maxHeartbeats 4000000 in
/-- Each operation of stretch 0 writes its result buffer, which `ops_st0_W` lists. -/
theorem ops_st0_writes : (ops_st0 : List (HloOp τ sig (Elt F))).Forall fun op =>
    op.writes ⊆ (ops_st0_W.map (Proc.devRef (τ := τ) .tc)).toFinset := by
  repeat' apply And.intro
  all_goals exact singleton_sub_of_mem (by decide)

/-- A buffer stretch 0 does not write keeps its contents through it. -/
theorem keep_st0 (V : Valuation τ sig (Elt F)) {r : Ref sig .tc} (h : r ∉ ops_st0_W) :
    after ops_st0 V (Proc.devRef .tc r) = V (Proc.devRef .tc r) :=
  after_of_writes_sub ops_st0 V ops_st0_writes h

set_option maxRecDepth 8192 in
set_option maxHeartbeats 4000000 in
/-- Each operation of stretch 1 writes its result buffer, which `ops_st1_W` lists. -/
theorem ops_st1_writes : (ops_st1 : List (HloOp τ sig (Elt F))).Forall fun op =>
    op.writes ⊆ (ops_st1_W.map (Proc.devRef (τ := τ) .tc)).toFinset := by
  repeat' apply And.intro
  all_goals exact singleton_sub_of_mem (by decide)

/-- A buffer stretch 1 does not write keeps its contents through it. -/
theorem keep_st1 (V : Valuation τ sig (Elt F)) {r : Ref sig .tc} (h : r ∉ ops_st1_W) :
    after ops_st1 V (Proc.devRef .tc r) = V (Proc.devRef .tc r) :=
  after_of_writes_sub ops_st1 V ops_st1_writes h

set_option maxRecDepth 8192 in
set_option maxHeartbeats 4000000 in
/-- Each operation of stretch 2 writes its result buffer, which `ops_st2_W` lists. -/
theorem ops_st2_writes : (ops_st2 : List (HloOp τ sig (Elt F))).Forall fun op =>
    op.writes ⊆ (ops_st2_W.map (Proc.devRef (τ := τ) .tc)).toFinset := by
  repeat' apply And.intro
  all_goals exact singleton_sub_of_mem (by decide)

/-- A buffer stretch 2 does not write keeps its contents through it. -/
theorem keep_st2 (V : Valuation τ sig (Elt F)) {r : Ref sig .tc} (h : r ∉ ops_st2_W) :
    after ops_st2 V (Proc.devRef .tc r) = V (Proc.devRef .tc r) :=
  after_of_writes_sub ops_st2 V ops_st2_writes h

set_option maxRecDepth 8192 in
set_option maxHeartbeats 4000000 in
/-- Each operation of stretch 3 writes its result buffer, which `ops_st3_W` lists. -/
theorem ops_st3_writes : (ops_st3 : List (HloOp τ sig (Elt F))).Forall fun op =>
    op.writes ⊆ (ops_st3_W.map (Proc.devRef (τ := τ) .tc)).toFinset := by
  repeat' apply And.intro
  all_goals exact singleton_sub_of_mem (by decide)

/-- A buffer stretch 3 does not write keeps its contents through it. -/
theorem keep_st3 (V : Valuation τ sig (Elt F)) {r : Ref sig .tc} (h : r ∉ ops_st3_W) :
    after ops_st3 V (Proc.devRef .tc r) = V (Proc.devRef .tc r) :=
  after_of_writes_sub ops_st3 V ops_st3_writes h

set_option maxRecDepth 8192 in
set_option maxHeartbeats 4000000 in
/-- Each operation of stretch 4 writes its result buffer, which `ops_st4_W` lists. -/
theorem ops_st4_writes : (ops_st4 : List (HloOp τ sig (Elt F))).Forall fun op =>
    op.writes ⊆ (ops_st4_W.map (Proc.devRef (τ := τ) .tc)).toFinset := by
  repeat' apply And.intro
  all_goals exact singleton_sub_of_mem (by decide)

/-- A buffer stretch 4 does not write keeps its contents through it. -/
theorem keep_st4 (V : Valuation τ sig (Elt F)) {r : Ref sig .tc} (h : r ∉ ops_st4_W) :
    after ops_st4 V (Proc.devRef .tc r) = V (Proc.devRef .tc r) :=
  after_of_writes_sub ops_st4 V ops_st4_writes h

set_option maxRecDepth 8192 in
set_option maxHeartbeats 4000000 in
/-- Each operation of stretch 5 writes its result buffer, which `ops_st5_W` lists. -/
theorem ops_st5_writes : (ops_st5 : List (HloOp τ sig (Elt F))).Forall fun op =>
    op.writes ⊆ (ops_st5_W.map (Proc.devRef (τ := τ) .tc)).toFinset := by
  repeat' apply And.intro
  all_goals exact singleton_sub_of_mem (by decide)

/-- A buffer stretch 5 does not write keeps its contents through it. -/
theorem keep_st5 (V : Valuation τ sig (Elt F)) {r : Ref sig .tc} (h : r ∉ ops_st5_W) :
    after ops_st5 V (Proc.devRef .tc r) = V (Proc.devRef .tc r) :=
  after_of_writes_sub ops_st5 V ops_st5_writes h

set_option maxRecDepth 8192 in
set_option maxHeartbeats 4000000 in
/-- Each operation of stretch 6 writes its result buffer, which `ops_st6_W` lists. -/
theorem ops_st6_writes : (ops_st6 : List (HloOp τ sig (Elt F))).Forall fun op =>
    op.writes ⊆ (ops_st6_W.map (Proc.devRef (τ := τ) .tc)).toFinset := by
  repeat' apply And.intro
  all_goals exact singleton_sub_of_mem (by decide)

/-- A buffer stretch 6 does not write keeps its contents through it. -/
theorem keep_st6 (V : Valuation τ sig (Elt F)) {r : Ref sig .tc} (h : r ∉ ops_st6_W) :
    after ops_st6 V (Proc.devRef .tc r) = V (Proc.devRef .tc r) :=
  after_of_writes_sub ops_st6 V ops_st6_writes h

set_option maxRecDepth 8192 in
set_option maxHeartbeats 4000000 in
/-- Each operation of stretch 7 writes its result buffer, which `ops_st7_W` lists. -/
theorem ops_st7_writes : (ops_st7 : List (HloOp τ sig (Elt F))).Forall fun op =>
    op.writes ⊆ (ops_st7_W.map (Proc.devRef (τ := τ) .tc)).toFinset := by
  repeat' apply And.intro
  all_goals exact singleton_sub_of_mem (by decide)

/-- A buffer stretch 7 does not write keeps its contents through it. -/
theorem keep_st7 (V : Valuation τ sig (Elt F)) {r : Ref sig .tc} (h : r ∉ ops_st7_W) :
    after ops_st7 V (Proc.devRef .tc r) = V (Proc.devRef .tc r) :=
  after_of_writes_sub ops_st7 V ops_st7_writes h

set_option maxRecDepth 8192 in
set_option maxHeartbeats 4000000 in
/-- Each operation of stretch 8 writes its result buffer, which `ops_st8_W` lists. -/
theorem ops_st8_writes : (ops_st8 : List (HloOp τ sig (Elt F))).Forall fun op =>
    op.writes ⊆ (ops_st8_W.map (Proc.devRef (τ := τ) .tc)).toFinset := by
  repeat' apply And.intro
  all_goals exact singleton_sub_of_mem (by decide)

/-- A buffer stretch 8 does not write keeps its contents through it. -/
theorem keep_st8 (V : Valuation τ sig (Elt F)) {r : Ref sig .tc} (h : r ∉ ops_st8_W) :
    after ops_st8 V (Proc.devRef .tc r) = V (Proc.devRef .tc r) :=
  after_of_writes_sub ops_st8 V ops_st8_writes h

set_option maxRecDepth 8192 in
set_option maxHeartbeats 4000000 in
/-- Each operation of stretch 9 writes its result buffer, which `ops_st9_W` lists. -/
theorem ops_st9_writes : (ops_st9 : List (HloOp τ sig (Elt F))).Forall fun op =>
    op.writes ⊆ (ops_st9_W.map (Proc.devRef (τ := τ) .tc)).toFinset := by
  repeat' apply And.intro
  all_goals exact singleton_sub_of_mem (by decide)

/-- A buffer stretch 9 does not write keeps its contents through it. -/
theorem keep_st9 (V : Valuation τ sig (Elt F)) {r : Ref sig .tc} (h : r ∉ ops_st9_W) :
    after ops_st9 V (Proc.devRef .tc r) = V (Proc.devRef .tc r) :=
  after_of_writes_sub ops_st9 V ops_st9_writes h

set_option maxRecDepth 8192 in
set_option maxHeartbeats 4000000 in
/-- Each operation of stretch 10 writes its result buffer, which `ops_st10_W` lists. -/
theorem ops_st10_writes : (ops_st10 : List (HloOp τ sig (Elt F))).Forall fun op =>
    op.writes ⊆ (ops_st10_W.map (Proc.devRef (τ := τ) .tc)).toFinset := by
  repeat' apply And.intro
  all_goals exact singleton_sub_of_mem (by decide)

/-- A buffer stretch 10 does not write keeps its contents through it. -/
theorem keep_st10 (V : Valuation τ sig (Elt F)) {r : Ref sig .tc} (h : r ∉ ops_st10_W) :
    after ops_st10 V (Proc.devRef .tc r) = V (Proc.devRef .tc r) :=
  after_of_writes_sub ops_st10 V ops_st10_writes h

set_option maxRecDepth 8192 in
set_option maxHeartbeats 4000000 in
/-- Each operation of stretch 11 writes its result buffer, which `ops_st11_W` lists. -/
theorem ops_st11_writes : (ops_st11 : List (HloOp τ sig (Elt F))).Forall fun op =>
    op.writes ⊆ (ops_st11_W.map (Proc.devRef (τ := τ) .tc)).toFinset := by
  repeat' apply And.intro
  all_goals exact singleton_sub_of_mem (by decide)

/-- A buffer stretch 11 does not write keeps its contents through it. -/
theorem keep_st11 (V : Valuation τ sig (Elt F)) {r : Ref sig .tc} (h : r ∉ ops_st11_W) :
    after ops_st11 V (Proc.devRef .tc r) = V (Proc.devRef .tc r) :=
  after_of_writes_sub ops_st11 V ops_st11_writes h

set_option maxRecDepth 8192 in
set_option maxHeartbeats 4000000 in
/-- Each operation of stretch 12 writes its result buffer, which `ops_st12_W` lists. -/
theorem ops_st12_writes : (ops_st12 : List (HloOp τ sig (Elt F))).Forall fun op =>
    op.writes ⊆ (ops_st12_W.map (Proc.devRef (τ := τ) .tc)).toFinset := by
  repeat' apply And.intro
  all_goals exact singleton_sub_of_mem (by decide)

/-- A buffer stretch 12 does not write keeps its contents through it. -/
theorem keep_st12 (V : Valuation τ sig (Elt F)) {r : Ref sig .tc} (h : r ∉ ops_st12_W) :
    after ops_st12 V (Proc.devRef .tc r) = V (Proc.devRef .tc r) :=
  after_of_writes_sub ops_st12 V ops_st12_writes h

end Cert.ReferenceIdeal.HandRun

end
-- ==== Proof.Ref.ReadBack.lean ====
/- Read-back between the reference's boundary valuations: a buffer that none of the stretches J0 … J1-1 writes
   holds at boundary J1 what it held at boundary J0 (each stretch keeps it: keep_stK, its side condition that the
   buffer is not among the stretch's written buffers by computation; the equations chained outermost first). -/
import proofs.«171894_j11897059410618_1_alg».proof.Proof.Ref.Cut

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem R1_main_arg0_of_R0 (m : (ℓ : Loc nD τ sig) → Buf (Elt F) ℓ) (c : Dev nD) :
    R1 m c (Proc.devRef .tc main_arg0) = R0 m c (Proc.devRef .tc main_arg0) :=
  keep_st0 _ (by decide)

theorem R1_main_arg4_of_R0 (m : (ℓ : Loc nD τ sig) → Buf (Elt F) ℓ) (c : Dev nD) :
    R1 m c (Proc.devRef .tc main_arg4) = R0 m c (Proc.devRef .tc main_arg4) :=
  keep_st0 _ (by decide)

theorem R2_main_v10_of_R1 (m : (ℓ : Loc nD τ sig) → Buf (Elt F) ℓ) (c : Dev nD) :
    R2 m c (Proc.devRef .tc main_v10) = R1 m c (Proc.devRef .tc main_v10) :=
  keep_st1 _ (by decide)

theorem R2_main_v1_of_R1 (m : (ℓ : Loc nD τ sig) → Buf (Elt F) ℓ) (c : Dev nD) :
    R2 m c (Proc.devRef .tc main_v1) = R1 m c (Proc.devRef .tc main_v1) :=
  keep_st1 _ (by decide)

theorem R2_main_v3_of_R1 (m : (ℓ : Loc nD τ sig) → Buf (Elt F) ℓ) (c : Dev nD) :
    R2 m c (Proc.devRef .tc main_v3) = R1 m c (Proc.devRef .tc main_v3) :=
  keep_st1 _ (by decide)

theorem R5_main_v10_of_R1 (m : (ℓ : Loc nD τ sig) → Buf (Elt F) ℓ) (c : Dev nD) :
    R5 m c (Proc.devRef .tc main_v10) = R1 m c (Proc.devRef .tc main_v10) :=
  (keep_st4 _ (by decide)).trans ((keep_st3 _ (by decide)).trans ((keep_st2 _ (by decide)).trans (keep_st1 _ (by decide))))

theorem R5_main_v1_of_R1 (m : (ℓ : Loc nD τ sig) → Buf (Elt F) ℓ) (c : Dev nD) :
    R5 m c (Proc.devRef .tc main_v1) = R1 m c (Proc.devRef .tc main_v1) :=
  (keep_st4 _ (by decide)).trans ((keep_st3 _ (by decide)).trans ((keep_st2 _ (by decide)).trans (keep_st1 _ (by decide))))

theorem R5_main_v3_of_R1 (m : (ℓ : Loc nD τ sig) → Buf (Elt F) ℓ) (c : Dev nD) :
    R5 m c (Proc.devRef .tc main_v3) = R1 m c (Proc.devRef .tc main_v3) :=
  (keep_st4 _ (by decide)).trans ((keep_st3 _ (by decide)).trans ((keep_st2 _ (by decide)).trans (keep_st1 _ (by decide))))

theorem R8_main_v10_of_R1 (m : (ℓ : Loc nD τ sig) → Buf (Elt F) ℓ) (c : Dev nD) :
    R8 m c (Proc.devRef .tc main_v10) = R1 m c (Proc.devRef .tc main_v10) :=
  (keep_st7 _ (by decide)).trans ((keep_st6 _ (by decide)).trans ((keep_st5 _ (by decide)).trans ((keep_st4 _ (by decide)).trans ((keep_st3 _ (by decide)).trans ((keep_st2 _ (by decide)).trans (keep_st1 _ (by decide)))))))

theorem R8_main_v1_of_R1 (m : (ℓ : Loc nD τ sig) → Buf (Elt F) ℓ) (c : Dev nD) :
    R8 m c (Proc.devRef .tc main_v1) = R1 m c (Proc.devRef .tc main_v1) :=
  (keep_st7 _ (by decide)).trans ((keep_st6 _ (by decide)).trans ((keep_st5 _ (by decide)).trans ((keep_st4 _ (by decide)).trans ((keep_st3 _ (by decide)).trans ((keep_st2 _ (by decide)).trans (keep_st1 _ (by decide)))))))

theorem R8_main_v3_of_R1 (m : (ℓ : Loc nD τ sig) → Buf (Elt F) ℓ) (c : Dev nD) :
    R8 m c (Proc.devRef .tc main_v3) = R1 m c (Proc.devRef .tc main_v3) :=
  (keep_st7 _ (by decide)).trans ((keep_st6 _ (by decide)).trans ((keep_st5 _ (by decide)).trans ((keep_st4 _ (by decide)).trans ((keep_st3 _ (by decide)).trans ((keep_st2 _ (by decide)).trans (keep_st1 _ (by decide)))))))

theorem R3_main_arg5_of_R0 (m : (ℓ : Loc nD τ sig) → Buf (Elt F) ℓ) (c : Dev nD) :
    R3 m c (Proc.devRef .tc main_arg5) = R0 m c (Proc.devRef .tc main_arg5) :=
  (keep_st2 _ (by decide)).trans ((keep_st1 _ (by decide)).trans (keep_st0 _ (by decide)))

theorem R3_main_arg6_of_R0 (m : (ℓ : Loc nD τ sig) → Buf (Elt F) ℓ) (c : Dev nD) :
    R3 m c (Proc.devRef .tc main_arg6) = R0 m c (Proc.devRef .tc main_arg6) :=
  (keep_st2 _ (by decide)).trans ((keep_st1 _ (by decide)).trans (keep_st0 _ (by decide)))

theorem R3_main_arg7_of_R0 (m : (ℓ : Loc nD τ sig) → Buf (Elt F) ℓ) (c : Dev nD) :
    R3 m c (Proc.devRef .tc main_arg7) = R0 m c (Proc.devRef .tc main_arg7) :=
  (keep_st2 _ (by decide)).trans ((keep_st1 _ (by decide)).trans (keep_st0 _ (by decide)))

theorem R4_main_arg8_of_R0 (m : (ℓ : Loc nD τ sig) → Buf (Elt F) ℓ) (c : Dev nD) :
    R4 m c (Proc.devRef .tc main_arg8) = R0 m c (Proc.devRef .tc main_arg8) :=
  (keep_st3 _ (by decide)).trans ((keep_st2 _ (by decide)).trans ((keep_st1 _ (by decide)).trans (keep_st0 _ (by decide))))

theorem R6_main_arg9_of_R0 (m : (ℓ : Loc nD τ sig) → Buf (Elt F) ℓ) (c : Dev nD) :
    R6 m c (Proc.devRef .tc main_arg9) = R0 m c (Proc.devRef .tc main_arg9) :=
  (keep_st5 _ (by decide)).trans ((keep_st4 _ (by decide)).trans ((keep_st3 _ (by decide)).trans ((keep_st2 _ (by decide)).trans ((keep_st1 _ (by decide)).trans (keep_st0 _ (by decide))))))

theorem R6_main_arg10_of_R0 (m : (ℓ : Loc nD τ sig) → Buf (Elt F) ℓ) (c : Dev nD) :
    R6 m c (Proc.devRef .tc main_arg10) = R0 m c (Proc.devRef .tc main_arg10) :=
  (keep_st5 _ (by decide)).trans ((keep_st4 _ (by decide)).trans ((keep_st3 _ (by decide)).trans ((keep_st2 _ (by decide)).trans ((keep_st1 _ (by decide)).trans (keep_st0 _ (by decide))))))

theorem R6_main_arg11_of_R0 (m : (ℓ : Loc nD τ sig) → Buf (Elt F) ℓ) (c : Dev nD) :
    R6 m c (Proc.devRef .tc main_arg11) = R0 m c (Proc.devRef .tc main_arg11) :=
  (keep_st5 _ (by decide)).trans ((keep_st4 _ (by decide)).trans ((keep_st3 _ (by decide)).trans ((keep_st2 _ (by decide)).trans ((keep_st1 _ (by decide)).trans (keep_st0 _ (by decide))))))

theorem R6_main_v67_of_R4 (m : (ℓ : Loc nD τ sig) → Buf (Elt F) ℓ) (c : Dev nD) :
    R6 m c (Proc.devRef .tc main_v67) = R4 m c (Proc.devRef .tc main_v67) :=
  (keep_st5 _ (by decide)).trans (keep_st4 _ (by decide))

theorem R7_main_arg12_of_R0 (m : (ℓ : Loc nD τ sig) → Buf (Elt F) ℓ) (c : Dev nD) :
    R7 m c (Proc.devRef .tc main_arg12) = R0 m c (Proc.devRef .tc main_arg12) :=
  (keep_st6 _ (by decide)).trans ((keep_st5 _ (by decide)).trans ((keep_st4 _ (by decide)).trans ((keep_st3 _ (by decide)).trans ((keep_st2 _ (by decide)).trans ((keep_st1 _ (by decide)).trans (keep_st0 _ (by decide)))))))

theorem R9_main_arg13_of_R0 (m : (ℓ : Loc nD τ sig) → Buf (Elt F) ℓ) (c : Dev nD) :
    R9 m c (Proc.devRef .tc main_arg13) = R0 m c (Proc.devRef .tc main_arg13) :=
  (keep_st8 _ (by decide)).trans ((keep_st7 _ (by decide)).trans ((keep_st6 _ (by decide)).trans ((keep_st5 _ (by decide)).trans ((keep_st4 _ (by decide)).trans ((keep_st3 _ (by decide)).trans ((keep_st2 _ (by decide)).trans ((keep_st1 _ (by decide)).trans (keep_st0 _ (by decide)))))))))

theorem R9_main_arg14_of_R0 (m : (ℓ : Loc nD τ sig) → Buf (Elt F) ℓ) (c : Dev nD) :
    R9 m c (Proc.devRef .tc main_arg14) = R0 m c (Proc.devRef .tc main_arg14) :=
  (keep_st8 _ (by decide)).trans ((keep_st7 _ (by decide)).trans ((keep_st6 _ (by decide)).trans ((keep_st5 _ (by decide)).trans ((keep_st4 _ (by decide)).trans ((keep_st3 _ (by decide)).trans ((keep_st2 _ (by decide)).trans ((keep_st1 _ (by decide)).trans (keep_st0 _ (by decide)))))))))

theorem R9_main_arg15_of_R0 (m : (ℓ : Loc nD τ sig) → Buf (Elt F) ℓ) (c : Dev nD) :
    R9 m c (Proc.devRef .tc main_arg15) = R0 m c (Proc.devRef .tc main_arg15) :=
  (keep_st8 _ (by decide)).trans ((keep_st7 _ (by decide)).trans ((keep_st6 _ (by decide)).trans ((keep_st5 _ (by decide)).trans ((keep_st4 _ (by decide)).trans ((keep_st3 _ (by decide)).trans ((keep_st2 _ (by decide)).trans ((keep_st1 _ (by decide)).trans (keep_st0 _ (by decide)))))))))

theorem R10_main_arg2_of_R0 (m : (ℓ : Loc nD τ sig) → Buf (Elt F) ℓ) (c : Dev nD) :
    R10 m c (Proc.devRef .tc main_arg2) = R0 m c (Proc.devRef .tc main_arg2) :=
  (keep_st9 _ (by decide)).trans ((keep_st8 _ (by decide)).trans ((keep_st7 _ (by decide)).trans ((keep_st6 _ (by decide)).trans ((keep_st5 _ (by decide)).trans ((keep_st4 _ (by decide)).trans ((keep_st3 _ (by decide)).trans ((keep_st2 _ (by decide)).trans ((keep_st1 _ (by decide)).trans (keep_st0 _ (by decide))))))))))

theorem R11_main_arg3_of_R0 (m : (ℓ : Loc nD τ sig) → Buf (Elt F) ℓ) (c : Dev nD) :
    R11 m c (Proc.devRef .tc main_arg3) = R0 m c (Proc.devRef .tc main_arg3) :=
  (keep_st10 _ (by decide)).trans ((keep_st9 _ (by decide)).trans ((keep_st8 _ (by decide)).trans ((keep_st7 _ (by decide)).trans ((keep_st6 _ (by decide)).trans ((keep_st5 _ (by decide)).trans ((keep_st4 _ (by decide)).trans ((keep_st3 _ (by decide)).trans ((keep_st2 _ (by decide)).trans ((keep_st1 _ (by decide)).trans (keep_st0 _ (by decide)))))))))))

theorem R11_main_arg16_of_R0 (m : (ℓ : Loc nD τ sig) → Buf (Elt F) ℓ) (c : Dev nD) :
    R11 m c (Proc.devRef .tc main_arg16) = R0 m c (Proc.devRef .tc main_arg16) :=
  (keep_st10 _ (by decide)).trans ((keep_st9 _ (by decide)).trans ((keep_st8 _ (by decide)).trans ((keep_st7 _ (by decide)).trans ((keep_st6 _ (by decide)).trans ((keep_st5 _ (by decide)).trans ((keep_st4 _ (by decide)).trans ((keep_st3 _ (by decide)).trans ((keep_st2 _ (by decide)).trans ((keep_st1 _ (by decide)).trans (keep_st0 _ (by decide)))))))))))

theorem R11_main_arg17_of_R0 (m : (ℓ : Loc nD τ sig) → Buf (Elt F) ℓ) (c : Dev nD) :
    R11 m c (Proc.devRef .tc main_arg17) = R0 m c (Proc.devRef .tc main_arg17) :=
  (keep_st10 _ (by decide)).trans ((keep_st9 _ (by decide)).trans ((keep_st8 _ (by decide)).trans ((keep_st7 _ (by decide)).trans ((keep_st6 _ (by decide)).trans ((keep_st5 _ (by decide)).trans ((keep_st4 _ (by decide)).trans ((keep_st3 _ (by decide)).trans ((keep_st2 _ (by decide)).trans ((keep_st1 _ (by decide)).trans (keep_st0 _ (by decide)))))))))))

theorem R11_main_arg18_of_R0 (m : (ℓ : Loc nD τ sig) → Buf (Elt F) ℓ) (c : Dev nD) :
    R11 m c (Proc.devRef .tc main_arg18) = R0 m c (Proc.devRef .tc main_arg18) :=
  (keep_st10 _ (by decide)).trans ((keep_st9 _ (by decide)).trans ((keep_st8 _ (by decide)).trans ((keep_st7 _ (by decide)).trans ((keep_st6 _ (by decide)).trans ((keep_st5 _ (by decide)).trans ((keep_st4 _ (by decide)).trans ((keep_st3 _ (by decide)).trans ((keep_st2 _ (by decide)).trans ((keep_st1 _ (by decide)).trans (keep_st0 _ (by decide)))))))))))

theorem R11_main_arg19_of_R0 (m : (ℓ : Loc nD τ sig) → Buf (Elt F) ℓ) (c : Dev nD) :
    R11 m c (Proc.devRef .tc main_arg19) = R0 m c (Proc.devRef .tc main_arg19) :=
  (keep_st10 _ (by decide)).trans ((keep_st9 _ (by decide)).trans ((keep_st8 _ (by decide)).trans ((keep_st7 _ (by decide)).trans ((keep_st6 _ (by decide)).trans ((keep_st5 _ (by decide)).trans ((keep_st4 _ (by decide)).trans ((keep_st3 _ (by decide)).trans ((keep_st2 _ (by decide)).trans ((keep_st1 _ (by decide)).trans (keep_st0 _ (by decide)))))))))))

theorem R11_main_arg20_of_R0 (m : (ℓ : Loc nD τ sig) → Buf (Elt F) ℓ) (c : Dev nD) :
    R11 m c (Proc.devRef .tc main_arg20) = R0 m c (Proc.devRef .tc main_arg20) :=
  (keep_st10 _ (by decide)).trans ((keep_st9 _ (by decide)).trans ((keep_st8 _ (by decide)).trans ((keep_st7 _ (by decide)).trans ((keep_st6 _ (by decide)).trans ((keep_st5 _ (by decide)).trans ((keep_st4 _ (by decide)).trans ((keep_st3 _ (by decide)).trans ((keep_st2 _ (by decide)).trans ((keep_st1 _ (by decide)).trans (keep_st0 _ (by decide)))))))))))

theorem R11_main_arg21_of_R0 (m : (ℓ : Loc nD τ sig) → Buf (Elt F) ℓ) (c : Dev nD) :
    R11 m c (Proc.devRef .tc main_arg21) = R0 m c (Proc.devRef .tc main_arg21) :=
  (keep_st10 _ (by decide)).trans ((keep_st9 _ (by decide)).trans ((keep_st8 _ (by decide)).trans ((keep_st7 _ (by decide)).trans ((keep_st6 _ (by decide)).trans ((keep_st5 _ (by decide)).trans ((keep_st4 _ (by decide)).trans ((keep_st3 _ (by decide)).trans ((keep_st2 _ (by decide)).trans ((keep_st1 _ (by decide)).trans (keep_st0 _ (by decide)))))))))))

end Cert.ReferenceIdeal.HandRun

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.LibMatProd.lean ====
/-
  Matrix products at the exact (extended-real) reading, element by element. A rows-by-columns product, whether the host's
  `dot_general` or a kernel's matmul into a zero accumulator whose operands were first narrowed to a shorter float format
  (a change of format is the identity on exact values), is at (r, c) the sum over the shared axis of A(r, k) · B(k, c).
  Both are stated for any record of dimension numbers whose operand indices are known coordinate by coordinate.
-/
import Idealize.ShloMosaic.PureOps.Ideal.Laws
import Idealize.ShloMosaic.Lib.ValueIdx
import proofs.«171894_j11897059410618_1_alg».proof.Proof.LibDotSum

noncomputable section

open scoped BigOperators

namespace Cert.Spec

open Idealize.ShloMosaic Idealize.ShloMosaic.ValueIdx

/-- The product of an `M × K` array by a `K × N` array: at (r, c) the sum over k of A(r, k) · B(k, c). -/
def rowsByCols {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- Two `M × N` arrays added, then one row `b` added to every row, then the maximum with a fixed value `z`
    (with `z` zero: bias, then the rectifier). -/
def addRowMax {M N : Nat} (P Q : (⟨2, ![M, N]⟩ : Shape).Idx → EReal) (b : (⟨2, ![1, N]⟩ : Shape).Idx → EReal) (z : EReal) :
    (⟨2, ![M, N]⟩ : Shape).Idx → EReal :=
  fun j => max ((P j + Q j) + b (ix2 (0 : Fin 1) (j 1))) z

/-- One row `b` added to every row of an `M × N` array. -/
def addRow {M N : Nat} (P : (⟨2, ![M, N]⟩ : Shape).Idx → EReal) (b : (⟨2, ![1, N]⟩ : Shape).Idx → EReal) :
    (⟨2, ![M, N]⟩ : Shape).Idx → EReal :=
  fun j => P j + b (ix2 (0 : Fin 1) (j 1))

end Cert.Spec

namespace Cert.MatProd

open Idealize.ShloMosaic Idealize.ShloMosaic.ValueIdx

/-- The host's product of an `M × K` by a `K × N` array, at (r, c): `∑ k, A (r, k) · B (k, c)`. -/
theorem hostDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (j : (⟨2, ![M, N]⟩ : Shape).Idx) :
    Host.dotGeneral (F := Ideal) d none A B j = Cert.Spec.rowsByCols A B j := by
  unfold Cert.Spec.rowsByCols
  simp only [Host.dotGeneral]
  rw [Ideal.dotGeneral_apply]
  exact Cert.LibDotSum.plain d hr hs hl0 hl1 hr0 hr1 (fun a b => A a * B b) j

/-- A kernel's matmul of two blocks narrowed to bf16, into the zero accumulator, at (r, c): the same sum of the
    un-narrowed blocks' products. -/
theorem tileDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32)
    (hb : (FTy.bf16).bits < (FTy.f32).bits) (j : (⟨2, ![M, N]⟩ : Shape).Idx) :
    matmul (F := Ideal) d none (truncf .bf16 A hb) (truncf .bf16 B hb) (constant ⟨2, ![M, N]⟩ .f32 0x00000000#32) j
      = Cert.Spec.rowsByCols A B j := by
  unfold Cert.Spec.rowsByCols
  simp only [matmul]
  rw [Ideal.matmul_constant_zero_apply]
  exact Cert.LibDotSum.plain d hr hs hl0 hl1 hr0 hr1 (fun a b => A a * B b) j

end Cert.MatProd

end
-- ==== Proof.KV.Lin.lean ====
/-
  The three row-blocked matrix products of the program, at the exact (extended-real) reading of floats: each region's
  output array, after its ten points have written their row blocks back, is the plain rows-by-columns product of the
  two arrays the region reads — at (r, c) the sum over k of A(r, k) · B(k, c). Per region: the body's payload at an
  index is that sum over the two loaded blocks; the left block at point t is rows 5000 t … 5000 t + 4999 of its array
  and the weight block is the whole weight matrix; so point t writes back block t of the product; the ten blocks cover
  the output array.
-/
import proofs.«171894_j11897059410618_1_alg».proof.Proof.KI.Reg0
import proofs.«171894_j11897059410618_1_alg».proof.Proof.KI.Reg3
import proofs.«171894_j11897059410618_1_alg».proof.Proof.KI.Reg6
import proofs.«171894_j11897059410618_1_alg».proof.Proof.LibMatProd
import Idealize.ShloMosaic.Lib.ValueIdx
import Idealize.ShloMosaic.PureOps.Ideal.Laws
import Idealize.ShloMosaic.Lib.Pipeline.Value
import Idealize.ShloMosaic.Lib.Tactic

set_option maxRecDepth 16384

noncomputable section

open scoped BigOperators

namespace Cert.KernelIdeal.HandValue

open Cert.KernelIdeal Cert.KernelIdeal.Gen Idealize.ShloMosaic Idealize.ShloMosaic.TcCoe Idealize.ShloMosaic.ValueIdx Idealize.SL.Sem
open Idealize.ShloMosaic.Pipeline (Dat)

-- the TensorCore's buffer contents when a region is entered, at the exact reading of floats
variable (V : (c : Dev nD) → (b : Ref sig .tc) → Buf (Elt Ideal) ((c : Thread nD τ).loc b))

theorem hz : (![0, 0] : Fin 2 → Nat) = fun _ => 0 := funext fun a => by fin_cases a <;> rfl

/-! ## Region 0: the product of the 50000x128 array by the 128x64 weights, row block by row block -/

/-- The body's payload at an index: the plain product of the two blocks it loaded. -/
theorem pay0_apply (x0 : Vec Ideal S5000x128 .f32) (x1 : Vec Ideal S128x64 .f32) (j : S5000x64.Idx) :
    k0_pay1 (F := Ideal) x0 x1 j = Cert.Spec.rowsByCols (M := 5000) (K := 128) (N := 64) x0 x1 j :=
  Cert.MatProd.tileDot_apply dot_S5000x128_S128x64_S5000x64_1_0_0_1_n_n rfl rfl (fun _ _ => rfl) (fun _ _ => rfl) (fun _ _ => rfl) (fun _ _ => rfl) x0 x1 bitsLt_bf16_f32 j

/-- The index maps over the ten points: the row-block windows sit at block `t` of the rows, the weights at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `5000 t … 5000 t + 4999` of its array. -/
theorem lhsBlock0_apply (c : Dev nD) (t : Fin cfg0.N) (x : S5000x128.Idx) (k : S50000x128.Idx)
    (hk0 : (k 0).val = 5000 * t.val + (x 0).val) (hk1 : (k 1).val = (x 1).val) :
    (Hand.iblk0 V c 0 t : Vec Ideal S5000x128 .f32) x = (V c main_arg0 : S50000x128.Idx → Elt Ideal .f32) k := by
  obtain ⟨e0, e1, -⟩ := idx_facts0 t
  unfold Hand.iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight window's block at every point is the whole weight matrix. -/
theorem rhsBlock0_apply (c : Dev nD) (t : Fin cfg0.N) (x : S128x64.Idx) :
    (Hand.iblk0 V c 1 t : Vec Ideal S128x64 .f32) x = (V c main_arg4 : S128x64.Idx → Elt Ideal .f32) x := by
  obtain ⟨-, -, e2, e3, -⟩ := idx_facts0 t
  unfold Hand.iblk0
  rw [View.read_apply]
  show V c main_arg4 _ = V c main_arg4 _
  congr 1
  funext a
  apply Fin.ext
  match a with
  | ⟨0, _⟩ => show win0_1.index t 0 * 128 + 1 * (x 0).val = (x 0).val; rw [e2]; omega
  | ⟨1, _⟩ => show win0_1.index t 1 * 64 + 1 * (x 1).val = (x 1).val; rw [e3]; omega

/-- What point `t` writes back is block `t` of the product of the two entry arrays. -/
theorem flushed0_eq (c : Dev nD) (t : Fin cfg0.N) :
    (Hand.dat0 (F := Ideal) V c).flushed 2 t
      = ((cfg0.win 2).blk t).view.read (Elt Ideal) (Cert.Spec.rowsByCols (M := 50000) (K := 128) (N := 64) (V c main_arg0) (V c main_arg4)) := by
  show (cfg0.win 2).cut (grid0.coords t) ((Hand.dat0 V c).after 2 t) = _
  rw [Hand.after0_2]
  unfold Hand.out0_2
  rw [View.canon_unit_zero hz]
  simp only [View.ld_unit_zero (S := S5000x128) hz, View.ld_unit_zero (S := S128x64) hz]
  obtain ⟨-, -, -, -, e4, e5⟩ := idx_facts0 t
  funext j
  rw [View.read_apply]
  refine (pay0_apply (Hand.iblk0 V c 0 t) (Hand.iblk0 V c 1 t) j).trans ?_
  unfold Cert.Spec.rowsByCols
  refine Finset.sum_congr rfl fun k _ => ?_
  have hj0 : (j 0).val < 5000 := (j 0).isLt
  have hj1 : (j 1).val < 64 := (j 1).isLt
  refine congrArg₂ (· * ·) ?_ ?_
  · refine lhsBlock0_apply V c t _ _ ?_ rfl
    show win0_2.index t 0 * 5000 + 1 * (j 0).val = 5000 * t.val + (j 0).val
    rw [e4]; omega
  · refine (rhsBlock0_apply V c t _).trans ?_
    congr 1
    funext a
    apply Fin.ext
    match a with
    | ⟨0, _⟩ => rfl
    | ⟨1, _⟩ => show (j 1).val = win0_2.index t 1 * 64 + 1 * (j 1).val; rw [e5]; omega

/-- An index of the output array lies in point `t`'s block iff each coordinate lies in the block's range. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v11).slice (win0_2.rect t)).set ↔ _
  rw [View.set_slice_whole, Rect.mem_set_unit]
  exact Iff.rfl

/-- Row `r` of the output array is written back by point `r / 5000`. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_2 _, ?_⟩
  rw [mem_blk0]
  obtain ⟨-, -, -, -, e4, e5⟩ := idx_facts0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- The output array after the region is the product of the two entry arrays. -/
theorem final0 (c : Dev nD) : (Hand.dat0 (F := Ideal) V c).arrAt 2 cfg0.N
    = Cert.Spec.rowsByCols (M := 50000) (K := 128) (N := 64) (V c main_arg0) (V c main_arg4) :=
  (Hand.dat0 (F := Ideal) V c).arrAt_eq_of_cover 2 _ (fun t _ => flushed0_eq V c t) cover0

/-! ## Region 3: the product of the 50000x64 array by the 64x64 weights, row block by row block -/

/-- The body's payload at an index: the plain product of the two blocks it loaded. -/
theorem pay3_apply (x0 : Vec Ideal S5000x64 .f32) (x1 : Vec Ideal S64x64 .f32) (j : S5000x64.Idx) :
    k3_pay1 (F := Ideal) x0 x1 j = Cert.Spec.rowsByCols (M := 5000) (K := 64) (N := 64) x0 x1 j := by
  unfold k3_pay1
  simp only [shapeCast_self]
  exact Cert.MatProd.tileDot_apply dot_S5000x64_S64x64_S5000x64_1_0_0_1_n_n rfl rfl (fun _ _ => rfl) (fun _ _ => rfl) (fun _ _ => rfl) (fun _ _ => rfl) x0 x1 bitsLt_bf16_f32 j

/-- The index maps over the ten points: the row-block windows sit at block `t` of the rows, the weights at their one block. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left window's block at point `t` is rows `5000 t … 5000 t + 4999` of its array. -/
theorem lhsBlock3_apply (c : Dev nD) (t : Fin cfg3.N) (x : S5000x64.Idx) (k : S50000x64.Idx)
    (hk0 : (k 0).val = 5000 * t.val + (x 0).val) (hk1 : (k 1).val = (x 1).val) :
    (Hand.iblk3 V c 0 t : Vec Ideal S5000x64 .f32) x = (V c main_v49 : S50000x64.Idx → Elt Ideal .f32) k := by
  obtain ⟨e0, e1, -⟩ := idx_facts3 t
  unfold Hand.iblk3
  rw [View.read_apply]
  show V c main_v49 _ = V c main_v49 _
  congr 1
  funext a
  apply Fin.ext
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

/-- The weight window's block at every point is the whole weight matrix. -/
theorem rhsBlock3_apply (c : Dev nD) (t : Fin cfg3.N) (x : S64x64.Idx) :
    (Hand.iblk3 V c 1 t : Vec Ideal S64x64 .f32) x = (V c main_arg8 : S64x64.Idx → Elt Ideal .f32) x := by
  obtain ⟨-, -, e2, e3, -⟩ := idx_facts3 t
  unfold Hand.iblk3
  rw [View.read_apply]
  show V c main_arg8 _ = V c main_arg8 _
  congr 1
  funext a
  apply Fin.ext
  match a with
  | ⟨0, _⟩ => show win3_1.index t 0 * 64 + 1 * (x 0).val = (x 0).val; rw [e2]; omega
  | ⟨1, _⟩ => show win3_1.index t 1 * 64 + 1 * (x 1).val = (x 1).val; rw [e3]; omega

/-- What point `t` writes back is block `t` of the product of the two entry arrays. -/
theorem flushed3_eq (c : Dev nD) (t : Fin cfg3.N) :
    (Hand.dat3 (F := Ideal) V c).flushed 2 t
      = ((cfg3.win 2).blk t).view.read (Elt Ideal) (Cert.Spec.rowsByCols (M := 50000) (K := 64) (N := 64) (V c main_v49) (V c main_arg8)) := by
  show (cfg3.win 2).cut (grid3.coords t) ((Hand.dat3 V c).after 2 t) = _
  rw [Hand.after3_2]
  unfold Hand.out3_2
  rw [View.canon_unit_zero hz]
  simp only [View.ld_unit_zero (S := S5000x64) hz, View.ld_unit_zero (S := S64x64) hz]
  obtain ⟨-, -, -, -, e4, e5⟩ := idx_facts3 t
  funext j
  rw [View.read_apply]
  refine (pay3_apply (Hand.iblk3 V c 0 t) (Hand.iblk3 V c 1 t) j).trans ?_
  unfold Cert.Spec.rowsByCols
  refine Finset.sum_congr rfl fun k _ => ?_
  have hj0 : (j 0).val < 5000 := (j 0).isLt
  have hj1 : (j 1).val < 64 := (j 1).isLt
  refine congrArg₂ (· * ·) ?_ ?_
  · refine lhsBlock3_apply V c t _ _ ?_ rfl
    show win3_2.index t 0 * 5000 + 1 * (j 0).val = 5000 * t.val + (j 0).val
    rw [e4]; omega
  · refine (rhsBlock3_apply V c t _).trans ?_
    congr 1
    funext a
    apply Fin.ext
    match a with
    | ⟨0, _⟩ => rfl
    | ⟨1, _⟩ => show (j 1).val = win3_2.index t 1 * 64 + 1 * (j 1).val; rw [e5]; omega

/-- An index of the output array lies in point `t`'s block iff each coordinate lies in the block's range. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v50).slice (win3_2.rect t)).set ↔ _
  rw [View.set_slice_whole, Rect.mem_set_unit]
  exact Iff.rfl

/-- Row `r` of the output array is written back by point `r / 5000`. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  refine ⟨⟨(i 0).val / 5000, by rw [hN]; omega⟩, flush3_2 _, ?_⟩
  rw [mem_blk3]
  obtain ⟨-, -, -, -, e4, e5⟩ := idx_facts3 ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 64 ≤ (i 1).val ∧ (i 1).val < win3_2.index _ (1 : Fin 2) * 64 + 64
    rw [e5]; omega

/-- The output array after the region is the product of the two entry arrays. -/
theorem final3 (c : Dev nD) : (Hand.dat3 (F := Ideal) V c).arrAt 2 cfg3.N
    = Cert.Spec.rowsByCols (M := 50000) (K := 64) (N := 64) (V c main_v49) (V c main_arg8) :=
  (Hand.dat3 (F := Ideal) V c).arrAt_eq_of_cover 2 _ (fun t _ => flushed3_eq V c t) cover3

/-! ## Region 6: the product of the 50000x64 array by the 64x64 weights, row block by row block -/

/-- The body's payload at an index: the plain product of the two blocks it loaded. -/
theorem pay6_apply (x0 : Vec Ideal S5000x64 .f32) (x1 : Vec Ideal S64x64 .f32) (j : S5000x64.Idx) :
    k6_pay1 (F := Ideal) x0 x1 j = Cert.Spec.rowsByCols (M := 5000) (K := 64) (N := 64) x0 x1 j := by
  unfold k6_pay1
  simp only [shapeCast_self]
  exact Cert.MatProd.tileDot_apply dot_S5000x64_S64x64_S5000x64_1_0_0_1_n_n rfl rfl (fun _ _ => rfl) (fun _ _ => rfl) (fun _ _ => rfl) (fun _ _ => rfl) x0 x1 bitsLt_bf16_f32 j

/-- The index maps over the ten points: the row-block windows sit at block `t` of the rows, the weights at their one block. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The left window's block at point `t` is rows `5000 t … 5000 t + 4999` of its array. -/
theorem lhsBlock6_apply (c : Dev nD) (t : Fin cfg6.N) (x : S5000x64.Idx) (k : S50000x64.Idx)
    (hk0 : (k 0).val = 5000 * t.val + (x 0).val) (hk1 : (k 1).val = (x 1).val) :
    (Hand.iblk6 V c 0 t : Vec Ideal S5000x64 .f32) x = (V c main_v88 : S50000x64.Idx → Elt Ideal .f32) k := by
  obtain ⟨e0, e1, -⟩ := idx_facts6 t
  unfold Hand.iblk6
  rw [View.read_apply]
  show V c main_v88 _ = V c main_v88 _
  congr 1
  funext a
  apply Fin.ext
  match a with
  | ⟨0, _⟩ => show win6_0.index t 0 * 5000 + 1 * (x 0).val = (k 0).val; rw [e0, hk0]; omega
  | ⟨1, _⟩ => show win6_0.index t 1 * 64 + 1 * (x 1).val = (k 1).val; rw [e1, hk1]; omega

/-- The weight window's block at every point is the whole weight matrix. -/
theorem rhsBlock6_apply (c : Dev nD) (t : Fin cfg6.N) (x : S64x64.Idx) :
    (Hand.iblk6 V c 1 t : Vec Ideal S64x64 .f32) x = (V c main_arg12 : S64x64.Idx → Elt Ideal .f32) x := by
  obtain ⟨-, -, e2, e3, -⟩ := idx_facts6 t
  unfold Hand.iblk6
  rw [View.read_apply]
  show V c main_arg12 _ = V c main_arg12 _
  congr 1
  funext a
  apply Fin.ext
  match a with
  | ⟨0, _⟩ => show win6_1.index t 0 * 64 + 1 * (x 0).val = (x 0).val; rw [e2]; omega
  | ⟨1, _⟩ => show win6_1.index t 1 * 64 + 1 * (x 1).val = (x 1).val; rw [e3]; omega

/-- What point `t` writes back is block `t` of the product of the two entry arrays. -/
theorem flushed6_eq (c : Dev nD) (t : Fin cfg6.N) :
    (Hand.dat6 (F := Ideal) V c).flushed 2 t
      = ((cfg6.win 2).blk t).view.read (Elt Ideal) (Cert.Spec.rowsByCols (M := 50000) (K := 64) (N := 64) (V c main_v88) (V c main_arg12)) := by
  show (cfg6.win 2).cut (grid6.coords t) ((Hand.dat6 V c).after 2 t) = _
  rw [Hand.after6_2]
  unfold Hand.out6_2
  rw [View.canon_unit_zero hz]
  simp only [View.ld_unit_zero (S := S5000x64) hz, View.ld_unit_zero (S := S64x64) hz]
  obtain ⟨-, -, -, -, e4, e5⟩ := idx_facts6 t
  funext j
  rw [View.read_apply]
  refine (pay6_apply (Hand.iblk6 V c 0 t) (Hand.iblk6 V c 1 t) j).trans ?_
  unfold Cert.Spec.rowsByCols
  refine Finset.sum_congr rfl fun k _ => ?_
  have hj0 : (j 0).val < 5000 := (j 0).isLt
  have hj1 : (j 1).val < 64 := (j 1).isLt
  refine congrArg₂ (· * ·) ?_ ?_
  · refine lhsBlock6_apply V c t _ _ ?_ rfl
    show win6_2.index t 0 * 5000 + 1 * (j 0).val = 5000 * t.val + (j 0).val
    rw [e4]; omega
  · refine (rhsBlock6_apply V c t _).trans ?_
    congr 1
    funext a
    apply Fin.ext
    match a with
    | ⟨0, _⟩ => rfl
    | ⟨1, _⟩ => show (j 1).val = win6_2.index t 1 * 64 + 1 * (j 1).val; rw [e5]; omega

/-- An index of the output array lies in point `t`'s block iff each coordinate lies in the block's range. -/
theorem mem_blk6 (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v89).slice (win6_2.rect t)).set ↔ _
  rw [View.set_slice_whole, Rect.mem_set_unit]
  exact Iff.rfl

/-- Row `r` of the output array is written back by point `r / 5000`. -/
theorem cover6 (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  have hN : cfg6.N = 10 := N_6
  refine ⟨⟨(i 0).val / 5000, by rw [hN]; omega⟩, flush6_2 _, ?_⟩
  rw [mem_blk6]
  obtain ⟨-, -, -, -, e4, e5⟩ := idx_facts6 ⟨(i 0).val / 5000, by rw [hN]; omega⟩
  intro a
  match a with
  | ⟨0, _⟩ =>
    show win6_2.index _ (0 : Fin 2) * 5000 ≤ (i 0).val ∧ (i 0).val < win6_2.index _ (0 : Fin 2) * 5000 + 5000
    rw [e4]; show (i 0).val / 5000 * 5000 ≤ (i 0).val ∧ (i 0).val < (i 0).val / 5000 * 5000 + 5000; omega
  | ⟨1, _⟩ =>
    show win6_2.index _ (1 : Fin 2) * 64 ≤ (i 1).val ∧ (i 1).val < win6_2.index _ (1 : Fin 2) * 64 + 64
    rw [e5]; omega

/-- The output array after the region is the product of the two entry arrays. -/
theorem final6 (c : Dev nD) : (Hand.dat6 (F := Ideal) V c).arrAt 2 cfg6.N
    = Cert.Spec.rowsByCols (M := 50000) (K := 64) (N := 64) (V c main_v88) (V c main_arg12) :=
  (Hand.dat6 (F := Ideal) V c).arrAt_eq_of_cover 2 _ (fun t _ => flushed6_eq V c t) cover6

end Cert.KernelIdeal.HandValue

end
-- ==== Proof.KV.Norm.lean ====
import proofs.«171894_j11897059410618_1_alg».proof.Proof.KI.Reg2
import proofs.«171894_j11897059410618_1_alg».proof.Proof.KI.Reg5
import proofs.«171894_j11897059410618_1_alg».proof.Proof.KI.Reg8
import Idealize.ShloMosaic.Lib.Pipeline.Value
import Idealize.ShloMosaic.Lib.ValueIdx
import Idealize.ShloMosaic.Lib.ValueLayout
import Idealize.ShloMosaic.PureOps.Ideal.Laws

/-! # What regions 2, 5 and 8 leave in their output arrays, over the extended reals

Each of the three regions walks the ten `[5000, 64]` row blocks of a `[50000, 64]` array and writes every block back, so
its output array ends holding one function of its entry arrays, index by index. With `j` the index (0, column of `i`):

* regions 2 and 8: `normRelu A b μ σ² γ β i = max ((((A i + b j) - μ j) * rsqrt (σ² j + eps)) * γ j + β j) 0`;
* region 5: `normAddRelu A b μ σ² γ β R i`, the same with `R i` added before the maximum.

Here `rsqrt` is the extended reals' reciprocal square root and `eps` the body's literal, kept as its word. The road: the
stored value at one entry of a block (`payK_at`), each window's block read where the output's block puts the entry
(`blkK_w_at`), hence what a point writes back is a block of the function (`flushedK_eq`); the ten blocks cover the
array (`coverK`), so the array is the function (`finalK`). -/

noncomputable section

namespace Cert.KernelIdeal.HandValue

open Cert.KernelIdeal Cert.KernelIdeal.Gen Idealize.ShloMosaic Idealize.ShloMosaic.TcCoe Idealize.ShloMosaic.ValueIdx Idealize.SL.Sem
open Idealize.ShloMosaic.Pipeline (Dat)

/-! ## The functions -/

/-- The body's small constant under the reciprocal square root, kept as the word the program prints. -/
abbrev eps : EReal := Ideal.ofBits .f32 0x3727C5AC#32

/-- Add the bias row, subtract the mean row, multiply by the reciprocal square root of the variance row plus `eps`,
    multiply by the scale row, add the shift row, clamp at zero: every row read at the entry's column. -/
def normRelu (A : S50000x64.Idx → EReal) (b mean var g be : S1x64.Idx → EReal) : S50000x64.Idx → EReal := fun i =>
  max ((((A i + b (ix2 (0 : Fin 1) (i 1))) - mean (ix2 (0 : Fin 1) (i 1))) * Ideal.rsqrt (var (ix2 (0 : Fin 1) (i 1)) + eps))
    * g (ix2 (0 : Fin 1) (i 1)) + be (ix2 (0 : Fin 1) (i 1))) 0

/-- The same with the entry of a second array `R` added before the clamp. -/
def normAddRelu (A : S50000x64.Idx → EReal) (b mean var g be : S1x64.Idx → EReal) (R : S50000x64.Idx → EReal) : S50000x64.Idx → EReal := fun i =>
  max (((((A i + b (ix2 (0 : Fin 1) (i 1))) - mean (ix2 (0 : Fin 1) (i 1))) * Ideal.rsqrt (var (ix2 (0 : Fin 1) (i 1)) + eps))
    * g (ix2 (0 : Fin 1) (i 1)) + be (ix2 (0 : Fin 1) (i 1))) + R i) 0

/-! ## The stored value at an entry -/

/-- Region 2's stored value at (p, q), from its loaded blocks: the block's entry plus the bias row's, minus the mean
    row's, times the reciprocal square root of the variance row's plus `eps`, times the scale row's, plus the shift
    row's, clamped at zero — every row read at column `q`. -/
theorem pay2_at (x0 : Vec Ideal S5000x64 .f32) (x1 x2 x3 x4 x5 : Vec Ideal S1x64 .f32) (p : Fin 5000) (q : Fin 64) :
    k2_pay1 (F := Ideal) x0 x1 x2 x3 x4 x5 (ix2 p q)
      = max ((((x0 (ix2 p q) + x1 (ix2 (0 : Fin 1) q)) - x2 (ix2 (0 : Fin 1) q)) * Ideal.rsqrt (x3 (ix2 (0 : Fin 1) q) + eps)) * x4 (ix2 (0 : Fin 1) q) + x5 (ix2 (0 : Fin 1) q)) 0 := by
  unfold k2_pay1
  simp only [shapeCast_self]
  rw [maximumf_apply, addf_apply, mulf_apply, mulf_apply, subf_apply, addf_apply, broadcast_apply,
    broadcastTo_1b_ab_apply, broadcastTo_1b_ab_apply, broadcastTo_1b_ab_apply, broadcastTo_1b_ab_apply, broadcastTo_1b_ab_apply]
  show max _ (Ideal.ofBits .f32 0x00000000#32) = _
  rw [Ideal.ofBits_zero_f32]
  rfl

/-- Region 8's stored value at (p, q), from its loaded blocks: the block's entry plus the bias row's, minus the mean
    row's, times the reciprocal square root of the variance row's plus `eps`, times the scale row's, plus the shift
    row's, clamped at zero — every row read at column `q`. -/
theorem pay8_at (x0 : Vec Ideal S5000x64 .f32) (x1 x2 x3 x4 x5 : Vec Ideal S1x64 .f32) (p : Fin 5000) (q : Fin 64) :
    k8_pay1 (F := Ideal) x0 x1 x2 x3 x4 x5 (ix2 p q)
      = max ((((x0 (ix2 p q) + x1 (ix2 (0 : Fin 1) q)) - x2 (ix2 (0 : Fin 1) q)) * Ideal.rsqrt (x3 (ix2 (0 : Fin 1) q) + eps)) * x4 (ix2 (0 : Fin 1) q) + x5 (ix2 (0 : Fin 1) q)) 0 := by
  unfold k8_pay1
  simp only [shapeCast_self]
  rw [maximumf_apply, addf_apply, mulf_apply, mulf_apply, subf_apply, addf_apply, broadcast_apply,
    broadcastTo_1b_ab_apply, broadcastTo_1b_ab_apply, broadcastTo_1b_ab_apply, broadcastTo_1b_ab_apply, broadcastTo_1b_ab_apply]
  show max _ (Ideal.ofBits .f32 0x00000000#32) = _
  rw [Ideal.ofBits_zero_f32]
  rfl

/-- Region 5's stored value at (p, q), from its loaded blocks: the block's entry plus the bias row's, minus the mean
    row's, times the reciprocal square root of the variance row's plus `eps`, times the scale row's, plus the shift
    row's, plus the residual block's entry, clamped at zero — every row read at column `q`. -/
theorem pay5_at (x0 : Vec Ideal S5000x64 .f32) (x1 x2 x3 x4 x5 : Vec Ideal S1x64 .f32) (x6 : Vec Ideal S5000x64 .f32) (p : Fin 5000) (q : Fin 64) :
    k5_pay1 (F := Ideal) x0 x1 x2 x3 x4 x5 x6 (ix2 p q)
      = max (((((x0 (ix2 p q) + x1 (ix2 (0 : Fin 1) q)) - x2 (ix2 (0 : Fin 1) q)) * Ideal.rsqrt (x3 (ix2 (0 : Fin 1) q) + eps)) * x4 (ix2 (0 : Fin 1) q) + x5 (ix2 (0 : Fin 1) q)) + x6 (ix2 p q)) 0 := by
  unfold k5_pay1
  simp only [shapeCast_self]
  rw [maximumf_apply, addf_apply, addf_apply, mulf_apply, mulf_apply, subf_apply, addf_apply, broadcast_apply,
    broadcastTo_1b_ab_apply, broadcastTo_1b_ab_apply, broadcastTo_1b_ab_apply, broadcastTo_1b_ab_apply, broadcastTo_1b_ab_apply]
  show max _ (Ideal.ofBits .f32 0x00000000#32) = _
  rw [Ideal.ofBits_zero_f32]
  rfl

/-- A zero offset on both axes. -/
theorem hz : (![0, 0] : Fin 2 → Nat) = fun _ => 0 := funext fun a => by fin_cases a <;> rfl

variable (V : (c : Dev nD) → (b : Ref sig .tc) → Buf (Elt Ideal) ((c : Thread nD τ).loc b))

/-! ## Region 2 -/

/-- The region's index maps over its ten points: the full-height windows sit at row block `t`, column block 0; the
    five row windows stay at block (0, 0). -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-- Window 0's block at point `t`, read at (p, q): its array at row `5000 t + p`, column `q` — where the output's block at
    `t` puts (p, q). -/
theorem blk2_0_at (c : Dev nD) (t : Fin cfg2.N) (p : Fin 5000) (q : Fin 64) :
    (Hand.iblk2 V c 0 t : Vec Ideal S5000x64 .f32) (ix2 p q) = (V c main_v44 : S50000x64.Idx → EReal) (((cfg2.win 6).blk t).view.emb (ix2 p q)) := by
  obtain ⟨b00, b01, r10, r11, r20, r21, r30, r31, r40, r41, r50, r51, o0, o1⟩ := idx_facts2 t
  show (V c main_v44 : S50000x64.Idx → EReal) (((cfg2.win 0).blk t).view.emb (ix2 p q)) = _
  refine congrArg _ (funext fun a => Fin.ext ?_)
  match a with
  | ⟨0, _⟩ => show win2_0.index t (0 : Fin 2) * 5000 + 1 * p.val = win2_6.index t (0 : Fin 2) * 5000 + 1 * p.val; omega
  | ⟨1, _⟩ => show win2_0.index t (1 : Fin 2) * 64 + 1 * q.val = win2_6.index t (1 : Fin 2) * 64 + 1 * q.val; omega

/-- Window 1's block at any point, read at (0, q): its one-row array at column `q`, the column of the output's (p, q). -/
theorem blk2_1_at (c : Dev nD) (t : Fin cfg2.N) (p : Fin 5000) (q : Fin 64) :
    (Hand.iblk2 V c 1 t : Vec Ideal S1x64 .f32) (ix2 (0 : Fin 1) q)
      = (V c main_v45 : S1x64.Idx → EReal) (ix2 (0 : Fin 1) ((((cfg2.win 6).blk t).view.emb (ix2 p q) : S50000x64.Idx) 1)) := by
  obtain ⟨b00, b01, r10, r11, r20, r21, r30, r31, r40, r41, r50, r51, o0, o1⟩ := idx_facts2 t
  show (V c main_v45 : S1x64.Idx → EReal) (((cfg2.win 1).blk t).view.emb (ix2 (0 : Fin 1) q)) = _
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * q.val = win2_6.index t (1 : Fin 2) * 64 + 1 * q.val; omega

/-- Window 2's block at any point, read at (0, q): its one-row array at column `q`, the column of the output's (p, q). -/
theorem blk2_2_at (c : Dev nD) (t : Fin cfg2.N) (p : Fin 5000) (q : Fin 64) :
    (Hand.iblk2 V c 2 t : Vec Ideal S1x64 .f32) (ix2 (0 : Fin 1) q)
      = (V c main_v48_0 : S1x64.Idx → EReal) (ix2 (0 : Fin 1) ((((cfg2.win 6).blk t).view.emb (ix2 p q) : S50000x64.Idx) 1)) := by
  obtain ⟨b00, b01, r10, r11, r20, r21, r30, r31, r40, r41, r50, r51, o0, o1⟩ := idx_facts2 t
  show (V c main_v48_0 : S1x64.Idx → EReal) (((cfg2.win 2).blk t).view.emb (ix2 (0 : Fin 1) q)) = _
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * q.val = win2_6.index t (1 : Fin 2) * 64 + 1 * q.val; omega

/-- Window 3's block at any point, read at (0, q): its one-row array at column `q`, the column of the output's (p, q). -/
theorem blk2_3_at (c : Dev nD) (t : Fin cfg2.N) (p : Fin 5000) (q : Fin 64) :
    (Hand.iblk2 V c 3 t : Vec Ideal S1x64 .f32) (ix2 (0 : Fin 1) q)
      = (V c main_v48_1 : S1x64.Idx → EReal) (ix2 (0 : Fin 1) ((((cfg2.win 6).blk t).view.emb (ix2 p q) : S50000x64.Idx) 1)) := by
  obtain ⟨b00, b01, r10, r11, r20, r21, r30, r31, r40, r41, r50, r51, o0, o1⟩ := idx_facts2 t
  show (V c main_v48_1 : S1x64.Idx → EReal) (((cfg2.win 3).blk t).view.emb (ix2 (0 : Fin 1) q)) = _
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * q.val = win2_6.index t (1 : Fin 2) * 64 + 1 * q.val; omega

/-- Window 4's block at any point, read at (0, q): its one-row array at column `q`, the column of the output's (p, q). -/
theorem blk2_4_at (c : Dev nD) (t : Fin cfg2.N) (p : Fin 5000) (q : Fin 64) :
    (Hand.iblk2 V c 4 t : Vec Ideal S1x64 .f32) (ix2 (0 : Fin 1) q)
      = (V c main_v46 : S1x64.Idx → EReal) (ix2 (0 : Fin 1) ((((cfg2.win 6).blk t).view.emb (ix2 p q) : S50000x64.Idx) 1)) := by
  obtain ⟨b00, b01, r10, r11, r20, r21, r30, r31, r40, r41, r50, r51, o0, o1⟩ := idx_facts2 t
  show (V c main_v46 : S1x64.Idx → EReal) (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 64 + 1 * q.val = win2_6.index t (1 : Fin 2) * 64 + 1 * q.val; omega

/-- Window 5's block at any point, read at (0, q): its one-row array at column `q`, the column of the output's (p, q). -/
theorem blk2_5_at (c : Dev nD) (t : Fin cfg2.N) (p : Fin 5000) (q : Fin 64) :
    (Hand.iblk2 V c 5 t : Vec Ideal S1x64 .f32) (ix2 (0 : Fin 1) q)
      = (V c main_v47 : S1x64.Idx → EReal) (ix2 (0 : Fin 1) ((((cfg2.win 6).blk t).view.emb (ix2 p q) : S50000x64.Idx) 1)) := by
  obtain ⟨b00, b01, r10, r11, r20, r21, r30, r31, r40, r41, r50, r51, o0, o1⟩ := idx_facts2 t
  show (V c main_v47 : S1x64.Idx → EReal) (((cfg2.win 5).blk t).view.emb (ix2 (0 : Fin 1) q)) = _
  refine congrArg _ (funext fun a => Fin.ext ?_)
  match a with
  | ⟨0, _⟩ => show win2_5.index t (0 : Fin 2) * 1 + 1 * 0 = 0; omega
  | ⟨1, _⟩ => show win2_5.index t (1 : Fin 2) * 64 + 1 * q.val = win2_6.index t (1 : Fin 2) * 64 + 1 * q.val; omega

/-- What point `t` writes back is block `t` of `normRelu` of the region's entry arrays. -/
theorem flushed2_eq (c : Dev nD) (t : Fin cfg2.N) :
    (Hand.dat2 (F := Ideal) V c).flushed 6 t = ((cfg2.win 6).blk t).view.read (Elt Ideal) (normRelu (V c main_v44) (V c main_v45) (V c main_v48_0) (V c main_v48_1) (V c main_v46) (V c main_v47)) := by
  show (cfg2.win 6).cut (grid2.coords t) ((Hand.dat2 (F := Ideal) V c).after 6 t) = _
  rw [Hand.after2_6]
  unfold Hand.out2_6
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay2_at (Hand.iblk2 V c 0 t) (Hand.iblk2 V c 1 t) (Hand.iblk2 V c 2 t) (Hand.iblk2 V c 3 t) (Hand.iblk2 V c 4 t) (Hand.iblk2 V c 5 t) p q).trans ?_
  rw [blk2_0_at V c t p q, blk2_1_at V c t p q, blk2_2_at V c t p q, blk2_3_at V c t p q, blk2_4_at V c t p q, blk2_5_at V c t p q]
  rfl

/-- An index of the output array is in point `t`'s block iff each coordinate is in the block's range on its axis. -/
theorem mem_blk2 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v49).slice (win2_6.rect t)).set ↔ _
  rw [View.set_slice_whole, Rect.mem_set_unit]
  exact Iff.rfl

/-- Every index of the output array is in some point's block: row `r` is in block `r / 5000`. -/
theorem cover2 (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hN : grid2.N = 10 := N_2
  have ht : (i 0).val / 5000 < grid2.N := by rw [hN]; omega
  obtain ⟨b00, b01, r10, r11, r20, r21, r30, r31, r40, r41, r50, r51, o0, o1⟩ := idx_facts2 ⟨(i 0).val / 5000, ht⟩
  refine ⟨⟨(i 0).val / 5000, ht⟩, flush2_6 _, ?_⟩
  rw [mem_blk2]
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win2_6.index ⟨(i 0).val / 5000, ht⟩ (1 : Fin 2) * 64 ≤ (i 1).val ∧ (i 1).val < win2_6.index ⟨(i 0).val / 5000, ht⟩ (1 : Fin 2) * 64 + 64
    rw [o1]; omega

/-- The region's output array after its ten points: `normRelu` of its entry arrays. -/
theorem final2 (c : Dev nD) : (Hand.dat2 (F := Ideal) V c).arrAt 6 cfg2.N = normRelu (V c main_v44) (V c main_v45) (V c main_v48_0) (V c main_v48_1) (V c main_v46) (V c main_v47) :=
  (Hand.dat2 (F := Ideal) V c).arrAt_eq_of_cover 6 (normRelu (V c main_v44) (V c main_v45) (V c main_v48_0) (V c main_v48_1) (V c main_v46) (V c main_v47)) (fun t _ => flushed2_eq V c t) cover2

/-! ## Region 8 -/

/-- The region's index maps over its ten points: the full-height windows sit at row block `t`, column block 0; the
    five row windows stay at block (0, 0). -/
theorem idx_facts8 : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = 0
    ∧ win8_5.index t (1 : Fin 2) = 0
    ∧ win8_6.index t (0 : Fin 2) = t.val
    ∧ win8_6.index t (1 : Fin 2) = 0 :=
  (by decide +kernel : ∀ t : Fin grid8.N, _)

/-- Window 0's block at point `t`, read at (p, q): its array at row `5000 t + p`, column `q` — where the output's block at
    `t` puts (p, q). -/
theorem blk8_0_at (c : Dev nD) (t : Fin cfg8.N) (p : Fin 5000) (q : Fin 64) :
    (Hand.iblk8 V c 0 t : Vec Ideal S5000x64 .f32) (ix2 p q) = (V c main_v122 : S50000x64.Idx → EReal) (((cfg8.win 6).blk t).view.emb (ix2 p q)) := by
  obtain ⟨b00, b01, r10, r11, r20, r21, r30, r31, r40, r41, r50, r51, o0, o1⟩ := idx_facts8 t
  show (V c main_v122 : S50000x64.Idx → EReal) (((cfg8.win 0).blk t).view.emb (ix2 p q)) = _
  refine congrArg _ (funext fun a => Fin.ext ?_)
  match a with
  | ⟨0, _⟩ => show win8_0.index t (0 : Fin 2) * 5000 + 1 * p.val = win8_6.index t (0 : Fin 2) * 5000 + 1 * p.val; omega
  | ⟨1, _⟩ => show win8_0.index t (1 : Fin 2) * 64 + 1 * q.val = win8_6.index t (1 : Fin 2) * 64 + 1 * q.val; omega

/-- Window 1's block at any point, read at (0, q): its one-row array at column `q`, the column of the output's (p, q). -/
theorem blk8_1_at (c : Dev nD) (t : Fin cfg8.N) (p : Fin 5000) (q : Fin 64) :
    (Hand.iblk8 V c 1 t : Vec Ideal S1x64 .f32) (ix2 (0 : Fin 1) q)
      = (V c main_v123 : S1x64.Idx → EReal) (ix2 (0 : Fin 1) ((((cfg8.win 6).blk t).view.emb (ix2 p q) : S50000x64.Idx) 1)) := by
  obtain ⟨b00, b01, r10, r11, r20, r21, r30, r31, r40, r41, r50, r51, o0, o1⟩ := idx_facts8 t
  show (V c main_v123 : S1x64.Idx → EReal) (((cfg8.win 1).blk t).view.emb (ix2 (0 : Fin 1) q)) = _
  refine congrArg _ (funext fun a => Fin.ext ?_)
  match a with
  | ⟨0, _⟩ => show win8_1.index t (0 : Fin 2) * 1 + 1 * 0 = 0; omega
  | ⟨1, _⟩ => show win8_1.index t (1 : Fin 2) * 64 + 1 * q.val = win8_6.index t (1 : Fin 2) * 64 + 1 * q.val; omega

/-- Window 2's block at any point, read at (0, q): its one-row array at column `q`, the column of the output's (p, q). -/
theorem blk8_2_at (c : Dev nD) (t : Fin cfg8.N) (p : Fin 5000) (q : Fin 64) :
    (Hand.iblk8 V c 2 t : Vec Ideal S1x64 .f32) (ix2 (0 : Fin 1) q)
      = (V c main_v126_0 : S1x64.Idx → EReal) (ix2 (0 : Fin 1) ((((cfg8.win 6).blk t).view.emb (ix2 p q) : S50000x64.Idx) 1)) := by
  obtain ⟨b00, b01, r10, r11, r20, r21, r30, r31, r40, r41, r50, r51, o0, o1⟩ := idx_facts8 t
  show (V c main_v126_0 : S1x64.Idx → EReal) (((cfg8.win 2).blk t).view.emb (ix2 (0 : Fin 1) q)) = _
  refine congrArg _ (funext fun a => Fin.ext ?_)
  match a with
  | ⟨0, _⟩ => show win8_2.index t (0 : Fin 2) * 1 + 1 * 0 = 0; omega
  | ⟨1, _⟩ => show win8_2.index t (1 : Fin 2) * 64 + 1 * q.val = win8_6.index t (1 : Fin 2) * 64 + 1 * q.val; omega

/-- Window 3's block at any point, read at (0, q): its one-row array at column `q`, the column of the output's (p, q). -/
theorem blk8_3_at (c : Dev nD) (t : Fin cfg8.N) (p : Fin 5000) (q : Fin 64) :
    (Hand.iblk8 V c 3 t : Vec Ideal S1x64 .f32) (ix2 (0 : Fin 1) q)
      = (V c main_v126_1 : S1x64.Idx → EReal) (ix2 (0 : Fin 1) ((((cfg8.win 6).blk t).view.emb (ix2 p q) : S50000x64.Idx) 1)) := by
  obtain ⟨b00, b01, r10, r11, r20, r21, r30, r31, r40, r41, r50, r51, o0, o1⟩ := idx_facts8 t
  show (V c main_v126_1 : S1x64.Idx → EReal) (((cfg8.win 3).blk t).view.emb (ix2 (0 : Fin 1) q)) = _
  refine congrArg _ (funext fun a => Fin.ext ?_)
  match a with
  | ⟨0, _⟩ => show win8_3.index t (0 : Fin 2) * 1 + 1 * 0 = 0; omega
  | ⟨1, _⟩ => show win8_3.index t (1 : Fin 2) * 64 + 1 * q.val = win8_6.index t (1 : Fin 2) * 64 + 1 * q.val; omega

/-- Window 4's block at any point, read at (0, q): its one-row array at column `q`, the column of the output's (p, q). -/
theorem blk8_4_at (c : Dev nD) (t : Fin cfg8.N) (p : Fin 5000) (q : Fin 64) :
    (Hand.iblk8 V c 4 t : Vec Ideal S1x64 .f32) (ix2 (0 : Fin 1) q)
      = (V c main_v124 : S1x64.Idx → EReal) (ix2 (0 : Fin 1) ((((cfg8.win 6).blk t).view.emb (ix2 p q) : S50000x64.Idx) 1)) := by
  obtain ⟨b00, b01, r10, r11, r20, r21, r30, r31, r40, r41, r50, r51, o0, o1⟩ := idx_facts8 t
  show (V c main_v124 : S1x64.Idx → EReal) (((cfg8.win 4).blk t).view.emb (ix2 (0 : Fin 1) q)) = _
  refine congrArg _ (funext fun a => Fin.ext ?_)
  match a with
  | ⟨0, _⟩ => show win8_4.index t (0 : Fin 2) * 1 + 1 * 0 = 0; omega
  | ⟨1, _⟩ => show win8_4.index t (1 : Fin 2) * 64 + 1 * q.val = win8_6.index t (1 : Fin 2) * 64 + 1 * q.val; omega

/-- Window 5's block at any point, read at (0, q): its one-row array at column `q`, the column of the output's (p, q). -/
theorem blk8_5_at (c : Dev nD) (t : Fin cfg8.N) (p : Fin 5000) (q : Fin 64) :
    (Hand.iblk8 V c 5 t : Vec Ideal S1x64 .f32) (ix2 (0 : Fin 1) q)
      = (V c main_v125 : S1x64.Idx → EReal) (ix2 (0 : Fin 1) ((((cfg8.win 6).blk t).view.emb (ix2 p q) : S50000x64.Idx) 1)) := by
  obtain ⟨b00, b01, r10, r11, r20, r21, r30, r31, r40, r41, r50, r51, o0, o1⟩ := idx_facts8 t
  show (V c main_v125 : S1x64.Idx → EReal) (((cfg8.win 5).blk t).view.emb (ix2 (0 : Fin 1) q)) = _
  refine congrArg _ (funext fun a => Fin.ext ?_)
  match a with
  | ⟨0, _⟩ => show win8_5.index t (0 : Fin 2) * 1 + 1 * 0 = 0; omega
  | ⟨1, _⟩ => show win8_5.index t (1 : Fin 2) * 64 + 1 * q.val = win8_6.index t (1 : Fin 2) * 64 + 1 * q.val; omega

/-- What point `t` writes back is block `t` of `normRelu` of the region's entry arrays. -/
theorem flushed8_eq (c : Dev nD) (t : Fin cfg8.N) :
    (Hand.dat8 (F := Ideal) V c).flushed 6 t = ((cfg8.win 6).blk t).view.read (Elt Ideal) (normRelu (V c main_v122) (V c main_v123) (V c main_v126_0) (V c main_v126_1) (V c main_v124) (V c main_v125)) := by
  show (cfg8.win 6).cut (grid8.coords t) ((Hand.dat8 (F := Ideal) V c).after 6 t) = _
  rw [Hand.after8_6]
  unfold Hand.out8_6
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay8_at (Hand.iblk8 V c 0 t) (Hand.iblk8 V c 1 t) (Hand.iblk8 V c 2 t) (Hand.iblk8 V c 3 t) (Hand.iblk8 V c 4 t) (Hand.iblk8 V c 5 t) p q).trans ?_
  rw [blk8_0_at V c t p q, blk8_1_at V c t p q, blk8_2_at V c t p q, blk8_3_at V c t p q, blk8_4_at V c t p q, blk8_5_at V c t p q]
  rfl

/-- An index of the output array is in point `t`'s block iff each coordinate is in the block's range on its axis. -/
theorem mem_blk8 (t : Fin cfg8.N) (i : S50000x64.Idx) :
    i ∈ ((cfg8.win 6).blk t).view.set ↔ ∀ a : Fin 2, win8_6.index t a * S5000x64.size a ≤ (i a).val ∧ (i a).val < win8_6.index t a * S5000x64.size a + S5000x64.size a := by
  show i ∈ ((View.whole main_v127).slice (win8_6.rect t)).set ↔ _
  rw [View.set_slice_whole, Rect.mem_set_unit]
  exact Iff.rfl

/-- Every index of the output array is in some point's block: row `r` is in block `r / 5000`. -/
theorem cover8 (i : S50000x64.Idx) : ∃ t : Fin cfg8.N, (cfg8.win 6).flush t = true ∧ i ∈ ((cfg8.win 6).blk t).view.set := by
  have hi0 : (i 0).val < 50000 := (i 0).isLt
  have hi1 : (i 1).val < 64 := (i 1).isLt
  have hN : grid8.N = 10 := N_8
  have ht : (i 0).val / 5000 < grid8.N := by rw [hN]; omega
  obtain ⟨b00, b01, r10, r11, r20, r21, r30, r31, r40, r41, r50, r51, o0, o1⟩ := idx_facts8 ⟨(i 0).val / 5000, ht⟩
  refine ⟨⟨(i 0).val / 5000, ht⟩, flush8_6 _, ?_⟩
  rw [mem_blk8]
  intro a
  match a with
  | ⟨0, _⟩ =>
    show win8_6.index ⟨(i 0).val / 5000, ht⟩ (0 : Fin 2) * 5000 ≤ (i 0).val ∧ (i 0).val < win8_6.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win8_6.index ⟨(i 0).val / 5000, ht⟩ (1 : Fin 2) * 64 ≤ (i 1).val ∧ (i 1).val < win8_6.index ⟨(i 0).val / 5000, ht⟩ (1 : Fin 2) * 64 + 64
    rw [o1]; omega

/-- The region's output array after its ten points: `normRelu` of its entry arrays. -/
theorem final8 (c : Dev nD) : (Hand.dat8 (F := Ideal) V c).arrAt 6 cfg8.N = normRelu (V c main_v122) (V c main_v123) (V c main_v126_0) (V c main_v126_1) (V c main_v124) (V c main_v125) :=
  (Hand.dat8 (F := Ideal) V c).arrAt_eq_of_cover 6 (normRelu (V c main_v122) (V c main_v123) (V c main_v126_0) (V c main_v126_1) (V c main_v124) (V c main_v125)) (fun t _ => flushed8_eq V c t) cover8

/-! ## Region 5 -/

/-- The region's index maps over its ten points: the full-height windows sit at row block `t`, column block 0; the
    five row windows stay at block (0, 0). -/
theorem idx_facts5 : ∀ t : Fin cfg5.N, win5_0.index t (0 : Fin 2) = t.val
    ∧ win5_0.index t (1 : Fin 2) = 0
    ∧ win5_6.index t (0 : Fin 2) = t.val
    ∧ win5_6.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_7.index t (0 : Fin 2) = t.val
    ∧ win5_7.index t (1 : Fin 2) = 0 :=
  (by decide +kernel : ∀ t : Fin grid5.N, _)

/-- Window 0's block at point `t`, read at (p, q): its array at row `5000 t + p`, column `q` — where the output's block at
    `t` puts (p, q). -/
theorem blk5_0_at (c : Dev nD) (t : Fin cfg5.N) (p : Fin 5000) (q : Fin 64) :
    (Hand.iblk5 V c 0 t : Vec Ideal S5000x64 .f32) (ix2 p q) = (V c main_v83 : S50000x64.Idx → EReal) (((cfg5.win 7).blk t).view.emb (ix2 p q)) := by
  obtain ⟨b00, b01, b60, b61, r10, r11, r20, r21, r30, r31, r40, r41, r50, r51, o0, o1⟩ := idx_facts5 t
  show (V c main_v83 : S50000x64.Idx → EReal) (((cfg5.win 0).blk t).view.emb (ix2 p q)) = _
  refine congrArg _ (funext fun a => Fin.ext ?_)
  match a with
  | ⟨0, _⟩ => show win5_0.index t (0 : Fin 2) * 5000 + 1 * p.val = win5_7.index t (0 : Fin 2) * 5000 + 1 * p.val; omega
  | ⟨1, _⟩ => show win5_0.index t (1 : Fin 2) * 64 + 1 * q.val = win5_7.index t (1 : Fin 2) * 64 + 1 * q.val; omega

/-- Window 6's block at point `t`, read at (p, q): its array at row `5000 t + p`, column `q` — where the output's block at
    `t` puts (p, q). -/
theorem blk5_6_at (c : Dev nD) (t : Fin cfg5.N) (p : Fin 5000) (q : Fin 64) :
    (Hand.iblk5 V c 6 t : Vec Ideal S5000x64 .f32) (ix2 p q) = (V c main_v49 : S50000x64.Idx → EReal) (((cfg5.win 7).blk t).view.emb (ix2 p q)) := by
  obtain ⟨b00, b01, b60, b61, r10, r11, r20, r21, r30, r31, r40, r41, r50, r51, o0, o1⟩ := idx_facts5 t
  show (V c main_v49 : S50000x64.Idx → EReal) (((cfg5.win 6).blk t).view.emb (ix2 p q)) = _
  refine congrArg _ (funext fun a => Fin.ext ?_)
  match a with
  | ⟨0, _⟩ => show win5_6.index t (0 : Fin 2) * 5000 + 1 * p.val = win5_7.index t (0 : Fin 2) * 5000 + 1 * p.val; omega
  | ⟨1, _⟩ => show win5_6.index t (1 : Fin 2) * 64 + 1 * q.val = win5_7.index t (1 : Fin 2) * 64 + 1 * q.val; omega

/-- Window 1's block at any point, read at (0, q): its one-row array at column `q`, the column of the output's (p, q). -/
theorem blk5_1_at (c : Dev nD) (t : Fin cfg5.N) (p : Fin 5000) (q : Fin 64) :
    (Hand.iblk5 V c 1 t : Vec Ideal S1x64 .f32) (ix2 (0 : Fin 1) q)
      = (V c main_v84 : S1x64.Idx → EReal) (ix2 (0 : Fin 1) ((((cfg5.win 7).blk t).view.emb (ix2 p q) : S50000x64.Idx) 1)) := by
  obtain ⟨b00, b01, b60, b61, r10, r11, r20, r21, r30, r31, r40, r41, r50, r51, o0, o1⟩ := idx_facts5 t
  show (V c main_v84 : S1x64.Idx → EReal) (((cfg5.win 1).blk t).view.emb (ix2 (0 : Fin 1) q)) = _
  refine congrArg _ (funext fun a => Fin.ext ?_)
  match a with
  | ⟨0, _⟩ => show win5_1.index t (0 : Fin 2) * 1 + 1 * 0 = 0; omega
  | ⟨1, _⟩ => show win5_1.index t (1 : Fin 2) * 64 + 1 * q.val = win5_7.index t (1 : Fin 2) * 64 + 1 * q.val; omega

/-- Window 2's block at any point, read at (0, q): its one-row array at column `q`, the column of the output's (p, q). -/
theorem blk5_2_at (c : Dev nD) (t : Fin cfg5.N) (p : Fin 5000) (q : Fin 64) :
    (Hand.iblk5 V c 2 t : Vec Ideal S1x64 .f32) (ix2 (0 : Fin 1) q)
      = (V c main_v87_0 : S1x64.Idx → EReal) (ix2 (0 : Fin 1) ((((cfg5.win 7).blk t).view.emb (ix2 p q) : S50000x64.Idx) 1)) := by
  obtain ⟨b00, b01, b60, b61, r10, r11, r20, r21, r30, r31, r40, r41, r50, r51, o0, o1⟩ := idx_facts5 t
  show (V c main_v87_0 : S1x64.Idx → EReal) (((cfg5.win 2).blk t).view.emb (ix2 (0 : Fin 1) q)) = _
  refine congrArg _ (funext fun a => Fin.ext ?_)
  match a with
  | ⟨0, _⟩ => show win5_2.index t (0 : Fin 2) * 1 + 1 * 0 = 0; omega
  | ⟨1, _⟩ => show win5_2.index t (1 : Fin 2) * 64 + 1 * q.val = win5_7.index t (1 : Fin 2) * 64 + 1 * q.val; omega

/-- Window 3's block at any point, read at (0, q): its one-row array at column `q`, the column of the output's (p, q). -/
theorem blk5_3_at (c : Dev nD) (t : Fin cfg5.N) (p : Fin 5000) (q : Fin 64) :
    (Hand.iblk5 V c 3 t : Vec Ideal S1x64 .f32) (ix2 (0 : Fin 1) q)
      = (V c main_v87_1 : S1x64.Idx → EReal) (ix2 (0 : Fin 1) ((((cfg5.win 7).blk t).view.emb (ix2 p q) : S50000x64.Idx) 1)) := by
  obtain ⟨b00, b01, b60, b61, r10, r11, r20, r21, r30, r31, r40, r41, r50, r51, o0, o1⟩ := idx_facts5 t
  show (V c main_v87_1 : S1x64.Idx → EReal) (((cfg5.win 3).blk t).view.emb (ix2 (0 : Fin 1) q)) = _
  refine congrArg _ (funext fun a => Fin.ext ?_)
  match a with
  | ⟨0, _⟩ => show win5_3.index t (0 : Fin 2) * 1 + 1 * 0 = 0; omega
  | ⟨1, _⟩ => show win5_3.index t (1 : Fin 2) * 64 + 1 * q.val = win5_7.index t (1 : Fin 2) * 64 + 1 * q.val; omega

/-- Window 4's block at any point, read at (0, q): its one-row array at column `q`, the column of the output's (p, q). -/
theorem blk5_4_at (c : Dev nD) (t : Fin cfg5.N) (p : Fin 5000) (q : Fin 64) :
    (Hand.iblk5 V c 4 t : Vec Ideal S1x64 .f32) (ix2 (0 : Fin 1) q)
      = (V c main_v85 : S1x64.Idx → EReal) (ix2 (0 : Fin 1) ((((cfg5.win 7).blk t).view.emb (ix2 p q) : S50000x64.Idx) 1)) := by
  obtain ⟨b00, b01, b60, b61, r10, r11, r20, r21, r30, r31, r40, r41, r50, r51, o0, o1⟩ := idx_facts5 t
  show (V c main_v85 : S1x64.Idx → EReal) (((cfg5.win 4).blk t).view.emb (ix2 (0 : Fin 1) q)) = _
  refine congrArg _ (funext fun a => Fin.ext ?_)
  match a with
  | ⟨0, _⟩ => show win5_4.index t (0 : Fin 2) * 1 + 1 * 0 = 0; omega
  | ⟨1, _⟩ => show win5_4.index t (1 : Fin 2) * 64 + 1 * q.val = win5_7.index t (1 : Fin 2) * 64 + 1 * q.val; omega

/-- Window 5's block at any point, read at (0, q): its one-row array at column `q`, the column of the output's (p, q). -/
theorem blk5_5_at (c : Dev nD) (t : Fin cfg5.N) (p : Fin 5000) (q : Fin 64) :
    (Hand.iblk5 V c 5 t : Vec Ideal S1x64 .f32) (ix2 (0 : Fin 1) q)
      = (V c main_v86 : S1x64.Idx → EReal) (ix2 (0 : Fin 1) ((((cfg5.win 7).blk t).view.emb (ix2 p q) : S50000x64.Idx) 1)) := by
  obtain ⟨b00, b01, b60, b61, r10, r11, r20, r21, r30, r31, r40, r41, r50, r51, o0, o1⟩ := idx_facts5 t
  show (V c main_v86 : S1x64.Idx → EReal) (((cfg5.win 5).blk t).view.emb (ix2 (0 : Fin 1) q)) = _
  refine congrArg _ (funext fun a => Fin.ext ?_)
  match a with
  | ⟨0, _⟩ => show win5_5.index t (0 : Fin 2) * 1 + 1 * 0 = 0; omega
  | ⟨1, _⟩ => show win5_5.index t (1 : Fin 2) * 64 + 1 * q.val = win5_7.index t (1 : Fin 2) * 64 + 1 * q.val; omega

/-- What point `t` writes back is block `t` of `normAddRelu` of the region's entry arrays. -/
theorem flushed5_eq (c : Dev nD) (t : Fin cfg5.N) :
    (Hand.dat5 (F := Ideal) V c).flushed 7 t = ((cfg5.win 7).blk t).view.read (Elt Ideal) (normAddRelu (V c main_v83) (V c main_v84) (V c main_v87_0) (V c main_v87_1) (V c main_v85) (V c main_v86) (V c main_v49)) := by
  show (cfg5.win 7).cut (grid5.coords t) ((Hand.dat5 (F := Ideal) V c).after 7 t) = _
  rw [Hand.after5_7]
  unfold Hand.out5_7
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay5_at (Hand.iblk5 V c 0 t) (Hand.iblk5 V c 1 t) (Hand.iblk5 V c 2 t) (Hand.iblk5 V c 3 t) (Hand.iblk5 V c 4 t) (Hand.iblk5 V c 5 t) (Hand.iblk5 V c 6 t) p q).trans ?_
  rw [blk5_0_at V c t p q, blk5_1_at V c t p q, blk5_2_at V c t p q, blk5_3_at V c t p q, blk5_4_at V c t p q, blk5_5_at V c t p q, blk5_6_at V c t p q]
  rfl

/-- An index of the output array is in point `t`'s block iff each coordinate is in the block's range on its axis. -/
theorem mem_blk5 (t : Fin cfg5.N) (i : S50000x64.Idx) :
    i ∈ ((cfg5.win 7).blk t).view.set ↔ ∀ a : Fin 2, win5_7.index t a * S5000x64.size a ≤ (i a).val ∧ (i a).val < win5_7.index t a * S5000x64.size a + S5000x64.size a := by
  show i ∈ ((View.whole main_v88).slice (win5_7.rect t)).set ↔ _
  rw [View.set_slice_whole, Rect.mem_set_unit]
  exact Iff.rfl

/-- Every index of the output array is in some point's block: row `r` is in block `r / 5000`. -/
theorem cover5 (i : S50000x64.Idx) : ∃ t : Fin cfg5.N, (cfg5.win 7).flush t = true ∧ i ∈ ((cfg5.win 7).blk t).view.set := by
  have hi0 : (i 0).val < 50000 := (i 0).isLt
  have hi1 : (i 1).val < 64 := (i 1).isLt
  have hN : grid5.N = 10 := N_5
  have ht : (i 0).val / 5000 < grid5.N := by rw [hN]; omega
  obtain ⟨b00, b01, b60, b61, r10, r11, r20, r21, r30, r31, r40, r41, r50, r51, o0, o1⟩ := idx_facts5 ⟨(i 0).val / 5000, ht⟩
  refine ⟨⟨(i 0).val / 5000, ht⟩, flush5_7 _, ?_⟩
  rw [mem_blk5]
  intro a
  match a with
  | ⟨0, _⟩ =>
    show win5_7.index ⟨(i 0).val / 5000, ht⟩ (0 : Fin 2) * 5000 ≤ (i 0).val ∧ (i 0).val < win5_7.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win5_7.index ⟨(i 0).val / 5000, ht⟩ (1 : Fin 2) * 64 ≤ (i 1).val ∧ (i 1).val < win5_7.index ⟨(i 0).val / 5000, ht⟩ (1 : Fin 2) * 64 + 64
    rw [o1]; omega

/-- The region's output array after its ten points: `normAddRelu` of its entry arrays. -/
theorem final5 (c : Dev nD) : (Hand.dat5 (F := Ideal) V c).arrAt 7 cfg5.N = normAddRelu (V c main_v83) (V c main_v84) (V c main_v87_0) (V c main_v87_1) (V c main_v85) (V c main_v86) (V c main_v49) :=
  (Hand.dat5 (F := Ideal) V c).arrAt_eq_of_cover 7 (normAddRelu (V c main_v83) (V c main_v84) (V c main_v87_0) (V c main_v87_1) (V c main_v85) (V c main_v86) (V c main_v49)) (fun t _ => flushed5_eq V c t) cover5

end Cert.KernelIdeal.HandValue

end
-- ==== Proof.KV.StatsSpec.lean ====
/-
  Column statistics of a tall array shifted by a row.

  For an array A of 50000 rows and 64 columns and a row b of 64 entries, over the extended reals: the mean of column j is
  the sum over the 50000 rows r of A(r, j) + b(0, j), times 1/50000; the mean of the squares is the same with each term
  multiplied by itself; the (biased) variance is the mean of the squares less the square of the mean. The factor 1/50000 is
  the real number one fiftythousandth, on the right of each product.
-/
import Idealize.ShloMosaic.PureOps.Ideal
import Idealize.ShloMosaic.Lib.ValueIdx

noncomputable section

open scoped BigOperators

namespace Cert.Spec

open Idealize.ShloMosaic Idealize.ShloMosaic.ValueIdx

/-- The column means of the 50000 rows of `A` shifted by the row `b`: at column `j`, the sum over the rows of
    `A(r, j) + b(0, j)`, times `1 / 50000`. -/
def meanRow (A : (⟨2, ![50000, 64]⟩ : Shape).Idx → EReal) (b : (⟨2, ![1, 64]⟩ : Shape).Idx → EReal) :
    (⟨2, ![1, 64]⟩ : Shape).Idx → EReal :=
  fun j => (∑ r : Fin 50000, (A (ix2 r (j 1 : Fin 64)) + b (ix2 (0 : Fin 1) (j 1 : Fin 64)))) * ((1 / 50000 : ℝ) : EReal)

/-- The column means of the squares of the shifted rows: at column `j`, the sum over the rows of
    `(A(r, j) + b(0, j)) * (A(r, j) + b(0, j))`, times `1 / 50000`. -/
def sqMeanRow (A : (⟨2, ![50000, 64]⟩ : Shape).Idx → EReal) (b : (⟨2, ![1, 64]⟩ : Shape).Idx → EReal) :
    (⟨2, ![1, 64]⟩ : Shape).Idx → EReal :=
  fun j => (∑ r : Fin 50000, (A (ix2 r (j 1 : Fin 64)) + b (ix2 (0 : Fin 1) (j 1 : Fin 64)))
      * (A (ix2 r (j 1 : Fin 64)) + b (ix2 (0 : Fin 1) (j 1 : Fin 64)))) * ((1 / 50000 : ℝ) : EReal)

/-- The column variances (biased): the mean of the squares less the square of the mean. -/
def varRow (A : (⟨2, ![50000, 64]⟩ : Shape).Idx → EReal) (b : (⟨2, ![1, 64]⟩ : Shape).Idx → EReal) :
    (⟨2, ![1, 64]⟩ : Shape).Idx → EReal :=
  fun j => sqMeanRow A b j - meanRow A b j * meanRow A b j

end Cert.Spec

end
-- ==== Proof.LibColSum.lean ====
/-
  Columns of a matrix summed over the rows, and the small layout facts that go with them.

  A reduction of an [a, b] array along its first axis is read at a lane as the sum of that lane's a entries; a single entry
  [1, 1] spread over an [a, b] array reads that entry everywhere; a sum over the a·b rows of a tall array cut into a
  blocks of b rows is the sum over the blocks of each block's sum.  Every lemma is over arbitrary extents and mentions no
  program.
-/
import Mathlib.Algebra.BigOperators.Fin
import Mathlib.Data.Fintype.BigOperators
import Mathlib.Tactic.Ring
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColSum

open Idealize.ShloMosaic Idealize.ShloMosaic.ValueIdx

variable {α : Type}

/-- The source index a row reduction reads for lane j and row r is (r, j). -/
theorem lift_row {a b : ℕ} (h : (⟨2, ![a, b]⟩ : Shape).Reduces [0] ⟨1, ![b]⟩) (j : Fin b) (r : Fin a) :
    h.lift (ix1 j) r = ix2 r j := by
  funext c
  apply Fin.ext
  match c with
  | ⟨0, _⟩ => rfl
  | ⟨1, _⟩ => rfl

/-- A vector unit's add reduction of an [a, b] array over the rows, read at lane j at the ideal values, is the sum of the
    lane's entries.  The accumulator's word is any word that is the sum's neutral one. -/
theorem multiReduction_row_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ r : Fin a, src (ix2 r j) := by
  refine (Ideal.multiReduction_add_single src acc h hφ hacc (ix1 j)).trans ?_
  exact Finset.sum_congr rfl fun r _ => congrArg src (lift_row h j r)

/-- A single entry [1, 1] spread over an [a, b] array reads that entry at every index. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A sum over the n·m rows of a tall array is the sum over its n blocks of m rows of each block's sum: only the order
    and grouping of the terms change. -/
theorem sum_blocks {M : Type*} [AddCommMonoid M] (n m : ℕ) (f : Fin (n * m) → M) :
    ∑ i : Fin (n * m), f i
      = ∑ t : Fin n, ∑ y : Fin m, f ⟨m * t.val + y.val, by
          have ht := t.isLt; have hy := y.isLt
          calc m * t.val + y.val < m * t.val + m := by omega
            _ = m * (t.val + 1) := by ring
            _ ≤ m * n := Nat.mul_le_mul_left m ht
            _ = n * m := Nat.mul_comm m n⟩ := by
  rw [← Equiv.sum_comp finProdFinEquiv f, Fintype.sum_prod_type]
  refine Finset.sum_congr rfl fun t _ => Finset.sum_congr rfl fun y _ => congrArg f (Fin.ext ?_)
  show y.val + m * t.val = m * t.val + y.val
  omega

end Cert.LibColSum

end
-- ==== Proof.LibBlockSum.lean ====
/-
  A sum over a range cut into equal consecutive blocks, and a running total built one block at a time.

  The a·b indices below a·b are the pairs (block t below a, offset y below b) through t·b + y, so a sum over all of
  them is the sum over the blocks of the sums within each block; only the commutativity and associativity of the
  addition is used. A running total that starts at z plus the first term and adds one more term at every step ends at z
  plus the sum of all the terms.
-/
import Mathlib

open scoped BigOperators

namespace Cert.LibBlockSum

variable {M : Type*} [AddCommMonoid M]

/-- Offset y of block t lies below a·b. -/
theorem blk_lt {a b : ℕ} (t : Fin a) (y : Fin b) : t.val * b + y.val < a * b :=
  calc t.val * b + y.val < t.val * b + b := Nat.add_lt_add_left y.isLt _
    _ = (t.val + 1) * b := (Nat.succ_mul _ _).symm
    _ ≤ a * b := Nat.mul_le_mul_right b t.isLt

/-- The same with the product written the other way round. -/
theorem blk_lt' {a b : ℕ} (t : Fin a) (y : Fin b) : b * t.val + y.val < a * b := by
  rw [Nat.mul_comm b]; exact blk_lt t y

/-- A sum over the indices below a·b is the sum over the a blocks of the sums over the b offsets within a block, the index
    written t·b + y. -/
theorem sum_blocks (a b : ℕ) (f : Fin (a * b) → M) (h : ∀ (t : Fin a) (y : Fin b), t.val * b + y.val < a * b) :
    ∑ t : Fin a, ∑ y : Fin b, f ⟨t.val * b + y.val, h t y⟩ = ∑ r : Fin (a * b), f r := by
  rw [← Equiv.sum_comp finProdFinEquiv f, Fintype.sum_prod_type]
  refine Finset.sum_congr rfl fun t _ => Finset.sum_congr rfl fun y _ => congrArg f (Fin.ext ?_)
  show t.val * b + y.val = y.val + b * t.val
  rw [Nat.mul_comm, Nat.add_comm]

/-- The same with the index written b·t + y. -/
theorem sum_blocks' (a b : ℕ) (f : Fin (a * b) → M) (h : ∀ (t : Fin a) (y : Fin b), b * t.val + y.val < a * b) :
    ∑ t : Fin a, ∑ y : Fin b, f ⟨b * t.val + y.val, h t y⟩ = ∑ r : Fin (a * b), f r := by
  rw [← sum_blocks a b f fun t y => blk_lt t y]
  exact Finset.sum_congr rfl fun t _ => Finset.sum_congr rfl fun y _ => congrArg f (Fin.ext (by
    show b * t.val + y.val = t.val * b + y.val
    rw [Nat.mul_comm]))

/-- 50000 rows as 10 blocks of 5000, the row written t·5000 + y. -/
theorem sum_rows_10x5000 (f : Fin 50000 → M) (h : ∀ (t : Fin 10) (y : Fin 5000), t.val * 5000 + y.val < 50000) :
    ∑ t : Fin 10, ∑ y : Fin 5000, f ⟨t.val * 5000 + y.val, h t y⟩ = ∑ r : Fin 50000, f r :=
  sum_blocks 10 5000 f h

/-- 50000 rows as 10 blocks of 5000, the row written 5000·t + y. -/
theorem sum_rows_10x5000' (f : Fin 50000 → M) (h : ∀ (t : Fin 10) (y : Fin 5000), 5000 * t.val + y.val < 50000) :
    ∑ t : Fin 10, ∑ y : Fin 5000, f ⟨5000 * t.val + y.val, h t y⟩ = ∑ r : Fin 50000, f r :=
  sum_blocks' 10 5000 f h

/-- A running total over terms indexed by the naturals: from z plus term 0, one more term added at each of n steps, it
    ends at z plus the sum of the terms 0 … n. -/
theorem acc_range (n : ℕ) (g : ℕ → M) (z : M) (acc : ℕ → M) (h0 : acc 0 = z + g 0)
    (hs : ∀ t, t < n → acc (t + 1) = acc t + g (t + 1)) : acc n = z + ∑ t ∈ Finset.range (n + 1), g t := by
  induction n with
  | zero => rw [h0, Finset.sum_range_one]
  | succ k ih =>
    rw [hs k (Nat.lt_succ_self k), ih fun t ht => hs t (Nat.lt_succ_of_lt ht), Finset.sum_range_succ _ (k + 1), add_assoc]

/-- The same over n + 1 terms indexed below n + 1. -/
theorem acc_fin (n : ℕ) (g : Fin (n + 1) → M) (z : M) (acc : ℕ → M) (h0 : acc 0 = z + g 0)
    (hs : ∀ t (ht : t < n), acc (t + 1) = acc t + g ⟨t + 1, Nat.succ_lt_succ ht⟩) :
    acc n = z + ∑ t : Fin (n + 1), g t := by
  have key := acc_range n (fun t => if ht : t < n + 1 then g ⟨t, ht⟩ else 0) z acc
    (by rw [h0, dif_pos (Nat.succ_pos n)]; rfl)
    (fun t ht => by rw [hs t ht, dif_pos (Nat.succ_lt_succ ht)])
  rw [key, ← Fin.sum_univ_eq_sum_range (fun t => if ht : t < n + 1 then g ⟨t, ht⟩ else 0) (n + 1)]
  exact congrArg (z + ·) (Finset.sum_congr rfl fun t _ => by rw [dif_pos t.isLt])

/-- Ten terms: from z plus term 0, one more term added at each of nine steps, the total ends at z plus the sum of the ten. -/
theorem acc_fin_10 (g : Fin 10 → M) (z : M) (acc : ℕ → M) (h0 : acc 0 = z + g 0)
    (hs : ∀ t (ht : t < 9), acc (t + 1) = acc t + g ⟨t + 1, Nat.succ_lt_succ ht⟩) :
    acc 9 = z + ∑ t : Fin 10, g t :=
  acc_fin 9 g z acc h0 hs

end Cert.LibBlockSum
-- ==== Proof.LibRowBias.lean ====
/-
  One row added to every row of an array: a [1, b] block broadcast over a rows reads, at (p, c), the block's one row at c.
-/
import Idealize.ShloMosaic.Lib.ValueIdx
import Idealize.ShloMosaic.Lib.ValueLayout
import Idealize.ShloMosaic.Lib.Pipeline.Value

noncomputable section

namespace Cert.RowBias

open Idealize.ShloMosaic Idealize.ShloMosaic.ValueIdx

/-- A `[1, b]` array broadcast to `[a, b]`, read at any index `y`: the one row at `y`'s column. -/
theorem bcastRow_apply {a b : ℕ} {α : Type} (v : (⟨2, ![1, b]⟩ : Shape).Idx → α)
    (h : (⟨2, ![1, b]⟩ : Shape).Broadcasts ⟨2, ![a, b]⟩) (y : (⟨2, ![a, b]⟩ : Shape).Idx) :
    broadcastTo ⟨2, ![a, b]⟩ v h y = v (ix2 (0 : Fin 1) (y 1)) := by
  obtain ⟨p, q, rfl⟩ : ∃ (p : Fin a) (q : Fin b), y = ix2 p q := ⟨y 0, y 1, eq_ix2 y⟩
  exact broadcastTo_1b_ab_apply v h p q

/-- A vector of `b` entries reshaped to one row, read at `(0, c)`: the entry `c`. -/
theorem rowOf_apply {b : ℕ} {α : Type} (x : (⟨1, ![b]⟩ : Shape).Idx → α) (h : (⟨1, ![b]⟩ : Shape).ShapeCasts ⟨2, ![1, b]⟩)
    (c : Fin b) : shapeCast ⟨2, ![1, b]⟩ x h (ix2 (0 : Fin 1) c) = x (ix1 c) :=
  shapeCast_a_1a_apply x h 0 c

end Cert.RowBias

end
-- ==== Proof.KV.Stats.lean ====
/-
  The three statistics regions compute the column means and variances of their two entry arrays.

  Each region walks a tall array A (50000 rows, 64 columns) in 10 blocks of 5000 rows, with a row b (64 entries) added
  to every row. Two running rows start at zero; at block t each gains, in column j, the sum over the block's 5000 rows y
  of A(5000 t + y, j) + b(0, j), respectively of that term times itself — a reduction along the rows read at a lane is a
  plain finite sum. After the ten blocks the running row holds 0 plus the sum over the blocks of the blocks' sums, and a
  sum over the 50000 rows regrouped as 10 blocks of 5000 is that same sum: so column j holds the sum over all rows r of
  A(r, j) + b(0, j), respectively of its square. The last block then stores (sum) × c and (sum of squares) × c − (sum × c)
  × (sum × c), where the constant c reads as the real number 1/50000 on the extended reals. These are the specification's
  mean and variance rows. The two one-row output arrays are written back once, after the last block, whole: so after the
  region they hold exactly those rows.
-/
import proofs.«171894_j11897059410618_1_alg».proof.Proof.KI.Reg1
import proofs.«171894_j11897059410618_1_alg».proof.Proof.KI.Reg4
import proofs.«171894_j11897059410618_1_alg».proof.Proof.KI.Reg7
import proofs.«171894_j11897059410618_1_alg».proof.Proof.KV.StatsSpec
import proofs.«171894_j11897059410618_1_alg».proof.Proof.LibColSum
import proofs.«171894_j11897059410618_1_alg».proof.Proof.LibBlockSum
import proofs.«171894_j11897059410618_1_alg».proof.Proof.LibRowBias
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The named reciprocal of the row count, at the extended reals. -/
theorem inv_rows : Named.named (F := Ideal) Cert.KernelIdeal.κ "inv_50000" (φ := .f32) 0x37A7C5AC#32 = ((1 / 50000 : ℝ) : EReal) :=
  IdealRules.named_const.ideal_named_scalar _ _ _ _ rfl

/-- Row `y` of block `t` is row `t·5000 + y` of the tall array. -/
theorem hrow (t : Fin 10) (y : Fin 5000) : t.val * 5000 + y.val < 50000 := by
  have := t.isLt; have := y.isLt; omega

/-! ## The specification's rows at a column -/

section SpecRows
variable (A : (⟨2, ![50000, 64]⟩ : Shape).Idx → EReal) (b : (⟨2, ![1, 64]⟩ : Shape).Idx → EReal) (j : Fin 64)

theorem meanRow_ix : Cert.Spec.meanRow A b (ix2 (0 : Fin 1) j)
    = (∑ r : Fin 50000, (A (ix2 r j) + b (ix2 (0 : Fin 1) j))) * ((1 / 50000 : ℝ) : EReal) := by
  unfold Cert.Spec.meanRow; rfl

theorem sqMeanRow_ix : Cert.Spec.sqMeanRow A b (ix2 (0 : Fin 1) j)
    = (∑ r : Fin 50000, (A (ix2 r j) + b (ix2 (0 : Fin 1) j)) * (A (ix2 r j) + b (ix2 (0 : Fin 1) j))) * ((1 / 50000 : ℝ) : EReal) := by
  unfold Cert.Spec.sqMeanRow; rfl

theorem varRow_ix : Cert.Spec.varRow A b (ix2 (0 : Fin 1) j)
    = (∑ r : Fin 50000, (A (ix2 r j) + b (ix2 (0 : Fin 1) j)) * (A (ix2 r j) + b (ix2 (0 : Fin 1) j))) * ((1 / 50000 : ℝ) : EReal)
      - ((∑ r : Fin 50000, (A (ix2 r j) + b (ix2 (0 : Fin 1) j))) * ((1 / 50000 : ℝ) : EReal))
        * ((∑ r : Fin 50000, (A (ix2 r j) + b (ix2 (0 : Fin 1) j))) * ((1 / 50000 : ℝ) : EReal)) := by
  unfold Cert.Spec.varRow; rw [sqMeanRow_ix, meanRow_ix]

end SpecRows

/-! # Region 1 -/

/-! ## The payloads at an index, at the extended reals -/

section Pay1
variable (x : Vec Ideal S5000x64 .f32) (b s q : Vec Ideal S1x64 .f32)

/-- The reset rows are zero. -/
theorem pay1_1_apply (j : S1x64.Idx) : k1_pay1 (F := Ideal) j = 0 := by
  unfold k1_pay1
  simp only [shapeCast_self, broadcast_apply]
  exact Ideal.ofBits_zero_f32
theorem pay1_2_apply (j : S1x64.Idx) : k1_pay2 (F := Ideal) j = 0 := by
  unfold k1_pay2
  simp only [shapeCast_self, broadcast_apply]
  exact Ideal.ofBits_zero_f32

/-- The shifted block: each row plus the bias row. -/
theorem pay1_3_apply (r : Fin 5000) (c : Fin 64) : k1_pay3 x b (ix2 r c) = x (ix2 r c) + b (ix2 (0 : Fin 1) c) := by
  unfold k1_pay3
  simp only [shapeCast_self, addf_apply]
  rw [Cert.RowBias.bcastRow_apply]

/-- The advanced column sum at a column: the sum so far plus the block's column sum. -/
theorem pay1_4_apply (c : Fin 64) :
    k1_pay4 x b s (ix2 (0 : Fin 1) c) = s (ix2 (0 : Fin 1) c) + ∑ r : Fin 5000, (x (ix2 r c) + b (ix2 (0 : Fin 1) c)) := by
  unfold k1_pay4
  simp only [shapeCast_self, addf_apply]
  rw [Cert.RowBias.rowOf_apply]
  refine congrArg (s (ix2 (0 : Fin 1) c) + ·) ?_
  refine (Cert.LibColSum.multiReduction_row_apply (k1_pay3 x b) _ _ _ _ c).trans ?_
  exact Finset.sum_congr rfl fun r _ => pay1_3_apply x b r c

/-- The advanced column sum of squares at a column. -/
theorem pay1_5_apply (c : Fin 64) :
    k1_pay5 x b q (ix2 (0 : Fin 1) c) = q (ix2 (0 : Fin 1) c)
      + ∑ r : Fin 5000, (x (ix2 r c) + b (ix2 (0 : Fin 1) c)) * (x (ix2 r c) + b (ix2 (0 : Fin 1) c)) := by
  unfold k1_pay5
  simp only [shapeCast_self, addf_apply]
  rw [Cert.RowBias.rowOf_apply]
  refine congrArg (q (ix2 (0 : Fin 1) c) + ·) ?_
  refine (Cert.LibColSum.multiReduction_row_apply (mulf (k1_pay3 x b) (k1_pay3 x b)) _ _ _ _ c).trans ?_
  exact Finset.sum_congr rfl fun r _ => by rw [mulf_apply, pay1_3_apply]

/-- The mean row at a column: the column sum times the reciprocal of the row count. -/
theorem pay1_6_apply (j : S1x64.Idx) : k1_pay6 s j = s j * ((1 / 50000 : ℝ) : EReal) := by
  unfold k1_pay6
  simp only [mulf_apply, broadcast_apply, inv_rows]

/-- The variance row at a column. -/
theorem pay1_7_apply (j : S1x64.Idx) :
    k1_pay7 s q j = q j * ((1 / 50000 : ℝ) : EReal) - (s j * ((1 / 50000 : ℝ) : EReal)) * (s j * ((1 / 50000 : ℝ) : EReal)) := by
  unfold k1_pay7
  simp only [subf_apply, mulf_apply, broadcast_apply, inv_rows, pay1_6_apply]

/-- The rows the certificate's frame names, as the payloads. -/
theorem stepS1_eq : stepS1 x b s = k1_pay4 x b s := by
  unfold stepS1
  rw [View.canon_unit_zero hz]
  simp only [View.ld_unit_zero (S := S5000x64) hz, View.ld_unit_zero (S := S1x64) hz]
theorem stepQ1_eq : stepQ1 x b q = k1_pay5 x b q := by
  unfold stepQ1
  rw [View.canon_unit_zero hz]
  simp only [View.ld_unit_zero (S := S5000x64) hz, View.ld_unit_zero (S := S1x64) hz]
theorem zeroS1_eq : zeroS1 (F := Ideal) = k1_pay1 (F := Ideal) := by unfold zeroS1; rw [View.canon_unit_zero hz]
theorem zeroQ1_eq : zeroQ1 (F := Ideal) = k1_pay2 (F := Ideal) := by unfold zeroQ1; rw [View.canon_unit_zero hz]
theorem out1_2_eq : out1_2 s = k1_pay6 s := by
  unfold out1_2
  rw [View.canon_unit_zero hz]
  simp only [View.ld_unit_zero (S := S1x64) hz]
theorem out1_3_eq : out1_3 s q = k1_pay7 s q := by
  unfold out1_3
  rw [View.canon_unit_zero hz]
  simp only [View.ld_unit_zero (S := S1x64) hz]

end Pay1

/-! ## The blocks as rows of the entry arrays; the sums in closed form -/

section Region1
variable (V : (c : Dev nD) → (b : Ref sig .tc) → Buf (Elt Ideal) ((c : Thread nD τ).loc b))

/-- The two entry arrays of the region, as functions of their indices. -/
abbrev arrA1 (c : Dev nD) : (⟨2, ![50000, 64]⟩ : Shape).Idx → EReal := V c main_v44
abbrev arrB1 (c : Dev nD) : (⟨2, ![1, 64]⟩ : Shape).Idx → EReal := V c main_v45

/-- The printed index maps over the grid: window 0's block row is the point, every other block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

theorem iblk1_0_apply (c : Dev nD) (t : Fin cfg1.N) (y : Fin 5000) (j : Fin 64) (h : t.val * 5000 + y.val < 50000) :
    (iblk1 V c 0 t : Vec Ideal S5000x64 .f32) (ix2 y j)
      = arrA1 V c (ix2 (⟨t.val * 5000 + y.val, h⟩ : Fin 50000) j) := by
  obtain ⟨e0, e1, -, -⟩ := idx_facts1 t
  unfold iblk1
  rw [View.read_apply]
  show V c main_v44 _ = V c main_v44 _
  congr 1
  funext a
  apply Fin.ext
  match a with
  | ⟨0, _⟩ => show win1_0.index t 0 * 5000 + 1 * y.val = t.val * 5000 + y.val; rw [e0]; omega
  | ⟨1, _⟩ => show win1_0.index t 1 * 64 + 1 * j.val = j.val; rw [e1]; omega

theorem iblk1_1_apply (c : Dev nD) (t : Fin cfg1.N) (j : Fin 64) :
    (iblk1 V c 1 t : Vec Ideal S1x64 .f32) (ix2 (0 : Fin 1) j) = arrB1 V c (ix2 (0 : Fin 1) j) := by
  obtain ⟨-, -, e0, e1⟩ := idx_facts1 t
  unfold iblk1
  rw [View.read_apply]
  show V c main_v45 _ = V c main_v45 _
  congr 1
  funext a
  apply Fin.ext
  match a with
  | ⟨0, _⟩ => show win1_1.index t 0 * 1 + 1 * (0 : Fin 1).val = (0 : Fin 1).val; rw [e0]; rfl
  | ⟨1, _⟩ => show win1_1.index t 1 * 64 + 1 * j.val = j.val; rw [e1]; omega

/-- Column `j`'s sum over block `t` of the shifted rows, and of their squares. -/
def blockSum1 (c : Dev nD) (j : Fin 64) (t : Fin 10) : EReal :=
  ∑ y : Fin 5000, (arrA1 V c (ix2 (⟨t.val * 5000 + y.val, hrow t y⟩ : Fin 50000) j)
    + arrB1 V c (ix2 (0 : Fin 1) j))
def blockSqSum1 (c : Dev nD) (j : Fin 64) (t : Fin 10) : EReal :=
  ∑ y : Fin 5000, (arrA1 V c (ix2 (⟨t.val * 5000 + y.val, hrow t y⟩ : Fin 50000) j)
      + arrB1 V c (ix2 (0 : Fin 1) j))
    * (arrA1 V c (ix2 (⟨t.val * 5000 + y.val, hrow t y⟩ : Fin 50000) j)
      + arrB1 V c (ix2 (0 : Fin 1) j))

/-- One point adds its block's column sums onto the running sums. -/
theorem accS1_step (c : Dev nD) (j : Fin 64) (n : ℕ) (hn : n < cfg1.N) (h10 : n < 10) :
    (acc1 V c (n + 1)).1 (ix2 (0 : Fin 1) j) = (acc1 V c n).1 (ix2 (0 : Fin 1) j) + blockSum1 V c j ⟨n, h10⟩ := by
  rw [acc1_succ V c ⟨n, hn⟩]
  dsimp only
  rw [stepS1_eq, pay1_4_apply (iblk1 V c 0 ⟨n, hn⟩) (iblk1 V c 1 ⟨n, hn⟩) (acc1 V c n).1 j]
  refine congrArg ((acc1 V c n).1 (ix2 (0 : Fin 1) j) + ·) (Finset.sum_congr rfl fun y _ => ?_)
  rw [iblk1_0_apply V c ⟨n, hn⟩ y j (hrow ⟨n, h10⟩ y), iblk1_1_apply V c ⟨n, hn⟩ j]

theorem accQ1_step (c : Dev nD) (j : Fin 64) (n : ℕ) (hn : n < cfg1.N) (h10 : n < 10) :
    (acc1 V c (n + 1)).2 (ix2 (0 : Fin 1) j) = (acc1 V c n).2 (ix2 (0 : Fin 1) j) + blockSqSum1 V c j ⟨n, h10⟩ := by
  rw [acc1_succ V c ⟨n, hn⟩]
  dsimp only
  rw [stepQ1_eq, pay1_5_apply (iblk1 V c 0 ⟨n, hn⟩) (iblk1 V c 1 ⟨n, hn⟩) (acc1 V c n).2 j]
  refine congrArg ((acc1 V c n).2 (ix2 (0 : Fin 1) j) + ·) (Finset.sum_congr rfl fun y _ => ?_)
  rw [iblk1_0_apply V c ⟨n, hn⟩ y j (hrow ⟨n, h10⟩ y), iblk1_1_apply V c ⟨n, hn⟩ j]

/-- After the ten points the column sum is the sum over all 50000 rows. -/
theorem accS1_final (c : Dev nD) (j : Fin 64) :
    (acc1 V c 10).1 (ix2 (0 : Fin 1) j)
      = ∑ r : Fin 50000, (arrA1 V c (ix2 r j) + arrB1 V c (ix2 (0 : Fin 1) j)) := by
  have hN : cfg1.N = 10 := N_1
  have key : (acc1 V c 10).1 (ix2 (0 : Fin 1) j) = 0 + ∑ t : Fin 10, blockSum1 V c j t :=
    Cert.LibBlockSum.acc_fin_10 (blockSum1 V c j) 0 (fun n => (acc1 V c (n + 1)).1 (ix2 (0 : Fin 1) j))
      (by
        show (acc1 V c (0 + 1)).1 (ix2 (0 : Fin 1) j) = _
        rw [accS1_step V c j 0 (by omega) (by omega), show (acc1 V c 0).1 = zeroS1 (F := Ideal) from rfl, zeroS1_eq,
          pay1_1_apply]
        rfl)
      (fun t ht => accS1_step V c j (t + 1) (by omega) (by omega))
  rw [key, zero_add]
  unfold blockSum1
  exact Cert.LibBlockSum.sum_rows_10x5000
    (fun r => arrA1 V c (ix2 r j) + arrB1 V c (ix2 (0 : Fin 1) j)) hrow

theorem accQ1_final (c : Dev nD) (j : Fin 64) :
    (acc1 V c 10).2 (ix2 (0 : Fin 1) j)
      = ∑ r : Fin 50000, (arrA1 V c (ix2 r j) + arrB1 V c (ix2 (0 : Fin 1) j))
          * (arrA1 V c (ix2 r j) + arrB1 V c (ix2 (0 : Fin 1) j)) := by
  have hN : cfg1.N = 10 := N_1
  have key : (acc1 V c 10).2 (ix2 (0 : Fin 1) j) = 0 + ∑ t : Fin 10, blockSqSum1 V c j t :=
    Cert.LibBlockSum.acc_fin_10 (blockSqSum1 V c j) 0 (fun n => (acc1 V c (n + 1)).2 (ix2 (0 : Fin 1) j))
      (by
        show (acc1 V c (0 + 1)).2 (ix2 (0 : Fin 1) j) = _
        rw [accQ1_step V c j 0 (by omega) (by omega), show (acc1 V c 0).2 = zeroQ1 (F := Ideal) from rfl, zeroQ1_eq,
          pay1_2_apply]
        rfl)
      (fun t ht => accQ1_step V c j (t + 1) (by omega) (by omega))
  rw [key, zero_add]
  unfold blockSqSum1
  exact Cert.LibBlockSum.sum_rows_10x5000
    (fun r => (arrA1 V c (ix2 r j) + arrB1 V c (ix2 (0 : Fin 1) j))
      * (arrA1 V c (ix2 r j) + arrB1 V c (ix2 (0 : Fin 1) j))) hrow

/-! ## What the last point stores, as the specification's rows -/

theorem mean1_eq (c : Dev nD) : out1_2 (acc1 V c 10).1 = Cert.Spec.meanRow (arrA1 V c) (arrB1 V c) := by
  funext i
  obtain ⟨p, j, rfl⟩ : ∃ (p : Fin 1) (j : Fin 64), i = ix2 p j := ⟨i 0, i 1, eq_ix2 i⟩
  obtain rfl : p = 0 := Subsingleton.elim _ _
  rw [out1_2_eq, pay1_6_apply, accS1_final, meanRow_ix]

theorem var1_eq (c : Dev nD) :
    out1_3 (acc1 V c 10).1 (acc1 V c 10).2 = Cert.Spec.varRow (arrA1 V c) (arrB1 V c) := by
  funext i
  obtain ⟨p, j, rfl⟩ : ∃ (p : Fin 1) (j : Fin 64), i = ix2 p j := ⟨i 0, i 1, eq_ix2 i⟩
  obtain rfl : p = 0 := Subsingleton.elim _ _
  rw [out1_3_eq, pay1_7_apply, accS1_final, accQ1_final, varRow_ix]

/-! ## From the one write-back to the arrays -/

/-- Both output windows' block indices are zero at the last point, and their blocks are the whole [1, 64] arrays. -/
theorem hz1_2 : (fun a => win1_2.index t1_9 a * main_v48_0.ty.shape.size a) = fun _ => 0 := funext fun a => by fin_cases a <;> decide
theorem hz1_3 : (fun a => win1_3.index t1_9 a * main_v48_1.ty.shape.size a) = fun _ => 0 := funext fun a => by fin_cases a <;> decide

theorem flushed1_2_eq (c : Dev nD) (t : Fin cfg1.N) (hf : (cfg1.win 2).flush t = true) :
    (dat1 V c).flushed 2 t = ((cfg1.win 2).blk t).view.read (Elt Ideal) (Cert.Spec.meanRow (V c main_v44) (V c main_v45)) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2, show t1_9.val + 1 = 10 from rfl, mean1_eq]
  exact (Memref.read_access_unit_zero (Elt Ideal) main_v48_0 hz1_2 (fun a => by rw [congrFun hz1_2 a]; simp)
    (Cert.Spec.meanRow (V c main_v44) (V c main_v45))).symm

theorem flushed1_3_eq (c : Dev nD) (t : Fin cfg1.N) (hf : (cfg1.win 3).flush t = true) :
    (dat1 V c).flushed 3 t = ((cfg1.win 3).blk t).view.read (Elt Ideal) (Cert.Spec.varRow (V c main_v44) (V c main_v45)) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3, show t1_9.val + 1 = 10 from rfl, var1_eq]
  exact (Memref.read_access_unit_zero (Elt Ideal) main_v48_1 hz1_3 (fun a => by rw [congrFun hz1_3 a]; simp)
    (Cert.Spec.varRow (V c main_v44) (V c main_v45))).symm

/-- The mean array after the region: the specification's column means of the two entry arrays. -/
theorem final1_mean (c : Dev nD) :
    (dat1 (F := Ideal) V c).arrAt 2 cfg1.N = Cert.Spec.meanRow (V c main_v44) (V c main_v45) :=
  (dat1 V c).arrAt_eq_of_cover 2 (Cert.Spec.meanRow (V c main_v44) (V c main_v45)) (flushed1_2_eq V c) fun i =>
    ⟨t1_9, (flush1_2 t1_9).mpr rfl, by
      show i ∈ ((View.whole main_v48_0).slice (win1_2.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 64 from by decide +kernel]; omega⟩

/-- The variance array after the region: the specification's column variances of the two entry arrays. -/
theorem final1_var (c : Dev nD) :
    (dat1 (F := Ideal) V c).arrAt 3 cfg1.N = Cert.Spec.varRow (V c main_v44) (V c main_v45) :=
  (dat1 V c).arrAt_eq_of_cover 3 (Cert.Spec.varRow (V c main_v44) (V c main_v45)) (flushed1_3_eq V c) fun i =>
    ⟨t1_9, (flush1_3 t1_9).mpr rfl, by
      show i ∈ ((View.whole main_v48_1).slice (win1_3.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 64 from by decide +kernel]; omega⟩

end Region1

/-! # Region 4 -/

/-! ## The payloads at an index, at the extended reals -/

section Pay4
variable (x : Vec Ideal S5000x64 .f32) (b s q : Vec Ideal S1x64 .f32)

/-- The reset rows are zero. -/
theorem pay4_1_apply (j : S1x64.Idx) : k4_pay1 (F := Ideal) j = 0 := by
  unfold k4_pay1
  simp only [shapeCast_self, broadcast_apply]
  exact Ideal.ofBits_zero_f32
theorem pay4_2_apply (j : S1x64.Idx) : k4_pay2 (F := Ideal) j = 0 := by
  unfold k4_pay2
  simp only [shapeCast_self, broadcast_apply]
  exact Ideal.ofBits_zero_f32

/-- The shifted block: each row plus the bias row. -/
theorem pay4_3_apply (r : Fin 5000) (c : Fin 64) : k4_pay3 x b (ix2 r c) = x (ix2 r c) + b (ix2 (0 : Fin 1) c) := by
  unfold k4_pay3
  simp only [shapeCast_self, addf_apply]
  rw [Cert.RowBias.bcastRow_apply]

/-- The advanced column sum at a column: the sum so far plus the block's column sum. -/
theorem pay4_4_apply (c : Fin 64) :
    k4_pay4 x b s (ix2 (0 : Fin 1) c) = s (ix2 (0 : Fin 1) c) + ∑ r : Fin 5000, (x (ix2 r c) + b (ix2 (0 : Fin 1) c)) := by
  unfold k4_pay4
  simp only [shapeCast_self, addf_apply]
  rw [Cert.RowBias.rowOf_apply]
  refine congrArg (s (ix2 (0 : Fin 1) c) + ·) ?_
  refine (Cert.LibColSum.multiReduction_row_apply (k4_pay3 x b) _ _ _ _ c).trans ?_
  exact Finset.sum_congr rfl fun r _ => pay4_3_apply x b r c

/-- The advanced column sum of squares at a column. -/
theorem pay4_5_apply (c : Fin 64) :
    k4_pay5 x b q (ix2 (0 : Fin 1) c) = q (ix2 (0 : Fin 1) c)
      + ∑ r : Fin 5000, (x (ix2 r c) + b (ix2 (0 : Fin 1) c)) * (x (ix2 r c) + b (ix2 (0 : Fin 1) c)) := by
  unfold k4_pay5
  simp only [shapeCast_self, addf_apply]
  rw [Cert.RowBias.rowOf_apply]
  refine congrArg (q (ix2 (0 : Fin 1) c) + ·) ?_
  refine (Cert.LibColSum.multiReduction_row_apply (mulf (k4_pay3 x b) (k4_pay3 x b)) _ _ _ _ c).trans ?_
  exact Finset.sum_congr rfl fun r _ => by rw [mulf_apply, pay4_3_apply]

/-- The mean row at a column: the column sum times the reciprocal of the row count. -/
theorem pay4_6_apply (j : S1x64.Idx) : k4_pay6 s j = s j * ((1 / 50000 : ℝ) : EReal) := by
  unfold k4_pay6
  simp only [mulf_apply, broadcast_apply, inv_rows]

/-- The variance row at a column. -/
theorem pay4_7_apply (j : S1x64.Idx) :
    k4_pay7 s q j = q j * ((1 / 50000 : ℝ) : EReal) - (s j * ((1 / 50000 : ℝ) : EReal)) * (s j * ((1 / 50000 : ℝ) : EReal)) := by
  unfold k4_pay7
  simp only [subf_apply, mulf_apply, broadcast_apply, inv_rows, pay4_6_apply]

/-- The rows the certificate's frame names, as the payloads. -/
theorem stepS4_eq : stepS4 x b s = k4_pay4 x b s := by
  unfold stepS4
  rw [View.canon_unit_zero hz]
  simp only [View.ld_unit_zero (S := S5000x64) hz, View.ld_unit_zero (S := S1x64) hz]
theorem stepQ4_eq : stepQ4 x b q = k4_pay5 x b q := by
  unfold stepQ4
  rw [View.canon_unit_zero hz]
  simp only [View.ld_unit_zero (S := S5000x64) hz, View.ld_unit_zero (S := S1x64) hz]
theorem zeroS4_eq : zeroS4 (F := Ideal) = k4_pay1 (F := Ideal) := by unfold zeroS4; rw [View.canon_unit_zero hz]
theorem zeroQ4_eq : zeroQ4 (F := Ideal) = k4_pay2 (F := Ideal) := by unfold zeroQ4; rw [View.canon_unit_zero hz]
theorem out4_2_eq : out4_2 s = k4_pay6 s := by
  unfold out4_2
  rw [View.canon_unit_zero hz]
  simp only [View.ld_unit_zero (S := S1x64) hz]
theorem out4_3_eq : out4_3 s q = k4_pay7 s q := by
  unfold out4_3
  rw [View.canon_unit_zero hz]
  simp only [View.ld_unit_zero (S := S1x64) hz]

end Pay4

/-! ## The blocks as rows of the entry arrays; the sums in closed form -/

section Region4
variable (V : (c : Dev nD) → (b : Ref sig .tc) → Buf (Elt Ideal) ((c : Thread nD τ).loc b))

/-- The two entry arrays of the region, as functions of their indices. -/
abbrev arrA4 (c : Dev nD) : (⟨2, ![50000, 64]⟩ : Shape).Idx → EReal := V c main_v83
abbrev arrB4 (c : Dev nD) : (⟨2, ![1, 64]⟩ : Shape).Idx → EReal := V c main_v84

/-- The printed index maps over the grid: window 0's block row is the point, every other block index is zero. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

theorem iblk4_0_apply (c : Dev nD) (t : Fin cfg4.N) (y : Fin 5000) (j : Fin 64) (h : t.val * 5000 + y.val < 50000) :
    (iblk4 V c 0 t : Vec Ideal S5000x64 .f32) (ix2 y j)
      = arrA4 V c (ix2 (⟨t.val * 5000 + y.val, h⟩ : Fin 50000) j) := by
  obtain ⟨e0, e1, -, -⟩ := idx_facts4 t
  unfold iblk4
  rw [View.read_apply]
  show V c main_v83 _ = V c main_v83 _
  congr 1
  funext a
  apply Fin.ext
  match a with
  | ⟨0, _⟩ => show win4_0.index t 0 * 5000 + 1 * y.val = t.val * 5000 + y.val; rw [e0]; omega
  | ⟨1, _⟩ => show win4_0.index t 1 * 64 + 1 * j.val = j.val; rw [e1]; omega

theorem iblk4_1_apply (c : Dev nD) (t : Fin cfg4.N) (j : Fin 64) :
    (iblk4 V c 1 t : Vec Ideal S1x64 .f32) (ix2 (0 : Fin 1) j) = arrB4 V c (ix2 (0 : Fin 1) j) := by
  obtain ⟨-, -, e0, e1⟩ := idx_facts4 t
  unfold iblk4
  rw [View.read_apply]
  show V c main_v84 _ = V c main_v84 _
  congr 1
  funext a
  apply Fin.ext
  match a with
  | ⟨0, _⟩ => show win4_1.index t 0 * 1 + 1 * (0 : Fin 1).val = (0 : Fin 1).val; rw [e0]; rfl
  | ⟨1, _⟩ => show win4_1.index t 1 * 64 + 1 * j.val = j.val; rw [e1]; omega

/-- Column `j`'s sum over block `t` of the shifted rows, and of their squares. -/
def blockSum4 (c : Dev nD) (j : Fin 64) (t : Fin 10) : EReal :=
  ∑ y : Fin 5000, (arrA4 V c (ix2 (⟨t.val * 5000 + y.val, hrow t y⟩ : Fin 50000) j)
    + arrB4 V c (ix2 (0 : Fin 1) j))
def blockSqSum4 (c : Dev nD) (j : Fin 64) (t : Fin 10) : EReal :=
  ∑ y : Fin 5000, (arrA4 V c (ix2 (⟨t.val * 5000 + y.val, hrow t y⟩ : Fin 50000) j)
      + arrB4 V c (ix2 (0 : Fin 1) j))
    * (arrA4 V c (ix2 (⟨t.val * 5000 + y.val, hrow t y⟩ : Fin 50000) j)
      + arrB4 V c (ix2 (0 : Fin 1) j))

/-- One point adds its block's column sums onto the running sums. -/
theorem accS4_step (c : Dev nD) (j : Fin 64) (n : ℕ) (hn : n < cfg4.N) (h10 : n < 10) :
    (acc4 V c (n + 1)).1 (ix2 (0 : Fin 1) j) = (acc4 V c n).1 (ix2 (0 : Fin 1) j) + blockSum4 V c j ⟨n, h10⟩ := by
  rw [acc4_succ V c ⟨n, hn⟩]
  dsimp only
  rw [stepS4_eq, pay4_4_apply (iblk4 V c 0 ⟨n, hn⟩) (iblk4 V c 1 ⟨n, hn⟩) (acc4 V c n).1 j]
  refine congrArg ((acc4 V c n).1 (ix2 (0 : Fin 1) j) + ·) (Finset.sum_congr rfl fun y _ => ?_)
  rw [iblk4_0_apply V c ⟨n, hn⟩ y j (hrow ⟨n, h10⟩ y), iblk4_1_apply V c ⟨n, hn⟩ j]

theorem accQ4_step (c : Dev nD) (j : Fin 64) (n : ℕ) (hn : n < cfg4.N) (h10 : n < 10) :
    (acc4 V c (n + 1)).2 (ix2 (0 : Fin 1) j) = (acc4 V c n).2 (ix2 (0 : Fin 1) j) + blockSqSum4 V c j ⟨n, h10⟩ := by
  rw [acc4_succ V c ⟨n, hn⟩]
  dsimp only
  rw [stepQ4_eq, pay4_5_apply (iblk4 V c 0 ⟨n, hn⟩) (iblk4 V c 1 ⟨n, hn⟩) (acc4 V c n).2 j]
  refine congrArg ((acc4 V c n).2 (ix2 (0 : Fin 1) j) + ·) (Finset.sum_congr rfl fun y _ => ?_)
  rw [iblk4_0_apply V c ⟨n, hn⟩ y j (hrow ⟨n, h10⟩ y), iblk4_1_apply V c ⟨n, hn⟩ j]

/-- After the ten points the column sum is the sum over all 50000 rows. -/
theorem accS4_final (c : Dev nD) (j : Fin 64) :
    (acc4 V c 10).1 (ix2 (0 : Fin 1) j)
      = ∑ r : Fin 50000, (arrA4 V c (ix2 r j) + arrB4 V c (ix2 (0 : Fin 1) j)) := by
  have hN : cfg4.N = 10 := N_4
  have key : (acc4 V c 10).1 (ix2 (0 : Fin 1) j) = 0 + ∑ t : Fin 10, blockSum4 V c j t :=
    Cert.LibBlockSum.acc_fin_10 (blockSum4 V c j) 0 (fun n => (acc4 V c (n + 1)).1 (ix2 (0 : Fin 1) j))
      (by
        show (acc4 V c (0 + 1)).1 (ix2 (0 : Fin 1) j) = _
        rw [accS4_step V c j 0 (by omega) (by omega), show (acc4 V c 0).1 = zeroS4 (F := Ideal) from rfl, zeroS4_eq,
          pay4_1_apply]
        rfl)
      (fun t ht => accS4_step V c j (t + 1) (by omega) (by omega))
  rw [key, zero_add]
  unfold blockSum4
  exact Cert.LibBlockSum.sum_rows_10x5000
    (fun r => arrA4 V c (ix2 r j) + arrB4 V c (ix2 (0 : Fin 1) j)) hrow

theorem accQ4_final (c : Dev nD) (j : Fin 64) :
    (acc4 V c 10).2 (ix2 (0 : Fin 1) j)
      = ∑ r : Fin 50000, (arrA4 V c (ix2 r j) + arrB4 V c (ix2 (0 : Fin 1) j))
          * (arrA4 V c (ix2 r j) + arrB4 V c (ix2 (0 : Fin 1) j)) := by
  have hN : cfg4.N = 10 := N_4
  have key : (acc4 V c 10).2 (ix2 (0 : Fin 1) j) = 0 + ∑ t : Fin 10, blockSqSum4 V c j t :=
    Cert.LibBlockSum.acc_fin_10 (blockSqSum4 V c j) 0 (fun n => (acc4 V c (n + 1)).2 (ix2 (0 : Fin 1) j))
      (by
        show (acc4 V c (0 + 1)).2 (ix2 (0 : Fin 1) j) = _
        rw [accQ4_step V c j 0 (by omega) (by omega), show (acc4 V c 0).2 = zeroQ4 (F := Ideal) from rfl, zeroQ4_eq,
          pay4_2_apply]
        rfl)
      (fun t ht => accQ4_step V c j (t + 1) (by omega) (by omega))
  rw [key, zero_add]
  unfold blockSqSum4
  exact Cert.LibBlockSum.sum_rows_10x5000
    (fun r => (arrA4 V c (ix2 r j) + arrB4 V c (ix2 (0 : Fin 1) j))
      * (arrA4 V c (ix2 r j) + arrB4 V c (ix2 (0 : Fin 1) j))) hrow

/-! ## What the last point stores, as the specification's rows -/

theorem mean4_eq (c : Dev nD) : out4_2 (acc4 V c 10).1 = Cert.Spec.meanRow (arrA4 V c) (arrB4 V c) := by
  funext i
  obtain ⟨p, j, rfl⟩ : ∃ (p : Fin 1) (j : Fin 64), i = ix2 p j := ⟨i 0, i 1, eq_ix2 i⟩
  obtain rfl : p = 0 := Subsingleton.elim _ _
  rw [out4_2_eq, pay4_6_apply, accS4_final, meanRow_ix]

theorem var4_eq (c : Dev nD) :
    out4_3 (acc4 V c 10).1 (acc4 V c 10).2 = Cert.Spec.varRow (arrA4 V c) (arrB4 V c) := by
  funext i
  obtain ⟨p, j, rfl⟩ : ∃ (p : Fin 1) (j : Fin 64), i = ix2 p j := ⟨i 0, i 1, eq_ix2 i⟩
  obtain rfl : p = 0 := Subsingleton.elim _ _
  rw [out4_3_eq, pay4_7_apply, accS4_final, accQ4_final, varRow_ix]

/-! ## From the one write-back to the arrays -/

/-- Both output windows' block indices are zero at the last point, and their blocks are the whole [1, 64] arrays. -/
theorem hz4_2 : (fun a => win4_2.index t4_9 a * main_v87_0.ty.shape.size a) = fun _ => 0 := funext fun a => by fin_cases a <;> decide
theorem hz4_3 : (fun a => win4_3.index t4_9 a * main_v87_1.ty.shape.size a) = fun _ => 0 := funext fun a => by fin_cases a <;> decide

theorem flushed4_2_eq (c : Dev nD) (t : Fin cfg4.N) (hf : (cfg4.win 2).flush t = true) :
    (dat4 V c).flushed 2 t = ((cfg4.win 2).blk t).view.read (Elt Ideal) (Cert.Spec.meanRow (V c main_v83) (V c main_v84)) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2, show t4_9.val + 1 = 10 from rfl, mean4_eq]
  exact (Memref.read_access_unit_zero (Elt Ideal) main_v87_0 hz4_2 (fun a => by rw [congrFun hz4_2 a]; simp)
    (Cert.Spec.meanRow (V c main_v83) (V c main_v84))).symm

theorem flushed4_3_eq (c : Dev nD) (t : Fin cfg4.N) (hf : (cfg4.win 3).flush t = true) :
    (dat4 V c).flushed 3 t = ((cfg4.win 3).blk t).view.read (Elt Ideal) (Cert.Spec.varRow (V c main_v83) (V c main_v84)) := by
  have hN : cfg4.N = 10 := N_4
  have h9 : t.val = 9 := by have := (flush4_3 t).mp hf; have := t.isLt; omega
  obtain rfl : t = t4_9 := Fin.ext h9
  show (cfg4.win 3).cut (grid4.coords t4_9) ((dat4 V c).after 3 t4_9) = _
  rw [after4_3, show t4_9.val + 1 = 10 from rfl, var4_eq]
  exact (Memref.read_access_unit_zero (Elt Ideal) main_v87_1 hz4_3 (fun a => by rw [congrFun hz4_3 a]; simp)
    (Cert.Spec.varRow (V c main_v83) (V c main_v84))).symm

/-- The mean array after the region: the specification's column means of the two entry arrays. -/
theorem final4_mean (c : Dev nD) :
    (dat4 (F := Ideal) V c).arrAt 2 cfg4.N = Cert.Spec.meanRow (V c main_v83) (V c main_v84) :=
  (dat4 V c).arrAt_eq_of_cover 2 (Cert.Spec.meanRow (V c main_v83) (V c main_v84)) (flushed4_2_eq V c) fun i =>
    ⟨t4_9, (flush4_2 t4_9).mpr rfl, by
      show i ∈ ((View.whole main_v87_0).slice (win4_2.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 64 from by decide +kernel]; omega⟩

/-- The variance array after the region: the specification's column variances of the two entry arrays. -/
theorem final4_var (c : Dev nD) :
    (dat4 (F := Ideal) V c).arrAt 3 cfg4.N = Cert.Spec.varRow (V c main_v83) (V c main_v84) :=
  (dat4 V c).arrAt_eq_of_cover 3 (Cert.Spec.varRow (V c main_v83) (V c main_v84)) (flushed4_3_eq V c) fun i =>
    ⟨t4_9, (flush4_3 t4_9).mpr rfl, by
      show i ∈ ((View.whole main_v87_1).slice (win4_3.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_3.index t4_9 0 * win4_3.size 0 ≤ (i 0 : Nat) ∧ (i 0 : Nat) < win4_3.index t4_9 0 * win4_3.size 0 + win4_3.xsize (grid4.coords t4_9) 0
                  rw [show win4_3.index t4_9 0 * win4_3.size 0 = 0 from by decide +kernel, show win4_3.xsize (grid4.coords t4_9) 0 = 1 from by decide +kernel]; omega
      | ⟨1, _⟩ => show win4_3.index t4_9 1 * win4_3.size 1 ≤ (i 1 : Nat) ∧ (i 1 : Nat) < win4_3.index t4_9 1 * win4_3.size 1 + win4_3.xsize (grid4.coords t4_9) 1
                  rw [show win4_3.index t4_9 1 * win4_3.size 1 = 0 from by decide +kernel, show win4_3.xsize (grid4.coords t4_9) 1 = 64 from by decide +kernel]; omega⟩

end Region4

/-! # Region 7 -/

/-! ## The payloads at an index, at the extended reals -/

section Pay7
variable (x : Vec Ideal S5000x64 .f32) (b s q : Vec Ideal S1x64 .f32)

/-- The reset rows are zero. -/
theorem pay7_1_apply (j : S1x64.Idx) : k7_pay1 (F := Ideal) j = 0 := by
  unfold k7_pay1
  simp only [shapeCast_self, broadcast_apply]
  exact Ideal.ofBits_zero_f32
theorem pay7_2_apply (j : S1x64.Idx) : k7_pay2 (F := Ideal) j = 0 := by
  unfold k7_pay2
  simp only [shapeCast_self, broadcast_apply]
  exact Ideal.ofBits_zero_f32

/-- The shifted block: each row plus the bias row. -/
theorem pay7_3_apply (r : Fin 5000) (c : Fin 64) : k7_pay3 x b (ix2 r c) = x (ix2 r c) + b (ix2 (0 : Fin 1) c) := by
  unfold k7_pay3
  simp only [shapeCast_self, addf_apply]
  rw [Cert.RowBias.bcastRow_apply]

/-- The advanced column sum at a column: the sum so far plus the block's column sum. -/
theorem pay7_4_apply (c : Fin 64) :
    k7_pay4 x b s (ix2 (0 : Fin 1) c) = s (ix2 (0 : Fin 1) c) + ∑ r : Fin 5000, (x (ix2 r c) + b (ix2 (0 : Fin 1) c)) := by
  unfold k7_pay4
  simp only [shapeCast_self, addf_apply]
  rw [Cert.RowBias.rowOf_apply]
  refine congrArg (s (ix2 (0 : Fin 1) c) + ·) ?_
  refine (Cert.LibColSum.multiReduction_row_apply (k7_pay3 x b) _ _ _ _ c).trans ?_
  exact Finset.sum_congr rfl fun r _ => pay7_3_apply x b r c

/-- The advanced column sum of squares at a column. -/
theorem pay7_5_apply (c : Fin 64) :
    k7_pay5 x b q (ix2 (0 : Fin 1) c) = q (ix2 (0 : Fin 1) c)
      + ∑ r : Fin 5000, (x (ix2 r c) + b (ix2 (0 : Fin 1) c)) * (x (ix2 r c) + b (ix2 (0 : Fin 1) c)) := by
  unfold k7_pay5
  simp only [shapeCast_self, addf_apply]
  rw [Cert.RowBias.rowOf_apply]
  refine congrArg (q (ix2 (0 : Fin 1) c) + ·) ?_
  refine (Cert.LibColSum.multiReduction_row_apply (mulf (k7_pay3 x b) (k7_pay3 x b)) _ _ _ _ c).trans ?_
  exact Finset.sum_congr rfl fun r _ => by rw [mulf_apply, pay7_3_apply]

/-- The mean row at a column: the column sum times the reciprocal of the row count. -/
theorem pay7_6_apply (j : S1x64.Idx) : k7_pay6 s j = s j * ((1 / 50000 : ℝ) : EReal) := by
  unfold k7_pay6
  simp only [mulf_apply, broadcast_apply, inv_rows]

/-- The variance row at a column. -/
theorem pay7_7_apply (j : S1x64.Idx) :
    k7_pay7 s q j = q j * ((1 / 50000 : ℝ) : EReal) - (s j * ((1 / 50000 : ℝ) : EReal)) * (s j * ((1 / 50000 : ℝ) : EReal)) := by
  unfold k7_pay7
  simp only [subf_apply, mulf_apply, broadcast_apply, inv_rows, pay7_6_apply]

/-- The rows the certificate's frame names, as the payloads. -/
theorem stepS7_eq : stepS7 x b s = k7_pay4 x b s := by
  unfold stepS7
  rw [View.canon_unit_zero hz]
  simp only [View.ld_unit_zero (S := S5000x64) hz, View.ld_unit_zero (S := S1x64) hz]
theorem stepQ7_eq : stepQ7 x b q = k7_pay5 x b q := by
  unfold stepQ7
  rw [View.canon_unit_zero hz]
  simp only [View.ld_unit_zero (S := S5000x64) hz, View.ld_unit_zero (S := S1x64) hz]
theorem zeroS7_eq : zeroS7 (F := Ideal) = k7_pay1 (F := Ideal) := by unfold zeroS7; rw [View.canon_unit_zero hz]
theorem zeroQ7_eq : zeroQ7 (F := Ideal) = k7_pay2 (F := Ideal) := by unfold zeroQ7; rw [View.canon_unit_zero hz]
theorem out7_2_eq : out7_2 s = k7_pay6 s := by
  unfold out7_2
  rw [View.canon_unit_zero hz]
  simp only [View.ld_unit_zero (S := S1x64) hz]
theorem out7_3_eq : out7_3 s q = k7_pay7 s q := by
  unfold out7_3
  rw [View.canon_unit_zero hz]
  simp only [View.ld_unit_zero (S := S1x64) hz]

end Pay7

/-! ## The blocks as rows of the entry arrays; the sums in closed form -/

section Region7
variable (V : (c : Dev nD) → (b : Ref sig .tc) → Buf (Elt Ideal) ((c : Thread nD τ).loc b))

/-- The two entry arrays of the region, as functions of their indices. -/
abbrev arrA7 (c : Dev nD) : (⟨2, ![50000, 64]⟩ : Shape).Idx → EReal := V c main_v122
abbrev arrB7 (c : Dev nD) : (⟨2, ![1, 64]⟩ : Shape).Idx → EReal := V c main_v123

/-- The printed index maps over the grid: window 0's block row is the point, every other block index is zero. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0 :=
  (by decide +kernel : ∀ t : Fin grid7.N, _)

theorem iblk7_0_apply (c : Dev nD) (t : Fin cfg7.N) (y : Fin 5000) (j : Fin 64) (h : t.val * 5000 + y.val < 50000) :
    (iblk7 V c 0 t : Vec Ideal S5000x64 .f32) (ix2 y j)
      = arrA7 V c (ix2 (⟨t.val * 5000 + y.val, h⟩ : Fin 50000) j) := by
  obtain ⟨e0, e1, -, -⟩ := idx_facts7 t
  unfold iblk7
  rw [View.read_apply]
  show V c main_v122 _ = V c main_v122 _
  congr 1
  funext a
  apply Fin.ext
  match a with
  | ⟨0, _⟩ => show win7_0.index t 0 * 5000 + 1 * y.val = t.val * 5000 + y.val; rw [e0]; omega
  | ⟨1, _⟩ => show win7_0.index t 1 * 64 + 1 * j.val = j.val; rw [e1]; omega

theorem iblk7_1_apply (c : Dev nD) (t : Fin cfg7.N) (j : Fin 64) :
    (iblk7 V c 1 t : Vec Ideal S1x64 .f32) (ix2 (0 : Fin 1) j) = arrB7 V c (ix2 (0 : Fin 1) j) := by
  obtain ⟨-, -, e0, e1⟩ := idx_facts7 t
  unfold iblk7
  rw [View.read_apply]
  show V c main_v123 _ = V c main_v123 _
  congr 1
  funext a
  apply Fin.ext
  match a with
  | ⟨0, _⟩ => show win7_1.index t 0 * 1 + 1 * (0 : Fin 1).val = (0 : Fin 1).val; rw [e0]; rfl
  | ⟨1, _⟩ => show win7_1.index t 1 * 64 + 1 * j.val = j.val; rw [e1]; omega

/-- Column `j`'s sum over block `t` of the shifted rows, and of their squares. -/
def blockSum7 (c : Dev nD) (j : Fin 64) (t : Fin 10) : EReal :=
  ∑ y : Fin 5000, (arrA7 V c (ix2 (⟨t.val * 5000 + y.val, hrow t y⟩ : Fin 50000) j)
    + arrB7 V c (ix2 (0 : Fin 1) j))
def blockSqSum7 (c : Dev nD) (j : Fin 64) (t : Fin 10) : EReal :=
  ∑ y : Fin 5000, (arrA7 V c (ix2 (⟨t.val * 5000 + y.val, hrow t y⟩ : Fin 50000) j)
      + arrB7 V c (ix2 (0 : Fin 1) j))
    * (arrA7 V c (ix2 (⟨t.val * 5000 + y.val, hrow t y⟩ : Fin 50000) j)
      + arrB7 V c (ix2 (0 : Fin 1) j))

/-- One point adds its block's column sums onto the running sums. -/
theorem accS7_step (c : Dev nD) (j : Fin 64) (n : ℕ) (hn : n < cfg7.N) (h10 : n < 10) :
    (acc7 V c (n + 1)).1 (ix2 (0 : Fin 1) j) = (acc7 V c n).1 (ix2 (0 : Fin 1) j) + blockSum7 V c j ⟨n, h10⟩ := by
  rw [acc7_succ V c ⟨n, hn⟩]
  dsimp only
  rw [stepS7_eq, pay7_4_apply (iblk7 V c 0 ⟨n, hn⟩) (iblk7 V c 1 ⟨n, hn⟩) (acc7 V c n).1 j]
  refine congrArg ((acc7 V c n).1 (ix2 (0 : Fin 1) j) + ·) (Finset.sum_congr rfl fun y _ => ?_)
  rw [iblk7_0_apply V c ⟨n, hn⟩ y j (hrow ⟨n, h10⟩ y), iblk7_1_apply V c ⟨n, hn⟩ j]

theorem accQ7_step (c : Dev nD) (j : Fin 64) (n : ℕ) (hn : n < cfg7.N) (h10 : n < 10) :
    (acc7 V c (n + 1)).2 (ix2 (0 : Fin 1) j) = (acc7 V c n).2 (ix2 (0 : Fin 1) j) + blockSqSum7 V c j ⟨n, h10⟩ := by
  rw [acc7_succ V c ⟨n, hn⟩]
  dsimp only
  rw [stepQ7_eq, pay7_5_apply (iblk7 V c 0 ⟨n, hn⟩) (iblk7 V c 1 ⟨n, hn⟩) (acc7 V c n).2 j]
  refine congrArg ((acc7 V c n).2 (ix2 (0 : Fin 1) j) + ·) (Finset.sum_congr rfl fun y _ => ?_)
  rw [iblk7_0_apply V c ⟨n, hn⟩ y j (hrow ⟨n, h10⟩ y), iblk7_1_apply V c ⟨n, hn⟩ j]

/-- After the ten points the column sum is the sum over all 50000 rows. -/
theorem accS7_final (c : Dev nD) (j : Fin 64) :
    (acc7 V c 10).1 (ix2 (0 : Fin 1) j)
      = ∑ r : Fin 50000, (arrA7 V c (ix2 r j) + arrB7 V c (ix2 (0 : Fin 1) j)) := by
  have hN : cfg7.N = 10 := N_7
  have key : (acc7 V c 10).1 (ix2 (0 : Fin 1) j) = 0 + ∑ t : Fin 10, blockSum7 V c j t :=
    Cert.LibBlockSum.acc_fin_10 (blockSum7 V c j) 0 (fun n => (acc7 V c (n + 1)).1 (ix2 (0 : Fin 1) j))
      (by
        show (acc7 V c (0 + 1)).1 (ix2 (0 : Fin 1) j) = _
        rw [accS7_step V c j 0 (by omega) (by omega), show (acc7 V c 0).1 = zeroS7 (F := Ideal) from rfl, zeroS7_eq,
          pay7_1_apply]
        rfl)
      (fun t ht => accS7_step V c j (t + 1) (by omega) (by omega))
  rw [key, zero_add]
  unfold blockSum7
  exact Cert.LibBlockSum.sum_rows_10x5000
    (fun r => arrA7 V c (ix2 r j) + arrB7 V c (ix2 (0 : Fin 1) j)) hrow

theorem accQ7_final (c : Dev nD) (j : Fin 64) :
    (acc7 V c 10).2 (ix2 (0 : Fin 1) j)
      = ∑ r : Fin 50000, (arrA7 V c (ix2 r j) + arrB7 V c (ix2 (0 : Fin 1) j))
          * (arrA7 V c (ix2 r j) + arrB7 V c (ix2 (0 : Fin 1) j)) := by
  have hN : cfg7.N = 10 := N_7
  have key : (acc7 V c 10).2 (ix2 (0 : Fin 1) j) = 0 + ∑ t : Fin 10, blockSqSum7 V c j t :=
    Cert.LibBlockSum.acc_fin_10 (blockSqSum7 V c j) 0 (fun n => (acc7 V c (n + 1)).2 (ix2 (0 : Fin 1) j))
      (by
        show (acc7 V c (0 + 1)).2 (ix2 (0 : Fin 1) j) = _
        rw [accQ7_step V c j 0 (by omega) (by omega), show (acc7 V c 0).2 = zeroQ7 (F := Ideal) from rfl, zeroQ7_eq,
          pay7_2_apply]
        rfl)
      (fun t ht => accQ7_step V c j (t + 1) (by omega) (by omega))
  rw [key, zero_add]
  unfold blockSqSum7
  exact Cert.LibBlockSum.sum_rows_10x5000
    (fun r => (arrA7 V c (ix2 r j) + arrB7 V c (ix2 (0 : Fin 1) j))
      * (arrA7 V c (ix2 r j) + arrB7 V c (ix2 (0 : Fin 1) j))) hrow

/-! ## What the last point stores, as the specification's rows -/

theorem mean7_eq (c : Dev nD) : out7_2 (acc7 V c 10).1 = Cert.Spec.meanRow (arrA7 V c) (arrB7 V c) := by
  funext i
  obtain ⟨p, j, rfl⟩ : ∃ (p : Fin 1) (j : Fin 64), i = ix2 p j := ⟨i 0, i 1, eq_ix2 i⟩
  obtain rfl : p = 0 := Subsingleton.elim _ _
  rw [out7_2_eq, pay7_6_apply, accS7_final, meanRow_ix]

theorem var7_eq (c : Dev nD) :
    out7_3 (acc7 V c 10).1 (acc7 V c 10).2 = Cert.Spec.varRow (arrA7 V c) (arrB7 V c) := by
  funext i
  obtain ⟨p, j, rfl⟩ : ∃ (p : Fin 1) (j : Fin 64), i = ix2 p j := ⟨i 0, i 1, eq_ix2 i⟩
  obtain rfl : p = 0 := Subsingleton.elim _ _
  rw [out7_3_eq, pay7_7_apply, accS7_final, accQ7_final, varRow_ix]

/-! ## From the one write-back to the arrays -/

/-- Both output windows' block indices are zero at the last point, and their blocks are the whole [1, 64] arrays. -/
theorem hz7_2 : (fun a => win7_2.index t7_9 a * main_v126_0.ty.shape.size a) = fun _ => 0 := funext fun a => by fin_cases a <;> decide
theorem hz7_3 : (fun a => win7_3.index t7_9 a * main_v126_1.ty.shape.size a) = fun _ => 0 := funext fun a => by fin_cases a <;> decide

theorem flushed7_2_eq (c : Dev nD) (t : Fin cfg7.N) (hf : (cfg7.win 2).flush t = true) :
    (dat7 V c).flushed 2 t = ((cfg7.win 2).blk t).view.read (Elt Ideal) (Cert.Spec.meanRow (V c main_v122) (V c main_v123)) := by
  have hN : cfg7.N = 10 := N_7
  have h9 : t.val = 9 := by have := (flush7_2 t).mp hf; have := t.isLt; omega
  obtain rfl : t = t7_9 := Fin.ext h9
  show (cfg7.win 2).cut (grid7.coords t7_9) ((dat7 V c).after 2 t7_9) = _
  rw [after7_2, show t7_9.val + 1 = 10 from rfl, mean7_eq]
  exact (Memref.read_access_unit_zero (Elt Ideal) main_v126_0 hz7_2 (fun a => by rw [congrFun hz7_2 a]; simp)
    (Cert.Spec.meanRow (V c main_v122) (V c main_v123))).symm

theorem flushed7_3_eq (c : Dev nD) (t : Fin cfg7.N) (hf : (cfg7.win 3).flush t = true) :
    (dat7 V c).flushed 3 t = ((cfg7.win 3).blk t).view.read (Elt Ideal) (Cert.Spec.varRow (V c main_v122) (V c main_v123)) := by
  have hN : cfg7.N = 10 := N_7
  have h9 : t.val = 9 := by have := (flush7_3 t).mp hf; have := t.isLt; omega
  obtain rfl : t = t7_9 := Fin.ext h9
  show (cfg7.win 3).cut (grid7.coords t7_9) ((dat7 V c).after 3 t7_9) = _
  rw [after7_3, show t7_9.val + 1 = 10 from rfl, var7_eq]
  exact (Memref.read_access_unit_zero (Elt Ideal) main_v126_1 hz7_3 (fun a => by rw [congrFun hz7_3 a]; simp)
    (Cert.Spec.varRow (V c main_v122) (V c main_v123))).symm

/-- The mean array after the region: the specification's column means of the two entry arrays. -/
theorem final7_mean (c : Dev nD) :
    (dat7 (F := Ideal) V c).arrAt 2 cfg7.N = Cert.Spec.meanRow (V c main_v122) (V c main_v123) :=
  (dat7 V c).arrAt_eq_of_cover 2 (Cert.Spec.meanRow (V c main_v122) (V c main_v123)) (flushed7_2_eq V c) fun i =>
    ⟨t7_9, (flush7_2 t7_9).mpr rfl, by
      show i ∈ ((View.whole main_v126_0).slice (win7_2.rect t7_9)).set
      rw [View.set_slice_whole, Rect.mem_set_unit]
      intro a
      have h0 : (i 0 : Nat) < 1 := (i 0).isLt
      have h1 : (i 1 : Nat) < 64 := (i 1).isLt
      match a with
      | ⟨0, _⟩ => show win7_2.index t7_9 0 * win7_2.size 0 ≤ (i 0 : Nat) ∧ (i 0 : Nat) < win7_2.index t7_9 0 * win7_2.size 0 + win7_2.xsize (grid7.coords t7_9) 0
                  rw [show win7_2.index t7_9 0 * win7_2.size 0 = 0 from by decide +kernel, show win7_2.xsize (grid7.coords t7_9) 0 = 1 from by decide +kernel]; omega
      | ⟨1, _⟩ => show win7_2.index t7_9 1 * win7_2.size 1 ≤ (i 1 : Nat) ∧ (i 1 : Nat) < win7_2.index t7_9 1 * win7_2.size 1 + win7_2.xsize (grid7.coords t7_9) 1
                  rw [show win7_2.index t7_9 1 * win7_2.size 1 = 0 from by decide +kernel, show win7_2.xsize (grid7.coords t7_9) 1 = 64 from by decide +kernel]; omega⟩

/-- The variance array after the region: the specification's column variances of the two entry arrays. -/
theorem final7_var (c : Dev nD) :
    (dat7 (F := Ideal) V c).arrAt 3 cfg7.N = Cert.Spec.varRow (V c main_v122) (V c main_v123) :=
  (dat7 V c).arrAt_eq_of_cover 3 (Cert.Spec.varRow (V c main_v122) (V c main_v123)) (flushed7_3_eq V c) fun i =>
    ⟨t7_9, (flush7_3 t7_9).mpr rfl, by
      show i ∈ ((View.whole main_v126_1).slice (win7_3.rect t7_9)).set
      rw [View.set_slice_whole, Rect.mem_set_unit]
      intro a
      have h0 : (i 0 : Nat) < 1 := (i 0).isLt
      have h1 : (i 1 : Nat) < 64 := (i 1).isLt
      match a with
      | ⟨0, _⟩ => show win7_3.index t7_9 0 * win7_3.size 0 ≤ (i 0 : Nat) ∧ (i 0 : Nat) < win7_3.index t7_9 0 * win7_3.size 0 + win7_3.xsize (grid7.coords t7_9) 0
                  rw [show win7_3.index t7_9 0 * win7_3.size 0 = 0 from by decide +kernel, show win7_3.xsize (grid7.coords t7_9) 0 = 1 from by decide +kernel]; omega
      | ⟨1, _⟩ => show win7_3.index t7_9 1 * win7_3.size 1 ≤ (i 1 : Nat) ∧ (i 1 : Nat) < win7_3.index t7_9 1 * win7_3.size 1 + win7_3.xsize (grid7.coords t7_9) 1
                  rw [show win7_3.index t7_9 1 * win7_3.size 1 = 0 from by decide +kernel, show win7_3.xsize (grid7.coords t7_9) 1 = 64 from by decide +kernel]; omega⟩

end Region7

end Cert.KernelIdeal.HandValue

end
-- ==== Proof.LibTileLayer.lean ====
/-
  A dense layer on a tile of rows, at the exact (extended-real) reading, element by element: a matrix product into a zero
  accumulator is the plain sum over the shared axis whatever the operands' float formats; one bias row added to every row and
  the maximum with zero read at (r, c); and a block of consecutive rows cut out of a taller array.
-/
import Idealize.ShloMosaic.PureOps.Ideal.Laws
import Idealize.ShloMosaic.Lib.ValueIdx
import Idealize.ShloMosaic.Lib.ValueLayout
import Idealize.ShloMosaic.Lib.Pipeline.Value
import proofs.«171894_j11897059410618_1_alg».proof.Proof.LibDotSum
import proofs.«171894_j11897059410618_1_alg».proof.Proof.LibRowBias

noncomputable section

open scoped BigOperators

namespace Cert.LibTileLayer

open Idealize.ShloMosaic Idealize.ShloMosaic.ValueIdx

/-- A tile's product of an `M × K` by a `K × N` array into the zero accumulator, at (r, c): `∑ k, A (r, k) · B (k, c)`. -/
theorem matmul0_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ φ₁) (B : FVec Ideal ⟨2, ![K, N]⟩ φ₂) (r : Fin M) (c : Fin N) :
    matmul (F := Ideal) d none A B (constant ⟨2, ![M, N]⟩ .f32 0x00000000#32) (ix2 r c)
      = ∑ k : Fin K, (A (ix2 r k) : EReal) * (B (ix2 k c) : EReal) := by
  simp only [matmul]
  rw [Ideal.matmul_constant_zero_apply]
  exact Cert.LibDotSum.plain d hr hs hl0 hl1 hr0 hr1 (fun a b => (A a : EReal) * (B b : EReal)) (ix2 r c)

/-- One bias row (a `[1, N]` block, cast to its own shape) added to every row of `P`, then the maximum with the zero splat,
    at (r, c): `max (P (r, c) + bias (0, c)) 0`. -/
theorem biasRelu_apply {M N : Nat} (P : FVec Ideal ⟨2, ![M, N]⟩ .f32) (bias : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (r : Fin M) (c : Fin N) :
    maximumf (addf P (broadcastTo ⟨2, ![M, N]⟩ (shapeCast ⟨2, ![1, N]⟩ bias h1) h2))
        (broadcast ⟨2, ![M, N]⟩ (Scalar.ofBits (F := Ideal) .f32 0x00000000#32)) (ix2 r c)
      = max (P (ix2 r c) + bias (ix2 (0 : Fin 1) c)) 0 := by
  rw [maximumf_apply, addf_apply, broadcast_apply, Cert.RowBias.bcastRow_apply, shapeCast_self]
  show max _ (Ideal.ofBits .f32 0x00000000#32) = _
  rw [Ideal.ofBits_zero_f32]
  rfl

/-- The same bias row added with no rectifier, at (r, c). -/
theorem bias_apply {M N : Nat} (P : FVec Ideal ⟨2, ![M, N]⟩ .f32) (bias : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (r : Fin M) (c : Fin N) :
    addf P (broadcastTo ⟨2, ![M, N]⟩ (shapeCast ⟨2, ![1, N]⟩ bias h1) h2) (ix2 r c)
      = P (ix2 r c) + bias (ix2 (0 : Fin 1) c) := by
  rw [addf_apply, Cert.RowBias.bcastRow_apply, shapeCast_self]
  rfl

/-- Rows `off … off + R − 1` of an `M × N` array, at (r, c): the array at (off + r, c). -/
theorem rowsSlice_apply {α : Type} {M N R : Nat} (off : Nat) (H : (⟨2, ![M, N]⟩ : Shape).Idx → α)
    (h : (⟨2, ![M, N]⟩ : Shape).Slices ![off, 0] ⟨2, ![R, N]⟩) (r : Fin R) (c : Fin N) (hlt : off + r.val < M) :
    extractStridedSlice ⟨2, ![R, N]⟩ ![off, 0] H h (ix2 r c) = H (ix2 ⟨off + r.val, hlt⟩ c) :=
  extractStridedSlice_apply _ H h (ix2 r c) (ix2 ⟨off + r.val, hlt⟩ c) (fun a => by
    match a with
    | ⟨0, _⟩ => rfl
    | ⟨1, _⟩ => show c.val = 0 + c.val; omega)

end Cert.LibTileLayer

end
-- ==== Proof.KV.FusionSpec.lean ====
/-
  The three-layer head on a block of 256 rows, at the exact (extended-real) reading of floats, index by index: two dense
  layers with the rectifier, a second 256 × 64 array placed in front of the second layer's output along the columns, and
  a last product with a 128 × 1 matrix plus a 1 × 1 bias. Stated over plain arrays; no program is mentioned.
-/
import proofs.«171894_j11897059410618_1_alg».proof.Proof.LibMatProd

noncomputable section

open scoped BigOperators

namespace Cert.Spec

open Idealize.ShloMosaic Idealize.ShloMosaic.ValueIdx

/-- One dense layer with the rectifier: at (r, c), the maximum of 0 and (X · W)(r, c) + b(0, c). -/
def denseRelu {M K N : Nat} (X : (⟨2, ![M, K]⟩ : Shape).Idx → EReal) (W : (⟨2, ![K, N]⟩ : Shape).Idx → EReal)
    (b : (⟨2, ![1, N]⟩ : Shape).Idx → EReal) : (⟨2, ![M, N]⟩ : Shape).Idx → EReal :=
  fun j => max (rowsByCols X W j + b (ix2 (0 : Fin 1) (j 1))) 0

/-- Two 256 × 64 arrays side by side along the columns: columns 0 … 63 are `P`'s, columns 64 … 127 are `Q`'s. -/
def sideBySide (P Q : (⟨2, ![256, 64]⟩ : Shape).Idx → EReal) : (⟨2, ![256, 128]⟩ : Shape).Idx → EReal :=
  fun j => if h : (j 1).val < 64 then P (ix2 (j 0) ⟨(j 1).val, h⟩)
    else Q (ix2 (j 0) ⟨(j 1).val - 64, by have h2 : (j 1).val < 128 := (j 1).isLt; omega⟩)

/-- The three-layer head on 256 rows: two dense layers with the rectifier applied to `X`; the array `E` and the second
    layer's output side by side; that times the last weights, plus the last bias. -/
def fusionHead (X : (⟨2, ![256, 64]⟩ : Shape).Idx → EReal) (W₁ : (⟨2, ![64, 128]⟩ : Shape).Idx → EReal)
    (b₁ : (⟨2, ![1, 128]⟩ : Shape).Idx → EReal) (W₂ : (⟨2, ![128, 64]⟩ : Shape).Idx → EReal)
    (b₂ : (⟨2, ![1, 64]⟩ : Shape).Idx → EReal) (E : (⟨2, ![256, 64]⟩ : Shape).Idx → EReal)
    (W₃ : (⟨2, ![128, 1]⟩ : Shape).Idx → EReal) (b₃ : (⟨2, ![1, 1]⟩ : Shape).Idx → EReal) :
    (⟨2, ![256, 1]⟩ : Shape).Idx → EReal :=
  addRow (rowsByCols (M := 256) (K := 128) (N := 1) (sideBySide E (denseRelu (denseRelu X W₁ b₁) W₂ b₂)) W₃) b₃

end Cert.Spec

end
-- ==== Proof.KV.Fusion.lean ====
/-
  The last region of the program at the exact (extended-real) reading of floats: its 256 × 1 output array, after the one
  grid point has written its block back, is the three-layer head (Cert.Spec.fusionHead) of the eight arrays the region
  reads. First the body's operations as functions of whole arrays — a matrix product of bf16-narrowed operands into a
  zero accumulator with a bias row and the rectifier is a dense layer, the concatenation along the columns is the two
  arrays side by side —, so the payload is the head of the eight loaded blocks; then each window's one block is its
  whole array, and the one point's block is the whole output array.
-/
import proofs.«171894_j11897059410618_1_alg».proof.Proof.KI.Reg9
import proofs.«171894_j11897059410618_1_alg».proof.Proof.LibMatProd
import proofs.«171894_j11897059410618_1_alg».proof.Proof.LibTileLayer
import proofs.«171894_j11897059410618_1_alg».proof.Proof.KV.FusionSpec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandValue

open Cert.KernelIdeal Cert.KernelIdeal.Gen Idealize.ShloMosaic Idealize.ShloMosaic.TcCoe Idealize.ShloMosaic.ValueIdx Idealize.SL.Sem
open Idealize.ShloMosaic.Pipeline (Dat)

/-! ## The body's operations, layer by layer, as functions of whole arrays -/

/-- A matrix product of bf16-narrowed operands into a zero accumulator, one bias row added to every row, then the
    maximum with zero: the dense layer with the rectifier. -/
theorem denseLayer_eq {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (bias : FVec Ideal ⟨2, ![1, N]⟩ .f32)
    (hb : (FTy.bf16).bits < (FTy.f32).bits)
    (h1 : (⟨2, ![1, N]⟩ : Shape).ShapeCasts ⟨2, ![1, N]⟩) (h2 : (⟨2, ![1, N]⟩ : Shape).Broadcasts ⟨2, ![M, N]⟩) :
    maximumf (addf (matmul (F := Ideal) d none (truncf .bf16 A hb) (truncf .bf16 B hb) (constant ⟨2, ![M, N]⟩ .f32 0x00000000#32))
        (broadcastTo ⟨2, ![M, N]⟩ (shapeCast ⟨2, ![1, N]⟩ bias h1) h2))
      (broadcast ⟨2, ![M, N]⟩ (Scalar.ofBits (F := Ideal) .f32 0x00000000#32))
    = Cert.Spec.denseRelu A B bias := by
  funext j
  obtain ⟨r, c, rfl⟩ : ∃ (r : Fin M) (c : Fin N), j = ix2 r c := ⟨j 0, j 1, eq_ix2 j⟩
  rw [Cert.LibTileLayer.biasRelu_apply, Cert.MatProd.tileDot_apply d hr hs hl0 hl1 hr0 hr1 A B hb]
  rfl

/-- The same product with the bias row added and no rectifier. -/
theorem lastLayer_eq {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (bias : FVec Ideal ⟨2, ![1, N]⟩ .f32)
    (hb : (FTy.bf16).bits < (FTy.f32).bits)
    (h1 : (⟨2, ![1, N]⟩ : Shape).ShapeCasts ⟨2, ![1, N]⟩) (h2 : (⟨2, ![1, N]⟩ : Shape).Broadcasts ⟨2, ![M, N]⟩) :
    addf (matmul (F := Ideal) d none (truncf .bf16 A hb) (truncf .bf16 B hb) (constant ⟨2, ![M, N]⟩ .f32 0x00000000#32))
        (broadcastTo ⟨2, ![M, N]⟩ (shapeCast ⟨2, ![1, N]⟩ bias h1) h2)
    = Cert.Spec.addRow (Cert.Spec.rowsByCols A B) bias := by
  funext j
  obtain ⟨r, c, rfl⟩ : ∃ (r : Fin M) (c : Fin N), j = ix2 r c := ⟨j 0, j 1, eq_ix2 j⟩
  rw [Cert.LibTileLayer.bias_apply, Cert.MatProd.tileDot_apply d hr hs hl0 hl1 hr0 hr1 A B hb]
  rfl

/-- The concatenation along the columns of two 256 × 64 arrays, read index by index. -/
theorem sideBySide_eq (P Q : FVec Ideal S256x64 .f32) (hc : Shape.Concatenates [S256x64, S256x64] S256x128 1)
    (hs : S256x64.ShapeCasts S256x64) :
    concatenate S256x128 1 [⟨S256x64, shapeCast S256x64 P hs⟩, ⟨S256x64, Q⟩] hc = Cert.Spec.sideBySide P Q := by
  rw [shapeCast_self]
  funext j
  obtain ⟨r, k, rfl⟩ : ∃ (r : Fin 256) (k : Fin 128), j = ix2 r k := ⟨j 0, j 1, eq_ix2 j⟩
  unfold Cert.Spec.sideBySide
  by_cases h : k.val < 64
  · rw [dif_pos (show ((ix2 r k : S256x128.Idx) 1).val < 64 from h)]
    exact concatenate_pair_apply_left (1 : Fin 2) P Q hc (ix2 r k) rfl (ix2 r ⟨k.val, h⟩) (fun b => by
      match b with
      | ⟨0, _⟩ => rfl
      | ⟨1, _⟩ => rfl)
  · rw [dif_neg (show ¬ ((ix2 r k : S256x128.Idx) 1).val < 64 from h)]
    have hk : k.val < 128 := k.isLt
    exact concatenate_pair_apply_right (1 : Fin 2) P Q hc (ix2 r k) rfl rfl (ix2 r ⟨k.val - 64, by omega⟩) (fun b hb => by
      match b with
      | ⟨0, _⟩ => rfl
      | ⟨1, _⟩ => exact absurd rfl hb) (by show k.val - 64 + 64 = k.val; omega)

/-- The body's payload is the three-layer head of the eight blocks it loaded. -/
theorem pay9_eq (x0 : Vec Ideal S256x64 .f32) (x1 : Vec Ideal S64x128 .f32) (x2 : Vec Ideal S1x128 .f32) (x3 : Vec Ideal S128x64 .f32) (x4 : Vec Ideal S1x64 .f32) (x5 : Vec Ideal S256x64 .f32) (x6 : Vec Ideal S128x1 .f32) (x7 : Vec Ideal S1x1 .f32) :
    k9_pay1 (F := Ideal) x0 x1 x2 x3 x4 x5 x6 x7 = Cert.Spec.fusionHead x0 x1 x2 x3 x4 x5 x6 x7 := by
  have L1 := denseLayer_eq dot_S256x64_S64x128_S256x128_1_0_0_1_n_n rfl rfl (fun _ _ => rfl) (fun _ _ => rfl) (fun _ _ => rfl) (fun _ _ => rfl) x0 x1 x2 bitsLt_bf16_f32 shapeCasts_S1x128_S1x128 broadcasts_S1x128_S256x128
  have L2 := denseLayer_eq dot_S256x128_S128x64_S256x64_1_0_0_1_n_n rfl rfl (fun _ _ => rfl) (fun _ _ => rfl) (fun _ _ => rfl) (fun _ _ => rfl) (Cert.Spec.denseRelu x0 x1 x2) x3 x4 bitsLt_bf16_f32 shapeCasts_S1x64_S1x64 broadcasts_S1x64_S256x64
  have C := sideBySide_eq x5 (Cert.Spec.denseRelu (Cert.Spec.denseRelu x0 x1 x2) x3 x4) concatenates_S256x64_S256x64_S256x128_d1 shapeCasts_S256x64_S256x64
  have L3 := lastLayer_eq dot_S256x128_S128x1_S256x1_1_0_0_1_n_n rfl rfl (fun _ _ => rfl) (fun _ _ => rfl) (fun _ _ => rfl) (fun _ _ => rfl) (Cert.Spec.sideBySide x5 (Cert.Spec.denseRelu (Cert.Spec.denseRelu x0 x1 x2) x3 x4)) x6 x7 bitsLt_bf16_f32 shapeCasts_S1x1_S1x1 broadcasts_S1x1_S256x1
  unfold Cert.Spec.fusionHead
  rw [← L3, ← C, ← L2, ← L1]
  rfl

/-! ## From the one point's block to the array -/

-- the TensorCore's buffer contents when the region is entered, at the exact reading of floats
variable (V : (c : Dev nD) → (b : Ref sig .tc) → Buf (Elt Ideal) ((c : Thread nD τ).loc b))

theorem hz9 : (![0, 0] : Fin 2 → Nat) = fun _ => 0 := funext fun a => by fin_cases a <;> rfl

/-- Every window sits at block (0, 0) at the one point. -/
theorem idx9_0 : ∀ t : Fin cfg9.N, win9_0.index t (0 : Fin 2) = 0 ∧ win9_0.index t (1 : Fin 2) = 0 :=
  (by decide +kernel : ∀ t : Fin grid9.N, _)
theorem idx9_1 : ∀ t : Fin cfg9.N, win9_1.index t (0 : Fin 2) = 0 ∧ win9_1.index t (1 : Fin 2) = 0 :=
  (by decide +kernel : ∀ t : Fin grid9.N, _)
theorem idx9_2 : ∀ t : Fin cfg9.N, win9_2.index t (0 : Fin 2) = 0 ∧ win9_2.index t (1 : Fin 2) = 0 :=
  (by decide +kernel : ∀ t : Fin grid9.N, _)
theorem idx9_3 : ∀ t : Fin cfg9.N, win9_3.index t (0 : Fin 2) = 0 ∧ win9_3.index t (1 : Fin 2) = 0 :=
  (by decide +kernel : ∀ t : Fin grid9.N, _)
theorem idx9_4 : ∀ t : Fin cfg9.N, win9_4.index t (0 : Fin 2) = 0 ∧ win9_4.index t (1 : Fin 2) = 0 :=
  (by decide +kernel : ∀ t : Fin grid9.N, _)
theorem idx9_5 : ∀ t : Fin cfg9.N, win9_5.index t (0 : Fin 2) = 0 ∧ win9_5.index t (1 : Fin 2) = 0 :=
  (by decide +kernel : ∀ t : Fin grid9.N, _)
theorem idx9_6 : ∀ t : Fin cfg9.N, win9_6.index t (0 : Fin 2) = 0 ∧ win9_6.index t (1 : Fin 2) = 0 :=
  (by decide +kernel : ∀ t : Fin grid9.N, _)
theorem idx9_7 : ∀ t : Fin cfg9.N, win9_7.index t (0 : Fin 2) = 0 ∧ win9_7.index t (1 : Fin 2) = 0 :=
  (by decide +kernel : ∀ t : Fin grid9.N, _)
theorem idx9_8 : ∀ t : Fin cfg9.N, win9_8.index t (0 : Fin 2) = 0 ∧ win9_8.index t (1 : Fin 2) = 0 :=
  (by decide +kernel : ∀ t : Fin grid9.N, _)

/-- Window 0's one block is its whole array. -/
theorem blk9_0 (c : Dev nD) (t : Fin cfg9.N) :
    (Hand.iblk9 V c 0 t : Vec Ideal S256x64 .f32) = (V c main_arg3 : S256x64.Idx → Elt Ideal .f32) := by
  obtain ⟨e0, e1⟩ := idx9_0 t
  funext x
  unfold Hand.iblk9
  rw [View.read_apply]
  show V c main_arg3 _ = V c main_arg3 _
  congr 1
  funext a
  apply Fin.ext
  match a with
  | ⟨0, _⟩ => show win9_0.index t 0 * 256 + 1 * (x 0).val = (x 0).val; rw [e0]; omega
  | ⟨1, _⟩ => show win9_0.index t 1 * 64 + 1 * (x 1).val = (x 1).val; rw [e1]; omega

/-- Window 1's one block is its whole array. -/
theorem blk9_1 (c : Dev nD) (t : Fin cfg9.N) :
    (Hand.iblk9 V c 1 t : Vec Ideal S64x128 .f32) = (V c main_arg16 : S64x128.Idx → Elt Ideal .f32) := by
  obtain ⟨e0, e1⟩ := idx9_1 t
  funext x
  unfold Hand.iblk9
  rw [View.read_apply]
  show V c main_arg16 _ = V c main_arg16 _
  congr 1
  funext a
  apply Fin.ext
  match a with
  | ⟨0, _⟩ => show win9_1.index t 0 * 64 + 1 * (x 0).val = (x 0).val; rw [e0]; omega
  | ⟨1, _⟩ => show win9_1.index t 1 * 128 + 1 * (x 1).val = (x 1).val; rw [e1]; omega

/-- Window 2's one block is its whole array. -/
theorem blk9_2 (c : Dev nD) (t : Fin cfg9.N) :
    (Hand.iblk9 V c 2 t : Vec Ideal S1x128 .f32) = (V c main_v140 : S1x128.Idx → Elt Ideal .f32) := by
  obtain ⟨e0, e1⟩ := idx9_2 t
  funext x
  unfold Hand.iblk9
  rw [View.read_apply]
  show V c main_v140 _ = V c main_v140 _
  congr 1
  funext a
  apply Fin.ext
  match a with
  | ⟨0, _⟩ => show win9_2.index t 0 * 1 + 1 * (x 0).val = (x 0).val; rw [e0]; omega
  | ⟨1, _⟩ => show win9_2.index t 1 * 128 + 1 * (x 1).val = (x 1).val; rw [e1]; omega

/-- Window 3's one block is its whole array. -/
theorem blk9_3 (c : Dev nD) (t : Fin cfg9.N) :
    (Hand.iblk9 V c 3 t : Vec Ideal S128x64 .f32) = (V c main_arg18 : S128x64.Idx → Elt Ideal .f32) := by
  obtain ⟨e0, e1⟩ := idx9_3 t
  funext x
  unfold Hand.iblk9
  rw [View.read_apply]
  show V c main_arg18 _ = V c main_arg18 _
  congr 1
  funext a
  apply Fin.ext
  match a with
  | ⟨0, _⟩ => show win9_3.index t 0 * 128 + 1 * (x 0).val = (x 0).val; rw [e0]; omega
  | ⟨1, _⟩ => show win9_3.index t 1 * 64 + 1 * (x 1).val = (x 1).val; rw [e1]; omega

/-- Window 4's one block is its whole array. -/
theorem blk9_4 (c : Dev nD) (t : Fin cfg9.N) :
    (Hand.iblk9 V c 4 t : Vec Ideal S1x64 .f32) = (V c main_v141 : S1x64.Idx → Elt Ideal .f32) := by
  obtain ⟨e0, e1⟩ := idx9_4 t
  funext x
  unfold Hand.iblk9
  rw [View.read_apply]
  show V c main_v141 _ = V c main_v141 _
  congr 1
  funext a
  apply Fin.ext
  match a with
  | ⟨0, _⟩ => show win9_4.index t 0 * 1 + 1 * (x 0).val = (x 0).val; rw [e0]; omega
  | ⟨1, _⟩ => show win9_4.index t 1 * 64 + 1 * (x 1).val = (x 1).val; rw [e1]; omega

/-- Window 5's one block is its whole array. -/
theorem blk9_5 (c : Dev nD) (t : Fin cfg9.N) :
    (Hand.iblk9 V c 5 t : Vec Ideal S256x64 .f32) = (V c main_v139 : S256x64.Idx → Elt Ideal .f32) := by
  obtain ⟨e0, e1⟩ := idx9_5 t
  funext x
  unfold Hand.iblk9
  rw [View.read_apply]
  show V c main_v139 _ = V c main_v139 _
  congr 1
  funext a
  apply Fin.ext
  match a with
  | ⟨0, _⟩ => show win9_5.index t 0 * 256 + 1 * (x 0).val = (x 0).val; rw [e0]; omega
  | ⟨1, _⟩ => show win9_5.index t 1 * 64 + 1 * (x 1).val = (x 1).val; rw [e1]; omega

/-- Window 6's one block is its whole array. -/
theorem blk9_6 (c : Dev nD) (t : Fin cfg9.N) :
    (Hand.iblk9 V c 6 t : Vec Ideal S128x1 .f32) = (V c main_arg20 : S128x1.Idx → Elt Ideal .f32) := by
  obtain ⟨e0, e1⟩ := idx9_6 t
  funext x
  unfold Hand.iblk9
  rw [View.read_apply]
  show V c main_arg20 _ = V c main_arg20 _
  congr 1
  funext a
  apply Fin.ext
  match a with
  | ⟨0, _⟩ => show win9_6.index t 0 * 128 + 1 * (x 0).val = (x 0).val; rw [e0]; omega
  | ⟨1, _⟩ => show win9_6.index t 1 * 1 + 1 * (x 1).val = (x 1).val; rw [e1]; omega

/-- Window 7's one block is its whole array. -/
theorem blk9_7 (c : Dev nD) (t : Fin cfg9.N) :
    (Hand.iblk9 V c 7 t : Vec Ideal S1x1 .f32) = (V c main_v142 : S1x1.Idx → Elt Ideal .f32) := by
  obtain ⟨e0, e1⟩ := idx9_7 t
  funext x
  unfold Hand.iblk9
  rw [View.read_apply]
  show V c main_v142 _ = V c main_v142 _
  congr 1
  funext a
  apply Fin.ext
  match a with
  | ⟨0, _⟩ => show win9_7.index t 0 * 1 + 1 * (x 0).val = (x 0).val; rw [e0]; omega
  | ⟨1, _⟩ => show win9_7.index t 1 * 1 + 1 * (x 1).val = (x 1).val; rw [e1]; omega

/-- What the one point writes back is the head of the eight entry arrays, read through the output's block. -/
theorem flushed9_eq (c : Dev nD) (t : Fin cfg9.N) :
    (Hand.dat9 (F := Ideal) V c).flushed 8 t
      = ((cfg9.win 8).blk t).view.read (Elt Ideal) (Cert.Spec.fusionHead (V c main_arg3) (V c main_arg16) (V c main_v140) (V c main_arg18) (V c main_v141) (V c main_v139) (V c main_arg20) (V c main_v142)) := by
  show (cfg9.win 8).cut (grid9.coords t) ((Hand.dat9 V c).after 8 t) = _
  rw [Hand.after9_8]
  unfold Hand.out9_8
  rw [View.canon_unit_zero hz9]
  simp only [View.ld_unit_zero (S := S256x64) hz9, View.ld_unit_zero (S := S64x128) hz9, View.ld_unit_zero (S := S1x128) hz9, View.ld_unit_zero (S := S128x64) hz9, View.ld_unit_zero (S := S1x64) hz9, View.ld_unit_zero (S := S128x1) hz9, View.ld_unit_zero (S := S1x1) hz9]
  obtain ⟨e0, e1⟩ := idx9_8 t
  funext j
  rw [View.read_apply]
  refine (congrFun (pay9_eq (Hand.iblk9 V c 0 t) (Hand.iblk9 V c 1 t) (Hand.iblk9 V c 2 t) (Hand.iblk9 V c 3 t) (Hand.iblk9 V c 4 t) (Hand.iblk9 V c 5 t) (Hand.iblk9 V c 6 t) (Hand.iblk9 V c 7 t)) j).trans ?_
  rw [blk9_0 V c t, blk9_1 V c t, blk9_2 V c t, blk9_3 V c t, blk9_4 V c t, blk9_5 V c t, blk9_6 V c t, blk9_7 V c t]
  congr 1
  funext a
  apply Fin.ext
  match a with
  | ⟨0, _⟩ => show (j 0).val = win9_8.index t 0 * 256 + 1 * (j 0).val; rw [e0]; omega
  | ⟨1, _⟩ => show (j 1).val = win9_8.index t 1 * 1 + 1 * (j 1).val; rw [e1]; omega

/-- An index of the output array lies in the point's block iff each coordinate lies in the block's range. -/
theorem mem_blk9 (t : Fin cfg9.N) (i : S256x1.Idx) :
    i ∈ ((cfg9.win 8).blk t).view.set ↔ ∀ a : Fin 2, win9_8.index t a * S256x1.size a ≤ (i a).val ∧ (i a).val < win9_8.index t a * S256x1.size a + S256x1.size a := by
  show i ∈ ((View.whole main_v143).slice (win9_8.rect t)).set ↔ _
  rw [View.set_slice_whole, Rect.mem_set_unit]
  exact Iff.rfl

/-- The one point's block is the whole output array. -/
theorem cover9 (i : S256x1.Idx) : ∃ t : Fin cfg9.N, (cfg9.win 8).flush t = true ∧ i ∈ ((cfg9.win 8).blk t).view.set := by
  have hi0 : (i 0).val < 256 := (i 0).isLt
  have hi1 : (i 1).val < 1 := (i 1).isLt
  have hN : cfg9.N = 1 := N_9
  refine ⟨⟨0, by rw [hN]; omega⟩, flush9_8 _, ?_⟩
  rw [mem_blk9]
  obtain ⟨e0, e1⟩ := idx9_8 ⟨0, by rw [hN]; omega⟩
  intro a
  match a with
  | ⟨0, _⟩ =>
    show win9_8.index _ (0 : Fin 2) * 256 ≤ (i 0).val ∧ (i 0).val < win9_8.index _ (0 : Fin 2) * 256 + 256
    rw [e0]; omega
  | ⟨1, _⟩ =>
    show win9_8.index _ (1 : Fin 2) * 1 ≤ (i 1).val ∧ (i 1).val < win9_8.index _ (1 : Fin 2) * 1 + 1
    rw [e1]; omega

/-- The output array after the region is the head of the eight entry arrays. -/
theorem final9 (c : Dev nD) : (Hand.dat9 (F := Ideal) V c).arrAt 8 cfg9.N
    = Cert.Spec.fusionHead (V c main_arg3) (V c main_arg16) (V c main_v140) (V c main_arg18) (V c main_v141) (V c main_v139) (V c main_arg20) (V c main_v142) :=
  (Hand.dat9 (F := Ideal) V c).arrAt_eq_of_cover 8 _ (fun t _ => flushed9_eq V c t) cover9

end Cert.KernelIdeal.HandValue

end
-- ==== Proof.Br.Row.lean ====
/-
  A vector read as an array with one row.
-/
import Idealize.ShloMosaic.Lib.ValueIdx

noncomputable section

namespace Cert.Bridge

open Idealize.ShloMosaic Idealize.ShloMosaic.ValueIdx

/-- A vector of length `n` read as the `1 × n` array whose only row it is: the entry in column `c` is `x c`. -/
def row {n : Nat} (x : (⟨1, ![n]⟩ : Shape).Idx → EReal) : (⟨2, ![1, n]⟩ : Shape).Idx → EReal :=
  fun j => x (ix1 (j 1))

end Cert.Bridge

end
-- ==== Proof.Br.HostRows.lean ====
/-
  The host stretches of the kernel program that only change an array's shape, read entry by entry.

  Before each group of kernels the program recasts every parameter vector of length n as an array with one row of
  length n; after the last kernel it recasts an array with one column as a vector. A recast keeps the row-major order of
  the entries, so the one-row array holds the vector's entry c in column c, and the vector holds the column's entry r
  at r. Each statement below says what one such buffer holds after its stretch has run, from arbitrary contents before.
-/
import proofs.«171894_j11897059410618_1_alg».proof.Proof.Gen.KernelIdeal.Launch
import proofs.«171894_j11897059410618_1_alg».proof.Proof.Br.Row
import Idealize.ShloMosaic.Lib.StableHlo.Run
import Idealize.ShloMosaic.Lib.Pipeline.Value
import Idealize.ShloMosaic.Lib.ValueLayout
import Idealize.ShloMosaic.Lib.ValueIdx

-- the program's table of references is long: comparing two of them recurses past the default depth
set_option maxRecDepth 1600

noncomputable section

namespace Cert.Bridge

open Idealize.ShloMosaic Idealize.ShloMosaic.ValueIdx Idealize.ShloMosaic.TcCoe Idealize.SL.Sem
open Cert.KernelIdeal Cert.KernelIdeal.Gen

/-! ## A recast that adds or drops a unit axis -/

/-- A vector of length `n` recast as a `1 × n` array is the vector read as one row. -/
theorem shapeCast_row {n : Nat} (x : (⟨1, ![n]⟩ : Shape).Idx → EReal)
    (h : (⟨1, ![n]⟩ : Shape).ShapeCasts ⟨2, ![1, n]⟩) : shapeCast ⟨2, ![1, n]⟩ x h = row x := by
  funext i
  calc shapeCast ⟨2, ![1, n]⟩ x h i = shapeCast ⟨2, ![1, n]⟩ x h (ix2 (i 0) (i 1)) :=
        congrArg (shapeCast ⟨2, ![1, n]⟩ x h) (eq_ix2 i)
    _ = x (ix1 (i 1)) := shapeCast_a_1a_apply x h (i 0) (i 1)

/-- An `[a, 1]` array recast as `[a]` reads, at `i`, the operand at `(i, 0)`: the row-major position of `(i, 0)` is
    `i · 1 + 0 = i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `n × 1` array recast as a vector of length `n` is its one column. -/
theorem shapeCast_col {α : Type} {n : Nat} (x : (⟨2, ![n, 1]⟩ : Shape).Idx → α)
    (h : (⟨2, ![n, 1]⟩ : Shape).ShapeCasts ⟨1, ![n]⟩) :
    shapeCast ⟨1, ![n]⟩ x h = fun i => x (ix2 (i 0) (0 : Fin 1)) := by
  funext i
  calc shapeCast ⟨1, ![n]⟩ x h i = shapeCast ⟨1, ![n]⟩ x h (ix1 (i 0)) :=
        congrArg (shapeCast ⟨1, ![n]⟩ x h) (eq_ix1 i)
    _ = x (ix2 (i 0) (0 : Fin 1)) := shapeCast_a1_a_apply x h (i 0)

/-! ## The parameter vectors as rows, stretch by stretch -/

theorem hostOps1_v45 (W : Valuation Cert.KernelIdeal.τ Cert.KernelIdeal.sig (Elt Ideal)) :
    StableHlo.after (hostOps1 (F := Ideal)) W (Proc.devRef .tc main_v45) = row (W (Proc.devRef .tc main_arg5)) := by
  after_results
  exact shapeCast_row (W (Proc.devRef .tc main_arg5)) shapeCasts_S64_S1x64

theorem hostOps1_v46 (W : Valuation Cert.KernelIdeal.τ Cert.KernelIdeal.sig (Elt Ideal)) :
    StableHlo.after (hostOps1 (F := Ideal)) W (Proc.devRef .tc main_v46) = row (W (Proc.devRef .tc main_arg6)) := by
  after_results
  exact shapeCast_row (W (Proc.devRef .tc main_arg6)) shapeCasts_S64_S1x64

theorem hostOps1_v47 (W : Valuation Cert.KernelIdeal.τ Cert.KernelIdeal.sig (Elt Ideal)) :
    StableHlo.after (hostOps1 (F := Ideal)) W (Proc.devRef .tc main_v47) = row (W (Proc.devRef .tc main_arg7)) := by
  after_results
  exact shapeCast_row (W (Proc.devRef .tc main_arg7)) shapeCasts_S64_S1x64

theorem hostOps4_v84 (W : Valuation Cert.KernelIdeal.τ Cert.KernelIdeal.sig (Elt Ideal)) :
    StableHlo.after (hostOps4 (F := Ideal)) W (Proc.devRef .tc main_v84) = row (W (Proc.devRef .tc main_arg9)) := by
  after_results
  exact shapeCast_row (W (Proc.devRef .tc main_arg9)) shapeCasts_S64_S1x64

theorem hostOps4_v85 (W : Valuation Cert.KernelIdeal.τ Cert.KernelIdeal.sig (Elt Ideal)) :
    StableHlo.after (hostOps4 (F := Ideal)) W (Proc.devRef .tc main_v85) = row (W (Proc.devRef .tc main_arg10)) := by
  after_results
  exact shapeCast_row (W (Proc.devRef .tc main_arg10)) shapeCasts_S64_S1x64

theorem hostOps4_v86 (W : Valuation Cert.KernelIdeal.τ Cert.KernelIdeal.sig (Elt Ideal)) :
    StableHlo.after (hostOps4 (F := Ideal)) W (Proc.devRef .tc main_v86) = row (W (Proc.devRef .tc main_arg11)) := by
  after_results
  exact shapeCast_row (W (Proc.devRef .tc main_arg11)) shapeCasts_S64_S1x64

theorem hostOps7_v123 (W : Valuation Cert.KernelIdeal.τ Cert.KernelIdeal.sig (Elt Ideal)) :
    StableHlo.after (hostOps7 (F := Ideal)) W (Proc.devRef .tc main_v123) = row (W (Proc.devRef .tc main_arg13)) := by
  after_results
  exact shapeCast_row (W (Proc.devRef .tc main_arg13)) shapeCasts_S64_S1x64

theorem hostOps7_v124 (W : Valuation Cert.KernelIdeal.τ Cert.KernelIdeal.sig (Elt Ideal)) :
    StableHlo.after (hostOps7 (F := Ideal)) W (Proc.devRef .tc main_v124) = row (W (Proc.devRef .tc main_arg14)) := by
  after_results
  exact shapeCast_row (W (Proc.devRef .tc main_arg14)) shapeCasts_S64_S1x64

theorem hostOps7_v125 (W : Valuation Cert.KernelIdeal.τ Cert.KernelIdeal.sig (Elt Ideal)) :
    StableHlo.after (hostOps7 (F := Ideal)) W (Proc.devRef .tc main_v125) = row (W (Proc.devRef .tc main_arg15)) := by
  after_results
  exact shapeCast_row (W (Proc.devRef .tc main_arg15)) shapeCasts_S64_S1x64

theorem hostOps9_v140 (W : Valuation Cert.KernelIdeal.τ Cert.KernelIdeal.sig (Elt Ideal)) :
    StableHlo.after (hostOps9 (F := Ideal)) W (Proc.devRef .tc main_v140) = row (W (Proc.devRef .tc main_arg17)) := by
  after_results
  exact shapeCast_row (W (Proc.devRef .tc main_arg17)) shapeCasts_S128_S1x128

theorem hostOps9_v141 (W : Valuation Cert.KernelIdeal.τ Cert.KernelIdeal.sig (Elt Ideal)) :
    StableHlo.after (hostOps9 (F := Ideal)) W (Proc.devRef .tc main_v141) = row (W (Proc.devRef .tc main_arg19)) := by
  after_results
  exact shapeCast_row (W (Proc.devRef .tc main_arg19)) shapeCasts_S64_S1x64

theorem hostOps9_v142 (W : Valuation Cert.KernelIdeal.τ Cert.KernelIdeal.sig (Elt Ideal)) :
    StableHlo.after (hostOps9 (F := Ideal)) W (Proc.devRef .tc main_v142) = row (W (Proc.devRef .tc main_arg21)) := by
  after_results
  exact shapeCast_row (W (Proc.devRef .tc main_arg21)) shapeCasts_S1_S1x1

/-! ## The last stretch: a column read as a vector -/

theorem hostOps10_v144 (W : Valuation Cert.KernelIdeal.τ Cert.KernelIdeal.sig (Elt Ideal)) :
    StableHlo.after (hostOps10 (F := Ideal)) W (Proc.devRef .tc main_v144)
      = fun i => W (Proc.devRef .tc main_v143) (ix2 (i 0) (0 : Fin 1)) := by
  after_results
  exact shapeCast_col (W (Proc.devRef .tc main_v143)) shapeCasts_S256x1_S256

end Cert.Bridge

end
-- ==== Proof.Br.KChain.lean ====
/-
  What the kernel program's buffers hold at the boundaries of its main function, stage by stage.

  The main function alternates host stretches and kernel regions. After a region, each array the region writes holds the
  value its kernel computes from the arrays it read on entry; every other buffer is unchanged. Reading each entry array
  back to the stage that wrote it (an earlier region, a host stretch, or the launch memory) gives the chain below: one
  equation per stage whose output a later stage or the result reads.
-/
import proofs.«171894_j11897059410618_1_alg».proof.Proof.KI.Frame
import proofs.«171894_j11897059410618_1_alg».proof.Proof.KI.Keep
import proofs.«171894_j11897059410618_1_alg».proof.Proof.KV.Lin
import proofs.«171894_j11897059410618_1_alg».proof.Proof.KV.Norm
import proofs.«171894_j11897059410618_1_alg».proof.Proof.KV.Stats
import proofs.«171894_j11897059410618_1_alg».proof.Proof.KV.Fusion
import proofs.«171894_j11897059410618_1_alg».proof.Proof.Br.Row
import proofs.«171894_j11897059410618_1_alg».proof.Proof.Br.HostRows

set_option maxRecDepth 1600

noncomputable section

namespace Cert.Bridge

open Idealize.ShloMosaic Idealize.ShloMosaic.ValueIdx Idealize.ShloMosaic.TcCoe Idealize.SL.Sem
open Cert.KernelIdeal Cert.KernelIdeal.Gen Cert.KernelIdeal.Hand Cert.KernelIdeal.HandValue

variable (m : (ℓ : Loc nD τ sig) → Buf (Elt Ideal) ℓ) (ρ : Dev nD → PrngReg) (c : Dev nD)

/-! ## The three linear regions: a product of the entry array by a weight array from the launch memory -/

/-- After region 0 its output array is the product of the first input by the first weight array. -/
theorem kc1 : B2 m ρ c (Proc.devRef .tc main_v11)
    = Cert.Spec.rowsByCols (M := 50000) (K := 128) (N := 64)
        (m ((c : Thread nD τ).loc main_arg0)) (m ((c : Thread nD τ).loc main_arg4)) := by
  have h : B2 m ρ c (Proc.devRef .tc main_v11)
      = Cert.Spec.rowsByCols (M := 50000) (K := 128) (N := 64)
          (B1 m ρ c (Proc.devRef .tc main_arg0)) (B1 m ρ c (Proc.devRef .tc main_arg4)) :=
    (B2_arr m ρ c 2).trans (final0 (U1 m ρ) c)
  rw [h, B1_main_arg0_of_B0, B1_main_arg4_of_B0]

/-- After region 3 its output array is the product of region 2's output by the second weight array. -/
theorem kc3 : B6 m ρ c (Proc.devRef .tc main_v50)
    = Cert.Spec.rowsByCols (M := 50000) (K := 64) (N := 64)
        (B5 m ρ c (Proc.devRef .tc main_v49)) (m ((c : Thread nD τ).loc main_arg8)) := by
  have h : B6 m ρ c (Proc.devRef .tc main_v50)
      = Cert.Spec.rowsByCols (M := 50000) (K := 64) (N := 64)
          (B5 m ρ c (Proc.devRef .tc main_v49)) (B5 m ρ c (Proc.devRef .tc main_arg8)) :=
    (B6_arr m ρ c 2).trans (final3 (U5 m ρ) c)
  rw [h, B5_main_arg8_of_B0]

/-- After region 6 its output array is the product of region 5's output by the third weight array. -/
theorem kc5 : B10 m ρ c (Proc.devRef .tc main_v89)
    = Cert.Spec.rowsByCols (M := 50000) (K := 64) (N := 64)
        (B9 m ρ c (Proc.devRef .tc main_v88)) (m ((c : Thread nD τ).loc main_arg12)) := by
  have h : B10 m ρ c (Proc.devRef .tc main_v89)
      = Cert.Spec.rowsByCols (M := 50000) (K := 64) (N := 64)
          (B9 m ρ c (Proc.devRef .tc main_v88)) (B9 m ρ c (Proc.devRef .tc main_arg12)) :=
    (B10_arr m ρ c 2).trans (final6 (U9 m ρ) c)
  rw [h, B9_main_arg12_of_B0]

/-! ## Parameter rows: a host stretch recasts a parameter vector, unchanged since the launch, as one row -/

theorem B3_v45 : B3 m ρ c (Proc.devRef .tc main_v45) = row (m ((c : Thread nD τ).loc main_arg5)) :=
  (hostOps1_v45 (B2 m ρ c)).trans (congrArg (row (n := 64)) (B2_main_arg5_of_B0 m ρ c))

theorem B3_v46 : B3 m ρ c (Proc.devRef .tc main_v46) = row (m ((c : Thread nD τ).loc main_arg6)) :=
  (hostOps1_v46 (B2 m ρ c)).trans (congrArg (row (n := 64)) (B2_main_arg6_of_B0 m ρ c))

theorem B3_v47 : B3 m ρ c (Proc.devRef .tc main_v47) = row (m ((c : Thread nD τ).loc main_arg7)) :=
  (hostOps1_v47 (B2 m ρ c)).trans (congrArg (row (n := 64)) (B2_main_arg7_of_B0 m ρ c))

theorem B7_v84 : B7 m ρ c (Proc.devRef .tc main_v84) = row (m ((c : Thread nD τ).loc main_arg9)) :=
  (hostOps4_v84 (B6 m ρ c)).trans (congrArg (row (n := 64)) (B6_main_arg9_of_B0 m ρ c))

theorem B7_v85 : B7 m ρ c (Proc.devRef .tc main_v85) = row (m ((c : Thread nD τ).loc main_arg10)) :=
  (hostOps4_v85 (B6 m ρ c)).trans (congrArg (row (n := 64)) (B6_main_arg10_of_B0 m ρ c))

theorem B7_v86 : B7 m ρ c (Proc.devRef .tc main_v86) = row (m ((c : Thread nD τ).loc main_arg11)) :=
  (hostOps4_v86 (B6 m ρ c)).trans (congrArg (row (n := 64)) (B6_main_arg11_of_B0 m ρ c))

theorem B11_v123 : B11 m ρ c (Proc.devRef .tc main_v123) = row (m ((c : Thread nD τ).loc main_arg13)) :=
  (hostOps7_v123 (B10 m ρ c)).trans (congrArg (row (n := 64)) (B10_main_arg13_of_B0 m ρ c))

theorem B11_v124 : B11 m ρ c (Proc.devRef .tc main_v124) = row (m ((c : Thread nD τ).loc main_arg14)) :=
  (hostOps7_v124 (B10 m ρ c)).trans (congrArg (row (n := 64)) (B10_main_arg14_of_B0 m ρ c))

theorem B11_v125 : B11 m ρ c (Proc.devRef .tc main_v125) = row (m ((c : Thread nD τ).loc main_arg15)) :=
  (hostOps7_v125 (B10 m ρ c)).trans (congrArg (row (n := 64)) (B10_main_arg15_of_B0 m ρ c))

theorem B14_v140 : B14 m ρ c (Proc.devRef .tc main_v140) = row (m ((c : Thread nD τ).loc main_arg17)) :=
  (hostOps9_v140 (B13 m ρ c)).trans (congrArg (row (n := 128)) (B13_main_arg17_of_B0 m ρ c))

theorem B14_v141 : B14 m ρ c (Proc.devRef .tc main_v141) = row (m ((c : Thread nD τ).loc main_arg19)) :=
  (hostOps9_v141 (B13 m ρ c)).trans (congrArg (row (n := 64)) (B13_main_arg19_of_B0 m ρ c))

theorem B14_v142 : B14 m ρ c (Proc.devRef .tc main_v142) = row (m ((c : Thread nD τ).loc main_arg21)) :=
  (hostOps9_v142 (B13 m ρ c)).trans (congrArg (row (n := 1)) (B13_main_arg21_of_B0 m ρ c))

/-! ## Mean and variance rows: what each statistics region leaves in its two output rows -/

theorem B4_v48_0 : B4 m ρ c (Proc.devRef .tc main_v48_0)
    = Cert.Spec.meanRow (B3 m ρ c (Proc.devRef .tc main_v44)) (row (m ((c : Thread nD τ).loc main_arg5))) := by
  have h : B4 m ρ c (Proc.devRef .tc main_v48_0)
      = Cert.Spec.meanRow (B3 m ρ c (Proc.devRef .tc main_v44)) (B3 m ρ c (Proc.devRef .tc main_v45)) :=
    (B4_arr m ρ c 2).trans (final1_mean (U3 m ρ) c)
  rw [h, B3_v45 m ρ c]

theorem B4_v48_1 : B4 m ρ c (Proc.devRef .tc main_v48_1)
    = Cert.Spec.varRow (B3 m ρ c (Proc.devRef .tc main_v44)) (row (m ((c : Thread nD τ).loc main_arg5))) := by
  have h : B4 m ρ c (Proc.devRef .tc main_v48_1)
      = Cert.Spec.varRow (B3 m ρ c (Proc.devRef .tc main_v44)) (B3 m ρ c (Proc.devRef .tc main_v45)) :=
    (B4_arr m ρ c 3).trans (final1_var (U3 m ρ) c)
  rw [h, B3_v45 m ρ c]

theorem B8_v87_0 : B8 m ρ c (Proc.devRef .tc main_v87_0)
    = Cert.Spec.meanRow (B7 m ρ c (Proc.devRef .tc main_v83)) (row (m ((c : Thread nD τ).loc main_arg9))) := by
  have h : B8 m ρ c (Proc.devRef .tc main_v87_0)
      = Cert.Spec.meanRow (B7 m ρ c (Proc.devRef .tc main_v83)) (B7 m ρ c (Proc.devRef .tc main_v84)) :=
    (B8_arr m ρ c 2).trans (final4_mean (U7 m ρ) c)
  rw [h, B7_v84 m ρ c]

theorem B8_v87_1 : B8 m ρ c (Proc.devRef .tc main_v87_1)
    = Cert.Spec.varRow (B7 m ρ c (Proc.devRef .tc main_v83)) (row (m ((c : Thread nD τ).loc main_arg9))) := by
  have h : B8 m ρ c (Proc.devRef .tc main_v87_1)
      = Cert.Spec.varRow (B7 m ρ c (Proc.devRef .tc main_v83)) (B7 m ρ c (Proc.devRef .tc main_v84)) :=
    (B8_arr m ρ c 3).trans (final4_var (U7 m ρ) c)
  rw [h, B7_v84 m ρ c]

theorem B12_v126_0 : B12 m ρ c (Proc.devRef .tc main_v126_0)
    = Cert.Spec.meanRow (B11 m ρ c (Proc.devRef .tc main_v122)) (row (m ((c : Thread nD τ).loc main_arg13))) := by
  have h : B12 m ρ c (Proc.devRef .tc main_v126_0)
      = Cert.Spec.meanRow (B11 m ρ c (Proc.devRef .tc main_v122)) (B11 m ρ c (Proc.devRef .tc main_v123)) :=
    (B12_arr m ρ c 2).trans (final7_mean (U11 m ρ) c)
  rw [h, B11_v123 m ρ c]

theorem B12_v126_1 : B12 m ρ c (Proc.devRef .tc main_v126_1)
    = Cert.Spec.varRow (B11 m ρ c (Proc.devRef .tc main_v122)) (row (m ((c : Thread nD τ).loc main_arg13))) := by
  have h : B12 m ρ c (Proc.devRef .tc main_v126_1)
      = Cert.Spec.varRow (B11 m ρ c (Proc.devRef .tc main_v122)) (B11 m ρ c (Proc.devRef .tc main_v123)) :=
    (B12_arr m ρ c 3).trans (final7_var (U11 m ρ) c)
  rw [h, B11_v123 m ρ c]

/-! ## The three normalisation regions -/

/-- After region 2 its output array is the normalised, rectified array of stretch 1's output, with the mean and variance rows region 1 computed from that same array. -/
theorem kc2 : B5 m ρ c (Proc.devRef .tc main_v49)
    = normRelu (B3 m ρ c (Proc.devRef .tc main_v44)) (row (m ((c : Thread nD τ).loc main_arg5)))
        (Cert.Spec.meanRow (B3 m ρ c (Proc.devRef .tc main_v44)) (row (m ((c : Thread nD τ).loc main_arg5))))
        (Cert.Spec.varRow (B3 m ρ c (Proc.devRef .tc main_v44)) (row (m ((c : Thread nD τ).loc main_arg5))))
        (row (m ((c : Thread nD τ).loc main_arg6))) (row (m ((c : Thread nD τ).loc main_arg7))) := by
  have h : B5 m ρ c (Proc.devRef .tc main_v49)
      = normRelu (B4 m ρ c (Proc.devRef .tc main_v44)) (B4 m ρ c (Proc.devRef .tc main_v45))
          (B4 m ρ c (Proc.devRef .tc main_v48_0)) (B4 m ρ c (Proc.devRef .tc main_v48_1))
          (B4 m ρ c (Proc.devRef .tc main_v46)) (B4 m ρ c (Proc.devRef .tc main_v47)) :=
    (B5_arr m ρ c 6).trans (final2 (U4 m ρ) c)
  rw [h, B4_v48_0 m ρ c, B4_v48_1 m ρ c, B4_main_v44_of_B3, B4_main_v45_of_B3,
    B4_main_v46_of_B3, B4_main_v47_of_B3, B3_v45 m ρ c, B3_v46 m ρ c, B3_v47 m ρ c]

/-- After region 5 its output array is the normalised array of stretch 4's output plus region 2's output, rectified, with the mean and variance rows region 4 computed. -/
theorem kc4 : B9 m ρ c (Proc.devRef .tc main_v88)
    = normAddRelu (B7 m ρ c (Proc.devRef .tc main_v83)) (row (m ((c : Thread nD τ).loc main_arg9)))
        (Cert.Spec.meanRow (B7 m ρ c (Proc.devRef .tc main_v83)) (row (m ((c : Thread nD τ).loc main_arg9))))
        (Cert.Spec.varRow (B7 m ρ c (Proc.devRef .tc main_v83)) (row (m ((c : Thread nD τ).loc main_arg9))))
        (row (m ((c : Thread nD τ).loc main_arg10))) (row (m ((c : Thread nD τ).loc main_arg11))) (B5 m ρ c (Proc.devRef .tc main_v49)) := by
  have h : B9 m ρ c (Proc.devRef .tc main_v88)
      = normAddRelu (B8 m ρ c (Proc.devRef .tc main_v83)) (B8 m ρ c (Proc.devRef .tc main_v84))
          (B8 m ρ c (Proc.devRef .tc main_v87_0)) (B8 m ρ c (Proc.devRef .tc main_v87_1))
          (B8 m ρ c (Proc.devRef .tc main_v85)) (B8 m ρ c (Proc.devRef .tc main_v86)) (B8 m ρ c (Proc.devRef .tc main_v49)) :=
    (B9_arr m ρ c 7).trans (final5 (U8 m ρ) c)
  rw [h, B8_v87_0 m ρ c, B8_v87_1 m ρ c, B8_main_v83_of_B7, B8_main_v84_of_B7,
    B8_main_v85_of_B7, B8_main_v86_of_B7, B8_main_v49_of_B5, B7_v84 m ρ c, B7_v85 m ρ c, B7_v86 m ρ c]

/-- After region 8 its output array is the normalised, rectified array of stretch 7's output, with the mean and variance rows region 7 computed. -/
theorem kc6 : B13 m ρ c (Proc.devRef .tc main_v127)
    = normRelu (B11 m ρ c (Proc.devRef .tc main_v122)) (row (m ((c : Thread nD τ).loc main_arg13)))
        (Cert.Spec.meanRow (B11 m ρ c (Proc.devRef .tc main_v122)) (row (m ((c : Thread nD τ).loc main_arg13))))
        (Cert.Spec.varRow (B11 m ρ c (Proc.devRef .tc main_v122)) (row (m ((c : Thread nD τ).loc main_arg13))))
        (row (m ((c : Thread nD τ).loc main_arg14))) (row (m ((c : Thread nD τ).loc main_arg15))) := by
  have h : B13 m ρ c (Proc.devRef .tc main_v127)
      = normRelu (B12 m ρ c (Proc.devRef .tc main_v122)) (B12 m ρ c (Proc.devRef .tc main_v123))
          (B12 m ρ c (Proc.devRef .tc main_v126_0)) (B12 m ρ c (Proc.devRef .tc main_v126_1))
          (B12 m ρ c (Proc.devRef .tc main_v124)) (B12 m ρ c (Proc.devRef .tc main_v125)) :=
    (B13_arr m ρ c 6).trans (final8 (U12 m ρ) c)
  rw [h, B12_v126_0 m ρ c, B12_v126_1 m ρ c, B12_main_v122_of_B11, B12_main_v123_of_B11,
    B12_main_v124_of_B11, B12_main_v125_of_B11, B11_v123 m ρ c, B11_v124 m ρ c, B11_v125 m ρ c]

/-! ## The last region and the last stretch -/

/-- After region 9 its output array is the fused head of the pooled array stretch 9 left, with weights and biases from
    the launch memory (the three bias vectors recast as rows by stretch 9). -/
theorem kc7 : B15 m ρ c (Proc.devRef .tc main_v143)
    = Cert.Spec.fusionHead (m ((c : Thread nD τ).loc main_arg3)) (m ((c : Thread nD τ).loc main_arg16)) (row (m ((c : Thread nD τ).loc main_arg17))) (m ((c : Thread nD τ).loc main_arg18)) (row (m ((c : Thread nD τ).loc main_arg19)))
        (B14 m ρ c (Proc.devRef .tc main_v139)) (m ((c : Thread nD τ).loc main_arg20)) (row (m ((c : Thread nD τ).loc main_arg21))) := by
  have h : B15 m ρ c (Proc.devRef .tc main_v143)
      = Cert.Spec.fusionHead (B14 m ρ c (Proc.devRef .tc main_arg3)) (B14 m ρ c (Proc.devRef .tc main_arg16))
          (B14 m ρ c (Proc.devRef .tc main_v140)) (B14 m ρ c (Proc.devRef .tc main_arg18)) (B14 m ρ c (Proc.devRef .tc main_v141))
          (B14 m ρ c (Proc.devRef .tc main_v139)) (B14 m ρ c (Proc.devRef .tc main_arg20)) (B14 m ρ c (Proc.devRef .tc main_v142)) :=
    (B15_arr m ρ c 8).trans (final9 (U14 m ρ) c)
  rw [h, B14_main_arg3_of_B0, B14_main_arg16_of_B0, B14_main_arg18_of_B0, B14_main_arg20_of_B0,
    B14_v140 m ρ c, B14_v141 m ρ c, B14_v142 m ρ c]

/-- The last stretch reads region 9's one-column output as a vector. -/
theorem kc8 : B16 m ρ c (Proc.devRef .tc main_v144)
    = fun i => B15 m ρ c (Proc.devRef .tc main_v143) (ix2 (i 0) (0 : Fin 1)) :=
  hostOps10_v144 (B15 m ρ c)

end Cert.Bridge

end
-- ==== Proof.LibRealEntries.lean ====
/-
  Real entries on the extended reals: what a proof needs when the law joining two programs holds on the reals but fails at
  the infinities (distributivity, cancelling, moving a factor across a sum).

  * `AllReal f`: every value of f is a real number.
  * `coe_sum`: the coercion of a finite sum of reals is the sum of the coercions.
  * `sum_mul_real`: a finite sum of products of real entries is a real.
  * `add_mul_real`: (a + b) * c = a * c + b * c for real a, b, c.
  * `allReal_of_reduce`, generic in the array's shape: if the "and" over all axes of the comparisons |v i| < +infinity is 1,
    every entry of v is a real — one array's part of the precondition "every float input is finite". An extended real whose
    absolute value max z (-z) is strictly below the top is neither infinity (both have absolute value top), hence a real.
-/
import Idealize.ShloMosaic.PureOps.Ideal
import Idealize.ShloMosaic.PureOps.Ideal.Laws
import Idealize.ShloMosaic.Lib.ValueIdx
import Idealize.ShloMosaic.Lib.ReduceAll

noncomputable section

namespace Cert.RealEntries

open Idealize.ShloMosaic
open scoped BigOperators

/-! ## Real entries and their arithmetic -/

/-- Every value of `f` is a real number (neither infinity). -/
def AllReal {ι : Type} (f : ι → EReal) : Prop := ∀ i, ∃ r : ℝ, f i = (r : EReal)

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is a real. -/
theorem sum_mul_real {ι : Type} (s : Finset ι) (f g : ι → EReal) (hf : AllReal f) (hg : AllReal g) :
    ∃ r : ℝ, ∑ k ∈ s, f k * g k = (r : EReal) := by
  choose f' hf' using hf
  choose g' hg' using hg
  refine ⟨∑ k ∈ s, f' k * g' k, ?_⟩
  rw [coe_sum]
  exact Finset.sum_congr rfl fun k _ => by rw [hf', hg', EReal.coe_mul]

/-- The distributive law on real entries: it is the reals' own. (On the extended reals it fails at the infinities: for a
    negative real x, (top + bot) * x = top while top * x + bot * x = bot.) -/
theorem add_mul_real {a b c : EReal} (ha : ∃ r : ℝ, a = (r : EReal)) (hb : ∃ r : ℝ, b = (r : EReal))
    (hc : ∃ r : ℝ, c = (r : EReal)) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## From "every entry is finite" to "every entry is a real" -/

/-- The single-precision pattern `0x7F800000` denotes +infinity. -/
theorem ofBits_inf : Ideal.ofBits .f32 0x7F800000#32 = (⊤ : EReal) := by
  simp [Ideal.ofBits, Ideal.ieee]

/-- An extended real whose absolute value `max z (-z)` compares strictly below +infinity is a real:
    both infinities have absolute value `⊤`. -/
theorem real_of_abs_lt_inf (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | coe r => exact ⟨r, rfl⟩
  | top => simp [Ideal.cmp] at h

/-- The scalar shape has exactly one index. -/
instance scalarIdx_subsingleton : Subsingleton (⟨0, ![]⟩ : Shape).Idx :=
  ⟨fun a b => funext fun d => d.elim0⟩

/-- One array's part of the predicate, for any shape: if the "and" over all axes of the comparisons
    `|v i| < +inf` is 1, every entry of `v` is a real. -/
theorem allReal_of_reduce {S T U C : Shape} [Subsingleton T.Idx] {axes : List (Fin S.rank)}
    (hr : S.ReducesTo axes T) (hu : 0 < U.numel) (dims : Fin C.rank → Fin S.rank) (hb : C.BroadcastsInDim S dims)
    (v : FVec Ideal S .f32) (init : IVec U 1) (j : T.Idx)
    (e : Host.reduce IntOp.andi
          (cmpf .olt (Host.absf v) (broadcastInDim S dims hb (constant C .f32 0x7F800000#32))) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact real_of_abs_lt_inf (v i) h1

end Cert.RealEntries

end
-- ==== Proof.KV.RealHost.lean ====
/-
  Real entries through the host stretches of the program at the exact (extended-real) reading of floats.

  Between its regions the program normalises a graph's features: deg = 1 + (number of edges arriving at a node),
  dis = 1 / sqrt deg, and per layer the aggregation
    scatterAdd(zeros, dst, gather(h, src) * (gather(dis, src) * gather(dis, dst))) + h * (dis * dis).
  A law that holds on the reals but fails at the infinities (distributivity, cancelling) can only be applied to these
  arrays once their entries are known to be real. This module shows: dis has real entries (deg is a real at least 1,
  so its inverse square root is a positive real), and each aggregation keeps entries real (products and finite sums of
  reals are real; a gather or a broadcast re-reads entries; an accumulating scatter adds a finite sum of updates).
-/
import proofs.«171894_j11897059410618_1_alg».proof.Proof.Gen.KernelIdeal.Launch
import proofs.«171894_j11897059410618_1_alg».proof.Proof.LibRealEntries
import Idealize.ShloMosaic.Lib.StableHlo.Run
import Idealize.ShloMosaic.Lib.IdealHost
import Idealize.ShloMosaic.PureOps.Ideal.Laws

noncomputable section

open scoped BigOperators

namespace Cert.KernelIdeal.HandValue

open Cert.KernelIdeal Cert.KernelIdeal.Gen Idealize.ShloMosaic Idealize.ShloMosaic.TcCoe Idealize.SL.Sem
open Cert.RealEntries

/-! ## Real entries through the elementwise and index operations

Every operation the host stretches apply either re-reads entries of an array (a gather, a broadcast: the result's entry
is SOME entry of the operand, whatever the index arithmetic), or combines entries by a product, a sum, or a finite sum
(the accumulating scatter: the operand's entry plus the sum of the updates landing on it). Each keeps entries real. -/

/-- Re-indexing a real array gives a real array. -/
theorem allReal_comp {ι κ : Type} {f : ι → EReal} (hf : AllReal f) (g : κ → ι) : AllReal fun k => f (g k) :=
  fun k => hf (g k)

/-- A gather reads entries of its operand: real operand, real result (for any dimension numbers and any indices). -/
theorem allReal_gather {s si t : Shape} {w : Nat} (d : GatherDims s si t) {x : s.Idx → EReal} (idx : IVec si w)
    (hx : AllReal x) : AllReal (Host.gather d x idx) :=
  fun j => hx (d.operandIdx j idx)

/-- A broadcast reads entries of its operand. -/
theorem allReal_bcast {s t : Shape} (dims : Fin s.rank → Fin t.rank) (h : s.BroadcastsInDim t dims) {x : s.Idx → EReal}
    (hx : AllReal x) : AllReal (broadcastInDim t dims h x) :=
  fun _ => hx _

/-- The entrywise product of real arrays is real. -/
theorem allReal_mulf {s : Shape} {x y : FVec Ideal s .f32} (hx : AllReal x) (hy : AllReal y) : AllReal (mulf x y) := by
  intro i
  obtain ⟨a, ha⟩ := hx i
  obtain ⟨b, hb⟩ := hy i
  refine ⟨a * b, ?_⟩
  show x i * y i = _
  rw [ha, hb, EReal.coe_mul]

/-- The entrywise sum of real arrays is real. -/
theorem allReal_addf {s : Shape} {x y : FVec Ideal s .f32} (hx : AllReal x) (hy : AllReal y) : AllReal (addf x y) := by
  intro i
  obtain ⟨a, ha⟩ := hx i
  obtain ⟨b, hb⟩ := hy i
  refine ⟨a + b, ?_⟩
  show x i + y i = _
  rw [ha, hb, EReal.coe_add]

/-- The all-zero array is real. -/
theorem allReal_zeros (s : Shape) : AllReal (constant (F := Ideal) s .f32 0x00000000#32) :=
  fun _ => ⟨0, by show Ideal.ofBits .f32 0x00000000#32 = _; rw [Ideal.ofBits_zero_f32, EReal.coe_zero]⟩

/-- A finite sum of real entries is real. -/
theorem sum_real {ι : Type} (s : Finset ι) {f : ι → EReal} (hf : AllReal f) : ∃ r : ℝ, ∑ k ∈ s, f k = (r : EReal) := by
  choose f' hf' using hf
  refine ⟨∑ k ∈ s, f' k, ?_⟩
  rw [coe_sum]
  exact Finset.sum_congr rfl fun k _ => hf' k

/-- The accumulating scatter of real updates into a real operand is real: each entry is the operand's plus a finite sum
    of updates (for any dimension numbers and any indices). -/
theorem allReal_scatterAdd {s si su : Shape} {w : Nat} (d : ScatterDims s si su) {x : FVec Ideal s .f32} (idx : IVec si w)
    {upd : FVec Ideal su .f32} (hx : AllReal x) (hu : AllReal upd) : AllReal (Host.scatterAdd d x idx upd) := by
  intro i
  obtain ⟨a, ha⟩ := hx i
  obtain ⟨b, hb⟩ := sum_real (Finset.univ.filter fun j => d.resultIdx? j idx = some i) hu
  refine ⟨a + b, ?_⟩
  show x i + ∑ j ∈ Finset.univ.filter (fun j => d.resultIdx? j idx = some i), upd j = _
  rw [ha, hb, EReal.coe_add]

/-! ## The aggregation's composed term

scatterAdd(zeros, dst, gather(h, src) * bcast(gather(dis, a) * gather(dis, b))) + h * bcast(dis * dis), over arbitrary
index arrays: real whenever h and dis are. -/

theorem agg_real {sNC sE1 sEC sN sE sN1 s0 : Shape} {w : Nat}
    (dS : ScatterDims sNC sE1 sEC) (dG : GatherDims sNC sE1 sEC) (dg : GatherDims sN sE1 sE)
    {d0 : Fin s0.rank → Fin sNC.rank} (bz : s0.BroadcastsInDim sNC d0)
    {d1 : Fin sE.rank → Fin sE1.rank} (be1 : sE.BroadcastsInDim sE1 d1)
    {d2 : Fin sE1.rank → Fin sEC.rank} (be2 : sE1.BroadcastsInDim sEC d2)
    {d3 : Fin sN.rank → Fin sN1.rank} (bn1 : sN.BroadcastsInDim sN1 d3)
    {d4 : Fin sN1.rank → Fin sNC.rank} (bn2 : sN1.BroadcastsInDim sNC d4)
    (h : FVec Ideal sNC .f32) (dis : FVec Ideal sN .f32) (iS iG ia ib : IVec sE1 w)
    (hh : AllReal h) (hd : AllReal dis) :
    AllReal (addf
      (Host.scatterAdd dS (broadcastInDim sNC d0 bz (constant s0 .f32 0x00000000#32)) iS
        (mulf (Host.gather dG h iG)
          (broadcastInDim sEC d2 be2 (broadcastInDim sE1 d1 be1 (mulf (Host.gather dg dis ia) (Host.gather dg dis ib))))))
      (mulf h (broadcastInDim sNC d4 bn2 (broadcastInDim sN1 d3 bn1 (mulf dis dis))))) :=
  allReal_addf
    (allReal_scatterAdd dS iS (allReal_bcast d0 bz (allReal_zeros s0))
      (allReal_mulf (allReal_gather dG iG hh)
        (allReal_bcast d2 be2 (allReal_bcast d1 be1 (allReal_mulf (allReal_gather dg ia hd) (allReal_gather dg ib hd))))))
    (allReal_mulf hh (allReal_bcast d4 bn2 (allReal_bcast d3 bn1 (allReal_mulf hd hd))))

/-! ## The scaling vector: the inverse square root of a degree

deg = (0 + the sum of the ones landing on the node) + 1: a natural number plus one, so a real at least 1; the inverse
square root of a positive real is the real (sqrt r)^(-1). -/

/-- The inverse square root of a positive real is a real. -/
theorem rsqrt_real_of_pos {r : ℝ} (h : 0 < r) : ∃ q : ℝ, Ideal.rsqrt (r : EReal) = (q : EReal) :=
  ⟨(Real.sqrt r)⁻¹, by rw [Ideal.rsqrt_coe, if_neg (not_lt.mpr h.le), if_neg h.ne']⟩

/-- rsqrt(scatterAdd(zeros, idx, ones) + ones) has real entries, for any dimension numbers and any indices. -/
theorem deg_rsqrt_real {s si su s0 : Shape} {w : Nat} (d : ScatterDims s si su)
    {d0 : Fin s0.rank → Fin s.rank} (bz : s0.BroadcastsInDim s d0)
    {d1 : Fin s0.rank → Fin su.rank} (bu : s0.BroadcastsInDim su d1) (idx : IVec si w) :
    AllReal (Host.rsqrt (addf
      (Host.scatterAdd d (broadcastInDim s d0 bz (constant (F := Ideal) s0 .f32 0x00000000#32)) idx
        (broadcastInDim su d1 bu (constant s0 .f32 0x3F800000#32)))
      (broadcastInDim s d0 bz (constant s0 .f32 0x3F800000#32)))) := by
  intro i
  show ∃ r : ℝ, Ideal.rsqrt ((Ideal.ofBits .f32 0x00000000#32
      + ∑ j ∈ Finset.univ.filter (fun j => d.resultIdx? j idx = some i), Ideal.ofBits .f32 0x3F800000#32)
      + Ideal.ofBits .f32 0x3F800000#32) = (r : EReal)
  rw [Ideal.ofBits_zero_f32, Ideal.ofBits_one_f32, zero_add]
  have hs : ∑ j ∈ Finset.univ.filter (fun j => d.resultIdx? j idx = some i), (1 : EReal)
      = ((∑ j ∈ Finset.univ.filter (fun j => d.resultIdx? j idx = some i), (1 : ℝ) : ℝ) : EReal) := by
    rw [coe_sum]; simp only [EReal.coe_one]
  rw [hs, ← EReal.coe_one, ← EReal.coe_add]
  exact rsqrt_real_of_pos (add_pos_of_nonneg_of_pos (Finset.sum_nonneg fun _ _ => zero_le_one) one_pos)

set_option maxRecDepth 16384 in
/-- The scaling vector the first stretch leaves has real entries. -/
theorem dis_real (W : Valuation τ sig (Elt Ideal)) :
    AllReal (StableHlo.after (hostOps0 (F := Ideal)) W (Proc.devRef .tc main_v10) : S50000.Idx → EReal) := by
  unfold hostOps0
  after_results_simp
  exact deg_rsqrt_real _ _ _ _

/-! ## The three aggregation stretches

Each stretch's result buffer holds the composed term above, over the stretch's own input buffer and the index vectors
(normalised: a negative index plus the row count), so its entries are real whenever the input's and the scaling
vector's are. -/

set_option maxRecDepth 16384 in
theorem agg1_real (W : Valuation τ sig (Elt Ideal))
    (hh : AllReal (W (Proc.devRef .tc main_v11) : S50000x64.Idx → EReal))
    (hd : AllReal (W (Proc.devRef .tc main_v10) : S50000.Idx → EReal)) :
    AllReal (StableHlo.after (hostOps1 (F := Ideal)) W (Proc.devRef .tc main_v44) : S50000x64.Idx → EReal) := by
  unfold hostOps1
  after_results_simp
  exact agg_real _ _ _ _ _ _ _ _ _ _ _ _ _ _ hh hd

set_option maxRecDepth 16384 in
theorem agg2_real (W : Valuation τ sig (Elt Ideal))
    (hh : AllReal (W (Proc.devRef .tc main_v50) : S50000x64.Idx → EReal))
    (hd : AllReal (W (Proc.devRef .tc main_v10) : S50000.Idx → EReal)) :
    AllReal (StableHlo.after (hostOps4 (F := Ideal)) W (Proc.devRef .tc main_v83) : S50000x64.Idx → EReal) := by
  unfold hostOps4
  after_results_simp
  exact agg_real _ _ _ _ _ _ _ _ _ _ _ _ _ _ hh hd

set_option maxRecDepth 16384 in
theorem agg3_real (W : Valuation τ sig (Elt Ideal))
    (hh : AllReal (W (Proc.devRef .tc main_v89) : S50000x64.Idx → EReal))
    (hd : AllReal (W (Proc.devRef .tc main_v10) : S50000.Idx → EReal)) :
    AllReal (StableHlo.after (hostOps7 (F := Ideal)) W (Proc.devRef .tc main_v122) : S50000x64.Idx → EReal) := by
  unfold hostOps7
  after_results_simp
  exact agg_real _ _ _ _ _ _ _ _ _ _ _ _ _ _ hh hd

end Cert.KernelIdeal.HandValue

end
-- ==== Proof.LibBatchNormMoments.lean ====
/-
  Batch-normalisation moments on the extended reals.

  For a finite family of REAL numbers x (read as extended reals), and a real n ≠ 0 equal to the number of entries,
  the "one-pass" variance   (∑ xᵢ²)/n − ((∑ xᵢ)/n)²   and the "two-pass" variance   (∑ (xᵢ − μ)²)/n,  μ = (∑ xᵢ)/n,
  are the same extended real.  Over ℝ this is the expansion
      ∑ (xᵢ − μ)² = ∑ xᵢ² − 2 μ ∑ xᵢ + n μ²   with   ∑ xᵢ = n μ ;
  it uses distributivity, which fails at ±∞, so the entries must be real: with an infinite entry the two forms differ
  (⊤ − ⊤ = ⊥ on one side, a square on the other).  Division is the extended reals' division by a nonzero real,
  which is multiplication by the real reciprocal.
-/
import Mathlib
import Idealize.ShloMosaic.PureOps.Ideal

noncomputable section

namespace Cert.Lib.BatchNormMoments

open Idealize.ShloMosaic

/-- The coercion of reals into the extended reals commutes with a finite sum. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Over the reals: the second moment minus the squared mean is the mean of the squared deviations from the mean. -/
theorem real_variance_two_forms {ι : Type*} [Fintype ι] (x : ι → ℝ) (n : ℝ) (hn : n ≠ 0)
    (hcard : (Fintype.card ι : ℝ) = n) :
    (∑ i, x i * x i) * (1 / n) - ((∑ i, x i) * (1 / n)) * ((∑ i, x i) * (1 / n))
      = (∑ i, (x i - (∑ j, x j) * (1 / n)) * (x i - (∑ j, x j) * (1 / n))) * (1 / n) := by
  generalize hS : (∑ i, x i) = S
  have hexp : ∀ i, (x i - S * (1 / n)) * (x i - S * (1 / n))
      = x i * x i - (2 * (S * (1 / n))) * x i + (S * (1 / n)) * (S * (1 / n)) := fun i => by ring
  have hsum : (∑ i, (x i - S * (1 / n)) * (x i - S * (1 / n)))
      = (∑ i, x i * x i) - (2 * (S * (1 / n))) * S + n * ((S * (1 / n)) * (S * (1 / n))) := by
    simp only [hexp, Finset.sum_add_distrib, Finset.sum_sub_distrib, ← Finset.mul_sum, hS, Finset.sum_const,
      Finset.card_univ, nsmul_eq_mul, hcard]
    ring
  rw [hsum]
  field_simp
  ring

/-- On the extended reals, for REAL entries: the one-pass variance (second moment minus squared mean) is the two-pass
    variance (mean of squared deviations), every quotient the division by the real n ≠ 0 that counts the entries. -/
theorem variance_two_forms {ι : Type*} [Fintype ι] (x : ι → ℝ) (n : ℝ) (hn : n ≠ 0)
    (hcard : (Fintype.card ι : ℝ) = n) :
    Ideal.div (∑ i, ((x i : ℝ) : EReal) * ((x i : ℝ) : EReal)) (n : EReal)
        - Ideal.div (∑ i, ((x i : ℝ) : EReal)) (n : EReal) * Ideal.div (∑ i, ((x i : ℝ) : EReal)) (n : EReal)
      = Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) := by
  simp only [Ideal.div_coe hn, ← coe_finset_sum, ← EReal.coe_mul, ← EReal.coe_sub]
  exact congrArg _ (real_variance_two_forms x n hn hcard)

/-- The mean of real entries is real: the quotient of their sum by a nonzero real. -/
theorem mean_coe {ι : Type*} [Fintype ι] (x : ι → ℝ) (n : ℝ) (hn : n ≠ 0) :
    Ideal.div (∑ i, ((x i : ℝ) : EReal)) (n : EReal) = (((∑ i, x i) * (1 / n) : ℝ) : EReal) := by
  rw [Ideal.div_coe hn, ← coe_finset_sum, ← EReal.coe_mul]

/-- The two-pass variance of real entries is a NONNEGATIVE real: a sum of squares over a positive count. -/
theorem variance_coe_nonneg {ι : Type*} [Fintype ι] (x : ι → ℝ) (n : ℝ) (hn : 0 < n) :
    ∃ v : ℝ, 0 ≤ v ∧
      Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) = ((v : ℝ) : EReal) := by
  refine ⟨(∑ i, (x i - (∑ j, x j) * (1 / n)) * (x i - (∑ j, x j) * (1 / n))) * (1 / n), ?_, ?_⟩
  · exact mul_nonneg (Finset.sum_nonneg fun i _ => mul_self_nonneg _) (by positivity)
  · simp only [Ideal.div_coe hn.ne', ← coe_finset_sum, ← EReal.coe_mul, ← EReal.coe_sub]

end Cert.Lib.BatchNormMoments

end
-- ==== Proof.Br.BnGlue.lean ====
/-
  Batch-normalisation statistics: the one-pass form against the two-pass form.

  The kernel accumulates, per column, the sum and the sum of squares of the 50000 entries x = A + b and forms
  mean = (∑ x)·(1/50000) and variance = (∑ x²)·(1/50000) − mean². The reference divides the column sum by 50000 for the
  mean and averages the squared deviations from that mean for the variance. A product with the real 1/50000 is the
  extended reals' division by 50000, so the means agree for all entries; the variances agree when the entries are real
  numbers (the expansion of the square uses distributivity, which fails at an infinity). For real entries the mean is
  real and the variance a nonnegative real.
-/
import proofs.«171894_j11897059410618_1_alg».proof.Proof.KV.StatsSpec
import proofs.«171894_j11897059410618_1_alg».proof.Proof.LibBatchNormMoments
import proofs.«171894_j11897059410618_1_alg».proof.Proof.LibRealEntries

noncomputable section

namespace Cert.Bridge

open Idealize.ShloMosaic Idealize.ShloMosaic.ValueIdx Cert.Spec Cert.RealEntries

/-- The column mean as a quotient: the sum of the column's entries x = A + b divided by their number. -/
def meanRowQ (A : (⟨2, ![50000, 64]⟩ : Shape).Idx → EReal) (b : (⟨2, ![1, 64]⟩ : Shape).Idx → EReal) :
    (⟨2, ![1, 64]⟩ : Shape).Idx → EReal :=
  fun j => Ideal.div (∑ r : Fin 50000, (A (ix2 r (j 1 : Fin 64)) + b (ix2 (0 : Fin 1) (j 1 : Fin 64)))) ((50000 : ℝ) : EReal)

/-- The column variance as the mean of the squared deviations from the column mean. -/
def varRowQ (A : (⟨2, ![50000, 64]⟩ : Shape).Idx → EReal) (b : (⟨2, ![1, 64]⟩ : Shape).Idx → EReal) :
    (⟨2, ![1, 64]⟩ : Shape).Idx → EReal :=
  fun j => Ideal.div (∑ r : Fin 50000,
      ((A (ix2 r (j 1 : Fin 64)) + b (ix2 (0 : Fin 1) (j 1 : Fin 64))) - meanRowQ A b j)
        * ((A (ix2 r (j 1 : Fin 64)) + b (ix2 (0 : Fin 1) (j 1 : Fin 64))) - meanRowQ A b j)) ((50000 : ℝ) : EReal)

theorem fifty_ne : (50000 : ℝ) ≠ 0 := by norm_num

/-- The product with 1/50000 is the quotient by 50000, for every extended real. -/
theorem meanRow_eq (A : (⟨2, ![50000, 64]⟩ : Shape).Idx → EReal) (b : (⟨2, ![1, 64]⟩ : Shape).Idx → EReal) :
    meanRow A b = meanRowQ A b := by
  funext j
  simp only [meanRow, meanRowQ, Ideal.div_coe fifty_ne]

/-- For real entries the second moment minus the squared mean is the mean squared deviation. -/
theorem varRow_eq (A : (⟨2, ![50000, 64]⟩ : Shape).Idx → EReal) (b : (⟨2, ![1, 64]⟩ : Shape).Idx → EReal)
    (hA : AllReal A) (hb : AllReal b) : varRow A b = varRowQ A b := by
  funext j
  choose a ha using hA
  choose β hβ using hb
  have hx : ∀ r : Fin 50000, A (ix2 r (j 1 : Fin 64)) + b (ix2 (0 : Fin 1) (j 1 : Fin 64))
      = (((a (ix2 r (j 1 : Fin 64)) + β (ix2 (0 : Fin 1) (j 1 : Fin 64)) : ℝ)) : EReal) := fun r => by
    rw [ha, hβ, EReal.coe_add]
  simp only [varRow, sqMeanRow, meanRow, varRowQ, meanRowQ, hx, ← Ideal.div_coe fifty_ne]
  exact Cert.Lib.BatchNormMoments.variance_two_forms
    (fun r : Fin 50000 => a (ix2 r (j 1 : Fin 64)) + β (ix2 (0 : Fin 1) (j 1 : Fin 64))) 50000 fifty_ne (by simp)

/-- The mean of real entries is real. -/
theorem meanRow_real (A : (⟨2, ![50000, 64]⟩ : Shape).Idx → EReal) (b : (⟨2, ![1, 64]⟩ : Shape).Idx → EReal)
    (hA : AllReal A) (hb : AllReal b) : AllReal (meanRow A b) := by
  intro j
  choose a ha using hA
  choose β hβ using hb
  have hx : ∀ r : Fin 50000, A (ix2 r (j 1 : Fin 64)) + b (ix2 (0 : Fin 1) (j 1 : Fin 64))
      = (((a (ix2 r (j 1 : Fin 64)) + β (ix2 (0 : Fin 1) (j 1 : Fin 64)) : ℝ)) : EReal) := fun r => by
    rw [ha, hβ, EReal.coe_add]
  refine ⟨(∑ r : Fin 50000, (a (ix2 r (j 1 : Fin 64)) + β (ix2 (0 : Fin 1) (j 1 : Fin 64)))) * (1 / 50000), ?_⟩
  simp only [meanRow, hx, ← Cert.Lib.BatchNormMoments.coe_finset_sum, ← EReal.coe_mul]

/-- The variance of real entries is a nonnegative real. -/
theorem varRow_real_nonneg (A : (⟨2, ![50000, 64]⟩ : Shape).Idx → EReal) (b : (⟨2, ![1, 64]⟩ : Shape).Idx → EReal)
    (hA : AllReal A) (hb : AllReal b) (j : (⟨2, ![1, 64]⟩ : Shape).Idx) : ∃ v : ℝ, 0 ≤ v ∧ varRow A b j = ((v : ℝ) : EReal) := by
  rw [varRow_eq A b hA hb]
  choose a ha using hA
  choose β hβ using hb
  have hx : ∀ r : Fin 50000, A (ix2 r (j 1 : Fin 64)) + b (ix2 (0 : Fin 1) (j 1 : Fin 64))
      = (((a (ix2 r (j 1 : Fin 64)) + β (ix2 (0 : Fin 1) (j 1 : Fin 64)) : ℝ)) : EReal) := fun r => by
    rw [ha, hβ, EReal.coe_add]
  simp only [varRowQ, meanRowQ, hx]
  exact Cert.Lib.BatchNormMoments.variance_coe_nonneg
    (fun r : Fin 50000 => a (ix2 r (j 1 : Fin 64)) + β (ix2 (0 : Fin 1) (j 1 : Fin 64))) 50000 (by norm_num)

end Cert.Bridge

end
-- ==== Proof.Br.NormGlue.lean ====
import proofs.«171894_j11897059410618_1_alg».proof.Proof.KV.Norm
import proofs.«171894_j11897059410618_1_alg».proof.Proof.Br.BnGlue
import proofs.«171894_j11897059410618_1_alg».proof.Proof.Br.Row
import proofs.«171894_j11897059410618_1_alg».proof.Proof.LibRealEntries

/-! # Normalising with one-pass column statistics is batch normalisation

`refBnRelu A b g be` is batch normalisation over the 50000 rows of `x = A + b` (the vector `b` added to every row),
scaled by `g`, shifted by `be` and clamped at zero, index by index: the column mean is the column sum divided by
50000, the column variance the mean of the squared deviations from it. `normRelu` takes the mean and variance rows as
arguments; fed the one-pass statistics `meanRow` and `varRow` (sum and sum of squares times the real `1 / 50000`) of
real arrays it is `refBnRelu` (`norm_glue`): the means agree for all entries, the variances for real ones, where the
square expands. For real arrays the result is real (`refBnRelu_real`): the variance is a nonnegative real and `eps` a
positive real, so the reciprocal square root is taken of a positive real. `refBnAddRelu`, `normAdd_glue` and
`refBnAddRelu_real` are the same with a residual array added before the clamp. -/

noncomputable section

namespace Cert.Bridge

open Idealize.ShloMosaic Idealize.ShloMosaic.ValueIdx Cert.Spec Cert.RealEntries Cert.KernelIdeal.HandValue
open scoped BigOperators

/-! ## The reference's formula -/

/-- The mean of column `q` of `A` shifted by `b`: the sum over the 50000 rows of `A(r, q) + b q`, divided by 50000. -/
def colMean (A : (⟨2, ![50000, 64]⟩ : Shape).Idx → EReal) (b : (⟨1, ![64]⟩ : Shape).Idx → EReal) (q : Fin 64) : EReal :=
  Ideal.div (∑ r : Fin 50000, (A (ix2 r q) + b (ix1 q))) ((50000 : ℝ) : EReal)

/-- The (biased) variance of that column: the sum of the squared deviations from its mean, divided by 50000. -/
def colVar (A : (⟨2, ![50000, 64]⟩ : Shape).Idx → EReal) (b : (⟨1, ![64]⟩ : Shape).Idx → EReal) (q : Fin 64) : EReal :=
  Ideal.div (∑ r : Fin 50000, ((A (ix2 r q) + b (ix1 q)) - colMean A b q) * ((A (ix2 r q) + b (ix1 q)) - colMean A b q))
    ((50000 : ℝ) : EReal)

/-- Batch normalisation over the rows followed by a clamp at zero, index by index: with `q` the column of `i` and
    `x = A i + b q`, `max (((x - mean) * rsqrt (variance + eps)) * g q + be q) 0`, mean and variance those of column `q`. -/
def refBnRelu (A : (⟨2, ![50000, 64]⟩ : Shape).Idx → EReal) (b g be : (⟨1, ![64]⟩ : Shape).Idx → EReal) :
    (⟨2, ![50000, 64]⟩ : Shape).Idx → EReal := fun i =>
  max ((((A i + b (ix1 (i 1 : Fin 64))) - colMean A b (i 1 : Fin 64)) * Ideal.rsqrt (colVar A b (i 1 : Fin 64) + eps))
    * g (ix1 (i 1 : Fin 64)) + be (ix1 (i 1 : Fin 64))) 0

/-- The same with the entry of a second array `R` added before the clamp. -/
def refBnAddRelu (A : (⟨2, ![50000, 64]⟩ : Shape).Idx → EReal) (b g be : (⟨1, ![64]⟩ : Shape).Idx → EReal)
    (R : (⟨2, ![50000, 64]⟩ : Shape).Idx → EReal) : (⟨2, ![50000, 64]⟩ : Shape).Idx → EReal := fun i =>
  max (((((A i + b (ix1 (i 1 : Fin 64))) - colMean A b (i 1 : Fin 64)) * Ideal.rsqrt (colVar A b (i 1 : Fin 64) + eps))
    * g (ix1 (i 1 : Fin 64)) + be (ix1 (i 1 : Fin 64))) + R i) 0

/-- The formula at explicit coordinates. -/
theorem refBnRelu_ix2 (A : (⟨2, ![50000, 64]⟩ : Shape).Idx → EReal) (b g be : (⟨1, ![64]⟩ : Shape).Idx → EReal)
    (r : Fin 50000) (q : Fin 64) : refBnRelu A b g be (ix2 r q)
      = max ((((A (ix2 r q) + b (ix1 q)) - colMean A b q) * Ideal.rsqrt (colVar A b q + eps)) * g (ix1 q) + be (ix1 q)) 0 := rfl

theorem refBnAddRelu_ix2 (A : (⟨2, ![50000, 64]⟩ : Shape).Idx → EReal) (b g be : (⟨1, ![64]⟩ : Shape).Idx → EReal)
    (R : (⟨2, ![50000, 64]⟩ : Shape).Idx → EReal) (r : Fin 50000) (q : Fin 64) : refBnAddRelu A b g be R (ix2 r q)
      = max (((((A (ix2 r q) + b (ix1 q)) - colMean A b q) * Ideal.rsqrt (colVar A b q + eps)) * g (ix1 q) + be (ix1 q)) + R (ix2 r q)) 0 := rfl

/-! ## The one-pass statistics are the reference's -/

/-- A row of real entries. -/
theorem row_real {x : (⟨1, ![64]⟩ : Shape).Idx → EReal} (hx : AllReal x) : AllReal (row x) := fun j => hx _

/-- The one-pass column mean of the row `row b`, read at column `q`, is the quotient form. -/
theorem meanRow_row (A : (⟨2, ![50000, 64]⟩ : Shape).Idx → EReal) (b : (⟨1, ![64]⟩ : Shape).Idx → EReal) (q : Fin 64) :
    meanRow A (row b) (ix2 (0 : Fin 1) q) = colMean A b q :=
  congrFun (meanRow_eq A (row b)) (ix2 (0 : Fin 1) q)

/-- For real entries the one-pass column variance, read at column `q`, is the mean squared deviation. -/
theorem varRow_row (A : (⟨2, ![50000, 64]⟩ : Shape).Idx → EReal) (b : (⟨1, ![64]⟩ : Shape).Idx → EReal)
    (hA : AllReal A) (hb : AllReal b) (q : Fin 64) : varRow A (row b) (ix2 (0 : Fin 1) q) = colVar A b q :=
  congrFun (varRow_eq A (row b) hA (row_real hb)) (ix2 (0 : Fin 1) q)

/-- Normalising with the one-pass statistics of real entries is the reference's batch normalisation. -/
theorem norm_glue (A : (⟨2, ![50000, 64]⟩ : Shape).Idx → EReal) (b g be : (⟨1, ![64]⟩ : Shape).Idx → EReal)
    (hA : AllReal A) (hb : AllReal b) :
    normRelu A (row b) (meanRow A (row b)) (varRow A (row b)) (row g) (row be) = refBnRelu A b g be := by
  funext i
  show max ((((A i + row b (ix2 (0 : Fin 1) (i 1))) - meanRow A (row b) (ix2 (0 : Fin 1) (i 1)))
      * Ideal.rsqrt (varRow A (row b) (ix2 (0 : Fin 1) (i 1)) + eps)) * row g (ix2 (0 : Fin 1) (i 1)) + row be (ix2 (0 : Fin 1) (i 1))) 0 = _
  have hm : meanRow A (row b) (ix2 (0 : Fin 1) (i 1)) = colMean A b (i 1) := meanRow_row A b (i 1)
  have hv : varRow A (row b) (ix2 (0 : Fin 1) (i 1)) = colVar A b (i 1) := varRow_row A b hA hb (i 1)
  rw [hm, hv]
  rfl

/-- The same with a residual array added before the clamp. -/
theorem normAdd_glue (A : (⟨2, ![50000, 64]⟩ : Shape).Idx → EReal) (b g be : (⟨1, ![64]⟩ : Shape).Idx → EReal)
    (R : (⟨2, ![50000, 64]⟩ : Shape).Idx → EReal) (hA : AllReal A) (hb : AllReal b) :
    normAddRelu A (row b) (meanRow A (row b)) (varRow A (row b)) (row g) (row be) R = refBnAddRelu A b g be R := by
  funext i
  show max (((((A i + row b (ix2 (0 : Fin 1) (i 1))) - meanRow A (row b) (ix2 (0 : Fin 1) (i 1)))
      * Ideal.rsqrt (varRow A (row b) (ix2 (0 : Fin 1) (i 1)) + eps)) * row g (ix2 (0 : Fin 1) (i 1)) + row be (ix2 (0 : Fin 1) (i 1))) + R i) 0 = _
  have hm : meanRow A (row b) (ix2 (0 : Fin 1) (i 1)) = colMean A b (i 1) := meanRow_row A b (i 1)
  have hv : varRow A (row b) (ix2 (0 : Fin 1) (i 1)) = colVar A b (i 1) := varRow_row A b hA hb (i 1)
  rw [hm, hv]
  rfl

/-! ## The result is real -/

/-- The body's constant denotes a positive real, `10995116 · 2⁻⁴⁰`. -/
theorem eps_eq : eps = (((10995116 : ℝ) * (2 : ℝ) ^ (-40 : ℤ) : ℝ) : EReal) := by
  simp [Ideal.ofBits, Ideal.ieee, -EReal.coe_mul]

theorem eps_pos : ∃ e : ℝ, 0 < e ∧ eps = ((e : ℝ) : EReal) :=
  ⟨(10995116 : ℝ) * (2 : ℝ) ^ (-40 : ℤ), by positivity, eps_eq⟩

/-- The reciprocal square root of a positive real is the real `(√r)⁻¹`. -/
theorem rsqrt_pos (r : ℝ) (h : 0 < r) : Ideal.rsqrt ((r : ℝ) : EReal) = (((Real.sqrt r)⁻¹ : ℝ) : EReal) := by
  have e : Ideal.rsqrt ((r : ℝ) : EReal) = if r < 0 then ⊥ else if r = 0 then ⊤ else (((Real.sqrt r)⁻¹ : ℝ) : EReal) := rfl
  rw [e, if_neg (not_lt.mpr h.le), if_neg h.ne']

/-- The maximum of two reals, read in the extended reals. -/
theorem coe_max (x y : ℝ) : max ((x : ℝ) : EReal) ((y : ℝ) : EReal) = ((max x y : ℝ) : EReal) :=
  (EReal.coe_strictMono.monotone.map_max).symm

/-- The normalised entry is real when its parts are: a real `x`, a real mean, a nonnegative real variance, real
    scale and shift. -/
theorem normEntry_real {x m v gq bq : EReal} (hx : ∃ r : ℝ, x = (r : EReal)) (hm : ∃ r : ℝ, m = (r : EReal))
    (hv : ∃ r : ℝ, 0 ≤ r ∧ v = (r : EReal)) (hg : ∃ r : ℝ, gq = (r : EReal)) (hb : ∃ r : ℝ, bq = (r : EReal)) :
    ∃ r : ℝ, ((x - m) * Ideal.rsqrt (v + eps)) * gq + bq = (r : EReal) := by
  obtain ⟨x, rfl⟩ := hx
  obtain ⟨m, rfl⟩ := hm
  obtain ⟨v, hv0, rfl⟩ := hv
  obtain ⟨g, rfl⟩ := hg
  obtain ⟨b, rfl⟩ := hb
  obtain ⟨e, he0, he⟩ := eps_pos
  refine ⟨((x - m) * (Real.sqrt (v + e))⁻¹) * g + b, ?_⟩
  rw [he, ← EReal.coe_add, rsqrt_pos (v + e) (by positivity), ← EReal.coe_sub, ← EReal.coe_mul, ← EReal.coe_mul, ← EReal.coe_add]

/-- The mean of a column of real entries is real. -/
theorem colMean_real (A : (⟨2, ![50000, 64]⟩ : Shape).Idx → EReal) (b : (⟨1, ![64]⟩ : Shape).Idx → EReal)
    (hA : AllReal A) (hb : AllReal b) (q : Fin 64) : ∃ r : ℝ, colMean A b q = (r : EReal) := by
  rw [← meanRow_row]
  exact meanRow_real A (row b) hA (row_real hb) _

/-- The variance of a column of real entries is a nonnegative real. -/
theorem colVar_real_nonneg (A : (⟨2, ![50000, 64]⟩ : Shape).Idx → EReal) (b : (⟨1, ![64]⟩ : Shape).Idx → EReal)
    (hA : AllReal A) (hb : AllReal b) (q : Fin 64) : ∃ r : ℝ, 0 ≤ r ∧ colVar A b q = (r : EReal) := by
  rw [← varRow_row A b hA hb]
  exact varRow_real_nonneg A (row b) hA (row_real hb) _

/-- Batch normalisation of real arrays, clamped at zero, is real. -/
theorem refBnRelu_real (A : (⟨2, ![50000, 64]⟩ : Shape).Idx → EReal) (b g be : (⟨1, ![64]⟩ : Shape).Idx → EReal)
    (hA : AllReal A) (hb : AllReal b) (hg : AllReal g) (hbe : AllReal be) : AllReal (refBnRelu A b g be) := by
  intro i
  obtain ⟨a, ha⟩ := hA i
  obtain ⟨β, hβ⟩ := hb (ix1 (i 1 : Fin 64))
  obtain ⟨y, hy⟩ := normEntry_real (x := A i + b (ix1 (i 1 : Fin 64))) ⟨a + β, by rw [ha, hβ, EReal.coe_add]⟩
    (colMean_real A b hA hb (i 1 : Fin 64)) (colVar_real_nonneg A b hA hb (i 1 : Fin 64)) (hg (ix1 (i 1 : Fin 64))) (hbe (ix1 (i 1 : Fin 64)))
  refine ⟨max y 0, ?_⟩
  show max ((((A i + b (ix1 (i 1 : Fin 64))) - colMean A b (i 1 : Fin 64)) * Ideal.rsqrt (colVar A b (i 1 : Fin 64) + eps))
    * g (ix1 (i 1 : Fin 64)) + be (ix1 (i 1 : Fin 64))) 0 = _
  rw [hy, ← EReal.coe_zero, coe_max]

/-- The same with a real residual array added before the clamp. -/
theorem refBnAddRelu_real (A : (⟨2, ![50000, 64]⟩ : Shape).Idx → EReal) (b g be : (⟨1, ![64]⟩ : Shape).Idx → EReal)
    (R : (⟨2, ![50000, 64]⟩ : Shape).Idx → EReal)
    (hA : AllReal A) (hb : AllReal b) (hg : AllReal g) (hbe : AllReal be) (hR : AllReal R) : AllReal (refBnAddRelu A b g be R) := by
  intro i
  obtain ⟨a, ha⟩ := hA i
  obtain ⟨β, hβ⟩ := hb (ix1 (i 1 : Fin 64))
  obtain ⟨ρ, hρ⟩ := hR i
  obtain ⟨y, hy⟩ := normEntry_real (x := A i + b (ix1 (i 1 : Fin 64))) ⟨a + β, by rw [ha, hβ, EReal.coe_add]⟩
    (colMean_real A b hA hb (i 1 : Fin 64)) (colVar_real_nonneg A b hA hb (i 1 : Fin 64)) (hg (ix1 (i 1 : Fin 64))) (hbe (ix1 (i 1 : Fin 64)))
  refine ⟨max (y + ρ) 0, ?_⟩
  show max (((((A i + b (ix1 (i 1 : Fin 64))) - colMean A b (i 1 : Fin 64)) * Ideal.rsqrt (colVar A b (i 1 : Fin 64) + eps))
    * g (ix1 (i 1 : Fin 64)) + be (ix1 (i 1 : Fin 64))) + R i) 0 = _
  rw [hy, hρ, ← EReal.coe_add, ← EReal.coe_zero, coe_max]

end Cert.Bridge

end
-- ==== Proof.Br.ProdReal.lean ====
/-
  A rows-by-columns product of two arrays with real entries has real entries: each entry is a finite sum of products of
  reals.
-/
import proofs.«171894_j11897059410618_1_alg».proof.Proof.LibMatProd
import proofs.«171894_j11897059410618_1_alg».proof.Proof.LibRealEntries

noncomputable section

open scoped BigOperators

namespace Cert.Bridge

open Idealize.ShloMosaic Idealize.ShloMosaic.ValueIdx Cert.RealEntries

/-- If every entry of `A` and of `B` is a real number, so is every entry of their product: at (r, c) it is the sum
    over k of A(r, k) · B(k, c), a finite sum of products of reals. -/
theorem rowsByCols_real {M K N : Nat} (A : (⟨2, ![M, K]⟩ : Shape).Idx → EReal) (B : (⟨2, ![K, N]⟩ : Shape).Idx → EReal)
    (hA : AllReal A) (hB : AllReal B) : AllReal (Cert.Spec.rowsByCols A B) := by
  intro j
  unfold Cert.Spec.rowsByCols
  exact sum_mul_real Finset.univ (fun k : Fin K => A (ix2 (j 0) k)) (fun k : Fin K => B (ix2 k (j 1)))
    (fun k => hA _) (fun k => hB _)

end Cert.Bridge

end
-- ==== Proof.Br.KStages.lean ====
/-
  Real entries along the stages of the network, and each normalisation stage as the reference's formula.

  The network alternates three kinds of stage: a product of the current array by a weight array; an aggregation that mixes
  each row with its neighbours' rows, weighted by a scaling vector (the inverse square roots of one plus the in-degrees);
  and a batch normalisation over the rows followed by a clamp at zero (the second one adding a residual array first).
  A product of arrays with real entries has real entries; the scaling vector is real (a degree is at least one); an
  aggregation of a real array with a real scaling vector is real. On a real array the one-pass variance (mean of squares
  less square of the mean) is the two-pass one the reference computes, so a normalisation stage with the one-pass
  statistics IS the reference's formula, and its entries are real again (the variance plus the positive constant is a
  positive real, so its inverse square root is real). Chaining these from the argument arrays gives, stage by stage,
  that every intermediate array is real and every normalisation stage equals the reference's formula.
-/
import proofs.«171894_j11897059410618_1_alg».proof.Proof.KI.Frame
import proofs.«171894_j11897059410618_1_alg».proof.Proof.KI.Keep
import proofs.«171894_j11897059410618_1_alg».proof.Proof.KV.RealHost
import proofs.«171894_j11897059410618_1_alg».proof.Proof.Br.NormGlue
import proofs.«171894_j11897059410618_1_alg».proof.Proof.Br.ProdReal
import proofs.«171894_j11897059410618_1_alg».proof.Proof.Br.KChain

set_option maxRecDepth 16384

noncomputable section

namespace Cert.Bridge

open Idealize.ShloMosaic Idealize.ShloMosaic.ValueIdx Idealize.ShloMosaic.TcCoe Idealize.SL.Sem
open Cert.KernelIdeal Cert.KernelIdeal.Gen Cert.KernelIdeal.Hand Cert.KernelIdeal.HandValue
open Cert.Spec Cert.RealEntries

variable (m : (ℓ : Loc nD τ sig) → Buf (Elt Ideal) ℓ) (ρ : Dev nD → PrngReg) (c : Dev nD)

/-! # Real entries along the kernel program's stages, and each normalisation stage as the reference's formula

Stage by stage from the launch memory: the scaling vector is real; a product of real arrays is real; an aggregation of a
real array with the real scaling vector is real; the one-pass mean and variance of a real array are the reference's, so
the normalisation stage is the reference's formula, whose entries are again real. -/

/-- The argument arrays the stages read, as functions of their indices. -/
abbrev a0 : S50000x128.Idx → EReal := m ((c : Thread nD τ).loc main_arg0)
abbrev a4 : S128x64.Idx → EReal := m ((c : Thread nD τ).loc main_arg4)
abbrev a5 : S64.Idx → EReal := m ((c : Thread nD τ).loc main_arg5)
abbrev a6 : S64.Idx → EReal := m ((c : Thread nD τ).loc main_arg6)
abbrev a7 : S64.Idx → EReal := m ((c : Thread nD τ).loc main_arg7)
abbrev a8 : S64x64.Idx → EReal := m ((c : Thread nD τ).loc main_arg8)
abbrev a9 : S64.Idx → EReal := m ((c : Thread nD τ).loc main_arg9)
abbrev a10 : S64.Idx → EReal := m ((c : Thread nD τ).loc main_arg10)
abbrev a11 : S64.Idx → EReal := m ((c : Thread nD τ).loc main_arg11)
abbrev a12 : S64x64.Idx → EReal := m ((c : Thread nD τ).loc main_arg12)
abbrev a13 : S64.Idx → EReal := m ((c : Thread nD τ).loc main_arg13)
abbrev a14 : S64.Idx → EReal := m ((c : Thread nD τ).loc main_arg14)
abbrev a15 : S64.Idx → EReal := m ((c : Thread nD τ).loc main_arg15)

/-- The boundary contents the stages pass on, as functions of their indices. -/
abbrev dis : S50000.Idx → EReal := B1 m ρ c (Proc.devRef .tc main_v10)
abbrev h1 : S50000x64.Idx → EReal := B2 m ρ c (Proc.devRef .tc main_v11)
abbrev A1 : S50000x64.Idx → EReal := B3 m ρ c (Proc.devRef .tc main_v44)
abbrev x1 : S50000x64.Idx → EReal := B5 m ρ c (Proc.devRef .tc main_v49)
abbrev h2 : S50000x64.Idx → EReal := B6 m ρ c (Proc.devRef .tc main_v50)
abbrev A2 : S50000x64.Idx → EReal := B7 m ρ c (Proc.devRef .tc main_v83)
abbrev x2 : S50000x64.Idx → EReal := B9 m ρ c (Proc.devRef .tc main_v88)
abbrev h3 : S50000x64.Idx → EReal := B10 m ρ c (Proc.devRef .tc main_v89)
abbrev A3 : S50000x64.Idx → EReal := B11 m ρ c (Proc.devRef .tc main_v122)
abbrev x3 : S50000x64.Idx → EReal := B13 m ρ c (Proc.devRef .tc main_v127)

/-- The scaling vector the first host stretch leaves has real entries. -/
theorem ks_dis : AllReal (dis m ρ c) := dis_real (B0 m ρ c)

/-- Stage 1: the first product. -/
theorem ks_h1 (ha0 : AllReal (a0 m c)) (ha4 : AllReal (a4 m c)) : AllReal (h1 m ρ c) := by
  have e : h1 m ρ c = rowsByCols (M := 50000) (K := 128) (N := 64) (a0 m c) (a4 m c) := kc1 m ρ c
  rw [e]; exact rowsByCols_real _ _ ha0 ha4

/-- Its aggregation. -/
theorem ks_A1 (ha0 : AllReal (a0 m c)) (ha4 : AllReal (a4 m c)) : AllReal (A1 m ρ c) :=
  agg1_real (B2 m ρ c) (ks_h1 m ρ c ha0 ha4) (by rw [B2_main_v10_of_B1]; exact ks_dis m ρ c)

/-- The first normalisation stage is the reference's formula. -/
theorem ks_x1 (ha0 : AllReal (a0 m c)) (ha4 : AllReal (a4 m c)) (ha5 : AllReal (a5 m c)) :
    x1 m ρ c = refBnRelu (A1 m ρ c) (a5 m c) (a6 m c) (a7 m c) := by
  have e : x1 m ρ c = normRelu (A1 m ρ c) (row (a5 m c)) (meanRow (A1 m ρ c) (row (a5 m c))) (varRow (A1 m ρ c) (row (a5 m c)))
      (row (a6 m c)) (row (a7 m c)) := kc2 m ρ c
  rw [e]; exact norm_glue (A1 m ρ c) (a5 m c) (a6 m c) (a7 m c) (ks_A1 m ρ c ha0 ha4) ha5

theorem ks_x1_real (ha0 : AllReal (a0 m c)) (ha4 : AllReal (a4 m c)) (ha5 : AllReal (a5 m c)) (ha6 : AllReal (a6 m c))
    (ha7 : AllReal (a7 m c)) : AllReal (x1 m ρ c) := by
  rw [ks_x1 m ρ c ha0 ha4 ha5]
  exact refBnRelu_real _ _ _ _ (ks_A1 m ρ c ha0 ha4) ha5 ha6 ha7

/-- Stage 2: the second product, its aggregation, the normalisation with the residual. -/
theorem ks_h2 (ha0 : AllReal (a0 m c)) (ha4 : AllReal (a4 m c)) (ha5 : AllReal (a5 m c)) (ha6 : AllReal (a6 m c))
    (ha7 : AllReal (a7 m c)) (ha8 : AllReal (a8 m c)) : AllReal (h2 m ρ c) := by
  have e : h2 m ρ c = rowsByCols (M := 50000) (K := 64) (N := 64) (x1 m ρ c) (a8 m c) := kc3 m ρ c
  rw [e]; exact rowsByCols_real _ _ (ks_x1_real m ρ c ha0 ha4 ha5 ha6 ha7) ha8

theorem ks_A2 (ha0 : AllReal (a0 m c)) (ha4 : AllReal (a4 m c)) (ha5 : AllReal (a5 m c)) (ha6 : AllReal (a6 m c))
    (ha7 : AllReal (a7 m c)) (ha8 : AllReal (a8 m c)) : AllReal (A2 m ρ c) :=
  agg2_real (B6 m ρ c) (ks_h2 m ρ c ha0 ha4 ha5 ha6 ha7 ha8) (by rw [B6_main_v10_of_B1]; exact ks_dis m ρ c)

theorem ks_x2 (ha0 : AllReal (a0 m c)) (ha4 : AllReal (a4 m c)) (ha5 : AllReal (a5 m c)) (ha6 : AllReal (a6 m c))
    (ha7 : AllReal (a7 m c)) (ha8 : AllReal (a8 m c)) (ha9 : AllReal (a9 m c)) :
    x2 m ρ c = refBnAddRelu (A2 m ρ c) (a9 m c) (a10 m c) (a11 m c) (x1 m ρ c) := by
  have e : x2 m ρ c = normAddRelu (A2 m ρ c) (row (a9 m c)) (meanRow (A2 m ρ c) (row (a9 m c))) (varRow (A2 m ρ c) (row (a9 m c)))
      (row (a10 m c)) (row (a11 m c)) (x1 m ρ c) := kc4 m ρ c
  rw [e]
  exact normAdd_glue (A2 m ρ c) (a9 m c) (a10 m c) (a11 m c) (x1 m ρ c) (ks_A2 m ρ c ha0 ha4 ha5 ha6 ha7 ha8) ha9

theorem ks_x2_real (ha0 : AllReal (a0 m c)) (ha4 : AllReal (a4 m c)) (ha5 : AllReal (a5 m c)) (ha6 : AllReal (a6 m c))
    (ha7 : AllReal (a7 m c)) (ha8 : AllReal (a8 m c)) (ha9 : AllReal (a9 m c)) (ha10 : AllReal (a10 m c))
    (ha11 : AllReal (a11 m c)) : AllReal (x2 m ρ c) := by
  rw [ks_x2 m ρ c ha0 ha4 ha5 ha6 ha7 ha8 ha9]
  exact refBnAddRelu_real _ _ _ _ _ (ks_A2 m ρ c ha0 ha4 ha5 ha6 ha7 ha8) ha9 ha10 ha11 (ks_x1_real m ρ c ha0 ha4 ha5 ha6 ha7)

/-- Stage 3: the third product, its aggregation, the last normalisation. -/
theorem ks_h3 (ha0 : AllReal (a0 m c)) (ha4 : AllReal (a4 m c)) (ha5 : AllReal (a5 m c)) (ha6 : AllReal (a6 m c))
    (ha7 : AllReal (a7 m c)) (ha8 : AllReal (a8 m c)) (ha9 : AllReal (a9 m c)) (ha10 : AllReal (a10 m c))
    (ha11 : AllReal (a11 m c)) (ha12 : AllReal (a12 m c)) : AllReal (h3 m ρ c) := by
  have e : h3 m ρ c = rowsByCols (M := 50000) (K := 64) (N := 64) (x2 m ρ c) (a12 m c) := kc5 m ρ c
  rw [e]; exact rowsByCols_real _ _ (ks_x2_real m ρ c ha0 ha4 ha5 ha6 ha7 ha8 ha9 ha10 ha11) ha12

theorem ks_A3 (ha0 : AllReal (a0 m c)) (ha4 : AllReal (a4 m c)) (ha5 : AllReal (a5 m c)) (ha6 : AllReal (a6 m c))
    (ha7 : AllReal (a7 m c)) (ha8 : AllReal (a8 m c)) (ha9 : AllReal (a9 m c)) (ha10 : AllReal (a10 m c))
    (ha11 : AllReal (a11 m c)) (ha12 : AllReal (a12 m c)) : AllReal (A3 m ρ c) :=
  agg3_real (B10 m ρ c) (ks_h3 m ρ c ha0 ha4 ha5 ha6 ha7 ha8 ha9 ha10 ha11 ha12)
    (by rw [B10_main_v10_of_B1]; exact ks_dis m ρ c)

theorem ks_x3 (ha0 : AllReal (a0 m c)) (ha4 : AllReal (a4 m c)) (ha5 : AllReal (a5 m c)) (ha6 : AllReal (a6 m c))
    (ha7 : AllReal (a7 m c)) (ha8 : AllReal (a8 m c)) (ha9 : AllReal (a9 m c)) (ha10 : AllReal (a10 m c))
    (ha11 : AllReal (a11 m c)) (ha12 : AllReal (a12 m c)) (ha13 : AllReal (a13 m c)) :
    x3 m ρ c = refBnRelu (A3 m ρ c) (a13 m c) (a14 m c) (a15 m c) := by
  have e : x3 m ρ c = normRelu (A3 m ρ c) (row (a13 m c)) (meanRow (A3 m ρ c) (row (a13 m c))) (varRow (A3 m ρ c) (row (a13 m c)))
      (row (a14 m c)) (row (a15 m c)) := kc6 m ρ c
  rw [e]
  exact norm_glue (A3 m ρ c) (a13 m c) (a14 m c) (a15 m c) (ks_A3 m ρ c ha0 ha4 ha5 ha6 ha7 ha8 ha9 ha10 ha11 ha12) ha13

end Cert.Bridge

end
-- ==== Proof.Br.RefProducts.lean ====
/-
  The reference program's four matrix products and its result, at the exact (extended-real) reading of floats, each as a
  function of the contents its operations find, whatever they are: the three 50000-row products are the plain
  rows-by-columns product of their two operands; the last nineteen operations leave the three-layer head
  (Cert.Spec.fusionHead) of their eight operands, the bias vectors read as one-row arrays; the final reshape reads the
  256 × 1 result as 256 entries.
-/
import proofs.«171894_j11897059410618_1_alg».proof.Proof.Ref.Stretches
import proofs.«171894_j11897059410618_1_alg».proof.Proof.LibMatProd
import proofs.«171894_j11897059410618_1_alg».proof.Proof.KV.FusionSpec
import proofs.«171894_j11897059410618_1_alg».proof.Proof.Br.Row
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Cert.ReferenceIdeal Cert.ReferenceIdeal.Gen Cert.ReferenceIdeal.HandRun
open Idealize.ShloMosaic Idealize.ShloMosaic.TcCoe Idealize.ShloMosaic.ValueIdx Idealize.ShloMosaic.StableHlo Idealize.SL.Sem

/-! ## The three host products -/

/-- The first product: the 50000 × 128 argument by the 128 × 64 weights. -/
theorem ref_lin1 (W : Valuation τ sig (Elt Ideal)) :
    StableHlo.after (ops_st1 (F := Ideal)) W (Proc.devRef .tc main_v11)
      = Cert.Spec.rowsByCols (M := 50000) (K := 128) (N := 64) (W (Proc.devRef .tc main_arg0)) (W (Proc.devRef .tc main_arg4)) := by
  after_results
  funext j
  exact Cert.MatProd.hostDot_apply dot_S50000x128_S128x64_S50000x64_1_0_0_1_n_n rfl rfl (fun _ _ => rfl) (fun _ _ => rfl) (fun _ _ => rfl) (fun _ _ => rfl) _ _ j

/-- The second product: a 50000 × 64 array by the 64 × 64 weights. -/
theorem ref_lin2 (W : Valuation τ sig (Elt Ideal)) :
    StableHlo.after (ops_st4 (F := Ideal)) W (Proc.devRef .tc main_v68)
      = Cert.Spec.rowsByCols (M := 50000) (K := 64) (N := 64) (W (Proc.devRef .tc main_v67)) (W (Proc.devRef .tc main_arg8)) := by
  after_results
  funext j
  exact Cert.MatProd.hostDot_apply dot_S50000x64_S64x64_S50000x64_1_0_0_1_n_n rfl rfl (fun _ _ => rfl) (fun _ _ => rfl) (fun _ _ => rfl) (fun _ _ => rfl) _ _ j

/-- The third product: a 50000 × 64 array by the 64 × 64 weights. -/
theorem ref_lin3 (W : Valuation τ sig (Elt Ideal)) :
    StableHlo.after (ops_st7 (F := Ideal)) W (Proc.devRef .tc main_v126)
      = Cert.Spec.rowsByCols (M := 50000) (K := 64) (N := 64) (W (Proc.devRef .tc main_v125)) (W (Proc.devRef .tc main_arg12)) := by
  after_results
  funext j
  exact Cert.MatProd.hostDot_apply dot_S50000x64_S64x64_S50000x64_1_0_0_1_n_n rfl rfl (fun _ _ => rfl) (fun _ _ => rfl) (fun _ _ => rfl) (fun _ _ => rfl) _ _ j

/-! ## The result read as a vector -/

/-- An `a × 1` array reshaped to `a` entries: entry `i` is the array at `(i, 0)`. -/
theorem colCast_apply {a : Nat} {α : Type} (x : (⟨2, ![a, 1]⟩ : Shape).Idx → α)
    (h : (⟨2, ![a, 1]⟩ : Shape).ShapeCasts ⟨1, ![a]⟩) (i : (⟨1, ![a]⟩ : Shape).Idx) :
    shapeCast ⟨1, ![a]⟩ x h i = x (ix2 (i 0) (0 : Fin 1)) :=
  shapeCast_apply x h i (ix2 (i 0) (0 : Fin 1)) (by
    rw [Shape.rowMajor_val_two, Shape.rowMajor_val_one]
    show (i 0).val * 1 + 0 = (i 0).val
    omega)

/-- The 256 × 1 result reshaped to 256 entries: entry `i` is the result at `(i, 0)`. -/
theorem ref_out (W : Valuation τ sig (Elt Ideal)) :
    StableHlo.after (ops_st12 (F := Ideal)) W (Proc.devRef .tc main_v210)
      = fun i => W (Proc.devRef .tc main_v209) (ix2 (i 0) (0 : Fin 1)) := by
  after_results
  funext i
  exact colCast_apply (a := 256) (W (Proc.devRef .tc main_v209)) shapeCasts_S256x1_S256 i

/-! ## The host's layers as functions of whole arrays -/

/-- A vector made a `1 × N` row by a broadcast along axis 1 and then repeated over `M` rows, at (r, c): the vector at c. -/
theorem rowBroadcast_apply {M N : Nat} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = row b (ix2 (0 : Fin 1) c) := by
  have hc : c.val < N := c.isLt
  rw [broadcastInDim_apply ![0, 1] h2 _ (ix2 r c) (ix2 (0 : Fin 1) c) (fun a => by
    match a with
    | ⟨0, _⟩ => show (0 : Nat) = if (1 : Nat) = 1 then 0 else r.val; rfl
    | ⟨1, _⟩ => show c.val = if N = 1 then 0 else c.val; split <;> omega)]
  exact broadcastInDim_apply ![1] h1 b (ix2 (0 : Fin 1) c) (ix1 c) (fun a => by
    match a with
    | ⟨0, _⟩ => show c.val = if N = 1 then 0 else c.val; split <;> omega)

/-- The host's dense layer with the rectifier: product, bias row, maximum with the zero splat. -/
theorem hostDense_eq {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral (F := Ideal) d none A B)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
    = Cert.Spec.denseRelu A B (row b) := by
  funext j
  obtain ⟨r, c, rfl⟩ : ∃ (r : Fin M) (c : Fin N), j = ix2 r c := ⟨j 0, j 1, eq_ix2 j⟩
  rw [maximumf_apply, addf_apply, Cert.MatProd.hostDot_apply d hr hs hl0 hl1 hr0 hr1 A B, rowBroadcast_apply,
    broadcastInDim_apply ![] h0 _ (ix2 r c) ix0 (fun a => a.elim0), constant_apply, Ideal.ofBits_zero_f32]
  rfl

/-- The host's last layer: product and bias row, no rectifier. -/
theorem hostLast_eq {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) d none A B)
        (broadcastInDim ⟨2, ![M, N]⟩ ![0, 1] h2 (broadcastInDim ⟨2, ![1, N]⟩ ![1] h1 b))
    = Cert.Spec.addRow (Cert.Spec.rowsByCols A B) (row b) := by
  funext j
  obtain ⟨r, c, rfl⟩ : ∃ (r : Fin M) (c : Fin N), j = ix2 r c := ⟨j 0, j 1, eq_ix2 j⟩
  rw [addf_apply, Cert.MatProd.hostDot_apply d hr hs hl0 hl1 hr0 hr1 A B, rowBroadcast_apply]
  rfl

/-- The concatenation along the columns of two 256 × 64 arrays, read index by index. -/
theorem hostConcat_eq (P Q : FVec Ideal S256x64 .f32) (hc : Shape.Concatenates [S256x64, S256x64] S256x128 1) :
    concatenate S256x128 1 [⟨S256x64, P⟩, ⟨S256x64, Q⟩] hc = Cert.Spec.sideBySide P Q := by
  funext j
  obtain ⟨r, k, rfl⟩ : ∃ (r : Fin 256) (k : Fin 128), j = ix2 r k := ⟨j 0, j 1, eq_ix2 j⟩
  unfold Cert.Spec.sideBySide
  by_cases h : k.val < 64
  · rw [dif_pos (show ((ix2 r k : S256x128.Idx) 1).val < 64 from h)]
    exact concatenate_pair_apply_left (1 : Fin 2) P Q hc (ix2 r k) rfl (ix2 r ⟨k.val, h⟩) (fun b => by
      match b with
      | ⟨0, _⟩ => rfl
      | ⟨1, _⟩ => rfl)
  · rw [dif_neg (show ¬ ((ix2 r k : S256x128.Idx) 1).val < 64 from h)]
    have hk : k.val < 128 := k.isLt
    exact concatenate_pair_apply_right (1 : Fin 2) P Q hc (ix2 r k) rfl rfl (ix2 r ⟨k.val - 64, by omega⟩) (fun b hb => by
      match b with
      | ⟨0, _⟩ => rfl
      | ⟨1, _⟩ => exact absurd rfl hb) (by show k.val - 64 + 64 = k.val; omega)

/-! ## The head -/

set_option maxHeartbeats 8000000 in
/-- The host's last nineteen operations leave the three-layer head of the arguments in the 256 × 1 result. -/
theorem ref_head (W : Valuation τ sig (Elt Ideal)) :
    StableHlo.after (ops_st11 (F := Ideal)) W (Proc.devRef .tc main_v209)
      = Cert.Spec.fusionHead (W (Proc.devRef .tc main_arg3)) (W (Proc.devRef .tc main_arg16)) (row (W (Proc.devRef .tc main_arg17)))
          (W (Proc.devRef .tc main_arg18)) (row (W (Proc.devRef .tc main_arg19))) (W (Proc.devRef .tc main_v194))
          (W (Proc.devRef .tc main_arg20)) (row (W (Proc.devRef .tc main_arg21))) := by
  after_results
  have L1 := hostDense_eq dot_S256x64_S64x128_S256x128_1_0_0_1_n_n rfl rfl (fun _ _ => rfl) (fun _ _ => rfl) (fun _ _ => rfl) (fun _ _ => rfl) (W (Proc.devRef .tc main_arg3)) (W (Proc.devRef .tc main_arg16)) (W (Proc.devRef .tc main_arg17)) bcast_S128_S1x128_1 bcast_S1x128_S256x128_0_1 bcast_S_S256x128
  have L2 := hostDense_eq dot_S256x128_S128x64_S256x64_1_0_0_1_n_n rfl rfl (fun _ _ => rfl) (fun _ _ => rfl) (fun _ _ => rfl) (fun _ _ => rfl) (Cert.Spec.denseRelu (W (Proc.devRef .tc main_arg3)) (W (Proc.devRef .tc main_arg16)) (row (W (Proc.devRef .tc main_arg17)))) (W (Proc.devRef .tc main_arg18)) (W (Proc.devRef .tc main_arg19)) bcast_S64_S1x64_1 bcast_S1x64_S256x64_0_1 bcast_S_S256x64
  have C := hostConcat_eq (W (Proc.devRef .tc main_v194)) (Cert.Spec.denseRelu (Cert.Spec.denseRelu (W (Proc.devRef .tc main_arg3)) (W (Proc.devRef .tc main_arg16)) (row (W (Proc.devRef .tc main_arg17)))) (W (Proc.devRef .tc main_arg18)) (row (W (Proc.devRef .tc main_arg19)))) concatenates_S256x64_S256x64_S256x128_d1
  have L3 := hostLast_eq dot_S256x128_S128x1_S256x1_1_0_0_1_n_n rfl rfl (fun _ _ => rfl) (fun _ _ => rfl) (fun _ _ => rfl) (fun _ _ => rfl) (Cert.Spec.sideBySide (W (Proc.devRef .tc main_v194)) (Cert.Spec.denseRelu (Cert.Spec.denseRelu (W (Proc.devRef .tc main_arg3)) (W (Proc.devRef .tc main_arg16)) (row (W (Proc.devRef .tc main_arg17)))) (W (Proc.devRef .tc main_arg18)) (row (W (Proc.devRef .tc main_arg19))))) (W (Proc.devRef .tc main_arg20)) (W (Proc.devRef .tc main_arg21)) bcast_S1_S1x1_1 bcast_S1x1_S256x1_0_1
  unfold Cert.Spec.fusionHead
  rw [← L3, ← C, ← L2, ← L1]
  rfl

end Cert.Bridge

end
-- ==== Proof.Br.RefNorm.lean ====
import proofs.«171894_j11897059410618_1_alg».proof.Proof.Ref.Stretches
import proofs.«171894_j11897059410618_1_alg».proof.Proof.Br.NormGlue
import proofs.«171894_j11897059410618_1_alg».proof.Proof.LibColSum
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-! # The reference's three normalisation layers, read

Each layer of the reference adds a vector `b` to every row of a `[50000, 64]` array, takes the column means (the column
sum divided by 50000) and the column variances (the column sum of the squared deviations from the column mean, divided by
`50000 - 0`, the result kept where that divisor is positive), subtracts the mean, multiplies by the reciprocal square
root of the variance plus `eps`, scales by `g`, shifts by `be`, optionally adds a residual array, and clamps at zero.
`bnTree` / `bnAddTree` are that tree of operations as one function of the arrays, for any float instance; the three
stretches of the reference's operations compute it (`ref_tree1` … `ref_tree3`, by unfolding the operations' results),
and over the extended reals it is `refBnRelu` / `refBnAddRelu` index by index (`bnTree_eq`, `bnAddTree_eq`): a
broadcast reads its operand at the column, a column sum is the initial zero plus the sum over the rows, the divisor's
word denotes 50000, and the comparison `50000 - 0 > 0` holds. -/

noncomputable section

namespace Cert.Bridge

open Cert.ReferenceIdeal Cert.ReferenceIdeal.Gen Cert.ReferenceIdeal.HandRun
open Idealize.ShloMosaic Idealize.ShloMosaic.TcCoe Idealize.ShloMosaic.ValueIdx Idealize.SL.Sem Idealize.ShloMosaic.StableHlo
open Cert.KernelIdeal.HandValue (eps)
open scoped BigOperators

/-! ## The tree of operations -/

section Tree
variable {F : FTy → Type} [FloatOps F]

/-- A vector of 64 entries spread over the 50000 rows: first as one row, then as every row. -/
def spread (x : FVec F S64 .f32) : FVec F S50000x64 .f32 :=
  broadcastInDim S50000x64 ![0, 1] bcast_S1x64_S50000x64_0_1 (broadcastInDim S1x64 ![1] bcast_S64_S1x64_1 x)

/-- The array with the vector added to every row. -/
def shifted (A : FVec F S50000x64 .f32) (b : FVec F S64 .f32) : FVec F S50000x64 .f32 := addf A (spread b)

/-- The column sums, from a zero initial value. -/
def colSum (X : FVec F S50000x64 .f32) : FVec F S64 .f32 :=
  Host.reduceAdd X (constant S_ .f32 0x00000000#32) reducesTo_S50000x64_S64_d0 h_S_

/-- The column means: the column sums divided by the splat of 50000. -/
def hostMean (X : FVec F S50000x64 .f32) : FVec F S64 .f32 :=
  Host.divf (colSum X) (broadcastInDim S64 ![] bcast_S_S64 (constant S_ .f32 0x47435000#32))

/-- The variance's divisor, a scalar: 50000 less the conversion of the integer 0. -/
def varDivisor : FVec F S_ .f32 := subf (constant S_ .f32 0x47435000#32) (sitofp .f32 (constantI S_ 32 0#32))

/-- The deviations from the column means, the means formed as one row and spread over the rows. -/
def deviations (X : FVec F S50000x64 .f32) : FVec F S50000x64 .f32 :=
  subf X (broadcastInDim S50000x64 ![0, 1] bcast_S1x64_S50000x64_0_1
    (Host.divf (broadcastInDim S1x64 ![1] bcast_S64_S1x64_1 (colSum X))
      (broadcastInDim S1x64 ![] bcast_S_S1x64 (constant S_ .f32 0x47435000#32))))

/-- The column variances: the column sums of the squared deviations over the divisor, kept where the divisor is
    positive, a fixed word elsewhere. -/
def hostVar (X : FVec F S50000x64 .f32) : FVec F S64 .f32 :=
  select (broadcastInDim S64 ![] bcast_S_S64 (cmpf .ogt (varDivisor (F := F)) (constant S_ .f32 0x00000000#32)))
    (Host.divf (colSum (mulf (deviations X) (deviations X))) (broadcastInDim S64 ![] bcast_S_S64 varDivisor))
    (broadcastInDim S64 ![] bcast_S_S64 (id (constant S_ .f32 0x7FC00000#32)))

/-- Normalise, scale and shift. -/
def bnCore (X : FVec F S50000x64 .f32) (g be : FVec F S64 .f32) : FVec F S50000x64 .f32 :=
  addf (mulf (mulf (subf X (spread (hostMean X)))
      (spread (Host.rsqrt (addf (hostVar X) (broadcastInDim S64 ![] bcast_S_S64 (constant S_ .f32 0x3727C5AC#32))))))
    (spread g)) (spread be)

/-- The layer without a residual: batch-normalise `A + b`, clamp at zero. -/
def bnTree (A : FVec F S50000x64 .f32) (b g be : FVec F S64 .f32) : FVec F S50000x64 .f32 :=
  maximumf (bnCore (shifted A b) g be) (broadcastInDim S50000x64 ![] bcast_S_S50000x64 (constant S_ .f32 0x00000000#32))

/-- The layer with a residual array added before the clamp. -/
def bnAddTree (A : FVec F S50000x64 .f32) (b g be : FVec F S64 .f32) (R : FVec F S50000x64 .f32) : FVec F S50000x64 .f32 :=
  maximumf (addf (bnCore (shifted A b) g be) R) (broadcastInDim S50000x64 ![] bcast_S_S50000x64 (constant S_ .f32 0x00000000#32))

end Tree

/-! ## Broadcasts and column sums at an index -/

section Layout
variable {α : Type}

/-- A vector broadcast into one row reads, at column `q`, its entry `q`. -/
theorem vecRow_apply {n : ℕ} (x : (⟨1, ![n]⟩ : Shape).Idx → α) (h : (⟨1, ![n]⟩ : Shape).BroadcastsInDim ⟨2, ![1, n]⟩ ![1])
    (u : Fin 1) (q : Fin n) : broadcastInDim ⟨2, ![1, n]⟩ ![1] h x (ix2 u q) = x (ix1 q) := by
  refine broadcastInDim_apply ![1] h x (ix2 u q) (ix1 q) fun a => ?_
  match a with
  | ⟨0, _⟩ =>
    show q.val = if n = 1 then 0 else q.val
    split
    · have := q.isLt; omega
    · rfl

/-- One row broadcast over `a` rows reads, at (r, q), the row at column `q`. -/
theorem rowRows_apply {a n : ℕ} (w : (⟨2, ![1, n]⟩ : Shape).Idx → α)
    (h : (⟨2, ![1, n]⟩ : Shape).BroadcastsInDim ⟨2, ![a, n]⟩ ![0, 1]) (r : Fin a) (q : Fin n) :
    broadcastInDim ⟨2, ![a, n]⟩ ![0, 1] h w (ix2 r q) = w (ix2 (0 : Fin 1) q) := by
  refine broadcastInDim_apply ![0, 1] h w (ix2 r q) (ix2 (0 : Fin 1) q) fun ax => ?_
  match ax with
  | ⟨0, _⟩ => rfl
  | ⟨1, _⟩ =>
    show q.val = if n = 1 then 0 else q.val
    split
    · have := q.isLt; omega
    · rfl

/-- A scalar broadcast to any shape reads the scalar everywhere. -/
theorem scalar_apply {t : Shape} (s : (⟨0, ![]⟩ : Shape).Idx → α) (h : (⟨0, ![]⟩ : Shape).BroadcastsInDim t ![]) (j : t.Idx) :
    broadcastInDim t ![] h s j = s ix0 := by
  unfold broadcastInDim
  exact congrArg s (funext fun a => a.elim0)

end Layout

/-- The host's column sum of an `[a, n]` array over the extended reals, at column `q`: the initial value plus the sum
    over the rows. -/
theorem hostColSum_apply {a n : ℕ} (X : FVec Ideal ⟨2, ![a, n]⟩ .f32) (init : FVec Ideal ⟨0, ![]⟩ .f32)
    (h' : (⟨2, ![a, n]⟩ : Shape).ReducesTo [0] ⟨1, ![n]⟩) (hu : 0 < (⟨0, ![]⟩ : Shape).numel)
    (h : (⟨2, ![a, n]⟩ : Shape).Reduces [0] ⟨1, ![n]⟩) (q : Fin n) :
    Host.reduceAdd X init h' hu (ix1 q) = init (Shape.Idx.first hu) + ∑ r : Fin a, X (ix2 r q) := by
  show Ideal.hostReduceAdd h' X (init (Shape.Idx.first hu)) (ix1 q) = _
  refine (Ideal.hostReduceAdd_single h' h X _ (ix1 q)).trans ?_
  exact congrArg _ (Finset.sum_congr rfl fun r _ => congrArg X (Cert.LibColSum.lift_row h q r))

/-! ## The constants -/

/-- The divisor's word denotes 50000. -/
theorem ofBits_50000 : Ideal.ofBits .f32 0x47435000#32 = ((50000 : ℝ) : EReal) := by
  simp [Ideal.ofBits, Ideal.ieee, -EReal.coe_mul]; norm_num

/-- The variance's divisor is 50000: the integer 0 converts to 0. -/
theorem varDivisor_eq : (varDivisor (F := Ideal)) ix0 = ((50000 : ℝ) : EReal) := by
  show Ideal.ofBits .f32 0x47435000#32 - ((((0#32 : BitVec 32).toInt : ℤ) : ℝ) : EReal) = _
  have h0 : (0#32 : BitVec 32).toInt = 0 := by decide
  rw [ofBits_50000, h0]
  simp

/-- The divisor is positive, so the selection keeps the quotient. -/
theorem varDivisor_pos : cmpf .ogt (varDivisor (F := Ideal)) (constant S_ .f32 0x00000000#32) ix0 = 1#1 := by
  show Ideal.cmp .ogt ((varDivisor (F := Ideal)) ix0) (Ideal.ofBits .f32 0x00000000#32) = 1#1
  rw [varDivisor_eq, Ideal.ofBits_zero_f32]
  have h : (0 : EReal) < ((50000 : ℝ) : EReal) := by exact_mod_cast (by norm_num : (0 : ℝ) < 50000)
  simp [Ideal.cmp, h]

/-! ## The tree over the extended reals, index by index -/

theorem spread_apply {α : Type} (x : S64.Idx → α) (r : Fin 50000) (q : Fin 64) :
    broadcastInDim S50000x64 ![0, 1] bcast_S1x64_S50000x64_0_1 (broadcastInDim S1x64 ![1] bcast_S64_S1x64_1 x) (ix2 r q) = x (ix1 q) := by
  rw [rowRows_apply, vecRow_apply]

theorem spread_at (x : FVec Ideal S64 .f32) (r : Fin 50000) (q : Fin 64) : spread x (ix2 r q) = x (ix1 q) :=
  spread_apply x r q

theorem shifted_at (A : FVec Ideal S50000x64 .f32) (b : FVec Ideal S64 .f32) (r : Fin 50000) (q : Fin 64) :
    shifted A b (ix2 r q) = A (ix2 r q) + b (ix1 q) := by
  unfold shifted
  rw [addf_apply, spread_at]

theorem colSum_at (X : FVec Ideal S50000x64 .f32) (q : Fin 64) : colSum X (ix1 q) = ∑ r : Fin 50000, X (ix2 r q) := by
  unfold colSum
  rw [hostColSum_apply X _ reducesTo_S50000x64_S64_d0 h_S_ (by decide) q]
  show Ideal.ofBits .f32 0x00000000#32 + _ = _
  rw [Ideal.ofBits_zero_f32, zero_add]

/-- The column mean is the column sum divided by 50000. -/
theorem hostMean_at (X : FVec Ideal S50000x64 .f32) (q : Fin 64) :
    hostMean X (ix1 q) = Ideal.div (∑ r : Fin 50000, X (ix2 r q)) ((50000 : ℝ) : EReal) := by
  unfold hostMean
  show Ideal.div (colSum X (ix1 q)) (broadcastInDim S64 ![] bcast_S_S64 (constant (F := Ideal) S_ .f32 0x47435000#32) (ix1 q)) = _
  rw [colSum_at, scalar_apply]
  show Ideal.div _ (Ideal.ofBits .f32 0x47435000#32) = _
  rw [ofBits_50000]

/-- A deviation is the entry less its column's mean. -/
theorem deviations_at (X : FVec Ideal S50000x64 .f32) (r : Fin 50000) (q : Fin 64) :
    deviations X (ix2 r q) = X (ix2 r q) - Ideal.div (∑ r : Fin 50000, X (ix2 r q)) ((50000 : ℝ) : EReal) := by
  unfold deviations
  rw [subf_apply, rowRows_apply]
  show _ - Ideal.div (broadcastInDim S1x64 ![1] bcast_S64_S1x64_1 (colSum X) (ix2 (0 : Fin 1) q))
    (broadcastInDim S1x64 ![] bcast_S_S1x64 (constant (F := Ideal) S_ .f32 0x47435000#32) (ix2 (0 : Fin 1) q)) = _
  rw [vecRow_apply, colSum_at, scalar_apply]
  show _ - Ideal.div _ (Ideal.ofBits .f32 0x47435000#32) = _
  rw [ofBits_50000]

/-- The column variance is the column sum of the squared deviations divided by 50000. -/
theorem hostVar_at (X : FVec Ideal S50000x64 .f32) (q : Fin 64) :
    hostVar X (ix1 q) = Ideal.div (∑ r : Fin 50000,
        (X (ix2 r q) - Ideal.div (∑ r : Fin 50000, X (ix2 r q)) ((50000 : ℝ) : EReal))
          * (X (ix2 r q) - Ideal.div (∑ r : Fin 50000, X (ix2 r q)) ((50000 : ℝ) : EReal))) ((50000 : ℝ) : EReal) := by
  unfold hostVar
  rw [select_apply, scalar_apply, varDivisor_pos, select_one]
  show Ideal.div (colSum (mulf (deviations X) (deviations X)) (ix1 q)) (broadcastInDim S64 ![] bcast_S_S64 (varDivisor (F := Ideal)) (ix1 q)) = _
  rw [colSum_at, scalar_apply, varDivisor_eq]
  simp only [mulf_apply, deviations_at]

/-- The normalised, scaled and shifted entry. -/
theorem bnCore_at (X : FVec Ideal S50000x64 .f32) (g be : FVec Ideal S64 .f32) (r : Fin 50000) (q : Fin 64) :
    bnCore X g be (ix2 r q) = ((X (ix2 r q) - hostMean X (ix1 q)) * Ideal.rsqrt (hostVar X (ix1 q) + eps)) * g (ix1 q) + be (ix1 q) := by
  unfold bnCore
  rw [addf_apply, mulf_apply, mulf_apply, subf_apply, spread_at, spread_at, spread_at, spread_at]
  show ((_ - _) * Ideal.rsqrt (hostVar X (ix1 q) + broadcastInDim S64 ![] bcast_S_S64 (constant (F := Ideal) S_ .f32 0x3727C5AC#32) (ix1 q))) * _ + _ = _
  rw [scalar_apply]
  rfl

/-- The statistics of the shifted array are those of the formula. -/
theorem hostMean_shifted (A : FVec Ideal S50000x64 .f32) (b : FVec Ideal S64 .f32) (q : Fin 64) :
    hostMean (shifted A b) (ix1 q) = colMean A b q := by
  rw [hostMean_at]
  unfold colMean
  simp only [shifted_at]

theorem hostVar_shifted (A : FVec Ideal S50000x64 .f32) (b : FVec Ideal S64 .f32) (q : Fin 64) :
    hostVar (shifted A b) (ix1 q) = colVar A b q := by
  rw [hostVar_at]
  unfold colVar colMean
  simp only [shifted_at]

/-- Over the extended reals the layer is batch normalisation clamped at zero. -/
theorem bnTree_eq (A : FVec Ideal S50000x64 .f32) (b g be : FVec Ideal S64 .f32) : bnTree A b g be = refBnRelu A b g be := by
  funext i
  obtain ⟨r, q, rfl⟩ : ∃ (r : Fin 50000) (q : Fin 64), i = ix2 r q := ⟨i 0, i 1, eq_ix2 i⟩
  rw [refBnRelu_ix2]
  unfold bnTree
  rw [maximumf_apply, bnCore_at, scalar_apply, hostMean_shifted, hostVar_shifted, shifted_at]
  show max _ (Ideal.ofBits .f32 0x00000000#32) = _
  rw [Ideal.ofBits_zero_f32]

/-- The same with the residual. -/
theorem bnAddTree_eq (A : FVec Ideal S50000x64 .f32) (b g be : FVec Ideal S64 .f32) (R : FVec Ideal S50000x64 .f32) :
    bnAddTree A b g be R = refBnAddRelu A b g be R := by
  funext i
  obtain ⟨r, q, rfl⟩ : ∃ (r : Fin 50000) (q : Fin 64), i = ix2 r q := ⟨i 0, i 1, eq_ix2 i⟩
  rw [refBnAddRelu_ix2]
  unfold bnAddTree
  rw [maximumf_apply, addf_apply, bnCore_at, scalar_apply, hostMean_shifted, hostVar_shifted, shifted_at]
  show max _ (Ideal.ofBits .f32 0x00000000#32) = _
  rw [Ideal.ofBits_zero_f32]

/-! ## The three stretches compute the tree -/

section Stretches
variable {F : FTy → Type} [FloatOps F]

attribute [local irreducible] Host.reduceAdd Host.divf Host.rsqrt broadcastInDim select cmpf sitofp subf addf mulf maximumf constant constantI in
set_option maxRecDepth 8192 in
set_option maxHeartbeats 1000000 in
/-- The first layer's fifty operations leave, in their last buffer, the tree of the layer's four arrays: each
    operation's result is its function of its operands' contents, and the outlined functions' typed buffers hold
    what is put in them. -/
theorem ref_tree1 (W : Valuation τ sig (Elt F)) :
    StableHlo.after (ops_st3 (F := F)) W (Proc.devRef .tc main_v67)
      = bnTree (W (Proc.devRef .tc main_v44)) (W (Proc.devRef .tc main_arg5)) (W (Proc.devRef .tc main_arg6)) (W (Proc.devRef .tc main_arg7)) := by
  after_results_simp
  rfl

attribute [local irreducible] Host.reduceAdd Host.divf Host.rsqrt broadcastInDim select cmpf sitofp subf addf mulf maximumf constant constantI in
set_option maxRecDepth 8192 in
set_option maxHeartbeats 1000000 in
/-- The second layer's operations: the same tree with the first layer's result added before the clamp. -/
theorem ref_tree2 (W : Valuation τ sig (Elt F)) :
    StableHlo.after (ops_st6 (F := F)) W (Proc.devRef .tc main_v125)
      = bnAddTree (W (Proc.devRef .tc main_v101)) (W (Proc.devRef .tc main_arg9)) (W (Proc.devRef .tc main_arg10)) (W (Proc.devRef .tc main_arg11))
          (W (Proc.devRef .tc main_v67)) := by
  after_results_simp
  rfl

attribute [local irreducible] Host.reduceAdd Host.divf Host.rsqrt broadcastInDim select cmpf sitofp subf addf mulf maximumf constant constantI in
set_option maxRecDepth 8192 in
set_option maxHeartbeats 1000000 in
/-- The third layer's operations. -/
theorem ref_tree3 (W : Valuation τ sig (Elt F)) :
    StableHlo.after (ops_st9 (F := F)) W (Proc.devRef .tc main_v182)
      = bnTree (W (Proc.devRef .tc main_v159)) (W (Proc.devRef .tc main_arg13)) (W (Proc.devRef .tc main_arg14)) (W (Proc.devRef .tc main_arg15)) := by
  after_results_simp
  rfl

end Stretches

/-! ## The three layers over the extended reals -/

/-- The first layer is batch normalisation of its array shifted by its first vector, clamped at zero. -/
theorem ref_norm1 (W : Valuation τ sig (Elt Ideal)) :
    StableHlo.after (ops_st3 (F := Ideal)) W (Proc.devRef .tc main_v67)
      = refBnRelu (W (Proc.devRef .tc main_v44)) (W (Proc.devRef .tc main_arg5)) (W (Proc.devRef .tc main_arg6)) (W (Proc.devRef .tc main_arg7)) :=
  (ref_tree1 W).trans (bnTree_eq _ _ _ _)

/-- The second layer adds the first layer's result before the clamp. -/
theorem ref_norm2 (W : Valuation τ sig (Elt Ideal)) :
    StableHlo.after (ops_st6 (F := Ideal)) W (Proc.devRef .tc main_v125)
      = refBnAddRelu (W (Proc.devRef .tc main_v101)) (W (Proc.devRef .tc main_arg9)) (W (Proc.devRef .tc main_arg10)) (W (Proc.devRef .tc main_arg11))
          (W (Proc.devRef .tc main_v67)) :=
  (ref_tree2 W).trans (bnAddTree_eq _ _ _ _ _)

/-- The third layer. -/
theorem ref_norm3 (W : Valuation τ sig (Elt Ideal)) :
    StableHlo.after (ops_st9 (F := Ideal)) W (Proc.devRef .tc main_v182)
      = refBnRelu (W (Proc.devRef .tc main_v159)) (W (Proc.devRef .tc main_arg13)) (W (Proc.devRef .tc main_arg14)) (W (Proc.devRef .tc main_arg15)) :=
  (ref_tree3 W).trans (bnTree_eq _ _ _ _)

end Cert.Bridge

end
-- ==== Proof.Br.RChain.lean ====
/-
  What the reference program's buffers hold at the boundaries of its stretches, stage by stage.

  The reference's main function is one line of host operations, cut into thirteen stretches. After a stretch, the
  array it ends with is a closed formula of the arrays the stretch read on entry (a product of rows by columns; batch
  normalisation over the rows with the rectifier, with or without a residual array; the three-layer head; the
  reshape of a one-column array to a vector), and every buffer the stretch does not write is unchanged. Reading each
  entry array back to the boundary where it was last written (an earlier stretch, or the launch memory) gives the
  chain below: one equation per stage whose output a later stage or the result reads.
-/
import proofs.«171894_j11897059410618_1_alg».proof.Proof.Ref.ReadBack
import proofs.«171894_j11897059410618_1_alg».proof.Proof.Br.RefProducts
import proofs.«171894_j11897059410618_1_alg».proof.Proof.Br.RefNorm

set_option maxRecDepth 1600

noncomputable section

namespace Cert.Bridge

open Idealize.ShloMosaic Idealize.ShloMosaic.ValueIdx Idealize.ShloMosaic.TcCoe Idealize.SL.Sem
open Cert.ReferenceIdeal Cert.ReferenceIdeal.Gen Cert.ReferenceIdeal.HandRun

variable (m' : (ℓ : Loc nD τ sig) → Buf (Elt Ideal) ℓ) (c : Dev nD)

/-! ## The three products: the entry array by a weight array from the launch memory -/

/-- After stretch 1 its array is the product of the first input by the first weight array. -/
theorem rc1 : R2 m' c (Proc.devRef .tc main_v11)
    = Cert.Spec.rowsByCols (M := 50000) (K := 128) (N := 64) (m' ((c.tc : Thread nD τ).loc main_arg0)) (m' ((c.tc : Thread nD τ).loc main_arg4)) := by
  have h := ref_lin1 (R1 m' c)
  rw [R1_main_arg0_of_R0 m' c, R1_main_arg4_of_R0 m' c] at h
  exact h

/-- After stretch 4 its array is the product of the first layer's output by the second weight array. -/
theorem rc3 : R5 m' c (Proc.devRef .tc main_v68)
    = Cert.Spec.rowsByCols (M := 50000) (K := 64) (N := 64) (R4 m' c (Proc.devRef .tc main_v67)) (m' ((c.tc : Thread nD τ).loc main_arg8)) := by
  have h := ref_lin2 (R4 m' c)
  rw [R4_main_arg8_of_R0 m' c] at h
  exact h

/-- After stretch 7 its array is the product of the second layer's output by the third weight array. -/
theorem rc5 : R8 m' c (Proc.devRef .tc main_v126)
    = Cert.Spec.rowsByCols (M := 50000) (K := 64) (N := 64) (R7 m' c (Proc.devRef .tc main_v125)) (m' ((c.tc : Thread nD τ).loc main_arg12)) := by
  have h := ref_lin3 (R7 m' c)
  rw [R7_main_arg12_of_R0 m' c] at h
  exact h

/-! ## The three normalisations: batch normalisation of the aggregated array, then the rectifier -/

/-- After stretch 3 its last array is the first aggregate with its bias, normalised over the rows, scaled, shifted and
    clamped at zero. -/
theorem rc2 : R4 m' c (Proc.devRef .tc main_v67)
    = refBnRelu (R3 m' c (Proc.devRef .tc main_v44)) (m' ((c.tc : Thread nD τ).loc main_arg5)) (m' ((c.tc : Thread nD τ).loc main_arg6)) (m' ((c.tc : Thread nD τ).loc main_arg7)) := by
  have h := ref_norm1 (R3 m' c)
  rw [R3_main_arg5_of_R0 m' c, R3_main_arg6_of_R0 m' c, R3_main_arg7_of_R0 m' c] at h
  exact h

/-- After stretch 6 its last array is the second aggregate normalised likewise, the first layer's output added before
    the clamp. -/
theorem rc4 : R7 m' c (Proc.devRef .tc main_v125)
    = refBnAddRelu (R6 m' c (Proc.devRef .tc main_v101)) (m' ((c.tc : Thread nD τ).loc main_arg9)) (m' ((c.tc : Thread nD τ).loc main_arg10)) (m' ((c.tc : Thread nD τ).loc main_arg11))
        (R4 m' c (Proc.devRef .tc main_v67)) := by
  have h := ref_norm2 (R6 m' c)
  rw [R6_main_arg9_of_R0 m' c, R6_main_arg10_of_R0 m' c, R6_main_arg11_of_R0 m' c, R6_main_v67_of_R4 m' c] at h
  exact h

/-- After stretch 9 its last array is the third aggregate normalised as the first. -/
theorem rc6 : R10 m' c (Proc.devRef .tc main_v182)
    = refBnRelu (R9 m' c (Proc.devRef .tc main_v159)) (m' ((c.tc : Thread nD τ).loc main_arg13)) (m' ((c.tc : Thread nD τ).loc main_arg14)) (m' ((c.tc : Thread nD τ).loc main_arg15)) := by
  have h := ref_norm3 (R9 m' c)
  rw [R9_main_arg13_of_R0 m' c, R9_main_arg14_of_R0 m' c, R9_main_arg15_of_R0 m' c] at h
  exact h

/-! ## The head and the result -/

/-- After stretch 11 its last array is the three-layer head of the fourth input and the pooled array, every weight and
    bias from the launch memory. -/
theorem rc7 : R12 m' c (Proc.devRef .tc main_v209)
    = Cert.Spec.fusionHead (m' ((c.tc : Thread nD τ).loc main_arg3)) (m' ((c.tc : Thread nD τ).loc main_arg16)) (row (m' ((c.tc : Thread nD τ).loc main_arg17)))
        (m' ((c.tc : Thread nD τ).loc main_arg18)) (row (m' ((c.tc : Thread nD τ).loc main_arg19))) (R11 m' c (Proc.devRef .tc main_v194))
        (m' ((c.tc : Thread nD τ).loc main_arg20)) (row (m' ((c.tc : Thread nD τ).loc main_arg21))) := by
  have h := ref_head (R11 m' c)
  rw [R11_main_arg3_of_R0 m' c, R11_main_arg16_of_R0 m' c, R11_main_arg17_of_R0 m' c, R11_main_arg18_of_R0 m' c,
    R11_main_arg19_of_R0 m' c, R11_main_arg20_of_R0 m' c, R11_main_arg21_of_R0 m' c] at h
  exact h

/-- After the last stretch the returned vector is the head's one column, entry by entry. -/
theorem rc8 : R13 m' c (Proc.devRef .tc main_v210)
    = fun i => R12 m' c (Proc.devRef .tc main_v209) (ix2 (i 0) (0 : Fin 1)) :=
  ref_out (R12 m' c)

end Cert.Bridge

end
-- ==== Proof.Br.Congr.lean ====
/-
  The host stretches the two programs share compute one function of the arrays they read.

  Between its regions the kernel program runs the same host operations as the reference program does on its own
  buffers: the degree normalisation (the two index vectors cut from the edge list, deg = scatter-add of ones + 1,
  dis = rsqrt deg), the three aggregations
    scatterAdd(zeros, dst, gather(h, src) * (gather(dis, src) * gather(dis, dst))) + h * (dis * dis),
  and the mean pooling scatterAdd(zeros, batch, h) / max(scatterAdd(zeros, batch, ones), 1).
  Each theorem: if the arrays a stretch reads agree between the two programs' valuations, so does the array it leaves.
  Both sides evaluate to the operations' composed term over the arrays read; the two terms differ only in the names of
  the shapes, dimension numbers and side conditions, which unfold to the same values.
-/
import proofs.«171894_j11897059410618_1_alg».proof.Proof.Gen.KernelIdeal.Launch
import proofs.«171894_j11897059410618_1_alg».proof.Proof.Ref.Stretches
import Idealize.ShloMosaic.Lib.StableHlo.Run

set_option maxRecDepth 16384

noncomputable section

namespace Cert.Bridge

open Idealize.ShloMosaic Idealize.ShloMosaic.TcCoe
open Cert.ReferenceIdeal.HandRun

/-- The degree normalisation: from the edge list, the two index vectors and dis = rsqrt(scatterAdd(zeros, dst, ones) + 1). -/
theorem cg0 (W : Valuation Cert.KernelIdeal.τ Cert.KernelIdeal.sig (Elt Ideal)) (W' : Valuation Cert.ReferenceIdeal.τ Cert.ReferenceIdeal.sig (Elt Ideal))
    (h : W' (Proc.devRef .tc Cert.ReferenceIdeal.main_arg1) = W (Proc.devRef .tc Cert.KernelIdeal.main_arg1)) :
    StableHlo.after (ops_st0 (F := Ideal)) W' (Proc.devRef .tc Cert.ReferenceIdeal.main_v10)
        = StableHlo.after (Cert.KernelIdeal.Gen.hostOps0 (F := Ideal)) W (Proc.devRef .tc Cert.KernelIdeal.main_v10)
      ∧ StableHlo.after (ops_st0 (F := Ideal)) W' (Proc.devRef .tc Cert.ReferenceIdeal.main_v1)
        = StableHlo.after (Cert.KernelIdeal.Gen.hostOps0 (F := Ideal)) W (Proc.devRef .tc Cert.KernelIdeal.main_v1)
      ∧ StableHlo.after (ops_st0 (F := Ideal)) W' (Proc.devRef .tc Cert.ReferenceIdeal.main_v3)
        = StableHlo.after (Cert.KernelIdeal.Gen.hostOps0 (F := Ideal)) W (Proc.devRef .tc Cert.KernelIdeal.main_v3) := by
  unfold ops_st0 Cert.KernelIdeal.Gen.hostOps0
  refine ⟨?_, ?_, ?_⟩
  · after_results_simp
    rw [h]
    try rfl
  · after_results_simp
    rw [h]
    try rfl
  · after_results_simp
    rw [h]
    try rfl

/-- The first aggregation, from the first layer's product h. -/
theorem cg1 (W : Valuation Cert.KernelIdeal.τ Cert.KernelIdeal.sig (Elt Ideal)) (W' : Valuation Cert.ReferenceIdeal.τ Cert.ReferenceIdeal.sig (Elt Ideal))
    (hh : W' (Proc.devRef .tc Cert.ReferenceIdeal.main_v11) = W (Proc.devRef .tc Cert.KernelIdeal.main_v11))
    (h10 : W' (Proc.devRef .tc Cert.ReferenceIdeal.main_v10) = W (Proc.devRef .tc Cert.KernelIdeal.main_v10))
    (h1 : W' (Proc.devRef .tc Cert.ReferenceIdeal.main_v1) = W (Proc.devRef .tc Cert.KernelIdeal.main_v1))
    (h3 : W' (Proc.devRef .tc Cert.ReferenceIdeal.main_v3) = W (Proc.devRef .tc Cert.KernelIdeal.main_v3)) :
    StableHlo.after (ops_st2 (F := Ideal)) W' (Proc.devRef .tc Cert.ReferenceIdeal.main_v44)
      = StableHlo.after (Cert.KernelIdeal.Gen.hostOps1 (F := Ideal)) W (Proc.devRef .tc Cert.KernelIdeal.main_v44) := by
  unfold ops_st2 Cert.KernelIdeal.Gen.hostOps1
  after_results_simp
  rw [hh, h10, h1, h3]
  rfl

/-- The second aggregation. -/
theorem cg2 (W : Valuation Cert.KernelIdeal.τ Cert.KernelIdeal.sig (Elt Ideal)) (W' : Valuation Cert.ReferenceIdeal.τ Cert.ReferenceIdeal.sig (Elt Ideal))
    (hh : W' (Proc.devRef .tc Cert.ReferenceIdeal.main_v68) = W (Proc.devRef .tc Cert.KernelIdeal.main_v50))
    (h10 : W' (Proc.devRef .tc Cert.ReferenceIdeal.main_v10) = W (Proc.devRef .tc Cert.KernelIdeal.main_v10))
    (h1 : W' (Proc.devRef .tc Cert.ReferenceIdeal.main_v1) = W (Proc.devRef .tc Cert.KernelIdeal.main_v1))
    (h3 : W' (Proc.devRef .tc Cert.ReferenceIdeal.main_v3) = W (Proc.devRef .tc Cert.KernelIdeal.main_v3)) :
    StableHlo.after (ops_st5 (F := Ideal)) W' (Proc.devRef .tc Cert.ReferenceIdeal.main_v101)
      = StableHlo.after (Cert.KernelIdeal.Gen.hostOps4 (F := Ideal)) W (Proc.devRef .tc Cert.KernelIdeal.main_v83) := by
  unfold ops_st5 Cert.KernelIdeal.Gen.hostOps4
  after_results_simp
  rw [hh, h10, h1, h3]
  rfl

/-- The third aggregation. -/
theorem cg3 (W : Valuation Cert.KernelIdeal.τ Cert.KernelIdeal.sig (Elt Ideal)) (W' : Valuation Cert.ReferenceIdeal.τ Cert.ReferenceIdeal.sig (Elt Ideal))
    (hh : W' (Proc.devRef .tc Cert.ReferenceIdeal.main_v126) = W (Proc.devRef .tc Cert.KernelIdeal.main_v89))
    (h10 : W' (Proc.devRef .tc Cert.ReferenceIdeal.main_v10) = W (Proc.devRef .tc Cert.KernelIdeal.main_v10))
    (h1 : W' (Proc.devRef .tc Cert.ReferenceIdeal.main_v1) = W (Proc.devRef .tc Cert.KernelIdeal.main_v1))
    (h3 : W' (Proc.devRef .tc Cert.ReferenceIdeal.main_v3) = W (Proc.devRef .tc Cert.KernelIdeal.main_v3)) :
    StableHlo.after (ops_st8 (F := Ideal)) W' (Proc.devRef .tc Cert.ReferenceIdeal.main_v159)
      = StableHlo.after (Cert.KernelIdeal.Gen.hostOps7 (F := Ideal)) W (Proc.devRef .tc Cert.KernelIdeal.main_v122) := by
  unfold ops_st8 Cert.KernelIdeal.Gen.hostOps7
  after_results_simp
  rw [hh, h10, h1, h3]
  rfl

/-- The mean pooling: scatterAdd(zeros, batch, h) / max(scatterAdd(zeros, batch, ones), 1), broadcast along the columns. -/
theorem cg4 (W : Valuation Cert.KernelIdeal.τ Cert.KernelIdeal.sig (Elt Ideal)) (W' : Valuation Cert.ReferenceIdeal.τ Cert.ReferenceIdeal.sig (Elt Ideal))
    (h182 : W' (Proc.devRef .tc Cert.ReferenceIdeal.main_v182) = W (Proc.devRef .tc Cert.KernelIdeal.main_v127))
    (h2 : W' (Proc.devRef .tc Cert.ReferenceIdeal.main_arg2) = W (Proc.devRef .tc Cert.KernelIdeal.main_arg2)) :
    StableHlo.after (ops_st10 (F := Ideal)) W' (Proc.devRef .tc Cert.ReferenceIdeal.main_v194)
      = StableHlo.after (Cert.KernelIdeal.Gen.hostOps9 (F := Ideal)) W (Proc.devRef .tc Cert.KernelIdeal.main_v139) := by
  unfold ops_st10 Cert.KernelIdeal.Gen.hostOps9
  after_results_simp
  rw [h182, h2]
  rfl

end Cert.Bridge

end
-- ==== Proof.Finite.lean ====
/-
  Every float input is finite, read as: every entry of every float input array is a real number.

  The predicate tests, for each of the twenty float arrays, that the "and" over all axes of the comparisons
  |x i| < +infinity is 1, and takes the "and" of the twenty scalar results. It is written as one chain of operations cut
  into five consecutive parts. Each lemma below reads one part back: if the part's result is 1 at the scalar index, the
  scalar it was handed is 1 there, any comparison array it was handed reduces to 1, and every array it tests has real
  entries. The parts are cut in the middle of an array's test in three places (the absolute value and the bound are
  computed by one part, compared and reduced by the next), which is why a part's lemma also returns the reduction of the
  comparison it was handed. Chaining the five gives the statement for the whole predicate.
-/
import proofs.«171894_j11897059410618_1_alg».proof.Pre_finite_inputs
import proofs.«171894_j11897059410618_1_alg».proof.Proof.LibRealEntries
import Idealize.ShloMosaic.PureOps.Ideal
import Idealize.ShloMosaic.Lib.ReduceAll

noncomputable section

namespace Cert.Finite

open Idealize.ShloMosaic Cert.Pre_finite_inputs Cert.RealEntries
open Cert.Pre_finite_inputs.Facts

variable [Cert.Pre_finite_inputs.Facts]

/-- The pointwise "and" of two arrays of truth values is 1 at an index only if both arrays are 1 there. -/
theorem andi_split {s : Shape} (x y : IVec s 1) (j : s.Idx) (h : Idealize.ShloMosaic.andi x y j = 1#1) :
    x j = 1#1 ∧ y j = 1#1 :=
  IntOp.andi_eq_one.1 h

/-- Part 5 compares and reduces the array of absolute values `v84` against the broadcast of the scalar `cst`, then
    tests the arrays 20 and 21; its result is the "and" of the incoming scalar `v83` with these three. -/
theorem part5 (a20 : FVec Ideal S128x1 .f32) (a21 : FVec Ideal S1 .f32) (v83 : IVec S_ 1) (v84 : FVec Ideal S64 .f32)
    (cst : FVec Ideal S_ .f32) (j : S_.Idx) (h : fn_part5 (F := Ideal) a20 a21 v83 v84 cst j = 1#1) :
    v83 j = 1#1
    ∧ Host.reduce IntOp.andi (cmpf .olt v84 (broadcastInDim S64 ![] bcast_S_S64 cst)) (constantI S_ 1 1#1)
        reducesTo_S64_S_d0 h_S_ j = 1#1
    ∧ AllReal a20 ∧ AllReal a21 := by
  dsimp only [fn_part5] at h
  obtain ⟨h, h21⟩ := andi_split _ _ j h
  obtain ⟨h, h20⟩ := andi_split _ _ j h
  obtain ⟨h, h19⟩ := andi_split _ _ j h
  exact ⟨h, h19, allReal_of_reduce reducesTo_S128x1_S_d0_1 h_S_ _ bcast_S_S128x1 a20 _ j h20,
    allReal_of_reduce reducesTo_S1_S_d0 h_S_ _ bcast_S_S1 a21 _ j h21⟩

/-- Part 4 takes the "and" of the two incoming scalars, tests the arrays 16, 17, 18, and hands part 5 the absolute
    values of the array 19 with the bound +infinity. -/
theorem part4 (a16 : FVec Ideal S64x128 .f32) (a17 : FVec Ideal S128 .f32) (a18 : FVec Ideal S128x64 .f32)
    (a19 : FVec Ideal S64 .f32) (a20 : FVec Ideal S128x1 .f32) (a21 : FVec Ideal S1 .f32) (v63 v67 : IVec S_ 1)
    (j : S_.Idx) (h : fn_part4 (F := Ideal) a16 a17 a18 a19 a20 a21 v63 v67 j = 1#1) :
    v63 j = 1#1 ∧ v67 j = 1#1
    ∧ AllReal a16 ∧ AllReal a17 ∧ AllReal a18 ∧ AllReal a19 ∧ AllReal a20 ∧ AllReal a21 := by
  dsimp only [fn_part4] at h
  obtain ⟨h, h19, r20, r21⟩ := part5 _ _ _ _ _ j h
  obtain ⟨h, h18⟩ := andi_split _ _ j h
  obtain ⟨h, h17⟩ := andi_split _ _ j h
  obtain ⟨h, h16⟩ := andi_split _ _ j h
  obtain ⟨h63, h67⟩ := andi_split _ _ j h
  exact ⟨h63, h67, allReal_of_reduce reducesTo_S64x128_S_d0_1 h_S_ _ bcast_S_S64x128 a16 _ j h16,
    allReal_of_reduce reducesTo_S128_S_d0 h_S_ _ bcast_S_S128 a17 _ j h17,
    allReal_of_reduce reducesTo_S128x64_S_d0_1 h_S_ _ bcast_S_S128x64 a18 _ j h18,
    allReal_of_reduce reducesTo_S64_S_d0 h_S_ _ bcast_S_S64 a19 _ j h19, r20, r21⟩

/-- Part 3 compares and reduces the incoming pair `v49`, `v50` (absolute values and bound), tests the arrays 13, 14,
    15, and hands part 4 the "and" so far together with the scalar of the array 15. -/
theorem part3 (a13 a14 a15 : FVec Ideal S64 .f32) (a16 : FVec Ideal S64x128 .f32) (a17 : FVec Ideal S128 .f32)
    (a18 : FVec Ideal S128x64 .f32) (a19 : FVec Ideal S64 .f32) (a20 : FVec Ideal S128x1 .f32)
    (a21 : FVec Ideal S1 .f32) (v48 : IVec S_ 1) (v49 v50 : FVec Ideal S64x64 .f32) (j : S_.Idx)
    (h : fn_part3 (F := Ideal) a13 a14 a15 a16 a17 a18 a19 a20 a21 v48 v49 v50 j = 1#1) :
    v48 j = 1#1
    ∧ Host.reduce IntOp.andi (cmpf .olt v49 v50) (constantI S_ 1 1#1) reducesTo_S64x64_S_d0_1 h_S_ j = 1#1
    ∧ AllReal a13 ∧ AllReal a14 ∧ AllReal a15
    ∧ AllReal a16 ∧ AllReal a17 ∧ AllReal a18 ∧ AllReal a19 ∧ AllReal a20 ∧ AllReal a21 := by
  dsimp only [fn_part3] at h
  obtain ⟨h, h15, r16, r17, r18, r19, r20, r21⟩ := part4 _ _ _ _ _ _ _ _ j h
  obtain ⟨h, h14⟩ := andi_split _ _ j h
  obtain ⟨h, h13⟩ := andi_split _ _ j h
  obtain ⟨h48, h12⟩ := andi_split _ _ j h
  exact ⟨h48, h12, allReal_of_reduce reducesTo_S64_S_d0 h_S_ _ bcast_S_S64 a13 _ j h13,
    allReal_of_reduce reducesTo_S64_S_d0 h_S_ _ bcast_S_S64 a14 _ j h14,
    allReal_of_reduce reducesTo_S64_S_d0 h_S_ _ bcast_S_S64 a15 _ j h15, r16, r17, r18, r19, r20, r21⟩

/-- Part 2 tests the arrays 9, 10, 11 and hands part 3 the "and" so far with the absolute values of the array 12 and
    the broadcast bound. -/
theorem part2 (a9 a10 a11 : FVec Ideal S64 .f32) (a12 : FVec Ideal S64x64 .f32) (a13 a14 a15 : FVec Ideal S64 .f32)
    (a16 : FVec Ideal S64x128 .f32) (a17 : FVec Ideal S128 .f32) (a18 : FVec Ideal S128x64 .f32)
    (a19 : FVec Ideal S64 .f32) (a20 : FVec Ideal S128x1 .f32) (a21 : FVec Ideal S1 .f32) (v33 : IVec S_ 1)
    (j : S_.Idx)
    (h : fn_part2 (F := Ideal) a9 a10 a11 a12 a13 a14 a15 a16 a17 a18 a19 a20 a21 v33 j = 1#1) :
    v33 j = 1#1
    ∧ AllReal a9 ∧ AllReal a10 ∧ AllReal a11 ∧ AllReal a12 ∧ AllReal a13 ∧ AllReal a14 ∧ AllReal a15
    ∧ AllReal a16 ∧ AllReal a17 ∧ AllReal a18 ∧ AllReal a19 ∧ AllReal a20 ∧ AllReal a21 := by
  dsimp only [fn_part2] at h
  obtain ⟨h, h12, r13, r14, r15, r16, r17, r18, r19, r20, r21⟩ := part3 _ _ _ _ _ _ _ _ _ _ _ _ j h
  obtain ⟨h, h11⟩ := andi_split _ _ j h
  obtain ⟨h, h10⟩ := andi_split _ _ j h
  obtain ⟨h33, h9⟩ := andi_split _ _ j h
  exact ⟨h33, allReal_of_reduce reducesTo_S64_S_d0 h_S_ _ bcast_S_S64 a9 _ j h9,
    allReal_of_reduce reducesTo_S64_S_d0 h_S_ _ bcast_S_S64 a10 _ j h10,
    allReal_of_reduce reducesTo_S64_S_d0 h_S_ _ bcast_S_S64 a11 _ j h11,
    allReal_of_reduce reducesTo_S64x64_S_d0_1 h_S_ _ bcast_S_S64x64 a12 _ j h12,
    r13, r14, r15, r16, r17, r18, r19, r20, r21⟩

/-- Part 1 reduces the incoming comparison array `v16`, tests the arrays 6, 7, 8, and hands part 2 the "and" so far. -/
theorem part1 (a6 a7 : FVec Ideal S64 .f32) (a8 : FVec Ideal S64x64 .f32) (a9 a10 a11 : FVec Ideal S64 .f32)
    (a12 : FVec Ideal S64x64 .f32) (a13 a14 a15 : FVec Ideal S64 .f32) (a16 : FVec Ideal S64x128 .f32)
    (a17 : FVec Ideal S128 .f32) (a18 : FVec Ideal S128x64 .f32) (a19 : FVec Ideal S64 .f32)
    (a20 : FVec Ideal S128x1 .f32) (a21 : FVec Ideal S1 .f32) (v13 : IVec S_ 1) (v16 : IVec S64 1) (j : S_.Idx)
    (h : fn_part1 (F := Ideal) a6 a7 a8 a9 a10 a11 a12 a13 a14 a15 a16 a17 a18 a19 a20 a21 v13 v16 j = 1#1) :
    v13 j = 1#1
    ∧ Host.reduce IntOp.andi v16 (constantI S_ 1 1#1) reducesTo_S64_S_d0 h_S_ j = 1#1
    ∧ AllReal a6 ∧ AllReal a7 ∧ AllReal a8
    ∧ AllReal a9 ∧ AllReal a10 ∧ AllReal a11 ∧ AllReal a12 ∧ AllReal a13 ∧ AllReal a14 ∧ AllReal a15
    ∧ AllReal a16 ∧ AllReal a17 ∧ AllReal a18 ∧ AllReal a19 ∧ AllReal a20 ∧ AllReal a21 := by
  dsimp only [fn_part1] at h
  obtain ⟨h, r9, r10, r11, r12, r13, r14, r15, r16, r17, r18, r19, r20, r21⟩ :=
    part2 _ _ _ _ _ _ _ _ _ _ _ _ _ _ j h
  obtain ⟨h, h8⟩ := andi_split _ _ j h
  obtain ⟨h, h7⟩ := andi_split _ _ j h
  obtain ⟨h, h6⟩ := andi_split _ _ j h
  obtain ⟨h13, h5⟩ := andi_split _ _ j h
  exact ⟨h13, h5, allReal_of_reduce reducesTo_S64_S_d0 h_S_ _ bcast_S_S64 a6 _ j h6,
    allReal_of_reduce reducesTo_S64_S_d0 h_S_ _ bcast_S_S64 a7 _ j h7,
    allReal_of_reduce reducesTo_S64x64_S_d0_1 h_S_ _ bcast_S_S64x64 a8 _ j h8,
    r9, r10, r11, r12, r13, r14, r15, r16, r17, r18, r19, r20, r21⟩

/-- The whole predicate: if it is 1, every entry of each of the twenty float arrays is a real number. The head of the
    chain tests the arrays 0, 3, 4 and compares the absolute values of the array 5 with the bound; the two integer
    arrays are not tested. -/
theorem allReal_of_pre (a0 : FVec Ideal S50000x128 .f32) (a1 : IVec S2x800000 32) (a2 : IVec S50000 32)
    (a3 : FVec Ideal S256x64 .f32) (a4 : FVec Ideal S128x64 .f32) (a5 a6 a7 : FVec Ideal S64 .f32)
    (a8 : FVec Ideal S64x64 .f32) (a9 a10 a11 : FVec Ideal S64 .f32) (a12 : FVec Ideal S64x64 .f32)
    (a13 a14 a15 : FVec Ideal S64 .f32) (a16 : FVec Ideal S64x128 .f32) (a17 : FVec Ideal S128 .f32)
    (a18 : FVec Ideal S128x64 .f32) (a19 : FVec Ideal S64 .f32) (a20 : FVec Ideal S128x1 .f32)
    (a21 : FVec Ideal S1 .f32)
    (h : fn (F := Ideal) a0 a1 a2 a3 a4 a5 a6 a7 a8 a9 a10 a11 a12 a13 a14 a15 a16 a17 a18 a19 a20 a21
      = (fun _ => 1#1)) :
    AllReal a0 ∧ AllReal a3 ∧ AllReal a4 ∧ AllReal a5 ∧ AllReal a6 ∧ AllReal a7 ∧ AllReal a8 ∧ AllReal a9
    ∧ AllReal a10 ∧ AllReal a11 ∧ AllReal a12 ∧ AllReal a13 ∧ AllReal a14 ∧ AllReal a15 ∧ AllReal a16
    ∧ AllReal a17 ∧ AllReal a18 ∧ AllReal a19 ∧ AllReal a20 ∧ AllReal a21 := by
  have j : S_.Idx := fun d => d.elim0
  have h := congrFun h j
  dsimp only [fn] at h
  obtain ⟨h, h5, r6, r7, r8, r9, r10, r11, r12, r13, r14, r15, r16, r17, r18, r19, r20, r21⟩ :=
    part1 _ _ _ _ _ _ _ _ _ _ _ _ _ _ _ _ _ _ j h
  obtain ⟨h, h4⟩ := andi_split _ _ j h
  obtain ⟨h0, h3⟩ := andi_split _ _ j h
  exact ⟨allReal_of_reduce reducesTo_S50000x128_S_d0_1 h_S_ _ bcast_S_S50000x128 a0 _ j h0,
    allReal_of_reduce reducesTo_S256x64_S_d0_1 h_S_ _ bcast_S_S256x64 a3 _ j h3,
    allReal_of_reduce reducesTo_S128x64_S_d0_1 h_S_ _ bcast_S_S128x64 a4 _ j h4,
    allReal_of_reduce reducesTo_S64_S_d0 h_S_ _ bcast_S_S64 a5 _ j h5,
    r6, r7, r8, r9, r10, r11, r12, r13, r14, r15, r16, r17, r18, r19, r20, r21⟩

end Cert.Finite

end
-- ==== Proof.Br.Main.lean ====
/-
  The idealized kernel program and the idealized reference compute the same result.

  Both programs are the same three-layer graph network. Stage by stage, the buffers the two programs hold are shown
  equal as arrays of extended reals: the inverse square-root degrees and the index vectors (the same host operations
  on the same edge list); each layer's product with its weight matrix (a kernel tile product against the host's
  dot_general: both the plain sum over the contracted index); each layer's aggregation over the edges (the same host
  operations on equal arrays); each layer's batch normalisation (the kernel's one-pass column statistics against the
  reference's two-pass ones: equal because every entry is a real number, which the finiteness of the inputs gives and
  every stage preserves); the pooled graph embeddings (the same host operations); the two dense layers and the
  output head; and the final reshape.
-/
import proofs.«171894_j11897059410618_1_alg».proof.Defs
import proofs.«171894_j11897059410618_1_alg».proof.Proof.Gen.KernelIdeal
import proofs.«171894_j11897059410618_1_alg».proof.Proof.Gen.ReferenceIdeal
import proofs.«171894_j11897059410618_1_alg».proof.Proof.Gen.Pre_finite_inputs
import proofs.«171894_j11897059410618_1_alg».proof.Proof.KI.Frame
import proofs.«171894_j11897059410618_1_alg».proof.Proof.KI.Keep
import proofs.«171894_j11897059410618_1_alg».proof.Proof.Ref.Run
import proofs.«171894_j11897059410618_1_alg».proof.Proof.Ref.Cut
import proofs.«171894_j11897059410618_1_alg».proof.Proof.Ref.ReadBack
import proofs.«171894_j11897059410618_1_alg».proof.Proof.Br.KChain
import proofs.«171894_j11897059410618_1_alg».proof.Proof.Br.KStages
import proofs.«171894_j11897059410618_1_alg».proof.Proof.Br.RChain
import proofs.«171894_j11897059410618_1_alg».proof.Proof.Br.Congr
import proofs.«171894_j11897059410618_1_alg».proof.Proof.Finite

set_option maxRecDepth 16384

noncomputable section

namespace Cert.Bridge

open Idealize.ShloMosaic Idealize.ShloMosaic.TcCoe Idealize.SL.Sem
open Cert.RealEntries (AllReal)
open Cert.KernelIdeal.Hand Cert.ReferenceIdeal.HandRun

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- From memories that agree on the arguments, the arguments finite, the reference's result array is the kernel
    program's. -/
theorem result_eq
    (hp : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) = (fun _ => 1#1))
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.ReferenceIdeal.HandRun.res m' c = B16 m ρ c (Proc.devRef .tc Cert.KernelIdeal.main_v144) := by
  obtain ⟨ha0, ha3, ha4, ha5, ha6, ha7, ha8, ha9, ha10, ha11, ha12, ha13, ha14, ha15, ha16, ha17, ha18, ha19, ha20, ha21⟩ :=
    Cert.Finite.allReal_of_pre _ _ _ _ _ _ _ _ _ _ _ _ _ _ _ _ _ _ _ _ _ _ hp
  -- the degrees' inverse square roots and the two index vectors
  obtain ⟨Ed, Es, Et⟩ := cg0 (W := B0 m ρ c) (W' := R0 m' c) e1
  -- layer 1: product, aggregation over the edges, normalisation
  have Eh1 : R2 m' c (Proc.devRef .tc Cert.ReferenceIdeal.main_v11) = B2 m ρ c (Proc.devRef .tc Cert.KernelIdeal.main_v11) := by
    rw [rc1 m' c, kc1 m ρ c, e0, e4]
  have EA1 : R3 m' c (Proc.devRef .tc Cert.ReferenceIdeal.main_v44) = B3 m ρ c (Proc.devRef .tc Cert.KernelIdeal.main_v44) :=
    cg1 (W := B2 m ρ c) (W' := R2 m' c) Eh1
      ((R2_main_v10_of_R1 m' c).trans (Ed.trans (B2_main_v10_of_B1 m ρ c).symm))
      ((R2_main_v1_of_R1 m' c).trans (Es.trans (B2_main_v1_of_B1 m ρ c).symm))
      ((R2_main_v3_of_R1 m' c).trans (Et.trans (B2_main_v3_of_B1 m ρ c).symm))
  have hx1 : B5 m ρ c (Proc.devRef .tc Cert.KernelIdeal.main_v49)
      = refBnRelu (B3 m ρ c (Proc.devRef .tc Cert.KernelIdeal.main_v44)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
    ks_x1 m ρ c ha0 ha4 ha5
  have Ex1 : R4 m' c (Proc.devRef .tc Cert.ReferenceIdeal.main_v67) = B5 m ρ c (Proc.devRef .tc Cert.KernelIdeal.main_v49) := by
    rw [rc2 m' c, hx1, EA1, e5, e6, e7]
  -- layer 2 (with the residual)
  have Eh2 : R5 m' c (Proc.devRef .tc Cert.ReferenceIdeal.main_v68) = B6 m ρ c (Proc.devRef .tc Cert.KernelIdeal.main_v50) := by
    rw [rc3 m' c, kc3 m ρ c, Ex1, e8]
  have EA2 : R6 m' c (Proc.devRef .tc Cert.ReferenceIdeal.main_v101) = B7 m ρ c (Proc.devRef .tc Cert.KernelIdeal.main_v83) :=
    cg2 (W := B6 m ρ c) (W' := R5 m' c) Eh2
      ((R5_main_v10_of_R1 m' c).trans (Ed.trans (B6_main_v10_of_B1 m ρ c).symm))
      ((R5_main_v1_of_R1 m' c).trans (Es.trans (B6_main_v1_of_B1 m ρ c).symm))
      ((R5_main_v3_of_R1 m' c).trans (Et.trans (B6_main_v3_of_B1 m ρ c).symm))
  have hx2 : B9 m ρ c (Proc.devRef .tc Cert.KernelIdeal.main_v88)
      = refBnAddRelu (B7 m ρ c (Proc.devRef .tc Cert.KernelIdeal.main_v83)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (B5 m ρ c (Proc.devRef .tc Cert.KernelIdeal.main_v49)) :=
    ks_x2 m ρ c ha0 ha4 ha5 ha6 ha7 ha8 ha9
  have Ex2 : R7 m' c (Proc.devRef .tc Cert.ReferenceIdeal.main_v125) = B9 m ρ c (Proc.devRef .tc Cert.KernelIdeal.main_v88) := by
    rw [rc4 m' c, hx2, EA2, Ex1, e9, e10, e11]
  -- layer 3
  have Eh3 : R8 m' c (Proc.devRef .tc Cert.ReferenceIdeal.main_v126) = B10 m ρ c (Proc.devRef .tc Cert.KernelIdeal.main_v89) := by
    rw [rc5 m' c, kc5 m ρ c, Ex2, e12]
  have EA3 : R9 m' c (Proc.devRef .tc Cert.ReferenceIdeal.main_v159) = B11 m ρ c (Proc.devRef .tc Cert.KernelIdeal.main_v122) :=
    cg3 (W := B10 m ρ c) (W' := R8 m' c) Eh3
      ((R8_main_v10_of_R1 m' c).trans (Ed.trans (B10_main_v10_of_B1 m ρ c).symm))
      ((R8_main_v1_of_R1 m' c).trans (Es.trans (B10_main_v1_of_B1 m ρ c).symm))
      ((R8_main_v3_of_R1 m' c).trans (Et.trans (B10_main_v3_of_B1 m ρ c).symm))
  have hx3 : B13 m ρ c (Proc.devRef .tc Cert.KernelIdeal.main_v127)
      = refBnRelu (B11 m ρ c (Proc.devRef .tc Cert.KernelIdeal.main_v122)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) :=
    ks_x3 m ρ c ha0 ha4 ha5 ha6 ha7 ha8 ha9 ha10 ha11 ha12 ha13
  have Ex3 : R10 m' c (Proc.devRef .tc Cert.ReferenceIdeal.main_v182) = B13 m ρ c (Proc.devRef .tc Cert.KernelIdeal.main_v127) := by
    rw [rc6 m' c, hx3, EA3, e13, e14, e15]
  -- the pooled embeddings, the head, the reshape
  have Ep : R11 m' c (Proc.devRef .tc Cert.ReferenceIdeal.main_v194) = B14 m ρ c (Proc.devRef .tc Cert.KernelIdeal.main_v139) :=
    cg4 (W := B13 m ρ c) (W' := R10 m' c) Ex3 ((R10_main_arg2_of_R0 m' c).trans (e2.trans (B13_main_arg2_of_B0 m ρ c).symm))
  have Ey : R12 m' c (Proc.devRef .tc Cert.ReferenceIdeal.main_v209) = B15 m ρ c (Proc.devRef .tc Cert.KernelIdeal.main_v143) := by
    rw [rc7 m' c, kc7 m ρ c, Ep, e3, e16, e17, e18, e19, e20, e21]
  rw [res_eq, rc8 m' c, kc8 m ρ c, Ey]
  rfl

/-- The claim: from memories that agree on the twenty-two arguments, the arguments finite, both programs run, end with
    the same result array on every core, and leave the arguments unchanged. The kernel program's run ends at its last
    boundary's contents of the result buffer; the reference's run ends at the fold of its operations; the two arrays are
    equal by `result_eq`. -/
theorem algebraic : Cert.algebraic_KernelIdeal_ReferenceIdeal := by
  intro m ρ m' ρ' hpre hagree
  refine ⟨fun c => B16 m ρ c (Proc.devRef .tc Cert.KernelIdeal.main_v144), Cert.KernelIdeal.Hand.run_result m ρ, ?_⟩
  refine (θ_run Cert.ReferenceIdeal.defs _ _).mono (fun r h c => ⟨(h c).1.trans ?_, (h c).2⟩)
    (Cert.ReferenceIdeal.HandRun.run (F := Ideal) m' ρ')
  obtain ⟨e0, e1, e2, e3, e4, e5, e6, e7, e8, e9, e10, e11, e12, e13, e14, e15, e16, e17, e18, e19, e20, e21⟩ := hagree c
  exact result_eq m ρ m' c (hpre c) e0 e1 e2 e3 e4 e5 e6 e7 e8 e9 e10 e11 e12 e13 e14 e15 e16 e17 e18 e19 e20 e21

end Cert.Bridge

end
-- ==== Proof.lean ====
/-
  A three-layer graph convolutional network with batch normalisation, a mean pool over graphs and a small fusion
  head, as a program of ten kernel regions among host operations, against its plain reference.

  The claim has five parts. Each of the three programs terminates without a fault from any memory satisfying the
  precondition and leaves its argument arrays unchanged: for the two kernel programs this is assembled from their ten
  regions (each region's body run at every grid point over the blocks the pipeline stages, the statistics regions
  carrying their two accumulators from point to point), for the reference from the run of its host operations. The
  idealized kernel program differs from the printed one only in reading the f32 word nearest to 1/50000 as that
  rational, at its six sites. And the idealized kernel program and the idealized reference, from memories that agree
  on the arguments, end with the same result array: stage by stage the two compute equal arrays of extended reals,
  the only difference of form being the variance, which the kernel takes as the second moment minus the squared mean
  and the reference as the mean squared deviation; these agree because finite inputs keep every entry a real number.
-/
import proofs.«171894_j11897059410618_1_alg».proof.Defs
import proofs.«171894_j11897059410618_1_alg».proof.Proof.Gen.Kernel
import proofs.«171894_j11897059410618_1_alg».proof.Proof.Gen.KernelIdeal
import proofs.«171894_j11897059410618_1_alg».proof.Proof.Gen.ReferenceIdeal
import proofs.«171894_j11897059410618_1_alg».proof.Proof.Gen.Pre_finite_inputs
import proofs.«171894_j11897059410618_1_alg».proof.Proof.K.Frame
import proofs.«171894_j11897059410618_1_alg».proof.Proof.KI.Frame
import proofs.«171894_j11897059410618_1_alg».proof.Proof.Ref.Run
import proofs.«171894_j11897059410618_1_alg».proof.Proof.Preserves
import proofs.«171894_j11897059410618_1_alg».proof.Proof.Br.Main

noncomputable section

namespace Cert.Proof

open Idealize.ShloMosaic Idealize.SL.Sem

/-- The printed kernel program terminates and keeps its arguments. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, Cert.Proof.Parts.preserves, Cert.Bridge.algebraic⟩

end Cert.Proof

end
